-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S512x512 .f32 .bf16
  ∧ IdealRules.truncf_extf.Statement Cert.KernelIdeal.S512x128 .f32 .bf16
  ∧ IdealRules.truncf_extf.Statement Cert.KernelIdeal.S512x256 .f32 .bf16
  ∧ IdealRules.truncf_extf.Statement Cert.KernelIdeal.S512x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x2 .f32) (main_arg10 : FVec F S2 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg9
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x128 .f32) (main_arg8 : FVec F S128 .f32) (main_arg9 : FVec F S128x2 .f32) (main_arg10 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x512x128 .f32) (main_arg1 : FVec F S128x256 .f32) (main_arg2 : FVec F S256 .f32) (main_arg3 : FVec F S256x256 .f32) (main_arg4 : FVec F S256 .f32) (main_arg5 : FVec F S256x256 .f32) (main_arg6 : FVec F S256 .f32) (main_arg7 : FVec F S256x128 .f32) (main_arg8 : FVec F S128 .f32) (main_arg9 : FVec F S128x2 .f32) (main_arg10 : FVec F S2 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S4x512x128 : Shape := ⟨3, ![4, 512, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x256 : Shape := ⟨2, ![1, 256]⟩
abbrev S1x128 : Shape := ⟨2, ![1, 128]⟩
abbrev S1x2 : Shape := ⟨2, ![1, 2]⟩
abbrev S4x1x2 : Shape := ⟨3, ![4, 1, 2]⟩
abbrev S1x512x128 : Shape := ⟨3, ![1, 512, 128]⟩
abbrev S1x1x2 : Shape := ⟨3, ![1, 1, 2]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S512x256 : Shape := ⟨2, ![512, 256]⟩
abbrev S4x2 : Shape := ⟨2, ![4, 2]⟩

abbrev nBuf : Space → Nat
  | .hbm => 18
  | .vmem => 14
  | .smem => 0
  | _ => 0

abbrev bufTy : (tb : Table) → Fin (tcTables nBuf tb) → BufTy
  | .hbm, ⟨0, _⟩ => ⟨S4x512x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x128, .f32⟩
  | .hbm, ⟨15, _⟩ => ⟨S1x2, .f32⟩
  | .hbm, ⟨16, _⟩ => ⟨S4x1x2, .f32⟩
  | .hbm, ⟨17, _⟩ => ⟨S4x2, .f32⟩
  | .local _ .vmem, ⟨0, _⟩ => ⟨S1x512x128, .f32⟩
  | .local _ .vmem, ⟨1, _⟩ => ⟨S1x512x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x2, .f32⟩
  | .local _ .vmem, ⟨11, _⟩ => ⟨S1x2, .f32⟩
  | .local _ .vmem, ⟨12, _⟩ => ⟨S1x1x2, .f32⟩
  | .local _ .vmem, ⟨13, _⟩ => ⟨S1x1x2, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S256_S1x256 : S256.ShapeCasts S1x256
  shapeCasts_S128_S1x128 : S128.ShapeCasts S1x128
  shapeCasts_S2_S1x2 : S2.ShapeCasts S1x2
  iota_S512x512_d0_w32 : S512x512.Iotas .tc 32 [0]
  iota_S512x512_d1_w32 : S512x512.Iotas .tc 32 [1]
  natLt_1_32 : 1 < 32
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x128_S512 : S512x128.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  bitsLt_bf16_f32 : FTy.bits .bf16 < FTy.bits .f32
  broadcasts_S1x256_S512x256 : S1x256.Broadcasts S512x256
  reduces_S512x256_S256 : S512x256.Reduces [0] S256
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  shapeCasts_S4x1x2_S4x2 : S4x1x2.ShapeCasts S4x2
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  dot_S512x128_S128x256_S512x256_1_0_0_1_n_n_wf : DotDims.WF S512x128 S128x256 S512x256 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  dot_S1x256_S256x128_S1x128_1_0_0_1_n_n_wf : DotDims.WF S1x256 S256x128 S1x128 [1] [0] [0] [1] [] []
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x512x128.size a
  hwx0_0 : ∀ i : grid0.Coords, EltTy.bits .f32 = 32 ∨ (Rect.block (s := S4x512x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2.size a ≤ S128x2.size a
  hwx0_9 : ∀ i : grid0.Coords, EltTy.bits .f32 = 32 ∨ (Rect.block (s := S128x2) S128x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x2.size a ≤ S4x1x2.size a
  hwx0_11 : ∀ i : grid0.Coords, EltTy.bits .f32 = 32 ∨ (Rect.block (s := S4x1x2) S1x1x2.size (cc0_transform_11 i) (hinb0_11 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x1x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩
abbrev S512x512 : Shape := ⟨2, ![512, 512]⟩
abbrev S262144 : Shape := ⟨1, ![262144]⟩
abbrev S130816 : Shape := ⟨1, ![130816]⟩
abbrev S262144x1 : Shape := ⟨2, ![262144, 1]⟩
abbrev S1x512x128 : Shape := ⟨3, ![1, 512, 128]⟩
abbrev S512x128 : Shape := ⟨2, ![512, 128]⟩
abbrev S512x1x128 : Shape := ⟨3, ![512, 1, 128]⟩
abbrev S512x512x128 : Shape := ⟨3, ![512, 512, 128]⟩
abbrev S130816x1 : Shape := ⟨2, ![130816, 1]⟩
abbrev S130816x2 : Shape := ⟨2, ![130816, 2]⟩
abbrev S523264 : Shape := ⟨1, ![523264]⟩
abbrev S4 : Shape := ⟨1, ![4]⟩
abbrev S4x512 : Shape := ⟨2, ![4, 512]⟩
abbrev S2048 : Shape := ⟨1, ![2048]⟩
abbrev S2048x128 : Shape := ⟨2, ![2048, 128]⟩
abbrev S525312 : Shape := ⟨1, ![525312]⟩
abbrev S525312x1 : Shape := ⟨2, ![525312, 1]⟩
abbrev S525312x128 : Shape := ⟨2, ![525312, 128]⟩
abbrev S2048x256 : Shape := ⟨2, ![2048, 256]⟩
abbrev S1x256 : Shape := ⟨2, ![1, 256]⟩
abbrev S525312x256 : Shape := ⟨2, ![525312, 256]⟩
abbrev S4x256 : Shape := ⟨2, ![4, 256]⟩
abbrev S2048x1 : Shape := ⟨2, ![2048, 1]⟩
abbrev S4x1 : Shape := ⟨2, ![4, 1]⟩
abbrev S4x128 : Shape := ⟨2, ![4, 128]⟩
abbrev S1x128 : Shape := ⟨2, ![1, 128]⟩
abbrev S4x2 : Shape := ⟨2, ![4, 2]⟩
abbrev S1x2 : Shape := ⟨2, ![1, 2]⟩

abbrev nBuf : Space → Nat
  | .hbm => 462
  | .vmem => 0
  | .smem => 0
  | _ => 0

abbrev hbmTy0_0 (i : Nat) : BufTy := match i % 128 with
  | 0 => ⟨S4x512x128, .f32⟩
  | 1 => ⟨S128x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x2, .f32⟩
  | 10 => ⟨S2, .f32⟩
  | 11 => ⟨S_, .f32⟩
  | 12 => ⟨S512x512, .f32⟩
  | 13 => ⟨S512x512, .i32⟩
  | 14 => ⟨S_, .i32⟩
  | 15 => ⟨S512x512, .i32⟩
  | 16 => ⟨S512x512, .i32⟩
  | 17 => ⟨S512x512, .i32⟩
  | 18 => ⟨S512x512, .i1⟩
  | 19 => ⟨S_, .f32⟩
  | 20 => ⟨S512x512, .f32⟩
  | 21 => ⟨S512x512, .f32⟩
  | 22 => ⟨S_, .f32⟩
  | 23 => ⟨S512x512, .f32⟩
  | 24 => ⟨S512x512, .i1⟩
  | 25 => ⟨S262144, .i1⟩
  | 26 => ⟨S262144, .i32⟩
  | 27 => ⟨S_, .i32⟩
  | 28 => ⟨S_, .i32⟩
  | 29 => ⟨S262144, .i32⟩
  | 30 => ⟨S_, .i32⟩
  | 31 => ⟨S130816, .i32⟩
  | 32 => ⟨S_, .i32⟩
  | 33 => ⟨S_, .i32⟩
  | 34 => ⟨S262144, .i32⟩
  | 35 => ⟨S262144, .i32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S262144x1, .i32⟩
  | 44 => ⟨S_, .i32⟩
  | 45 => ⟨S262144, .i32⟩
  | 46 => ⟨S130816, .i32⟩
  | 47 => ⟨S_, .i32⟩
  | 48 => ⟨S_, .i32⟩
  | 49 => ⟨S130816, .i32⟩
  | 50 => ⟨S_, .i32⟩
  | 51 => ⟨S130816, .i32⟩
  | 52 => ⟨S130816, .i32⟩
  | 53 => ⟨S130816, .i32⟩
  | 54 => ⟨S_, .i32⟩
  | 55 => ⟨S130816, .i32⟩
  | 56 => ⟨S130816, .i1⟩
  | 57 => ⟨S130816, .i32⟩
  | 58 => ⟨S130816, .i32⟩
  | 59 => ⟨S_, .i32⟩
  | 60 => ⟨S130816, .i32⟩
  | 61 => ⟨S130816, .i1⟩
  | 62 => ⟨S130816, .i1⟩
  | 63 => ⟨S_, .i32⟩
  | 64 => ⟨S130816, .i32⟩
  | 65 => ⟨S130816, .i32⟩
  | 66 => ⟨S130816, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S130816, .i32⟩
  | 74 => ⟨S130816, .i32⟩
  | 75 => ⟨S_, .i32⟩
  | 76 => ⟨S130816, .i32⟩
  | 77 => ⟨S130816, .i1⟩
  | 78 => ⟨S_, .i32⟩
  | 79 => ⟨S130816, .i32⟩
  | 80 => ⟨S130816, .i1⟩
  | 81 => ⟨S_, .i32⟩
  | 82 => ⟨S_, .i1⟩
  | 83 => ⟨S130816, .i1⟩
  | 84 => ⟨S130816, .i1⟩
  | 85 => ⟨S130816, .i1⟩
  | 86 => ⟨S130816, .i32⟩
  | 87 => ⟨S130816, .i32⟩
  | 88 => ⟨S130816, .i32⟩
  | 89 => ⟨S_, .i32⟩
  | 90 => ⟨S130816, .i32⟩
  | 91 => ⟨S130816, .i32⟩
  | 92 => ⟨S130816, .i32⟩
  | 93 => ⟨S_, .i32⟩
  | 94 => ⟨S130816, .i32⟩
  | 95 => ⟨S130816, .i1⟩
  | 96 => ⟨S130816, .i32⟩
  | 97 => ⟨S130816, .i32⟩
  | 98 => ⟨S_, .i32⟩
  | 99 => ⟨S130816, .i32⟩
  | 100 => ⟨S130816, .i1⟩
  | 101 => ⟨S130816, .i1⟩
  | 102 => ⟨S_, .i32⟩
  | 103 => ⟨S130816, .i32⟩
  | 104 => ⟨S130816, .i32⟩
  | 105 => ⟨S130816, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S130816, .i32⟩
  | 113 => ⟨S130816, .i32⟩
  | 114 => ⟨S_, .i32⟩
  | 115 => ⟨S130816, .i32⟩
  | 116 => ⟨S130816, .i1⟩
  | 117 => ⟨S_, .i32⟩
  | 118 => ⟨S130816, .i32⟩
  | 119 => ⟨S130816, .i1⟩
  | 120 => ⟨S_, .i32⟩
  | 121 => ⟨S_, .i1⟩
  | 122 => ⟨S130816, .i1⟩
  | 123 => ⟨S130816, .i1⟩
  | 124 => ⟨S130816, .i1⟩
  | 125 => ⟨S130816, .i32⟩
  | 126 => ⟨S130816, .i32⟩
  | 127 => ⟨S130816, .i32⟩
  | _ => ⟨S4x512x128, .f32⟩

abbrev hbmTy0_1 (i : Nat) : BufTy := match i % 128 with
  | 0 => ⟨S1x512x128, .f32⟩
  | 1 => ⟨S512x128, .f32⟩
  | 2 => ⟨S512x1x128, .f32⟩
  | 3 => ⟨S1x512x128, .f32⟩
  | 4 => ⟨S512x512x128, .f32⟩
  | 5 => ⟨S512x512x128, .f32⟩
  | 6 => ⟨S512x512x128, .f32⟩
  | 7 => ⟨S512x512x128, .f32⟩
  | 8 => ⟨S_, .f32⟩
  | 9 => ⟨S512x512, .f32⟩
  | 10 => ⟨S_, .f32⟩
  | 11 => ⟨S512x512, .f32⟩
  | 12 => ⟨S512x512, .f32⟩
  | 13 => ⟨S512x512, .f32⟩
  | 14 => ⟨S_, .i32⟩
  | 15 => ⟨S130816, .i32⟩
  | 16 => ⟨S130816, .i32⟩
  | 17 => ⟨S_, .i32⟩
  | 18 => ⟨S130816, .i32⟩
  | 19 => ⟨S130816, .i32⟩
  | 20 => ⟨S_, .i32⟩
  | 21 => ⟨S130816, .i32⟩
  | 22 => ⟨S130816, .i1⟩
  | 23 => ⟨S_, .i32⟩
  | 24 => ⟨S130816, .i32⟩
  | 25 => ⟨S130816, .i32⟩
  | 26 => ⟨S130816, .i32⟩
  | 27 => ⟨S_, .i32⟩
  | 28 => ⟨S130816, .i32⟩
  | 29 => ⟨S130816, .i1⟩
  | 30 => ⟨S_, .i32⟩
  | 31 => ⟨S130816, .i32⟩
  | 32 => ⟨S130816, .i32⟩
  | 33 => ⟨S130816, .i32⟩
  | 34 => ⟨S130816x1, .i32⟩
  | 35 => ⟨S130816x1, .i32⟩
  | 36 => ⟨S130816x2, .i32⟩
  | 37 => ⟨S130816, .f32⟩
  | 38 => ⟨S1x512x128, .f32⟩
  | 39 => ⟨S512x128, .f32⟩
  | 40 => ⟨S512x1x128, .f32⟩
  | 41 => ⟨S1x512x128, .f32⟩
  | 42 => ⟨S512x512x128, .f32⟩
  | 43 => ⟨S512x512x128, .f32⟩
  | 44 => ⟨S512x512x128, .f32⟩
  | 45 => ⟨S512x512x128, .f32⟩
  | 46 => ⟨S_, .f32⟩
  | 47 => ⟨S512x512, .f32⟩
  | 48 => ⟨S_, .f32⟩
  | 49 => ⟨S512x512, .f32⟩
  | 50 => ⟨S512x512, .f32⟩
  | 51 => ⟨S512x512, .f32⟩
  | 52 => ⟨S_, .i32⟩
  | 53 => ⟨S130816, .i32⟩
  | 54 => ⟨S130816, .i32⟩
  | 55 => ⟨S_, .i32⟩
  | 56 => ⟨S130816, .i32⟩
  | 57 => ⟨S130816, .i32⟩
  | 58 => ⟨S_, .i32⟩
  | 59 => ⟨S130816, .i32⟩
  | 60 => ⟨S130816, .i1⟩
  | 61 => ⟨S_, .i32⟩
  | 62 => ⟨S130816, .i32⟩
  | 63 => ⟨S130816, .i32⟩
  | 64 => ⟨S130816, .i32⟩
  | 65 => ⟨S_, .i32⟩
  | 66 => ⟨S130816, .i32⟩
  | 67 => ⟨S130816, .i1⟩
  | 68 => ⟨S_, .i32⟩
  | 69 => ⟨S130816, .i32⟩
  | 70 => ⟨S130816, .i32⟩
  | 71 => ⟨S130816, .i32⟩
  | 72 => ⟨S130816x1, .i32⟩
  | 73 => ⟨S130816x1, .i32⟩
  | 74 => ⟨S130816x2, .i32⟩
  | 75 => ⟨S130816, .f32⟩
  | 76 => ⟨S1x512x128, .f32⟩
  | 77 => ⟨S512x128, .f32⟩
  | 78 => ⟨S512x1x128, .f32⟩
  | 79 => ⟨S1x512x128, .f32⟩
  | 80 => ⟨S512x512x128, .f32⟩
  | 81 => ⟨S512x512x128, .f32⟩
  | 82 => ⟨S512x512x128, .f32⟩
  | 83 => ⟨S512x512x128, .f32⟩
  | 84 => ⟨S_, .f32⟩
  | 85 => ⟨S512x512, .f32⟩
  | 86 => ⟨S_, .f32⟩
  | 87 => ⟨S512x512, .f32⟩
  | 88 => ⟨S512x512, .f32⟩
  | 89 => ⟨S512x512, .f32⟩
  | 90 => ⟨S_, .i32⟩
  | 91 => ⟨S130816, .i32⟩
  | 92 => ⟨S130816, .i32⟩
  | 93 => ⟨S_, .i32⟩
  | 94 => ⟨S130816, .i32⟩
  | 95 => ⟨S130816, .i32⟩
  | 96 => ⟨S_, .i32⟩
  | 97 => ⟨S130816, .i32⟩
  | 98 => ⟨S130816, .i1⟩
  | 99 => ⟨S_, .i32⟩
  | 100 => ⟨S130816, .i32⟩
  | 101 => ⟨S130816, .i32⟩
  | 102 => ⟨S130816, .i32⟩
  | 103 => ⟨S_, .i32⟩
  | 104 => ⟨S130816, .i32⟩
  | 105 => ⟨S130816, .i1⟩
  | 106 => ⟨S_, .i32⟩
  | 107 => ⟨S130816, .i32⟩
  | 108 => ⟨S130816, .i32⟩
  | 109 => ⟨S130816, .i32⟩
  | 110 => ⟨S130816x1, .i32⟩
  | 111 => ⟨S130816x1, .i32⟩
  | 112 => ⟨S130816x2, .i32⟩
  | 113 => ⟨S130816, .f32⟩
  | 114 => ⟨S1x512x128, .f32⟩
  | 115 => ⟨S512x128, .f32⟩
  | 116 => ⟨S512x1x128, .f32⟩
  | 117 => ⟨S1x512x128, .f32⟩
  | 118 => ⟨S512x512x128, .f32⟩
  | 119 => ⟨S512x512x128, .f32⟩
  | 120 => ⟨S512x512x128, .f32⟩
  | 121 => ⟨S512x512x128, .f32⟩
  | 122 => ⟨S_, .f32⟩
  | 123 => ⟨S512x512, .f32⟩
  | 124 => ⟨S_, .f32⟩
  | 125 => ⟨S512x512, .f32⟩
  | 126 => ⟨S512x512, .f32⟩
  | 127 => ⟨S512x512, .f32⟩
  | _ => ⟨S4x512x128, .f32⟩

abbrev hbmTy0_2 (i : Nat) : BufTy := match i % 128 with
  | 0 => ⟨S_, .i32⟩
  | 1 => ⟨S130816, .i32⟩
  | 2 => ⟨S130816, .i32⟩
  | 3 => ⟨S_, .i32⟩
  | 4 => ⟨S130816, .i32⟩
  | 5 => ⟨S130816, .i32⟩
  | 6 => ⟨S_, .i32⟩
  | 7 => ⟨S130816, .i32⟩
  | 8 => ⟨S130816, .i1⟩
  | 9 => ⟨S_, .i32⟩
  | 10 => ⟨S130816, .i32⟩
  | 11 => ⟨S130816, .i32⟩
  | 12 => ⟨S130816, .i32⟩
  | 13 => ⟨S_, .i32⟩
  | 14 => ⟨S130816, .i32⟩
  | 15 => ⟨S130816, .i1⟩
  | 16 => ⟨S_, .i32⟩
  | 17 => ⟨S130816, .i32⟩
  | 18 => ⟨S130816, .i32⟩
  | 19 => ⟨S130816, .i32⟩
  | 20 => ⟨S130816x1, .i32⟩
  | 21 => ⟨S130816x1, .i32⟩
  | 22 => ⟨S130816x2, .i32⟩
  | 23 => ⟨S130816, .f32⟩
  | 24 => ⟨S523264, .i32⟩
  | 25 => ⟨S523264, .i32⟩
  | 26 => ⟨S523264, .f32⟩
  | 27 => ⟨S4, .i32⟩
  | 28 => ⟨S4x512, .i32⟩
  | 29 => ⟨S2048, .i32⟩
  | 30 => ⟨S2048x128, .f32⟩
  | 31 => ⟨S2048, .i32⟩
  | 32 => ⟨S525312, .i32⟩
  | 33 => ⟨S525312, .i32⟩
  | 34 => ⟨S_, .f32⟩
  | 35 => ⟨S2048, .f32⟩
  | 36 => ⟨S525312, .f32⟩
  | 37 => ⟨S_, .f32⟩
  | 38 => ⟨S2048, .f32⟩
  | 39 => ⟨S_, .i32⟩
  | 40 => ⟨S525312, .i32⟩
  | 41 => ⟨S525312, .i1⟩
  | 42 => ⟨S_, .i32⟩
  | 43 => ⟨S525312, .i32⟩
  | 44 => ⟨S525312, .i32⟩
  | 45 => ⟨S525312, .i32⟩
  | 46 => ⟨S525312x1, .i32⟩
  | 47 => ⟨S2048, .f32⟩
  | 48 => ⟨S_, .f32⟩
  | 49 => ⟨S2048, .f32⟩
  | 50 => ⟨S2048, .i1⟩
  | 51 => ⟨S_, .f32⟩
  | 52 => ⟨S2048, .f32⟩
  | 53 => ⟨S2048, .f32⟩
  | 54 => ⟨S2048, .f32⟩
  | 55 => ⟨S_, .f32⟩
  | 56 => ⟨S_, .f32⟩
  | 57 => ⟨S2048, .f32⟩
  | 58 => ⟨S2048, .f32⟩
  | 59 => ⟨S_, .i32⟩
  | 60 => ⟨S525312, .i32⟩
  | 61 => ⟨S525312, .i1⟩
  | 62 => ⟨S_, .i32⟩
  | 63 => ⟨S525312, .i32⟩
  | 64 => ⟨S525312, .i32⟩
  | 65 => ⟨S525312, .i32⟩
  | 66 => ⟨S525312x1, .i32⟩
  | 67 => ⟨S525312, .f32⟩
  | 68 => ⟨S525312, .f32⟩
  | 69 => ⟨S_, .i32⟩
  | 70 => ⟨S525312, .i32⟩
  | 71 => ⟨S525312, .i1⟩
  | 72 => ⟨S_, .i32⟩
  | 73 => ⟨S525312, .i32⟩
  | 74 => ⟨S525312, .i32⟩
  | 75 => ⟨S525312, .i32⟩
  | 76 => ⟨S525312x1, .i32⟩
  | 77 => ⟨S525312, .f32⟩
  | 78 => ⟨S525312, .f32⟩
  | 79 => ⟨S_, .f32⟩
  | 80 => ⟨S2048x128, .f32⟩
  | 81 => ⟨S2048x128, .f32⟩
  | 82 => ⟨S_, .i32⟩
  | 83 => ⟨S525312, .i32⟩
  | 84 => ⟨S525312, .i1⟩
  | 85 => ⟨S_, .i32⟩
  | 86 => ⟨S525312, .i32⟩
  | 87 => ⟨S525312, .i32⟩
  | 88 => ⟨S525312, .i32⟩
  | 89 => ⟨S525312x1, .i32⟩
  | 90 => ⟨S525312x128, .f32⟩
  | 91 => ⟨S525312x1, .f32⟩
  | 92 => ⟨S525312x128, .f32⟩
  | 93 => ⟨S525312x128, .f32⟩
  | 94 => ⟨S_, .f32⟩
  | 95 => ⟨S2048x128, .f32⟩
  | 96 => ⟨S_, .i32⟩
  | 97 => ⟨S525312, .i32⟩
  | 98 => ⟨S525312, .i1⟩
  | 99 => ⟨S_, .i32⟩
  | 100 => ⟨S525312, .i32⟩
  | 101 => ⟨S525312, .i32⟩
  | 102 => ⟨S525312, .i32⟩
  | 103 => ⟨S525312x1, .i32⟩
  | 104 => ⟨S2048x128, .f32⟩
  | 105 => ⟨S_, .f32⟩
  | 106 => ⟨S2048x128, .f32⟩
  | 107 => ⟨S2048x128, .f32⟩
  | 108 => ⟨S2048x128, .f32⟩
  | 109 => ⟨S2048x256, .f32⟩
  | 110 => ⟨S1x256, .f32⟩
  | 111 => ⟨S2048x256, .f32⟩
  | 112 => ⟨S2048x256, .f32⟩
  | 113 => ⟨S2048x256, .f32⟩
  | 114 => ⟨S_, .f32⟩
  | 115 => ⟨S2048x256, .f32⟩
  | 116 => ⟨S2048x256, .f32⟩
  | 117 => ⟨S_, .i32⟩
  | 118 => ⟨S525312, .i32⟩
  | 119 => ⟨S525312, .i1⟩
  | 120 => ⟨S_, .i32⟩
  | 121 => ⟨S525312, .i32⟩
  | 122 => ⟨S525312, .i32⟩
  | 123 => ⟨S525312, .i32⟩
  | 124 => ⟨S525312x1, .i32⟩
  | 125 => ⟨S525312x256, .f32⟩
  | 126 => ⟨S525312x1, .f32⟩
  | 127 => ⟨S525312x256, .f32⟩
  | _ => ⟨S4x512x128, .f32⟩

abbrev hbmTy0_3 (i : Nat) : BufTy := match i % 128 with
  | 0 => ⟨S525312x256, .f32⟩
  | 1 => ⟨S_, .f32⟩
  | 2 => ⟨S2048x256, .f32⟩
  | 3 => ⟨S_, .i32⟩
  | 4 => ⟨S525312, .i32⟩
  | 5 => ⟨S525312, .i1⟩
  | 6 => ⟨S_, .i32⟩
  | 7 => ⟨S525312, .i32⟩
  | 8 => ⟨S525312, .i32⟩
  | 9 => ⟨S525312, .i32⟩
  | 10 => ⟨S525312x1, .i32⟩
  | 11 => ⟨S2048x256, .f32⟩
  | 12 => ⟨S_, .f32⟩
  | 13 => ⟨S2048x256, .f32⟩
  | 14 => ⟨S2048x256, .f32⟩
  | 15 => ⟨S2048x256, .f32⟩
  | 16 => ⟨S2048x256, .f32⟩
  | 17 => ⟨S1x256, .f32⟩
  | 18 => ⟨S2048x256, .f32⟩
  | 19 => ⟨S2048x256, .f32⟩
  | 20 => ⟨S2048x256, .f32⟩
  | 21 => ⟨S_, .f32⟩
  | 22 => ⟨S2048x256, .f32⟩
  | 23 => ⟨S2048x256, .f32⟩
  | 24 => ⟨S_, .i32⟩
  | 25 => ⟨S525312, .i32⟩
  | 26 => ⟨S525312, .i1⟩
  | 27 => ⟨S_, .i32⟩
  | 28 => ⟨S525312, .i32⟩
  | 29 => ⟨S525312, .i32⟩
  | 30 => ⟨S525312, .i32⟩
  | 31 => ⟨S525312x1, .i32⟩
  | 32 => ⟨S525312x256, .f32⟩
  | 33 => ⟨S525312x1, .f32⟩
  | 34 => ⟨S525312x256, .f32⟩
  | 35 => ⟨S525312x256, .f32⟩
  | 36 => ⟨S_, .f32⟩
  | 37 => ⟨S2048x256, .f32⟩
  | 38 => ⟨S_, .i32⟩
  | 39 => ⟨S525312, .i32⟩
  | 40 => ⟨S525312, .i1⟩
  | 41 => ⟨S_, .i32⟩
  | 42 => ⟨S525312, .i32⟩
  | 43 => ⟨S525312, .i32⟩
  | 44 => ⟨S525312, .i32⟩
  | 45 => ⟨S525312x1, .i32⟩
  | 46 => ⟨S2048x256, .f32⟩
  | 47 => ⟨S_, .f32⟩
  | 48 => ⟨S2048x256, .f32⟩
  | 49 => ⟨S2048x256, .f32⟩
  | 50 => ⟨S2048x256, .f32⟩
  | 51 => ⟨S2048x256, .f32⟩
  | 52 => ⟨S1x256, .f32⟩
  | 53 => ⟨S2048x256, .f32⟩
  | 54 => ⟨S2048x256, .f32⟩
  | 55 => ⟨S2048x256, .f32⟩
  | 56 => ⟨S_, .f32⟩
  | 57 => ⟨S4x256, .f32⟩
  | 58 => ⟨S2048x1, .i32⟩
  | 59 => ⟨S4x256, .f32⟩
  | 60 => ⟨S_, .f32⟩
  | 61 => ⟨S2048, .f32⟩
  | 62 => ⟨S_, .f32⟩
  | 63 => ⟨S4, .f32⟩
  | 64 => ⟨S2048x1, .i32⟩
  | 65 => ⟨S4, .f32⟩
  | 66 => ⟨S4x1, .f32⟩
  | 67 => ⟨S4x256, .f32⟩
  | 68 => ⟨S4x256, .f32⟩
  | 69 => ⟨S4x128, .f32⟩
  | 70 => ⟨S1x128, .f32⟩
  | 71 => ⟨S4x128, .f32⟩
  | 72 => ⟨S4x128, .f32⟩
  | 73 => ⟨S4x128, .f32⟩
  | 74 => ⟨S4x2, .f32⟩
  | 75 => ⟨S1x2, .f32⟩
  | 76 => ⟨S4x2, .f32⟩
  | 77 => ⟨S4x2, .f32⟩
  | _ => ⟨S4x512x128, .f32⟩

abbrev hbmTy (i : Nat) : BufTy := match i / 128 with
  | 0 => hbmTy0_0 i
  | 1 => hbmTy0_1 i
  | 2 => hbmTy0_2 i
  | 3 => hbmTy0_3 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_call1_v0 : Ref sig .tc := ⟨.hbm, 25, rfl⟩
abbrev main_call1_v1 : Ref sig .tc := ⟨.hbm, 26, rfl⟩
abbrev main_call1_call0_c : Ref sig .tc := ⟨.hbm, 27, rfl⟩
abbrev main_call1_call0_v0 : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_c_1 : Ref sig .tc := ⟨.hbm, 32, rfl⟩
abbrev main_call2_v0 : Ref sig .tc := ⟨.hbm, 33, rfl⟩
abbrev main_call2_v1 : Ref sig .tc := ⟨.hbm, 34, rfl⟩
abbrev main_v6 : Ref sig .tc := ⟨.hbm, 35, rfl⟩
abbrev main_c_2 : Ref sig .tc := ⟨.hbm, 36, rfl⟩
abbrev main_v7 : Ref sig .tc := ⟨.hbm, 37, rfl⟩
abbrev main_v8 : Ref sig .tc := ⟨.hbm, 38, rfl⟩
abbrev main_c_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_c_4 : Ref sig .tc := ⟨.hbm, 44, rfl⟩
abbrev main_v13 : Ref sig .tc := ⟨.hbm, 45, rfl⟩
abbrev main_v14 : Ref sig .tc := ⟨.hbm, 46, rfl⟩
abbrev main_call3_call0_c : Ref sig .tc := ⟨.hbm, 47, rfl⟩
abbrev main_call3_call0_v0 : Ref sig .tc := ⟨.hbm, 48, rfl⟩
abbrev main_v15 : Ref sig .tc := ⟨.hbm, 49, rfl⟩
abbrev main_c_5 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_v6 : Ref sig .tc := ⟨.hbm, 57, rfl⟩
abbrev main_call4_v7 : Ref sig .tc := ⟨.hbm, 58, rfl⟩
abbrev main_call4_c : Ref sig .tc := ⟨.hbm, 59, rfl⟩
abbrev main_call4_v8 : Ref sig .tc := ⟨.hbm, 60, rfl⟩
abbrev main_call4_v9 : Ref sig .tc := ⟨.hbm, 61, rfl⟩
abbrev main_call4_v10 : Ref sig .tc := ⟨.hbm, 62, rfl⟩
abbrev main_call4_c_0 : Ref sig .tc := ⟨.hbm, 63, rfl⟩
abbrev main_call4_v11 : Ref sig .tc := ⟨.hbm, 64, rfl⟩
abbrev main_call4_v12 : Ref sig .tc := ⟨.hbm, 65, rfl⟩
abbrev main_v16 : Ref sig .tc := ⟨.hbm, 66, rfl⟩
abbrev main_c_6 : Ref sig .tc := ⟨.hbm, 67, rfl⟩
abbrev main_call5_v0 : Ref sig .tc := ⟨.hbm, 68, rfl⟩
abbrev main_call5_c : Ref sig .tc := ⟨.hbm, 69, rfl⟩
abbrev main_call5_v1 : Ref sig .tc := ⟨.hbm, 70, rfl⟩
abbrev main_call5_c_0 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_c_1 : Ref sig .tc := ⟨.hbm, 75, rfl⟩
abbrev main_call5_v5 : Ref sig .tc := ⟨.hbm, 76, rfl⟩
abbrev main_call5_v6 : Ref sig .tc := ⟨.hbm, 77, rfl⟩
abbrev main_call5_c_2 : Ref sig .tc := ⟨.hbm, 78, rfl⟩
abbrev main_call5_v7 : Ref sig .tc := ⟨.hbm, 79, rfl⟩
abbrev main_call5_v8 : Ref sig .tc := ⟨.hbm, 80, rfl⟩
abbrev main_call5_c_3 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_v12 : Ref sig .tc := ⟨.hbm, 85, rfl⟩
abbrev main_call5_v13 : Ref sig .tc := ⟨.hbm, 86, rfl⟩
abbrev main_call5_v14 : Ref sig .tc := ⟨.hbm, 87, rfl⟩
abbrev main_v17 : Ref sig .tc := ⟨.hbm, 88, rfl⟩
abbrev main_c_7 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_call6_v5 : Ref sig .tc := ⟨.hbm, 95, rfl⟩
abbrev main_call6_v6 : Ref sig .tc := ⟨.hbm, 96, rfl⟩
abbrev main_call6_v7 : Ref sig .tc := ⟨.hbm, 97, rfl⟩
abbrev main_call6_c : Ref sig .tc := ⟨.hbm, 98, rfl⟩
abbrev main_call6_v8 : Ref sig .tc := ⟨.hbm, 99, rfl⟩
abbrev main_call6_v9 : Ref sig .tc := ⟨.hbm, 100, rfl⟩
abbrev main_call6_v10 : Ref sig .tc := ⟨.hbm, 101, rfl⟩
abbrev main_call6_c_0 : Ref sig .tc := ⟨.hbm, 102, rfl⟩
abbrev main_call6_v11 : Ref sig .tc := ⟨.hbm, 103, rfl⟩
abbrev main_call6_v12 : Ref sig .tc := ⟨.hbm, 104, rfl⟩
abbrev main_v18 : Ref sig .tc := ⟨.hbm, 105, rfl⟩
abbrev main_c_8 : Ref sig .tc := ⟨.hbm, 106, rfl⟩
abbrev main_call7_v0 : Ref sig .tc := ⟨.hbm, 107, rfl⟩
abbrev main_call7_c : Ref sig .tc := ⟨.hbm, 108, rfl⟩
abbrev main_call7_v1 : Ref sig .tc := ⟨.hbm, 109, rfl⟩
abbrev main_call7_c_0 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_c_1 : Ref sig .tc := ⟨.hbm, 114, rfl⟩
abbrev main_call7_v5 : Ref sig .tc := ⟨.hbm, 115, rfl⟩
abbrev main_call7_v6 : Ref sig .tc := ⟨.hbm, 116, rfl⟩
abbrev main_call7_c_2 : Ref sig .tc := ⟨.hbm, 117, rfl⟩
abbrev main_call7_v7 : Ref sig .tc := ⟨.hbm, 118, rfl⟩
abbrev main_call7_v8 : Ref sig .tc := ⟨.hbm, 119, rfl⟩
abbrev main_call7_c_3 : Ref sig .tc := ⟨.hbm, 120, rfl⟩
abbrev main_call7_v9 : Ref sig .tc := ⟨.hbm, 121, rfl⟩
abbrev main_call7_v10 : Ref sig .tc := ⟨.hbm, 122, rfl⟩
abbrev main_call7_v11 : Ref sig .tc := ⟨.hbm, 123, rfl⟩
abbrev main_call7_v12 : Ref sig .tc := ⟨.hbm, 124, rfl⟩
abbrev main_call7_v13 : Ref sig .tc := ⟨.hbm, 125, rfl⟩
abbrev main_call7_v14 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_cst_9 : Ref sig .tc := ⟨.hbm, 136, rfl⟩
abbrev main_v28 : Ref sig .tc := ⟨.hbm, 137, rfl⟩
abbrev main_cst_10 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_c_11 : Ref sig .tc := ⟨.hbm, 142, rfl⟩
abbrev main_v32 : Ref sig .tc := ⟨.hbm, 143, rfl⟩
abbrev main_v33 : Ref sig .tc := ⟨.hbm, 144, rfl⟩
abbrev main_c_12 : Ref sig .tc := ⟨.hbm, 145, rfl⟩
abbrev main_v34 : Ref sig .tc := ⟨.hbm, 146, rfl⟩
abbrev main_v35 : Ref sig .tc := ⟨.hbm, 147, rfl⟩
abbrev main_c_13 : Ref sig .tc := ⟨.hbm, 148, rfl⟩
abbrev main_v36 : Ref sig .tc := ⟨.hbm, 149, rfl⟩
abbrev main_v37 : Ref sig .tc := ⟨.hbm, 150, rfl⟩
abbrev main_c_14 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_c_15 : Ref sig .tc := ⟨.hbm, 155, rfl⟩
abbrev main_v41 : Ref sig .tc := ⟨.hbm, 156, rfl⟩
abbrev main_v42 : Ref sig .tc := ⟨.hbm, 157, rfl⟩
abbrev main_c_16 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_cst_17 : Ref sig .tc := ⟨.hbm, 174, rfl⟩
abbrev main_v58 : Ref sig .tc := ⟨.hbm, 175, rfl⟩
abbrev main_cst_18 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_c_19 : Ref sig .tc := ⟨.hbm, 180, rfl⟩
abbrev main_v62 : Ref sig .tc := ⟨.hbm, 181, rfl⟩
abbrev main_v63 : Ref sig .tc := ⟨.hbm, 182, rfl⟩
abbrev main_c_20 : Ref sig .tc := ⟨.hbm, 183, rfl⟩
abbrev main_v64 : Ref sig .tc := ⟨.hbm, 184, rfl⟩
abbrev main_v65 : Ref sig .tc := ⟨.hbm, 185, rfl⟩
abbrev main_c_21 : Ref sig .tc := ⟨.hbm, 186, rfl⟩
abbrev main_v66 : Ref sig .tc := ⟨.hbm, 187, rfl⟩
abbrev main_v67 : Ref sig .tc := ⟨.hbm, 188, rfl⟩
abbrev main_c_22 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_c_23 : Ref sig .tc := ⟨.hbm, 193, rfl⟩
abbrev main_v71 : Ref sig .tc := ⟨.hbm, 194, rfl⟩
abbrev main_v72 : Ref sig .tc := ⟨.hbm, 195, rfl⟩
abbrev main_c_24 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_cst_25 : Ref sig .tc := ⟨.hbm, 212, rfl⟩
abbrev main_v88 : Ref sig .tc := ⟨.hbm, 213, rfl⟩
abbrev main_cst_26 : Ref sig .tc := ⟨.hbm, 214, rfl⟩
abbrev main_v89 : Ref sig .tc := ⟨.hbm, 215, rfl⟩
abbrev main_v90 : Ref sig .tc := ⟨.hbm, 216, rfl⟩
abbrev main_v91 : Ref sig .tc := ⟨.hbm, 217, rfl⟩
abbrev main_c_27 : Ref sig .tc := ⟨.hbm, 218, rfl⟩
abbrev main_v92 : Ref sig .tc := ⟨.hbm, 219, rfl⟩
abbrev main_v93 : Ref sig .tc := ⟨.hbm, 220, rfl⟩
abbrev main_c_28 : Ref sig .tc := ⟨.hbm, 221, rfl⟩
abbrev main_v94 : Ref sig .tc := ⟨.hbm, 222, rfl⟩
abbrev main_v95 : Ref sig .tc := ⟨.hbm, 223, rfl⟩
abbrev main_c_29 : Ref sig .tc := ⟨.hbm, 224, rfl⟩
abbrev main_v96 : Ref sig .tc := ⟨.hbm, 225, rfl⟩
abbrev main_v97 : Ref sig .tc := ⟨.hbm, 226, rfl⟩
abbrev main_c_30 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_c_31 : Ref sig .tc := ⟨.hbm, 231, rfl⟩
abbrev main_v101 : Ref sig .tc := ⟨.hbm, 232, rfl⟩
abbrev main_v102 : Ref sig .tc := ⟨.hbm, 233, rfl⟩
abbrev main_c_32 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_cst_33 : Ref sig .tc := ⟨.hbm, 250, rfl⟩
abbrev main_v118 : Ref sig .tc := ⟨.hbm, 251, rfl⟩
abbrev main_cst_34 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_c_35 : Ref sig .tc := ⟨.hbm, 256, rfl⟩
abbrev main_v122 : Ref sig .tc := ⟨.hbm, 257, rfl⟩
abbrev main_v123 : Ref sig .tc := ⟨.hbm, 258, rfl⟩
abbrev main_c_36 : Ref sig .tc := ⟨.hbm, 259, rfl⟩
abbrev main_v124 : Ref sig .tc := ⟨.hbm, 260, rfl⟩
abbrev main_v125 : Ref sig .tc := ⟨.hbm, 261, rfl⟩
abbrev main_c_37 : Ref sig .tc := ⟨.hbm, 262, rfl⟩
abbrev main_v126 : Ref sig .tc := ⟨.hbm, 263, rfl⟩
abbrev main_v127 : Ref sig .tc := ⟨.hbm, 264, rfl⟩
abbrev main_c_38 : Ref sig .tc := ⟨.hbm, 265, rfl⟩
abbrev main_v128 : Ref sig .tc := ⟨.hbm, 266, rfl⟩
abbrev main_v129 : Ref sig .tc := ⟨.hbm, 267, rfl⟩
abbrev main_v130 : Ref sig .tc := ⟨.hbm, 268, rfl⟩
abbrev main_c_39 : Ref sig .tc := ⟨.hbm, 269, rfl⟩
abbrev main_v131 : Ref sig .tc := ⟨.hbm, 270, rfl⟩
abbrev main_v132 : Ref sig .tc := ⟨.hbm, 271, rfl⟩
abbrev main_c_40 : Ref sig .tc := ⟨.hbm, 272, rfl⟩
abbrev main_v133 : Ref sig .tc := ⟨.hbm, 273, rfl⟩
abbrev main_v134 : Ref sig .tc := ⟨.hbm, 274, rfl⟩
abbrev main_v135 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_v146 : Ref sig .tc := ⟨.hbm, 286, rfl⟩
abbrev main_v147 : Ref sig .tc := ⟨.hbm, 287, rfl⟩
abbrev main_v148 : Ref sig .tc := ⟨.hbm, 288, rfl⟩
abbrev main_v149 : Ref sig .tc := ⟨.hbm, 289, rfl⟩
abbrev main_cst_41 : Ref sig .tc := ⟨.hbm, 290, rfl⟩
abbrev main_v150 : Ref sig .tc := ⟨.hbm, 291, rfl⟩
abbrev main_v151 : Ref sig .tc := ⟨.hbm, 292, rfl⟩
abbrev main_cst_42 : Ref sig .tc := ⟨.hbm, 293, rfl⟩
abbrev main_v152 : Ref sig .tc := ⟨.hbm, 294, rfl⟩
abbrev main_c_43 : Ref sig .tc := ⟨.hbm, 295, rfl⟩
abbrev main_v153 : Ref sig .tc := ⟨.hbm, 296, rfl⟩
abbrev main_v154 : Ref sig .tc := ⟨.hbm, 297, rfl⟩
abbrev main_c_44 : Ref sig .tc := ⟨.hbm, 298, rfl⟩
abbrev main_v155 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_cst_45 : Ref sig .tc := ⟨.hbm, 304, rfl⟩
abbrev main_v160 : Ref sig .tc := ⟨.hbm, 305, rfl⟩
abbrev main_v161 : Ref sig .tc := ⟨.hbm, 306, rfl⟩
abbrev main_cst_46 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_cst_47 : Ref sig .tc := ⟨.hbm, 311, rfl⟩
abbrev main_call8_v0 : Ref sig .tc := ⟨.hbm, 312, rfl⟩
abbrev main_call8_v1 : Ref sig .tc := ⟨.hbm, 313, rfl⟩
abbrev main_v165 : Ref sig .tc := ⟨.hbm, 314, rfl⟩
abbrev main_c_48 : Ref sig .tc := ⟨.hbm, 315, rfl⟩
abbrev main_v166 : Ref sig .tc := ⟨.hbm, 316, rfl⟩
abbrev main_v167 : Ref sig .tc := ⟨.hbm, 317, rfl⟩
abbrev main_c_49 : Ref sig .tc := ⟨.hbm, 318, rfl⟩
abbrev main_v168 : Ref sig .tc := ⟨.hbm, 319, rfl⟩
abbrev main_v169 : Ref sig .tc := ⟨.hbm, 320, rfl⟩
abbrev main_v170 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_c_50 : Ref sig .tc := ⟨.hbm, 325, rfl⟩
abbrev main_v174 : Ref sig .tc := ⟨.hbm, 326, rfl⟩
abbrev main_v175 : Ref sig .tc := ⟨.hbm, 327, rfl⟩
abbrev main_c_51 : Ref sig .tc := ⟨.hbm, 328, rfl⟩
abbrev main_v176 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_cst_52 : Ref sig .tc := ⟨.hbm, 335, rfl⟩
abbrev main_v182 : Ref sig .tc := ⟨.hbm, 336, rfl⟩
abbrev main_v183 : Ref sig .tc := ⟨.hbm, 337, rfl⟩
abbrev main_c_53 : Ref sig .tc := ⟨.hbm, 338, rfl⟩
abbrev main_v184 : Ref sig .tc := ⟨.hbm, 339, rfl⟩
abbrev main_v185 : Ref sig .tc := ⟨.hbm, 340, rfl⟩
abbrev main_c_54 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_cst_55 : Ref sig .tc := ⟨.hbm, 350, rfl⟩
abbrev main_v194 : Ref sig .tc := ⟨.hbm, 351, rfl⟩
abbrev main_c_56 : Ref sig .tc := ⟨.hbm, 352, rfl⟩
abbrev main_v195 : Ref sig .tc := ⟨.hbm, 353, rfl⟩
abbrev main_v196 : Ref sig .tc := ⟨.hbm, 354, rfl⟩
abbrev main_c_57 : Ref sig .tc := ⟨.hbm, 355, rfl⟩
abbrev main_v197 : Ref sig .tc := ⟨.hbm, 356, rfl⟩
abbrev main_v198 : Ref sig .tc := ⟨.hbm, 357, rfl⟩
abbrev main_v199 : Ref sig .tc := ⟨.hbm, 358, rfl⟩
abbrev main_v200 : Ref sig .tc := ⟨.hbm, 359, rfl⟩
abbrev main_v201 : Ref sig .tc := ⟨.hbm, 360, rfl⟩
abbrev main_cst_58 : Ref sig .tc := ⟨.hbm, 361, rfl⟩
abbrev main_v202 : Ref sig .tc := ⟨.hbm, 362, rfl⟩
abbrev main_v203 : Ref sig .tc := ⟨.hbm, 363, rfl⟩
abbrev main_v204 : Ref sig .tc := ⟨.hbm, 364, rfl⟩
abbrev main_v205 : Ref sig .tc := ⟨.hbm, 365, rfl⟩
abbrev main_v206 : Ref sig .tc := ⟨.hbm, 366, rfl⟩
abbrev main_v207 : Ref sig .tc := ⟨.hbm, 367, rfl⟩
abbrev main_v208 : Ref sig .tc := ⟨.hbm, 368, rfl⟩
abbrev main_v209 : Ref sig .tc := ⟨.hbm, 369, rfl⟩
abbrev main_cst_59 : Ref sig .tc := ⟨.hbm, 370, rfl⟩
abbrev main_v210 : Ref sig .tc := ⟨.hbm, 371, rfl⟩
abbrev main_v211 : Ref sig .tc := ⟨.hbm, 372, rfl⟩
abbrev main_c_60 : Ref sig .tc := ⟨.hbm, 373, rfl⟩
abbrev main_v212 : Ref sig .tc := ⟨.hbm, 374, rfl⟩
abbrev main_v213 : Ref sig .tc := ⟨.hbm, 375, rfl⟩
abbrev main_c_61 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_v217 : Ref sig .tc := ⟨.hbm, 380, rfl⟩
abbrev main_v218 : Ref sig .tc := ⟨.hbm, 381, rfl⟩
abbrev main_v219 : Ref sig .tc := ⟨.hbm, 382, rfl⟩
abbrev main_v220 : Ref sig .tc := ⟨.hbm, 383, rfl⟩
abbrev main_v221 : Ref sig .tc := ⟨.hbm, 384, rfl⟩
abbrev main_cst_62 : Ref sig .tc := ⟨.hbm, 385, rfl⟩
abbrev main_v222 : Ref sig .tc := ⟨.hbm, 386, rfl⟩
abbrev main_c_63 : Ref sig .tc := ⟨.hbm, 387, rfl⟩
abbrev main_v223 : Ref sig .tc := ⟨.hbm, 388, rfl⟩
abbrev main_v224 : Ref sig .tc := ⟨.hbm, 389, rfl⟩
abbrev main_c_64 : Ref sig .tc := ⟨.hbm, 390, rfl⟩
abbrev main_v225 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_v229 : Ref sig .tc := ⟨.hbm, 395, rfl⟩
abbrev main_cst_65 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_v236 : Ref sig .tc := ⟨.hbm, 403, rfl⟩
abbrev main_v237 : Ref sig .tc := ⟨.hbm, 404, rfl⟩
abbrev main_cst_66 : Ref sig .tc := ⟨.hbm, 405, rfl⟩
abbrev main_v238 : Ref sig .tc := ⟨.hbm, 406, rfl⟩
abbrev main_v239 : Ref sig .tc := ⟨.hbm, 407, rfl⟩
abbrev main_c_67 : Ref sig .tc := ⟨.hbm, 408, rfl⟩
abbrev main_v240 : Ref sig .tc := ⟨.hbm, 409, rfl⟩
abbrev main_v241 : Ref sig .tc := ⟨.hbm, 410, rfl⟩
abbrev main_c_68 : Ref sig .tc := ⟨.hbm, 411, rfl⟩
abbrev main_v242 : Ref sig .tc := ⟨.hbm, 412, rfl⟩
abbrev main_v243 : Ref sig .tc := ⟨.hbm, 413, rfl⟩
abbrev main_v244 : Ref sig .tc := ⟨.hbm, 414, rfl⟩
abbrev main_v245 : Ref sig .tc := ⟨.hbm, 415, rfl⟩
abbrev main_v246 : Ref sig .tc := ⟨.hbm, 416, rfl⟩
abbrev main_v247 : Ref sig .tc := ⟨.hbm, 417, rfl⟩
abbrev main_v248 : Ref sig .tc := ⟨.hbm, 418, rfl⟩
abbrev main_v249 : Ref sig .tc := ⟨.hbm, 419, rfl⟩
abbrev main_cst_69 : Ref sig .tc := ⟨.hbm, 420, rfl⟩
abbrev main_v250 : Ref sig .tc := ⟨.hbm, 421, rfl⟩
abbrev main_c_70 : Ref sig .tc := ⟨.hbm, 422, rfl⟩
abbrev main_v251 : Ref sig .tc := ⟨.hbm, 423, rfl⟩
abbrev main_v252 : Ref sig .tc := ⟨.hbm, 424, rfl⟩
abbrev main_c_71 : Ref sig .tc := ⟨.hbm, 425, rfl⟩
abbrev main_v253 : Ref sig .tc := ⟨.hbm, 426, rfl⟩
abbrev main_v254 : Ref sig .tc := ⟨.hbm, 427, rfl⟩
abbrev main_v255 : Ref sig .tc := ⟨.hbm, 428, rfl⟩
abbrev main_v256 : Ref sig .tc := ⟨.hbm, 429, rfl⟩
abbrev main_v257 : Ref sig .tc := ⟨.hbm, 430, rfl⟩
abbrev main_cst_72 : Ref sig .tc := ⟨.hbm, 431, rfl⟩
abbrev main_v258 : Ref sig .tc := ⟨.hbm, 432, rfl⟩
abbrev main_v259 : Ref sig .tc := ⟨.hbm, 433, rfl⟩
abbrev main_v260 : Ref sig .tc := ⟨.hbm, 434, rfl⟩
abbrev main_v261 : Ref sig .tc := ⟨.hbm, 435, rfl⟩
abbrev main_v262 : Ref sig .tc := ⟨.hbm, 436, rfl⟩
abbrev main_v263 : Ref sig .tc := ⟨.hbm, 437, rfl⟩
abbrev main_v264 : Ref sig .tc := ⟨.hbm, 438, rfl⟩
abbrev main_v265 : Ref sig .tc := ⟨.hbm, 439, rfl⟩
abbrev main_cst_73 : Ref sig .tc := ⟨.hbm, 440, rfl⟩
abbrev main_v266 : Ref sig .tc := ⟨.hbm, 441, rfl⟩
abbrev main_v267 : Ref sig .tc := ⟨.hbm, 442, rfl⟩
abbrev main_v268 : Ref sig .tc := ⟨.hbm, 443, rfl⟩
abbrev main_cst_74 : Ref sig .tc := ⟨.hbm, 444, rfl⟩
abbrev main_v269 : Ref sig .tc := ⟨.hbm, 445, rfl⟩
abbrev main_cst_75 : Ref sig .tc := ⟨.hbm, 446, rfl⟩
abbrev main_v270 : Ref sig .tc := ⟨.hbm, 447, rfl⟩
abbrev main_v271 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_v275 : Ref sig .tc := ⟨.hbm, 452, rfl⟩
abbrev main_v276 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_v280 : Ref sig .tc := ⟨.hbm, 457, rfl⟩
abbrev main_v281 : Ref sig .tc := ⟨.hbm, 458, rfl⟩
abbrev main_v282 : Ref sig .tc := ⟨.hbm, 459, rfl⟩
abbrev main_v283 : Ref sig .tc := ⟨.hbm, 460, rfl⟩
abbrev main_v284 : Ref sig .tc := ⟨.hbm, 461, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  slices_S4x512x128_S1x512x128_0_0_0 : S4x512x128.Slices ![0, 0, 0] S1x512x128
  shapeCasts_S1x512x128_S512x128 : S1x512x128.ShapeCasts S512x128
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  reducesTo_S512x512x128_S512x512_d2 : S512x512x128.ReducesTo [2] S512x512
  bcast_S130816_S130816x1_0 : S130816.BroadcastsInDim S130816x1 (![0] : Fin 1 → Fin S130816x1.rank)
  concatenates_S130816x1_S130816x1_S130816x2_d1 : Shape.Concatenates [S130816x1, S130816x1] S130816x2 1
  slices_S4x512x128_S1x512x128_1_0_0 : S4x512x128.Slices ![1, 0, 0] S1x512x128
  slices_S4x512x128_S1x512x128_2_0_0 : S4x512x128.Slices ![2, 0, 0] S1x512x128
  slices_S4x512x128_S1x512x128_3_0_0 : S4x512x128.Slices ![3, 0, 0] S1x512x128
  concatenates_S130816_S130816_S130816_S130816_S523264_d0 : Shape.Concatenates [S130816, S130816, S130816, S130816] S523264 0
  bcast_S4_S4x512_0 : S4.BroadcastsInDim S4x512 (![0] : Fin 1 → Fin S4x512.rank)
  shapeCasts_S4x512_S2048 : S4x512.ShapeCasts S2048
  shapeCasts_S4x512x128_S2048x128 : S4x512x128.ShapeCasts S2048x128
  concatenates_S523264_S2048_S525312_d0 : Shape.Concatenates [S523264, S2048] S525312 0
  bcast_S_S2048 : S_.BroadcastsInDim S2048 (![] : Fin 0 → Fin S2048.rank)
  bcast_S_S525312 : S_.BroadcastsInDim S525312 (![] : Fin 0 → Fin S525312.rank)
  bcast_S525312_S525312x1_0 : S525312.BroadcastsInDim S525312x1 (![0] : Fin 1 → Fin S525312x1.rank)
  bcast_S_S2048x128 : S_.BroadcastsInDim S2048x128 (![] : Fin 0 → Fin S2048x128.rank)
  bcast_S525312x1_S525312x128_0_1 : S525312x1.BroadcastsInDim S525312x128 (![0, 1] : Fin 2 → Fin S525312x128.rank)
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S525312x1_S525312x256_0_1 : S525312x1.BroadcastsInDim S525312x256 (![0, 1] : Fin 2 → Fin S525312x256.rank)
  bcast_S_S4x256 : S_.BroadcastsInDim S4x256 (![] : Fin 0 → Fin S4x256.rank)
  bcast_S2048_S2048x1_0 : S2048.BroadcastsInDim S2048x1 (![0] : Fin 1 → Fin S2048x1.rank)
  bcast_S_S4 : S_.BroadcastsInDim S4 (![] : Fin 0 → Fin S4.rank)
  bcast_S4_S4x1_0 : S4.BroadcastsInDim S4x1 (![0] : Fin 1 → Fin S4x1.rank)
  bcast_S4x1_S4x256_0_1 : S4x1.BroadcastsInDim S4x256 (![0, 1] : Fin 2 → Fin S4x256.rank)
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  bcast_S2_S1x2_1 : S2.BroadcastsInDim S1x2 (![1] : Fin 1 → Fin S1x2.rank)
  bcast_S1x2_S4x2_0_1 : S1x2.BroadcastsInDim S4x2 (![0, 1] : Fin 2 → Fin S4x2.rank)
  scatter_S130816_S262144x1_S262144_n_0_0_1_wf : ScatterDims.WF S130816 S262144x1 S262144 [] [0] [0] 1
  gather_S512x512_S130816x2_S130816_n_01_n_n_01_1_11_wf : GatherDims.WF S512x512 S130816x2 S130816 [] [0, 1] [] [0, 1] [] 1 ![1, 1]
  scatter_S2048_S525312x1_S525312_n_0_0_1_wf : ScatterDims.WF S2048 S525312x1 S525312 [] [0] [0] 1
  gather_S2048_S525312x1_S525312_n_0_n_n_0_1_1_wf : GatherDims.WF S2048 S525312x1 S525312 [] [0] [] [0] [] 1 ![1]
  gather_S2048x128_S525312x1_S525312x128_1_0_n_n_0_1_1128_wf : GatherDims.WF S2048x128 S525312x1 S525312x128 [1] [0] [] [0] [] 1 ![1, 128]
  scatter_S2048x128_S525312x1_S525312x128_1_0_0_1_wf : ScatterDims.WF S2048x128 S525312x1 S525312x128 [1] [0] [0] 1
  dot_S2048x128_S128x256_S2048x256_1_0_0_1_n_n_wf : DotDims.WF S2048x128 S128x256 S2048x256 [1] [0] [0] [1] [] []
  gather_S2048x256_S525312x1_S525312x256_1_0_n_n_0_1_1256_wf : GatherDims.WF S2048x256 S525312x1 S525312x256 [1] [0] [] [0] [] 1 ![1, 256]
  scatter_S2048x256_S525312x1_S525312x256_1_0_0_1_wf : ScatterDims.WF S2048x256 S525312x1 S525312x256 [1] [0] [0] 1
  dot_S2048x256_S256x256_S2048x256_1_0_0_1_n_n_wf : DotDims.WF S2048x256 S256x256 S2048x256 [1] [0] [0] [1] [] []
  scatter_S4x256_S2048x1_S2048x256_1_0_0_1_wf : ScatterDims.WF S4x256 S2048x1 S2048x256 [1] [0] [0] 1
  scatter_S4_S2048x1_S2048_n_0_0_1_wf : ScatterDims.WF S4 S2048x1 S2048 [] [0] [0] 1
  dot_S4x256_S256x128_S4x128_1_0_0_1_n_n_wf : DotDims.WF S4x256 S256x128 S4x128 [1] [0] [0] [1] [] []
  dot_S4x128_S128x2_S4x2_1_0_0_1_n_n_wf : DotDims.WF S4x128 S128x2 S4x2 [1] [0] [0] [1] [] []

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x512_S130816x2_S130816_n_01_n_n_01_1_11 : GatherDims S512x512 S130816x2 S130816 where
  offsetDims := []
  collapsedSliceDims := [0, 1]
  operandBatchingDims := []
  startIndicesBatchingDims := []
  startIndexMap := [0, 1]
  indexVectorDim := 1
  sliceSizes := ![1, 1]
  wf := gather_S512x512_S130816x2_S130816_n_01_n_n_01_1_11_wf
def scatter_S2048_S525312x1_S525312_n_0_0_1 : ScatterDims S2048 S525312x1 S525312 where
  updateWindowDims := []
  insertedWindowDims := [0]
  scatterDimsToOperandDims := [0]
  indexVectorDim := 1
  wf := scatter_S2048_S525312x1_S525312_n_0_0_1_wf
def gather_S2048_S525312x1_S525312_n_0_n_n_0_1_1 : GatherDims S2048 S525312x1 S525312 where
  offsetDims := []
  collapsedSliceDims := [0]
  operandBatchingDims := []
  startIndicesBatchingDims := []
  startIndexMap := [0]
  indexVectorDim := 1
  sliceSizes := ![1]
  wf := gather_S2048_S525312x1_S525312_n_0_n_n_0_1_1_wf
def gather_S2048x128_S525312x1_S525312x128_1_0_n_n_0_1_1128 : GatherDims S2048x128 S525312x1 S525312x128 where
  offsetDims := [1]
  collapsedSliceDims := [0]
  operandBatchingDims := []
  startIndicesBatchingDims := []
  startIndexMap := [0]
  indexVectorDim := 1
  sliceSizes := ![1, 128]
  wf := gather_S2048x128_S525312x1_S525312x128_1_0_n_n_0_1_1128_wf
def scatter_S2048x128_S525312x1_S525312x128_1_0_0_1 : ScatterDims S2048x128 S525312x1 S525312x128 where
  updateWindowDims := [1]
  insertedWindowDims := [0]
  scatterDimsToOperandDims := [0]
  indexVectorDim := 1
  wf := scatter_S2048x128_S525312x1_S525312x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S2048x256_S525312x1_S525312x256_1_0_n_n_0_1_1256 : GatherDims S2048x256 S525312x1 S525312x256 where
  offsetDims := [1]
  collapsedSliceDims := [0]
  operandBatchingDims := []
  startIndicesBatchingDims := []
  startIndexMap := [0]
  indexVectorDim := 1
  sliceSizes := ![1, 256]
  wf := gather_S2048x256_S525312x1_S525312x256_1_0_n_n_0_1_1256_wf
def scatter_S2048x256_S525312x1_S525312x256_1_0_0_1 : ScatterDims S2048x256 S525312x1 S525312x256 where
  updateWindowDims := [1]
  insertedWindowDims := [0]
  scatterDimsToOperandDims := [0]
  indexVectorDim := 1
  wf := scatter_S2048x256_S525312x1_S525312x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S4x256_S2048x1_S2048x256_1_0_0_1 : ScatterDims S4x256 S2048x1 S2048x256 where
  updateWindowDims := [1]
  insertedWindowDims := [0]
  scatterDimsToOperandDims := [0]
  indexVectorDim := 1
  wf := scatter_S4x256_S2048x1_S2048x256_1_0_0_1_wf
def scatter_S4_S2048x1_S2048_n_0_0_1 : ScatterDims S4 S2048x1 S2048 where
  updateWindowDims := []
  insertedWindowDims := [0]
  scatterDimsToOperandDims := [0]
  indexVectorDim := 1
  wf := scatter_S4_S2048x1_S2048_n_0_0_1_wf
def dot_S4x256_S256x128_S4x128_1_0_0_1_n_n : DotDims S4x256 S256x128 S4x128 where
  lhsContracting := [1]
  rhsContracting := [0]
  lhsNonContracting := [0]
  rhsNonContracting := [1]
  lhsBatch := []
  rhsBatch := []
  wf := dot_S4x256_S256x128_S4x128_1_0_0_1_n_n_wf
def dot_S4x128_S128x2_S4x2_1_0_0_1_n_n : DotDims S4x128 S128x2 S4x2 where
  lhsContracting := [1]
  rhsContracting := [0]
  lhsNonContracting := [0]
  rhsNonContracting := [1]
  lhsBatch := []
  rhsBatch := []
  wf := dot_S4x128_S128x2_S4x2_1_0_0_1_n_n_wf

class Facts : Prop extends Facts₀ where

variable [Facts]
-- ==== Proof.KernelSide.lean ====
/- The two kernel programs' frame claims and the idealization's ledger.

   Both kernel programs are one grid-parallel region (one grid point per batch element) between a few host reshapes; their
   frame claims — every weakly fair execution terminates without fault and leaves the eleven argument arrays as they
   were — are the generated frame certificates of the two programs, which hold at any float instance and need nothing of
   the precondition.

   The idealized kernel differs from the kernel in four places, all of one kind: a value narrowed to bf16 and widened back
   to f32 (the "high part" of the three-pass product's operands) is replaced by the value itself. On the extended reals a
   change of float format is the identity, so the replacement is exact there; at the word level the window is the
   rounding through bf16. That is the rule's statement at each of the four shapes. -/
import proofs.«120006_g55027120997065_cont_sun_c4_852_12_alg».proof.Defs
import proofs.«120006_g55027120997065_cont_sun_c4_852_12_alg».proof.Proof.Gen.Kernel.Frame
import proofs.«120006_g55027120997065_cont_sun_c4_852_12_alg».proof.Proof.Gen.KernelIdeal.Frame
import proofs.«120006_g55027120997065_cont_sun_c4_852_12_alg».proof.Proof.Gen.Pre_finite_inputs

noncomputable section

namespace Cert.Proof.KernelSide

open Idealize.ShloMosaic Idealize.SL.Sem

/-- The word-level kernel terminates, faults nowhere and keeps its arguments. -/
theorem frame_kernel : Cert.frame_Kernel := fun m ρ _ => Cert.Kernel.Gen.frame m ρ

/-- So does the idealized kernel, read on the extended reals. -/
theorem frame_kernelIdeal : Cert.frame_KernelIdeal := fun m ρ _ => Cert.KernelIdeal.Gen.frame m ρ

/-- Narrowing to bf16 and widening back is the identity on the extended reals and the bf16 rounding on words, at each
    of the four places the idealization removed it. -/
theorem preserves : Cert.preserves_Kernel_KernelIdeal :=
  ⟨IdealRules.truncf_extf.statement Cert.KernelIdeal.S512x512 .f32 .bf16,
   IdealRules.truncf_extf.statement Cert.KernelIdeal.S512x128 .f32 .bf16,
   IdealRules.truncf_extf.statement Cert.KernelIdeal.S512x256 .f32 .bf16,
   IdealRules.truncf_extf.statement Cert.KernelIdeal.S512x256 .f32 .bf16⟩

end Cert.Proof.KernelSide

end
-- ==== Proof.LibHostLine.lean ====
/- A straight line of host operations, taken in pieces.

General facts about a straight line of host operations on a device, used to treat a long program window by window.

* An operation that "writes past slot n" writes exactly one device buffer, and that buffer's slot index is at least n.
  A line made only of such operations leaves every buffer in a slot below n with the contents it started from: the
  argument arrays of a program sit in the first slots, so this is "the arguments end unchanged".
* What a concatenation of two lines leaves is what the second leaves of what the first leaves.
* The three side conditions a run of a line asks (only device buffers touched, nothing allocated, the writes past a slot)
  hold of a concatenation when they hold of the pieces.
* A line in single-assignment form with ascending slots — each operation writes one buffer, in a slot above every slot
  written before it, and its result depends only on buffers in lower slots — satisfies its own equations at the end: the
  final contents of each operation's result buffer are that operation's function of the FINAL contents of the buffers
  (nothing it reads is written again, and nothing later writes its result). This turns a long line into a system of
  equations between named buffers, one per operation, to be used in any order. -/
import Idealize.ShloMosaic.Lib.StableHlo.Run

noncomputable section

namespace Idealize.ShloMosaic.StableHlo

variable {nD : Nat} {τ : Topo} {sig : RefSig} {Val : EltTy → Type}

/-- The operation writes exactly one device buffer, in a slot of index at least n. -/
def WritesPast (n : ℕ) (op : HloOp τ sig Val) : Prop :=
  ∃ y : Ref sig .tc, op.writes = {Proc.devRef (τ := τ) .tc y} ∧ n ≤ y.idx.val

/-- A line of operations that all write past slot n leaves a buffer in a slot below n as it found it. -/
theorem after_keep_of_writesPast {n : ℕ} {r : Ref sig .tc} (hr : r.idx.val < n) (ops : List (HloOp τ sig Val))
    (V : Valuation τ sig Val) (h : ops.Forall (WritesPast (τ := τ) n)) :
    after ops V (Proc.devRef .tc r) = V (Proc.devRef .tc r) :=
  after_of_forall_not_mem ops V fun op hop hb => by
    obtain ⟨y, hw, hy⟩ := (List.forall_iff_forall_mem.mp h) op hop
    rw [hw, Finset.mem_singleton] at hb
    have : r = y := Proc.devRef_injective _ hb
    subst this
    omega

/-- Two lines one after the other: the second's effect on the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines is one of their concatenation. -/
theorem forall_append_of {p : HloOp τ sig Val → Prop} {l₁ l₂ : List (HloOp τ sig Val)}
    (h₁ : l₁.Forall p) (h₂ : l₂.Forall p) : (l₁ ++ l₂).Forall p :=
  List.forall_iff_forall_mem.mpr fun op hop =>
    (List.mem_append.mp hop).elim (List.forall_iff_forall_mem.mp h₁ op) (List.forall_iff_forall_mem.mp h₂ op)

/-- The operation's result at y depends only on the contents of buffers in slots below y's. -/
def ReadsBelow (op : HloOp τ sig Val) (y : Ref sig .tc) : Prop :=
  ∀ F G : Valuation τ sig Val,
    (∀ r : Ref sig .tc, r.idx.val < y.idx.val → F (Proc.devRef .tc r) = G (Proc.devRef .tc r)) →
    op.result F (Proc.devRef .tc y) = op.result G (Proc.devRef .tc y)

/-- Single assignment with ascending slots, from slot n up to (not including) slot m: each operation writes one buffer, at
    a slot not below n and above all earlier ones, reads only below its own slot, and the last slot written is below m. -/
def AscendingTo : ℕ → List (HloOp τ sig Val) → ℕ → Prop
  | n, [], m => n ≤ m
  | n, op :: ops, m => ∃ y : Ref sig .tc, op.writes = {Proc.devRef (τ := τ) .tc y} ∧ n ≤ y.idx.val ∧ ReadsBelow op y
      ∧ AscendingTo (y.idx.val + 1) ops m

/-- Starting lower is weaker. -/
theorem AscendingTo.mono_start {n k m : ℕ} (hkn : k ≤ n) : ∀ {ops : List (HloOp τ sig Val)},
    AscendingTo n ops m → AscendingTo k ops m
  | [], h => le_trans hkn h
  | _ :: _, ⟨y, hw, hn, hr, hrest⟩ => ⟨y, hw, le_trans hkn hn, hr, hrest⟩

/-- An ascending line writes only at or past its starting slot. -/
theorem AscendingTo.forall_writesPast : ∀ {n m : ℕ} {ops : List (HloOp τ sig Val)}, AscendingTo n ops m →
    ops.Forall (WritesPast (τ := τ) n)
  | _, _, [], _ => List.forall_iff_forall_mem.mpr fun _ h => nomatch h
  | n, m, op :: ops, ⟨y, hw, hn, _, hrest⟩ =>
    List.forall_iff_forall_mem.mpr fun o ho => by
      rcases List.mem_cons.mp ho with rfl | ho'
      · exact ⟨y, hw, hn⟩
      · obtain ⟨z, hz, hzn⟩ := List.forall_iff_forall_mem.mp (AscendingTo.forall_writesPast hrest) o ho'
        exact ⟨z, hz, by omega⟩

/-- Ascending lines join end to start. -/
theorem AscendingTo.append : ∀ {n k m : ℕ} {l₁ l₂ : List (HloOp τ sig Val)}, AscendingTo n l₁ k → AscendingTo k l₂ m →
    AscendingTo n (l₁ ++ l₂) m
  | _, _, _, [], _, h₁, h₂ => AscendingTo.mono_start h₁ h₂
  | _, _, _, _ :: _, _, ⟨y, hw, hn, hr, hrest⟩, h₂ => ⟨y, hw, hn, hr, AscendingTo.append hrest h₂⟩

/-- **An ascending single-assignment line satisfies its own equations at the end.** -/
theorem AscendingTo.fixpoint : ∀ {n m : ℕ} {ops : List (HloOp τ sig Val)}, AscendingTo n ops m → ∀ (V : Valuation τ sig Val),
    ∀ op ∈ ops, ∀ y : Ref sig .tc, op.writes = {Proc.devRef (τ := τ) .tc y} → ReadsBelow op y →
      after ops V (Proc.devRef .tc y) = op.result (after ops V) (Proc.devRef .tc y)
  | _, _, [], _, _, _, ho, _, _, _ => nomatch ho
  | n, m, op₀ :: rest, ⟨y₀, hw₀, hn₀, hr₀, hrest⟩, V, op, ho, y, hw, hr => by
    rcases List.mem_cons.mp ho with rfl | ho'
    · -- the head: nothing later writes its result, and what it reads is below every later write
      have hy : y = y₀ := by
        have : Proc.devRef (τ := τ) .tc y ∈ ({Proc.devRef (τ := τ) .tc y₀} : Finset _) := by
          rw [← hw₀, hw]; exact Finset.mem_singleton_self _
        exact Proc.devRef_injective _ (Finset.mem_singleton.mp this)
      subst hy
      have hpast := AscendingTo.forall_writesPast hrest
      rw [after_cons, after_keep_of_writesPast (Nat.lt_succ_self _) rest _ hpast]
      refine hr _ _ fun r hrlt => ?_
      have h1 : after rest (op.result V) (Proc.devRef .tc r) = op.result V (Proc.devRef .tc r) :=
        after_keep_of_writesPast (by omega) rest _ hpast
      rw [h1]
      refine (op.result_of_not_mem V ?_).symm
      rw [hw₀, Finset.mem_singleton]
      intro he
      have : r = y := Proc.devRef_injective _ he
      subst this
      omega
    · exact AscendingTo.fixpoint hrest (op₀.result V) op ho' y hw hr

/-! The builders of host operations read only their operands. -/

section Builders

variable (x a b c y : Ref sig .tc)

theorem readsBelow_nullary (v : y.ty.Contents Val) (hy) : ReadsBelow (nullary (τ := τ) y v hy) y :=
  fun F G _ => by rw [nullary_result, nullary_result]

theorem readsBelow_unary (f : x.ty.Contents Val → y.ty.Contents Val) (hx hy) (h : x.idx.val < y.idx.val) :
    ReadsBelow (unary (τ := τ) x y f hx hy) y :=
  fun F G hFG => by rw [unary_result, unary_result, hFG x h]

theorem readsBelow_binary (f : a.ty.Contents Val → b.ty.Contents Val → y.ty.Contents Val) (ha hb hy)
    (h₁ : a.idx.val < y.idx.val) (h₂ : b.idx.val < y.idx.val) : ReadsBelow (binary (τ := τ) a b y f ha hb hy) y :=
  fun F G hFG => by rw [binary_result, binary_result, hFG a h₁, hFG b h₂]

theorem readsBelow_ternary (f : c.ty.Contents Val → a.ty.Contents Val → b.ty.Contents Val → y.ty.Contents Val) (hc ha hb hy)
    (h₀ : c.idx.val < y.idx.val) (h₁ : a.idx.val < y.idx.val) (h₂ : b.idx.val < y.idx.val) :
    ReadsBelow (ternary (τ := τ) c a b y f hc ha hb hy) y :=
  fun F G hFG => by rw [ternary_result, ternary_result, hFG c h₀, hFG a h₁, hFG b h₂]

theorem readsBelow_reshape (he hn hx hy) (h : x.idx.val < y.idx.val) :
    ReadsBelow (reshape (τ := τ) (Val := Val) x y he hn hx hy) y :=
  fun F G hFG => by rw [reshape_result, reshape_result, hFG x h]

theorem readsBelow_nary {n : ℕ} (xs : Fin n → Ref sig .tc) (f : ((k : Fin n) → (xs k).ty.Contents Val) → y.ty.Contents Val)
    (hxs hy) (h : ∀ k, (xs k).idx.val < y.idx.val) : ReadsBelow (nary (τ := τ) xs y f hxs hy) y :=
  fun F G hFG => by
    rw [nary_result, nary_result]
    congr 1
    funext k
    exact hFG (xs k) (h k)

end Builders

end Idealize.ShloMosaic.StableHlo

end
-- ==== Proof.RefLine0.lean ====
/- Window 0 of the reference program's host operations as one literal list, in program order, every outlined
    function's operations written at its call over that call's buffers. Beside the list: the window is the list run in
    sequence; every operation touches only device buffers; none allocates; and each writes exactly one buffer, whose slot
    lies beyond the eleven argument slots (so no operation overwrites an argument array). -/
import proofs.«120006_g55027120997065_cont_sun_c4_852_12_alg».proof.Proof.Gen.ReferenceIdeal
import proofs.«120006_g55027120997065_cont_sun_c4_852_12_alg».proof.Proof.LibHostLine
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 146 operations of window 0, in order. -/
abbrev ops0 : List (HloOp τ sig (Elt F)) :=
  [ nullary main_cst (constant S_ .f32 0x3F800000#32),
    unary main_cst main_v0 (broadcastInDim S512x512 ![] bcast_S_S512x512 : (⟨S_, .f32⟩ : BufTy).Contents (Elt F) → (⟨S512x512, .f32⟩ : BufTy).Contents (Elt F)),
    TRef.nullary main_call0.v0 (iotaInDim S512x512 32 0),
    TRef.nullary main_call0.c (constantI S_ 32 0#32),
    TRef.unary main_call0.c main_call0.v1 (broadcastInDim S512x512 ![] bcast_S_S512x512),
    TRef.binary main_call0.v0 main_call0.v1 main_call0.v2 addi,
    TRef.nullary main_call0.v3 (iotaInDim S512x512 32 1),
    TRef.binary main_call0.v2 main_call0.v3 main_call0.v4 (cmpi .sge),
    TRef.nullary main_call0.cst (constant S_ .f32 0x00000000#32),
    TRef.unary main_call0.cst main_call0.v5 (broadcastInDim S512x512 ![] bcast_S_S512x512),
    TRef.ternary main_call0.v4 main_call0.v5 (.of main_v0 : StableHlo.TRef sig ⟨S512x512, .f32⟩) main_call0.v6 select,
    nullary main_cst_0 (constant S_ .f32 0x00000000#32),
    unary main_cst_0 main_v2 (broadcastInDim S512x512 ![] bcast_S_S512x512 : (⟨S_, .f32⟩ : BufTy).Contents (Elt F) → (⟨S512x512, .f32⟩ : BufTy).Contents (Elt F)),
    binary main_v1 main_v2 main_v3 (cmpf .une : (⟨S512x512, .f32⟩ : BufTy).Contents (Elt F) → (⟨S512x512, .f32⟩ : BufTy).Contents (Elt F) → (⟨S512x512, .i1⟩ : BufTy).Contents (Elt F)),
    TRef.reshape (.of main_v3 : StableHlo.TRef sig ⟨S512x512, .i1⟩) main_call1.v0 rfl shapeCasts_S512x512_S262144,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![262144] ![1] ![262143] ![0] x v reduceWindows_S262144_S262144_w262144s1p262143_0 h_S_),
    nullary main_c (constantI S_ 32 0#32),
    unary main_c main_v5 (broadcastInDim S130816 ![] bcast_S_S130816 : (⟨S_, .i32⟩ : BufTy).Contents (Elt F) → (⟨S130816, .i32⟩ : BufTy).Contents (Elt F)),
    nullary main_c_1 (constantI S_ 32 0#32),
    TRef.unary (.of main_c_1 : StableHlo.TRef sig ⟨S_, .i32⟩) main_call2.v0 id,
    TRef.unary main_call2.v0 main_call2.v1 (broadcastInDim S262144 ![] bcast_S_S262144),
    TRef.binary main_call2.v1 (.of main_v4 : StableHlo.TRef sig ⟨S262144, .i32⟩) main_call2.v2 maxsi,
    nullary main_c_2 (constantI S_ 32 0#32),
    unary main_c_2 main_v7 (broadcastInDim S262144 ![] bcast_S_S262144 : (⟨S_, .i32⟩ : BufTy).Contents (Elt F) → (⟨S262144, .i32⟩ : BufTy).Contents (Elt F)),
    binary main_v6 main_v7 main_v8 (cmpi .slt : (⟨S262144, .i32⟩ : BufTy).Contents (Elt F) → (⟨S262144, .i32⟩ : BufTy).Contents (Elt F) → (⟨S262144, .i1⟩ : BufTy).Contents (Elt F)),
    nullary main_c_3 (constantI S_ 32 130816#32),
    unary main_c_3 main_v9 (broadcastInDim S262144 ![] bcast_S_S262144 : (⟨S_, .i32⟩ : BufTy).Contents (Elt F) → (⟨S262144, .i32⟩ : BufTy).Contents (Elt F)),
    binary main_v6 main_v9 main_v10 (addi : (⟨S262144, .i32⟩ : BufTy).Contents (Elt F) → (⟨S262144, .i32⟩ : BufTy).Contents (Elt F) → (⟨S262144, .i32⟩ : BufTy).Contents (Elt F)),
    ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v11 main_v12 (broadcastInDim S262144x1 ![0] bcast_S262144_S262144x1_0 : (⟨S262144, .i32⟩ : BufTy).Contents (Elt F) → (⟨S262144x1, .i32⟩ : BufTy).Contents (Elt F)),
    nullary main_c_4 (constantI S_ 32 1#32),
    unary main_c_4 main_v13 (broadcastInDim S262144 ![] bcast_S_S262144 : (⟨S_, .i32⟩ : BufTy).Contents (Elt F) → (⟨S262144, .i32⟩ : BufTy).Contents (Elt F)),
    ternary main_v5 main_v12 main_v13 main_v14 ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)),
    TRef.nullary main_call3.call0.c (constantI S_ 32 0#32),
    TRef.unary main_call3.call0.c main_call3.call0.v0 (broadcastInDim S_ ![] bcast_S_S_),
    TRef.binary (.of main_v14 : StableHlo.TRef sig ⟨S130816, .i32⟩) main_call3.call0.v0 main_call3.call0.v1 (fun x v => Host.reduceWindow IntOp.addi ![130816] ![1] ![130815] ![0] x v reduceWindows_S130816_S130816_w130816s1p130815_0 h_S_),
    nullary main_c_5 (constantI S_ 32 512#32),
    TRef.unary (.of main_c_5 : StableHlo.TRef sig ⟨S_, .i32⟩) main_call4.v0 (broadcastInDim S130816 ![] bcast_S_S130816),
    TRef.binary (.of main_v15 : StableHlo.TRef sig ⟨S130816, .i32⟩) main_call4.v0 main_call4.v1 Host.divsi,
    TRef.unary (.of main_v15 : StableHlo.TRef sig ⟨S130816, .i32⟩) main_call4.v2 signi,
    TRef.unary (.of main_c_5 : StableHlo.TRef sig ⟨S_, .i32⟩) main_call4.v3 signi,
    TRef.unary main_call4.v3 main_call4.v4 (broadcastInDim S130816 ![] bcast_S_S130816),
    TRef.binary main_call4.v2 main_call4.v4 main_call4.v5 (cmpi .ne),
    TRef.unary (.of main_c_5 : StableHlo.TRef sig ⟨S_, .i32⟩) main_call4.v6 (broadcastInDim S130816 ![] bcast_S_S130816),
    TRef.binary (.of main_v15 : StableHlo.TRef sig ⟨S130816, .i32⟩) main_call4.v6 main_call4.v7 Host.remsi,
    TRef.nullary main_call4.c (constantI S_ 32 0#32),
    TRef.unary main_call4.c main_call4.v8 (broadcastInDim S130816 ![] bcast_S_S130816),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S130816 ![] bcast_S_S130816),
    TRef.binary main_call4.v1 main_call4.v11 main_call4.v12 subi,
    TRef.ternary main_call4.v10 main_call4.v12 main_call4.v1 main_call4.call0.v0 select,
    nullary main_c_6 (constantI S_ 32 512#32),
    TRef.unary (.of main_c_6 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S130816 ![] bcast_S_S130816),
    TRef.binary (.of main_v16 : StableHlo.TRef sig ⟨S130816, .i32⟩) main_call5.v3 main_call5.v4 Host.remsi,
    TRef.nullary main_call5.c_1 (constantI S_ 32 0#32),
    TRef.unary main_call5.c_1 main_call5.v5 (broadcastInDim S130816 ![] bcast_S_S130816),
    TRef.binary main_call5.v4 main_call5.v5 main_call5.v6 (cmpi .ne),
    TRef.nullary main_call5.c_2 (constantI S_ 32 0#32),
    TRef.unary main_call5.c_2 main_call5.v7 (broadcastInDim S130816 ![] bcast_S_S130816),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S130816 ![] bcast_S_S130816),
    TRef.binary main_call5.v8 main_call5.v10 main_call5.v11 (cmpi .ne),
    TRef.binary main_call5.v11 main_call5.v6 main_call5.v12 andi,
    TRef.unary main_call5.call0.v0 main_call5.v13 (broadcastInDim S130816 ![] bcast_S_S130816),
    TRef.binary main_call5.v4 main_call5.v13 main_call5.v14 addi,
    TRef.ternary main_call5.v12 main_call5.v14 main_call5.v4 main_call5.v15 select,
    nullary main_c_7 (constantI S_ 32 1#32),
    TRef.unary (.of main_c_7 : StableHlo.TRef sig ⟨S_, .i32⟩) main_call6.v0 (broadcastInDim S130816 ![] bcast_S_S130816),
    TRef.binary (.of main_v15 : StableHlo.TRef sig ⟨S130816, .i32⟩) main_call6.v0 main_call6.v1 Host.divsi,
    TRef.unary (.of main_v15 : StableHlo.TRef sig ⟨S130816, .i32⟩) main_call6.v2 signi,
    TRef.unary (.of main_c_7 : StableHlo.TRef sig ⟨S_, .i32⟩) main_call6.v3 signi,
    TRef.unary main_call6.v3 main_call6.v4 (broadcastInDim S130816 ![] bcast_S_S130816),
    TRef.binary main_call6.v2 main_call6.v4 main_call6.v5 (cmpi .ne),
    TRef.unary (.of main_c_7 : StableHlo.TRef sig ⟨S_, .i32⟩) main_call6.v6 (broadcastInDim S130816 ![] bcast_S_S130816),
    TRef.binary (.of main_v15 : StableHlo.TRef sig ⟨S130816, .i32⟩) main_call6.v6 main_call6.v7 Host.remsi,
    TRef.nullary main_call6.c (constantI S_ 32 0#32),
    TRef.unary main_call6.c main_call6.v8 (broadcastInDim S130816 ![] bcast_S_S130816),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S130816 ![] bcast_S_S130816),
    TRef.binary main_call6.v1 main_call6.v11 main_call6.v12 subi,
    TRef.ternary main_call6.v10 main_call6.v12 main_call6.v1 main_call6.call0.v0 select,
    nullary main_c_8 (constantI S_ 32 512#32),
    TRef.unary (.of main_c_8 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S130816 ![] bcast_S_S130816),
    TRef.binary (.of main_v18 : StableHlo.TRef sig ⟨S130816, .i32⟩) main_call7.v3 main_call7.v4 Host.remsi,
    TRef.nullary main_call7.c_1 (constantI S_ 32 0#32),
    TRef.unary main_call7.c_1 main_call7.v5 (broadcastInDim S130816 ![] bcast_S_S130816),
    TRef.binary main_call7.v4 main_call7.v5 main_call7.v6 (cmpi .ne),
    TRef.nullary main_call7.c_2 (constantI S_ 32 0#32),
    TRef.unary main_call7.c_2 main_call7.v7 (broadcastInDim S130816 ![] bcast_S_S130816),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S130816 ![] bcast_S_S130816),
    TRef.binary main_call7.v8 main_call7.v10 main_call7.v11 (cmpi .ne),
    TRef.binary main_call7.v11 main_call7.v6 main_call7.v12 andi,
    TRef.unary main_call7.call0.v0 main_call7.v13 (broadcastInDim S130816 ![] bcast_S_S130816),
    TRef.binary main_call7.v4 main_call7.v13 main_call7.v14 addi,
    TRef.ternary main_call7.v12 main_call7.v14 main_call7.v4 main_call7.v15 select,
    unary main_arg0 main_v20 ((extractStridedSlice S1x512x128 ![0, 0, 0] · slices_S4x512x128_S1x512x128_0_0_0) : (⟨S4x512x128, .f32⟩ : BufTy).Contents (Elt F) → (⟨S1x512x128, .f32⟩ : BufTy).Contents (Elt F)),
    reshape main_v20 main_v21 rfl shapeCasts_S1x512x128_S512x128,
    unary main_v21 main_v22 (broadcastInDim S512x1x128 ![0, 2] bcast_S512x128_S512x1x128_0_2 : (⟨S512x128, .f32⟩ : BufTy).Contents (Elt F) → (⟨S512x1x128, .f32⟩ : BufTy).Contents (Elt F)),
    unary main_v21 main_v23 (broadcastInDim S1x512x128 ![1, 2] bcast_S512x128_S1x512x128_1_2 : (⟨S512x128, .f32⟩ : BufTy).Contents (Elt F) → (⟨S1x512x128, .f32⟩ : BufTy).Contents (Elt F)),
    unary main_v22 main_v24 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v23 main_v25 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v24 main_v25 main_v26 (subf : (⟨S512x512x128, .f32⟩ : BufTy).Contents (Elt F) → (⟨S512x512x128, .f32⟩ : BufTy).Contents (Elt F) → (⟨S512x512x128, .f32⟩ : BufTy).Contents (Elt F)),
    binary main_v26 main_v26 main_v27 (mulf : (⟨S512x512x128, .f32⟩ : BufTy).Contents (Elt F) → (⟨S512x512x128, .f32⟩ : BufTy).Contents (Elt F) → (⟨S512x512x128, .f32⟩ : BufTy).Contents (Elt F)),
    nullary main_cst_9 (constant S_ .f32 0x00000000#32),
    binary main_v27 main_cst_9 main_v28 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)),
    nullary main_cst_10 (constant S_ .f32 0x2B8CBCCC#32),
    unary main_cst_10 main_v29 (broadcastInDim S512x512 ![] bcast_S_S512x512 : (⟨S_, .f32⟩ : BufTy).Contents (Elt F) → (⟨S512x512, .f32⟩ : BufTy).Contents (Elt F)),
    binary main_v28 main_v29 main_v30 (maximumf : (⟨S512x512, .f32⟩ : BufTy).Contents (Elt F) → (⟨S512x512, .f32⟩ : BufTy).Contents (Elt F) → (⟨S512x512, .f32⟩ : BufTy).Contents (Elt F)),
    unary main_v30 main_v31 (Host.sqrt : (⟨S512x512, .f32⟩ : BufTy).Contents (Elt F) → (⟨S512x512, .f32⟩ : BufTy).Contents (Elt F)),
    nullary main_c_11 (constantI S_ 32 0#32),
    unary main_c_11 main_v32 (broadcastInDim S130816 ![] bcast_S_S130816 : (⟨S_, .i32⟩ : BufTy).Contents (Elt F) → (⟨S130816, .i32⟩ : BufTy).Contents (Elt F)),
    binary main_v17 main_v32 main_v33 (addi : (⟨S130816, .i32⟩ : BufTy).Contents (Elt F) → (⟨S130816, .i32⟩ : BufTy).Contents (Elt F) → (⟨S130816, .i32⟩ : BufTy).Contents (Elt F)),
    nullary main_c_12 (constantI S_ 32 0#32),
    unary main_c_12 main_v34 (broadcastInDim S130816 ![] bcast_S_S130816 : (⟨S_, .i32⟩ : BufTy).Contents (Elt F) → (⟨S130816, .i32⟩ : BufTy).Contents (Elt F)),
    binary main_v19 main_v34 main_v35 (addi : (⟨S130816, .i32⟩ : BufTy).Contents (Elt F) → (⟨S130816, .i32⟩ : BufTy).Contents (Elt F) → (⟨S130816, .i32⟩ : BufTy).Contents (Elt F)),
    nullary main_c_13 (constantI S_ 32 0#32),
    unary main_c_13 main_v36 (broadcastInDim S130816 ![] bcast_S_S130816 : (⟨S_, .i32⟩ : BufTy).Contents (Elt F) → (⟨S130816, .i32⟩ : BufTy).Contents (Elt F)),
    binary main_v17 main_v36 main_v37 (cmpi .slt : (⟨S130816, .i32⟩ : BufTy).Contents (Elt F) → (⟨S130816, .i32⟩ : BufTy).Contents (Elt F) → (⟨S130816, .i1⟩ : BufTy).Contents (Elt F)),
    nullary main_c_14 (constantI S_ 32 512#32),
    unary main_c_14 main_v38 (broadcastInDim S130816 ![] bcast_S_S130816 : (⟨S_, .i32⟩ : BufTy).Contents (Elt F) → (⟨S130816, .i32⟩ : BufTy).Contents (Elt F)),
    binary main_v17 main_v38 main_v39 (addi : (⟨S130816, .i32⟩ : BufTy).Contents (Elt F) → (⟨S130816, .i32⟩ : BufTy).Contents (Elt F) → (⟨S130816, .i32⟩ : BufTy).Contents (Elt F)),
    ternary main_v37 main_v39 main_v17 main_v40 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    nullary main_c_15 (constantI S_ 32 0#32),
    unary main_c_15 main_v41 (broadcastInDim S130816 ![] bcast_S_S130816 : (⟨S_, .i32⟩ : BufTy).Contents (Elt F) → (⟨S130816, .i32⟩ : BufTy).Contents (Elt F)) ]

/-- The window is its operations run one after the other (each call replaced by its callee's operations). -/
theorem part0_eq (d : Dev nD) : main_part0 (F := F) d = seq ops0 := by
  simp only [main_part0, fn_triu.body, fn_cumsum_0.body, fn_cumsum.body, fn_clip.body, fn_cumsum_2.body, fn_cumsum_1.body, fn_where.body, fn_floor_divide.body, fn_where_3.body, fn_remainder.body, fn_where_4.body, seq, bind_assoc, pure_bind]
  rfl

/-- Every operation of the window touches only device buffers. -/
theorem ops0_sub : (ops0 : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩

/-- No operation of the window allocates. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the window writes one buffer, in a slot past the arguments'. -/
theorem ops0_high : (ops0 : List (HloOp τ sig (Elt F))).Forall (WritesPast (τ := τ) 11) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The window is in single-assignment form with ascending slots, from slot 11 up to slot 157: each operation writes
    one new buffer, above all written before, and reads only buffers below it. -/
theorem ops0_asc : AscendingTo (τ := τ) 11 (ops0 : List (HloOp τ sig (Elt F))) 157 :=
  ⟨_, rfl, by decide, readsBelow_nullary _ _ _,
    ⟨_, rfl, by decide, readsBelow_unary _ _ _ _ _ (by decide),
    ⟨_, rfl, by decide, readsBelow_nullary _ _ _,
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_reshape _ _ _ _ _ _ (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_binary _ _ _ _ _ _ _ (by decide) (by decide),
    ⟨_, rfl, by decide, readsBelow_nullary _ _ _,
    ⟨_, rfl, by decide, readsBelow_ternary _ _ _ _ _ _ _ _ _ (by decide) (by decide) (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_binary _ _ _ _ _ _ _ (by decide) (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_binary _ _ _ _ _ _ _ (by decide) (by decide),
    ⟨_, rfl, by decide, readsBelow_nullary _ _ _,
    ⟨_, rfl, by decide, readsBelow_ternary _ _ _ _ _ _ _ _ _ (by decide) (by decide) (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_binary _ _ _ _ _ _ _ (by decide) (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_reshape _ _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    (by decide : 157 ≤ 157)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.ReferenceIdeal.Line

end
-- ==== Proof.RefLine1.lean ====
/- Window 1 of the reference program's host operations as one literal list, in program order, every outlined
    function's operations written at its call over that call's buffers. Beside the list: the window is the list run in
    sequence; every operation touches only device buffers; none allocates; and each writes exactly one buffer, whose slot
    lies beyond the eleven argument slots (so no operation overwrites an argument array). -/
import proofs.«120006_g55027120997065_cont_sun_c4_852_12_alg».proof.Proof.Gen.ReferenceIdeal
import proofs.«120006_g55027120997065_cont_sun_c4_852_12_alg».proof.Proof.LibHostLine
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 1, in order. -/
abbrev ops1 : List (HloOp τ sig (Elt F)) :=
  [ binary main_v19 main_v41 main_v42 (cmpi .slt : (⟨S130816, .i32⟩ : BufTy).Contents (Elt F) → (⟨S130816, .i32⟩ : BufTy).Contents (Elt F) → (⟨S130816, .i1⟩ : BufTy).Contents (Elt F)),
    nullary main_c_16 (constantI S_ 32 512#32),
    unary main_c_16 main_v43 (broadcastInDim S130816 ![] bcast_S_S130816 : (⟨S_, .i32⟩ : BufTy).Contents (Elt F) → (⟨S130816, .i32⟩ : BufTy).Contents (Elt F)),
    binary main_v19 main_v43 main_v44 (addi : (⟨S130816, .i32⟩ : BufTy).Contents (Elt F) → (⟨S130816, .i32⟩ : BufTy).Contents (Elt F) → (⟨S130816, .i32⟩ : BufTy).Contents (Elt F)),
    ternary main_v42 main_v44 main_v19 main_v45 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    unary main_v40 main_v46 (broadcastInDim S130816x1 ![0] bcast_S130816_S130816x1_0 : (⟨S130816, .i32⟩ : BufTy).Contents (Elt F) → (⟨S130816x1, .i32⟩ : BufTy).Contents (Elt F)),
    unary main_v45 main_v47 (broadcastInDim S130816x1 ![0] bcast_S130816_S130816x1_0 : (⟨S130816, .i32⟩ : BufTy).Contents (Elt F) → (⟨S130816x1, .i32⟩ : BufTy).Contents (Elt F)),
    binary main_v46 main_v47 main_v48 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)),
    binary main_v31 main_v48 main_v49 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)),
    unary main_arg0 main_v50 ((extractStridedSlice S1x512x128 ![1, 0, 0] · slices_S4x512x128_S1x512x128_1_0_0) : (⟨S4x512x128, .f32⟩ : BufTy).Contents (Elt F) → (⟨S1x512x128, .f32⟩ : BufTy).Contents (Elt F)),
    reshape main_v50 main_v51 rfl shapeCasts_S1x512x128_S512x128,
    unary main_v51 main_v52 (broadcastInDim S512x1x128 ![0, 2] bcast_S512x128_S512x1x128_0_2 : (⟨S512x128, .f32⟩ : BufTy).Contents (Elt F) → (⟨S512x1x128, .f32⟩ : BufTy).Contents (Elt F)),
    unary main_v51 main_v53 (broadcastInDim S1x512x128 ![1, 2] bcast_S512x128_S1x512x128_1_2 : (⟨S512x128, .f32⟩ : BufTy).Contents (Elt F) → (⟨S1x512x128, .f32⟩ : BufTy).Contents (Elt F)),
    unary main_v52 main_v54 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v53 main_v55 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v54 main_v55 main_v56 (subf : (⟨S512x512x128, .f32⟩ : BufTy).Contents (Elt F) → (⟨S512x512x128, .f32⟩ : BufTy).Contents (Elt F) → (⟨S512x512x128, .f32⟩ : BufTy).Contents (Elt F)),
    binary main_v56 main_v56 main_v57 (mulf : (⟨S512x512x128, .f32⟩ : BufTy).Contents (Elt F) → (⟨S512x512x128, .f32⟩ : BufTy).Contents (Elt F) → (⟨S512x512x128, .f32⟩ : BufTy).Contents (Elt F)),
    nullary main_cst_17 (constant S_ .f32 0x00000000#32),
    binary main_v57 main_cst_17 main_v58 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)),
    nullary main_cst_18 (constant S_ .f32 0x2B8CBCCC#32),
    unary main_cst_18 main_v59 (broadcastInDim S512x512 ![] bcast_S_S512x512 : (⟨S_, .f32⟩ : BufTy).Contents (Elt F) → (⟨S512x512, .f32⟩ : BufTy).Contents (Elt F)),
    binary main_v58 main_v59 main_v60 (maximumf : (⟨S512x512, .f32⟩ : BufTy).Contents (Elt F) → (⟨S512x512, .f32⟩ : BufTy).Contents (Elt F) → (⟨S512x512, .f32⟩ : BufTy).Contents (Elt F)),
    unary main_v60 main_v61 (Host.sqrt : (⟨S512x512, .f32⟩ : BufTy).Contents (Elt F) → (⟨S512x512, .f32⟩ : BufTy).Contents (Elt F)),
    nullary main_c_19 (constantI S_ 32 512#32),
    unary main_c_19 main_v62 (broadcastInDim S130816 ![] bcast_S_S130816 : (⟨S_, .i32⟩ : BufTy).Contents (Elt F) → (⟨S130816, .i32⟩ : BufTy).Contents (Elt F)),
    binary main_v17 main_v62 main_v63 (addi : (⟨S130816, .i32⟩ : BufTy).Contents (Elt F) → (⟨S130816, .i32⟩ : BufTy).Contents (Elt F) → (⟨S130816, .i32⟩ : BufTy).Contents (Elt F)),
    nullary main_c_20 (constantI S_ 32 512#32),
    unary main_c_20 main_v64 (broadcastInDim S130816 ![] bcast_S_S130816 : (⟨S_, .i32⟩ : BufTy).Contents (Elt F) → (⟨S130816, .i32⟩ : BufTy).Contents (Elt F)),
    binary main_v19 main_v64 main_v65 (addi : (⟨S130816, .i32⟩ : BufTy).Contents (Elt F) → (⟨S130816, .i32⟩ : BufTy).Contents (Elt F) → (⟨S130816, .i32⟩ : BufTy).Contents (Elt F)),
    nullary main_c_21 (constantI S_ 32 0#32),
    unary main_c_21 main_v66 (broadcastInDim S130816 ![] bcast_S_S130816 : (⟨S_, .i32⟩ : BufTy).Contents (Elt F) → (⟨S130816, .i32⟩ : BufTy).Contents (Elt F)),
    binary main_v17 main_v66 main_v67 (cmpi .slt : (⟨S130816, .i32⟩ : BufTy).Contents (Elt F) → (⟨S130816, .i32⟩ : BufTy).Contents (Elt F) → (⟨S130816, .i1⟩ : BufTy).Contents (Elt F)),
    nullary main_c_22 (constantI S_ 32 512#32),
    unary main_c_22 main_v68 (broadcastInDim S130816 ![] bcast_S_S130816 : (⟨S_, .i32⟩ : BufTy).Contents (Elt F) → (⟨S130816, .i32⟩ : BufTy).Contents (Elt F)),
    binary main_v17 main_v68 main_v69 (addi : (⟨S130816, .i32⟩ : BufTy).Contents (Elt F) → (⟨S130816, .i32⟩ : BufTy).Contents (Elt F) → (⟨S130816, .i32⟩ : BufTy).Contents (Elt F)),
    ternary main_v67 main_v69 main_v17 main_v70 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    nullary main_c_23 (constantI S_ 32 0#32),
    unary main_c_23 main_v71 (broadcastInDim S130816 ![] bcast_S_S130816 : (⟨S_, .i32⟩ : BufTy).Contents (Elt F) → (⟨S130816, .i32⟩ : BufTy).Contents (Elt F)),
    binary main_v19 main_v71 main_v72 (cmpi .slt : (⟨S130816, .i32⟩ : BufTy).Contents (Elt F) → (⟨S130816, .i32⟩ : BufTy).Contents (Elt F) → (⟨S130816, .i1⟩ : BufTy).Contents (Elt F)),
    nullary main_c_24 (constantI S_ 32 512#32),
    unary main_c_24 main_v73 (broadcastInDim S130816 ![] bcast_S_S130816 : (⟨S_, .i32⟩ : BufTy).Contents (Elt F) → (⟨S130816, .i32⟩ : BufTy).Contents (Elt F)),
    binary main_v19 main_v73 main_v74 (addi : (⟨S130816, .i32⟩ : BufTy).Contents (Elt F) → (⟨S130816, .i32⟩ : BufTy).Contents (Elt F) → (⟨S130816, .i32⟩ : BufTy).Contents (Elt F)),
    ternary main_v72 main_v74 main_v19 main_v75 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    unary main_v70 main_v76 (broadcastInDim S130816x1 ![0] bcast_S130816_S130816x1_0 : (⟨S130816, .i32⟩ : BufTy).Contents (Elt F) → (⟨S130816x1, .i32⟩ : BufTy).Contents (Elt F)),
    unary main_v75 main_v77 (broadcastInDim S130816x1 ![0] bcast_S130816_S130816x1_0 : (⟨S130816, .i32⟩ : BufTy).Contents (Elt F) → (⟨S130816x1, .i32⟩ : BufTy).Contents (Elt F)),
    binary main_v76 main_v77 main_v78 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)),
    binary main_v61 main_v78 main_v79 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)),
    unary main_arg0 main_v80 ((extractStridedSlice S1x512x128 ![2, 0, 0] · slices_S4x512x128_S1x512x128_2_0_0) : (⟨S4x512x128, .f32⟩ : BufTy).Contents (Elt F) → (⟨S1x512x128, .f32⟩ : BufTy).Contents (Elt F)),
    reshape main_v80 main_v81 rfl shapeCasts_S1x512x128_S512x128,
    unary main_v81 main_v82 (broadcastInDim S512x1x128 ![0, 2] bcast_S512x128_S512x1x128_0_2 : (⟨S512x128, .f32⟩ : BufTy).Contents (Elt F) → (⟨S512x1x128, .f32⟩ : BufTy).Contents (Elt F)),
    unary main_v81 main_v83 (broadcastInDim S1x512x128 ![1, 2] bcast_S512x128_S1x512x128_1_2 : (⟨S512x128, .f32⟩ : BufTy).Contents (Elt F) → (⟨S1x512x128, .f32⟩ : BufTy).Contents (Elt F)),
    unary main_v82 main_v84 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v83 main_v85 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v84 main_v85 main_v86 (subf : (⟨S512x512x128, .f32⟩ : BufTy).Contents (Elt F) → (⟨S512x512x128, .f32⟩ : BufTy).Contents (Elt F) → (⟨S512x512x128, .f32⟩ : BufTy).Contents (Elt F)),
    binary main_v86 main_v86 main_v87 (mulf : (⟨S512x512x128, .f32⟩ : BufTy).Contents (Elt F) → (⟨S512x512x128, .f32⟩ : BufTy).Contents (Elt F) → (⟨S512x512x128, .f32⟩ : BufTy).Contents (Elt F)),
    nullary main_cst_25 (constant S_ .f32 0x00000000#32),
    binary main_v87 main_cst_25 main_v88 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)),
    nullary main_cst_26 (constant S_ .f32 0x2B8CBCCC#32),
    unary main_cst_26 main_v89 (broadcastInDim S512x512 ![] bcast_S_S512x512 : (⟨S_, .f32⟩ : BufTy).Contents (Elt F) → (⟨S512x512, .f32⟩ : BufTy).Contents (Elt F)),
    binary main_v88 main_v89 main_v90 (maximumf : (⟨S512x512, .f32⟩ : BufTy).Contents (Elt F) → (⟨S512x512, .f32⟩ : BufTy).Contents (Elt F) → (⟨S512x512, .f32⟩ : BufTy).Contents (Elt F)) ]

/-- The window is its operations run one after the other (each call replaced by its callee's operations). -/
theorem part1_eq (d : Dev nD) : main_part1 (F := F) d = seq ops1 := by
  simp only [main_part1, fn_triu.body, fn_cumsum_0.body, fn_cumsum.body, fn_clip.body, fn_cumsum_2.body, fn_cumsum_1.body, fn_where.body, fn_floor_divide.body, fn_where_3.body, fn_remainder.body, fn_where_4.body, seq, bind_assoc, pure_bind]
  rfl

/-- Every operation of the window touches only device buffers. -/
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub ..⟩

/-- No operation of the window allocates. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the window writes one buffer, in a slot past the arguments'. -/
theorem ops1_high : (ops1 : List (HloOp τ sig (Elt F))).Forall (WritesPast (τ := τ) 11) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The window is in single-assignment form with ascending slots, from slot 157 up to slot 217: each operation writes
    one new buffer, above all written before, and reads only buffers below it. -/
theorem ops1_asc : AscendingTo (τ := τ) 157 (ops1 : List (HloOp τ sig (Elt F))) 217 :=
  ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_reshape _ _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_reshape _ _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    (by decide : 217 ≤ 217)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.ReferenceIdeal.Line

end
-- ==== Proof.RefLine2.lean ====
/- Window 2 of the reference program's host operations as one literal list, in program order, every outlined
    function's operations written at its call over that call's buffers. Beside the list: the window is the list run in
    sequence; every operation touches only device buffers; none allocates; and each writes exactly one buffer, whose slot
    lies beyond the eleven argument slots (so no operation overwrites an argument array). -/
import proofs.«120006_g55027120997065_cont_sun_c4_852_12_alg».proof.Proof.Gen.ReferenceIdeal
import proofs.«120006_g55027120997065_cont_sun_c4_852_12_alg».proof.Proof.LibHostLine
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 2, in order. -/
abbrev ops2 : List (HloOp τ sig (Elt F)) :=
  [ unary main_v90 main_v91 (Host.sqrt : (⟨S512x512, .f32⟩ : BufTy).Contents (Elt F) → (⟨S512x512, .f32⟩ : BufTy).Contents (Elt F)),
    nullary main_c_27 (constantI S_ 32 1024#32),
    unary main_c_27 main_v92 (broadcastInDim S130816 ![] bcast_S_S130816 : (⟨S_, .i32⟩ : BufTy).Contents (Elt F) → (⟨S130816, .i32⟩ : BufTy).Contents (Elt F)),
    binary main_v17 main_v92 main_v93 (addi : (⟨S130816, .i32⟩ : BufTy).Contents (Elt F) → (⟨S130816, .i32⟩ : BufTy).Contents (Elt F) → (⟨S130816, .i32⟩ : BufTy).Contents (Elt F)),
    nullary main_c_28 (constantI S_ 32 1024#32),
    unary main_c_28 main_v94 (broadcastInDim S130816 ![] bcast_S_S130816 : (⟨S_, .i32⟩ : BufTy).Contents (Elt F) → (⟨S130816, .i32⟩ : BufTy).Contents (Elt F)),
    binary main_v19 main_v94 main_v95 (addi : (⟨S130816, .i32⟩ : BufTy).Contents (Elt F) → (⟨S130816, .i32⟩ : BufTy).Contents (Elt F) → (⟨S130816, .i32⟩ : BufTy).Contents (Elt F)),
    nullary main_c_29 (constantI S_ 32 0#32),
    unary main_c_29 main_v96 (broadcastInDim S130816 ![] bcast_S_S130816 : (⟨S_, .i32⟩ : BufTy).Contents (Elt F) → (⟨S130816, .i32⟩ : BufTy).Contents (Elt F)),
    binary main_v17 main_v96 main_v97 (cmpi .slt : (⟨S130816, .i32⟩ : BufTy).Contents (Elt F) → (⟨S130816, .i32⟩ : BufTy).Contents (Elt F) → (⟨S130816, .i1⟩ : BufTy).Contents (Elt F)),
    nullary main_c_30 (constantI S_ 32 512#32),
    unary main_c_30 main_v98 (broadcastInDim S130816 ![] bcast_S_S130816 : (⟨S_, .i32⟩ : BufTy).Contents (Elt F) → (⟨S130816, .i32⟩ : BufTy).Contents (Elt F)),
    binary main_v17 main_v98 main_v99 (addi : (⟨S130816, .i32⟩ : BufTy).Contents (Elt F) → (⟨S130816, .i32⟩ : BufTy).Contents (Elt F) → (⟨S130816, .i32⟩ : BufTy).Contents (Elt F)),
    ternary main_v97 main_v99 main_v17 main_v100 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    nullary main_c_31 (constantI S_ 32 0#32),
    unary main_c_31 main_v101 (broadcastInDim S130816 ![] bcast_S_S130816 : (⟨S_, .i32⟩ : BufTy).Contents (Elt F) → (⟨S130816, .i32⟩ : BufTy).Contents (Elt F)),
    binary main_v19 main_v101 main_v102 (cmpi .slt : (⟨S130816, .i32⟩ : BufTy).Contents (Elt F) → (⟨S130816, .i32⟩ : BufTy).Contents (Elt F) → (⟨S130816, .i1⟩ : BufTy).Contents (Elt F)),
    nullary main_c_32 (constantI S_ 32 512#32),
    unary main_c_32 main_v103 (broadcastInDim S130816 ![] bcast_S_S130816 : (⟨S_, .i32⟩ : BufTy).Contents (Elt F) → (⟨S130816, .i32⟩ : BufTy).Contents (Elt F)),
    binary main_v19 main_v103 main_v104 (addi : (⟨S130816, .i32⟩ : BufTy).Contents (Elt F) → (⟨S130816, .i32⟩ : BufTy).Contents (Elt F) → (⟨S130816, .i32⟩ : BufTy).Contents (Elt F)),
    ternary main_v102 main_v104 main_v19 main_v105 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    unary main_v100 main_v106 (broadcastInDim S130816x1 ![0] bcast_S130816_S130816x1_0 : (⟨S130816, .i32⟩ : BufTy).Contents (Elt F) → (⟨S130816x1, .i32⟩ : BufTy).Contents (Elt F)),
    unary main_v105 main_v107 (broadcastInDim S130816x1 ![0] bcast_S130816_S130816x1_0 : (⟨S130816, .i32⟩ : BufTy).Contents (Elt F) → (⟨S130816x1, .i32⟩ : BufTy).Contents (Elt F)),
    binary main_v106 main_v107 main_v108 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)),
    binary main_v91 main_v108 main_v109 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)),
    unary main_arg0 main_v110 ((extractStridedSlice S1x512x128 ![3, 0, 0] · slices_S4x512x128_S1x512x128_3_0_0) : (⟨S4x512x128, .f32⟩ : BufTy).Contents (Elt F) → (⟨S1x512x128, .f32⟩ : BufTy).Contents (Elt F)),
    reshape main_v110 main_v111 rfl shapeCasts_S1x512x128_S512x128,
    unary main_v111 main_v112 (broadcastInDim S512x1x128 ![0, 2] bcast_S512x128_S512x1x128_0_2 : (⟨S512x128, .f32⟩ : BufTy).Contents (Elt F) → (⟨S512x1x128, .f32⟩ : BufTy).Contents (Elt F)),
    unary main_v111 main_v113 (broadcastInDim S1x512x128 ![1, 2] bcast_S512x128_S1x512x128_1_2 : (⟨S512x128, .f32⟩ : BufTy).Contents (Elt F) → (⟨S1x512x128, .f32⟩ : BufTy).Contents (Elt F)),
    unary main_v112 main_v114 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v113 main_v115 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v114 main_v115 main_v116 (subf : (⟨S512x512x128, .f32⟩ : BufTy).Contents (Elt F) → (⟨S512x512x128, .f32⟩ : BufTy).Contents (Elt F) → (⟨S512x512x128, .f32⟩ : BufTy).Contents (Elt F)),
    binary main_v116 main_v116 main_v117 (mulf : (⟨S512x512x128, .f32⟩ : BufTy).Contents (Elt F) → (⟨S512x512x128, .f32⟩ : BufTy).Contents (Elt F) → (⟨S512x512x128, .f32⟩ : BufTy).Contents (Elt F)),
    nullary main_cst_33 (constant S_ .f32 0x00000000#32),
    binary main_v117 main_cst_33 main_v118 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)),
    nullary main_cst_34 (constant S_ .f32 0x2B8CBCCC#32),
    unary main_cst_34 main_v119 (broadcastInDim S512x512 ![] bcast_S_S512x512 : (⟨S_, .f32⟩ : BufTy).Contents (Elt F) → (⟨S512x512, .f32⟩ : BufTy).Contents (Elt F)),
    binary main_v118 main_v119 main_v120 (maximumf : (⟨S512x512, .f32⟩ : BufTy).Contents (Elt F) → (⟨S512x512, .f32⟩ : BufTy).Contents (Elt F) → (⟨S512x512, .f32⟩ : BufTy).Contents (Elt F)),
    unary main_v120 main_v121 (Host.sqrt : (⟨S512x512, .f32⟩ : BufTy).Contents (Elt F) → (⟨S512x512, .f32⟩ : BufTy).Contents (Elt F)),
    nullary main_c_35 (constantI S_ 32 1536#32),
    unary main_c_35 main_v122 (broadcastInDim S130816 ![] bcast_S_S130816 : (⟨S_, .i32⟩ : BufTy).Contents (Elt F) → (⟨S130816, .i32⟩ : BufTy).Contents (Elt F)),
    binary main_v17 main_v122 main_v123 (addi : (⟨S130816, .i32⟩ : BufTy).Contents (Elt F) → (⟨S130816, .i32⟩ : BufTy).Contents (Elt F) → (⟨S130816, .i32⟩ : BufTy).Contents (Elt F)),
    nullary main_c_36 (constantI S_ 32 1536#32),
    unary main_c_36 main_v124 (broadcastInDim S130816 ![] bcast_S_S130816 : (⟨S_, .i32⟩ : BufTy).Contents (Elt F) → (⟨S130816, .i32⟩ : BufTy).Contents (Elt F)),
    binary main_v19 main_v124 main_v125 (addi : (⟨S130816, .i32⟩ : BufTy).Contents (Elt F) → (⟨S130816, .i32⟩ : BufTy).Contents (Elt F) → (⟨S130816, .i32⟩ : BufTy).Contents (Elt F)),
    nullary main_c_37 (constantI S_ 32 0#32),
    unary main_c_37 main_v126 (broadcastInDim S130816 ![] bcast_S_S130816 : (⟨S_, .i32⟩ : BufTy).Contents (Elt F) → (⟨S130816, .i32⟩ : BufTy).Contents (Elt F)),
    binary main_v17 main_v126 main_v127 (cmpi .slt : (⟨S130816, .i32⟩ : BufTy).Contents (Elt F) → (⟨S130816, .i32⟩ : BufTy).Contents (Elt F) → (⟨S130816, .i1⟩ : BufTy).Contents (Elt F)),
    nullary main_c_38 (constantI S_ 32 512#32),
    unary main_c_38 main_v128 (broadcastInDim S130816 ![] bcast_S_S130816 : (⟨S_, .i32⟩ : BufTy).Contents (Elt F) → (⟨S130816, .i32⟩ : BufTy).Contents (Elt F)),
    binary main_v17 main_v128 main_v129 (addi : (⟨S130816, .i32⟩ : BufTy).Contents (Elt F) → (⟨S130816, .i32⟩ : BufTy).Contents (Elt F) → (⟨S130816, .i32⟩ : BufTy).Contents (Elt F)),
    ternary main_v127 main_v129 main_v17 main_v130 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    nullary main_c_39 (constantI S_ 32 0#32),
    unary main_c_39 main_v131 (broadcastInDim S130816 ![] bcast_S_S130816 : (⟨S_, .i32⟩ : BufTy).Contents (Elt F) → (⟨S130816, .i32⟩ : BufTy).Contents (Elt F)),
    binary main_v19 main_v131 main_v132 (cmpi .slt : (⟨S130816, .i32⟩ : BufTy).Contents (Elt F) → (⟨S130816, .i32⟩ : BufTy).Contents (Elt F) → (⟨S130816, .i1⟩ : BufTy).Contents (Elt F)),
    nullary main_c_40 (constantI S_ 32 512#32),
    unary main_c_40 main_v133 (broadcastInDim S130816 ![] bcast_S_S130816 : (⟨S_, .i32⟩ : BufTy).Contents (Elt F) → (⟨S130816, .i32⟩ : BufTy).Contents (Elt F)),
    binary main_v19 main_v133 main_v134 (addi : (⟨S130816, .i32⟩ : BufTy).Contents (Elt F) → (⟨S130816, .i32⟩ : BufTy).Contents (Elt F) → (⟨S130816, .i32⟩ : BufTy).Contents (Elt F)),
    ternary main_v132 main_v134 main_v19 main_v135 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    unary main_v130 main_v136 (broadcastInDim S130816x1 ![0] bcast_S130816_S130816x1_0 : (⟨S130816, .i32⟩ : BufTy).Contents (Elt F) → (⟨S130816x1, .i32⟩ : BufTy).Contents (Elt F)) ]

/-- The window is its operations run one after the other (each call replaced by its callee's operations). -/
theorem part2_eq (d : Dev nD) : main_part2 (F := F) d = seq ops2 := by
  simp only [main_part2, fn_triu.body, fn_cumsum_0.body, fn_cumsum.body, fn_clip.body, fn_cumsum_2.body, fn_cumsum_1.body, fn_where.body, fn_floor_divide.body, fn_where_3.body, fn_remainder.body, fn_where_4.body, seq, bind_assoc, pure_bind]
  rfl

/-- Every operation of the window touches only device buffers. -/
theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩

/-- No operation of the window allocates. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the window writes one buffer, in a slot past the arguments'. -/
theorem ops2_high : (ops2 : List (HloOp τ sig (Elt F))).Forall (WritesPast (τ := τ) 11) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The window is in single-assignment form with ascending slots, from slot 217 up to slot 277: each operation writes
    one new buffer, above all written before, and reads only buffers below it. -/
theorem ops2_asc : AscendingTo (τ := τ) 217 (ops2 : List (HloOp τ sig (Elt F))) 277 :=
  ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_reshape _ _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    (by decide : 277 ≤ 277)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.ReferenceIdeal.Line

end
-- ==== Proof.RefLine3.lean ====
/- Window 3 of the reference program's host operations as one literal list, in program order, every outlined
    function's operations written at its call over that call's buffers. Beside the list: the window is the list run in
    sequence; every operation touches only device buffers; none allocates; and each writes exactly one buffer, whose slot
    lies beyond the eleven argument slots (so no operation overwrites an argument array). -/
import proofs.«120006_g55027120997065_cont_sun_c4_852_12_alg».proof.Proof.Gen.ReferenceIdeal
import proofs.«120006_g55027120997065_cont_sun_c4_852_12_alg».proof.Proof.LibHostLine
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 62 operations of window 3, in order. -/
abbrev ops3 : List (HloOp τ sig (Elt F)) :=
  [ unary main_v135 main_v137 (broadcastInDim S130816x1 ![0] bcast_S130816_S130816x1_0 : (⟨S130816, .i32⟩ : BufTy).Contents (Elt F) → (⟨S130816x1, .i32⟩ : BufTy).Contents (Elt F)),
    binary main_v136 main_v137 main_v138 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)),
    binary main_v121 main_v138 main_v139 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)),
    nary ![main_v33, main_v63, main_v93, main_v123] main_v140 (fun u => concatenate S523264 0 [⟨S130816, u 0⟩, ⟨S130816, u 1⟩, ⟨S130816, u 2⟩, ⟨S130816, u 3⟩] concatenates_S130816_S130816_S130816_S130816_S523264_d0),
    nary ![main_v35, main_v65, main_v95, main_v125] main_v141 (fun u => concatenate S523264 0 [⟨S130816, u 0⟩, ⟨S130816, u 1⟩, ⟨S130816, u 2⟩, ⟨S130816, u 3⟩] concatenates_S130816_S130816_S130816_S130816_S523264_d0),
    nary ![main_v49, main_v79, main_v109, main_v139] main_v142 (fun u => concatenate S523264 0 [⟨S130816, u 0⟩, ⟨S130816, u 1⟩, ⟨S130816, u 2⟩, ⟨S130816, u 3⟩] concatenates_S130816_S130816_S130816_S130816_S523264_d0),
    nullary main_v143 (iotaInDim S4 32 0),
    unary main_v143 main_v144 (broadcastInDim S4x512 ![0] bcast_S4_S4x512_0 : (⟨S4, .i32⟩ : BufTy).Contents (Elt F) → (⟨S4x512, .i32⟩ : BufTy).Contents (Elt F)),
    reshape main_v144 main_v145 rfl shapeCasts_S4x512_S2048,
    reshape main_arg0 main_v146 rfl shapeCasts_S4x512x128_S2048x128,
    nullary main_v147 (iotaInDim S2048 32 0),
    binary main_v140 main_v147 main_v148 ((fun a b => concatenate S525312 0 [⟨S523264, a⟩, ⟨S2048, b⟩] concatenates_S523264_S2048_S525312_d0) : (⟨S523264, .i32⟩ : BufTy).Contents (Elt F) → (⟨S2048, .i32⟩ : BufTy).Contents (Elt F) → (⟨S525312, .i32⟩ : BufTy).Contents (Elt F)),
    binary main_v141 main_v147 main_v149 ((fun a b => concatenate S525312 0 [⟨S523264, a⟩, ⟨S2048, b⟩] concatenates_S523264_S2048_S525312_d0) : (⟨S523264, .i32⟩ : BufTy).Contents (Elt F) → (⟨S2048, .i32⟩ : BufTy).Contents (Elt F) → (⟨S525312, .i32⟩ : BufTy).Contents (Elt F)),
    nullary main_cst_41 (constant S_ .f32 0x3F800000#32),
    unary main_cst_41 main_v150 (broadcastInDim S2048 ![] bcast_S_S2048 : (⟨S_, .f32⟩ : BufTy).Contents (Elt F) → (⟨S2048, .f32⟩ : BufTy).Contents (Elt F)),
    binary main_v142 main_v150 main_v151 ((fun a b => concatenate S525312 0 [⟨S523264, a⟩, ⟨S2048, b⟩] concatenates_S523264_S2048_S525312_d0) : (⟨S523264, .f32⟩ : BufTy).Contents (Elt F) → (⟨S2048, .f32⟩ : BufTy).Contents (Elt F) → (⟨S525312, .f32⟩ : BufTy).Contents (Elt F)),
    nullary main_cst_42 (constant S_ .f32 0x00000000#32),
    unary main_cst_42 main_v152 (broadcastInDim S2048 ![] bcast_S_S2048 : (⟨S_, .f32⟩ : BufTy).Contents (Elt F) → (⟨S2048, .f32⟩ : BufTy).Contents (Elt F)),
    nullary main_c_43 (constantI S_ 32 0#32),
    unary main_c_43 main_v153 (broadcastInDim S525312 ![] bcast_S_S525312 : (⟨S_, .i32⟩ : BufTy).Contents (Elt F) → (⟨S525312, .i32⟩ : BufTy).Contents (Elt F)),
    binary main_v149 main_v153 main_v154 (cmpi .slt : (⟨S525312, .i32⟩ : BufTy).Contents (Elt F) → (⟨S525312, .i32⟩ : BufTy).Contents (Elt F) → (⟨S525312, .i1⟩ : BufTy).Contents (Elt F)),
    nullary main_c_44 (constantI S_ 32 2048#32),
    unary main_c_44 main_v155 (broadcastInDim S525312 ![] bcast_S_S525312 : (⟨S_, .i32⟩ : BufTy).Contents (Elt F) → (⟨S525312, .i32⟩ : BufTy).Contents (Elt F)),
    binary main_v149 main_v155 main_v156 (addi : (⟨S525312, .i32⟩ : BufTy).Contents (Elt F) → (⟨S525312, .i32⟩ : BufTy).Contents (Elt F) → (⟨S525312, .i32⟩ : BufTy).Contents (Elt F)),
    ternary main_v154 main_v156 main_v149 main_v157 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v157 main_v158 (broadcastInDim S525312x1 ![0] bcast_S525312_S525312x1_0 : (⟨S525312, .i32⟩ : BufTy).Contents (Elt F) → (⟨S525312x1, .i32⟩ : BufTy).Contents (Elt F)),
    ternary main_v152 main_v158 main_v151 main_v159 ((fun x i u => Host.scatterAdd scatter_S2048_S525312x1_S525312_n_0_0_1 x i u) : (⟨S2048, .f32⟩ : BufTy).Contents (Elt F) → (⟨S525312x1, .i32⟩ : BufTy).Contents (Elt F) → (⟨S525312, .f32⟩ : BufTy).Contents (Elt F) → (⟨S2048, .f32⟩ : BufTy).Contents (Elt F)),
    nullary main_cst_45 (constant S_ .f32 0x00000000#32),
    unary main_cst_45 main_v160 (broadcastInDim S2048 ![] bcast_S_S2048 : (⟨S_, .f32⟩ : BufTy).Contents (Elt F) → (⟨S2048, .f32⟩ : BufTy).Contents (Elt F)),
    binary main_v159 main_v160 main_v161 (cmpf .ogt : (⟨S2048, .f32⟩ : BufTy).Contents (Elt F) → (⟨S2048, .f32⟩ : BufTy).Contents (Elt F) → (⟨S2048, .i1⟩ : BufTy).Contents (Elt F)),
    nullary main_cst_46 (constant S_ .f32 0x2B8CBCCC#32),
    unary main_cst_46 main_v162 (broadcastInDim S2048 ![] bcast_S_S2048 : (⟨S_, .f32⟩ : BufTy).Contents (Elt F) → (⟨S2048, .f32⟩ : BufTy).Contents (Elt F)),
    binary main_v159 main_v162 main_v163 (maximumf : (⟨S2048, .f32⟩ : BufTy).Contents (Elt F) → (⟨S2048, .f32⟩ : BufTy).Contents (Elt F) → (⟨S2048, .f32⟩ : BufTy).Contents (Elt F)),
    unary main_v163 main_v164 (Host.rsqrt : (⟨S2048, .f32⟩ : BufTy).Contents (Elt F) → (⟨S2048, .f32⟩ : BufTy).Contents (Elt F)),
    nullary main_cst_47 (constant S_ .f32 0x00000000#32),
    TRef.unary (.of main_cst_47 : StableHlo.TRef sig ⟨S_, .f32⟩) main_call8.v0 id,
    TRef.unary main_call8.v0 main_call8.v1 (broadcastInDim S2048 ![] bcast_S_S2048),
    TRef.ternary (.of main_v161 : StableHlo.TRef sig ⟨S2048, .i1⟩) (.of main_v164 : StableHlo.TRef sig ⟨S2048, .f32⟩) main_call8.v1 main_call8.v2 select,
    nullary main_c_48 (constantI S_ 32 0#32),
    unary main_c_48 main_v166 (broadcastInDim S525312 ![] bcast_S_S525312 : (⟨S_, .i32⟩ : BufTy).Contents (Elt F) → (⟨S525312, .i32⟩ : BufTy).Contents (Elt F)),
    binary main_v148 main_v166 main_v167 (cmpi .slt : (⟨S525312, .i32⟩ : BufTy).Contents (Elt F) → (⟨S525312, .i32⟩ : BufTy).Contents (Elt F) → (⟨S525312, .i1⟩ : BufTy).Contents (Elt F)),
    nullary main_c_49 (constantI S_ 32 2048#32),
    unary main_c_49 main_v168 (broadcastInDim S525312 ![] bcast_S_S525312 : (⟨S_, .i32⟩ : BufTy).Contents (Elt F) → (⟨S525312, .i32⟩ : BufTy).Contents (Elt F)),
    binary main_v148 main_v168 main_v169 (addi : (⟨S525312, .i32⟩ : BufTy).Contents (Elt F) → (⟨S525312, .i32⟩ : BufTy).Contents (Elt F) → (⟨S525312, .i32⟩ : BufTy).Contents (Elt F)),
    ternary main_v167 main_v169 main_v148 main_v170 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v170 main_v171 (broadcastInDim S525312x1 ![0] bcast_S525312_S525312x1_0 : (⟨S525312, .i32⟩ : BufTy).Contents (Elt F) → (⟨S525312x1, .i32⟩ : BufTy).Contents (Elt F)),
    binary main_v165 main_v171 main_v172 ((fun x i => Host.gather gather_S2048_S525312x1_S525312_n_0_n_n_0_1_1 x i) : (⟨S2048, .f32⟩ : BufTy).Contents (Elt F) → (⟨S525312x1, .i32⟩ : BufTy).Contents (Elt F) → (⟨S525312, .f32⟩ : BufTy).Contents (Elt F)),
    binary main_v172 main_v151 main_v173 (mulf : (⟨S525312, .f32⟩ : BufTy).Contents (Elt F) → (⟨S525312, .f32⟩ : BufTy).Contents (Elt F) → (⟨S525312, .f32⟩ : BufTy).Contents (Elt F)),
    nullary main_c_50 (constantI S_ 32 0#32),
    unary main_c_50 main_v174 (broadcastInDim S525312 ![] bcast_S_S525312 : (⟨S_, .i32⟩ : BufTy).Contents (Elt F) → (⟨S525312, .i32⟩ : BufTy).Contents (Elt F)),
    binary main_v149 main_v174 main_v175 (cmpi .slt : (⟨S525312, .i32⟩ : BufTy).Contents (Elt F) → (⟨S525312, .i32⟩ : BufTy).Contents (Elt F) → (⟨S525312, .i1⟩ : BufTy).Contents (Elt F)),
    nullary main_c_51 (constantI S_ 32 2048#32),
    unary main_c_51 main_v176 (broadcastInDim S525312 ![] bcast_S_S525312 : (⟨S_, .i32⟩ : BufTy).Contents (Elt F) → (⟨S525312, .i32⟩ : BufTy).Contents (Elt F)),
    binary main_v149 main_v176 main_v177 (addi : (⟨S525312, .i32⟩ : BufTy).Contents (Elt F) → (⟨S525312, .i32⟩ : BufTy).Contents (Elt F) → (⟨S525312, .i32⟩ : BufTy).Contents (Elt F)),
    ternary main_v175 main_v177 main_v149 main_v178 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v178 main_v179 (broadcastInDim S525312x1 ![0] bcast_S525312_S525312x1_0 : (⟨S525312, .i32⟩ : BufTy).Contents (Elt F) → (⟨S525312x1, .i32⟩ : BufTy).Contents (Elt F)),
    binary main_v165 main_v179 main_v180 ((fun x i => Host.gather gather_S2048_S525312x1_S525312_n_0_n_n_0_1_1 x i) : (⟨S2048, .f32⟩ : BufTy).Contents (Elt F) → (⟨S525312x1, .i32⟩ : BufTy).Contents (Elt F) → (⟨S525312, .f32⟩ : BufTy).Contents (Elt F)),
    binary main_v173 main_v180 main_v181 (mulf : (⟨S525312, .f32⟩ : BufTy).Contents (Elt F) → (⟨S525312, .f32⟩ : BufTy).Contents (Elt F) → (⟨S525312, .f32⟩ : BufTy).Contents (Elt F)),
    nullary main_cst_52 (constant S_ .f32 0x3E99999A#32),
    unary main_cst_52 main_v182 (broadcastInDim S2048x128 ![] bcast_S_S2048x128 : (⟨S_, .f32⟩ : BufTy).Contents (Elt F) → (⟨S2048x128, .f32⟩ : BufTy).Contents (Elt F)),
    binary main_v146 main_v182 main_v183 (mulf : (⟨S2048x128, .f32⟩ : BufTy).Contents (Elt F) → (⟨S2048x128, .f32⟩ : BufTy).Contents (Elt F) → (⟨S2048x128, .f32⟩ : BufTy).Contents (Elt F)),
    nullary main_c_53 (constantI S_ 32 0#32) ]

/-- The window is its operations run one after the other (each call replaced by its callee's operations). -/
theorem part3_eq (d : Dev nD) : main_part3 (F := F) d = seq ops3 := by
  simp only [main_part3, fn_triu.body, fn_cumsum_0.body, fn_cumsum.body, fn_clip.body, fn_cumsum_2.body, fn_cumsum_1.body, fn_where.body, fn_floor_divide.body, fn_where_3.body, fn_remainder.body, fn_where_4.body, seq, bind_assoc, pure_bind]
  rfl

/-- Every operation of the window touches only device buffers. -/
theorem ops3_sub : (ops3 : List (HloOp τ sig (Elt F))).Forall fun op => op.bufs ⊆ tcRefs τ sig :=
  ⟨unary_bufs_sub .., binary_bufs_sub .., binary_bufs_sub .., nary_bufs_sub .., nary_bufs_sub .., nary_bufs_sub .., nullary_bufs_sub .., unary_bufs_sub .., reshape_bufs_sub .., reshape_bufs_sub .., nullary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩

/-- No operation of the window allocates. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the window writes one buffer, in a slot past the arguments'. -/
theorem ops3_high : (ops3 : List (HloOp τ sig (Elt F))).Forall (WritesPast (τ := τ) 11) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The window is in single-assignment form with ascending slots, from slot 277 up to slot 339: each operation writes
    one new buffer, above all written before, and reads only buffers below it. -/
theorem ops3_asc : AscendingTo (τ := τ) 277 (ops3 : List (HloOp τ sig (Elt F))) 339 :=
  ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nary _ _ _ _ _ (by decide),
    ⟨_, rfl, by decide, readsBelow_nary _ _ _ _ _ (by decide),
    ⟨_, rfl, by decide, readsBelow_nary _ _ _ _ _ (by decide),
    ⟨_, rfl, by decide, readsBelow_nullary _ _ _,
    ⟨_, rfl, by decide, readsBelow_unary _ _ _ _ _ (by decide),
    ⟨_, rfl, by decide, readsBelow_reshape _ _ _ _ _ _ (by decide),
    ⟨_, rfl, by decide, readsBelow_reshape _ _ _ _ _ _ (by decide),
    ⟨_, rfl, by decide, readsBelow_nullary _ _ _,
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    (by decide : 339 ≤ 339)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.ReferenceIdeal.Line

end
-- ==== Proof.RefLine4.lean ====
/- Window 4 of the reference program's host operations as one literal list, in program order, every outlined
    function's operations written at its call over that call's buffers. Beside the list: the window is the list run in
    sequence; every operation touches only device buffers; none allocates; and each writes exactly one buffer, whose slot
    lies beyond the eleven argument slots (so no operation overwrites an argument array). -/
import proofs.«120006_g55027120997065_cont_sun_c4_852_12_alg».proof.Proof.Gen.ReferenceIdeal
import proofs.«120006_g55027120997065_cont_sun_c4_852_12_alg».proof.Proof.LibHostLine
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 4, in order. -/
abbrev ops4 : List (HloOp τ sig (Elt F)) :=
  [ unary main_c_53 main_v184 (broadcastInDim S525312 ![] bcast_S_S525312 : (⟨S_, .i32⟩ : BufTy).Contents (Elt F) → (⟨S525312, .i32⟩ : BufTy).Contents (Elt F)),
    binary main_v148 main_v184 main_v185 (cmpi .slt : (⟨S525312, .i32⟩ : BufTy).Contents (Elt F) → (⟨S525312, .i32⟩ : BufTy).Contents (Elt F) → (⟨S525312, .i1⟩ : BufTy).Contents (Elt F)),
    nullary main_c_54 (constantI S_ 32 2048#32),
    unary main_c_54 main_v186 (broadcastInDim S525312 ![] bcast_S_S525312 : (⟨S_, .i32⟩ : BufTy).Contents (Elt F) → (⟨S525312, .i32⟩ : BufTy).Contents (Elt F)),
    binary main_v148 main_v186 main_v187 (addi : (⟨S525312, .i32⟩ : BufTy).Contents (Elt F) → (⟨S525312, .i32⟩ : BufTy).Contents (Elt F) → (⟨S525312, .i32⟩ : BufTy).Contents (Elt F)),
    ternary main_v185 main_v187 main_v148 main_v188 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v188 main_v189 (broadcastInDim S525312x1 ![0] bcast_S525312_S525312x1_0 : (⟨S525312, .i32⟩ : BufTy).Contents (Elt F) → (⟨S525312x1, .i32⟩ : BufTy).Contents (Elt F)),
    binary main_v146 main_v189 main_v190 ((fun x i => Host.gather gather_S2048x128_S525312x1_S525312x128_1_0_n_n_0_1_1128 x i) : (⟨S2048x128, .f32⟩ : BufTy).Contents (Elt F) → (⟨S525312x1, .i32⟩ : BufTy).Contents (Elt F) → (⟨S525312x128, .f32⟩ : BufTy).Contents (Elt F)),
    unary main_v181 main_v191 (broadcastInDim S525312x1 ![0] bcast_S525312_S525312x1_0 : (⟨S525312, .f32⟩ : BufTy).Contents (Elt F) → (⟨S525312x1, .f32⟩ : BufTy).Contents (Elt F)),
    unary main_v191 main_v192 (broadcastInDim S525312x128 ![0, 1] bcast_S525312x1_S525312x128_0_1 : (⟨S525312x1, .f32⟩ : BufTy).Contents (Elt F) → (⟨S525312x128, .f32⟩ : BufTy).Contents (Elt F)),
    binary main_v190 main_v192 main_v193 (mulf : (⟨S525312x128, .f32⟩ : BufTy).Contents (Elt F) → (⟨S525312x128, .f32⟩ : BufTy).Contents (Elt F) → (⟨S525312x128, .f32⟩ : BufTy).Contents (Elt F)),
    nullary main_cst_55 (constant S_ .f32 0x00000000#32),
    unary main_cst_55 main_v194 (broadcastInDim S2048x128 ![] bcast_S_S2048x128 : (⟨S_, .f32⟩ : BufTy).Contents (Elt F) → (⟨S2048x128, .f32⟩ : BufTy).Contents (Elt F)),
    nullary main_c_56 (constantI S_ 32 0#32),
    unary main_c_56 main_v195 (broadcastInDim S525312 ![] bcast_S_S525312 : (⟨S_, .i32⟩ : BufTy).Contents (Elt F) → (⟨S525312, .i32⟩ : BufTy).Contents (Elt F)),
    binary main_v149 main_v195 main_v196 (cmpi .slt : (⟨S525312, .i32⟩ : BufTy).Contents (Elt F) → (⟨S525312, .i32⟩ : BufTy).Contents (Elt F) → (⟨S525312, .i1⟩ : BufTy).Contents (Elt F)),
    nullary main_c_57 (constantI S_ 32 2048#32),
    unary main_c_57 main_v197 (broadcastInDim S525312 ![] bcast_S_S525312 : (⟨S_, .i32⟩ : BufTy).Contents (Elt F) → (⟨S525312, .i32⟩ : BufTy).Contents (Elt F)),
    binary main_v149 main_v197 main_v198 (addi : (⟨S525312, .i32⟩ : BufTy).Contents (Elt F) → (⟨S525312, .i32⟩ : BufTy).Contents (Elt F) → (⟨S525312, .i32⟩ : BufTy).Contents (Elt F)),
    ternary main_v196 main_v198 main_v149 main_v199 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v199 main_v200 (broadcastInDim S525312x1 ![0] bcast_S525312_S525312x1_0 : (⟨S525312, .i32⟩ : BufTy).Contents (Elt F) → (⟨S525312x1, .i32⟩ : BufTy).Contents (Elt F)),
    ternary main_v194 main_v200 main_v193 main_v201 ((fun x i u => Host.scatterAdd scatter_S2048x128_S525312x1_S525312x128_1_0_0_1 x i u) : (⟨S2048x128, .f32⟩ : BufTy).Contents (Elt F) → (⟨S525312x1, .i32⟩ : BufTy).Contents (Elt F) → (⟨S525312x128, .f32⟩ : BufTy).Contents (Elt F) → (⟨S2048x128, .f32⟩ : BufTy).Contents (Elt F)),
    nullary main_cst_58 (constant S_ .f32 0x3F333333#32),
    unary main_cst_58 main_v202 (broadcastInDim S2048x128 ![] bcast_S_S2048x128 : (⟨S_, .f32⟩ : BufTy).Contents (Elt F) → (⟨S2048x128, .f32⟩ : BufTy).Contents (Elt F)),
    binary main_v202 main_v201 main_v203 (mulf : (⟨S2048x128, .f32⟩ : BufTy).Contents (Elt F) → (⟨S2048x128, .f32⟩ : BufTy).Contents (Elt F) → (⟨S2048x128, .f32⟩ : BufTy).Contents (Elt F)),
    binary main_v183 main_v203 main_v204 (addf : (⟨S2048x128, .f32⟩ : BufTy).Contents (Elt F) → (⟨S2048x128, .f32⟩ : BufTy).Contents (Elt F) → (⟨S2048x128, .f32⟩ : BufTy).Contents (Elt F)),
    binary main_v204 main_arg1 main_v205 ((fun l r => Host.dotGeneral dot_S2048x128_S128x256_S2048x256_1_0_0_1_n_n none l r) : (⟨S2048x128, .f32⟩ : BufTy).Contents (Elt F) → (⟨S128x256, .f32⟩ : BufTy).Contents (Elt F) → (⟨S2048x256, .f32⟩ : BufTy).Contents (Elt F)),
    unary main_arg2 main_v206 (broadcastInDim S1x256 ![1] bcast_S256_S1x256_1 : (⟨S256, .f32⟩ : BufTy).Contents (Elt F) → (⟨S1x256, .f32⟩ : BufTy).Contents (Elt F)),
    unary main_v206 main_v207 (broadcastInDim S2048x256 ![0, 1] bcast_S1x256_S2048x256_0_1 : (⟨S1x256, .f32⟩ : BufTy).Contents (Elt F) → (⟨S2048x256, .f32⟩ : BufTy).Contents (Elt F)),
    binary main_v205 main_v207 main_v208 (addf : (⟨S2048x256, .f32⟩ : BufTy).Contents (Elt F) → (⟨S2048x256, .f32⟩ : BufTy).Contents (Elt F) → (⟨S2048x256, .f32⟩ : BufTy).Contents (Elt F)),
    unary main_v208 main_v209 (Host.tanh : (⟨S2048x256, .f32⟩ : BufTy).Contents (Elt F) → (⟨S2048x256, .f32⟩ : BufTy).Contents (Elt F)),
    nullary main_cst_59 (constant S_ .f32 0x3E99999A#32),
    unary main_cst_59 main_v210 (broadcastInDim S2048x256 ![] bcast_S_S2048x256 : (⟨S_, .f32⟩ : BufTy).Contents (Elt F) → (⟨S2048x256, .f32⟩ : BufTy).Contents (Elt F)),
    binary main_v209 main_v210 main_v211 (mulf : (⟨S2048x256, .f32⟩ : BufTy).Contents (Elt F) → (⟨S2048x256, .f32⟩ : BufTy).Contents (Elt F) → (⟨S2048x256, .f32⟩ : BufTy).Contents (Elt F)),
    nullary main_c_60 (constantI S_ 32 0#32),
    unary main_c_60 main_v212 (broadcastInDim S525312 ![] bcast_S_S525312 : (⟨S_, .i32⟩ : BufTy).Contents (Elt F) → (⟨S525312, .i32⟩ : BufTy).Contents (Elt F)),
    binary main_v148 main_v212 main_v213 (cmpi .slt : (⟨S525312, .i32⟩ : BufTy).Contents (Elt F) → (⟨S525312, .i32⟩ : BufTy).Contents (Elt F) → (⟨S525312, .i1⟩ : BufTy).Contents (Elt F)),
    nullary main_c_61 (constantI S_ 32 2048#32),
    unary main_c_61 main_v214 (broadcastInDim S525312 ![] bcast_S_S525312 : (⟨S_, .i32⟩ : BufTy).Contents (Elt F) → (⟨S525312, .i32⟩ : BufTy).Contents (Elt F)),
    binary main_v148 main_v214 main_v215 (addi : (⟨S525312, .i32⟩ : BufTy).Contents (Elt F) → (⟨S525312, .i32⟩ : BufTy).Contents (Elt F) → (⟨S525312, .i32⟩ : BufTy).Contents (Elt F)),
    ternary main_v213 main_v215 main_v148 main_v216 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v216 main_v217 (broadcastInDim S525312x1 ![0] bcast_S525312_S525312x1_0 : (⟨S525312, .i32⟩ : BufTy).Contents (Elt F) → (⟨S525312x1, .i32⟩ : BufTy).Contents (Elt F)),
    binary main_v209 main_v217 main_v218 ((fun x i => Host.gather gather_S2048x256_S525312x1_S525312x256_1_0_n_n_0_1_1256 x i) : (⟨S2048x256, .f32⟩ : BufTy).Contents (Elt F) → (⟨S525312x1, .i32⟩ : BufTy).Contents (Elt F) → (⟨S525312x256, .f32⟩ : BufTy).Contents (Elt F)),
    unary main_v181 main_v219 (broadcastInDim S525312x1 ![0] bcast_S525312_S525312x1_0 : (⟨S525312, .f32⟩ : BufTy).Contents (Elt F) → (⟨S525312x1, .f32⟩ : BufTy).Contents (Elt F)),
    unary main_v219 main_v220 (broadcastInDim S525312x256 ![0, 1] bcast_S525312x1_S525312x256_0_1 : (⟨S525312x1, .f32⟩ : BufTy).Contents (Elt F) → (⟨S525312x256, .f32⟩ : BufTy).Contents (Elt F)),
    binary main_v218 main_v220 main_v221 (mulf : (⟨S525312x256, .f32⟩ : BufTy).Contents (Elt F) → (⟨S525312x256, .f32⟩ : BufTy).Contents (Elt F) → (⟨S525312x256, .f32⟩ : BufTy).Contents (Elt F)),
    nullary main_cst_62 (constant S_ .f32 0x00000000#32),
    unary main_cst_62 main_v222 (broadcastInDim S2048x256 ![] bcast_S_S2048x256 : (⟨S_, .f32⟩ : BufTy).Contents (Elt F) → (⟨S2048x256, .f32⟩ : BufTy).Contents (Elt F)),
    nullary main_c_63 (constantI S_ 32 0#32),
    unary main_c_63 main_v223 (broadcastInDim S525312 ![] bcast_S_S525312 : (⟨S_, .i32⟩ : BufTy).Contents (Elt F) → (⟨S525312, .i32⟩ : BufTy).Contents (Elt F)),
    binary main_v149 main_v223 main_v224 (cmpi .slt : (⟨S525312, .i32⟩ : BufTy).Contents (Elt F) → (⟨S525312, .i32⟩ : BufTy).Contents (Elt F) → (⟨S525312, .i1⟩ : BufTy).Contents (Elt F)),
    nullary main_c_64 (constantI S_ 32 2048#32),
    unary main_c_64 main_v225 (broadcastInDim S525312 ![] bcast_S_S525312 : (⟨S_, .i32⟩ : BufTy).Contents (Elt F) → (⟨S525312, .i32⟩ : BufTy).Contents (Elt F)),
    binary main_v149 main_v225 main_v226 (addi : (⟨S525312, .i32⟩ : BufTy).Contents (Elt F) → (⟨S525312, .i32⟩ : BufTy).Contents (Elt F) → (⟨S525312, .i32⟩ : BufTy).Contents (Elt F)),
    ternary main_v224 main_v226 main_v149 main_v227 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v227 main_v228 (broadcastInDim S525312x1 ![0] bcast_S525312_S525312x1_0 : (⟨S525312, .i32⟩ : BufTy).Contents (Elt F) → (⟨S525312x1, .i32⟩ : BufTy).Contents (Elt F)),
    ternary main_v222 main_v228 main_v221 main_v229 ((fun x i u => Host.scatterAdd scatter_S2048x256_S525312x1_S525312x256_1_0_0_1 x i u) : (⟨S2048x256, .f32⟩ : BufTy).Contents (Elt F) → (⟨S525312x1, .i32⟩ : BufTy).Contents (Elt F) → (⟨S525312x256, .f32⟩ : BufTy).Contents (Elt F) → (⟨S2048x256, .f32⟩ : BufTy).Contents (Elt F)),
    nullary main_cst_65 (constant S_ .f32 0x3F333333#32),
    unary main_cst_65 main_v230 (broadcastInDim S2048x256 ![] bcast_S_S2048x256 : (⟨S_, .f32⟩ : BufTy).Contents (Elt F) → (⟨S2048x256, .f32⟩ : BufTy).Contents (Elt F)),
    binary main_v230 main_v229 main_v231 (mulf : (⟨S2048x256, .f32⟩ : BufTy).Contents (Elt F) → (⟨S2048x256, .f32⟩ : BufTy).Contents (Elt F) → (⟨S2048x256, .f32⟩ : BufTy).Contents (Elt F)) ]

/-- The window is its operations run one after the other (each call replaced by its callee's operations). -/
theorem part4_eq (d : Dev nD) : main_part4 (F := F) d = seq ops4 := by
  simp only [main_part4, fn_triu.body, fn_cumsum_0.body, fn_cumsum.body, fn_clip.body, fn_cumsum_2.body, fn_cumsum_1.body, fn_where.body, fn_floor_divide.body, fn_where_3.body, fn_remainder.body, fn_where_4.body, seq, bind_assoc, pure_bind]
  rfl

/-- Every operation of the window touches only device buffers. -/
theorem ops4_sub : (ops4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub ..⟩

/-- No operation of the window allocates. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the window writes one buffer, in a slot past the arguments'. -/
theorem ops4_high : (ops4 : List (HloOp τ sig (Elt F))).Forall (WritesPast (τ := τ) 11) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The window is in single-assignment form with ascending slots, from slot 339 up to slot 399: each operation writes
    one new buffer, above all written before, and reads only buffers below it. -/
theorem ops4_asc : AscendingTo (τ := τ) 339 (ops4 : List (HloOp τ sig (Elt F))) 399 :=
  ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    (by decide : 399 ≤ 399)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.ReferenceIdeal.Line

end
-- ==== Proof.RefLine5.lean ====
/- Window 5 of the reference program's host operations as one literal list, in program order, every outlined
    function's operations written at its call over that call's buffers. Beside the list: the window is the list run in
    sequence; every operation touches only device buffers; none allocates; and each writes exactly one buffer, whose slot
    lies beyond the eleven argument slots (so no operation overwrites an argument array). -/
import proofs.«120006_g55027120997065_cont_sun_c4_852_12_alg».proof.Proof.Gen.ReferenceIdeal
import proofs.«120006_g55027120997065_cont_sun_c4_852_12_alg».proof.Proof.LibHostLine
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 5, in order. -/
abbrev ops5 : List (HloOp τ sig (Elt F)) :=
  [ binary main_v211 main_v231 main_v232 (addf : (⟨S2048x256, .f32⟩ : BufTy).Contents (Elt F) → (⟨S2048x256, .f32⟩ : BufTy).Contents (Elt F) → (⟨S2048x256, .f32⟩ : BufTy).Contents (Elt F)),
    binary main_v232 main_arg3 main_v233 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg4 main_v234 (broadcastInDim S1x256 ![1] bcast_S256_S1x256_1 : (⟨S256, .f32⟩ : BufTy).Contents (Elt F) → (⟨S1x256, .f32⟩ : BufTy).Contents (Elt F)),
    unary main_v234 main_v235 (broadcastInDim S2048x256 ![0, 1] bcast_S1x256_S2048x256_0_1 : (⟨S1x256, .f32⟩ : BufTy).Contents (Elt F) → (⟨S2048x256, .f32⟩ : BufTy).Contents (Elt F)),
    binary main_v233 main_v235 main_v236 (addf : (⟨S2048x256, .f32⟩ : BufTy).Contents (Elt F) → (⟨S2048x256, .f32⟩ : BufTy).Contents (Elt F) → (⟨S2048x256, .f32⟩ : BufTy).Contents (Elt F)),
    unary main_v236 main_v237 (Host.tanh : (⟨S2048x256, .f32⟩ : BufTy).Contents (Elt F) → (⟨S2048x256, .f32⟩ : BufTy).Contents (Elt F)),
    nullary main_cst_66 (constant S_ .f32 0x3E99999A#32),
    unary main_cst_66 main_v238 (broadcastInDim S2048x256 ![] bcast_S_S2048x256 : (⟨S_, .f32⟩ : BufTy).Contents (Elt F) → (⟨S2048x256, .f32⟩ : BufTy).Contents (Elt F)),
    binary main_v237 main_v238 main_v239 (mulf : (⟨S2048x256, .f32⟩ : BufTy).Contents (Elt F) → (⟨S2048x256, .f32⟩ : BufTy).Contents (Elt F) → (⟨S2048x256, .f32⟩ : BufTy).Contents (Elt F)),
    nullary main_c_67 (constantI S_ 32 0#32),
    unary main_c_67 main_v240 (broadcastInDim S525312 ![] bcast_S_S525312 : (⟨S_, .i32⟩ : BufTy).Contents (Elt F) → (⟨S525312, .i32⟩ : BufTy).Contents (Elt F)),
    binary main_v148 main_v240 main_v241 (cmpi .slt : (⟨S525312, .i32⟩ : BufTy).Contents (Elt F) → (⟨S525312, .i32⟩ : BufTy).Contents (Elt F) → (⟨S525312, .i1⟩ : BufTy).Contents (Elt F)),
    nullary main_c_68 (constantI S_ 32 2048#32),
    unary main_c_68 main_v242 (broadcastInDim S525312 ![] bcast_S_S525312 : (⟨S_, .i32⟩ : BufTy).Contents (Elt F) → (⟨S525312, .i32⟩ : BufTy).Contents (Elt F)),
    binary main_v148 main_v242 main_v243 (addi : (⟨S525312, .i32⟩ : BufTy).Contents (Elt F) → (⟨S525312, .i32⟩ : BufTy).Contents (Elt F) → (⟨S525312, .i32⟩ : BufTy).Contents (Elt F)),
    ternary main_v241 main_v243 main_v148 main_v244 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v244 main_v245 (broadcastInDim S525312x1 ![0] bcast_S525312_S525312x1_0 : (⟨S525312, .i32⟩ : BufTy).Contents (Elt F) → (⟨S525312x1, .i32⟩ : BufTy).Contents (Elt F)),
    binary main_v237 main_v245 main_v246 ((fun x i => Host.gather gather_S2048x256_S525312x1_S525312x256_1_0_n_n_0_1_1256 x i) : (⟨S2048x256, .f32⟩ : BufTy).Contents (Elt F) → (⟨S525312x1, .i32⟩ : BufTy).Contents (Elt F) → (⟨S525312x256, .f32⟩ : BufTy).Contents (Elt F)),
    unary main_v181 main_v247 (broadcastInDim S525312x1 ![0] bcast_S525312_S525312x1_0 : (⟨S525312, .f32⟩ : BufTy).Contents (Elt F) → (⟨S525312x1, .f32⟩ : BufTy).Contents (Elt F)),
    unary main_v247 main_v248 (broadcastInDim S525312x256 ![0, 1] bcast_S525312x1_S525312x256_0_1 : (⟨S525312x1, .f32⟩ : BufTy).Contents (Elt F) → (⟨S525312x256, .f32⟩ : BufTy).Contents (Elt F)),
    binary main_v246 main_v248 main_v249 (mulf : (⟨S525312x256, .f32⟩ : BufTy).Contents (Elt F) → (⟨S525312x256, .f32⟩ : BufTy).Contents (Elt F) → (⟨S525312x256, .f32⟩ : BufTy).Contents (Elt F)),
    nullary main_cst_69 (constant S_ .f32 0x00000000#32),
    unary main_cst_69 main_v250 (broadcastInDim S2048x256 ![] bcast_S_S2048x256 : (⟨S_, .f32⟩ : BufTy).Contents (Elt F) → (⟨S2048x256, .f32⟩ : BufTy).Contents (Elt F)),
    nullary main_c_70 (constantI S_ 32 0#32),
    unary main_c_70 main_v251 (broadcastInDim S525312 ![] bcast_S_S525312 : (⟨S_, .i32⟩ : BufTy).Contents (Elt F) → (⟨S525312, .i32⟩ : BufTy).Contents (Elt F)),
    binary main_v149 main_v251 main_v252 (cmpi .slt : (⟨S525312, .i32⟩ : BufTy).Contents (Elt F) → (⟨S525312, .i32⟩ : BufTy).Contents (Elt F) → (⟨S525312, .i1⟩ : BufTy).Contents (Elt F)),
    nullary main_c_71 (constantI S_ 32 2048#32),
    unary main_c_71 main_v253 (broadcastInDim S525312 ![] bcast_S_S525312 : (⟨S_, .i32⟩ : BufTy).Contents (Elt F) → (⟨S525312, .i32⟩ : BufTy).Contents (Elt F)),
    binary main_v149 main_v253 main_v254 (addi : (⟨S525312, .i32⟩ : BufTy).Contents (Elt F) → (⟨S525312, .i32⟩ : BufTy).Contents (Elt F) → (⟨S525312, .i32⟩ : BufTy).Contents (Elt F)),
    ternary main_v252 main_v254 main_v149 main_v255 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)),
    unary main_v255 main_v256 (broadcastInDim S525312x1 ![0] bcast_S525312_S525312x1_0 : (⟨S525312, .i32⟩ : BufTy).Contents (Elt F) → (⟨S525312x1, .i32⟩ : BufTy).Contents (Elt F)),
    ternary main_v250 main_v256 main_v249 main_v257 ((fun x i u => Host.scatterAdd scatter_S2048x256_S525312x1_S525312x256_1_0_0_1 x i u) : (⟨S2048x256, .f32⟩ : BufTy).Contents (Elt F) → (⟨S525312x1, .i32⟩ : BufTy).Contents (Elt F) → (⟨S525312x256, .f32⟩ : BufTy).Contents (Elt F) → (⟨S2048x256, .f32⟩ : BufTy).Contents (Elt F)),
    nullary main_cst_72 (constant S_ .f32 0x3F333333#32),
    unary main_cst_72 main_v258 (broadcastInDim S2048x256 ![] bcast_S_S2048x256 : (⟨S_, .f32⟩ : BufTy).Contents (Elt F) → (⟨S2048x256, .f32⟩ : BufTy).Contents (Elt F)),
    binary main_v258 main_v257 main_v259 (mulf : (⟨S2048x256, .f32⟩ : BufTy).Contents (Elt F) → (⟨S2048x256, .f32⟩ : BufTy).Contents (Elt F) → (⟨S2048x256, .f32⟩ : BufTy).Contents (Elt F)),
    binary main_v239 main_v259 main_v260 (addf : (⟨S2048x256, .f32⟩ : BufTy).Contents (Elt F) → (⟨S2048x256, .f32⟩ : BufTy).Contents (Elt F) → (⟨S2048x256, .f32⟩ : BufTy).Contents (Elt F)),
    binary main_v260 main_arg5 main_v261 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg6 main_v262 (broadcastInDim S1x256 ![1] bcast_S256_S1x256_1 : (⟨S256, .f32⟩ : BufTy).Contents (Elt F) → (⟨S1x256, .f32⟩ : BufTy).Contents (Elt F)),
    unary main_v262 main_v263 (broadcastInDim S2048x256 ![0, 1] bcast_S1x256_S2048x256_0_1 : (⟨S1x256, .f32⟩ : BufTy).Contents (Elt F) → (⟨S2048x256, .f32⟩ : BufTy).Contents (Elt F)),
    binary main_v261 main_v263 main_v264 (addf : (⟨S2048x256, .f32⟩ : BufTy).Contents (Elt F) → (⟨S2048x256, .f32⟩ : BufTy).Contents (Elt F) → (⟨S2048x256, .f32⟩ : BufTy).Contents (Elt F)),
    unary main_v264 main_v265 (Host.tanh : (⟨S2048x256, .f32⟩ : BufTy).Contents (Elt F) → (⟨S2048x256, .f32⟩ : BufTy).Contents (Elt F)),
    nullary main_cst_73 (constant S_ .f32 0x00000000#32),
    unary main_cst_73 main_v266 (broadcastInDim S4x256 ![] bcast_S_S4x256 : (⟨S_, .f32⟩ : BufTy).Contents (Elt F) → (⟨S4x256, .f32⟩ : BufTy).Contents (Elt F)),
    unary main_v145 main_v267 (broadcastInDim S2048x1 ![0] bcast_S2048_S2048x1_0 : (⟨S2048, .i32⟩ : BufTy).Contents (Elt F) → (⟨S2048x1, .i32⟩ : BufTy).Contents (Elt F)),
    ternary main_v266 main_v267 main_v265 main_v268 ((fun x i u => Host.scatterAdd scatter_S4x256_S2048x1_S2048x256_1_0_0_1 x i u) : (⟨S4x256, .f32⟩ : BufTy).Contents (Elt F) → (⟨S2048x1, .i32⟩ : BufTy).Contents (Elt F) → (⟨S2048x256, .f32⟩ : BufTy).Contents (Elt F) → (⟨S4x256, .f32⟩ : BufTy).Contents (Elt F)),
    nullary main_cst_74 (constant S_ .f32 0x3F800000#32),
    unary main_cst_74 main_v269 (broadcastInDim S2048 ![] bcast_S_S2048 : (⟨S_, .f32⟩ : BufTy).Contents (Elt F) → (⟨S2048, .f32⟩ : BufTy).Contents (Elt F)),
    nullary main_cst_75 (constant S_ .f32 0x00000000#32),
    unary main_cst_75 main_v270 (broadcastInDim S4 ![] bcast_S_S4 : (⟨S_, .f32⟩ : BufTy).Contents (Elt F) → (⟨S4, .f32⟩ : BufTy).Contents (Elt F)),
    unary main_v145 main_v271 (broadcastInDim S2048x1 ![0] bcast_S2048_S2048x1_0 : (⟨S2048, .i32⟩ : BufTy).Contents (Elt F) → (⟨S2048x1, .i32⟩ : BufTy).Contents (Elt F)),
    ternary main_v270 main_v271 main_v269 main_v272 ((fun x i u => Host.scatterAdd scatter_S4_S2048x1_S2048_n_0_0_1 x i u) : (⟨S4, .f32⟩ : BufTy).Contents (Elt F) → (⟨S2048x1, .i32⟩ : BufTy).Contents (Elt F) → (⟨S2048, .f32⟩ : BufTy).Contents (Elt F) → (⟨S4, .f32⟩ : BufTy).Contents (Elt F)),
    unary main_v272 main_v273 (broadcastInDim S4x1 ![0] bcast_S4_S4x1_0 : (⟨S4, .f32⟩ : BufTy).Contents (Elt F) → (⟨S4x1, .f32⟩ : BufTy).Contents (Elt F)),
    unary main_v273 main_v274 (broadcastInDim S4x256 ![0, 1] bcast_S4x1_S4x256_0_1 : (⟨S4x1, .f32⟩ : BufTy).Contents (Elt F) → (⟨S4x256, .f32⟩ : BufTy).Contents (Elt F)),
    binary main_v268 main_v274 main_v275 (Host.divf : (⟨S4x256, .f32⟩ : BufTy).Contents (Elt F) → (⟨S4x256, .f32⟩ : BufTy).Contents (Elt F) → (⟨S4x256, .f32⟩ : BufTy).Contents (Elt F)),
    binary main_v275 main_arg7 main_v276 ((fun l r => Host.dotGeneral dot_S4x256_S256x128_S4x128_1_0_0_1_n_n none l r) : (⟨S4x256, .f32⟩ : BufTy).Contents (Elt F) → (⟨S256x128, .f32⟩ : BufTy).Contents (Elt F) → (⟨S4x128, .f32⟩ : BufTy).Contents (Elt F)),
    unary main_arg8 main_v277 (broadcastInDim S1x128 ![1] bcast_S128_S1x128_1 : (⟨S128, .f32⟩ : BufTy).Contents (Elt F) → (⟨S1x128, .f32⟩ : BufTy).Contents (Elt F)),
    unary main_v277 main_v278 (broadcastInDim S4x128 ![0, 1] bcast_S1x128_S4x128_0_1 : (⟨S1x128, .f32⟩ : BufTy).Contents (Elt F) → (⟨S4x128, .f32⟩ : BufTy).Contents (Elt F)),
    binary main_v276 main_v278 main_v279 (addf : (⟨S4x128, .f32⟩ : BufTy).Contents (Elt F) → (⟨S4x128, .f32⟩ : BufTy).Contents (Elt F) → (⟨S4x128, .f32⟩ : BufTy).Contents (Elt F)),
    unary main_v279 main_v280 (Host.tanh : (⟨S4x128, .f32⟩ : BufTy).Contents (Elt F) → (⟨S4x128, .f32⟩ : BufTy).Contents (Elt F)),
    binary main_v280 main_arg9 main_v281 ((fun l r => Host.dotGeneral dot_S4x128_S128x2_S4x2_1_0_0_1_n_n none l r) : (⟨S4x128, .f32⟩ : BufTy).Contents (Elt F) → (⟨S128x2, .f32⟩ : BufTy).Contents (Elt F) → (⟨S4x2, .f32⟩ : BufTy).Contents (Elt F)) ]

/-- The window is its operations run one after the other (each call replaced by its callee's operations). -/
theorem part5_eq (d : Dev nD) : main_part5 (F := F) d = seq ops5 := by
  simp only [main_part5, fn_triu.body, fn_cumsum_0.body, fn_cumsum.body, fn_clip.body, fn_cumsum_2.body, fn_cumsum_1.body, fn_where.body, fn_floor_divide.body, fn_where_3.body, fn_remainder.body, fn_where_4.body, seq, bind_assoc, pure_bind]
  rfl

/-- Every operation of the window touches only device buffers. -/
theorem ops5_sub : (ops5 : List (HloOp τ sig (Elt F))).Forall fun op => op.bufs ⊆ tcRefs τ sig :=
  ⟨binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., binary_bufs_sub .., binary_bufs_sub .., unary_bufs_sub .., unary_bufs_sub .., binary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., binary_bufs_sub ..⟩

/-- No operation of the window allocates. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the window writes one buffer, in a slot past the arguments'. -/
theorem ops5_high : (ops5 : List (HloOp τ sig (Elt F))).Forall (WritesPast (τ := τ) 11) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The window is in single-assignment form with ascending slots, from slot 399 up to slot 459: each operation writes
    one new buffer, above all written before, and reads only buffers below it. -/
theorem ops5_asc : AscendingTo (τ := τ) 399 (ops5 : List (HloOp τ sig (Elt F))) 459 :=
  ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_ternary _ _ _ _ _ _ _ _ _ (by decide) (by decide) (by decide),
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_unary _ _ _ _ _ (by decide),
    ⟨_, rfl, by decide, readsBelow_ternary _ _ _ _ _ _ _ _ _ (by decide) (by decide) (by decide),
    ⟨_, rfl, by decide, readsBelow_nullary _ _ _,
    ⟨_, rfl, by decide, readsBelow_unary _ _ _ _ _ (by decide),
    ⟨_, rfl, by decide, readsBelow_nullary _ _ _,
    ⟨_, rfl, by decide, readsBelow_unary _ _ _ _ _ (by decide),
    ⟨_, rfl, by decide, readsBelow_unary _ _ _ _ _ (by decide),
    ⟨_, rfl, by decide, readsBelow_ternary _ _ _ _ _ _ _ _ _ (by decide) (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_binary _ _ _ _ _ _ _ (by decide) (by decide),
    ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    ⟨_, rfl, by decide, readsBelow_unary _ _ _ _ _ (by decide),
    ⟨_, rfl, by decide, readsBelow_binary _ _ _ _ _ _ _ (by decide) (by decide),
    (by decide : 459 ≤ 459)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.ReferenceIdeal.Line

end
-- ==== Proof.RefLine6.lean ====
/- Window 6 of the reference program's host operations as one literal list, in program order, every outlined
    function's operations written at its call over that call's buffers. Beside the list: the window is the list run in
    sequence; every operation touches only device buffers; none allocates; and each writes exactly one buffer, whose slot
    lies beyond the eleven argument slots (so no operation overwrites an argument array). -/
import proofs.«120006_g55027120997065_cont_sun_c4_852_12_alg».proof.Proof.Gen.ReferenceIdeal
import proofs.«120006_g55027120997065_cont_sun_c4_852_12_alg».proof.Proof.LibHostLine
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 3 operations of window 6, in order. -/
abbrev ops6 : List (HloOp τ sig (Elt F)) :=
  [ unary main_arg10 main_v282 (broadcastInDim S1x2 ![1] bcast_S2_S1x2_1 : (⟨S2, .f32⟩ : BufTy).Contents (Elt F) → (⟨S1x2, .f32⟩ : BufTy).Contents (Elt F)),
    unary main_v282 main_v283 (broadcastInDim S4x2 ![0, 1] bcast_S1x2_S4x2_0_1 : (⟨S1x2, .f32⟩ : BufTy).Contents (Elt F) → (⟨S4x2, .f32⟩ : BufTy).Contents (Elt F)),
    binary main_v281 main_v283 main_v284 (addf : (⟨S4x2, .f32⟩ : BufTy).Contents (Elt F) → (⟨S4x2, .f32⟩ : BufTy).Contents (Elt F) → (⟨S4x2, .f32⟩ : BufTy).Contents (Elt F)) ]

/-- The window is its operations run one after the other (each call replaced by its callee's operations). -/
theorem part6_eq (d : Dev nD) : main_part6 (F := F) d = seq ops6 := by
  simp only [main_part6, fn_triu.body, fn_cumsum_0.body, fn_cumsum.body, fn_clip.body, fn_cumsum_2.body, fn_cumsum_1.body, fn_where.body, fn_floor_divide.body, fn_where_3.body, fn_remainder.body, fn_where_4.body, seq, bind_assoc, pure_bind]

/-- Every operation of the window touches only device buffers. -/
theorem ops6_sub : (ops6 : List (HloOp τ sig (Elt F))).Forall fun op => op.bufs ⊆ tcRefs τ sig :=
  ⟨unary_bufs_sub .., unary_bufs_sub .., binary_bufs_sub ..⟩

/-- No operation of the window allocates. -/
theorem ops6_fresh : (ops6 : List (HloOp τ sig (Elt F))).Forall fun op => op.fresh = ∅ :=
  ⟨rfl, rfl, rfl⟩

/-- Each operation of the window writes one buffer, in a slot past the arguments'. -/
theorem ops6_high : (ops6 : List (HloOp τ sig (Elt F))).Forall (WritesPast (τ := τ) 11) :=
  ⟨⟨_, rfl, by decide⟩, ⟨_, rfl, by decide⟩, ⟨_, rfl, by decide⟩⟩

/-- The window is in single-assignment form with ascending slots, from slot 459 up to slot 462: each operation writes
    one new buffer, above all written before, and reads only buffers below it. -/
theorem ops6_asc : AscendingTo (τ := τ) 459 (ops6 : List (HloOp τ sig (Elt F))) 462 :=
  ⟨_, rfl, by decide, readsBelow_unary _ _ _ _ _ (by decide),
    ⟨_, rfl, by decide, readsBelow_unary _ _ _ _ _ (by decide),
    ⟨_, rfl, by decide, readsBelow_binary _ _ _ _ _ _ _ (by decide) (by decide),
    (by decide : 462 ≤ 462)⟩⟩⟩

end Cert.ReferenceIdeal.Line

end
-- ==== Proof.RefRun.lean ====
/- The reference program's run.

   The reference is a host program with no kernel launch: a straight line of 451 operations once every outlined function
   is written at its call. Its seven printed windows are seven literal lists; here they are joined: @main is the joined
   list run in sequence, so every weakly fair execution terminates without fault and each device buffer ends holding what
   the operations, folded in order over the launch contents, leave there. Every operation writes one buffer in a slot past
   the eleven argument slots, so the eleven argument arrays end as they began: the reference's frame claim.

   The line is moreover in single-assignment form with ascending slots (slot 11 to slot 461, one new buffer per operation,
   each reading only lower slots), so at the end every operation's equation holds between the final buffer contents: the
   451 operations are a system of 451 equations over the final memory, the form in which the reference's value is read. -/
import proofs.«120006_g55027120997065_cont_sun_c4_852_12_alg».proof.Defs
import proofs.«120006_g55027120997065_cont_sun_c4_852_12_alg».proof.Proof.Gen.Pre_finite_inputs
import proofs.«120006_g55027120997065_cont_sun_c4_852_12_alg».proof.Proof.RefLine0
import proofs.«120006_g55027120997065_cont_sun_c4_852_12_alg».proof.Proof.RefLine1
import proofs.«120006_g55027120997065_cont_sun_c4_852_12_alg».proof.Proof.RefLine2
import proofs.«120006_g55027120997065_cont_sun_c4_852_12_alg».proof.Proof.RefLine3
import proofs.«120006_g55027120997065_cont_sun_c4_852_12_alg».proof.Proof.RefLine4
import proofs.«120006_g55027120997065_cont_sun_c4_852_12_alg».proof.Proof.RefLine5
import proofs.«120006_g55027120997065_cont_sun_c4_852_12_alg».proof.Proof.RefLine6

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The windows after window k, joined (so that each join is of one literal list with a named rest). -/
def rest5 : List (HloOp τ sig (Elt F)) := ops5 ++ ops6
def rest4 : List (HloOp τ sig (Elt F)) := ops4 ++ rest5
def rest3 : List (HloOp τ sig (Elt F)) := ops3 ++ rest4
def rest2 : List (HloOp τ sig (Elt F)) := ops2 ++ rest3
def rest1 : List (HloOp τ sig (Elt F)) := ops1 ++ rest2
/-- All of @main's operations, in order. -/
def ops : List (HloOp τ sig (Elt F)) := ops0 ++ rest1

/-- @main is its operations run one after the other. -/
theorem main_eq (d : Dev nD) : main (F := F) d = seq ops := by
  unfold main ops rest1 rest2 rest3 rest4 rest5
  rw [part0_eq, part1_eq, part2_eq, part3_eq, part4_eq, part5_eq, part6_eq]
  simp only [seq_append]

theorem ops_sub : (ops : List (HloOp τ sig (Elt F))).Forall fun op => op.bufs ⊆ tcRefs τ sig :=
  forall_append_of ops0_sub (forall_append_of ops1_sub (forall_append_of ops2_sub (forall_append_of ops3_sub
    (forall_append_of ops4_sub (forall_append_of ops5_sub ops6_sub)))))

theorem ops_fresh : (ops : List (HloOp τ sig (Elt F))).Forall fun op => op.fresh = ∅ :=
  forall_append_of ops0_fresh (forall_append_of ops1_fresh (forall_append_of ops2_fresh (forall_append_of ops3_fresh
    (forall_append_of ops4_fresh (forall_append_of ops5_fresh ops6_fresh)))))

theorem ops_high : (ops : List (HloOp τ sig (Elt F))).Forall (WritesPast (τ := τ) 11) :=
  forall_append_of ops0_high (forall_append_of ops1_high (forall_append_of ops2_high (forall_append_of ops3_high
    (forall_append_of ops4_high (forall_append_of ops5_high ops6_high)))))

/-- The whole line is in single-assignment form with ascending slots, from the first slot after the arguments. -/
theorem ops_asc : AscendingTo (τ := τ) 11 (ops : List (HloOp τ sig (Elt F))) 462 := by
  unfold ops rest1 rest2 rest3 rest4 rest5
  exact ops0_asc.append (ops1_asc.append (ops2_asc.append (ops3_asc.append (ops4_asc.append (ops5_asc.append ops6_asc)))))

theorem mem_ops0 {op : HloOp τ sig (Elt F)} (h : op ∈ (ops0 : List (HloOp τ sig (Elt F)))) : op ∈ (ops : List (HloOp τ sig (Elt F))) := by
  unfold ops; exact List.mem_append_left _ h
theorem mem_ops1 {op : HloOp τ sig (Elt F)} (h : op ∈ (ops1 : List (HloOp τ sig (Elt F)))) : op ∈ (ops : List (HloOp τ sig (Elt F))) := by
  unfold ops rest1; exact List.mem_append_right _ (List.mem_append_left _ h)
theorem mem_ops2 {op : HloOp τ sig (Elt F)} (h : op ∈ (ops2 : List (HloOp τ sig (Elt F)))) : op ∈ (ops : List (HloOp τ sig (Elt F))) := by
  unfold ops rest1 rest2; exact List.mem_append_right _ (List.mem_append_right _ (List.mem_append_left _ h))
theorem mem_ops3 {op : HloOp τ sig (Elt F)} (h : op ∈ (ops3 : List (HloOp τ sig (Elt F)))) : op ∈ (ops : List (HloOp τ sig (Elt F))) := by
  unfold ops rest1 rest2 rest3
  exact List.mem_append_right _ (List.mem_append_right _ (List.mem_append_right _ (List.mem_append_left _ h)))
theorem mem_ops4 {op : HloOp τ sig (Elt F)} (h : op ∈ (ops4 : List (HloOp τ sig (Elt F)))) : op ∈ (ops : List (HloOp τ sig (Elt F))) := by
  unfold ops rest1 rest2 rest3 rest4
  exact List.mem_append_right _ (List.mem_append_right _ (List.mem_append_right _ (List.mem_append_right _ (List.mem_append_left _ h))))
theorem mem_ops5 {op : HloOp τ sig (Elt F)} (h : op ∈ (ops5 : List (HloOp τ sig (Elt F)))) : op ∈ (ops : List (HloOp τ sig (Elt F))) := by
  unfold ops rest1 rest2 rest3 rest4 rest5
  exact List.mem_append_right _ (List.mem_append_right _ (List.mem_append_right _ (List.mem_append_right _
    (List.mem_append_right _ (List.mem_append_left _ h)))))
theorem mem_ops6 {op : HloOp τ sig (Elt F)} (h : op ∈ (ops6 : List (HloOp τ sig (Elt F)))) : op ∈ (ops : List (HloOp τ sig (Elt F))) := by
  unfold ops rest1 rest2 rest3 rest4 rest5
  exact List.mem_append_right _ (List.mem_append_right _ (List.mem_append_right _ (List.mem_append_right _
    (List.mem_append_right _ (List.mem_append_right _ h)))))

/-- At the end of the line every operation's equation holds: its result buffer holds its function of the FINAL contents. -/
theorem final_eq (V : Valuation τ sig (Elt F)) {op : HloOp τ sig (Elt F)} (hop : op ∈ (ops : List (HloOp τ sig (Elt F))))
    (y : Ref sig .tc) (hw : op.writes = {Proc.devRef (τ := τ) .tc y}) (hr : ReadsBelow op y) :
    after ops V (Proc.devRef .tc y) = op.result (after ops V) (Proc.devRef .tc y) :=
  ops_asc.fixpoint V op hop y hw hr

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of the reference terminates without fault, and each
    device buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- A buffer in one of the eleven argument slots holds, after the whole line, what it held at launch. -/
theorem arg_kept (m : (ℓ : Loc nD τ sig) → Buf (Elt F) ℓ) (c : Dev nD) (b : Ref sig .tc) (hb : b.idx.val < 11) :
    after ops (launchContents m c) (Proc.devRef .tc b) = m ((c.tc : Thread nD τ).loc b) :=
  after_keep_of_writesPast hb ops (launchContents m c) ops_high

end Cert.ReferenceIdeal.Line

namespace Cert.Proof.ReferenceSide

open Cert.ReferenceIdeal Cert.ReferenceIdeal.Gen Cert.ReferenceIdeal.Line Idealize.ShloMosaic Idealize.ShloMosaic.TcCoe Idealize.SL.Sem
  Idealize.ShloMosaic.StableHlo

/-- The reference terminates, faults nowhere and keeps its eleven arguments. -/
theorem frame_referenceIdeal : Cert.frame_ReferenceIdeal := fun m ρ _ =>
  (θ_run Cert.ReferenceIdeal.defs _ _).mono (fun r h c =>
    ⟨(h c main_arg0).trans (arg_kept m c main_arg0 (by decide)),
     (h c main_arg1).trans (arg_kept m c main_arg1 (by decide)),
     (h c main_arg2).trans (arg_kept m c main_arg2 (by decide)),
     (h c main_arg3).trans (arg_kept m c main_arg3 (by decide)),
     (h c main_arg4).trans (arg_kept m c main_arg4 (by decide)),
     (h c main_arg5).trans (arg_kept m c main_arg5 (by decide)),
     (h c main_arg6).trans (arg_kept m c main_arg6 (by decide)),
     (h c main_arg7).trans (arg_kept m c main_arg7 (by decide)),
     (h c main_arg8).trans (arg_kept m c main_arg8 (by decide)),
     (h c main_arg9).trans (arg_kept m c main_arg9 (by decide)),
     (h c main_arg10).trans (arg_kept m c main_arg10 (by decide))⟩)
    (run_main (F := Ideal) m ρ)

end Cert.Proof.ReferenceSide

end
-- ==== Proof.Consts.lean ====
/- The float constants the two programs spell, as the reals their bit patterns denote.

   One (the self-loop weight and the unit added to every degree), two (the factor of the inner product in the squared
   distance), 512 (the number of nodes averaged over), the mixing weights 0.3 and 0.7 as the f32 values nearest to them,
   and the floor 1e-12 under the square root, again as its nearest f32 value, which is positive and at most one. -/
import Idealize.ShloMosaic.PureOps.Ideal

noncomputable section

namespace Cert.Consts

open Idealize.ShloMosaic

/-- The f32 nearest 0.3. -/
def alphaR : ℝ := 10066330 / 2 ^ 25
/-- The f32 nearest 0.7. -/
def betaR : ℝ := 11744051 / 2 ^ 24
/-- The f32 nearest 1e-12. -/
def epsR : ℝ := 9223372 / 2 ^ 63

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_alpha : Ideal.ofBits .f32 0x3E99999A#32 = ((alphaR : ℝ) : EReal) := by
  simp [Ideal.ofBits, Ideal.ieee, -EReal.coe_mul, alphaR]; norm_num

theorem ofBits_beta : Ideal.ofBits .f32 0x3F333333#32 = ((betaR : ℝ) : EReal) := by
  simp [Ideal.ofBits, Ideal.ieee, -EReal.coe_mul, betaR]; norm_num

theorem ofBits_eps : Ideal.ofBits .f32 0x2B8CBCCC#32 = ((epsR : ℝ) : EReal) := by
  simp [Ideal.ofBits, Ideal.ieee, -EReal.coe_mul, epsR]; norm_num

theorem epsR_le_one : epsR ≤ 1 := by unfold epsR; norm_num
theorem epsR_pos : 0 < epsR := by unfold epsR; norm_num

end Cert.Consts

end
-- ==== Proof.Spec.lean ====
/- What both programs compute, as functions of real inputs.

   Inputs: four point clouds X b of 512 nodes with 128 real features each; three layer weight matrices with biases; a dense
   layer and an output layer. Per batch element b:
     d2 i j   = the squared euclidean distance of nodes i and j,
     dist i j = sqrt (max (d2 i j) eps), eps the f32 nearest 1e-12,
     deg j    = 1 + the sum of dist i j over i < j                       (in-degree of j in the upper-triangular graph, plus
                                                                           the unit self-loop),
     dinv j   = deg j ^ (-1/2),
     adj j i  = dinv i · dist i j · dinv j for i < j,  dinv j · dinv j for i = j,  0 for i > j,
     a layer  x ↦ tanh ((alpha · x + beta · adj x) W + bias)              (alpha, beta the f32 nearest 0.3, 0.7),
   three layers in sequence, the mean over the 512 nodes, then tanh (· DW + db) and a last affine map · OW + ob. -/
import Mathlib.Analysis.SpecialFunctions.Trigonometric.Basic
import Mathlib.Analysis.SpecialFunctions.Sqrt
import Mathlib.Analysis.SpecialFunctions.Trigonometric.DerivHyp
import proofs.«120006_g55027120997065_cont_sun_c4_852_12_alg».proof.Proof.Consts

noncomputable section

namespace Cert.Spec

open Cert.Consts

/-- The eleven inputs, as real arrays. -/
structure Params where
  X : Fin 4 → Fin 512 → Fin 128 → ℝ
  W1 : Fin 128 → Fin 256 → ℝ
  b1 : Fin 256 → ℝ
  W2 : Fin 256 → Fin 256 → ℝ
  b2 : Fin 256 → ℝ
  W3 : Fin 256 → Fin 256 → ℝ
  b3 : Fin 256 → ℝ
  DW : Fin 256 → Fin 128 → ℝ
  db : Fin 128 → ℝ
  OW : Fin 128 → Fin 2 → ℝ
  ob : Fin 2 → ℝ

variable (P : Params)

/-- Squared distance of nodes i and j of batch element b. -/
def d2 (b : Fin 4) (i j : Fin 512) : ℝ := ∑ k : Fin 128, (P.X b i k - P.X b j k) ^ 2
/-- Their distance, the square floored at eps. -/
def dist (b : Fin 4) (i j : Fin 512) : ℝ := Real.sqrt (max (d2 P b i j) epsR)
/-- Weighted in-degree of j: the distances from the lower-numbered nodes, plus the self-loop. -/
def deg (b : Fin 4) (j : Fin 512) : ℝ := (∑ i : Fin 512, if i < j then dist P b i j else 0) + 1
def dinv (b : Fin 4) (j : Fin 512) : ℝ := (Real.sqrt (deg P b j))⁻¹
/-- The normalised adjacency: row j the target, column i the source. -/
def adj (b : Fin 4) (j i : Fin 512) : ℝ :=
  if i < j then dinv P b i * dist P b i j * dinv P b j else if i = j then dinv P b j * dinv P b j else 0
/-- One graph layer on C input and C' output features. -/
def layer {C C' : ℕ} (W : Fin C → Fin C' → ℝ) (bias : Fin C' → ℝ) (x : Fin 4 → Fin 512 → Fin C → ℝ) :
    Fin 4 → Fin 512 → Fin C' → ℝ :=
  fun b j c' => Real.tanh ((∑ c : Fin C, (alphaR * x b j c + betaR * ∑ i : Fin 512, adj P b j i * x b i c) * W c c') + bias c')
def x1 : Fin 4 → Fin 512 → Fin 256 → ℝ := layer P P.W1 P.b1 P.X
def x2 : Fin 4 → Fin 512 → Fin 256 → ℝ := layer P P.W2 P.b2 (x1 P)
def x3 : Fin 4 → Fin 512 → Fin 256 → ℝ := layer P P.W3 P.b3 (x2 P)
/-- The mean over the nodes. -/
def pooled (b : Fin 4) (c : Fin 256) : ℝ := (∑ j : Fin 512, x3 P b j c) / 512
def hidden (b : Fin 4) (c' : Fin 128) : ℝ := Real.tanh ((∑ c : Fin 256, pooled P b c * P.DW c c') + P.db c')
/-- The result: two numbers per batch element. -/
def out (b : Fin 4) (o : Fin 2) : ℝ := (∑ c : Fin 128, hidden P b c * P.OW c o) + P.ob o

/-- The degree is at least one: distances are not negative. -/
theorem one_le_deg (b : Fin 4) (j : Fin 512) : 1 ≤ deg P b j := by
  unfold deg
  have : 0 ≤ ∑ i : Fin 512, if i < j then dist P b i j else 0 :=
    Finset.sum_nonneg fun i _ => by
      split
      · exact Real.sqrt_nonneg _
      · exact le_refl 0
  linarith

end Cert.Spec

end
-- ==== Proof.Inputs.lean ====
/- The interface between the two programs' value proofs: the eleven argument arrays on the extended reals, what it means
   for them to hold real numbers, the real inputs they then are, and the result array the specification assigns to them.

   Each program's value proof shows: if the argument arrays are real, the program's result array is this one. -/
import proofs.«120006_g55027120997065_cont_sun_c4_852_12_alg».proof.Proof.Spec
import Idealize.ShloMosaic.Lib.ValueIdx
import Idealize.ShloMosaic.PureOps.Ideal

noncomputable section

namespace Cert.Inputs

open Idealize.ShloMosaic Idealize.ShloMosaic.ValueIdx

/-- The eleven argument arrays, at the extended reals, over their literal shapes. -/
structure Args where
  a0 : (⟨3, ![4, 512, 128]⟩ : Shape).Idx → EReal
  a1 : (⟨2, ![128, 256]⟩ : Shape).Idx → EReal
  a2 : (⟨1, ![256]⟩ : Shape).Idx → EReal
  a3 : (⟨2, ![256, 256]⟩ : Shape).Idx → EReal
  a4 : (⟨1, ![256]⟩ : Shape).Idx → EReal
  a5 : (⟨2, ![256, 256]⟩ : Shape).Idx → EReal
  a6 : (⟨1, ![256]⟩ : Shape).Idx → EReal
  a7 : (⟨2, ![256, 128]⟩ : Shape).Idx → EReal
  a8 : (⟨1, ![128]⟩ : Shape).Idx → EReal
  a9 : (⟨2, ![128, 2]⟩ : Shape).Idx → EReal
  a10 : (⟨1, ![2]⟩ : Shape).Idx → EReal

/-- An array of extended reals holds real numbers. -/
def IsReal {S : Shape} (a : S.Idx → EReal) : Prop := ∀ i, a i = ((a i).toReal : EReal)

/-- All eleven arrays hold real numbers. -/
structure Args.Real (A : Args) : Prop where
  h0 : IsReal A.a0
  h1 : IsReal A.a1
  h2 : IsReal A.a2
  h3 : IsReal A.a3
  h4 : IsReal A.a4
  h5 : IsReal A.a5
  h6 : IsReal A.a6
  h7 : IsReal A.a7
  h8 : IsReal A.a8
  h9 : IsReal A.a9
  h10 : IsReal A.a10

/-- The real inputs the arrays are. -/
def Args.params (A : Args) : Cert.Spec.Params where
  X := fun b i k => (A.a0 (ix3 b i k)).toReal
  W1 := fun c c' => (A.a1 (ix2 c c')).toReal
  b1 := fun c => (A.a2 (ix1 c)).toReal
  W2 := fun c c' => (A.a3 (ix2 c c')).toReal
  b2 := fun c => (A.a4 (ix1 c)).toReal
  W3 := fun c c' => (A.a5 (ix2 c c')).toReal
  b3 := fun c => (A.a6 (ix1 c)).toReal
  DW := fun c c' => (A.a7 (ix2 c c')).toReal
  db := fun c => (A.a8 (ix1 c)).toReal
  OW := fun c o => (A.a9 (ix2 c o)).toReal
  ob := fun o => (A.a10 (ix1 o)).toReal

/-- The result array the specification assigns: two numbers per batch element. -/
def Args.result (A : Args) : (⟨2, ![4, 2]⟩ : Shape).Idx → EReal :=
  fun i => ((Cert.Spec.out A.params (i 0) (i 1) : ℝ) : EReal)

end Cert.Inputs

end
-- ==== Proof.KernelOps.lean ====
/- Arrays of extended reals that hold real numbers, operation by operation.

   An array `a` of extended reals over a shape [n, m] "holds" the real matrix `A` when every entry of `a` is the
   coercion of the entry of `A` (`R2 a A`). Each vector operation the kernel body uses sends arrays that hold reals to an
   array that holds the reals one expects: sums, differences and products entrywise, the maximum, the square root of a
   non-negative entry, the reciprocal square root of a positive one, tanh, division by a nonzero constant, a change of
   float format (the identity), a splat constant, the matrix products (plain, and with the right operand transposed) into
   a zero accumulator as finite sums, the row sums and column sums kept as a column and a row, the transpose of a column,
   and the broadcasts of a column and of a row. -/
import Idealize.ShloMosaic.PureOps.Ideal.Laws
import Idealize.ShloMosaic.Lib.ValueLayout

noncomputable section

namespace Cert.Proof.KernelOps

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum. -/
theorem coe_max' (a b : ℝ) : max (a : EReal) (b : EReal) = ((max a b : ℝ) : EReal) :=
  (EReal.coe_strictMono.monotone.map_max).symm

/-- The array `a` over [n, m] holds the real matrix `A`. -/
def R2 {n m : ℕ} (a : (⟨2, ![n, m]⟩ : Shape).Idx → EReal) (A : Fin n → Fin m → ℝ) : Prop :=
  ∀ r c, a (ix2 r c) = ((A r c : ℝ) : EReal)

variable {n m k : ℕ} {φ : FTy}

theorem R2.congr {a : (⟨2, ![n, m]⟩ : Shape).Idx → EReal} {A B : Fin n → Fin m → ℝ} (ha : R2 a A) (h : ∀ r c, A r c = B r c) :
    R2 a B := fun r c => by rw [ha r c, h r c]

/-- Two arrays that hold the same reals are equal. -/
theorem R2.ext {a b : (⟨2, ![n, m]⟩ : Shape).Idx → EReal} {A : Fin n → Fin m → ℝ} (ha : R2 a A) (hb : R2 b A) : a = b := by
  funext j
  obtain ⟨r, c, rfl⟩ : ∃ (r : Fin n) (c : Fin m), j = ix2 r c := ⟨j 0, j 1, eq_ix2 j⟩
  rw [ha r c, hb r c]

theorem R2.addf {a b : FVec Ideal ⟨2, ![n, m]⟩ φ} {A B : Fin n → Fin m → ℝ} (ha : R2 a A) (hb : R2 b B) :
    R2 (addf a b) (fun r c => A r c + B r c) := fun r c => by
  show a (ix2 r c) + b (ix2 r c) = _
  rw [ha r c, hb r c, EReal.coe_add]

theorem R2.subf {a b : FVec Ideal ⟨2, ![n, m]⟩ φ} {A B : Fin n → Fin m → ℝ} (ha : R2 a A) (hb : R2 b B) :
    R2 (subf a b) (fun r c => A r c - B r c) := fun r c => by
  show a (ix2 r c) - b (ix2 r c) = _
  rw [ha r c, hb r c, EReal.coe_sub]

theorem R2.mulf {a b : FVec Ideal ⟨2, ![n, m]⟩ φ} {A B : Fin n → Fin m → ℝ} (ha : R2 a A) (hb : R2 b B) :
    R2 (mulf a b) (fun r c => A r c * B r c) := fun r c => by
  show a (ix2 r c) * b (ix2 r c) = _
  rw [ha r c, hb r c, EReal.coe_mul]

theorem R2.maximumf {a b : FVec Ideal ⟨2, ![n, m]⟩ φ} {A B : Fin n → Fin m → ℝ} (ha : R2 a A) (hb : R2 b B) :
    R2 (maximumf a b) (fun r c => max (A r c) (B r c)) := fun r c => by
  show max (a (ix2 r c)) (b (ix2 r c)) = _
  rw [ha r c, hb r c, coe_max']

theorem R2.sqrt {a : FVec Ideal ⟨2, ![n, m]⟩ φ} {A : Fin n → Fin m → ℝ} (ha : R2 a A) (h0 : ∀ r c, 0 ≤ A r c) :
    R2 (sqrt a) (fun r c => Real.sqrt (A r c)) := fun r c => by
  show Ideal.sqrt (a (ix2 r c)) = _
  rw [ha r c, Ideal.sqrt_coe, if_neg (not_lt.mpr (h0 r c))]

theorem R2.rsqrt {a : FVec Ideal ⟨2, ![n, m]⟩ φ} {A : Fin n → Fin m → ℝ} (ha : R2 a A) (h0 : ∀ r c, 0 < A r c) :
    R2 (rsqrt a) (fun r c => (Real.sqrt (A r c))⁻¹) := fun r c => by
  show Ideal.rsqrt (a (ix2 r c)) = _
  rw [ha r c, Ideal.rsqrt_coe, if_neg (not_lt.mpr (h0 r c).le), if_neg (h0 r c).ne']

theorem R2.tanh {a : FVec Ideal ⟨2, ![n, m]⟩ φ} {A : Fin n → Fin m → ℝ} (ha : R2 a A) :
    R2 (tanh a) (fun r c => Real.tanh (A r c)) := fun r c => by
  show Ideal.tanh (a (ix2 r c)) = _
  rw [ha r c, Ideal.tanh_coe]

theorem R2.truncf {ψ : FTy} {a : FVec Ideal ⟨2, ![n, m]⟩ φ} {A : Fin n → Fin m → ℝ} (ha : R2 a A) (h : ψ.bits < φ.bits) :
    R2 (truncf ψ a h : FVec Ideal ⟨2, ![n, m]⟩ ψ) A := fun r c => ha r c

/-- A splat of a float literal holds the real the literal denotes. -/
theorem R2.splat (w : BitVec 32) (x : ℝ) (hw : Ideal.ofBits .f32 w = ((x : ℝ) : EReal)) :
    R2 (broadcast (⟨2, ![n, m]⟩ : Shape) (Scalar.ofBits (F := Ideal) .f32 w)) (fun _ _ => x) := fun _ _ => hw

theorem R2.divf_const {a b : FVec Ideal ⟨2, ![n, m]⟩ φ} {A : Fin n → Fin m → ℝ} {y : ℝ} (ha : R2 a A) (hb : R2 b (fun _ _ => y))
    (hy : y ≠ 0) : R2 (divf a b) (fun r c => A r c / y) := fun r c => by
  show Ideal.div (a (ix2 r c)) (b (ix2 r c)) = _
  rw [ha r c, hb r c, Ideal.div_coe hy, ← EReal.coe_mul, mul_one_div]

/-! ## Matrix products into the zero accumulator -/

/-- The plain product of an n × k by a k × m array, at an entry, is the sum over the contracted coordinate. -/
theorem matmul_plain_apply {φ₁ φ₂ : FTy} (w : DotDims.WF ⟨2, ![n, k]⟩ ⟨2, ![k, m]⟩ ⟨2, ![n, m]⟩ [1] [0] [0] [1] [] [])
    (prec : Option ContractPrecision) (l : FVec Ideal ⟨2, ![n, k]⟩ φ₁) (r : FVec Ideal ⟨2, ![k, m]⟩ φ₂) (i : Fin n) (j : Fin m) :
    FloatOps.matmul (⟨[1], [0], [0], [1], [], [], w⟩ : DotDims _ _ _) prec l r (constant ⟨2, ![n, m]⟩ .f32 0x00000000#32) (ix2 i j)
      = ∑ q : Fin k, l (ix2 i q) * r (ix2 q j) := by
  rw [Ideal.matmul_constant_zero_apply,
    ← Equiv.sum_comp (contrEquiv1 (⟨[1], [0], [0], [1], [], [], w⟩ : DotDims _ _ _) k rfl rfl).symm]
  refine Finset.sum_congr rfl fun q _ => ?_
  have c2 := contrEquiv1_symm_val
    (⟨[1], [0], [0], [1], [], [], w⟩ : DotDims ⟨2, ![n, k]⟩ ⟨2, ![k, m]⟩ ⟨2, ![n, m]⟩) k rfl rfl q
  have l2 : (⟨[1], [0], [0], [1], [], [], w⟩ : DotDims ⟨2, ![n, k]⟩ ⟨2, ![k, m]⟩ ⟨2, ![n, m]⟩).lhsIdx (ix2 i j)
      ((contrEquiv1 _ k rfl rfl).symm q) = ix2 i q := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![n, k]⟩ ⟨2, ![k, m]⟩ ⟨2, ![n, m]⟩).rhsIdx (ix2 i j)
      ((contrEquiv1 _ k rfl rfl).symm q) = ix2 q j := by
    funext ax; apply Fin.ext
    match ax with
    | ⟨0, _⟩ => simp [DotDims.rhsIdx]; exact c2
    | ⟨1, _⟩ => simp [DotDims.rhsIdx]; rfl
  rw [l2, r2]

/-- The product of an n × k array by the transpose of an m × k array (both contracted on their last axis). -/
theorem matmul_transposed_apply {φ₁ φ₂ : FTy} (w : DotDims.WF ⟨2, ![n, k]⟩ ⟨2, ![m, k]⟩ ⟨2, ![n, m]⟩ [1] [1] [0] [0] [] [])
    (prec : Option ContractPrecision) (l : FVec Ideal ⟨2, ![n, k]⟩ φ₁) (r : FVec Ideal ⟨2, ![m, k]⟩ φ₂) (i : Fin n) (j : Fin m) :
    FloatOps.matmul (⟨[1], [1], [0], [0], [], [], w⟩ : DotDims _ _ _) prec l r (constant ⟨2, ![n, m]⟩ .f32 0x00000000#32) (ix2 i j)
      = ∑ q : Fin k, l (ix2 i q) * r (ix2 j q) := by
  rw [Ideal.matmul_constant_zero_apply,
    ← Equiv.sum_comp (contrEquiv1 (⟨[1], [1], [0], [0], [], [], w⟩ : DotDims _ _ _) k rfl rfl).symm]
  refine Finset.sum_congr rfl fun q _ => ?_
  have c2 := contrEquiv1_symm_val
    (⟨[1], [1], [0], [0], [], [], w⟩ : DotDims ⟨2, ![n, k]⟩ ⟨2, ![m, k]⟩ ⟨2, ![n, m]⟩) k rfl rfl q
  have l2 : (⟨[1], [1], [0], [0], [], [], w⟩ : DotDims ⟨2, ![n, k]⟩ ⟨2, ![m, k]⟩ ⟨2, ![n, m]⟩).lhsIdx (ix2 i j)
      ((contrEquiv1 _ k rfl rfl).symm q) = ix2 i q := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![n, k]⟩ ⟨2, ![m, k]⟩ ⟨2, ![n, m]⟩).rhsIdx (ix2 i j)
      ((contrEquiv1 _ k rfl rfl).symm q) = ix2 j q := by
    funext ax; apply Fin.ext
    match ax with
    | ⟨0, _⟩ => simp [DotDims.rhsIdx]; rfl
    | ⟨1, _⟩ => simp [DotDims.rhsIdx]; exact c2
  rw [l2, r2]

theorem R2.matmul {φ₁ φ₂ : FTy} (w : DotDims.WF ⟨2, ![n, k]⟩ ⟨2, ![k, m]⟩ ⟨2, ![n, m]⟩ [1] [0] [0] [1] [] [])
    (prec : Option ContractPrecision) {l : FVec Ideal ⟨2, ![n, k]⟩ φ₁} {r : FVec Ideal ⟨2, ![k, m]⟩ φ₂}
    {L : Fin n → Fin k → ℝ} {Rr : Fin k → Fin m → ℝ} (hl : R2 l L) (hr : R2 r Rr) :
    R2 (FloatOps.matmul (⟨[1], [0], [0], [1], [], [], w⟩ : DotDims _ _ _) prec l r (constant ⟨2, ![n, m]⟩ .f32 0x00000000#32))
      (fun i j => ∑ q : Fin k, L i q * Rr q j) := fun i j => by
  rw [matmul_plain_apply, coe_sum]
  exact Finset.sum_congr rfl fun q _ => by rw [hl i q, hr q j, EReal.coe_mul]

theorem R2.matmulT {φ₁ φ₂ : FTy} (w : DotDims.WF ⟨2, ![n, k]⟩ ⟨2, ![m, k]⟩ ⟨2, ![n, m]⟩ [1] [1] [0] [0] [] [])
    (prec : Option ContractPrecision) {l : FVec Ideal ⟨2, ![n, k]⟩ φ₁} {r : FVec Ideal ⟨2, ![m, k]⟩ φ₂}
    {L : Fin n → Fin k → ℝ} {Rr : Fin m → Fin k → ℝ} (hl : R2 l L) (hr : R2 r Rr) :
    R2 (FloatOps.matmul (⟨[1], [1], [0], [0], [], [], w⟩ : DotDims _ _ _) prec l r (constant ⟨2, ![n, m]⟩ .f32 0x00000000#32))
      (fun i j => ∑ q : Fin k, L i q * Rr j q) := fun i j => by
  rw [matmul_transposed_apply, coe_sum]
  exact Finset.sum_congr rfl fun q _ => by rw [hl i q, hr j q, EReal.coe_mul]

/-! ## Sums along an axis, kept as a column or a row -/

/-- A vector over [n] viewed as a column [n, 1]. -/
theorem shapeCast_a_a1_apply {α : Type} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum of each row, as a column. -/
theorem R2.rowsum {a : FVec Ideal ⟨2, ![n, m]⟩ φ} {A : Fin n → Fin m → ℝ} (ha : R2 a A) (acc : BitVec φ.bits)
    (h : (⟨2, ![n, m]⟩ : Shape).Reduces [1] ⟨1, ![n]⟩) (hφ : FKind.Formats φ) (hacc : acc = FKind.add.neutral φ hφ)
    (h' : (⟨1, ![n]⟩ : Shape).ShapeCasts ⟨2, ![n, 1]⟩) :
    R2 (shapeCast ⟨2, ![n, 1]⟩ (multiReduction .add [1] ⟨1, ![n]⟩ a acc h hφ hacc) h') (fun r _ => ∑ c : Fin m, A r c) :=
  fun r u => by
    rw [shapeCast_a_a1_apply]
    show Ideal.reduceAdd h a (ix1 r) = _
    rw [Ideal.reduceAdd_single, coe_sum]
    refine Finset.sum_congr rfl fun c _ => ?_
    refine Eq.trans (congrArg a (funext fun ax => Fin.ext ?_)) (ha r c)
    match ax with
    | ⟨0, _⟩ => rfl
    | ⟨1, _⟩ => rfl

/-- The sum of each column, as a row. -/
theorem R2.colsum {a : FVec Ideal ⟨2, ![n, m]⟩ φ} {A : Fin n → Fin m → ℝ} (ha : R2 a A) (acc : BitVec φ.bits)
    (h : (⟨2, ![n, m]⟩ : Shape).Reduces [0] ⟨1, ![m]⟩) (hφ : FKind.Formats φ) (hacc : acc = FKind.add.neutral φ hφ)
    (h' : (⟨1, ![m]⟩ : Shape).ShapeCasts ⟨2, ![1, m]⟩) :
    R2 (shapeCast ⟨2, ![1, m]⟩ (multiReduction .add [0] ⟨1, ![m]⟩ a acc h hφ hacc) h') (fun _ c => ∑ r : Fin n, A r c) :=
  fun u c => by
    rw [shapeCast_a_1a_apply]
    show Ideal.reduceAdd h a (ix1 c) = _
    rw [Ideal.reduceAdd_single, coe_sum]
    refine Finset.sum_congr rfl fun r _ => ?_
    refine Eq.trans (congrArg a (funext fun ax => Fin.ext ?_)) (ha r c)
    match ax with
    | ⟨0, _⟩ => rfl
    | ⟨1, _⟩ => rfl

/-- The transpose of an array holds the transposed reals. -/
theorem R2.transpose {a : (⟨2, ![n, m]⟩ : Shape).Idx → EReal} {A : Fin n → Fin m → ℝ} (ha : R2 a A)
    (h : (⟨2, ![n, m]⟩ : Shape).Transposes [1, 0] ⟨2, ![m, n]⟩) :
    R2 (transpose ⟨2, ![m, n]⟩ [1, 0] a h) (fun j i => A i j) := fun j i => by
  rw [transpose_ix2_apply]; exact ha i j

/-- A column copied into every column. -/
theorem broadcastTo_a1_ab_apply {α : Type} (v : (⟨2, ![n, 1]⟩ : Shape).Idx → α) (h : (⟨2, ![n, 1]⟩ : Shape).Broadcasts ⟨2, ![n, m]⟩)
    (p : Fin n) (c : Fin m) : broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

theorem R2.bcastCol {v : (⟨2, ![n, 1]⟩ : Shape).Idx → EReal} {V : Fin n → Fin 1 → ℝ} (hv : R2 v V)
    (h : (⟨2, ![n, 1]⟩ : Shape).Broadcasts ⟨2, ![n, m]⟩) : R2 (broadcastTo ⟨2, ![n, m]⟩ v h) (fun p _ => V p 0) := fun p c => by
  rw [broadcastTo_a1_ab_apply]; exact hv p 0

theorem R2.bcastRow {v : (⟨2, ![1, m]⟩ : Shape).Idx → EReal} {V : Fin 1 → Fin m → ℝ} (hv : R2 v V)
    (h : (⟨2, ![1, m]⟩ : Shape).Broadcasts ⟨2, ![n, m]⟩) : R2 (broadcastTo ⟨2, ![n, m]⟩ v h) (fun _ c => V 0 c) := fun p c => by
  rw [broadcastTo_1b_ab_apply]; exact hv 0 c

/-- A [1, n, m] block viewed as its one [n, m] matrix. -/
theorem R2.ofBlock {x : (⟨3, ![1, n, m]⟩ : Shape).Idx → EReal} {X : Fin n → Fin m → ℝ}
    (hx : ∀ r c, x (ix3 (0 : Fin 1) r c) = ((X r c : ℝ) : EReal)) (h : (⟨3, ![1, n, m]⟩ : Shape).ShapeCasts ⟨2, ![n, m]⟩) :
    R2 (shapeCast ⟨2, ![n, m]⟩ x h) X := fun r c => by
  rw [shapeCast_1ab_ab_apply]; exact hx r c

end Cert.Proof.KernelOps

end
-- ==== Proof.KernelMath.lean ====
/- The kernel body's arithmetic over the reals, and that it is the specification's.

   For one batch element with feature block X (512 × 128) the body forms the squared distance of nodes i and j as
   r i + r j − 2 ⟨X i, X j⟩ with r i = ⟨X i, X i⟩, which is the sum of the squared coordinate differences; floors it at eps
   and takes the root; keeps the entries below the diagonal (column < row), sums each row and adds one for the degree, whose
   reciprocal root scales rows and columns of (kept distances + identity). Since the distance is symmetric, row r of that
   matrix is the specification's adjacency row of target r. A layer mixes x with the product A x formed in three passes
   (A·x + A·(x − x) + (A − A)·x), which over the reals is the plain product, then applies the weights, bias and tanh. -/
import proofs.«120006_g55027120997065_cont_sun_c4_852_12_alg».proof.Proof.Spec

noncomputable section

namespace Cert.Proof.KernelMath

open Cert.Spec Cert.Consts

/-! ## The adjacency, as the body computes it -/

section Adj
variable (X : Fin 512 → Fin 128 → ℝ)

/-- r i + r j, the sum of the two squared norms. -/
def kS (i j : Fin 512) : ℝ := (∑ k : Fin 128, X i k * X i k) + (∑ k : Fin 128, X j k * X j k)
/-- The inner product of rows i and j. -/
def kG (i j : Fin 512) : ℝ := ∑ q : Fin 128, X i q * X j q
def kdist (i j : Fin 512) : ℝ := Real.sqrt (max (kS X i j - 2 * kG X i j) epsR)
/-- One below the diagonal, zero elsewhere. -/
def klower (i j : Fin 512) : ℝ := if j < i then 1 else 0
/-- The identity matrix. -/
def keye (i j : Fin 512) : ℝ := if i = j then 1 else 0
def kdl (i j : Fin 512) : ℝ := kdist X i j * klower i j
def kdeg (i : Fin 512) : ℝ := (∑ c : Fin 512, kdl X i c) + 1
def kdinv (i : Fin 512) : ℝ := (Real.sqrt (kdeg X i))⁻¹
def kadj (i j : Fin 512) : ℝ := (kdinv X i * kdinv X j) * (kdl X i j + keye i j)

theorem kdl_nonneg (i j : Fin 512) : 0 ≤ kdl X i j := by
  unfold kdl klower
  split
  · rw [mul_one]; exact Real.sqrt_nonneg _
  · rw [mul_zero]

theorem kdeg_pos (i : Fin 512) : 0 < kdeg X i := by
  unfold kdeg
  have : 0 ≤ ∑ c : Fin 512, kdl X i c := Finset.sum_nonneg fun c _ => kdl_nonneg X i c
  linarith

theorem floor_nonneg (i j : Fin 512) : 0 ≤ max (kS X i j - 2 * kG X i j) epsR := le_max_of_le_right epsR_pos.le

end Adj

section Spec
variable (P : Params) (b : Fin 4)

theorem kd2_eq (i j : Fin 512) : kS (P.X b) i j - 2 * kG (P.X b) i j = d2 P b i j := by
  unfold kS kG d2
  rw [Finset.mul_sum, ← Finset.sum_add_distrib, ← Finset.sum_sub_distrib]
  exact Finset.sum_congr rfl fun k _ => by ring

theorem kdist_eq (i j : Fin 512) : kdist (P.X b) i j = dist P b i j := by
  unfold kdist Spec.dist; rw [kd2_eq]

theorem d2_symm (i j : Fin 512) : d2 P b i j = d2 P b j i := by
  unfold d2; exact Finset.sum_congr rfl fun k _ => by ring

theorem dist_symm (i j : Fin 512) : dist P b i j = dist P b j i := by
  unfold Spec.dist; rw [d2_symm]

theorem kdeg_eq (i : Fin 512) : kdeg (P.X b) i = deg P b i := by
  unfold kdeg deg
  congr 1
  refine Finset.sum_congr rfl fun c _ => ?_
  unfold kdl klower
  rw [kdist_eq, dist_symm]
  split
  · rw [mul_one]
  · rw [mul_zero]

theorem kdinv_eq (i : Fin 512) : kdinv (P.X b) i = dinv P b i := by
  unfold kdinv dinv; rw [kdeg_eq]

/-- Row r of the body's matrix is the specification's adjacency row of target r. -/
theorem kadj_eq (r c : Fin 512) : kadj (P.X b) r c = adj P b r c := by
  unfold kadj adj kdl klower keye
  rw [kdinv_eq, kdinv_eq, kdist_eq, dist_symm]
  by_cases h : c < r
  · have hne : ¬ r = c := fun e => by subst e; exact lt_irrefl _ h
    rw [if_pos h, if_pos h, if_neg hne]; ring
  · rw [if_neg h, if_neg h]
    by_cases he : c = r
    · subst he; rw [if_pos rfl, if_pos rfl]; ring
    · have hne : ¬ r = c := fun e => he e.symm
      rw [if_neg hne, if_neg he]; ring

end Spec

/-! ## A layer, as the body computes it -/

/-- One layer on the rows of x, with the three-pass product spelt out. -/
def klayer {C C' : ℕ} (A : Fin 512 → Fin 512 → ℝ) (W : Fin C → Fin C' → ℝ) (B : Fin 1 → Fin C' → ℝ) (x : Fin 512 → Fin C → ℝ) :
    Fin 512 → Fin C' → ℝ := fun r c' =>
  Real.tanh ((∑ q : Fin C, (alphaR * x r q + betaR * (((∑ c : Fin 512, A r c * x c q) + (∑ c : Fin 512, A r c * (x c q - x c q)))
    + (∑ c : Fin 512, (A r c - A r c) * x c q))) * W q c') + B 0 c')

/-- Over the reals the three passes are the plain product, so the body's layer is the specification's. -/
theorem klayer_eq {C C' : ℕ} (P : Params) (b : Fin 4) (W : Fin C → Fin C' → ℝ) (bias : Fin C' → ℝ) (x : Fin 4 → Fin 512 → Fin C → ℝ)
    (A : Fin 512 → Fin 512 → ℝ) (hA : ∀ r c, A r c = adj P b r c) :
    klayer A W (fun _ c' => bias c') (x b) = layer P W bias x b := by
  funext r c'
  unfold klayer layer
  congr 2
  refine Finset.sum_congr rfl fun q _ => ?_
  have h1 : (∑ c : Fin 512, A r c * (x b c q - x b c q)) = 0 := Finset.sum_eq_zero fun c _ => by rw [sub_self, mul_zero]
  have h2 : (∑ c : Fin 512, (A r c - A r c) * x b c q) = 0 := Finset.sum_eq_zero fun c _ => by rw [sub_self, zero_mul]
  have h3 : (∑ c : Fin 512, A r c * x b c q) = ∑ i : Fin 512, adj P b r i * x b i q :=
    Finset.sum_congr rfl fun c _ => by rw [hA]
  rw [h1, h2, h3, add_zero, add_zero]

/-- The mean over the rows, the dense layer and the output layer, as the body computes them. -/
def ktail (x3 : Fin 512 → Fin 256 → ℝ) (DW : Fin 256 → Fin 128 → ℝ) (DB : Fin 1 → Fin 128 → ℝ) (OW : Fin 128 → Fin 2 → ℝ)
    (OB : Fin 1 → Fin 2 → ℝ) : Fin 1 → Fin 2 → ℝ := fun u o =>
  (∑ c : Fin 128, Real.tanh ((∑ q : Fin 256, (∑ r : Fin 512, x3 r q) / 512 * DW q c) + DB u c) * OW c o) + OB u o

/-- The body's whole computation for batch element b, over the reals. -/
def kout (P : Params) (b : Fin 4) : Fin 1 → Fin 2 → ℝ :=
  ktail (klayer (kadj (P.X b)) P.W3 (fun _ c => P.b3 c)
      (klayer (kadj (P.X b)) P.W2 (fun _ c => P.b2 c) (klayer (kadj (P.X b)) P.W1 (fun _ c => P.b1 c) (P.X b))))
    P.DW (fun _ c => P.db c) P.OW (fun _ o => P.ob o)

/-- It is the specification's result. -/
theorem kout_eq (P : Params) (b : Fin 4) (u : Fin 1) (o : Fin 2) : kout P b u o = out P b o := by
  have e1 : klayer (kadj (P.X b)) P.W1 (fun _ c => P.b1 c) (P.X b) = x1 P b :=
    klayer_eq P b P.W1 P.b1 P.X _ (kadj_eq P b)
  have e2 : klayer (kadj (P.X b)) P.W2 (fun _ c => P.b2 c) (x1 P b) = x2 P b :=
    klayer_eq P b P.W2 P.b2 (x1 P) _ (kadj_eq P b)
  have e3 : klayer (kadj (P.X b)) P.W3 (fun _ c => P.b3 c) (x2 P b) = x3 P b :=
    klayer_eq P b P.W3 P.b3 (x2 P) _ (kadj_eq P b)
  unfold kout
  rw [e1, e2, e3]
  rfl

end Cert.Proof.KernelMath

end
-- ==== Proof.KernelPayload.lean ====
/- The kernel body's payloads, for blocks that hold real numbers.

   The body's stored value is a function of the blocks it loads. When the feature block holds the real matrix X and the
   weight and bias blocks hold real arrays, every intermediate array of the body holds real numbers too: the two masks hold
   the strictly-lower-triangular and the identity matrix, the Gram product and the sum of squared norms hold their sums,
   the scaled matrix holds the body's adjacency, each layer holds the body's layer of the reals below it, and the stored
   1 × 1 × 2 block holds the body's result over the reals. -/
import proofs.«120006_g55027120997065_cont_sun_c4_852_12_alg».proof.Proof.Gen.KernelIdeal.Skeleton
import proofs.«120006_g55027120997065_cont_sun_c4_852_12_alg».proof.Proof.KernelOps
import proofs.«120006_g55027120997065_cont_sun_c4_852_12_alg».proof.Proof.KernelMath

noncomputable section

namespace Cert.Proof.KernelPayload

open Idealize.ShloMosaic Idealize.ShloMosaic.ValueIdx Cert.KernelIdeal Cert.KernelIdeal.Gen
open Cert.Proof.KernelOps Cert.Proof.KernelMath Cert.Consts

/-! ## The two masks: a comparison of two small words, widened and converted -/

theorem toNat_small (a : ℕ) (h : a < 512) : (BitVec.ofNat 32 a).toNat = a := by
  rw [BitVec.toNat_ofNat]; exact Nat.mod_eq_of_lt (by omega)

theorem toInt_small (a : ℕ) (h : a < 512) : (BitVec.ofNat 32 a).toInt = (a : ℤ) := by
  rw [BitVec.toInt_eq_toNat_of_lt (by rw [toNat_small a h]; omega), toNat_small a h]

theorem one_word : (((1#1 : BitVec 1).setWidth 32).toInt : ℝ) = 1 := by
  have : ((1#1 : BitVec 1).setWidth 32).toInt = 1 := by decide
  rw [this]; norm_num
theorem zero_word : (((0#1 : BitVec 1).setWidth 32).toInt : ℝ) = 0 := by
  have : ((0#1 : BitVec 1).setWidth 32).toInt = 0 := by decide
  rw [this]; norm_num

theorem lower_word (r c : Fin 512) :
    FloatOps.sitofp (F := Ideal) .f32 ((IntOp.cmpi .sgt (BitVec.ofNat 32 r.val) (BitVec.ofNat 32 c.val)).setWidth 32)
      = (((if c < r then 1 else 0 : ℝ)) : EReal) := by
  show ((((IntOp.cmpi .sgt (BitVec.ofNat 32 r.val) (BitVec.ofNat 32 c.val)).setWidth 32).toInt : ℝ) : EReal) = _
  by_cases h : c < r
  · have h1 : IntOp.cmpi .sgt (BitVec.ofNat 32 r.val) (BitVec.ofNat 32 c.val) = 1#1 :=
      IntOp.cmpi_sgt.mpr (by rw [toInt_small _ r.isLt, toInt_small _ c.isLt]; exact Int.ofNat_lt.mpr h)
    rw [h1, if_pos h, one_word]
  · have h0 : IntOp.cmpi .sgt (BitVec.ofNat 32 r.val) (BitVec.ofNat 32 c.val) = 0#1 :=
      eq_zero_of_ne_one fun e => h (by
        have := IntOp.cmpi_sgt.mp e
        rw [toInt_small _ r.isLt, toInt_small _ c.isLt] at this
        exact Int.ofNat_lt.mp this)
    rw [h0, if_neg h, zero_word]

theorem eye_word (r c : Fin 512) :
    FloatOps.sitofp (F := Ideal) .f32 ((IntOp.cmpi .eq (BitVec.ofNat 32 r.val) (BitVec.ofNat 32 c.val)).setWidth 32)
      = (((if r = c then 1 else 0 : ℝ)) : EReal) := by
  show ((((IntOp.cmpi .eq (BitVec.ofNat 32 r.val) (BitVec.ofNat 32 c.val)).setWidth 32).toInt : ℝ) : EReal) = _
  by_cases h : r = c
  · have h1 : IntOp.cmpi .eq (BitVec.ofNat 32 r.val) (BitVec.ofNat 32 c.val) = 1#1 := IntOp.cmpi_eq.mpr (by rw [h])
    rw [h1, if_pos h, one_word]
  · have h0 : IntOp.cmpi .eq (BitVec.ofNat 32 r.val) (BitVec.ofNat 32 c.val) = 0#1 :=
      eq_zero_of_ne_one fun e => h (Fin.ext (by
        have := congrArg BitVec.toNat (IntOp.cmpi_eq.mp e)
        rwa [toNat_small _ r.isLt, toNat_small _ c.isLt] at this))
    rw [h0, if_neg h, zero_word]

/-- The mask "row above column" holds the strictly lower triangle. -/
theorem pay2_R2 : R2 (k0_pay2 (F := Ideal)) klower := fun r c => by
  have e0 := iota_single_apply .tc S512x512 32 0 iota_S512x512_d0_w32 (ix2 r c)
  have e1 := iota_single_apply .tc S512x512 32 1 iota_S512x512_d1_w32 (ix2 r c)
  show FloatOps.sitofp (F := Ideal) .f32 ((IntOp.cmpi .sgt (iota .tc S512x512 32 [0] iota_S512x512_d0_w32 (ix2 r c))
    (iota .tc S512x512 32 [1] iota_S512x512_d1_w32 (ix2 r c))).setWidth 32) = _
  rw [e0, e1]
  exact lower_word r c

/-- The mask "row equals column" holds the identity. -/
theorem pay3_R2 : R2 (k0_pay3 (F := Ideal)) keye := fun r c => by
  have e0 := iota_single_apply .tc S512x512 32 0 iota_S512x512_d0_w32 (ix2 r c)
  have e1 := iota_single_apply .tc S512x512 32 1 iota_S512x512_d1_w32 (ix2 r c)
  show FloatOps.sitofp (F := Ideal) .f32 ((IntOp.cmpi .eq (iota .tc S512x512 32 [0] iota_S512x512_d0_w32 (ix2 r c))
    (iota .tc S512x512 32 [1] iota_S512x512_d1_w32 (ix2 r c))).setWidth 32) = _
  rw [e0, e1]
  exact eye_word r c

/-! ## The bias blocks pass through a cast to their own shape -/

theorem pay4_R2 {v : Vec Ideal S1x256 .f32} {B : Fin 1 → Fin 256 → ℝ} (h : R2 v B) : R2 (k0_pay4 v) B := by
  unfold k0_pay4; rw [shapeCast_self]; exact h
theorem pay5_R2 {v : Vec Ideal S1x256 .f32} {B : Fin 1 → Fin 256 → ℝ} (h : R2 v B) : R2 (k0_pay5 v) B := by
  unfold k0_pay5; rw [shapeCast_self]; exact h
theorem pay6_R2 {v : Vec Ideal S1x256 .f32} {B : Fin 1 → Fin 256 → ℝ} (h : R2 v B) : R2 (k0_pay6 v) B := by
  unfold k0_pay6; rw [shapeCast_self]; exact h
theorem pay7_R2 {v : Vec Ideal S1x128 .f32} {B : Fin 1 → Fin 128 → ℝ} (h : R2 v B) : R2 (k0_pay7 v) B := by
  unfold k0_pay7; rw [shapeCast_self]; exact h
theorem pay8_R2 {v : Vec Ideal S1x2 .f32} {B : Fin 1 → Fin 2 → ℝ} (h : R2 v B) : R2 (k0_pay8 v) B := by
  unfold k0_pay8; rw [shapeCast_self]; exact h

/-! ## The feature block, its Gram product and squared norms, the adjacency -/

section Features
variable {v23 : Vec Ideal S1x512x128 .f32} {X : Fin 512 → Fin 128 → ℝ}
  (h : ∀ r c, v23 (ix3 (0 : Fin 1) r c) = ((X r c : ℝ) : EReal))
include h

theorem pay9_R2 : R2 (k0_pay9 v23) X := R2.ofBlock h shapeCasts_S1x512x128_S512x128

theorem pay10_R2 : R2 (k0_pay10 v23) (kG X) :=
  R2.matmulT dot_S512x128_S512x128_S512x512_1_1_0_0_n_n_wf (some .fp32) (pay9_R2 h) (pay9_R2 h)

theorem pay11_R2 : R2 (k0_pay11 v23) (kS X) := by
  have hx := pay9_R2 h
  have h27 := (R2.mulf (φ := .f32) hx hx).rowsum 0x00000000#32 reduces_S512x128_S512 (.inl rfl) rfl shapeCasts_S512_S512x1
  have h29 := h27.transpose transposes_S512x1_p1_0_S1x512
  exact R2.addf (φ := .f32) (h27.bcastCol broadcasts_S512x1_S512x512) (h29.bcastRow broadcasts_S1x512_S512x512)

end Features

section Adjacency
variable {v4 v7 v28 v32 : FVec Ideal S512x512 .f32} {X : Fin 512 → Fin 128 → ℝ}
  (h4 : R2 v4 klower) (h7 : R2 v7 keye) (h28 : R2 v28 (kG X)) (h32 : R2 v32 (kS X))
include h4 h7 h28 h32

theorem pay12_R2 : R2 (k0_pay12 v4 v7 v28 v32 (Scalar.ofBits .f32 0x40000000#32)) (kadj X) := by
  have h35 := h32.subf ((R2.splat 0x40000000#32 2 ofBits_two).mulf h28)
  have h37 := h35.maximumf (R2.splat 0x2B8CBCCC#32 epsR ofBits_eps)
  have h38 := h37.sqrt (fun r c => floor_nonneg X r c)
  have h39 := h38.mulf h4
  have h41 := h39.rowsum 0x00000000#32 reduces_S512x512_S512 (.inl rfl) rfl shapeCasts_S512_S512x1
  have h43 := R2.addf (φ := .f32) h41 (R2.splat 0x3F800000#32 1 ofBits_one)
  have h44 := h43.rsqrt (fun r _ => kdeg_pos X r)
  have h45 := h44.transpose transposes_S512x1_p1_0_S1x512
  have h48 := R2.mulf (φ := .f32) (h44.bcastCol broadcasts_S512x1_S512x512) (h45.bcastRow broadcasts_S1x512_S512x512)
  exact h48.mulf (h39.addf h7)

theorem pay13_R2 : R2 (k0_pay13 v4 v7 v28 v32 (Scalar.ofBits .f32 0x40000000#32)) (kadj X) :=
  (pay12_R2 h4 h7 h28 h32).truncf bitsLt_bf16_f32

theorem pay14_R2 : R2 (k0_pay14 v4 v7 v28 v32 (Scalar.ofBits .f32 0x40000000#32)) (fun r c => kadj X r c - kadj X r c) :=
  ((pay12_R2 h4 h7 h28 h32).subf (pay12_R2 h4 h7 h28 h32)).truncf bitsLt_bf16_f32

end Adjacency

/-! ## One layer, at any feature counts -/

/-- A layer of the body as one vector expression: the three-pass product of the adjacency's two halves with the rows' two
    halves, the mix with the rows, the weights, the bias row, tanh. -/
def layerE {C C' : ℕ} (wA : DotDims.WF ⟨2, ![512, 512]⟩ ⟨2, ![512, C]⟩ ⟨2, ![512, C]⟩ [1] [0] [0] [1] [] [])
    (wW : DotDims.WF ⟨2, ![512, C]⟩ ⟨2, ![C, C']⟩ ⟨2, ![512, C']⟩ [1] [0] [0] [1] [] [])
    (hb : (⟨2, ![1, C']⟩ : Shape).Broadcasts ⟨2, ![512, C']⟩)
    (ahi alo : FVec Ideal ⟨2, ![512, 512]⟩ .bf16) (x : FVec Ideal ⟨2, ![512, C]⟩ .f32) (W : FVec Ideal ⟨2, ![C, C']⟩ .f32)
    (bias : FVec Ideal ⟨2, ![1, C']⟩ .f32) : FVec Ideal ⟨2, ![512, C']⟩ .f32 :=
  tanh (addf (matmul (⟨[1], [0], [0], [1], [], [], wW⟩ : DotDims _ _ _) none
      (addf (mulf (broadcast (⟨2, ![512, C]⟩ : Shape) (Scalar.ofBits (F := Ideal) .f32 0x3E99999A#32)) x)
        (mulf (broadcast (⟨2, ![512, C]⟩ : Shape) (Scalar.ofBits (F := Ideal) .f32 0x3F333333#32))
          (addf (addf
              (matmul (⟨[1], [0], [0], [1], [], [], wA⟩ : DotDims _ _ _) none ahi (truncf .bf16 x bitsLt_bf16_f32)
                (constant ⟨2, ![512, C]⟩ .f32 0x00000000#32))
              (matmul (⟨[1], [0], [0], [1], [], [], wA⟩ : DotDims _ _ _) none ahi (truncf .bf16 (subf x x) bitsLt_bf16_f32)
                (constant ⟨2, ![512, C]⟩ .f32 0x00000000#32)))
            (matmul (⟨[1], [0], [0], [1], [], [], wA⟩ : DotDims _ _ _) none alo (truncf .bf16 x bitsLt_bf16_f32)
              (constant ⟨2, ![512, C]⟩ .f32 0x00000000#32)))))
      W (constant ⟨2, ![512, C']⟩ .f32 0x00000000#32)) (broadcastTo ⟨2, ![512, C']⟩ bias hb))

theorem layerE_R2 {C C' : ℕ} (wA : DotDims.WF ⟨2, ![512, 512]⟩ ⟨2, ![512, C]⟩ ⟨2, ![512, C]⟩ [1] [0] [0] [1] [] [])
    (wW : DotDims.WF ⟨2, ![512, C]⟩ ⟨2, ![C, C']⟩ ⟨2, ![512, C']⟩ [1] [0] [0] [1] [] [])
    (hb : (⟨2, ![1, C']⟩ : Shape).Broadcasts ⟨2, ![512, C']⟩)
    {ahi alo : FVec Ideal ⟨2, ![512, 512]⟩ .bf16} {x : FVec Ideal ⟨2, ![512, C]⟩ .f32} {W : FVec Ideal ⟨2, ![C, C']⟩ .f32}
    {bias : FVec Ideal ⟨2, ![1, C']⟩ .f32} {A : Fin 512 → Fin 512 → ℝ} {X : Fin 512 → Fin C → ℝ} {Wr : Fin C → Fin C' → ℝ}
    {Br : Fin 1 → Fin C' → ℝ} (hahi : R2 ahi A) (halo : R2 alo (fun r c => A r c - A r c)) (hx : R2 x X) (hW : R2 W Wr)
    (hbias : R2 bias Br) : R2 (layerE wA wW hb ahi alo x W bias) (klayer A Wr Br X) := by
  have hxb := hx.truncf (ψ := .bf16) bitsLt_bf16_f32
  have hxl := (hx.subf hx).truncf (ψ := .bf16) bitsLt_bf16_f32
  have h63 := R2.addf (φ := .f32) (R2.addf (φ := .f32) (R2.matmul wA none hahi hxb) (R2.matmul wA none hahi hxl))
    (R2.matmul wA none halo hxb)
  have h68 := R2.addf (φ := .f32) ((R2.splat 0x3E99999A#32 alphaR ofBits_alpha).mulf hx)
    (R2.mulf (φ := .f32) (R2.splat 0x3F333333#32 betaR ofBits_beta) h63)
  exact R2.tanh (φ := .f32) (R2.addf (φ := .f32) (R2.matmul wW none h68 hW) (hbias.bcastRow hb))

/-- The first layer's payload is that expression at 128 and 256 features. -/
theorem pay15_eq (v4 v7 : FVec Ideal S512x512 .f32) (v8 : Vec Ideal S128x256 .f32) (v12 : FVec Ideal S1x256 .f32)
    (v24 : FVec Ideal S512x128 .f32) (v28 v32 : FVec Ideal S512x512 .f32) (cst : Ideal .f32) :
    k0_pay15 v4 v7 v8 v12 v24 v28 v32 cst
      = layerE dot_S512x512_S512x128_S512x128_1_0_0_1_n_n_wf dot_S512x128_S128x256_S512x256_1_0_0_1_n_n_wf
          broadcasts_S1x256_S512x256 (k0_pay13 v4 v7 v28 v32 cst) (k0_pay14 v4 v7 v28 v32 cst) v24 v8 v12 := rfl

/-- The two pieces of the second layer's product that the first part of the body hands on. -/
theorem pay17_eq (v4 v7 : FVec Ideal S512x512 .f32) (v8 : Vec Ideal S128x256 .f32) (v12 : FVec Ideal S1x256 .f32)
    (v24 : FVec Ideal S512x128 .f32) (v28 v32 : FVec Ideal S512x512 .f32) (cst : Ideal .f32) :
    k0_pay17 v4 v7 v8 v12 v24 v28 v32 cst
      = addf (matmul (⟨[1], [0], [0], [1], [], [], dot_S512x512_S512x256_S512x256_1_0_0_1_n_n_wf⟩ : DotDims _ _ _) none
            (k0_pay13 v4 v7 v28 v32 cst) (truncf .bf16 (k0_pay15 v4 v7 v8 v12 v24 v28 v32 cst) bitsLt_bf16_f32)
            (constant S512x256 .f32 0x00000000#32))
          (matmul (⟨[1], [0], [0], [1], [], [], dot_S512x512_S512x256_S512x256_1_0_0_1_n_n_wf⟩ : DotDims _ _ _) none
            (k0_pay13 v4 v7 v28 v32 cst)
            (truncf .bf16 (subf (k0_pay15 v4 v7 v8 v12 v24 v28 v32 cst) (k0_pay15 v4 v7 v8 v12 v24 v28 v32 cst)) bitsLt_bf16_f32)
            (constant S512x256 .f32 0x00000000#32)) := rfl

theorem pay18_eq (v4 v7 : FVec Ideal S512x512 .f32) (v8 : Vec Ideal S128x256 .f32) (v12 : FVec Ideal S1x256 .f32)
    (v24 : FVec Ideal S512x128 .f32) (v28 v32 : FVec Ideal S512x512 .f32) (cst : Ideal .f32) :
    k0_pay18 v4 v7 v8 v12 v24 v28 v32 cst
      = matmul (⟨[1], [0], [0], [1], [], [], dot_S512x512_S512x256_S512x256_1_0_0_1_n_n_wf⟩ : DotDims _ _ _) none
          (k0_pay14 v4 v7 v28 v32 cst) (truncf .bf16 (k0_pay15 v4 v7 v8 v12 v24 v28 v32 cst) bitsLt_bf16_f32)
          (constant S512x256 .f32 0x00000000#32) := rfl

/-! ## The rest of the body: two more layers, the mean, the dense and the output layer -/

/-- The mean over the rows, the dense layer and the output layer as one vector expression. -/
def tailE (x3 : FVec Ideal S512x256 .f32) (v17 : FVec Ideal S256x128 .f32) (v19 : FVec Ideal S1x128 .f32)
    (v20 : FVec Ideal S128x2 .f32) (v22 : FVec Ideal S1x2 .f32) : FVec Ideal S1x2 .f32 :=
  addf (matmul (⟨[1], [0], [0], [1], [], [], dot_S1x128_S128x2_S1x2_1_0_0_1_n_n_wf⟩ : DotDims _ _ _) none
    (tanh (addf (matmul (⟨[1], [0], [0], [1], [], [], dot_S1x256_S256x128_S1x128_1_0_0_1_n_n_wf⟩ : DotDims _ _ _) none
      (divf (shapeCast S1x256 (multiReduction .add [0] S256 x3 0x00000000#32 reduces_S512x256_S256 (.inl rfl) rfl) shapeCasts_S256_S1x256)
        (broadcast S1x256 (Scalar.ofBits (F := Ideal) .f32 0x44000000#32)))
      v17 (constant S1x128 .f32 0x00000000#32)) v19))
    v20 (constant S1x2 .f32 0x00000000#32)) v22

theorem tailE_R2 {x3 : FVec Ideal S512x256 .f32} {v17 : FVec Ideal S256x128 .f32} {v19 : FVec Ideal S1x128 .f32}
    {v20 : FVec Ideal S128x2 .f32} {v22 : FVec Ideal S1x2 .f32} {X3 : Fin 512 → Fin 256 → ℝ} {DW : Fin 256 → Fin 128 → ℝ}
    {DB : Fin 1 → Fin 128 → ℝ} {OW : Fin 128 → Fin 2 → ℝ} {OB : Fin 1 → Fin 2 → ℝ} (h3 : R2 x3 X3) (h17 : R2 v17 DW)
    (h19 : R2 v19 DB) (h20 : R2 v20 OW) (h22 : R2 v22 OB) : R2 (tailE x3 v17 v19 v20 v22) (ktail X3 DW DB OW OB) := by
  have h110 := h3.colsum 0x00000000#32 reduces_S512x256_S256 (.inl rfl) rfl shapeCasts_S256_S1x256
  have h112 := R2.divf_const (φ := .f32) h110 (R2.splat 0x44000000#32 512 ofBits_512) (by norm_num)
  have h115 := R2.tanh (φ := .f32) (R2.addf (φ := .f32) (R2.matmul dot_S1x256_S256x128_S1x128_1_0_0_1_n_n_wf none h112 h17) h19)
  exact R2.addf (φ := .f32) (R2.matmul dot_S1x128_S128x2_S1x2_1_0_0_1_n_n_wf none h115 h20) h22

/-- The stored payload is the tail of the third layer of the second layer of the first layer's rows. -/
theorem pay1_eq (v9 v10 : Vec Ideal S256x256 .f32) (v14 v16 : FVec Ideal S1x256 .f32) (v17 : Vec Ideal S256x128 .f32)
    (v19 : FVec Ideal S1x128 .f32) (v20 : Vec Ideal S128x2 .f32) (v22 : FVec Ideal S1x2 .f32)
    (v51 v54 : FVec Ideal S512x512 .bf16) (v72 : FVec Ideal S512x256 .f32) :
    k0_pay1 v9 v10 v14 v16 v17 v19 v20 v22 v51 v54 v72
        (addf (matmul (⟨[1], [0], [0], [1], [], [], dot_S512x512_S512x256_S512x256_1_0_0_1_n_n_wf⟩ : DotDims _ _ _) none
            v51 (truncf .bf16 v72 bitsLt_bf16_f32) (constant S512x256 .f32 0x00000000#32))
          (matmul (⟨[1], [0], [0], [1], [], [], dot_S512x512_S512x256_S512x256_1_0_0_1_n_n_wf⟩ : DotDims _ _ _) none
            v51 (truncf .bf16 (subf v72 v72) bitsLt_bf16_f32) (constant S512x256 .f32 0x00000000#32)))
        (matmul (⟨[1], [0], [0], [1], [], [], dot_S512x512_S512x256_S512x256_1_0_0_1_n_n_wf⟩ : DotDims _ _ _) none
          v54 (truncf .bf16 v72 bitsLt_bf16_f32) (constant S512x256 .f32 0x00000000#32))
      = shapeCast S1x1x2
          (tailE (layerE dot_S512x512_S512x256_S512x256_1_0_0_1_n_n_wf dot_S512x256_S256x256_S512x256_1_0_0_1_n_n_wf
              broadcasts_S1x256_S512x256 v51 v54
              (layerE dot_S512x512_S512x256_S512x256_1_0_0_1_n_n_wf dot_S512x256_S256x256_S512x256_1_0_0_1_n_n_wf
                broadcasts_S1x256_S512x256 v51 v54 v72 v9 v14) v10 v16) v17 v19 v20 v22)
          shapeCasts_S1x2_S1x1x2 := rfl

/-! ## The whole body on blocks that hold reals -/

/-- The body's stored block, for blocks holding the reals X (features), W1 … OB (weights and bias rows): its two entries
    are the body's result over the reals. -/
theorem body_real (x0 : Vec Ideal S1x512x128 .f32) (x1 : Vec Ideal S128x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x128 .f32) (x8 : Vec Ideal S1x128 .f32) (x9 : Vec Ideal S128x2 .f32) (x10 : Vec Ideal S1x2 .f32)
    {X : Fin 512 → Fin 128 → ℝ} {W1 : Fin 128 → Fin 256 → ℝ} {B1 : Fin 1 → Fin 256 → ℝ} {W2 : Fin 256 → Fin 256 → ℝ}
    {B2 : Fin 1 → Fin 256 → ℝ} {W3 : Fin 256 → Fin 256 → ℝ} {B3 : Fin 1 → Fin 256 → ℝ} {DW : Fin 256 → Fin 128 → ℝ}
    {DB : Fin 1 → Fin 128 → ℝ} {OW : Fin 128 → Fin 2 → ℝ} {OB : Fin 1 → Fin 2 → ℝ}
    (h0 : ∀ r c, x0 (ix3 (0 : Fin 1) r c) = ((X r c : ℝ) : EReal)) (h1 : R2 x1 W1) (h2 : R2 x2 B1) (h3 : R2 x3 W2)
    (h4 : R2 x4 B2) (h5 : R2 x5 W3) (h6 : R2 x6 B3) (h7 : R2 x7 DW) (h8 : R2 x8 DB) (h9 : R2 x9 OW) (h10 : R2 x10 OB)
    (u0 u1 : Fin 1) (o : Fin 2) :
    k0_pay1 x3 x5 (k0_pay5 x4) (k0_pay6 x6) x7 (k0_pay7 x8) x9 (k0_pay8 x10)
        (k0_pay13 (k0_pay2 (F := Ideal)) (k0_pay3 (F := Ideal)) (k0_pay10 x0) (k0_pay11 x0) (Scalar.ofBits .f32 0x40000000#32))
        (k0_pay14 (k0_pay2 (F := Ideal)) (k0_pay3 (F := Ideal)) (k0_pay10 x0) (k0_pay11 x0) (Scalar.ofBits .f32 0x40000000#32))
        (k0_pay15 (k0_pay2 (F := Ideal)) (k0_pay3 (F := Ideal)) x1 (k0_pay4 x2) (k0_pay9 x0) (k0_pay10 x0) (k0_pay11 x0) (Scalar.ofBits .f32 0x40000000#32))
        (k0_pay17 (k0_pay2 (F := Ideal)) (k0_pay3 (F := Ideal)) x1 (k0_pay4 x2) (k0_pay9 x0) (k0_pay10 x0) (k0_pay11 x0) (Scalar.ofBits .f32 0x40000000#32))
        (k0_pay18 (k0_pay2 (F := Ideal)) (k0_pay3 (F := Ideal)) x1 (k0_pay4 x2) (k0_pay9 x0) (k0_pay10 x0) (k0_pay11 x0) (Scalar.ofBits .f32 0x40000000#32))
        (ix3 u0 u1 o)
      = ((ktail (klayer (kadj X) W3 B3 (klayer (kadj X) W2 B2 (klayer (kadj X) W1 B1 X))) DW DB OW OB u1 o : ℝ) : EReal) := by
  have ha := pay13_R2 pay2_R2 pay3_R2 (pay10_R2 h0) (pay11_R2 h0)
  have hl := pay14_R2 pay2_R2 pay3_R2 (pay10_R2 h0) (pay11_R2 h0)
  have hx1 : R2 (k0_pay15 (k0_pay2 (F := Ideal)) (k0_pay3 (F := Ideal)) x1 (k0_pay4 x2) (k0_pay9 x0) (k0_pay10 x0) (k0_pay11 x0)
      (Scalar.ofBits .f32 0x40000000#32)) (klayer (kadj X) W1 B1 X) := by
    rw [pay15_eq]
    exact layerE_R2 _ _ _ ha hl (pay9_R2 h0) h1 (pay4_R2 h2)
  rw [pay17_eq, pay18_eq, pay1_eq]
  have hx2 := layerE_R2 dot_S512x512_S512x256_S512x256_1_0_0_1_n_n_wf dot_S512x256_S256x256_S512x256_1_0_0_1_n_n_wf
    broadcasts_S1x256_S512x256 ha hl hx1 h3 (pay5_R2 h4)
  have hx3 := layerE_R2 dot_S512x512_S512x256_S512x256_1_0_0_1_n_n_wf dot_S512x256_S256x256_S512x256_1_0_0_1_n_n_wf
    broadcasts_S1x256_S512x256 ha hl hx2 h5 (pay6_R2 h6)
  have ht := tailE_R2 hx3 h7 (pay7_R2 h8) h9 (pay8_R2 h10)
  rw [shapeCast_ab_1ab_apply]
  exact ht u1 o

end Cert.Proof.KernelPayload

end
-- ==== Proof.KernelBlocks.lean ====
/- From the body's blocks to the 4 × 1 × 2 array.

   Grid point t stages batch element t's 512 × 128 block of features and the whole of every weight matrix; the bias rows it
   stages are the bias vectors reshaped [C] → [1, C] before the region. When the argument arrays hold real numbers these
   blocks hold the specification's real inputs, so the block the body stores at point t holds the specification's two
   results of batch element t. Point t writes that block back at rows t of the 4 × 1 × 2 array; the four points cover it,
   so after the region the array holds the specification's result, entry by entry. -/
import proofs.«120006_g55027120997065_cont_sun_c4_852_12_alg».proof.Proof.Gen.KernelIdeal.Frame
import proofs.«120006_g55027120997065_cont_sun_c4_852_12_alg».proof.Proof.Inputs
import proofs.«120006_g55027120997065_cont_sun_c4_852_12_alg».proof.Proof.KernelPayload
import Idealize.ShloMosaic.Lib.Pipeline.Value

noncomputable section

namespace Cert.Proof.KernelBlocks

open Idealize.ShloMosaic Idealize.ShloMosaic.TcCoe Idealize.ShloMosaic.ValueIdx Idealize.SL.Sem Cert.KernelIdeal Cert.KernelIdeal.Gen
open Idealize.ShloMosaic.Pipeline (Dat)
open Cert.Proof.KernelOps Cert.Proof.KernelMath Cert.Proof.KernelPayload

variable (m : (ℓ : Loc nD τ sig) → Buf (Elt Ideal) ℓ)

/-- The eleven argument arrays on device c. -/
def args (c : Dev nD) : Cert.Inputs.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)

/-- A grid point is a batch element. -/
def tb (t : Fin cfg0.N) : Fin 4 := ⟨t.val, by have := t.isLt; have hN : cfg0.N = 4 := N_0; omega⟩

/-! ## The bias rows: the bias vectors reshaped before the region -/

theorem V_v0 (c : Dev nD) : (V m c main_v0 : S1x256.Idx → EReal)
    = shapeCast S1x256 (m ((c.tc : Thread nD τ).loc main_arg2)) shapeCasts_S256_S1x256 := by
  show StableHlo.after hostOps0 (fun b => m (c, b)) (Proc.devRef .tc main_v0) = _
  after_results; rfl
theorem V_v1 (c : Dev nD) : (V m c main_v1 : S1x256.Idx → EReal)
    = shapeCast S1x256 (m ((c.tc : Thread nD τ).loc main_arg4)) shapeCasts_S256_S1x256 := by
  show StableHlo.after hostOps0 (fun b => m (c, b)) (Proc.devRef .tc main_v1) = _
  after_results; rfl
theorem V_v2 (c : Dev nD) : (V m c main_v2 : S1x256.Idx → EReal)
    = shapeCast S1x256 (m ((c.tc : Thread nD τ).loc main_arg6)) shapeCasts_S256_S1x256 := by
  show StableHlo.after hostOps0 (fun b => m (c, b)) (Proc.devRef .tc main_v2) = _
  after_results; rfl
theorem V_v3 (c : Dev nD) : (V m c main_v3 : S1x128.Idx → EReal)
    = shapeCast S1x128 (m ((c.tc : Thread nD τ).loc main_arg8)) shapeCasts_S128_S1x128 := by
  show StableHlo.after hostOps0 (fun b => m (c, b)) (Proc.devRef .tc main_v3) = _
  after_results; rfl
theorem V_v4 (c : Dev nD) : (V m c main_v4 : S1x2.Idx → EReal)
    = shapeCast S1x2 (m ((c.tc : Thread nD τ).loc main_arg10)) shapeCasts_S2_S1x2 := by
  show StableHlo.after hostOps0 (fun b => m (c, b)) (Proc.devRef .tc main_v4) = _
  after_results; rfl

/-! ## Where each window's block sits: the printed index maps, decided over the four points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

/-! ## The blocks read off the arrays -/

/-- The feature block at point t is batch element t of the feature array. -/
theorem blk0 (c : Dev nD) (t : Fin cfg0.N) (r : Fin 512) (k : Fin 128) :
    iblk m c 0 t (ix3 (0 : Fin 1) r k) = V m c main_arg0 (ix3 (tb t) r k) := by
  show V m c main_arg0 (((cfg0.win 0).blk t).view.emb (ix3 (0 : Fin 1) r k)) = _
  refine congrArg _ (funext fun a => Fin.ext ?_)
  obtain ⟨e0, e1, e2⟩ := idx0 t
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 128 + 1 * k.val = k.val; omega

/-- A weight matrix's block is the whole matrix. -/
theorem blk1 (c : Dev nD) (t : Fin cfg0.N) (r : Fin 128) (k : Fin 256) : iblk m c 1 t (ix2 r k) = V m c main_arg1 (ix2 r k) := by
  show V m c main_arg1 (((cfg0.win 1).blk t).view.emb (ix2 r k)) = _
  refine congrArg _ (funext fun a => Fin.ext ?_)
  obtain ⟨e0, e1⟩ := idx1 t
  match a with
  | ⟨0, _⟩ => show win0_1.index t (0 : Fin 2) * 128 + 1 * r.val = r.val; omega
  | ⟨1, _⟩ => show win0_1.index t (1 : Fin 2) * 256 + 1 * k.val = k.val; omega
theorem blk2 (c : Dev nD) (t : Fin cfg0.N) (r : Fin 1) (k : Fin 256) : iblk m c 2 t (ix2 r k) = V m c main_v0 (ix2 r k) := by
  show V m c main_v0 (((cfg0.win 2).blk t).view.emb (ix2 r k)) = _
  refine congrArg _ (funext fun a => Fin.ext ?_)
  obtain ⟨e0, e1⟩ := idx2 t
  match a with
  | ⟨0, _⟩ => show win0_2.index t (0 : Fin 2) * 1 + 1 * r.val = r.val; omega
  | ⟨1, _⟩ => show win0_2.index t (1 : Fin 2) * 256 + 1 * k.val = k.val; omega
theorem blk3 (c : Dev nD) (t : Fin cfg0.N) (r : Fin 256) (k : Fin 256) : iblk m c 3 t (ix2 r k) = V m c main_arg3 (ix2 r k) := by
  show V m c main_arg3 (((cfg0.win 3).blk t).view.emb (ix2 r k)) = _
  refine congrArg _ (funext fun a => Fin.ext ?_)
  obtain ⟨e0, e1⟩ := idx3 t
  match a with
  | ⟨0, _⟩ => show win0_3.index t (0 : Fin 2) * 256 + 1 * r.val = r.val; omega
  | ⟨1, _⟩ => show win0_3.index t (1 : Fin 2) * 256 + 1 * k.val = k.val; omega
theorem blk4 (c : Dev nD) (t : Fin cfg0.N) (r : Fin 1) (k : Fin 256) : iblk m c 4 t (ix2 r k) = V m c main_v1 (ix2 r k) := by
  show V m c main_v1 (((cfg0.win 4).blk t).view.emb (ix2 r k)) = _
  refine congrArg _ (funext fun a => Fin.ext ?_)
  obtain ⟨e0, e1⟩ := idx4 t
  match a with
  | ⟨0, _⟩ => show win0_4.index t (0 : Fin 2) * 1 + 1 * r.val = r.val; omega
  | ⟨1, _⟩ => show win0_4.index t (1 : Fin 2) * 256 + 1 * k.val = k.val; omega
theorem blk5 (c : Dev nD) (t : Fin cfg0.N) (r : Fin 256) (k : Fin 256) : iblk m c 5 t (ix2 r k) = V m c main_arg5 (ix2 r k) := by
  show V m c main_arg5 (((cfg0.win 5).blk t).view.emb (ix2 r k)) = _
  refine congrArg _ (funext fun a => Fin.ext ?_)
  obtain ⟨e0, e1⟩ := idx5 t
  match a with
  | ⟨0, _⟩ => show win0_5.index t (0 : Fin 2) * 256 + 1 * r.val = r.val; omega
  | ⟨1, _⟩ => show win0_5.index t (1 : Fin 2) * 256 + 1 * k.val = k.val; omega
theorem blk6 (c : Dev nD) (t : Fin cfg0.N) (r : Fin 1) (k : Fin 256) : iblk m c 6 t (ix2 r k) = V m c main_v2 (ix2 r k) := by
  show V m c main_v2 (((cfg0.win 6).blk t).view.emb (ix2 r k)) = _
  refine congrArg _ (funext fun a => Fin.ext ?_)
  obtain ⟨e0, e1⟩ := idx6 t
  match a with
  | ⟨0, _⟩ => show win0_6.index t (0 : Fin 2) * 1 + 1 * r.val = r.val; omega
  | ⟨1, _⟩ => show win0_6.index t (1 : Fin 2) * 256 + 1 * k.val = k.val; omega
theorem blk7 (c : Dev nD) (t : Fin cfg0.N) (r : Fin 256) (k : Fin 128) : iblk m c 7 t (ix2 r k) = V m c main_arg7 (ix2 r k) := by
  show V m c main_arg7 (((cfg0.win 7).blk t).view.emb (ix2 r k)) = _
  refine congrArg _ (funext fun a => Fin.ext ?_)
  obtain ⟨e0, e1⟩ := idx7 t
  match a with
  | ⟨0, _⟩ => show win0_7.index t (0 : Fin 2) * 256 + 1 * r.val = r.val; omega
  | ⟨1, _⟩ => show win0_7.index t (1 : Fin 2) * 128 + 1 * k.val = k.val; omega
theorem blk8 (c : Dev nD) (t : Fin cfg0.N) (r : Fin 1) (k : Fin 128) : iblk m c 8 t (ix2 r k) = V m c main_v3 (ix2 r k) := by
  show V m c main_v3 (((cfg0.win 8).blk t).view.emb (ix2 r k)) = _
  refine congrArg _ (funext fun a => Fin.ext ?_)
  obtain ⟨e0, e1⟩ := idx8 t
  match a with
  | ⟨0, _⟩ => show win0_8.index t (0 : Fin 2) * 1 + 1 * r.val = r.val; omega
  | ⟨1, _⟩ => show win0_8.index t (1 : Fin 2) * 128 + 1 * k.val = k.val; omega
theorem blk9 (c : Dev nD) (t : Fin cfg0.N) (r : Fin 128) (k : Fin 2) : iblk m c 9 t (ix2 r k) = V m c main_arg9 (ix2 r k) := by
  show V m c main_arg9 (((cfg0.win 9).blk t).view.emb (ix2 r k)) = _
  refine congrArg _ (funext fun a => Fin.ext ?_)
  obtain ⟨e0, e1⟩ := idx9 t
  match a with
  | ⟨0, _⟩ => show win0_9.index t (0 : Fin 2) * 128 + 1 * r.val = r.val; omega
  | ⟨1, _⟩ => show win0_9.index t (1 : Fin 2) * 2 + 1 * k.val = k.val; omega
theorem blk10 (c : Dev nD) (t : Fin cfg0.N) (r : Fin 1) (k : Fin 2) : iblk m c 10 t (ix2 r k) = V m c main_v4 (ix2 r k) := by
  show V m c main_v4 (((cfg0.win 10).blk t).view.emb (ix2 r k)) = _
  refine congrArg _ (funext fun a => Fin.ext ?_)
  obtain ⟨e0, e1⟩ := idx10 t
  match a with
  | ⟨0, _⟩ => show win0_10.index t (0 : Fin 2) * 1 + 1 * r.val = r.val; omega
  | ⟨1, _⟩ => show win0_10.index t (1 : Fin 2) * 2 + 1 * k.val = k.val; omega

/-! ## For real arguments the blocks hold the specification's inputs -/

section Real
variable (c : Dev nD) (hreal : (args m c).Real) (t : Fin cfg0.N)
include hreal

theorem real0 (r : Fin 512) (k : Fin 128) :
    iblk m c 0 t (ix3 (0 : Fin 1) r k) = ((((args m c).params.X (tb t) r k : ℝ)) : EReal) :=
  (blk0 m c t r k).trans ((congrFun (V_main_arg0 m c) _).trans (hreal.h0 (ix3 (tb t) r k)))

theorem real1 : R2 (n := 128) (m := 256) (iblk m c 1 t) (args m c).params.W1 := fun r k =>
  (blk1 m c t r k).trans ((congrFun (V_main_arg1 m c) _).trans (hreal.h1 (ix2 r k)))
theorem real3 : R2 (n := 256) (m := 256) (iblk m c 3 t) (args m c).params.W2 := fun r k =>
  (blk3 m c t r k).trans ((congrFun (V_main_arg3 m c) _).trans (hreal.h3 (ix2 r k)))
theorem real5 : R2 (n := 256) (m := 256) (iblk m c 5 t) (args m c).params.W3 := fun r k =>
  (blk5 m c t r k).trans ((congrFun (V_main_arg5 m c) _).trans (hreal.h5 (ix2 r k)))
theorem real7 : R2 (n := 256) (m := 128) (iblk m c 7 t) (args m c).params.DW := fun r k =>
  (blk7 m c t r k).trans ((congrFun (V_main_arg7 m c) _).trans (hreal.h7 (ix2 r k)))
theorem real9 : R2 (n := 128) (m := 2) (iblk m c 9 t) (args m c).params.OW := fun r k =>
  (blk9 m c t r k).trans ((congrFun (V_main_arg9 m c) _).trans (hreal.h9 (ix2 r k)))

theorem real2 : R2 (n := 1) (m := 256) (iblk m c 2 t) (fun _ k => (args m c).params.b1 k) := fun r k =>
  (blk2 m c t r k).trans ((congrFun (V_v0 m c) _).trans ((shapeCast_a_1a_apply _ _ r k).trans (hreal.h2 (ix1 k))))
theorem real4 : R2 (n := 1) (m := 256) (iblk m c 4 t) (fun _ k => (args m c).params.b2 k) := fun r k =>
  (blk4 m c t r k).trans ((congrFun (V_v1 m c) _).trans ((shapeCast_a_1a_apply _ _ r k).trans (hreal.h4 (ix1 k))))
theorem real6 : R2 (n := 1) (m := 256) (iblk m c 6 t) (fun _ k => (args m c).params.b3 k) := fun r k =>
  (blk6 m c t r k).trans ((congrFun (V_v2 m c) _).trans ((shapeCast_a_1a_apply _ _ r k).trans (hreal.h6 (ix1 k))))
theorem real8 : R2 (n := 1) (m := 128) (iblk m c 8 t) (fun _ k => (args m c).params.db k) := fun r k =>
  (blk8 m c t r k).trans ((congrFun (V_v3 m c) _).trans ((shapeCast_a_1a_apply _ _ r k).trans (hreal.h8 (ix1 k))))
theorem real10 : R2 (n := 1) (m := 2) (iblk m c 10 t) (fun _ k => (args m c).params.ob k) := fun r k =>
  (blk10 m c t r k).trans ((congrFun (V_v4 m c) _).trans ((shapeCast_a_1a_apply _ _ r k).trans (hreal.h10 (ix1 k))))

end Real

/-! ## What the body stores, at any index of its block -/

/-- The body's stored block at any of its indices, for blocks that hold reals. -/
theorem body_real_at (x0 : Vec Ideal S1x512x128 .f32) (x1 : Vec Ideal S128x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x128 .f32) (x8 : Vec Ideal S1x128 .f32) (x9 : Vec Ideal S128x2 .f32) (x10 : Vec Ideal S1x2 .f32)
    (P : Cert.Spec.Params) (b : Fin 4)
    (h0 : ∀ r c, x0 (ix3 (0 : Fin 1) r c) = ((P.X b r c : ℝ) : EReal)) (h1 : R2 x1 P.W1) (h2 : R2 x2 (fun _ k => P.b1 k))
    (h3 : R2 x3 P.W2) (h4 : R2 x4 (fun _ k => P.b2 k)) (h5 : R2 x5 P.W3) (h6 : R2 x6 (fun _ k => P.b3 k)) (h7 : R2 x7 P.DW)
    (h8 : R2 x8 (fun _ k => P.db k)) (h9 : R2 x9 P.OW) (h10 : R2 x10 (fun _ k => P.ob k)) (j : S1x1x2.Idx) :
    out0_11 x0 x1 x2 x3 x4 x5 x6 x7 x8 x9 x10 j = ((Cert.Spec.out P b (j 2) : ℝ) : EReal) := by
  have hz3 : (![0, 0, 0] : Fin 3 → Nat) = fun _ => 0 := funext fun a => by fin_cases a <;> rfl
  have hz2 : (![0, 0] : Fin 2 → Nat) = fun _ => 0 := funext fun a => by fin_cases a <;> rfl
  obtain ⟨u0, u1, o, rfl⟩ : ∃ (u0 : Fin 1) (u1 : Fin 1) (o : Fin 2), j = ix3 u0 u1 o := ⟨j 0, j 1, j 2, eq_ix3 j⟩
  unfold out0_11
  rw [View.canon_unit_zero hz3]
  simp only [View.ld_unit_zero (S := S1x512x128) hz3, View.ld_unit_zero (S := S128x256) hz2, View.ld_unit_zero (S := S1x256) hz2,
    View.ld_unit_zero (S := S256x256) hz2, View.ld_unit_zero (S := S256x128) hz2, View.ld_unit_zero (S := S1x128) hz2,
    View.ld_unit_zero (S := S128x2) hz2, View.ld_unit_zero (S := S1x2) hz2]
  refine (body_real x0 x1 x2 x3 x4 x5 x6 x7 x8 x9 x10 h0 h1 h2 h3 h4 h5 h6 h7 h8 h9 h10 u0 u1 o).trans ?_
  exact congrArg _ (kout_eq P b u1 o)

/-! ## Point t writes batch element t's results; the four points cover the array -/

/-- The 4 × 1 × 2 array the specification assigns. -/
def G5 (A : Cert.Inputs.Args) : S4x1x2.Idx → EReal := fun i => ((Cert.Spec.out A.params (i 0) (i 2) : ℝ) : EReal)

theorem flushed_eq (c : Dev nD) (hreal : (args m c).Real) (t : Fin cfg0.N) :
    (dats m 0 c).flushed 11 t = ((cfg0.win 11).blk t).view.read (Elt Ideal) (G5 (args m c)) := by
  show (cfg0.win 11).cut (grid0.coords t) ((dats m 0 c).after 11 t) = _
  rw [after0_11]
  funext j
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) j = G5 (args m c) (((cfg0.win 11).blk t).view.emb j)
  refine (body_real_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (args m c).params (tb t)
    (real0 m c hreal t) (real1 m c hreal t) (real2 m c hreal t) (real3 m c hreal t) (real4 m c hreal t) (real5 m c hreal t)
    (real6 m c hreal t) (real7 m c hreal t) (real8 m c hreal t) (real9 m c hreal t) (real10 m c hreal t) j).trans ?_
  obtain ⟨e0, e1, e2⟩ := idx11 t
  have hj2 : (j 2).val < 2 := (j 2).isLt
  have hj0 : (j 0).val < 1 := (j 0).isLt
  have a0 : (((cfg0.win 11).blk t).view.emb j) 0 = tb t := Fin.ext (by
    show win0_11.index t (0 : Fin 3) * 1 + 1 * (j 0).val = t.val; omega)
  have a2 : (((cfg0.win 11).blk t).view.emb j) 2 = j 2 := Fin.ext (by
    show win0_11.index t (2 : Fin 3) * 2 + 1 * (j 2).val = (j 2).val; omega)
  show _ = ((Cert.Spec.out (args m c).params ((((cfg0.win 11).blk t).view.emb j) 0) ((((cfg0.win 11).blk t).view.emb j) 2) : ℝ) : EReal)
  rw [a0, a2]

/-- An index of the array is in point t's block iff each coordinate is in the block's range on its axis. -/
theorem mem_blk (t : Fin cfg0.N) (i : S4x1x2.Idx) :
    i ∈ ((cfg0.win 11).blk t).view.set ↔ ∀ a : Fin 3, win0_11.index t a * S1x1x2.size a ≤ (i a).val
      ∧ (i a).val < win0_11.index t a * S1x1x2.size a + S1x1x2.size a := by
  show i ∈ ((View.whole main_v5).slice (win0_11.rect t)).set ↔ _
  rw [View.set_slice_whole, Rect.mem_set_unit]
  exact Iff.rfl

/-- Row b of the array is point b's block. -/
theorem cover (i : S4x1x2.Idx) : ∃ t : Fin cfg0.N, (cfg0.win 11).flush t = true ∧ i ∈ ((cfg0.win 11).blk t).view.set := by
  have hi0 : (i 0).val < 4 := (i 0).isLt
  have hi1 : (i 1).val < 1 := (i 1).isLt
  have hi2 : (i 2).val < 2 := (i 2).isLt
  have hN : cfg0.N = 4 := N_0
  have ht : (i 0).val < cfg0.N := by omega
  obtain ⟨t, htv⟩ : ∃ t : Fin cfg0.N, t.val = (i 0).val := ⟨⟨(i 0).val, ht⟩, rfl⟩
  refine ⟨t, flush0_11 t, ?_⟩
  rw [mem_blk]
  obtain ⟨e0, e1, e2⟩ := idx11 t
  intro a
  match a with
  | ⟨0, _⟩ =>
    show win0_11.index t (0 : Fin 3) * 1 ≤ (i 0).val ∧ (i 0).val < win0_11.index t (0 : Fin 3) * 1 + 1
    omega
  | ⟨1, _⟩ =>
    show win0_11.index t (1 : Fin 3) * 1 ≤ (i 1).val ∧ (i 1).val < win0_11.index t (1 : Fin 3) * 1 + 1
    omega
  | ⟨2, _⟩ =>
    show win0_11.index t (2 : Fin 3) * 2 ≤ (i 2).val ∧ (i 2).val < win0_11.index t (2 : Fin 3) * 2 + 2
    omega

/-- After the region the 4 × 1 × 2 array holds the specification's result. -/
theorem final (c : Dev nD) (hreal : (args m c).Real) : (dats m 0 c).arrAt 11 cfg0.N = G5 (args m c) :=
  (dats m 0 c).arrAt_eq_of_cover 11 (G5 (args m c)) (fun t _ => flushed_eq m c hreal t) cover

end Cert.Proof.KernelBlocks

end
-- ==== Proof.KernelValue.lean ====
/- The idealized kernel's value.

   Each grid point stages one batch element's 512 × 128 block of features and the whole of every weight array, runs the
   body on them, and writes back that batch element's two results; after the region one reshape turns the 4 × 1 × 2 array
   into the 4 × 2 result. For real inputs the result is the specification's.

   The region's run leaves the 4 × 1 × 2 array at what the four points wrote back — the specification's results, row b of
   the array being batch element b's — and every argument array as it was; the reshape reads entry (b, o) of the result at
   entry (b, 0, o) of that array, the two having the same row-major position. -/
import proofs.«120006_g55027120997065_cont_sun_c4_852_12_alg».proof.Defs
import proofs.«120006_g55027120997065_cont_sun_c4_852_12_alg».proof.Proof.Gen.KernelIdeal.Frame
import proofs.«120006_g55027120997065_cont_sun_c4_852_12_alg».proof.Proof.Inputs
import proofs.«120006_g55027120997065_cont_sun_c4_852_12_alg».proof.Proof.KernelBlocks
import Idealize.ShloMosaic.Lib.Pipeline.Value

noncomputable section

namespace Cert.Proof.KernelValue

open Idealize.ShloMosaic Idealize.ShloMosaic.TcCoe Idealize.SL.Sem Cert.KernelIdeal Cert.KernelIdeal.Gen

/-- The idealized kernel program's eleven argument arrays on device c. -/
def kargs (m : (ℓ : Loc nD τ sig) → Buf (Elt Ideal) ℓ) (c : Dev nD) : Cert.Inputs.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)

/-- The 4 × 1 × 2 array of the specification's results, reshaped, is the 4 × 2 result array. -/
theorem result_eq (A : Cert.Inputs.Args) :
    shapeCast S4x2 (Cert.Proof.KernelBlocks.G5 A) shapeCasts_S4x1x2_S4x2 = A.result := by
  funext i
  obtain ⟨b, o, rfl⟩ : ∃ (b : Fin 4) (o : Fin 2), i = ValueIdx.ix2 b o := ⟨i 0, i 1, ValueIdx.eq_ix2 i⟩
  refine (shapeCast_apply _ shapeCasts_S4x1x2_S4x2 (ValueIdx.ix2 b o) (ValueIdx.ix3 b (0 : Fin 1) o) (by
    rw [Shape.rowMajor_val_three, Shape.rowMajor_val_two]
    show (b.val * 1 + 0) * 2 + o.val = b.val * 2 + o.val
    omega)).trans ?_
  rfl

/-- What the one host operation after the region leaves in the result array: the reshape of the region's output. -/
theorem tail_eq (m : (ℓ : Loc nD τ sig) → Buf (Elt Ideal) ℓ) (c : Dev nD) (hreal : (kargs m c).Real) :
    Pipeline.afterTail₀ cfgs (dats m) 0 (V0 m) [hostOps1] c main_v6 = (kargs m c).result := by
  have e := (Pipeline.withArrays_arr spec0 launch0.win.arr_inj c (V0 m c) (fun w => (dats m 0 c).arrAt w cfg0.N) 11).trans
    (Cert.Proof.KernelBlocks.final m c hreal)
  unfold Pipeline.afterTail₀
  show StableHlo.after hostOps1 _ (Proc.devRef .tc main_v6) = _
  after_results
  refine Eq.trans ?_ (result_eq (kargs m c))
  exact congrArg (fun v : S4x1x2.Idx → EReal => shapeCast S4x2 v shapeCasts_S4x1x2_S4x2) e

/-- For real inputs, every weakly fair execution of the idealized kernel program terminates without fault with the result
    array at the specification's value and the argument arrays unchanged. -/
theorem run (m : (ℓ : Loc nD τ sig) → Buf (Elt Ideal) ℓ) (ρ : Dev nD → PrngReg) (hreal : ∀ c, (kargs m c).Real) :
    θ_run (defs (F := Ideal)) (onTc (τ := τ) (main (F := Ideal))) ⟨m, fun _ => 0, ρ⟩ (fun r => ∀ c : Dev nD,
      r.2.mem ((c.tc : Thread nD τ).loc main_v6) = (kargs m c).result
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  exact (θ_run (defs (F := Ideal)) _ _).mono (fun _ h c =>
    ⟨((h c).2 main_v6 (Pipeline.mem_restRefs_of main_v6 (by decide) (by decide))).trans (tail_eq m c (hreal c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩)
    (run_main m ρ)

end Cert.Proof.KernelValue

end
-- ==== Proof.Finite.lean ====
/- Finite inputs are real inputs.

   The precondition says of each of the eleven argument arrays that every entry's absolute value is below +infinity. On the
   extended reals that leaves exactly the real numbers: each entry is the coercion of a real. -/
import proofs.«120006_g55027120997065_cont_sun_c4_852_12_alg».proof.Defs
import proofs.«120006_g55027120997065_cont_sun_c4_852_12_alg».proof.Proof.Gen.Pre_finite_inputs
import proofs.«120006_g55027120997065_cont_sun_c4_852_12_alg».proof.Proof.KernelValue
import Idealize.ShloMosaic.Lib.ReduceAll
import Idealize.ShloMosaic.Lib.ValueIdx

noncomputable section

namespace Cert.Proof.Finite

open Idealize.ShloMosaic Idealize.ShloMosaic.TcCoe Idealize.SL.Sem Cert.KernelIdeal Cert.KernelIdeal.Gen

/-- The rank-zero shape has one index. -/
instance : Subsingleton (⟨0, ![]⟩ : Shape).Idx := ⟨fun _ _ => funext fun d => d.elim0⟩

/-- The f32 word of +infinity denotes the top element. -/
theorem ofBits_inf : Ideal.ofBits .f32 0x7F800000#32 = (⊤ : EReal) := by simp [Ideal.ofBits, Ideal.ieee]

/-- An extended real whose absolute value is below the top element is the coercion of a real. -/
theorem eq_coe_of_abs_lt_top (x : EReal) (h : max x (-x) < ⊤) : x = ((x.toReal : ℝ) : EReal) := by
  induction x using EReal.rec with
  | bot => simp at h
  | top => simp at h
  | coe r => simp

/-- If "every entry's absolute value is below +infinity", reduced by `and` over all axes, comes out one, the array holds
    real numbers. -/
theorem isReal_of_all {S : Shape} {axes : List (Fin S.rank)} (a : FVec Ideal S .f32) (dims : Fin 0 → Fin S.rank)
    (hb : (⟨0, ![]⟩ : Shape).BroadcastsInDim S dims) (hr : S.ReducesTo axes ⟨0, ![]⟩) (hu : 0 < (⟨0, ![]⟩ : Shape).numel)
    (e : Host.reduce IntOp.andi (cmpf .olt (Host.absf a) (broadcastInDim S dims hb (constant (F := Ideal) ⟨0, ![]⟩ .f32 0x7F800000#32)))
      (constantI ⟨0, ![]⟩ 1 1#1) hr hu ValueIdx.ix0 = 1#1) : Cert.Inputs.IsReal a := by
  intro i
  have hi := Host.reduce_andi_all _ _ hr hu ValueIdx.ix0 e i
  change Ideal.cmp .olt (max (a i) (-(a i))) (Ideal.ofBits .f32 0x7F800000#32) = 1#1 at hi
  rw [ofBits_inf] at hi
  have hlt : max (a i) (-(a i)) < ⊤ := by
    by_contra hn
    simp [Ideal.cmp, hn] at hi
  exact eq_coe_of_abs_lt_top (a i) hlt

/-- Under the precondition, the idealized kernel program's argument arrays hold real numbers, on every device. -/
theorem real_of_pre (m : (ℓ : Loc nD τ sig) → Buf (Elt Ideal) ℓ) (h : Cert.Pre_KernelIdeal m) :
    ∀ c, (Cert.Proof.KernelValue.kargs m c).Real := by
  intro c
  have hc := congrFun (h c) ValueIdx.ix0
  unfold Cert.Pre_finite_inputs.fn Cert.Pre_finite_inputs.fn_part1 Cert.Pre_finite_inputs.fn_part2
    Cert.Pre_finite_inputs.fn_part3 at hc
  simp only [andi, IntOp.andi_eq_one] at hc
  obtain ⟨⟨⟨⟨⟨⟨⟨⟨⟨⟨h0, h1⟩, h2⟩, h3⟩, h4⟩, h5⟩, h6⟩, h7⟩, h8⟩, h9⟩, h10⟩ := hc
  exact ⟨isReal_of_all _ _ _ _ _ h0, isReal_of_all _ _ _ _ _ h1, isReal_of_all _ _ _ _ _ h2, isReal_of_all _ _ _ _ _ h3,
    isReal_of_all _ _ _ _ _ h4, isReal_of_all _ _ _ _ _ h5, isReal_of_all _ _ _ _ _ h6, isReal_of_all _ _ _ _ _ h7,
    isReal_of_all _ _ _ _ _ h8, isReal_of_all _ _ _ _ _ h9, isReal_of_all _ _ _ _ _ h10⟩

end Cert.Proof.Finite

end
-- ==== Proof.RefSplit0.lean ====
/- Window 0 of the reference program as three consecutive sublists (the same operations, in the same order), and
    membership in the whole program through them. -/
import proofs.«120006_g55027120997065_cont_sun_c4_852_12_alg».proof.Proof.RefRun

set_option maxRecDepth 65536

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

abbrev ops0a : List (HloOp τ sig (Elt F)) :=
  [ nullary main_cst (constant S_ .f32 0x3F800000#32),
    unary main_cst main_v0 (broadcastInDim S512x512 ![] bcast_S_S512x512 : (⟨S_, .f32⟩ : BufTy).Contents (Elt F) → (⟨S512x512, .f32⟩ : BufTy).Contents (Elt F)),
    TRef.nullary main_call0.v0 (iotaInDim S512x512 32 0),
    TRef.nullary main_call0.c (constantI S_ 32 0#32),
    TRef.unary main_call0.c main_call0.v1 (broadcastInDim S512x512 ![] bcast_S_S512x512),
    TRef.binary main_call0.v0 main_call0.v1 main_call0.v2 addi,
    TRef.nullary main_call0.v3 (iotaInDim S512x512 32 1),
    TRef.binary main_call0.v2 main_call0.v3 main_call0.v4 (cmpi .sge),
    TRef.nullary main_call0.cst (constant S_ .f32 0x00000000#32),
    TRef.unary main_call0.cst main_call0.v5 (broadcastInDim S512x512 ![] bcast_S_S512x512),
    TRef.ternary main_call0.v4 main_call0.v5 (.of main_v0 : StableHlo.TRef sig ⟨S512x512, .f32⟩) main_call0.v6 select,
    nullary main_cst_0 (constant S_ .f32 0x00000000#32),
    unary main_cst_0 main_v2 (broadcastInDim S512x512 ![] bcast_S_S512x512 : (⟨S_, .f32⟩ : BufTy).Contents (Elt F) → (⟨S512x512, .f32⟩ : BufTy).Contents (Elt F)),
    binary main_v1 main_v2 main_v3 (cmpf .une : (⟨S512x512, .f32⟩ : BufTy).Contents (Elt F) → (⟨S512x512, .f32⟩ : BufTy).Contents (Elt F) → (⟨S512x512, .i1⟩ : BufTy).Contents (Elt F)),
    TRef.reshape (.of main_v3 : StableHlo.TRef sig ⟨S512x512, .i1⟩) main_call1.v0 rfl shapeCasts_S512x512_S262144,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![262144] ![1] ![262143] ![0] x v reduceWindows_S262144_S262144_w262144s1p262143_0 h_S_),
    nullary main_c (constantI S_ 32 0#32),
    unary main_c main_v5 (broadcastInDim S130816 ![] bcast_S_S130816 : (⟨S_, .i32⟩ : BufTy).Contents (Elt F) → (⟨S130816, .i32⟩ : BufTy).Contents (Elt F)),
    nullary main_c_1 (constantI S_ 32 0#32),
    TRef.unary (.of main_c_1 : StableHlo.TRef sig ⟨S_, .i32⟩) main_call2.v0 id,
    TRef.unary main_call2.v0 main_call2.v1 (broadcastInDim S262144 ![] bcast_S_S262144),
    TRef.binary main_call2.v1 (.of main_v4 : StableHlo.TRef sig ⟨S262144, .i32⟩) main_call2.v2 maxsi,
    nullary main_c_2 (constantI S_ 32 0#32),
    unary main_c_2 main_v7 (broadcastInDim S262144 ![] bcast_S_S262144 : (⟨S_, .i32⟩ : BufTy).Contents (Elt F) → (⟨S262144, .i32⟩ : BufTy).Contents (Elt F)),
    binary main_v6 main_v7 main_v8 (cmpi .slt : (⟨S262144, .i32⟩ : BufTy).Contents (Elt F) → (⟨S262144, .i32⟩ : BufTy).Contents (Elt F) → (⟨S262144, .i1⟩ : BufTy).Contents (Elt F)),
    nullary main_c_3 (constantI S_ 32 130816#32),
    unary main_c_3 main_v9 (broadcastInDim S262144 ![] bcast_S_S262144 : (⟨S_, .i32⟩ : BufTy).Contents (Elt F) → (⟨S262144, .i32⟩ : BufTy).Contents (Elt F)),
    binary main_v6 main_v9 main_v10 (addi : (⟨S262144, .i32⟩ : BufTy).Contents (Elt F) → (⟨S262144, .i32⟩ : BufTy).Contents (Elt F) → (⟨S262144, .i32⟩ : BufTy).Contents (Elt F)),
    ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v11 main_v12 (broadcastInDim S262144x1 ![0] bcast_S262144_S262144x1_0 : (⟨S262144, .i32⟩ : BufTy).Contents (Elt F) → (⟨S262144x1, .i32⟩ : BufTy).Contents (Elt F)),
    nullary main_c_4 (constantI S_ 32 1#32),
    unary main_c_4 main_v13 (broadcastInDim S262144 ![] bcast_S_S262144 : (⟨S_, .i32⟩ : BufTy).Contents (Elt F) → (⟨S262144, .i32⟩ : BufTy).Contents (Elt F)),
    ternary main_v5 main_v12 main_v13 main_v14 ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)),
    TRef.nullary main_call3.call0.c (constantI S_ 32 0#32),
    TRef.unary main_call3.call0.c main_call3.call0.v0 (broadcastInDim S_ ![] bcast_S_S_),
    TRef.binary (.of main_v14 : StableHlo.TRef sig ⟨S130816, .i32⟩) main_call3.call0.v0 main_call3.call0.v1 (fun x v => Host.reduceWindow IntOp.addi ![130816] ![1] ![130815] ![0] x v reduceWindows_S130816_S130816_w130816s1p130815_0 h_S_),
    nullary main_c_5 (constantI S_ 32 512#32),
    TRef.unary (.of main_c_5 : StableHlo.TRef sig ⟨S_, .i32⟩) main_call4.v0 (broadcastInDim S130816 ![] bcast_S_S130816),
    TRef.binary (.of main_v15 : StableHlo.TRef sig ⟨S130816, .i32⟩) main_call4.v0 main_call4.v1 Host.divsi,
    TRef.unary (.of main_v15 : StableHlo.TRef sig ⟨S130816, .i32⟩) main_call4.v2 signi,
    TRef.unary (.of main_c_5 : StableHlo.TRef sig ⟨S_, .i32⟩) main_call4.v3 signi,
    TRef.unary main_call4.v3 main_call4.v4 (broadcastInDim S130816 ![] bcast_S_S130816),
    TRef.binary main_call4.v2 main_call4.v4 main_call4.v5 (cmpi .ne),
    TRef.unary (.of main_c_5 : StableHlo.TRef sig ⟨S_, .i32⟩) main_call4.v6 (broadcastInDim S130816 ![] bcast_S_S130816),
    TRef.binary (.of main_v15 : StableHlo.TRef sig ⟨S130816, .i32⟩) main_call4.v6 main_call4.v7 Host.remsi,
    TRef.nullary main_call4.c (constantI S_ 32 0#32) ]

abbrev ops0b : List (HloOp τ sig (Elt F)) :=
  [ TRef.unary main_call4.c main_call4.v8 (broadcastInDim S130816 ![] bcast_S_S130816),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S130816 ![] bcast_S_S130816),
    TRef.binary main_call4.v1 main_call4.v11 main_call4.v12 subi,
    TRef.ternary main_call4.v10 main_call4.v12 main_call4.v1 main_call4.call0.v0 select,
    nullary main_c_6 (constantI S_ 32 512#32),
    TRef.unary (.of main_c_6 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S130816 ![] bcast_S_S130816),
    TRef.binary (.of main_v16 : StableHlo.TRef sig ⟨S130816, .i32⟩) main_call5.v3 main_call5.v4 Host.remsi,
    TRef.nullary main_call5.c_1 (constantI S_ 32 0#32),
    TRef.unary main_call5.c_1 main_call5.v5 (broadcastInDim S130816 ![] bcast_S_S130816),
    TRef.binary main_call5.v4 main_call5.v5 main_call5.v6 (cmpi .ne),
    TRef.nullary main_call5.c_2 (constantI S_ 32 0#32),
    TRef.unary main_call5.c_2 main_call5.v7 (broadcastInDim S130816 ![] bcast_S_S130816),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S130816 ![] bcast_S_S130816),
    TRef.binary main_call5.v8 main_call5.v10 main_call5.v11 (cmpi .ne),
    TRef.binary main_call5.v11 main_call5.v6 main_call5.v12 andi,
    TRef.unary main_call5.call0.v0 main_call5.v13 (broadcastInDim S130816 ![] bcast_S_S130816),
    TRef.binary main_call5.v4 main_call5.v13 main_call5.v14 addi,
    TRef.ternary main_call5.v12 main_call5.v14 main_call5.v4 main_call5.v15 select,
    nullary main_c_7 (constantI S_ 32 1#32),
    TRef.unary (.of main_c_7 : StableHlo.TRef sig ⟨S_, .i32⟩) main_call6.v0 (broadcastInDim S130816 ![] bcast_S_S130816),
    TRef.binary (.of main_v15 : StableHlo.TRef sig ⟨S130816, .i32⟩) main_call6.v0 main_call6.v1 Host.divsi,
    TRef.unary (.of main_v15 : StableHlo.TRef sig ⟨S130816, .i32⟩) main_call6.v2 signi,
    TRef.unary (.of main_c_7 : StableHlo.TRef sig ⟨S_, .i32⟩) main_call6.v3 signi,
    TRef.unary main_call6.v3 main_call6.v4 (broadcastInDim S130816 ![] bcast_S_S130816),
    TRef.binary main_call6.v2 main_call6.v4 main_call6.v5 (cmpi .ne),
    TRef.unary (.of main_c_7 : StableHlo.TRef sig ⟨S_, .i32⟩) main_call6.v6 (broadcastInDim S130816 ![] bcast_S_S130816),
    TRef.binary (.of main_v15 : StableHlo.TRef sig ⟨S130816, .i32⟩) main_call6.v6 main_call6.v7 Host.remsi,
    TRef.nullary main_call6.c (constantI S_ 32 0#32),
    TRef.unary main_call6.c main_call6.v8 (broadcastInDim S130816 ![] bcast_S_S130816),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S130816 ![] bcast_S_S130816),
    TRef.binary main_call6.v1 main_call6.v11 main_call6.v12 subi,
    TRef.ternary main_call6.v10 main_call6.v12 main_call6.v1 main_call6.call0.v0 select,
    nullary main_c_8 (constantI S_ 32 512#32),
    TRef.unary (.of main_c_8 : StableHlo.TRef sig ⟨S_, .i32⟩) main_call7.v0 id,
    TRef.nullary main_call7.c (constantI S_ 32 0#32) ]

abbrev ops0c : List (HloOp τ sig (Elt F)) :=
  [ TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S130816 ![] bcast_S_S130816),
    TRef.binary (.of main_v18 : StableHlo.TRef sig ⟨S130816, .i32⟩) main_call7.v3 main_call7.v4 Host.remsi,
    TRef.nullary main_call7.c_1 (constantI S_ 32 0#32),
    TRef.unary main_call7.c_1 main_call7.v5 (broadcastInDim S130816 ![] bcast_S_S130816),
    TRef.binary main_call7.v4 main_call7.v5 main_call7.v6 (cmpi .ne),
    TRef.nullary main_call7.c_2 (constantI S_ 32 0#32),
    TRef.unary main_call7.c_2 main_call7.v7 (broadcastInDim S130816 ![] bcast_S_S130816),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S130816 ![] bcast_S_S130816),
    TRef.binary main_call7.v8 main_call7.v10 main_call7.v11 (cmpi .ne),
    TRef.binary main_call7.v11 main_call7.v6 main_call7.v12 andi,
    TRef.unary main_call7.call0.v0 main_call7.v13 (broadcastInDim S130816 ![] bcast_S_S130816),
    TRef.binary main_call7.v4 main_call7.v13 main_call7.v14 addi,
    TRef.ternary main_call7.v12 main_call7.v14 main_call7.v4 main_call7.v15 select,
    unary main_arg0 main_v20 ((extractStridedSlice S1x512x128 ![0, 0, 0] · slices_S4x512x128_S1x512x128_0_0_0) : (⟨S4x512x128, .f32⟩ : BufTy).Contents (Elt F) → (⟨S1x512x128, .f32⟩ : BufTy).Contents (Elt F)),
    reshape main_v20 main_v21 rfl shapeCasts_S1x512x128_S512x128,
    unary main_v21 main_v22 (broadcastInDim S512x1x128 ![0, 2] bcast_S512x128_S512x1x128_0_2 : (⟨S512x128, .f32⟩ : BufTy).Contents (Elt F) → (⟨S512x1x128, .f32⟩ : BufTy).Contents (Elt F)),
    unary main_v21 main_v23 (broadcastInDim S1x512x128 ![1, 2] bcast_S512x128_S1x512x128_1_2 : (⟨S512x128, .f32⟩ : BufTy).Contents (Elt F) → (⟨S1x512x128, .f32⟩ : BufTy).Contents (Elt F)),
    unary main_v22 main_v24 (broadcastInDim S512x512x128 ![0, 1, 2] bcast_S512x1x128_S512x512x128_0_1_2 : (⟨S512x1x128, .f32⟩ : BufTy).Contents (Elt F) → (⟨S512x512x128, .f32⟩ : BufTy).Contents (Elt F)),
    unary main_v23 main_v25 (broadcastInDim S512x512x128 ![0, 1, 2] bcast_S1x512x128_S512x512x128_0_1_2 : (⟨S1x512x128, .f32⟩ : BufTy).Contents (Elt F) → (⟨S512x512x128, .f32⟩ : BufTy).Contents (Elt F)),
    binary main_v24 main_v25 main_v26 (subf : (⟨S512x512x128, .f32⟩ : BufTy).Contents (Elt F) → (⟨S512x512x128, .f32⟩ : BufTy).Contents (Elt F) → (⟨S512x512x128, .f32⟩ : BufTy).Contents (Elt F)),
    binary main_v26 main_v26 main_v27 (mulf : (⟨S512x512x128, .f32⟩ : BufTy).Contents (Elt F) → (⟨S512x512x128, .f32⟩ : BufTy).Contents (Elt F) → (⟨S512x512x128, .f32⟩ : BufTy).Contents (Elt F)),
    nullary main_cst_9 (constant S_ .f32 0x00000000#32),
    binary main_v27 main_cst_9 main_v28 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)),
    nullary main_cst_10 (constant S_ .f32 0x2B8CBCCC#32),
    unary main_cst_10 main_v29 (broadcastInDim S512x512 ![] bcast_S_S512x512 : (⟨S_, .f32⟩ : BufTy).Contents (Elt F) → (⟨S512x512, .f32⟩ : BufTy).Contents (Elt F)),
    binary main_v28 main_v29 main_v30 (maximumf : (⟨S512x512, .f32⟩ : BufTy).Contents (Elt F) → (⟨S512x512, .f32⟩ : BufTy).Contents (Elt F) → (⟨S512x512, .f32⟩ : BufTy).Contents (Elt F)),
    unary main_v30 main_v31 (Host.sqrt : (⟨S512x512, .f32⟩ : BufTy).Contents (Elt F) → (⟨S512x512, .f32⟩ : BufTy).Contents (Elt F)),
    nullary main_c_11 (constantI S_ 32 0#32),
    unary main_c_11 main_v32 (broadcastInDim S130816 ![] bcast_S_S130816 : (⟨S_, .i32⟩ : BufTy).Contents (Elt F) → (⟨S130816, .i32⟩ : BufTy).Contents (Elt F)),
    binary main_v17 main_v32 main_v33 (addi : (⟨S130816, .i32⟩ : BufTy).Contents (Elt F) → (⟨S130816, .i32⟩ : BufTy).Contents (Elt F) → (⟨S130816, .i32⟩ : BufTy).Contents (Elt F)),
    nullary main_c_12 (constantI S_ 32 0#32),
    unary main_c_12 main_v34 (broadcastInDim S130816 ![] bcast_S_S130816 : (⟨S_, .i32⟩ : BufTy).Contents (Elt F) → (⟨S130816, .i32⟩ : BufTy).Contents (Elt F)),
    binary main_v19 main_v34 main_v35 (addi : (⟨S130816, .i32⟩ : BufTy).Contents (Elt F) → (⟨S130816, .i32⟩ : BufTy).Contents (Elt F) → (⟨S130816, .i32⟩ : BufTy).Contents (Elt F)),
    nullary main_c_13 (constantI S_ 32 0#32),
    unary main_c_13 main_v36 (broadcastInDim S130816 ![] bcast_S_S130816 : (⟨S_, .i32⟩ : BufTy).Contents (Elt F) → (⟨S130816, .i32⟩ : BufTy).Contents (Elt F)),
    binary main_v17 main_v36 main_v37 (cmpi .slt : (⟨S130816, .i32⟩ : BufTy).Contents (Elt F) → (⟨S130816, .i32⟩ : BufTy).Contents (Elt F) → (⟨S130816, .i1⟩ : BufTy).Contents (Elt F)),
    nullary main_c_14 (constantI S_ 32 512#32),
    unary main_c_14 main_v38 (broadcastInDim S130816 ![] bcast_S_S130816 : (⟨S_, .i32⟩ : BufTy).Contents (Elt F) → (⟨S130816, .i32⟩ : BufTy).Contents (Elt F)),
    binary main_v17 main_v38 main_v39 (addi : (⟨S130816, .i32⟩ : BufTy).Contents (Elt F) → (⟨S130816, .i32⟩ : BufTy).Contents (Elt F) → (⟨S130816, .i32⟩ : BufTy).Contents (Elt F)),
    ternary main_v37 main_v39 main_v17 main_v40 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    nullary main_c_15 (constantI S_ 32 0#32),
    unary main_c_15 main_v41 (broadcastInDim S130816 ![] bcast_S_S130816 : (⟨S_, .i32⟩ : BufTy).Contents (Elt F) → (⟨S130816, .i32⟩ : BufTy).Contents (Elt F)) ]

theorem ops0_split : (ops0 : List (HloOp τ sig (Elt F))) = ops0a ++ (ops0b ++ ops0c) := rfl

theorem mem_ops0a {op : HloOp τ sig (Elt F)} (h : op ∈ (ops0a : List (HloOp τ sig (Elt F)))) : op ∈ (ops : List (HloOp τ sig (Elt F))) :=
  mem_ops0 (by rw [ops0_split]; exact List.mem_append_left _ h)
theorem mem_ops0b {op : HloOp τ sig (Elt F)} (h : op ∈ (ops0b : List (HloOp τ sig (Elt F)))) : op ∈ (ops : List (HloOp τ sig (Elt F))) :=
  mem_ops0 (by rw [ops0_split]; exact List.mem_append_right _ (List.mem_append_left _ h))
theorem mem_ops0c {op : HloOp τ sig (Elt F)} (h : op ∈ (ops0c : List (HloOp τ sig (Elt F)))) : op ∈ (ops : List (HloOp τ sig (Elt F))) :=
  mem_ops0 (by rw [ops0_split]; exact List.mem_append_right _ (List.mem_append_right _ h))

end Cert.ReferenceIdeal.Line

end
-- ==== Proof.RefEq0a.lean ====
/- The equations of window 0's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefSplit0

set_option maxRecDepth 65536
set_option maxHeartbeats 1000000
set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

-- the operations are compared argument by argument, never opened
attribute [local irreducible] constant broadcastInDim iotaInDim constantI cmpi cmpf extui Host.reduceWindow addi subi andi maxsi signi select Host.scatter extractStridedSlice subf mulf addf maximumf Host.reduceAdd Host.sqrt concatenate Host.gather Host.divsi Host.remsi shapeCast

theorem eq_main_cst (V : Valuation τ sig (Elt F)) :
    (after ops V (Proc.devRef .tc main_cst) : (⟨S_, .f32⟩ : BufTy).Contents (Elt F)) = ((constant S_ .f32 0x3F800000#32) : (⟨S_, .f32⟩ : BufTy).Contents (Elt F)) :=
  (final_eq V (op := (nullary main_cst (constant S_ .f32 0x3F800000#32) : HloOp τ sig (Elt F))) (mem_ops0a (List.getElem_mem (l := (ops0a : List (HloOp τ sig (Elt F)))) (n := 0) (by show (0 : ℕ) < 49; decide))) main_cst rfl (readsBelow_nullary _ _ _)).trans
    (by first | (rw [nullary_result]; done) | (rw [nullary_result]; rfl))

theorem eq_main_v0 (V : Valuation τ sig (Elt F)) :
    (after ops V (Proc.devRef .tc main_v0) : (⟨S512x512, .f32⟩ : BufTy).Contents (Elt F)) = ((broadcastInDim S512x512 ![] bcast_S_S512x512 : (⟨S_, .f32⟩ : BufTy).Contents (Elt F) → (⟨S512x512, .f32⟩ : BufTy).Contents (Elt F))) (after ops V (Proc.devRef .tc main_cst) : (⟨S_, .f32⟩ : BufTy).Contents (Elt F)) :=
  (final_eq V (op := (unary main_cst main_v0 (broadcastInDim S512x512 ![] bcast_S_S512x512 : (⟨S_, .f32⟩ : BufTy).Contents (Elt F) → (⟨S512x512, .f32⟩ : BufTy).Contents (Elt F)) : HloOp τ sig (Elt F))) (mem_ops0a (List.getElem_mem (l := (ops0a : List (HloOp τ sig (Elt F)))) (n := 1) (by show (1 : ℕ) < 49; decide))) main_v0 rfl (readsBelow_unary _ _ _ _ _ (by decide))).trans
    (by first | (rw [unary_result]; done) | (rw [unary_result]; rfl))

theorem eq_main_call0_v0 (V : Valuation τ sig (Elt F)) :
    (after ops V (Proc.devRef .tc main_call0_v0) : (⟨S512x512, .i32⟩ : BufTy).Contents (Elt F)) = ((iotaInDim S512x512 32 0) : (⟨S512x512, .i32⟩ : BufTy).Contents (Elt F)) :=
  (final_eq V (op := (TRef.nullary main_call0.v0 (iotaInDim S512x512 32 0) : HloOp τ sig (Elt F))) (mem_ops0a (List.getElem_mem (l := (ops0a : List (HloOp τ sig (Elt F)))) (n := 2) (by show (2 : ℕ) < 49; decide))) main_call0_v0 rfl (readsBelow_nullary _ _ _)).trans
    (by first | (rw [nullary_result]; done) | (rw [nullary_result]; rfl))

theorem eq_main_call0_c (V : Valuation τ sig (Elt F)) :
    (after ops V (Proc.devRef .tc main_call0_c) : (⟨S_, .i32⟩ : BufTy).Contents (Elt F)) = ((constantI S_ 32 0#32) : (⟨S_, .i32⟩ : BufTy).Contents (Elt F)) :=
  (final_eq V (op := (TRef.nullary main_call0.c (constantI S_ 32 0#32) : HloOp τ sig (Elt F))) (mem_ops0a (List.getElem_mem (l := (ops0a : List (HloOp τ sig (Elt F)))) (n := 3) (by show (3 : ℕ) < 49; decide))) main_call0_c rfl (readsBelow_nullary _ _ _)).trans
    (by first | (rw [nullary_result]; done) | (rw [nullary_result]; rfl))

theorem eq_main_call0_v1 (V : Valuation τ sig (Elt F)) :
    (after ops V (Proc.devRef .tc main_call0_v1) : (⟨S512x512, .i32⟩ : BufTy).Contents (Elt F)) = ((broadcastInDim S512x512 ![] bcast_S_S512x512)) (after ops V (Proc.devRef .tc main_call0_c) : (⟨S_, .i32⟩ : BufTy).Contents (Elt F)) :=
  (final_eq V (op := (TRef.unary main_call0.c main_call0.v1 (broadcastInDim S512x512 ![] bcast_S_S512x512) : HloOp τ sig (Elt F))) (mem_ops0a (List.getElem_mem (l := (ops0a : List (HloOp τ sig (Elt F)))) (n := 4) (by show (4 : ℕ) < 49; decide))) main_call0_v1 rfl (readsBelow_unary _ _ _ _ _ (by decide))).trans
    (by first | (rw [unary_result]; done) | (rw [unary_result]; rfl))

theorem eq_main_call0_v2 (V : Valuation τ sig (Elt F)) :
    (after ops V (Proc.devRef .tc main_call0_v2) : (⟨S512x512, .i32⟩ : BufTy).Contents (Elt F)) = (addi) (after ops V (Proc.devRef .tc main_call0_v0) : (⟨S512x512, .i32⟩ : BufTy).Contents (Elt F)) (after ops V (Proc.devRef .tc main_call0_v1) : (⟨S512x512, .i32⟩ : BufTy).Contents (Elt F)) :=
  (final_eq V (op := (TRef.binary main_call0.v0 main_call0.v1 main_call0.v2 addi : HloOp τ sig (Elt F))) (mem_ops0a (List.getElem_mem (l := (ops0a : List (HloOp τ sig (Elt F)))) (n := 5) (by show (5 : ℕ) < 49; decide))) main_call0_v2 rfl (readsBelow_binary _ _ _ _ _ _ _ (by decide) (by decide))).trans
    (by first | (rw [binary_result]; done) | (rw [binary_result]; rfl))

theorem eq_main_call0_v3 (V : Valuation τ sig (Elt F)) :
    (after ops V (Proc.devRef .tc main_call0_v3) : (⟨S512x512, .i32⟩ : BufTy).Contents (Elt F)) = ((iotaInDim S512x512 32 1) : (⟨S512x512, .i32⟩ : BufTy).Contents (Elt F)) :=
  (final_eq V (op := (TRef.nullary main_call0.v3 (iotaInDim S512x512 32 1) : HloOp τ sig (Elt F))) (mem_ops0a (List.getElem_mem (l := (ops0a : List (HloOp τ sig (Elt F)))) (n := 6) (by show (6 : ℕ) < 49; decide))) main_call0_v3 rfl (readsBelow_nullary _ _ _)).trans
    (by first | (rw [nullary_result]; done) | (rw [nullary_result]; rfl))

theorem eq_main_call0_v4 (V : Valuation τ sig (Elt F)) :
    (after ops V (Proc.devRef .tc main_call0_v4) : (⟨S512x512, .i1⟩ : BufTy).Contents (Elt F)) = ((cmpi .sge)) (after ops V (Proc.devRef .tc main_call0_v2) : (⟨S512x512, .i32⟩ : BufTy).Contents (Elt F)) (after ops V (Proc.devRef .tc main_call0_v3) : (⟨S512x512, .i32⟩ : BufTy).Contents (Elt F)) :=
  (final_eq V (op := (TRef.binary main_call0.v2 main_call0.v3 main_call0.v4 (cmpi .sge) : HloOp τ sig (Elt F))) (mem_ops0a (List.getElem_mem (l := (ops0a : List (HloOp τ sig (Elt F)))) (n := 7) (by show (7 : ℕ) < 49; decide))) main_call0_v4 rfl (readsBelow_binary _ _ _ _ _ _ _ (by decide) (by decide))).trans
    (by first | (rw [binary_result]; done) | (rw [binary_result]; rfl))

theorem eq_main_call0_cst (V : Valuation τ sig (Elt F)) :
    (after ops V (Proc.devRef .tc main_call0_cst) : (⟨S_, .f32⟩ : BufTy).Contents (Elt F)) = ((constant S_ .f32 0x00000000#32) : (⟨S_, .f32⟩ : BufTy).Contents (Elt F)) :=
  (final_eq V (op := (TRef.nullary main_call0.cst (constant S_ .f32 0x00000000#32) : HloOp τ sig (Elt F))) (mem_ops0a (List.getElem_mem (l := (ops0a : List (HloOp τ sig (Elt F)))) (n := 8) (by show (8 : ℕ) < 49; decide))) main_call0_cst rfl (readsBelow_nullary _ _ _)).trans
    (by first | (rw [nullary_result]; done) | (rw [nullary_result]; rfl))

theorem eq_main_call0_v5 (V : Valuation τ sig (Elt F)) :
    (after ops V (Proc.devRef .tc main_call0_v5) : (⟨S512x512, .f32⟩ : BufTy).Contents (Elt F)) = ((broadcastInDim S512x512 ![] bcast_S_S512x512)) (after ops V (Proc.devRef .tc main_call0_cst) : (⟨S_, .f32⟩ : BufTy).Contents (Elt F)) :=
  (final_eq V (op := (TRef.unary main_call0.cst main_call0.v5 (broadcastInDim S512x512 ![] bcast_S_S512x512) : HloOp τ sig (Elt F))) (mem_ops0a (List.getElem_mem (l := (ops0a : List (HloOp τ sig (Elt F)))) (n := 9) (by show (9 : ℕ) < 49; decide))) main_call0_v5 rfl (readsBelow_unary _ _ _ _ _ (by decide))).trans
    (by first | (rw [unary_result]; done) | (rw [unary_result]; rfl))

theorem eq_main_v1 (V : Valuation τ sig (Elt F)) :
    (after ops V (Proc.devRef .tc main_v1) : (⟨S512x512, .f32⟩ : BufTy).Contents (Elt F)) = (select) (after ops V (Proc.devRef .tc main_call0_v4) : (⟨S512x512, .i1⟩ : BufTy).Contents (Elt F)) (after ops V (Proc.devRef .tc main_call0_v5) : (⟨S512x512, .f32⟩ : BufTy).Contents (Elt F)) (after ops V (Proc.devRef .tc main_v0) : (⟨S512x512, .f32⟩ : BufTy).Contents (Elt F)) :=
  (final_eq V (op := (TRef.ternary main_call0.v4 main_call0.v5 (.of main_v0 : StableHlo.TRef sig ⟨S512x512, .f32⟩) main_call0.v6 select : HloOp τ sig (Elt F))) (mem_ops0a (List.getElem_mem (l := (ops0a : List (HloOp τ sig (Elt F)))) (n := 10) (by show (10 : ℕ) < 49; decide))) main_v1 rfl (readsBelow_ternary _ _ _ _ _ _ _ _ _ (by decide) (by decide) (by decide))).trans
    (by first | (rw [ternary_result]; done) | (rw [ternary_result]; rfl))

theorem eq_main_cst_0 (V : Valuation τ sig (Elt F)) :
    (after ops V (Proc.devRef .tc main_cst_0) : (⟨S_, .f32⟩ : BufTy).Contents (Elt F)) = ((constant S_ .f32 0x00000000#32) : (⟨S_, .f32⟩ : BufTy).Contents (Elt F)) :=
  (final_eq V (op := (nullary main_cst_0 (constant S_ .f32 0x00000000#32) : HloOp τ sig (Elt F))) (mem_ops0a (List.getElem_mem (l := (ops0a : List (HloOp τ sig (Elt F)))) (n := 11) (by show (11 : ℕ) < 49; decide))) main_cst_0 rfl (readsBelow_nullary _ _ _)).trans
    (by first | (rw [nullary_result]; done) | (rw [nullary_result]; rfl))

theorem eq_main_v2 (V : Valuation τ sig (Elt F)) :
    (after ops V (Proc.devRef .tc main_v2) : (⟨S512x512, .f32⟩ : BufTy).Contents (Elt F)) = ((broadcastInDim S512x512 ![] bcast_S_S512x512 : (⟨S_, .f32⟩ : BufTy).Contents (Elt F) → (⟨S512x512, .f32⟩ : BufTy).Contents (Elt F))) (after ops V (Proc.devRef .tc main_cst_0) : (⟨S_, .f32⟩ : BufTy).Contents (Elt F)) :=
  (final_eq V (op := (unary main_cst_0 main_v2 (broadcastInDim S512x512 ![] bcast_S_S512x512 : (⟨S_, .f32⟩ : BufTy).Contents (Elt F) → (⟨S512x512, .f32⟩ : BufTy).Contents (Elt F)) : HloOp τ sig (Elt F))) (mem_ops0a (List.getElem_mem (l := (ops0a : List (HloOp τ sig (Elt F)))) (n := 12) (by show (12 : ℕ) < 49; decide))) main_v2 rfl (readsBelow_unary _ _ _ _ _ (by decide))).trans
    (by first | (rw [unary_result]; done) | (rw [unary_result]; rfl))

theorem eq_main_v3 (V : Valuation τ sig (Elt F)) :
    (after ops V (Proc.devRef .tc main_v3) : (⟨S512x512, .i1⟩ : BufTy).Contents (Elt F)) = ((cmpf .une : (⟨S512x512, .f32⟩ : BufTy).Contents (Elt F) → (⟨S512x512, .f32⟩ : BufTy).Contents (Elt F) → (⟨S512x512, .i1⟩ : BufTy).Contents (Elt F))) (after ops V (Proc.devRef .tc main_v1) : (⟨S512x512, .f32⟩ : BufTy).Contents (Elt F)) (after ops V (Proc.devRef .tc main_v2) : (⟨S512x512, .f32⟩ : BufTy).Contents (Elt F)) :=
  (final_eq V (op := (binary main_v1 main_v2 main_v3 (cmpf .une : (⟨S512x512, .f32⟩ : BufTy).Contents (Elt F) → (⟨S512x512, .f32⟩ : BufTy).Contents (Elt F) → (⟨S512x512, .i1⟩ : BufTy).Contents (Elt F)) : HloOp τ sig (Elt F))) (mem_ops0a (List.getElem_mem (l := (ops0a : List (HloOp τ sig (Elt F)))) (n := 13) (by show (13 : ℕ) < 49; decide))) main_v3 rfl (readsBelow_binary _ _ _ _ _ _ _ (by decide) (by decide))).trans
    (by first | (rw [binary_result]; done) | (rw [binary_result]; rfl))

theorem eq_main_call1_v0 (V : Valuation τ sig (Elt F)) :
    (after ops V (Proc.devRef .tc main_call1_v0) : (⟨S262144, .i1⟩ : BufTy).Contents (Elt F)) = shapeCast S262144 (after ops V (Proc.devRef .tc main_v3) : (⟨S512x512, .i1⟩ : BufTy).Contents (Elt F)) shapeCasts_S512x512_S262144 :=
  (final_eq V (op := (TRef.reshape (.of main_v3 : StableHlo.TRef sig ⟨S512x512, .i1⟩) main_call1.v0 rfl shapeCasts_S512x512_S262144 : HloOp τ sig (Elt F))) (mem_ops0a (List.getElem_mem (l := (ops0a : List (HloOp τ sig (Elt F)))) (n := 14) (by show (14 : ℕ) < 49; decide))) main_call1_v0 rfl (readsBelow_reshape _ _ _ _ _ _ (by decide))).trans
    (by first | (rw [reshape_result]; done) | (rw [reshape_result]; rfl))

theorem eq_main_call1_v1 (V : Valuation τ sig (Elt F)) :
    (after ops V (Proc.devRef .tc main_call1_v1) : (⟨S262144, .i32⟩ : BufTy).Contents (Elt F)) = ((extui 32 · natLt_1_32)) (after ops V (Proc.devRef .tc main_call1_v0) : (⟨S262144, .i1⟩ : BufTy).Contents (Elt F)) :=
  (final_eq V (op := (TRef.unary main_call1.v0 main_call1.v1 (extui 32 · natLt_1_32) : HloOp τ sig (Elt F))) (mem_ops0a (List.getElem_mem (l := (ops0a : List (HloOp τ sig (Elt F)))) (n := 15) (by show (15 : ℕ) < 49; decide))) main_call1_v1 rfl (readsBelow_unary _ _ _ _ _ (by decide))).trans
    (by first | (rw [unary_result]; done) | (rw [unary_result]; rfl))

theorem eq_main_call1_call0_c (V : Valuation τ sig (Elt F)) :
    (after ops V (Proc.devRef .tc main_call1_call0_c) : (⟨S_, .i32⟩ : BufTy).Contents (Elt F)) = ((constantI S_ 32 0#32) : (⟨S_, .i32⟩ : BufTy).Contents (Elt F)) :=
  (final_eq V (op := (TRef.nullary main_call1.call0.c (constantI S_ 32 0#32) : HloOp τ sig (Elt F))) (mem_ops0a (List.getElem_mem (l := (ops0a : List (HloOp τ sig (Elt F)))) (n := 16) (by show (16 : ℕ) < 49; decide))) main_call1_call0_c rfl (readsBelow_nullary _ _ _)).trans
    (by first | (rw [nullary_result]; done) | (rw [nullary_result]; rfl))

theorem eq_main_call1_call0_v0 (V : Valuation τ sig (Elt F)) :
    (after ops V (Proc.devRef .tc main_call1_call0_v0) : (⟨S_, .i32⟩ : BufTy).Contents (Elt F)) = ((broadcastInDim S_ ![] bcast_S_S_)) (after ops V (Proc.devRef .tc main_call1_call0_c) : (⟨S_, .i32⟩ : BufTy).Contents (Elt F)) :=
  (final_eq V (op := (TRef.unary main_call1.call0.c main_call1.call0.v0 (broadcastInDim S_ ![] bcast_S_S_) : HloOp τ sig (Elt F))) (mem_ops0a (List.getElem_mem (l := (ops0a : List (HloOp τ sig (Elt F)))) (n := 17) (by show (17 : ℕ) < 49; decide))) main_call1_call0_v0 rfl (readsBelow_unary _ _ _ _ _ (by decide))).trans
    (by first | (rw [unary_result]; done) | (rw [unary_result]; rfl))

theorem eq_main_c (V : Valuation τ sig (Elt F)) :
    (after ops V (Proc.devRef .tc main_c) : (⟨S_, .i32⟩ : BufTy).Contents (Elt F)) = ((constantI S_ 32 0#32) : (⟨S_, .i32⟩ : BufTy).Contents (Elt F)) :=
  (final_eq V (op := (nullary main_c (constantI S_ 32 0#32) : HloOp τ sig (Elt F))) (mem_ops0a (List.getElem_mem (l := (ops0a : List (HloOp τ sig (Elt F)))) (n := 19) (by show (19 : ℕ) < 49; decide))) main_c rfl (readsBelow_nullary _ _ _)).trans
    (by first | (rw [nullary_result]; done) | (rw [nullary_result]; rfl))

theorem eq_main_v5 (V : Valuation τ sig (Elt F)) :
    (after ops V (Proc.devRef .tc main_v5) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c) : (⟨S_, .i32⟩ : BufTy).Contents (Elt F)) :=
  (final_eq V (op := (unary main_c main_v5 (broadcastInDim S130816 ![] bcast_S_S130816 : (⟨S_, .i32⟩ : BufTy).Contents (Elt F) → (⟨S130816, .i32⟩ : BufTy).Contents (Elt F)) : HloOp τ sig (Elt F))) (mem_ops0a (List.getElem_mem (l := (ops0a : List (HloOp τ sig (Elt F)))) (n := 20) (by show (20 : ℕ) < 49; decide))) main_v5 rfl (readsBelow_unary _ _ _ _ _ (by decide))).trans
    (by first | (rw [unary_result]; done) | (rw [unary_result]; rfl))

theorem eq_main_c_1 (V : Valuation τ sig (Elt F)) :
    (after ops V (Proc.devRef .tc main_c_1) : (⟨S_, .i32⟩ : BufTy).Contents (Elt F)) = ((constantI S_ 32 0#32) : (⟨S_, .i32⟩ : BufTy).Contents (Elt F)) :=
  (final_eq V (op := (nullary main_c_1 (constantI S_ 32 0#32) : HloOp τ sig (Elt F))) (mem_ops0a (List.getElem_mem (l := (ops0a : List (HloOp τ sig (Elt F)))) (n := 21) (by show (21 : ℕ) < 49; decide))) main_c_1 rfl (readsBelow_nullary _ _ _)).trans
    (by first | (rw [nullary_result]; done) | (rw [nullary_result]; rfl))

theorem eq_main_call2_v0 (V : Valuation τ sig (Elt F)) :
    (after ops V (Proc.devRef .tc main_call2_v0) : (⟨S_, .i32⟩ : BufTy).Contents (Elt F)) = (id) (after ops V (Proc.devRef .tc main_c_1) : (⟨S_, .i32⟩ : BufTy).Contents (Elt F)) :=
  (final_eq V (op := (TRef.unary (.of main_c_1 : StableHlo.TRef sig ⟨S_, .i32⟩) main_call2.v0 id : HloOp τ sig (Elt F))) (mem_ops0a (List.getElem_mem (l := (ops0a : List (HloOp τ sig (Elt F)))) (n := 22) (by show (22 : ℕ) < 49; decide))) main_call2_v0 rfl (readsBelow_unary _ _ _ _ _ (by decide))).trans
    (by first | (rw [unary_result]; done) | (rw [unary_result]; rfl))

theorem eq_main_call2_v1 (V : Valuation τ sig (Elt F)) :
    (after ops V (Proc.devRef .tc main_call2_v1) : (⟨S262144, .i32⟩ : BufTy).Contents (Elt F)) = ((broadcastInDim S262144 ![] bcast_S_S262144)) (after ops V (Proc.devRef .tc main_call2_v0) : (⟨S_, .i32⟩ : BufTy).Contents (Elt F)) :=
  (final_eq V (op := (TRef.unary main_call2.v0 main_call2.v1 (broadcastInDim S262144 ![] bcast_S_S262144) : HloOp τ sig (Elt F))) (mem_ops0a (List.getElem_mem (l := (ops0a : List (HloOp τ sig (Elt F)))) (n := 23) (by show (23 : ℕ) < 49; decide))) main_call2_v1 rfl (readsBelow_unary _ _ _ _ _ (by decide))).trans
    (by first | (rw [unary_result]; done) | (rw [unary_result]; rfl))

theorem eq_main_v6 (V : Valuation τ sig (Elt F)) :
    (after ops V (Proc.devRef .tc main_v6) : (⟨S262144, .i32⟩ : BufTy).Contents (Elt F)) = (maxsi) (after ops V (Proc.devRef .tc main_call2_v1) : (⟨S262144, .i32⟩ : BufTy).Contents (Elt F)) (after ops V (Proc.devRef .tc main_v4) : (⟨S262144, .i32⟩ : BufTy).Contents (Elt F)) :=
  (final_eq V (op := (TRef.binary main_call2.v1 (.of main_v4 : StableHlo.TRef sig ⟨S262144, .i32⟩) main_call2.v2 maxsi : HloOp τ sig (Elt F))) (mem_ops0a (List.getElem_mem (l := (ops0a : List (HloOp τ sig (Elt F)))) (n := 24) (by show (24 : ℕ) < 49; decide))) main_v6 rfl (readsBelow_binary _ _ _ _ _ _ _ (by decide) (by decide))).trans
    (by first | (rw [binary_result]; done) | (rw [binary_result]; rfl))

theorem eq_main_c_2 (V : Valuation τ sig (Elt F)) :
    (after ops V (Proc.devRef .tc main_c_2) : (⟨S_, .i32⟩ : BufTy).Contents (Elt F)) = ((constantI S_ 32 0#32) : (⟨S_, .i32⟩ : BufTy).Contents (Elt F)) :=
  (final_eq V (op := (nullary main_c_2 (constantI S_ 32 0#32) : HloOp τ sig (Elt F))) (mem_ops0a (List.getElem_mem (l := (ops0a : List (HloOp τ sig (Elt F)))) (n := 25) (by show (25 : ℕ) < 49; decide))) main_c_2 rfl (readsBelow_nullary _ _ _)).trans
    (by first | (rw [nullary_result]; done) | (rw [nullary_result]; rfl))

theorem eq_main_v7 (V : Valuation τ sig (Elt F)) :
    (after ops V (Proc.devRef .tc main_v7) : (⟨S262144, .i32⟩ : BufTy).Contents (Elt F)) = ((broadcastInDim S262144 ![] bcast_S_S262144 : (⟨S_, .i32⟩ : BufTy).Contents (Elt F) → (⟨S262144, .i32⟩ : BufTy).Contents (Elt F))) (after ops V (Proc.devRef .tc main_c_2) : (⟨S_, .i32⟩ : BufTy).Contents (Elt F)) :=
  (final_eq V (op := (unary main_c_2 main_v7 (broadcastInDim S262144 ![] bcast_S_S262144 : (⟨S_, .i32⟩ : BufTy).Contents (Elt F) → (⟨S262144, .i32⟩ : BufTy).Contents (Elt F)) : HloOp τ sig (Elt F))) (mem_ops0a (List.getElem_mem (l := (ops0a : List (HloOp τ sig (Elt F)))) (n := 26) (by show (26 : ℕ) < 49; decide))) main_v7 rfl (readsBelow_unary _ _ _ _ _ (by decide))).trans
    (by first | (rw [unary_result]; done) | (rw [unary_result]; rfl))

theorem eq_main_v8 (V : Valuation τ sig (Elt F)) :
    (after ops V (Proc.devRef .tc main_v8) : (⟨S262144, .i1⟩ : BufTy).Contents (Elt F)) = ((cmpi .slt : (⟨S262144, .i32⟩ : BufTy).Contents (Elt F) → (⟨S262144, .i32⟩ : BufTy).Contents (Elt F) → (⟨S262144, .i1⟩ : BufTy).Contents (Elt F))) (after ops V (Proc.devRef .tc main_v6) : (⟨S262144, .i32⟩ : BufTy).Contents (Elt F)) (after ops V (Proc.devRef .tc main_v7) : (⟨S262144, .i32⟩ : BufTy).Contents (Elt F)) :=
  (final_eq V (op := (binary main_v6 main_v7 main_v8 (cmpi .slt : (⟨S262144, .i32⟩ : BufTy).Contents (Elt F) → (⟨S262144, .i32⟩ : BufTy).Contents (Elt F) → (⟨S262144, .i1⟩ : BufTy).Contents (Elt F)) : HloOp τ sig (Elt F))) (mem_ops0a (List.getElem_mem (l := (ops0a : List (HloOp τ sig (Elt F)))) (n := 27) (by show (27 : ℕ) < 49; decide))) main_v8 rfl (readsBelow_binary _ _ _ _ _ _ _ (by decide) (by decide))).trans
    (by first | (rw [binary_result]; done) | (rw [binary_result]; rfl))

theorem eq_main_c_3 (V : Valuation τ sig (Elt F)) :
    (after ops V (Proc.devRef .tc main_c_3) : (⟨S_, .i32⟩ : BufTy).Contents (Elt F)) = ((constantI S_ 32 130816#32) : (⟨S_, .i32⟩ : BufTy).Contents (Elt F)) :=
  (final_eq V (op := (nullary main_c_3 (constantI S_ 32 130816#32) : HloOp τ sig (Elt F))) (mem_ops0a (List.getElem_mem (l := (ops0a : List (HloOp τ sig (Elt F)))) (n := 28) (by show (28 : ℕ) < 49; decide))) main_c_3 rfl (readsBelow_nullary _ _ _)).trans
    (by first | (rw [nullary_result]; done) | (rw [nullary_result]; rfl))

theorem eq_main_v9 (V : Valuation τ sig (Elt F)) :
    (after ops V (Proc.devRef .tc main_v9) : (⟨S262144, .i32⟩ : BufTy).Contents (Elt F)) = ((broadcastInDim S262144 ![] bcast_S_S262144 : (⟨S_, .i32⟩ : BufTy).Contents (Elt F) → (⟨S262144, .i32⟩ : BufTy).Contents (Elt F))) (after ops V (Proc.devRef .tc main_c_3) : (⟨S_, .i32⟩ : BufTy).Contents (Elt F)) :=
  (final_eq V (op := (unary main_c_3 main_v9 (broadcastInDim S262144 ![] bcast_S_S262144 : (⟨S_, .i32⟩ : BufTy).Contents (Elt F) → (⟨S262144, .i32⟩ : BufTy).Contents (Elt F)) : HloOp τ sig (Elt F))) (mem_ops0a (List.getElem_mem (l := (ops0a : List (HloOp τ sig (Elt F)))) (n := 29) (by show (29 : ℕ) < 49; decide))) main_v9 rfl (readsBelow_unary _ _ _ _ _ (by decide))).trans
    (by first | (rw [unary_result]; done) | (rw [unary_result]; rfl))

theorem eq_main_v10 (V : Valuation τ sig (Elt F)) :
    (after ops V (Proc.devRef .tc main_v10) : (⟨S262144, .i32⟩ : BufTy).Contents (Elt F)) = ((addi : (⟨S262144, .i32⟩ : BufTy).Contents (Elt F) → (⟨S262144, .i32⟩ : BufTy).Contents (Elt F) → (⟨S262144, .i32⟩ : BufTy).Contents (Elt F))) (after ops V (Proc.devRef .tc main_v6) : (⟨S262144, .i32⟩ : BufTy).Contents (Elt F)) (after ops V (Proc.devRef .tc main_v9) : (⟨S262144, .i32⟩ : BufTy).Contents (Elt F)) :=
  (final_eq V (op := (binary main_v6 main_v9 main_v10 (addi : (⟨S262144, .i32⟩ : BufTy).Contents (Elt F) → (⟨S262144, .i32⟩ : BufTy).Contents (Elt F) → (⟨S262144, .i32⟩ : BufTy).Contents (Elt F)) : HloOp τ sig (Elt F))) (mem_ops0a (List.getElem_mem (l := (ops0a : List (HloOp τ sig (Elt F)))) (n := 30) (by show (30 : ℕ) < 49; decide))) main_v10 rfl (readsBelow_binary _ _ _ _ _ _ _ (by decide) (by decide))).trans
    (by first | (rw [binary_result]; done) | (rw [binary_result]; rfl))

theorem eq_main_v11 (V : Valuation τ sig (Elt F)) :
    (after ops V (Proc.devRef .tc main_v11) : (⟨S262144, .i32⟩ : BufTy).Contents (Elt F)) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (after ops V (Proc.devRef .tc main_v8) : (⟨S262144, .i1⟩ : BufTy).Contents (Elt F)) (after ops V (Proc.devRef .tc main_v10) : (⟨S262144, .i32⟩ : BufTy).Contents (Elt F)) (after ops V (Proc.devRef .tc main_v6) : (⟨S262144, .i32⟩ : BufTy).Contents (Elt F)) :=
  (final_eq V (op := (ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) : HloOp τ sig (Elt F))) (mem_ops0a (List.getElem_mem (l := (ops0a : List (HloOp τ sig (Elt F)))) (n := 31) (by show (31 : ℕ) < 49; decide))) main_v11 rfl (readsBelow_ternary _ _ _ _ _ _ _ _ _ (by decide) (by decide) (by decide))).trans
    (by first | (rw [ternary_result]; done) | (rw [ternary_result]; rfl))

theorem eq_main_v12 (V : Valuation τ sig (Elt F)) :
    (after ops V (Proc.devRef .tc main_v12) : (⟨S262144x1, .i32⟩ : BufTy).Contents (Elt F)) = ((broadcastInDim S262144x1 ![0] bcast_S262144_S262144x1_0 : (⟨S262144, .i32⟩ : BufTy).Contents (Elt F) → (⟨S262144x1, .i32⟩ : BufTy).Contents (Elt F))) (after ops V (Proc.devRef .tc main_v11) : (⟨S262144, .i32⟩ : BufTy).Contents (Elt F)) :=
  (final_eq V (op := (unary main_v11 main_v12 (broadcastInDim S262144x1 ![0] bcast_S262144_S262144x1_0 : (⟨S262144, .i32⟩ : BufTy).Contents (Elt F) → (⟨S262144x1, .i32⟩ : BufTy).Contents (Elt F)) : HloOp τ sig (Elt F))) (mem_ops0a (List.getElem_mem (l := (ops0a : List (HloOp τ sig (Elt F)))) (n := 32) (by show (32 : ℕ) < 49; decide))) main_v12 rfl (readsBelow_unary _ _ _ _ _ (by decide))).trans
    (by first | (rw [unary_result]; done) | (rw [unary_result]; rfl))

theorem eq_main_c_4 (V : Valuation τ sig (Elt F)) :
    (after ops V (Proc.devRef .tc main_c_4) : (⟨S_, .i32⟩ : BufTy).Contents (Elt F)) = ((constantI S_ 32 1#32) : (⟨S_, .i32⟩ : BufTy).Contents (Elt F)) :=
  (final_eq V (op := (nullary main_c_4 (constantI S_ 32 1#32) : HloOp τ sig (Elt F))) (mem_ops0a (List.getElem_mem (l := (ops0a : List (HloOp τ sig (Elt F)))) (n := 33) (by show (33 : ℕ) < 49; decide))) main_c_4 rfl (readsBelow_nullary _ _ _)).trans
    (by first | (rw [nullary_result]; done) | (rw [nullary_result]; rfl))

theorem eq_main_v13 (V : Valuation τ sig (Elt F)) :
    (after ops V (Proc.devRef .tc main_v13) : (⟨S262144, .i32⟩ : BufTy).Contents (Elt F)) = ((broadcastInDim S262144 ![] bcast_S_S262144 : (⟨S_, .i32⟩ : BufTy).Contents (Elt F) → (⟨S262144, .i32⟩ : BufTy).Contents (Elt F))) (after ops V (Proc.devRef .tc main_c_4) : (⟨S_, .i32⟩ : BufTy).Contents (Elt F)) :=
  (final_eq V (op := (unary main_c_4 main_v13 (broadcastInDim S262144 ![] bcast_S_S262144 : (⟨S_, .i32⟩ : BufTy).Contents (Elt F) → (⟨S262144, .i32⟩ : BufTy).Contents (Elt F)) : HloOp τ sig (Elt F))) (mem_ops0a (List.getElem_mem (l := (ops0a : List (HloOp τ sig (Elt F)))) (n := 34) (by show (34 : ℕ) < 49; decide))) main_v13 rfl (readsBelow_unary _ _ _ _ _ (by decide))).trans
    (by first | (rw [unary_result]; done) | (rw [unary_result]; rfl))

theorem eq_main_v14 (V : Valuation τ sig (Elt F)) :
    (after ops V (Proc.devRef .tc main_v14) : (⟨S130816, .i32⟩ : BufTy).Contents (Elt F)) = (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))) (after ops V (Proc.devRef .tc main_v5) : (⟨S130816, .i32⟩ : BufTy).Contents (Elt F)) (after ops V (Proc.devRef .tc main_v12) : (⟨S262144x1, .i32⟩ : BufTy).Contents (Elt F)) (after ops V (Proc.devRef .tc main_v13) : (⟨S262144, .i32⟩ : BufTy).Contents (Elt F)) :=
  (final_eq V (op := (ternary main_v5 main_v12 main_v13 main_v14 ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) : HloOp τ sig (Elt F))) (mem_ops0a (List.getElem_mem (l := (ops0a : List (HloOp τ sig (Elt F)))) (n := 35) (by show (35 : ℕ) < 49; decide))) main_v14 rfl (readsBelow_ternary _ _ _ _ _ _ _ _ _ (by decide) (by decide) (by decide))).trans
    (by first | (rw [ternary_result]; done) | (rw [ternary_result]; rfl))

theorem eq_main_call3_call0_c (V : Valuation τ sig (Elt F)) :
    (after ops V (Proc.devRef .tc main_call3_call0_c) : (⟨S_, .i32⟩ : BufTy).Contents (Elt F)) = ((constantI S_ 32 0#32) : (⟨S_, .i32⟩ : BufTy).Contents (Elt F)) :=
  (final_eq V (op := (TRef.nullary main_call3.call0.c (constantI S_ 32 0#32) : HloOp τ sig (Elt F))) (mem_ops0a (List.getElem_mem (l := (ops0a : List (HloOp τ sig (Elt F)))) (n := 36) (by show (36 : ℕ) < 49; decide))) main_call3_call0_c rfl (readsBelow_nullary _ _ _)).trans
    (by first | (rw [nullary_result]; done) | (rw [nullary_result]; rfl))

theorem eq_main_call3_call0_v0 (V : Valuation τ sig (Elt F)) :
    (after ops V (Proc.devRef .tc main_call3_call0_v0) : (⟨S_, .i32⟩ : BufTy).Contents (Elt F)) = ((broadcastInDim S_ ![] bcast_S_S_)) (after ops V (Proc.devRef .tc main_call3_call0_c) : (⟨S_, .i32⟩ : BufTy).Contents (Elt F)) :=
  (final_eq V (op := (TRef.unary main_call3.call0.c main_call3.call0.v0 (broadcastInDim S_ ![] bcast_S_S_) : HloOp τ sig (Elt F))) (mem_ops0a (List.getElem_mem (l := (ops0a : List (HloOp τ sig (Elt F)))) (n := 37) (by show (37 : ℕ) < 49; decide))) main_call3_call0_v0 rfl (readsBelow_unary _ _ _ _ _ (by decide))).trans
    (by first | (rw [unary_result]; done) | (rw [unary_result]; rfl))

theorem eq_main_c_5 (V : Valuation τ sig (Elt F)) :
    (after ops V (Proc.devRef .tc main_c_5) : (⟨S_, .i32⟩ : BufTy).Contents (Elt F)) = ((constantI S_ 32 512#32) : (⟨S_, .i32⟩ : BufTy).Contents (Elt F)) :=
  (final_eq V (op := (nullary main_c_5 (constantI S_ 32 512#32) : HloOp τ sig (Elt F))) (mem_ops0a (List.getElem_mem (l := (ops0a : List (HloOp τ sig (Elt F)))) (n := 39) (by show (39 : ℕ) < 49; decide))) main_c_5 rfl (readsBelow_nullary _ _ _)).trans
    (by first | (rw [nullary_result]; done) | (rw [nullary_result]; rfl))

theorem eq_main_call4_v0 (V : Valuation τ sig (Elt F)) :
    (after ops V (Proc.devRef .tc main_call4_v0) : (⟨S130816, .i32⟩ : BufTy).Contents (Elt F)) = ((broadcastInDim S130816 ![] bcast_S_S130816)) (after ops V (Proc.devRef .tc main_c_5) : (⟨S_, .i32⟩ : BufTy).Contents (Elt F)) :=
  (final_eq V (op := (TRef.unary (.of main_c_5 : StableHlo.TRef sig ⟨S_, .i32⟩) main_call4.v0 (broadcastInDim S130816 ![] bcast_S_S130816) : HloOp τ sig (Elt F))) (mem_ops0a (List.getElem_mem (l := (ops0a : List (HloOp τ sig (Elt F)))) (n := 40) (by show (40 : ℕ) < 49; decide))) main_call4_v0 rfl (readsBelow_unary _ _ _ _ _ (by decide))).trans
    (by first | (rw [unary_result]; done) | (rw [unary_result]; rfl))

theorem eq_main_call4_v1 (V : Valuation τ sig (Elt F)) :
    (after ops V (Proc.devRef .tc main_call4_v1) : (⟨S130816, .i32⟩ : BufTy).Contents (Elt F)) = (Host.divsi) (after ops V (Proc.devRef .tc main_v15) : (⟨S130816, .i32⟩ : BufTy).Contents (Elt F)) (after ops V (Proc.devRef .tc main_call4_v0) : (⟨S130816, .i32⟩ : BufTy).Contents (Elt F)) :=
  (final_eq V (op := (TRef.binary (.of main_v15 : StableHlo.TRef sig ⟨S130816, .i32⟩) main_call4.v0 main_call4.v1 Host.divsi : HloOp τ sig (Elt F))) (mem_ops0a (List.getElem_mem (l := (ops0a : List (HloOp τ sig (Elt F)))) (n := 41) (by show (41 : ℕ) < 49; decide))) main_call4_v1 rfl (readsBelow_binary _ _ _ _ _ _ _ (by decide) (by decide))).trans
    (by first | (rw [binary_result]; done) | (rw [binary_result]; rfl))

theorem eq_main_call4_v2 (V : Valuation τ sig (Elt F)) :
    (after ops V (Proc.devRef .tc main_call4_v2) : (⟨S130816, .i32⟩ : BufTy).Contents (Elt F)) = (signi) (after ops V (Proc.devRef .tc main_v15) : (⟨S130816, .i32⟩ : BufTy).Contents (Elt F)) :=
  (final_eq V (op := (TRef.unary (.of main_v15 : StableHlo.TRef sig ⟨S130816, .i32⟩) main_call4.v2 signi : HloOp τ sig (Elt F))) (mem_ops0a (List.getElem_mem (l := (ops0a : List (HloOp τ sig (Elt F)))) (n := 42) (by show (42 : ℕ) < 49; decide))) main_call4_v2 rfl (readsBelow_unary _ _ _ _ _ (by decide))).trans
    (by first | (rw [unary_result]; done) | (rw [unary_result]; rfl))

theorem eq_main_call4_v3 (V : Valuation τ sig (Elt F)) :
    (after ops V (Proc.devRef .tc main_call4_v3) : (⟨S_, .i32⟩ : BufTy).Contents (Elt F)) = (signi) (after ops V (Proc.devRef .tc main_c_5) : (⟨S_, .i32⟩ : BufTy).Contents (Elt F)) :=
  (final_eq V (op := (TRef.unary (.of main_c_5 : StableHlo.TRef sig ⟨S_, .i32⟩) main_call4.v3 signi : HloOp τ sig (Elt F))) (mem_ops0a (List.getElem_mem (l := (ops0a : List (HloOp τ sig (Elt F)))) (n := 43) (by show (43 : ℕ) < 49; decide))) main_call4_v3 rfl (readsBelow_unary _ _ _ _ _ (by decide))).trans
    (by first | (rw [unary_result]; done) | (rw [unary_result]; rfl))

theorem eq_main_call4_v4 (V : Valuation τ sig (Elt F)) :
    (after ops V (Proc.devRef .tc main_call4_v4) : (⟨S130816, .i32⟩ : BufTy).Contents (Elt F)) = ((broadcastInDim S130816 ![] bcast_S_S130816)) (after ops V (Proc.devRef .tc main_call4_v3) : (⟨S_, .i32⟩ : BufTy).Contents (Elt F)) :=
  (final_eq V (op := (TRef.unary main_call4.v3 main_call4.v4 (broadcastInDim S130816 ![] bcast_S_S130816) : HloOp τ sig (Elt F))) (mem_ops0a (List.getElem_mem (l := (ops0a : List (HloOp τ sig (Elt F)))) (n := 44) (by show (44 : ℕ) < 49; decide))) main_call4_v4 rfl (readsBelow_unary _ _ _ _ _ (by decide))).trans
    (by first | (rw [unary_result]; done) | (rw [unary_result]; rfl))

theorem eq_main_call4_v5 (V : Valuation τ sig (Elt F)) :
    (after ops V (Proc.devRef .tc main_call4_v5) : (⟨S130816, .i1⟩ : BufTy).Contents (Elt F)) = ((cmpi .ne)) (after ops V (Proc.devRef .tc main_call4_v2) : (⟨S130816, .i32⟩ : BufTy).Contents (Elt F)) (after ops V (Proc.devRef .tc main_call4_v4) : (⟨S130816, .i32⟩ : BufTy).Contents (Elt F)) :=
  (final_eq V (op := (TRef.binary main_call4.v2 main_call4.v4 main_call4.v5 (cmpi .ne) : HloOp τ sig (Elt F))) (mem_ops0a (List.getElem_mem (l := (ops0a : List (HloOp τ sig (Elt F)))) (n := 45) (by show (45 : ℕ) < 49; decide))) main_call4_v5 rfl (readsBelow_binary _ _ _ _ _ _ _ (by decide) (by decide))).trans
    (by first | (rw [binary_result]; done) | (rw [binary_result]; rfl))

theorem eq_main_call4_v6 (V : Valuation τ sig (Elt F)) :
    (after ops V (Proc.devRef .tc main_call4_v6) : (⟨S130816, .i32⟩ : BufTy).Contents (Elt F)) = ((broadcastInDim S130816 ![] bcast_S_S130816)) (after ops V (Proc.devRef .tc main_c_5) : (⟨S_, .i32⟩ : BufTy).Contents (Elt F)) :=
  (final_eq V (op := (TRef.unary (.of main_c_5 : StableHlo.TRef sig ⟨S_, .i32⟩) main_call4.v6 (broadcastInDim S130816 ![] bcast_S_S130816) : HloOp τ sig (Elt F))) (mem_ops0a (List.getElem_mem (l := (ops0a : List (HloOp τ sig (Elt F)))) (n := 46) (by show (46 : ℕ) < 49; decide))) main_call4_v6 rfl (readsBelow_unary _ _ _ _ _ (by decide))).trans
    (by first | (rw [unary_result]; done) | (rw [unary_result]; rfl))

theorem eq_main_call4_v7 (V : Valuation τ sig (Elt F)) :
    (after ops V (Proc.devRef .tc main_call4_v7) : (⟨S130816, .i32⟩ : BufTy).Contents (Elt F)) = (Host.remsi) (after ops V (Proc.devRef .tc main_v15) : (⟨S130816, .i32⟩ : BufTy).Contents (Elt F)) (after ops V (Proc.devRef .tc main_call4_v6) : (⟨S130816, .i32⟩ : BufTy).Contents (Elt F)) :=
  (final_eq V (op := (TRef.binary (.of main_v15 : StableHlo.TRef sig ⟨S130816, .i32⟩) main_call4.v6 main_call4.v7 Host.remsi : HloOp τ sig (Elt F))) (mem_ops0a (List.getElem_mem (l := (ops0a : List (HloOp τ sig (Elt F)))) (n := 47) (by show (47 : ℕ) < 49; decide))) main_call4_v7 rfl (readsBelow_binary _ _ _ _ _ _ _ (by decide) (by decide))).trans
    (by first | (rw [binary_result]; done) | (rw [binary_result]; rfl))

theorem eq_main_call4_c (V : Valuation τ sig (Elt F)) :
    (after ops V (Proc.devRef .tc main_call4_c) : (⟨S_, .i32⟩ : BufTy).Contents (Elt F)) = ((constantI S_ 32 0#32) : (⟨S_, .i32⟩ : BufTy).Contents (Elt F)) :=
  (final_eq V (op := (TRef.nullary main_call4.c (constantI S_ 32 0#32) : HloOp τ sig (Elt F))) (mem_ops0a (List.getElem_mem (l := (ops0a : List (HloOp τ sig (Elt F)))) (n := 48) (by show (48 : ℕ) < 49; decide))) main_call4_c rfl (readsBelow_nullary _ _ _)).trans
    (by first | (rw [nullary_result]; done) | (rw [nullary_result]; rfl))

end Cert.ReferenceIdeal.Line

end
-- ==== Proof.RefEq0b.lean ====
/- The equations of window 0's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefSplit0

set_option maxRecDepth 65536
set_option maxHeartbeats 1000000
set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

-- the operations are compared argument by argument, never opened
attribute [local irreducible] constant broadcastInDim iotaInDim constantI cmpi cmpf extui Host.reduceWindow addi subi andi maxsi signi select Host.scatter extractStridedSlice subf mulf addf maximumf Host.reduceAdd Host.sqrt concatenate Host.gather Host.divsi Host.remsi shapeCast

theorem eq_main_call4_v8 (V : Valuation τ sig (Elt F)) :
    (after ops V (Proc.devRef .tc main_call4_v8) : (⟨S130816, .i32⟩ : BufTy).Contents (Elt F)) = ((broadcastInDim S130816 ![] bcast_S_S130816)) (after ops V (Proc.devRef .tc main_call4_c) : (⟨S_, .i32⟩ : BufTy).Contents (Elt F)) :=
  (final_eq V (op := (TRef.unary main_call4.c main_call4.v8 (broadcastInDim S130816 ![] bcast_S_S130816) : HloOp τ sig (Elt F))) (mem_ops0b (List.getElem_mem (l := (ops0b : List (HloOp τ sig (Elt F)))) (n := 0) (by show (0 : ℕ) < 49; decide))) main_call4_v8 rfl (readsBelow_unary _ _ _ _ _ (by decide))).trans
    (by first | (rw [unary_result]; done) | (rw [unary_result]; rfl))

theorem eq_main_call4_v9 (V : Valuation τ sig (Elt F)) :
    (after ops V (Proc.devRef .tc main_call4_v9) : (⟨S130816, .i1⟩ : BufTy).Contents (Elt F)) = ((cmpi .ne)) (after ops V (Proc.devRef .tc main_call4_v7) : (⟨S130816, .i32⟩ : BufTy).Contents (Elt F)) (after ops V (Proc.devRef .tc main_call4_v8) : (⟨S130816, .i32⟩ : BufTy).Contents (Elt F)) :=
  (final_eq V (op := (TRef.binary main_call4.v7 main_call4.v8 main_call4.v9 (cmpi .ne) : HloOp τ sig (Elt F))) (mem_ops0b (List.getElem_mem (l := (ops0b : List (HloOp τ sig (Elt F)))) (n := 1) (by show (1 : ℕ) < 49; decide))) main_call4_v9 rfl (readsBelow_binary _ _ _ _ _ _ _ (by decide) (by decide))).trans
    (by first | (rw [binary_result]; done) | (rw [binary_result]; rfl))

theorem eq_main_call4_v10 (V : Valuation τ sig (Elt F)) :
    (after ops V (Proc.devRef .tc main_call4_v10) : (⟨S130816, .i1⟩ : BufTy).Contents (Elt F)) = (andi) (after ops V (Proc.devRef .tc main_call4_v5) : (⟨S130816, .i1⟩ : BufTy).Contents (Elt F)) (after ops V (Proc.devRef .tc main_call4_v9) : (⟨S130816, .i1⟩ : BufTy).Contents (Elt F)) :=
  (final_eq V (op := (TRef.binary main_call4.v5 main_call4.v9 main_call4.v10 andi : HloOp τ sig (Elt F))) (mem_ops0b (List.getElem_mem (l := (ops0b : List (HloOp τ sig (Elt F)))) (n := 2) (by show (2 : ℕ) < 49; decide))) main_call4_v10 rfl (readsBelow_binary _ _ _ _ _ _ _ (by decide) (by decide))).trans
    (by first | (rw [binary_result]; done) | (rw [binary_result]; rfl))

theorem eq_main_call4_c_0 (V : Valuation τ sig (Elt F)) :
    (after ops V (Proc.devRef .tc main_call4_c_0) : (⟨S_, .i32⟩ : BufTy).Contents (Elt F)) = ((constantI S_ 32 1#32) : (⟨S_, .i32⟩ : BufTy).Contents (Elt F)) :=
  (final_eq V (op := (TRef.nullary main_call4.c_0 (constantI S_ 32 1#32) : HloOp τ sig (Elt F))) (mem_ops0b (List.getElem_mem (l := (ops0b : List (HloOp τ sig (Elt F)))) (n := 3) (by show (3 : ℕ) < 49; decide))) main_call4_c_0 rfl (readsBelow_nullary _ _ _)).trans
    (by first | (rw [nullary_result]; done) | (rw [nullary_result]; rfl))

theorem eq_main_call4_v11 (V : Valuation τ sig (Elt F)) :
    (after ops V (Proc.devRef .tc main_call4_v11) : (⟨S130816, .i32⟩ : BufTy).Contents (Elt F)) = ((broadcastInDim S130816 ![] bcast_S_S130816)) (after ops V (Proc.devRef .tc main_call4_c_0) : (⟨S_, .i32⟩ : BufTy).Contents (Elt F)) :=
  (final_eq V (op := (TRef.unary main_call4.c_0 main_call4.v11 (broadcastInDim S130816 ![] bcast_S_S130816) : HloOp τ sig (Elt F))) (mem_ops0b (List.getElem_mem (l := (ops0b : List (HloOp τ sig (Elt F)))) (n := 4) (by show (4 : ℕ) < 49; decide))) main_call4_v11 rfl (readsBelow_unary _ _ _ _ _ (by decide))).trans
    (by first | (rw [unary_result]; done) | (rw [unary_result]; rfl))

theorem eq_main_call4_v12 (V : Valuation τ sig (Elt F)) :
    (after ops V (Proc.devRef .tc main_call4_v12) : (⟨S130816, .i32⟩ : BufTy).Contents (Elt F)) = (subi) (after ops V (Proc.devRef .tc main_call4_v1) : (⟨S130816, .i32⟩ : BufTy).Contents (Elt F)) (after ops V (Proc.devRef .tc main_call4_v11) : (⟨S130816, .i32⟩ : BufTy).Contents (Elt F)) :=
  (final_eq V (op := (TRef.binary main_call4.v1 main_call4.v11 main_call4.v12 subi : HloOp τ sig (Elt F))) (mem_ops0b (List.getElem_mem (l := (ops0b : List (HloOp τ sig (Elt F)))) (n := 5) (by show (5 : ℕ) < 49; decide))) main_call4_v12 rfl (readsBelow_binary _ _ _ _ _ _ _ (by decide) (by decide))).trans
    (by first | (rw [binary_result]; done) | (rw [binary_result]; rfl))

theorem eq_main_v16 (V : Valuation τ sig (Elt F)) :
    (after ops V (Proc.devRef .tc main_v16) : (⟨S130816, .i32⟩ : BufTy).Contents (Elt F)) = (select) (after ops V (Proc.devRef .tc main_call4_v10) : (⟨S130816, .i1⟩ : BufTy).Contents (Elt F)) (after ops V (Proc.devRef .tc main_call4_v12) : (⟨S130816, .i32⟩ : BufTy).Contents (Elt F)) (after ops V (Proc.devRef .tc main_call4_v1) : (⟨S130816, .i32⟩ : BufTy).Contents (Elt F)) :=
  (final_eq V (op := (TRef.ternary main_call4.v10 main_call4.v12 main_call4.v1 main_call4.call0.v0 select : HloOp τ sig (Elt F))) (mem_ops0b (List.getElem_mem (l := (ops0b : List (HloOp τ sig (Elt F)))) (n := 6) (by show (6 : ℕ) < 49; decide))) main_v16 rfl (readsBelow_ternary _ _ _ _ _ _ _ _ _ (by decide) (by decide) (by decide))).trans
    (by first | (rw [ternary_result]; done) | (rw [ternary_result]; rfl))

theorem eq_main_c_6 (V : Valuation τ sig (Elt F)) :
    (after ops V (Proc.devRef .tc main_c_6) : (⟨S_, .i32⟩ : BufTy).Contents (Elt F)) = ((constantI S_ 32 512#32) : (⟨S_, .i32⟩ : BufTy).Contents (Elt F)) :=
  (final_eq V (op := (nullary main_c_6 (constantI S_ 32 512#32) : HloOp τ sig (Elt F))) (mem_ops0b (List.getElem_mem (l := (ops0b : List (HloOp τ sig (Elt F)))) (n := 7) (by show (7 : ℕ) < 49; decide))) main_c_6 rfl (readsBelow_nullary _ _ _)).trans
    (by first | (rw [nullary_result]; done) | (rw [nullary_result]; rfl))

theorem eq_main_call5_v0 (V : Valuation τ sig (Elt F)) :
    (after ops V (Proc.devRef .tc main_call5_v0) : (⟨S_, .i32⟩ : BufTy).Contents (Elt F)) = (id) (after ops V (Proc.devRef .tc main_c_6) : (⟨S_, .i32⟩ : BufTy).Contents (Elt F)) :=
  (final_eq V (op := (TRef.unary (.of main_c_6 : StableHlo.TRef sig ⟨S_, .i32⟩) main_call5.v0 id : HloOp τ sig (Elt F))) (mem_ops0b (List.getElem_mem (l := (ops0b : List (HloOp τ sig (Elt F)))) (n := 8) (by show (8 : ℕ) < 49; decide))) main_call5_v0 rfl (readsBelow_unary _ _ _ _ _ (by decide))).trans
    (by first | (rw [unary_result]; done) | (rw [unary_result]; rfl))

theorem eq_main_call5_c (V : Valuation τ sig (Elt F)) :
    (after ops V (Proc.devRef .tc main_call5_c) : (⟨S_, .i32⟩ : BufTy).Contents (Elt F)) = ((constantI S_ 32 0#32) : (⟨S_, .i32⟩ : BufTy).Contents (Elt F)) :=
  (final_eq V (op := (TRef.nullary main_call5.c (constantI S_ 32 0#32) : HloOp τ sig (Elt F))) (mem_ops0b (List.getElem_mem (l := (ops0b : List (HloOp τ sig (Elt F)))) (n := 9) (by show (9 : ℕ) < 49; decide))) main_call5_c rfl (readsBelow_nullary _ _ _)).trans
    (by first | (rw [nullary_result]; done) | (rw [nullary_result]; rfl))

theorem eq_main_call5_v1 (V : Valuation τ sig (Elt F)) :
    (after ops V (Proc.devRef .tc main_call5_v1) : (⟨S_, .i1⟩ : BufTy).Contents (Elt F)) = ((cmpi .eq)) (after ops V (Proc.devRef .tc main_call5_v0) : (⟨S_, .i32⟩ : BufTy).Contents (Elt F)) (after ops V (Proc.devRef .tc main_call5_c) : (⟨S_, .i32⟩ : BufTy).Contents (Elt F)) :=
  (final_eq V (op := (TRef.binary main_call5.v0 main_call5.c main_call5.v1 (cmpi .eq) : HloOp τ sig (Elt F))) (mem_ops0b (List.getElem_mem (l := (ops0b : List (HloOp τ sig (Elt F)))) (n := 10) (by show (10 : ℕ) < 49; decide))) main_call5_v1 rfl (readsBelow_binary _ _ _ _ _ _ _ (by decide) (by decide))).trans
    (by first | (rw [binary_result]; done) | (rw [binary_result]; rfl))

theorem eq_main_call5_c_0 (V : Valuation τ sig (Elt F)) :
    (after ops V (Proc.devRef .tc main_call5_c_0) : (⟨S_, .i32⟩ : BufTy).Contents (Elt F)) = ((constantI S_ 32 1#32) : (⟨S_, .i32⟩ : BufTy).Contents (Elt F)) :=
  (final_eq V (op := (TRef.nullary main_call5.c_0 (constantI S_ 32 1#32) : HloOp τ sig (Elt F))) (mem_ops0b (List.getElem_mem (l := (ops0b : List (HloOp τ sig (Elt F)))) (n := 11) (by show (11 : ℕ) < 49; decide))) main_call5_c_0 rfl (readsBelow_nullary _ _ _)).trans
    (by first | (rw [nullary_result]; done) | (rw [nullary_result]; rfl))

theorem eq_main_call5_v2 (V : Valuation τ sig (Elt F)) :
    (after ops V (Proc.devRef .tc main_call5_v2) : (⟨S_, .i32⟩ : BufTy).Contents (Elt F)) = (select) (after ops V (Proc.devRef .tc main_call5_v1) : (⟨S_, .i1⟩ : BufTy).Contents (Elt F)) (after ops V (Proc.devRef .tc main_call5_c_0) : (⟨S_, .i32⟩ : BufTy).Contents (Elt F)) (after ops V (Proc.devRef .tc main_call5_v0) : (⟨S_, .i32⟩ : BufTy).Contents (Elt F)) :=
  (final_eq V (op := (TRef.ternary main_call5.v1 main_call5.c_0 main_call5.v0 main_call5.call0.v0 select : HloOp τ sig (Elt F))) (mem_ops0b (List.getElem_mem (l := (ops0b : List (HloOp τ sig (Elt F)))) (n := 12) (by show (12 : ℕ) < 49; decide))) main_call5_v2 rfl (readsBelow_ternary _ _ _ _ _ _ _ _ _ (by decide) (by decide) (by decide))).trans
    (by first | (rw [ternary_result]; done) | (rw [ternary_result]; rfl))

theorem eq_main_call5_v3 (V : Valuation τ sig (Elt F)) :
    (after ops V (Proc.devRef .tc main_call5_v3) : (⟨S130816, .i32⟩ : BufTy).Contents (Elt F)) = ((broadcastInDim S130816 ![] bcast_S_S130816)) (after ops V (Proc.devRef .tc main_call5_v2) : (⟨S_, .i32⟩ : BufTy).Contents (Elt F)) :=
  (final_eq V (op := (TRef.unary main_call5.call0.v0 main_call5.v3 (broadcastInDim S130816 ![] bcast_S_S130816) : HloOp τ sig (Elt F))) (mem_ops0b (List.getElem_mem (l := (ops0b : List (HloOp τ sig (Elt F)))) (n := 13) (by show (13 : ℕ) < 49; decide))) main_call5_v3 rfl (readsBelow_unary _ _ _ _ _ (by decide))).trans
    (by first | (rw [unary_result]; done) | (rw [unary_result]; rfl))

theorem eq_main_call5_v4 (V : Valuation τ sig (Elt F)) :
    (after ops V (Proc.devRef .tc main_call5_v4) : (⟨S130816, .i32⟩ : BufTy).Contents (Elt F)) = (Host.remsi) (after ops V (Proc.devRef .tc main_v16) : (⟨S130816, .i32⟩ : BufTy).Contents (Elt F)) (after ops V (Proc.devRef .tc main_call5_v3) : (⟨S130816, .i32⟩ : BufTy).Contents (Elt F)) :=
  (final_eq V (op := (TRef.binary (.of main_v16 : StableHlo.TRef sig ⟨S130816, .i32⟩) main_call5.v3 main_call5.v4 Host.remsi : HloOp τ sig (Elt F))) (mem_ops0b (List.getElem_mem (l := (ops0b : List (HloOp τ sig (Elt F)))) (n := 14) (by show (14 : ℕ) < 49; decide))) main_call5_v4 rfl (readsBelow_binary _ _ _ _ _ _ _ (by decide) (by decide))).trans
    (by first | (rw [binary_result]; done) | (rw [binary_result]; rfl))

theorem eq_main_call5_c_1 (V : Valuation τ sig (Elt F)) :
    (after ops V (Proc.devRef .tc main_call5_c_1) : (⟨S_, .i32⟩ : BufTy).Contents (Elt F)) = ((constantI S_ 32 0#32) : (⟨S_, .i32⟩ : BufTy).Contents (Elt F)) :=
  (final_eq V (op := (TRef.nullary main_call5.c_1 (constantI S_ 32 0#32) : HloOp τ sig (Elt F))) (mem_ops0b (List.getElem_mem (l := (ops0b : List (HloOp τ sig (Elt F)))) (n := 15) (by show (15 : ℕ) < 49; decide))) main_call5_c_1 rfl (readsBelow_nullary _ _ _)).trans
    (by first | (rw [nullary_result]; done) | (rw [nullary_result]; rfl))

theorem eq_main_call5_v5 (V : Valuation τ sig (Elt F)) :
    (after ops V (Proc.devRef .tc main_call5_v5) : (⟨S130816, .i32⟩ : BufTy).Contents (Elt F)) = ((broadcastInDim S130816 ![] bcast_S_S130816)) (after ops V (Proc.devRef .tc main_call5_c_1) : (⟨S_, .i32⟩ : BufTy).Contents (Elt F)) :=
  (final_eq V (op := (TRef.unary main_call5.c_1 main_call5.v5 (broadcastInDim S130816 ![] bcast_S_S130816) : HloOp τ sig (Elt F))) (mem_ops0b (List.getElem_mem (l := (ops0b : List (HloOp τ sig (Elt F)))) (n := 16) (by show (16 : ℕ) < 49; decide))) main_call5_v5 rfl (readsBelow_unary _ _ _ _ _ (by decide))).trans
    (by first | (rw [unary_result]; done) | (rw [unary_result]; rfl))

theorem eq_main_call5_v6 (V : Valuation τ sig (Elt F)) :
    (after ops V (Proc.devRef .tc main_call5_v6) : (⟨S130816, .i1⟩ : BufTy).Contents (Elt F)) = ((cmpi .ne)) (after ops V (Proc.devRef .tc main_call5_v4) : (⟨S130816, .i32⟩ : BufTy).Contents (Elt F)) (after ops V (Proc.devRef .tc main_call5_v5) : (⟨S130816, .i32⟩ : BufTy).Contents (Elt F)) :=
  (final_eq V (op := (TRef.binary main_call5.v4 main_call5.v5 main_call5.v6 (cmpi .ne) : HloOp τ sig (Elt F))) (mem_ops0b (List.getElem_mem (l := (ops0b : List (HloOp τ sig (Elt F)))) (n := 17) (by show (17 : ℕ) < 49; decide))) main_call5_v6 rfl (readsBelow_binary _ _ _ _ _ _ _ (by decide) (by decide))).trans
    (by first | (rw [binary_result]; done) | (rw [binary_result]; rfl))

theorem eq_main_call5_c_2 (V : Valuation τ sig (Elt F)) :
    (after ops V (Proc.devRef .tc main_call5_c_2) : (⟨S_, .i32⟩ : BufTy).Contents (Elt F)) = ((constantI S_ 32 0#32) : (⟨S_, .i32⟩ : BufTy).Contents (Elt F)) :=
  (final_eq V (op := (TRef.nullary main_call5.c_2 (constantI S_ 32 0#32) : HloOp τ sig (Elt F))) (mem_ops0b (List.getElem_mem (l := (ops0b : List (HloOp τ sig (Elt F)))) (n := 18) (by show (18 : ℕ) < 49; decide))) main_call5_c_2 rfl (readsBelow_nullary _ _ _)).trans
    (by first | (rw [nullary_result]; done) | (rw [nullary_result]; rfl))

theorem eq_main_call5_v7 (V : Valuation τ sig (Elt F)) :
    (after ops V (Proc.devRef .tc main_call5_v7) : (⟨S130816, .i32⟩ : BufTy).Contents (Elt F)) = ((broadcastInDim S130816 ![] bcast_S_S130816)) (after ops V (Proc.devRef .tc main_call5_c_2) : (⟨S_, .i32⟩ : BufTy).Contents (Elt F)) :=
  (final_eq V (op := (TRef.unary main_call5.c_2 main_call5.v7 (broadcastInDim S130816 ![] bcast_S_S130816) : HloOp τ sig (Elt F))) (mem_ops0b (List.getElem_mem (l := (ops0b : List (HloOp τ sig (Elt F)))) (n := 19) (by show (19 : ℕ) < 49; decide))) main_call5_v7 rfl (readsBelow_unary _ _ _ _ _ (by decide))).trans
    (by first | (rw [unary_result]; done) | (rw [unary_result]; rfl))

theorem eq_main_call5_v8 (V : Valuation τ sig (Elt F)) :
    (after ops V (Proc.devRef .tc main_call5_v8) : (⟨S130816, .i1⟩ : BufTy).Contents (Elt F)) = ((cmpi .slt)) (after ops V (Proc.devRef .tc main_call5_v4) : (⟨S130816, .i32⟩ : BufTy).Contents (Elt F)) (after ops V (Proc.devRef .tc main_call5_v7) : (⟨S130816, .i32⟩ : BufTy).Contents (Elt F)) :=
  (final_eq V (op := (TRef.binary main_call5.v4 main_call5.v7 main_call5.v8 (cmpi .slt) : HloOp τ sig (Elt F))) (mem_ops0b (List.getElem_mem (l := (ops0b : List (HloOp τ sig (Elt F)))) (n := 20) (by show (20 : ℕ) < 49; decide))) main_call5_v8 rfl (readsBelow_binary _ _ _ _ _ _ _ (by decide) (by decide))).trans
    (by first | (rw [binary_result]; done) | (rw [binary_result]; rfl))

theorem eq_main_call5_c_3 (V : Valuation τ sig (Elt F)) :
    (after ops V (Proc.devRef .tc main_call5_c_3) : (⟨S_, .i32⟩ : BufTy).Contents (Elt F)) = ((constantI S_ 32 0#32) : (⟨S_, .i32⟩ : BufTy).Contents (Elt F)) :=
  (final_eq V (op := (TRef.nullary main_call5.c_3 (constantI S_ 32 0#32) : HloOp τ sig (Elt F))) (mem_ops0b (List.getElem_mem (l := (ops0b : List (HloOp τ sig (Elt F)))) (n := 21) (by show (21 : ℕ) < 49; decide))) main_call5_c_3 rfl (readsBelow_nullary _ _ _)).trans
    (by first | (rw [nullary_result]; done) | (rw [nullary_result]; rfl))

theorem eq_main_call5_v9 (V : Valuation τ sig (Elt F)) :
    (after ops V (Proc.devRef .tc main_call5_v9) : (⟨S_, .i1⟩ : BufTy).Contents (Elt F)) = ((cmpi .slt)) (after ops V (Proc.devRef .tc main_call5_v2) : (⟨S_, .i32⟩ : BufTy).Contents (Elt F)) (after ops V (Proc.devRef .tc main_call5_c_3) : (⟨S_, .i32⟩ : BufTy).Contents (Elt F)) :=
  (final_eq V (op := (TRef.binary main_call5.call0.v0 main_call5.c_3 main_call5.v9 (cmpi .slt) : HloOp τ sig (Elt F))) (mem_ops0b (List.getElem_mem (l := (ops0b : List (HloOp τ sig (Elt F)))) (n := 22) (by show (22 : ℕ) < 49; decide))) main_call5_v9 rfl (readsBelow_binary _ _ _ _ _ _ _ (by decide) (by decide))).trans
    (by first | (rw [binary_result]; done) | (rw [binary_result]; rfl))

theorem eq_main_call5_v10 (V : Valuation τ sig (Elt F)) :
    (after ops V (Proc.devRef .tc main_call5_v10) : (⟨S130816, .i1⟩ : BufTy).Contents (Elt F)) = ((broadcastInDim S130816 ![] bcast_S_S130816)) (after ops V (Proc.devRef .tc main_call5_v9) : (⟨S_, .i1⟩ : BufTy).Contents (Elt F)) :=
  (final_eq V (op := (TRef.unary main_call5.v9 main_call5.v10 (broadcastInDim S130816 ![] bcast_S_S130816) : HloOp τ sig (Elt F))) (mem_ops0b (List.getElem_mem (l := (ops0b : List (HloOp τ sig (Elt F)))) (n := 23) (by show (23 : ℕ) < 49; decide))) main_call5_v10 rfl (readsBelow_unary _ _ _ _ _ (by decide))).trans
    (by first | (rw [unary_result]; done) | (rw [unary_result]; rfl))

theorem eq_main_call5_v11 (V : Valuation τ sig (Elt F)) :
    (after ops V (Proc.devRef .tc main_call5_v11) : (⟨S130816, .i1⟩ : BufTy).Contents (Elt F)) = ((cmpi .ne)) (after ops V (Proc.devRef .tc main_call5_v8) : (⟨S130816, .i1⟩ : BufTy).Contents (Elt F)) (after ops V (Proc.devRef .tc main_call5_v10) : (⟨S130816, .i1⟩ : BufTy).Contents (Elt F)) :=
  (final_eq V (op := (TRef.binary main_call5.v8 main_call5.v10 main_call5.v11 (cmpi .ne) : HloOp τ sig (Elt F))) (mem_ops0b (List.getElem_mem (l := (ops0b : List (HloOp τ sig (Elt F)))) (n := 24) (by show (24 : ℕ) < 49; decide))) main_call5_v11 rfl (readsBelow_binary _ _ _ _ _ _ _ (by decide) (by decide))).trans
    (by first | (rw [binary_result]; done) | (rw [binary_result]; rfl))

theorem eq_main_call5_v12 (V : Valuation τ sig (Elt F)) :
    (after ops V (Proc.devRef .tc main_call5_v12) : (⟨S130816, .i1⟩ : BufTy).Contents (Elt F)) = (andi) (after ops V (Proc.devRef .tc main_call5_v11) : (⟨S130816, .i1⟩ : BufTy).Contents (Elt F)) (after ops V (Proc.devRef .tc main_call5_v6) : (⟨S130816, .i1⟩ : BufTy).Contents (Elt F)) :=
  (final_eq V (op := (TRef.binary main_call5.v11 main_call5.v6 main_call5.v12 andi : HloOp τ sig (Elt F))) (mem_ops0b (List.getElem_mem (l := (ops0b : List (HloOp τ sig (Elt F)))) (n := 25) (by show (25 : ℕ) < 49; decide))) main_call5_v12 rfl (readsBelow_binary _ _ _ _ _ _ _ (by decide) (by decide))).trans
    (by first | (rw [binary_result]; done) | (rw [binary_result]; rfl))

theorem eq_main_call5_v13 (V : Valuation τ sig (Elt F)) :
    (after ops V (Proc.devRef .tc main_call5_v13) : (⟨S130816, .i32⟩ : BufTy).Contents (Elt F)) = ((broadcastInDim S130816 ![] bcast_S_S130816)) (after ops V (Proc.devRef .tc main_call5_v2) : (⟨S_, .i32⟩ : BufTy).Contents (Elt F)) :=
  (final_eq V (op := (TRef.unary main_call5.call0.v0 main_call5.v13 (broadcastInDim S130816 ![] bcast_S_S130816) : HloOp τ sig (Elt F))) (mem_ops0b (List.getElem_mem (l := (ops0b : List (HloOp τ sig (Elt F)))) (n := 26) (by show (26 : ℕ) < 49; decide))) main_call5_v13 rfl (readsBelow_unary _ _ _ _ _ (by decide))).trans
    (by first | (rw [unary_result]; done) | (rw [unary_result]; rfl))

theorem eq_main_call5_v14 (V : Valuation τ sig (Elt F)) :
    (after ops V (Proc.devRef .tc main_call5_v14) : (⟨S130816, .i32⟩ : BufTy).Contents (Elt F)) = (addi) (after ops V (Proc.devRef .tc main_call5_v4) : (⟨S130816, .i32⟩ : BufTy).Contents (Elt F)) (after ops V (Proc.devRef .tc main_call5_v13) : (⟨S130816, .i32⟩ : BufTy).Contents (Elt F)) :=
  (final_eq V (op := (TRef.binary main_call5.v4 main_call5.v13 main_call5.v14 addi : HloOp τ sig (Elt F))) (mem_ops0b (List.getElem_mem (l := (ops0b : List (HloOp τ sig (Elt F)))) (n := 27) (by show (27 : ℕ) < 49; decide))) main_call5_v14 rfl (readsBelow_binary _ _ _ _ _ _ _ (by decide) (by decide))).trans
    (by first | (rw [binary_result]; done) | (rw [binary_result]; rfl))

theorem eq_main_v17 (V : Valuation τ sig (Elt F)) :
    (after ops V (Proc.devRef .tc main_v17) : (⟨S130816, .i32⟩ : BufTy).Contents (Elt F)) = (select) (after ops V (Proc.devRef .tc main_call5_v12) : (⟨S130816, .i1⟩ : BufTy).Contents (Elt F)) (after ops V (Proc.devRef .tc main_call5_v14) : (⟨S130816, .i32⟩ : BufTy).Contents (Elt F)) (after ops V (Proc.devRef .tc main_call5_v4) : (⟨S130816, .i32⟩ : BufTy).Contents (Elt F)) :=
  (final_eq V (op := (TRef.ternary main_call5.v12 main_call5.v14 main_call5.v4 main_call5.v15 select : HloOp τ sig (Elt F))) (mem_ops0b (List.getElem_mem (l := (ops0b : List (HloOp τ sig (Elt F)))) (n := 28) (by show (28 : ℕ) < 49; decide))) main_v17 rfl (readsBelow_ternary _ _ _ _ _ _ _ _ _ (by decide) (by decide) (by decide))).trans
    (by first | (rw [ternary_result]; done) | (rw [ternary_result]; rfl))

theorem eq_main_c_7 (V : Valuation τ sig (Elt F)) :
    (after ops V (Proc.devRef .tc main_c_7) : (⟨S_, .i32⟩ : BufTy).Contents (Elt F)) = ((constantI S_ 32 1#32) : (⟨S_, .i32⟩ : BufTy).Contents (Elt F)) :=
  (final_eq V (op := (nullary main_c_7 (constantI S_ 32 1#32) : HloOp τ sig (Elt F))) (mem_ops0b (List.getElem_mem (l := (ops0b : List (HloOp τ sig (Elt F)))) (n := 29) (by show (29 : ℕ) < 49; decide))) main_c_7 rfl (readsBelow_nullary _ _ _)).trans
    (by first | (rw [nullary_result]; done) | (rw [nullary_result]; rfl))

theorem eq_main_call6_v0 (V : Valuation τ sig (Elt F)) :
    (after ops V (Proc.devRef .tc main_call6_v0) : (⟨S130816, .i32⟩ : BufTy).Contents (Elt F)) = ((broadcastInDim S130816 ![] bcast_S_S130816)) (after ops V (Proc.devRef .tc main_c_7) : (⟨S_, .i32⟩ : BufTy).Contents (Elt F)) :=
  (final_eq V (op := (TRef.unary (.of main_c_7 : StableHlo.TRef sig ⟨S_, .i32⟩) main_call6.v0 (broadcastInDim S130816 ![] bcast_S_S130816) : HloOp τ sig (Elt F))) (mem_ops0b (List.getElem_mem (l := (ops0b : List (HloOp τ sig (Elt F)))) (n := 30) (by show (30 : ℕ) < 49; decide))) main_call6_v0 rfl (readsBelow_unary _ _ _ _ _ (by decide))).trans
    (by first | (rw [unary_result]; done) | (rw [unary_result]; rfl))

theorem eq_main_call6_v1 (V : Valuation τ sig (Elt F)) :
    (after ops V (Proc.devRef .tc main_call6_v1) : (⟨S130816, .i32⟩ : BufTy).Contents (Elt F)) = (Host.divsi) (after ops V (Proc.devRef .tc main_v15) : (⟨S130816, .i32⟩ : BufTy).Contents (Elt F)) (after ops V (Proc.devRef .tc main_call6_v0) : (⟨S130816, .i32⟩ : BufTy).Contents (Elt F)) :=
  (final_eq V (op := (TRef.binary (.of main_v15 : StableHlo.TRef sig ⟨S130816, .i32⟩) main_call6.v0 main_call6.v1 Host.divsi : HloOp τ sig (Elt F))) (mem_ops0b (List.getElem_mem (l := (ops0b : List (HloOp τ sig (Elt F)))) (n := 31) (by show (31 : ℕ) < 49; decide))) main_call6_v1 rfl (readsBelow_binary _ _ _ _ _ _ _ (by decide) (by decide))).trans
    (by first | (rw [binary_result]; done) | (rw [binary_result]; rfl))

theorem eq_main_call6_v2 (V : Valuation τ sig (Elt F)) :
    (after ops V (Proc.devRef .tc main_call6_v2) : (⟨S130816, .i32⟩ : BufTy).Contents (Elt F)) = (signi) (after ops V (Proc.devRef .tc main_v15) : (⟨S130816, .i32⟩ : BufTy).Contents (Elt F)) :=
  (final_eq V (op := (TRef.unary (.of main_v15 : StableHlo.TRef sig ⟨S130816, .i32⟩) main_call6.v2 signi : HloOp τ sig (Elt F))) (mem_ops0b (List.getElem_mem (l := (ops0b : List (HloOp τ sig (Elt F)))) (n := 32) (by show (32 : ℕ) < 49; decide))) main_call6_v2 rfl (readsBelow_unary _ _ _ _ _ (by decide))).trans
    (by first | (rw [unary_result]; done) | (rw [unary_result]; rfl))

theorem eq_main_call6_v3 (V : Valuation τ sig (Elt F)) :
    (after ops V (Proc.devRef .tc main_call6_v3) : (⟨S_, .i32⟩ : BufTy).Contents (Elt F)) = (signi) (after ops V (Proc.devRef .tc main_c_7) : (⟨S_, .i32⟩ : BufTy).Contents (Elt F)) :=
  (final_eq V (op := (TRef.unary (.of main_c_7 : StableHlo.TRef sig ⟨S_, .i32⟩) main_call6.v3 signi : HloOp τ sig (Elt F))) (mem_ops0b (List.getElem_mem (l := (ops0b : List (HloOp τ sig (Elt F)))) (n := 33) (by show (33 : ℕ) < 49; decide))) main_call6_v3 rfl (readsBelow_unary _ _ _ _ _ (by decide))).trans
    (by first | (rw [unary_result]; done) | (rw [unary_result]; rfl))

theorem eq_main_call6_v4 (V : Valuation τ sig (Elt F)) :
    (after ops V (Proc.devRef .tc main_call6_v4) : (⟨S130816, .i32⟩ : BufTy).Contents (Elt F)) = ((broadcastInDim S130816 ![] bcast_S_S130816)) (after ops V (Proc.devRef .tc main_call6_v3) : (⟨S_, .i32⟩ : BufTy).Contents (Elt F)) :=
  (final_eq V (op := (TRef.unary main_call6.v3 main_call6.v4 (broadcastInDim S130816 ![] bcast_S_S130816) : HloOp τ sig (Elt F))) (mem_ops0b (List.getElem_mem (l := (ops0b : List (HloOp τ sig (Elt F)))) (n := 34) (by show (34 : ℕ) < 49; decide))) main_call6_v4 rfl (readsBelow_unary _ _ _ _ _ (by decide))).trans
    (by first | (rw [unary_result]; done) | (rw [unary_result]; rfl))

theorem eq_main_call6_v5 (V : Valuation τ sig (Elt F)) :
    (after ops V (Proc.devRef .tc main_call6_v5) : (⟨S130816, .i1⟩ : BufTy).Contents (Elt F)) = ((cmpi .ne)) (after ops V (Proc.devRef .tc main_call6_v2) : (⟨S130816, .i32⟩ : BufTy).Contents (Elt F)) (after ops V (Proc.devRef .tc main_call6_v4) : (⟨S130816, .i32⟩ : BufTy).Contents (Elt F)) :=
  (final_eq V (op := (TRef.binary main_call6.v2 main_call6.v4 main_call6.v5 (cmpi .ne) : HloOp τ sig (Elt F))) (mem_ops0b (List.getElem_mem (l := (ops0b : List (HloOp τ sig (Elt F)))) (n := 35) (by show (35 : ℕ) < 49; decide))) main_call6_v5 rfl (readsBelow_binary _ _ _ _ _ _ _ (by decide) (by decide))).trans
    (by first | (rw [binary_result]; done) | (rw [binary_result]; rfl))

theorem eq_main_call6_v6 (V : Valuation τ sig (Elt F)) :
    (after ops V (Proc.devRef .tc main_call6_v6) : (⟨S130816, .i32⟩ : BufTy).Contents (Elt F)) = ((broadcastInDim S130816 ![] bcast_S_S130816)) (after ops V (Proc.devRef .tc main_c_7) : (⟨S_, .i32⟩ : BufTy).Contents (Elt F)) :=
  (final_eq V (op := (TRef.unary (.of main_c_7 : StableHlo.TRef sig ⟨S_, .i32⟩) main_call6.v6 (broadcastInDim S130816 ![] bcast_S_S130816) : HloOp τ sig (Elt F))) (mem_ops0b (List.getElem_mem (l := (ops0b : List (HloOp τ sig (Elt F)))) (n := 36) (by show (36 : ℕ) < 49; decide))) main_call6_v6 rfl (readsBelow_unary _ _ _ _ _ (by decide))).trans
    (by first | (rw [unary_result]; done) | (rw [unary_result]; rfl))

theorem eq_main_call6_v7 (V : Valuation τ sig (Elt F)) :
    (after ops V (Proc.devRef .tc main_call6_v7) : (⟨S130816, .i32⟩ : BufTy).Contents (Elt F)) = (Host.remsi) (after ops V (Proc.devRef .tc main_v15) : (⟨S130816, .i32⟩ : BufTy).Contents (Elt F)) (after ops V (Proc.devRef .tc main_call6_v6) : (⟨S130816, .i32⟩ : BufTy).Contents (Elt F)) :=
  (final_eq V (op := (TRef.binary (.of main_v15 : StableHlo.TRef sig ⟨S130816, .i32⟩) main_call6.v6 main_call6.v7 Host.remsi : HloOp τ sig (Elt F))) (mem_ops0b (List.getElem_mem (l := (ops0b : List (HloOp τ sig (Elt F)))) (n := 37) (by show (37 : ℕ) < 49; decide))) main_call6_v7 rfl (readsBelow_binary _ _ _ _ _ _ _ (by decide) (by decide))).trans
    (by first | (rw [binary_result]; done) | (rw [binary_result]; rfl))

theorem eq_main_call6_c (V : Valuation τ sig (Elt F)) :
    (after ops V (Proc.devRef .tc main_call6_c) : (⟨S_, .i32⟩ : BufTy).Contents (Elt F)) = ((constantI S_ 32 0#32) : (⟨S_, .i32⟩ : BufTy).Contents (Elt F)) :=
  (final_eq V (op := (TRef.nullary main_call6.c (constantI S_ 32 0#32) : HloOp τ sig (Elt F))) (mem_ops0b (List.getElem_mem (l := (ops0b : List (HloOp τ sig (Elt F)))) (n := 38) (by show (38 : ℕ) < 49; decide))) main_call6_c rfl (readsBelow_nullary _ _ _)).trans
    (by first | (rw [nullary_result]; done) | (rw [nullary_result]; rfl))

theorem eq_main_call6_v8 (V : Valuation τ sig (Elt F)) :
    (after ops V (Proc.devRef .tc main_call6_v8) : (⟨S130816, .i32⟩ : BufTy).Contents (Elt F)) = ((broadcastInDim S130816 ![] bcast_S_S130816)) (after ops V (Proc.devRef .tc main_call6_c) : (⟨S_, .i32⟩ : BufTy).Contents (Elt F)) :=
  (final_eq V (op := (TRef.unary main_call6.c main_call6.v8 (broadcastInDim S130816 ![] bcast_S_S130816) : HloOp τ sig (Elt F))) (mem_ops0b (List.getElem_mem (l := (ops0b : List (HloOp τ sig (Elt F)))) (n := 39) (by show (39 : ℕ) < 49; decide))) main_call6_v8 rfl (readsBelow_unary _ _ _ _ _ (by decide))).trans
    (by first | (rw [unary_result]; done) | (rw [unary_result]; rfl))

theorem eq_main_call6_v9 (V : Valuation τ sig (Elt F)) :
    (after ops V (Proc.devRef .tc main_call6_v9) : (⟨S130816, .i1⟩ : BufTy).Contents (Elt F)) = ((cmpi .ne)) (after ops V (Proc.devRef .tc main_call6_v7) : (⟨S130816, .i32⟩ : BufTy).Contents (Elt F)) (after ops V (Proc.devRef .tc main_call6_v8) : (⟨S130816, .i32⟩ : BufTy).Contents (Elt F)) :=
  (final_eq V (op := (TRef.binary main_call6.v7 main_call6.v8 main_call6.v9 (cmpi .ne) : HloOp τ sig (Elt F))) (mem_ops0b (List.getElem_mem (l := (ops0b : List (HloOp τ sig (Elt F)))) (n := 40) (by show (40 : ℕ) < 49; decide))) main_call6_v9 rfl (readsBelow_binary _ _ _ _ _ _ _ (by decide) (by decide))).trans
    (by first | (rw [binary_result]; done) | (rw [binary_result]; rfl))

theorem eq_main_call6_v10 (V : Valuation τ sig (Elt F)) :
    (after ops V (Proc.devRef .tc main_call6_v10) : (⟨S130816, .i1⟩ : BufTy).Contents (Elt F)) = (andi) (after ops V (Proc.devRef .tc main_call6_v5) : (⟨S130816, .i1⟩ : BufTy).Contents (Elt F)) (after ops V (Proc.devRef .tc main_call6_v9) : (⟨S130816, .i1⟩ : BufTy).Contents (Elt F)) :=
  (final_eq V (op := (TRef.binary main_call6.v5 main_call6.v9 main_call6.v10 andi : HloOp τ sig (Elt F))) (mem_ops0b (List.getElem_mem (l := (ops0b : List (HloOp τ sig (Elt F)))) (n := 41) (by show (41 : ℕ) < 49; decide))) main_call6_v10 rfl (readsBelow_binary _ _ _ _ _ _ _ (by decide) (by decide))).trans
    (by first | (rw [binary_result]; done) | (rw [binary_result]; rfl))

theorem eq_main_call6_c_0 (V : Valuation τ sig (Elt F)) :
    (after ops V (Proc.devRef .tc main_call6_c_0) : (⟨S_, .i32⟩ : BufTy).Contents (Elt F)) = ((constantI S_ 32 1#32) : (⟨S_, .i32⟩ : BufTy).Contents (Elt F)) :=
  (final_eq V (op := (TRef.nullary main_call6.c_0 (constantI S_ 32 1#32) : HloOp τ sig (Elt F))) (mem_ops0b (List.getElem_mem (l := (ops0b : List (HloOp τ sig (Elt F)))) (n := 42) (by show (42 : ℕ) < 49; decide))) main_call6_c_0 rfl (readsBelow_nullary _ _ _)).trans
    (by first | (rw [nullary_result]; done) | (rw [nullary_result]; rfl))

theorem eq_main_call6_v11 (V : Valuation τ sig (Elt F)) :
    (after ops V (Proc.devRef .tc main_call6_v11) : (⟨S130816, .i32⟩ : BufTy).Contents (Elt F)) = ((broadcastInDim S130816 ![] bcast_S_S130816)) (after ops V (Proc.devRef .tc main_call6_c_0) : (⟨S_, .i32⟩ : BufTy).Contents (Elt F)) :=
  (final_eq V (op := (TRef.unary main_call6.c_0 main_call6.v11 (broadcastInDim S130816 ![] bcast_S_S130816) : HloOp τ sig (Elt F))) (mem_ops0b (List.getElem_mem (l := (ops0b : List (HloOp τ sig (Elt F)))) (n := 43) (by show (43 : ℕ) < 49; decide))) main_call6_v11 rfl (readsBelow_unary _ _ _ _ _ (by decide))).trans
    (by first | (rw [unary_result]; done) | (rw [unary_result]; rfl))

theorem eq_main_call6_v12 (V : Valuation τ sig (Elt F)) :
    (after ops V (Proc.devRef .tc main_call6_v12) : (⟨S130816, .i32⟩ : BufTy).Contents (Elt F)) = (subi) (after ops V (Proc.devRef .tc main_call6_v1) : (⟨S130816, .i32⟩ : BufTy).Contents (Elt F)) (after ops V (Proc.devRef .tc main_call6_v11) : (⟨S130816, .i32⟩ : BufTy).Contents (Elt F)) :=
  (final_eq V (op := (TRef.binary main_call6.v1 main_call6.v11 main_call6.v12 subi : HloOp τ sig (Elt F))) (mem_ops0b (List.getElem_mem (l := (ops0b : List (HloOp τ sig (Elt F)))) (n := 44) (by show (44 : ℕ) < 49; decide))) main_call6_v12 rfl (readsBelow_binary _ _ _ _ _ _ _ (by decide) (by decide))).trans
    (by first | (rw [binary_result]; done) | (rw [binary_result]; rfl))

theorem eq_main_v18 (V : Valuation τ sig (Elt F)) :
    (after ops V (Proc.devRef .tc main_v18) : (⟨S130816, .i32⟩ : BufTy).Contents (Elt F)) = (select) (after ops V (Proc.devRef .tc main_call6_v10) : (⟨S130816, .i1⟩ : BufTy).Contents (Elt F)) (after ops V (Proc.devRef .tc main_call6_v12) : (⟨S130816, .i32⟩ : BufTy).Contents (Elt F)) (after ops V (Proc.devRef .tc main_call6_v1) : (⟨S130816, .i32⟩ : BufTy).Contents (Elt F)) :=
  (final_eq V (op := (TRef.ternary main_call6.v10 main_call6.v12 main_call6.v1 main_call6.call0.v0 select : HloOp τ sig (Elt F))) (mem_ops0b (List.getElem_mem (l := (ops0b : List (HloOp τ sig (Elt F)))) (n := 45) (by show (45 : ℕ) < 49; decide))) main_v18 rfl (readsBelow_ternary _ _ _ _ _ _ _ _ _ (by decide) (by decide) (by decide))).trans
    (by first | (rw [ternary_result]; done) | (rw [ternary_result]; rfl))

theorem eq_main_c_8 (V : Valuation τ sig (Elt F)) :
    (after ops V (Proc.devRef .tc main_c_8) : (⟨S_, .i32⟩ : BufTy).Contents (Elt F)) = ((constantI S_ 32 512#32) : (⟨S_, .i32⟩ : BufTy).Contents (Elt F)) :=
  (final_eq V (op := (nullary main_c_8 (constantI S_ 32 512#32) : HloOp τ sig (Elt F))) (mem_ops0b (List.getElem_mem (l := (ops0b : List (HloOp τ sig (Elt F)))) (n := 46) (by show (46 : ℕ) < 49; decide))) main_c_8 rfl (readsBelow_nullary _ _ _)).trans
    (by first | (rw [nullary_result]; done) | (rw [nullary_result]; rfl))

theorem eq_main_call7_v0 (V : Valuation τ sig (Elt F)) :
    (after ops V (Proc.devRef .tc main_call7_v0) : (⟨S_, .i32⟩ : BufTy).Contents (Elt F)) = (id) (after ops V (Proc.devRef .tc main_c_8) : (⟨S_, .i32⟩ : BufTy).Contents (Elt F)) :=
  (final_eq V (op := (TRef.unary (.of main_c_8 : StableHlo.TRef sig ⟨S_, .i32⟩) main_call7.v0 id : HloOp τ sig (Elt F))) (mem_ops0b (List.getElem_mem (l := (ops0b : List (HloOp τ sig (Elt F)))) (n := 47) (by show (47 : ℕ) < 49; decide))) main_call7_v0 rfl (readsBelow_unary _ _ _ _ _ (by decide))).trans
    (by first | (rw [unary_result]; done) | (rw [unary_result]; rfl))

theorem eq_main_call7_c (V : Valuation τ sig (Elt F)) :
    (after ops V (Proc.devRef .tc main_call7_c) : (⟨S_, .i32⟩ : BufTy).Contents (Elt F)) = ((constantI S_ 32 0#32) : (⟨S_, .i32⟩ : BufTy).Contents (Elt F)) :=
  (final_eq V (op := (TRef.nullary main_call7.c (constantI S_ 32 0#32) : HloOp τ sig (Elt F))) (mem_ops0b (List.getElem_mem (l := (ops0b : List (HloOp τ sig (Elt F)))) (n := 48) (by show (48 : ℕ) < 49; decide))) main_call7_c rfl (readsBelow_nullary _ _ _)).trans
    (by first | (rw [nullary_result]; done) | (rw [nullary_result]; rfl))

end Cert.ReferenceIdeal.Line

end
-- ==== Proof.RefEq0c.lean ====
/- The equations of window 0's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefSplit0

set_option maxRecDepth 65536
set_option maxHeartbeats 1000000
set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

-- the operations are compared argument by argument, never opened
attribute [local irreducible] constant broadcastInDim iotaInDim constantI cmpi cmpf extui Host.reduceWindow addi subi andi maxsi signi select Host.scatter extractStridedSlice subf mulf addf maximumf Host.reduceAdd Host.sqrt concatenate Host.gather Host.divsi Host.remsi shapeCast

theorem eq_main_call7_v1 (V : Valuation τ sig (Elt F)) :
    (after ops V (Proc.devRef .tc main_call7_v1) : (⟨S_, .i1⟩ : BufTy).Contents (Elt F)) = ((cmpi .eq)) (after ops V (Proc.devRef .tc main_call7_v0) : (⟨S_, .i32⟩ : BufTy).Contents (Elt F)) (after ops V (Proc.devRef .tc main_call7_c) : (⟨S_, .i32⟩ : BufTy).Contents (Elt F)) :=
  (final_eq V (op := (TRef.binary main_call7.v0 main_call7.c main_call7.v1 (cmpi .eq) : HloOp τ sig (Elt F))) (mem_ops0c (List.getElem_mem (l := (ops0c : List (HloOp τ sig (Elt F)))) (n := 0) (by show (0 : ℕ) < 48; decide))) main_call7_v1 rfl (readsBelow_binary _ _ _ _ _ _ _ (by decide) (by decide))).trans
    (by first | (rw [binary_result]; done) | (rw [binary_result]; rfl))

theorem eq_main_call7_c_0 (V : Valuation τ sig (Elt F)) :
    (after ops V (Proc.devRef .tc main_call7_c_0) : (⟨S_, .i32⟩ : BufTy).Contents (Elt F)) = ((constantI S_ 32 1#32) : (⟨S_, .i32⟩ : BufTy).Contents (Elt F)) :=
  (final_eq V (op := (TRef.nullary main_call7.c_0 (constantI S_ 32 1#32) : HloOp τ sig (Elt F))) (mem_ops0c (List.getElem_mem (l := (ops0c : List (HloOp τ sig (Elt F)))) (n := 1) (by show (1 : ℕ) < 48; decide))) main_call7_c_0 rfl (readsBelow_nullary _ _ _)).trans
    (by first | (rw [nullary_result]; done) | (rw [nullary_result]; rfl))

theorem eq_main_call7_v2 (V : Valuation τ sig (Elt F)) :
    (after ops V (Proc.devRef .tc main_call7_v2) : (⟨S_, .i32⟩ : BufTy).Contents (Elt F)) = (select) (after ops V (Proc.devRef .tc main_call7_v1) : (⟨S_, .i1⟩ : BufTy).Contents (Elt F)) (after ops V (Proc.devRef .tc main_call7_c_0) : (⟨S_, .i32⟩ : BufTy).Contents (Elt F)) (after ops V (Proc.devRef .tc main_call7_v0) : (⟨S_, .i32⟩ : BufTy).Contents (Elt F)) :=
  (final_eq V (op := (TRef.ternary main_call7.v1 main_call7.c_0 main_call7.v0 main_call7.call0.v0 select : HloOp τ sig (Elt F))) (mem_ops0c (List.getElem_mem (l := (ops0c : List (HloOp τ sig (Elt F)))) (n := 2) (by show (2 : ℕ) < 48; decide))) main_call7_v2 rfl (readsBelow_ternary _ _ _ _ _ _ _ _ _ (by decide) (by decide) (by decide))).trans
    (by first | (rw [ternary_result]; done) | (rw [ternary_result]; rfl))

theorem eq_main_call7_v3 (V : Valuation τ sig (Elt F)) :
    (after ops V (Proc.devRef .tc main_call7_v3) : (⟨S130816, .i32⟩ : BufTy).Contents (Elt F)) = ((broadcastInDim S130816 ![] bcast_S_S130816)) (after ops V (Proc.devRef .tc main_call7_v2) : (⟨S_, .i32⟩ : BufTy).Contents (Elt F)) :=
  (final_eq V (op := (TRef.unary main_call7.call0.v0 main_call7.v3 (broadcastInDim S130816 ![] bcast_S_S130816) : HloOp τ sig (Elt F))) (mem_ops0c (List.getElem_mem (l := (ops0c : List (HloOp τ sig (Elt F)))) (n := 3) (by show (3 : ℕ) < 48; decide))) main_call7_v3 rfl (readsBelow_unary _ _ _ _ _ (by decide))).trans
    (by first | (rw [unary_result]; done) | (rw [unary_result]; rfl))

theorem eq_main_call7_v4 (V : Valuation τ sig (Elt F)) :
    (after ops V (Proc.devRef .tc main_call7_v4) : (⟨S130816, .i32⟩ : BufTy).Contents (Elt F)) = (Host.remsi) (after ops V (Proc.devRef .tc main_v18) : (⟨S130816, .i32⟩ : BufTy).Contents (Elt F)) (after ops V (Proc.devRef .tc main_call7_v3) : (⟨S130816, .i32⟩ : BufTy).Contents (Elt F)) :=
  (final_eq V (op := (TRef.binary (.of main_v18 : StableHlo.TRef sig ⟨S130816, .i32⟩) main_call7.v3 main_call7.v4 Host.remsi : HloOp τ sig (Elt F))) (mem_ops0c (List.getElem_mem (l := (ops0c : List (HloOp τ sig (Elt F)))) (n := 4) (by show (4 : ℕ) < 48; decide))) main_call7_v4 rfl (readsBelow_binary _ _ _ _ _ _ _ (by decide) (by decide))).trans
    (by first | (rw [binary_result]; done) | (rw [binary_result]; rfl))

theorem eq_main_call7_c_1 (V : Valuation τ sig (Elt F)) :
    (after ops V (Proc.devRef .tc main_call7_c_1) : (⟨S_, .i32⟩ : BufTy).Contents (Elt F)) = ((constantI S_ 32 0#32) : (⟨S_, .i32⟩ : BufTy).Contents (Elt F)) :=
  (final_eq V (op := (TRef.nullary main_call7.c_1 (constantI S_ 32 0#32) : HloOp τ sig (Elt F))) (mem_ops0c (List.getElem_mem (l := (ops0c : List (HloOp τ sig (Elt F)))) (n := 5) (by show (5 : ℕ) < 48; decide))) main_call7_c_1 rfl (readsBelow_nullary _ _ _)).trans
    (by first | (rw [nullary_result]; done) | (rw [nullary_result]; rfl))

theorem eq_main_call7_v5 (V : Valuation τ sig (Elt F)) :
    (after ops V (Proc.devRef .tc main_call7_v5) : (⟨S130816, .i32⟩ : BufTy).Contents (Elt F)) = ((broadcastInDim S130816 ![] bcast_S_S130816)) (after ops V (Proc.devRef .tc main_call7_c_1) : (⟨S_, .i32⟩ : BufTy).Contents (Elt F)) :=
  (final_eq V (op := (TRef.unary main_call7.c_1 main_call7.v5 (broadcastInDim S130816 ![] bcast_S_S130816) : HloOp τ sig (Elt F))) (mem_ops0c (List.getElem_mem (l := (ops0c : List (HloOp τ sig (Elt F)))) (n := 6) (by show (6 : ℕ) < 48; decide))) main_call7_v5 rfl (readsBelow_unary _ _ _ _ _ (by decide))).trans
    (by first | (rw [unary_result]; done) | (rw [unary_result]; rfl))

theorem eq_main_call7_v6 (V : Valuation τ sig (Elt F)) :
    (after ops V (Proc.devRef .tc main_call7_v6) : (⟨S130816, .i1⟩ : BufTy).Contents (Elt F)) = ((cmpi .ne)) (after ops V (Proc.devRef .tc main_call7_v4) : (⟨S130816, .i32⟩ : BufTy).Contents (Elt F)) (after ops V (Proc.devRef .tc main_call7_v5) : (⟨S130816, .i32⟩ : BufTy).Contents (Elt F)) :=
  (final_eq V (op := (TRef.binary main_call7.v4 main_call7.v5 main_call7.v6 (cmpi .ne) : HloOp τ sig (Elt F))) (mem_ops0c (List.getElem_mem (l := (ops0c : List (HloOp τ sig (Elt F)))) (n := 7) (by show (7 : ℕ) < 48; decide))) main_call7_v6 rfl (readsBelow_binary _ _ _ _ _ _ _ (by decide) (by decide))).trans
    (by first | (rw [binary_result]; done) | (rw [binary_result]; rfl))

theorem eq_main_call7_c_2 (V : Valuation τ sig (Elt F)) :
    (after ops V (Proc.devRef .tc main_call7_c_2) : (⟨S_, .i32⟩ : BufTy).Contents (Elt F)) = ((constantI S_ 32 0#32) : (⟨S_, .i32⟩ : BufTy).Contents (Elt F)) :=
  (final_eq V (op := (TRef.nullary main_call7.c_2 (constantI S_ 32 0#32) : HloOp τ sig (Elt F))) (mem_ops0c (List.getElem_mem (l := (ops0c : List (HloOp τ sig (Elt F)))) (n := 8) (by show (8 : ℕ) < 48; decide))) main_call7_c_2 rfl (readsBelow_nullary _ _ _)).trans
    (by first | (rw [nullary_result]; done) | (rw [nullary_result]; rfl))

theorem eq_main_call7_v7 (V : Valuation τ sig (Elt F)) :
    (after ops V (Proc.devRef .tc main_call7_v7) : (⟨S130816, .i32⟩ : BufTy).Contents (Elt F)) = ((broadcastInDim S130816 ![] bcast_S_S130816)) (after ops V (Proc.devRef .tc main_call7_c_2) : (⟨S_, .i32⟩ : BufTy).Contents (Elt F)) :=
  (final_eq V (op := (TRef.unary main_call7.c_2 main_call7.v7 (broadcastInDim S130816 ![] bcast_S_S130816) : HloOp τ sig (Elt F))) (mem_ops0c (List.getElem_mem (l := (ops0c : List (HloOp τ sig (Elt F)))) (n := 9) (by show (9 : ℕ) < 48; decide))) main_call7_v7 rfl (readsBelow_unary _ _ _ _ _ (by decide))).trans
    (by first | (rw [unary_result]; done) | (rw [unary_result]; rfl))

theorem eq_main_call7_v8 (V : Valuation τ sig (Elt F)) :
    (after ops V (Proc.devRef .tc main_call7_v8) : (⟨S130816, .i1⟩ : BufTy).Contents (Elt F)) = ((cmpi .slt)) (after ops V (Proc.devRef .tc main_call7_v4) : (⟨S130816, .i32⟩ : BufTy).Contents (Elt F)) (after ops V (Proc.devRef .tc main_call7_v7) : (⟨S130816, .i32⟩ : BufTy).Contents (Elt F)) :=
  (final_eq V (op := (TRef.binary main_call7.v4 main_call7.v7 main_call7.v8 (cmpi .slt) : HloOp τ sig (Elt F))) (mem_ops0c (List.getElem_mem (l := (ops0c : List (HloOp τ sig (Elt F)))) (n := 10) (by show (10 : ℕ) < 48; decide))) main_call7_v8 rfl (readsBelow_binary _ _ _ _ _ _ _ (by decide) (by decide))).trans
    (by first | (rw [binary_result]; done) | (rw [binary_result]; rfl))

theorem eq_main_call7_c_3 (V : Valuation τ sig (Elt F)) :
    (after ops V (Proc.devRef .tc main_call7_c_3) : (⟨S_, .i32⟩ : BufTy).Contents (Elt F)) = ((constantI S_ 32 0#32) : (⟨S_, .i32⟩ : BufTy).Contents (Elt F)) :=
  (final_eq V (op := (TRef.nullary main_call7.c_3 (constantI S_ 32 0#32) : HloOp τ sig (Elt F))) (mem_ops0c (List.getElem_mem (l := (ops0c : List (HloOp τ sig (Elt F)))) (n := 11) (by show (11 : ℕ) < 48; decide))) main_call7_c_3 rfl (readsBelow_nullary _ _ _)).trans
    (by first | (rw [nullary_result]; done) | (rw [nullary_result]; rfl))

theorem eq_main_call7_v9 (V : Valuation τ sig (Elt F)) :
    (after ops V (Proc.devRef .tc main_call7_v9) : (⟨S_, .i1⟩ : BufTy).Contents (Elt F)) = ((cmpi .slt)) (after ops V (Proc.devRef .tc main_call7_v2) : (⟨S_, .i32⟩ : BufTy).Contents (Elt F)) (after ops V (Proc.devRef .tc main_call7_c_3) : (⟨S_, .i32⟩ : BufTy).Contents (Elt F)) :=
  (final_eq V (op := (TRef.binary main_call7.call0.v0 main_call7.c_3 main_call7.v9 (cmpi .slt) : HloOp τ sig (Elt F))) (mem_ops0c (List.getElem_mem (l := (ops0c : List (HloOp τ sig (Elt F)))) (n := 12) (by show (12 : ℕ) < 48; decide))) main_call7_v9 rfl (readsBelow_binary _ _ _ _ _ _ _ (by decide) (by decide))).trans
    (by first | (rw [binary_result]; done) | (rw [binary_result]; rfl))

theorem eq_main_call7_v10 (V : Valuation τ sig (Elt F)) :
    (after ops V (Proc.devRef .tc main_call7_v10) : (⟨S130816, .i1⟩ : BufTy).Contents (Elt F)) = ((broadcastInDim S130816 ![] bcast_S_S130816)) (after ops V (Proc.devRef .tc main_call7_v9) : (⟨S_, .i1⟩ : BufTy).Contents (Elt F)) :=
  (final_eq V (op := (TRef.unary main_call7.v9 main_call7.v10 (broadcastInDim S130816 ![] bcast_S_S130816) : HloOp τ sig (Elt F))) (mem_ops0c (List.getElem_mem (l := (ops0c : List (HloOp τ sig (Elt F)))) (n := 13) (by show (13 : ℕ) < 48; decide))) main_call7_v10 rfl (readsBelow_unary _ _ _ _ _ (by decide))).trans
    (by first | (rw [unary_result]; done) | (rw [unary_result]; rfl))

theorem eq_main_call7_v11 (V : Valuation τ sig (Elt F)) :
    (after ops V (Proc.devRef .tc main_call7_v11) : (⟨S130816, .i1⟩ : BufTy).Contents (Elt F)) = ((cmpi .ne)) (after ops V (Proc.devRef .tc main_call7_v8) : (⟨S130816, .i1⟩ : BufTy).Contents (Elt F)) (after ops V (Proc.devRef .tc main_call7_v10) : (⟨S130816, .i1⟩ : BufTy).Contents (Elt F)) :=
  (final_eq V (op := (TRef.binary main_call7.v8 main_call7.v10 main_call7.v11 (cmpi .ne) : HloOp τ sig (Elt F))) (mem_ops0c (List.getElem_mem (l := (ops0c : List (HloOp τ sig (Elt F)))) (n := 14) (by show (14 : ℕ) < 48; decide))) main_call7_v11 rfl (readsBelow_binary _ _ _ _ _ _ _ (by decide) (by decide))).trans
    (by first | (rw [binary_result]; done) | (rw [binary_result]; rfl))

theorem eq_main_call7_v12 (V : Valuation τ sig (Elt F)) :
    (after ops V (Proc.devRef .tc main_call7_v12) : (⟨S130816, .i1⟩ : BufTy).Contents (Elt F)) = (andi) (after ops V (Proc.devRef .tc main_call7_v11) : (⟨S130816, .i1⟩ : BufTy).Contents (Elt F)) (after ops V (Proc.devRef .tc main_call7_v6) : (⟨S130816, .i1⟩ : BufTy).Contents (Elt F)) :=
  (final_eq V (op := (TRef.binary main_call7.v11 main_call7.v6 main_call7.v12 andi : HloOp τ sig (Elt F))) (mem_ops0c (List.getElem_mem (l := (ops0c : List (HloOp τ sig (Elt F)))) (n := 15) (by show (15 : ℕ) < 48; decide))) main_call7_v12 rfl (readsBelow_binary _ _ _ _ _ _ _ (by decide) (by decide))).trans
    (by first | (rw [binary_result]; done) | (rw [binary_result]; rfl))

theorem eq_main_call7_v13 (V : Valuation τ sig (Elt F)) :
    (after ops V (Proc.devRef .tc main_call7_v13) : (⟨S130816, .i32⟩ : BufTy).Contents (Elt F)) = ((broadcastInDim S130816 ![] bcast_S_S130816)) (after ops V (Proc.devRef .tc main_call7_v2) : (⟨S_, .i32⟩ : BufTy).Contents (Elt F)) :=
  (final_eq V (op := (TRef.unary main_call7.call0.v0 main_call7.v13 (broadcastInDim S130816 ![] bcast_S_S130816) : HloOp τ sig (Elt F))) (mem_ops0c (List.getElem_mem (l := (ops0c : List (HloOp τ sig (Elt F)))) (n := 16) (by show (16 : ℕ) < 48; decide))) main_call7_v13 rfl (readsBelow_unary _ _ _ _ _ (by decide))).trans
    (by first | (rw [unary_result]; done) | (rw [unary_result]; rfl))

theorem eq_main_call7_v14 (V : Valuation τ sig (Elt F)) :
    (after ops V (Proc.devRef .tc main_call7_v14) : (⟨S130816, .i32⟩ : BufTy).Contents (Elt F)) = (addi) (after ops V (Proc.devRef .tc main_call7_v4) : (⟨S130816, .i32⟩ : BufTy).Contents (Elt F)) (after ops V (Proc.devRef .tc main_call7_v13) : (⟨S130816, .i32⟩ : BufTy).Contents (Elt F)) :=
  (final_eq V (op := (TRef.binary main_call7.v4 main_call7.v13 main_call7.v14 addi : HloOp τ sig (Elt F))) (mem_ops0c (List.getElem_mem (l := (ops0c : List (HloOp τ sig (Elt F)))) (n := 17) (by show (17 : ℕ) < 48; decide))) main_call7_v14 rfl (readsBelow_binary _ _ _ _ _ _ _ (by decide) (by decide))).trans
    (by first | (rw [binary_result]; done) | (rw [binary_result]; rfl))

theorem eq_main_v19 (V : Valuation τ sig (Elt F)) :
    (after ops V (Proc.devRef .tc main_v19) : (⟨S130816, .i32⟩ : BufTy).Contents (Elt F)) = (select) (after ops V (Proc.devRef .tc main_call7_v12) : (⟨S130816, .i1⟩ : BufTy).Contents (Elt F)) (after ops V (Proc.devRef .tc main_call7_v14) : (⟨S130816, .i32⟩ : BufTy).Contents (Elt F)) (after ops V (Proc.devRef .tc main_call7_v4) : (⟨S130816, .i32⟩ : BufTy).Contents (Elt F)) :=
  (final_eq V (op := (TRef.ternary main_call7.v12 main_call7.v14 main_call7.v4 main_call7.v15 select : HloOp τ sig (Elt F))) (mem_ops0c (List.getElem_mem (l := (ops0c : List (HloOp τ sig (Elt F)))) (n := 18) (by show (18 : ℕ) < 48; decide))) main_v19 rfl (readsBelow_ternary _ _ _ _ _ _ _ _ _ (by decide) (by decide) (by decide))).trans
    (by first | (rw [ternary_result]; done) | (rw [ternary_result]; rfl))

theorem eq_main_v20 (V : Valuation τ sig (Elt F)) :
    (after ops V (Proc.devRef .tc main_v20) : (⟨S1x512x128, .f32⟩ : BufTy).Contents (Elt F)) = (((extractStridedSlice S1x512x128 ![0, 0, 0] · slices_S4x512x128_S1x512x128_0_0_0) : (⟨S4x512x128, .f32⟩ : BufTy).Contents (Elt F) → (⟨S1x512x128, .f32⟩ : BufTy).Contents (Elt F))) (after ops V (Proc.devRef .tc main_arg0) : (⟨S4x512x128, .f32⟩ : BufTy).Contents (Elt F)) :=
  (final_eq V (op := (unary main_arg0 main_v20 ((extractStridedSlice S1x512x128 ![0, 0, 0] · slices_S4x512x128_S1x512x128_0_0_0) : (⟨S4x512x128, .f32⟩ : BufTy).Contents (Elt F) → (⟨S1x512x128, .f32⟩ : BufTy).Contents (Elt F)) : HloOp τ sig (Elt F))) (mem_ops0c (List.getElem_mem (l := (ops0c : List (HloOp τ sig (Elt F)))) (n := 19) (by show (19 : ℕ) < 48; decide))) main_v20 rfl (readsBelow_unary _ _ _ _ _ (by decide))).trans
    (by first | (rw [unary_result]; done) | (rw [unary_result]; rfl))

theorem eq_main_v21 (V : Valuation τ sig (Elt F)) :
    (after ops V (Proc.devRef .tc main_v21) : (⟨S512x128, .f32⟩ : BufTy).Contents (Elt F)) = shapeCast S512x128 (after ops V (Proc.devRef .tc main_v20) : (⟨S1x512x128, .f32⟩ : BufTy).Contents (Elt F)) shapeCasts_S1x512x128_S512x128 :=
  (final_eq V (op := (reshape main_v20 main_v21 rfl shapeCasts_S1x512x128_S512x128 : HloOp τ sig (Elt F))) (mem_ops0c (List.getElem_mem (l := (ops0c : List (HloOp τ sig (Elt F)))) (n := 20) (by show (20 : ℕ) < 48; decide))) main_v21 rfl (readsBelow_reshape _ _ _ _ _ _ (by decide))).trans
    (by first | (rw [reshape_result]; done) | (rw [reshape_result]; rfl))

theorem eq_main_v22 (V : Valuation τ sig (Elt F)) :
    (after ops V (Proc.devRef .tc main_v22) : (⟨S512x1x128, .f32⟩ : BufTy).Contents (Elt F)) = ((broadcastInDim S512x1x128 ![0, 2] bcast_S512x128_S512x1x128_0_2 : (⟨S512x128, .f32⟩ : BufTy).Contents (Elt F) → (⟨S512x1x128, .f32⟩ : BufTy).Contents (Elt F))) (after ops V (Proc.devRef .tc main_v21) : (⟨S512x128, .f32⟩ : BufTy).Contents (Elt F)) :=
  (final_eq V (op := (unary main_v21 main_v22 (broadcastInDim S512x1x128 ![0, 2] bcast_S512x128_S512x1x128_0_2 : (⟨S512x128, .f32⟩ : BufTy).Contents (Elt F) → (⟨S512x1x128, .f32⟩ : BufTy).Contents (Elt F)) : HloOp τ sig (Elt F))) (mem_ops0c (List.getElem_mem (l := (ops0c : List (HloOp τ sig (Elt F)))) (n := 21) (by show (21 : ℕ) < 48; decide))) main_v22 rfl (readsBelow_unary _ _ _ _ _ (by decide))).trans
    (by first | (rw [unary_result]; done) | (rw [unary_result]; rfl))

theorem eq_main_v23 (V : Valuation τ sig (Elt F)) :
    (after ops V (Proc.devRef .tc main_v23) : (⟨S1x512x128, .f32⟩ : BufTy).Contents (Elt F)) = ((broadcastInDim S1x512x128 ![1, 2] bcast_S512x128_S1x512x128_1_2 : (⟨S512x128, .f32⟩ : BufTy).Contents (Elt F) → (⟨S1x512x128, .f32⟩ : BufTy).Contents (Elt F))) (after ops V (Proc.devRef .tc main_v21) : (⟨S512x128, .f32⟩ : BufTy).Contents (Elt F)) :=
  (final_eq V (op := (unary main_v21 main_v23 (broadcastInDim S1x512x128 ![1, 2] bcast_S512x128_S1x512x128_1_2 : (⟨S512x128, .f32⟩ : BufTy).Contents (Elt F) → (⟨S1x512x128, .f32⟩ : BufTy).Contents (Elt F)) : HloOp τ sig (Elt F))) (mem_ops0c (List.getElem_mem (l := (ops0c : List (HloOp τ sig (Elt F)))) (n := 22) (by show (22 : ℕ) < 48; decide))) main_v23 rfl (readsBelow_unary _ _ _ _ _ (by decide))).trans
    (by first | (rw [unary_result]; done) | (rw [unary_result]; rfl))

theorem eq_main_v24 (V : Valuation τ sig (Elt F)) :
    (after ops V (Proc.devRef .tc main_v24) : (⟨S512x512x128, .f32⟩ : BufTy).Contents (Elt F)) = ((broadcastInDim S512x512x128 ![0, 1, 2] bcast_S512x1x128_S512x512x128_0_1_2 : (⟨S512x1x128, .f32⟩ : BufTy).Contents (Elt F) → (⟨S512x512x128, .f32⟩ : BufTy).Contents (Elt F))) (after ops V (Proc.devRef .tc main_v22) : (⟨S512x1x128, .f32⟩ : BufTy).Contents (Elt F)) :=
  (final_eq V (op := (unary main_v22 main_v24 (broadcastInDim S512x512x128 ![0, 1, 2] bcast_S512x1x128_S512x512x128_0_1_2 : (⟨S512x1x128, .f32⟩ : BufTy).Contents (Elt F) → (⟨S512x512x128, .f32⟩ : BufTy).Contents (Elt F)) : HloOp τ sig (Elt F))) (mem_ops0c (List.getElem_mem (l := (ops0c : List (HloOp τ sig (Elt F)))) (n := 23) (by show (23 : ℕ) < 48; decide))) main_v24 rfl (readsBelow_unary _ _ _ _ _ (by decide))).trans
    (by first | (rw [unary_result]; done) | (rw [unary_result]; rfl))

theorem eq_main_v25 (V : Valuation τ sig (Elt F)) :
    (after ops V (Proc.devRef .tc main_v25) : (⟨S512x512x128, .f32⟩ : BufTy).Contents (Elt F)) = ((broadcastInDim S512x512x128 ![0, 1, 2] bcast_S1x512x128_S512x512x128_0_1_2 : (⟨S1x512x128, .f32⟩ : BufTy).Contents (Elt F) → (⟨S512x512x128, .f32⟩ : BufTy).Contents (Elt F))) (after ops V (Proc.devRef .tc main_v23) : (⟨S1x512x128, .f32⟩ : BufTy).Contents (Elt F)) :=
  (final_eq V (op := (unary main_v23 main_v25 (broadcastInDim S512x512x128 ![0, 1, 2] bcast_S1x512x128_S512x512x128_0_1_2 : (⟨S1x512x128, .f32⟩ : BufTy).Contents (Elt F) → (⟨S512x512x128, .f32⟩ : BufTy).Contents (Elt F)) : HloOp τ sig (Elt F))) (mem_ops0c (List.getElem_mem (l := (ops0c : List (HloOp τ sig (Elt F)))) (n := 24) (by show (24 : ℕ) < 48; decide))) main_v25 rfl (readsBelow_unary _ _ _ _ _ (by decide))).trans
    (by first | (rw [unary_result]; done) | (rw [unary_result]; rfl))

theorem eq_main_v26 (V : Valuation τ sig (Elt F)) :
    (after ops V (Proc.devRef .tc main_v26) : (⟨S512x512x128, .f32⟩ : BufTy).Contents (Elt F)) = ((subf : (⟨S512x512x128, .f32⟩ : BufTy).Contents (Elt F) → (⟨S512x512x128, .f32⟩ : BufTy).Contents (Elt F) → (⟨S512x512x128, .f32⟩ : BufTy).Contents (Elt F))) (after ops V (Proc.devRef .tc main_v24) : (⟨S512x512x128, .f32⟩ : BufTy).Contents (Elt F)) (after ops V (Proc.devRef .tc main_v25) : (⟨S512x512x128, .f32⟩ : BufTy).Contents (Elt F)) :=
  (final_eq V (op := (binary main_v24 main_v25 main_v26 (subf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops0c (List.getElem_mem (l := (ops0c : List (HloOp τ sig (Elt F)))) (n := 25) (by show (25 : ℕ) < 48; decide))) main_v26 rfl (readsBelow_binary _ _ _ _ _ _ _ (by decide) (by decide))).trans
    (by first | (rw [binary_result]; done) | (rw [binary_result]; rfl))

theorem eq_main_v27 (V : Valuation τ sig (Elt F)) :
    (after ops V (Proc.devRef .tc main_v27) : (⟨S512x512x128, .f32⟩ : BufTy).Contents (Elt F)) = ((mulf : (⟨S512x512x128, .f32⟩ : BufTy).Contents (Elt F) → (⟨S512x512x128, .f32⟩ : BufTy).Contents (Elt F) → (⟨S512x512x128, .f32⟩ : BufTy).Contents (Elt F))) (after ops V (Proc.devRef .tc main_v26) : (⟨S512x512x128, .f32⟩ : BufTy).Contents (Elt F)) (after ops V (Proc.devRef .tc main_v26) : (⟨S512x512x128, .f32⟩ : BufTy).Contents (Elt F)) :=
  (final_eq V (op := (binary main_v26 main_v26 main_v27 (mulf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops0c (List.getElem_mem (l := (ops0c : List (HloOp τ sig (Elt F)))) (n := 26) (by show (26 : ℕ) < 48; decide))) main_v27 rfl (readsBelow_binary _ _ _ _ _ _ _ (by decide) (by decide))).trans
    (by first | (rw [binary_result]; done) | (rw [binary_result]; rfl))

theorem eq_main_cst_9 (V : Valuation τ sig (Elt F)) :
    (after ops V (Proc.devRef .tc main_cst_9) : (⟨S_, .f32⟩ : BufTy).Contents (Elt F)) = ((constant S_ .f32 0x00000000#32) : (⟨S_, .f32⟩ : BufTy).Contents (Elt F)) :=
  (final_eq V (op := (nullary main_cst_9 (constant S_ .f32 0x00000000#32) : HloOp τ sig (Elt F))) (mem_ops0c (List.getElem_mem (l := (ops0c : List (HloOp τ sig (Elt F)))) (n := 27) (by show (27 : ℕ) < 48; decide))) main_cst_9 rfl (readsBelow_nullary _ _ _)).trans
    (by first | (rw [nullary_result]; done) | (rw [nullary_result]; rfl))

theorem eq_main_v28 (V : Valuation τ sig (Elt F)) :
    (after ops V (Proc.devRef .tc main_v28) : (⟨S512x512, .f32⟩ : BufTy).Contents (Elt F)) = (((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F))) (after ops V (Proc.devRef .tc main_v27) : (⟨S512x512x128, .f32⟩ : BufTy).Contents (Elt F)) (after ops V (Proc.devRef .tc main_cst_9) : (⟨S_, .f32⟩ : BufTy).Contents (Elt F)) :=
  (final_eq V (op := (binary main_v27 main_cst_9 main_v28 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)) : HloOp τ sig (Elt F))) (mem_ops0c (List.getElem_mem (l := (ops0c : List (HloOp τ sig (Elt F)))) (n := 28) (by show (28 : ℕ) < 48; decide))) main_v28 rfl (readsBelow_binary _ _ _ _ _ _ _ (by decide) (by decide))).trans
    (by first | (rw [binary_result]; done) | (rw [binary_result]; rfl))

theorem eq_main_cst_10 (V : Valuation τ sig (Elt F)) :
    (after ops V (Proc.devRef .tc main_cst_10) : (⟨S_, .f32⟩ : BufTy).Contents (Elt F)) = ((constant S_ .f32 0x2B8CBCCC#32) : (⟨S_, .f32⟩ : BufTy).Contents (Elt F)) :=
  (final_eq V (op := (nullary main_cst_10 (constant S_ .f32 0x2B8CBCCC#32) : HloOp τ sig (Elt F))) (mem_ops0c (List.getElem_mem (l := (ops0c : List (HloOp τ sig (Elt F)))) (n := 29) (by show (29 : ℕ) < 48; decide))) main_cst_10 rfl (readsBelow_nullary _ _ _)).trans
    (by first | (rw [nullary_result]; done) | (rw [nullary_result]; rfl))

theorem eq_main_v29 (V : Valuation τ sig (Elt F)) :
    (after ops V (Proc.devRef .tc main_v29) : (⟨S512x512, .f32⟩ : BufTy).Contents (Elt F)) = ((broadcastInDim S512x512 ![] bcast_S_S512x512 : (⟨S_, .f32⟩ : BufTy).Contents (Elt F) → (⟨S512x512, .f32⟩ : BufTy).Contents (Elt F))) (after ops V (Proc.devRef .tc main_cst_10) : (⟨S_, .f32⟩ : BufTy).Contents (Elt F)) :=
  (final_eq V (op := (unary main_cst_10 main_v29 (broadcastInDim S512x512 ![] bcast_S_S512x512 : (⟨S_, .f32⟩ : BufTy).Contents (Elt F) → (⟨S512x512, .f32⟩ : BufTy).Contents (Elt F)) : HloOp τ sig (Elt F))) (mem_ops0c (List.getElem_mem (l := (ops0c : List (HloOp τ sig (Elt F)))) (n := 30) (by show (30 : ℕ) < 48; decide))) main_v29 rfl (readsBelow_unary _ _ _ _ _ (by decide))).trans
    (by first | (rw [unary_result]; done) | (rw [unary_result]; rfl))

theorem eq_main_v30 (V : Valuation τ sig (Elt F)) :
    (after ops V (Proc.devRef .tc main_v30) : (⟨S512x512, .f32⟩ : BufTy).Contents (Elt F)) = ((maximumf : (⟨S512x512, .f32⟩ : BufTy).Contents (Elt F) → (⟨S512x512, .f32⟩ : BufTy).Contents (Elt F) → (⟨S512x512, .f32⟩ : BufTy).Contents (Elt F))) (after ops V (Proc.devRef .tc main_v28) : (⟨S512x512, .f32⟩ : BufTy).Contents (Elt F)) (after ops V (Proc.devRef .tc main_v29) : (⟨S512x512, .f32⟩ : BufTy).Contents (Elt F)) :=
  (final_eq V (op := (binary main_v28 main_v29 main_v30 (maximumf : (⟨S512x512, .f32⟩ : BufTy).Contents (Elt F) → (⟨S512x512, .f32⟩ : BufTy).Contents (Elt F) → (⟨S512x512, .f32⟩ : BufTy).Contents (Elt F)) : HloOp τ sig (Elt F))) (mem_ops0c (List.getElem_mem (l := (ops0c : List (HloOp τ sig (Elt F)))) (n := 31) (by show (31 : ℕ) < 48; decide))) main_v30 rfl (readsBelow_binary _ _ _ _ _ _ _ (by decide) (by decide))).trans
    (by first | (rw [binary_result]; done) | (rw [binary_result]; rfl))

theorem eq_main_v31 (V : Valuation τ sig (Elt F)) :
    (after ops V (Proc.devRef .tc main_v31) : (⟨S512x512, .f32⟩ : BufTy).Contents (Elt F)) = ((Host.sqrt : (⟨S512x512, .f32⟩ : BufTy).Contents (Elt F) → (⟨S512x512, .f32⟩ : BufTy).Contents (Elt F))) (after ops V (Proc.devRef .tc main_v30) : (⟨S512x512, .f32⟩ : BufTy).Contents (Elt F)) :=
  (final_eq V (op := (unary main_v30 main_v31 (Host.sqrt : (⟨S512x512, .f32⟩ : BufTy).Contents (Elt F) → (⟨S512x512, .f32⟩ : BufTy).Contents (Elt F)) : HloOp τ sig (Elt F))) (mem_ops0c (List.getElem_mem (l := (ops0c : List (HloOp τ sig (Elt F)))) (n := 32) (by show (32 : ℕ) < 48; decide))) main_v31 rfl (readsBelow_unary _ _ _ _ _ (by decide))).trans
    (by first | (rw [unary_result]; done) | (rw [unary_result]; rfl))

theorem eq_main_c_11 (V : Valuation τ sig (Elt F)) :
    (after ops V (Proc.devRef .tc main_c_11) : (⟨S_, .i32⟩ : BufTy).Contents (Elt F)) = ((constantI S_ 32 0#32) : (⟨S_, .i32⟩ : BufTy).Contents (Elt F)) :=
  (final_eq V (op := (nullary main_c_11 (constantI S_ 32 0#32) : HloOp τ sig (Elt F))) (mem_ops0c (List.getElem_mem (l := (ops0c : List (HloOp τ sig (Elt F)))) (n := 33) (by show (33 : ℕ) < 48; decide))) main_c_11 rfl (readsBelow_nullary _ _ _)).trans
    (by first | (rw [nullary_result]; done) | (rw [nullary_result]; rfl))

theorem eq_main_v32 (V : Valuation τ sig (Elt F)) :
    (after ops V (Proc.devRef .tc main_v32) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_11) : (⟨S_, .i32⟩ : BufTy).Contents (Elt F)) :=
  (final_eq V (op := (unary main_c_11 main_v32 (broadcastInDim S130816 ![] bcast_S_S130816 : (⟨S_, .i32⟩ : BufTy).Contents (Elt F) → (⟨S130816, .i32⟩ : BufTy).Contents (Elt F)) : HloOp τ sig (Elt F))) (mem_ops0c (List.getElem_mem (l := (ops0c : List (HloOp τ sig (Elt F)))) (n := 34) (by show (34 : ℕ) < 48; decide))) main_v32 rfl (readsBelow_unary _ _ _ _ _ (by decide))).trans
    (by first | (rw [unary_result]; done) | (rw [unary_result]; rfl))

theorem eq_main_v33 (V : Valuation τ sig (Elt F)) :
    (after ops V (Proc.devRef .tc main_v33) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v32) : (⟨S130816, .i32⟩ : BufTy).Contents (Elt F)) :=
  (final_eq V (op := (binary main_v17 main_v32 main_v33 (addi : (⟨S130816, .i32⟩ : BufTy).Contents (Elt F) → (⟨S130816, .i32⟩ : BufTy).Contents (Elt F) → (⟨S130816, .i32⟩ : BufTy).Contents (Elt F)) : HloOp τ sig (Elt F))) (mem_ops0c (List.getElem_mem (l := (ops0c : List (HloOp τ sig (Elt F)))) (n := 35) (by show (35 : ℕ) < 48; decide))) main_v33 rfl (readsBelow_binary _ _ _ _ _ _ _ (by decide) (by decide))).trans
    (by first | (rw [binary_result]; done) | (rw [binary_result]; rfl))

theorem eq_main_c_12 (V : Valuation τ sig (Elt F)) :
    (after ops V (Proc.devRef .tc main_c_12) : (⟨S_, .i32⟩ : BufTy).Contents (Elt F)) = ((constantI S_ 32 0#32) : (⟨S_, .i32⟩ : BufTy).Contents (Elt F)) :=
  (final_eq V (op := (nullary main_c_12 (constantI S_ 32 0#32) : HloOp τ sig (Elt F))) (mem_ops0c (List.getElem_mem (l := (ops0c : List (HloOp τ sig (Elt F)))) (n := 36) (by show (36 : ℕ) < 48; decide))) main_c_12 rfl (readsBelow_nullary _ _ _)).trans
    (by first | (rw [nullary_result]; done) | (rw [nullary_result]; rfl))

theorem eq_main_v34 (V : Valuation τ sig (Elt F)) :
    (after ops V (Proc.devRef .tc main_v34) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_12) : (⟨S_, .i32⟩ : BufTy).Contents (Elt F)) :=
  (final_eq V (op := (unary main_c_12 main_v34 (broadcastInDim S130816 ![] bcast_S_S130816 : (⟨S_, .i32⟩ : BufTy).Contents (Elt F) → (⟨S130816, .i32⟩ : BufTy).Contents (Elt F)) : HloOp τ sig (Elt F))) (mem_ops0c (List.getElem_mem (l := (ops0c : List (HloOp τ sig (Elt F)))) (n := 37) (by show (37 : ℕ) < 48; decide))) main_v34 rfl (readsBelow_unary _ _ _ _ _ (by decide))).trans
    (by first | (rw [unary_result]; done) | (rw [unary_result]; rfl))

theorem eq_main_v35 (V : Valuation τ sig (Elt F)) :
    (after ops V (Proc.devRef .tc main_v35) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v34) : (⟨S130816, .i32⟩ : BufTy).Contents (Elt F)) :=
  (final_eq V (op := (binary main_v19 main_v34 main_v35 (addi : (⟨S130816, .i32⟩ : BufTy).Contents (Elt F) → (⟨S130816, .i32⟩ : BufTy).Contents (Elt F) → (⟨S130816, .i32⟩ : BufTy).Contents (Elt F)) : HloOp τ sig (Elt F))) (mem_ops0c (List.getElem_mem (l := (ops0c : List (HloOp τ sig (Elt F)))) (n := 38) (by show (38 : ℕ) < 48; decide))) main_v35 rfl (readsBelow_binary _ _ _ _ _ _ _ (by decide) (by decide))).trans
    (by first | (rw [binary_result]; done) | (rw [binary_result]; rfl))

theorem eq_main_c_13 (V : Valuation τ sig (Elt F)) :
    (after ops V (Proc.devRef .tc main_c_13) : (⟨S_, .i32⟩ : BufTy).Contents (Elt F)) = ((constantI S_ 32 0#32) : (⟨S_, .i32⟩ : BufTy).Contents (Elt F)) :=
  (final_eq V (op := (nullary main_c_13 (constantI S_ 32 0#32) : HloOp τ sig (Elt F))) (mem_ops0c (List.getElem_mem (l := (ops0c : List (HloOp τ sig (Elt F)))) (n := 39) (by show (39 : ℕ) < 48; decide))) main_c_13 rfl (readsBelow_nullary _ _ _)).trans
    (by first | (rw [nullary_result]; done) | (rw [nullary_result]; rfl))

theorem eq_main_v36 (V : Valuation τ sig (Elt F)) :
    (after ops V (Proc.devRef .tc main_v36) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_13) : (⟨S_, .i32⟩ : BufTy).Contents (Elt F)) :=
  (final_eq V (op := (unary main_c_13 main_v36 (broadcastInDim S130816 ![] bcast_S_S130816 : (⟨S_, .i32⟩ : BufTy).Contents (Elt F) → (⟨S130816, .i32⟩ : BufTy).Contents (Elt F)) : HloOp τ sig (Elt F))) (mem_ops0c (List.getElem_mem (l := (ops0c : List (HloOp τ sig (Elt F)))) (n := 40) (by show (40 : ℕ) < 48; decide))) main_v36 rfl (readsBelow_unary _ _ _ _ _ (by decide))).trans
    (by first | (rw [unary_result]; done) | (rw [unary_result]; rfl))

theorem eq_main_v37 (V : Valuation τ sig (Elt F)) :
    (after ops V (Proc.devRef .tc main_v37) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v17) : (⟨S130816, .i32⟩ : BufTy).Contents (Elt F)) (after ops V (Proc.devRef .tc main_v36) : (⟨S130816, .i32⟩ : BufTy).Contents (Elt F)) :=
  (final_eq V (op := (binary main_v17 main_v36 main_v37 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops0c (List.getElem_mem (l := (ops0c : List (HloOp τ sig (Elt F)))) (n := 41) (by show (41 : ℕ) < 48; decide))) main_v37 rfl (readsBelow_binary _ _ _ _ _ _ _ (by decide) (by decide))).trans
    (by first | (rw [binary_result]; done) | (rw [binary_result]; rfl))

theorem eq_main_c_14 (V : Valuation τ sig (Elt F)) :
    (after ops V (Proc.devRef .tc main_c_14) : (⟨S_, .i32⟩ : BufTy).Contents (Elt F)) = ((constantI S_ 32 512#32) : (⟨S_, .i32⟩ : BufTy).Contents (Elt F)) :=
  (final_eq V (op := (nullary main_c_14 (constantI S_ 32 512#32) : HloOp τ sig (Elt F))) (mem_ops0c (List.getElem_mem (l := (ops0c : List (HloOp τ sig (Elt F)))) (n := 42) (by show (42 : ℕ) < 48; decide))) main_c_14 rfl (readsBelow_nullary _ _ _)).trans
    (by first | (rw [nullary_result]; done) | (rw [nullary_result]; rfl))

theorem eq_main_v38 (V : Valuation τ sig (Elt F)) :
    (after ops V (Proc.devRef .tc main_v38) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_14) : (⟨S_, .i32⟩ : BufTy).Contents (Elt F)) :=
  (final_eq V (op := (unary main_c_14 main_v38 (broadcastInDim S130816 ![] bcast_S_S130816 : (⟨S_, .i32⟩ : BufTy).Contents (Elt F) → (⟨S130816, .i32⟩ : BufTy).Contents (Elt F)) : HloOp τ sig (Elt F))) (mem_ops0c (List.getElem_mem (l := (ops0c : List (HloOp τ sig (Elt F)))) (n := 43) (by show (43 : ℕ) < 48; decide))) main_v38 rfl (readsBelow_unary _ _ _ _ _ (by decide))).trans
    (by first | (rw [unary_result]; done) | (rw [unary_result]; rfl))

theorem eq_main_v39 (V : Valuation τ sig (Elt F)) :
    (after ops V (Proc.devRef .tc main_v39) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v38) : (⟨S130816, .i32⟩ : BufTy).Contents (Elt F)) :=
  (final_eq V (op := (binary main_v17 main_v38 main_v39 (addi : (⟨S130816, .i32⟩ : BufTy).Contents (Elt F) → (⟨S130816, .i32⟩ : BufTy).Contents (Elt F) → (⟨S130816, .i32⟩ : BufTy).Contents (Elt F)) : HloOp τ sig (Elt F))) (mem_ops0c (List.getElem_mem (l := (ops0c : List (HloOp τ sig (Elt F)))) (n := 44) (by show (44 : ℕ) < 48; decide))) main_v39 rfl (readsBelow_binary _ _ _ _ _ _ _ (by decide) (by decide))).trans
    (by first | (rw [binary_result]; done) | (rw [binary_result]; rfl))

theorem eq_main_v40 (V : Valuation τ sig (Elt F)) :
    (after ops V (Proc.devRef .tc main_v40) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v37) : (⟨S130816, .i1⟩ : BufTy).Contents (Elt F)) (after ops V (Proc.devRef .tc main_v39) : (⟨S130816, .i32⟩ : BufTy).Contents (Elt F)) (after ops V (Proc.devRef .tc main_v17) : (⟨S130816, .i32⟩ : BufTy).Contents (Elt F)) :=
  (final_eq V (op := (ternary main_v37 main_v39 main_v17 main_v40 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops0c (List.getElem_mem (l := (ops0c : List (HloOp τ sig (Elt F)))) (n := 45) (by show (45 : ℕ) < 48; decide))) main_v40 rfl (readsBelow_ternary _ _ _ _ _ _ _ _ _ (by decide) (by decide) (by decide))).trans
    (by first | (rw [ternary_result]; done) | (rw [ternary_result]; rfl))

theorem eq_main_c_15 (V : Valuation τ sig (Elt F)) :
    (after ops V (Proc.devRef .tc main_c_15) : (⟨S_, .i32⟩ : BufTy).Contents (Elt F)) = ((constantI S_ 32 0#32) : (⟨S_, .i32⟩ : BufTy).Contents (Elt F)) :=
  (final_eq V (op := (nullary main_c_15 (constantI S_ 32 0#32) : HloOp τ sig (Elt F))) (mem_ops0c (List.getElem_mem (l := (ops0c : List (HloOp τ sig (Elt F)))) (n := 46) (by show (46 : ℕ) < 48; decide))) main_c_15 rfl (readsBelow_nullary _ _ _)).trans
    (by first | (rw [nullary_result]; done) | (rw [nullary_result]; rfl))

theorem eq_main_v41 (V : Valuation τ sig (Elt F)) :
    (after ops V (Proc.devRef .tc main_v41) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_15) : (⟨S_, .i32⟩ : BufTy).Contents (Elt F)) :=
  (final_eq V (op := (unary main_c_15 main_v41 (broadcastInDim S130816 ![] bcast_S_S130816 : (⟨S_, .i32⟩ : BufTy).Contents (Elt F) → (⟨S130816, .i32⟩ : BufTy).Contents (Elt F)) : HloOp τ sig (Elt F))) (mem_ops0c (List.getElem_mem (l := (ops0c : List (HloOp τ sig (Elt F)))) (n := 47) (by show (47 : ℕ) < 48; decide))) main_v41 rfl (readsBelow_unary _ _ _ _ _ (by decide))).trans
    (by first | (rw [unary_result]; done) | (rw [unary_result]; rfl))

end Cert.ReferenceIdeal.Line

end
-- ==== Proof.RefEq0.lean ====
/- The equations of window 0's operations at the end of the reference program, in three parts. -/
import proofs.«120006_g55027120997065_cont_sun_c4_852_12_alg».proof.Proof.RefEq0a
import proofs.«120006_g55027120997065_cont_sun_c4_852_12_alg».proof.Proof.RefEq0b
import proofs.«120006_g55027120997065_cont_sun_c4_852_12_alg».proof.Proof.RefEq0c
-- ==== Proof.LibCumsum.lean ====
/- A running sum on the host, read at a position.

   A cumulative sum of an integer vector of length N prints as a windowed reduction: window N, stride 1, N − 1 positions
   of padding below and none above, the body an integer addition, the initial value zero. Result position j folds the N
   window positions n = 0 … N − 1; window position n looks at padded position j + n, which is operand position
   j + n − (N − 1) when that is not negative and padding (the initial value, zero) otherwise. So the fold adds exactly the
   operand's entries at positions 0 … j, each once: the running sum.

   General in the length N and the integer width. -/
import Idealize.ShloMosaic.PureOps.Contract
import Idealize.ShloMosaic.Lib.ValueIdx
import Mathlib.Algebra.BigOperators.Fin
import Mathlib.Data.BitVec
import Mathlib.Algebra.BigOperators.Intervals

noncomputable section

namespace Idealize.ShloMosaic

open ValueIdx

/-- A left fold of additions over a list is the start plus the sum of the terms. -/
theorem foldl_add_eq_add_sum {M ι : Type} [AddCommMonoid M] (g : ι → M) (l : List ι) (a : M) :
    l.foldl (fun r n => r + g n) a = a + (l.map g).sum := by
  induction l generalizing a with
  | nil => simp
  | cons n l ih => simp only [List.foldl_cons, ih, List.map_cons, List.sum_cons, add_assoc]

/-- Over all of Fin N in order, that is the sum over Fin N. -/
theorem foldl_add_finRange {M : Type} [AddCommMonoid M] {N : ℕ} (g : Fin N → M) :
    (List.finRange N).foldl (fun r n => r + g n) 0 = ∑ n : Fin N, g n := by
  rw [foldl_add_eq_add_sum, zero_add, ← List.ofFn_eq_map, List.sum_ofFn]

/-- The window terms of a running sum, summed: position n of the window contributes the operand at j + n − (N − 1)
    when j + n reaches N − 1, and nothing otherwise; together, the operand at 0 … j. -/
theorem sum_window_eq_sum_le {M : Type} [AddCommMonoid M] {N K : ℕ} (hK : K + 1 = N) (f : ℕ → M) (j : ℕ) (hj : j < N) :
    (∑ n : Fin N, if K ≤ j + n.val then f (j + n.val - (K)) else 0) = ∑ q ∈ Finset.range (j + 1), f q := by
  rw [Fin.sum_univ_eq_sum_range (fun n => if K ≤ j + n then f (j + n - (K)) else 0) N]
  rw [← Finset.sum_filter]
  refine Finset.sum_bij' (fun n _ => j + n - (K)) (fun q _ => q + (K) - j) ?_ ?_ ?_ ?_ ?_
  · intro n hn; simp only [Finset.mem_filter, Finset.mem_range] at hn ⊢; omega
  · intro q hq; simp only [Finset.mem_filter, Finset.mem_range] at hq ⊢; omega
  · intro n hn; simp only [Finset.mem_filter, Finset.mem_range] at hn; omega
  · intro q hq; simp only [Finset.mem_range] at hq; omega
  · intro n _; rfl

/-- In a rank-one shape the row-major position of an index is its coordinate; read backwards. -/
theorem rowMajor_symm_one_val {N : ℕ} (n : Fin (⟨1, ![N]⟩ : Shape).numel) (a : Fin 1) :
    (((⟨1, ![N]⟩ : Shape).rowMajor.symm n) a).val = n.val := by
  have h := Shape.rowMajor_val_one (d := ![N]) ((⟨1, ![N]⟩ : Shape).rowMajor.symm n)
  rw [Equiv.apply_symm_apply] at h
  have ha : a = 0 := Subsingleton.elim _ _
  subst ha
  exact h.symm

/-- A rank-one shape of extent N has N elements. -/
theorem numel_one (N : ℕ) : (⟨1, ![N]⟩ : Shape).numel = N := by
  simp [Shape.numel]

/-- The operand read at a natural position, zero past the end. -/
def atNat {w N : ℕ} (x : (⟨1, ![N]⟩ : Shape).Idx → BitVec w) (q : ℕ) : BitVec w :=
  if hq : q < N then x (ix1 ⟨q, hq⟩) else 0

/-- **The running sum at position j is the sum of the operand over positions 0 … j.** The printed form of a cumulative
    sum along the one axis of a length-N integer vector: a windowed addition with window N, stride 1, low padding N − 1,
    from the initial value zero. -/
theorem reduceWindow_cumsum_apply {w N K : ℕ} (hK : K + 1 = N) (x : (⟨1, ![N]⟩ : Shape).Idx → BitVec w)
    (init : (⟨0, ![]⟩ : Shape).Idx → BitVec w) (h0 : ∀ i, init i = 0)
    (h : (⟨1, ![N]⟩ : Shape).ReduceWindows (![N] : Fin 1 → ℕ) ![1] ![K] ![0] ⟨1, ![N]⟩)
    (hu : 0 < (⟨0, ![]⟩ : Shape).numel) (j : Fin N) :
    Host.reduceWindow (s := ⟨1, ![N]⟩) (t := ⟨1, ![N]⟩) (u := ⟨0, ![]⟩) IntOp.addi (![N] : Fin 1 → ℕ) ![1] ![K] ![0] x init h hu
        (ix1 j)
      = ∑ q ∈ Finset.range (j.val + 1), atNat x q := by
  unfold Host.reduceWindow
  simp only [h0]
  have hterm : ∀ n : Fin (⟨1, ![N]⟩ : Shape).numel,
      (if hin : ∀ a : Fin 1, (![K] : Fin 1 → ℕ) a ≤ ((ix1 j : (⟨1, ![N]⟩ : Shape).Idx) (a.cast h.1.symm)).val * (![1] : Fin 1 → ℕ) a
                + (((⟨1, ![N]⟩ : Shape).rowMajor.symm n) a).val
              ∧ ((ix1 j : (⟨1, ![N]⟩ : Shape).Idx) (a.cast h.1.symm)).val * (![1] : Fin 1 → ℕ) a
                + (((⟨1, ![N]⟩ : Shape).rowMajor.symm n) a).val - (![K] : Fin 1 → ℕ) a < (⟨1, ![N]⟩ : Shape).size a
        then x (fun a => ⟨((ix1 j : (⟨1, ![N]⟩ : Shape).Idx) (a.cast h.1.symm)).val * (![1] : Fin 1 → ℕ) a
                + (((⟨1, ![N]⟩ : Shape).rowMajor.symm n) a).val - (![K] : Fin 1 → ℕ) a, (hin a).2⟩)
        else (0 : BitVec w))
      = if K ≤ j.val + n.val then atNat x (j.val + n.val - (K)) else 0 := by
    intro n
    have hp : ∀ a : Fin 1, ((ix1 j : (⟨1, ![N]⟩ : Shape).Idx) (a.cast h.1.symm)).val * (![1] : Fin 1 → ℕ) a
        + (((⟨1, ![N]⟩ : Shape).rowMajor.symm n) a).val = j.val + n.val := by
      intro a
      have ha : a = 0 := Subsingleton.elim _ _
      subst ha
      rw [rowMajor_symm_one_val]
      show j.val * 1 + n.val = _
      omega
    have hlo : ∀ a : Fin 1, (![K] : Fin 1 → ℕ) a = K := fun a => by
      have ha : a = 0 := Subsingleton.elim _ _
      subst ha; rfl
    have hsz : ∀ a : Fin 1, (⟨1, ![N]⟩ : Shape).size a = N := fun a => by
      have ha : a = 0 := Subsingleton.elim _ _
      subst ha; rfl
    have hnN : n.val < N := lt_of_lt_of_eq n.isLt (numel_one N)
    by_cases hc : K ≤ j.val + n.val
    · have hin : ∀ a : Fin 1, (![K] : Fin 1 → ℕ) a ≤ ((ix1 j : (⟨1, ![N]⟩ : Shape).Idx) (a.cast h.1.symm)).val * (![1] : Fin 1 → ℕ) a
                + (((⟨1, ![N]⟩ : Shape).rowMajor.symm n) a).val
              ∧ ((ix1 j : (⟨1, ![N]⟩ : Shape).Idx) (a.cast h.1.symm)).val * (![1] : Fin 1 → ℕ) a
                + (((⟨1, ![N]⟩ : Shape).rowMajor.symm n) a).val - (![K] : Fin 1 → ℕ) a < (⟨1, ![N]⟩ : Shape).size a := by
        intro a; rw [hp a, hlo a, hsz a]; have := j.isLt; omega
      rw [dif_pos hin, if_pos hc]
      unfold atNat
      have hq : j.val + n.val - (K) < N := by have := j.isLt; omega
      rw [dif_pos hq]
      congr 1
      funext a
      have ha : a = 0 := Subsingleton.elim _ _
      subst ha
      apply Fin.ext
      show ((ix1 j : (⟨1, ![N]⟩ : Shape).Idx) ((0 : Fin 1).cast h.1.symm)).val * (![1] : Fin 1 → ℕ) 0
          + (((⟨1, ![N]⟩ : Shape).rowMajor.symm n) 0).val - (![K] : Fin 1 → ℕ) 0 = j.val + n.val - (K)
      rw [hp 0, hlo 0]
    · rw [if_neg hc, dif_neg]
      intro hin
      have := (hin 0).1
      rw [hp 0, hlo 0] at this
      exact hc this
  simp only [hterm]
  have hadd : ∀ (r y : BitVec w), IntOp.addi r y = r + y := fun _ _ => rfl
  simp only [hadd]
  rw [foldl_add_finRange (M := BitVec w)
    (fun n : Fin (⟨1, ![N]⟩ : Shape).numel => if K ≤ j.val + n.val then atNat x (j.val + n.val - (K)) else 0)]
  have key := sum_window_eq_sum_le (M := BitVec w) (N := N) hK (atNat x) j.val j.isLt
  rw [← key]
  exact Fin.sum_congr' (fun n : Fin N => if K ≤ j.val + n.val then atNat x (j.val + n.val - (K)) else 0) (numel_one N)

end Idealize.ShloMosaic

end
-- ==== Proof.LibSegRows.lean ====
/-
  A row scatter-add, a flat scatter-add and a row gather, read at an index.

  All three take a column of `E` start indices (an `[E, 1]` array of machine integers, read signed).
  * The row scatter-add of an `[E, C]` array of updates into an `[N, C]` array adds row `e` of the updates to row
    `idx e` of the operand; a row whose index is the number of no row of the operand is dropped.  Read at `(r, c)`, the
    result is the operand's entry plus the sum of the updates' entries `(e, c)` over the `e` with `idx e = r`.
  * The flat scatter-add is the same with no column axis: `[E]` updates into an `[N]` array.
  * The row gather of an `[N, C]` array makes the `[E, C]` array whose row `e` is row `idx e` of the operand, the index
    clamped into `[0, N - 1]`.
-/
import Idealize.ShloMosaic.Lib.ValueIdx
import Idealize.ShloMosaic.PureOps.Ideal

noncomputable section

namespace Cert.LibSegRows

open Idealize.ShloMosaic Idealize.ShloMosaic.ValueIdx

/-- The dimension numbers of a row scatter: the updates' axis 1 is the window, the operand's axis 0 is indexed. -/
abbrev rowScatter (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: no window, the operand's one axis is indexed. -/
abbrev flatScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row gather: whole rows (slices `[1, C]`) at the start indices. -/
abbrev rowGather (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Where an update of a row scatter lands: the update `(e, b)` goes to `(r, c)` exactly when the start index of row `e`, read
    signed, is `r` and the column is the same.  On axis 0 the landing coordinate is the start index (the window
    coordinate there is 0), on axis 1 it is the update's column (the start there is 0); a start index outside
    `[0, N)` lands nowhere. -/
theorem rowScatter_resultIdx?_eq {N C E w : ℕ} (wf : ScatterDims.WF ⟨2, ![N, C]⟩ ⟨2, ![E, 1]⟩ ⟨2, ![E, C]⟩ [1] [0] [0] 1)
    (idx : IVec ⟨2, ![E, 1]⟩ w) (e : Fin E) (b : Fin C) (r : Fin N) (c : Fin C) :
    (rowScatter N C E wf).resultIdx? (ix2 e b) idx = some (ix2 r c)
      ↔ (idx (ix2 e (0 : Fin 1))).toInt = (r.val : ℤ) ∧ b = c := by
  have hs0 : (rowScatter N C E wf).start (ix2 e b) idx 0 = (idx (ix2 e (0 : Fin 1))).toInt := by
    unfold ScatterDims.start
    rw [dif_pos (show (0 : Fin 2) ∈ (rowScatter N C E wf).scatterDimsToOperandDims from List.mem_singleton.mpr rfl)]
    have hsi : (rowScatter N C E wf).siIdx (ix2 e b) ⟨List.idxOf (0 : Fin 2) (rowScatter N C E wf).scatterDimsToOperandDims,
        List.idxOf_lt_length_iff.2 (List.mem_singleton.mpr rfl)⟩ = ix2 e (0 : Fin 1) := by
      funext a; refine Fin.ext ?_
      match a with
      | ⟨0, _⟩ => rfl
      | ⟨1, _⟩ => rfl
    rw [hsi]
  have hw0 : (rowScatter N C E wf).window (ix2 e b) 0 = 0 := by
    unfold ScatterDims.window
    rw [dif_neg (show (0 : Fin 2) ∉ (rowScatter N C E wf).sKept from
      (by decide : (0 : Fin 2) ∉ (List.finRange 2).filter (· ∉ ([0] : List (Fin 2)))))]
  have hs1 : (rowScatter N C E wf).start (ix2 e b) idx 1 = 0 := by
    unfold ScatterDims.start
    rw [dif_neg (show (1 : Fin 2) ∉ (rowScatter N C E wf).scatterDimsToOperandDims from
      (by decide : (1 : Fin 2) ∉ ([0] : List (Fin 2))))]
  have hw1 : (rowScatter N C E wf).window (ix2 e b) 1 = b.val := by
    unfold ScatterDims.window
    rw [dif_pos (show (1 : Fin 2) ∈ (rowScatter N C E wf).sKept from
      (by decide : (1 : Fin 2) ∈ (List.finRange 2).filter (· ∉ ([0] : List (Fin 2)))))]
    rfl
  unfold ScatterDims.resultIdx?
  split
  · rename_i h
    have h0 := h 0
    have h1 := h 1
    rw [hs0, hw0] at h0
    rw [hs1, hw1] at h1
    rw [Option.some.injEq]
    constructor
    · intro hf
      have e0 := congrArg Fin.val (congrFun hf 0)
      have e1 := congrArg Fin.val (congrFun hf 1)
      change ((rowScatter N C E wf).start (ix2 e b) idx 0 + (rowScatter N C E wf).window (ix2 e b) 0).toNat = r.val at e0
      change ((rowScatter N C E wf).start (ix2 e b) idx 1 + (rowScatter N C E wf).window (ix2 e b) 1).toNat = c.val at e1
      rw [hs0, hw0] at e0
      rw [hs1, hw1] at e1
      exact ⟨by omega, Fin.ext (by omega)⟩
    · rintro ⟨hr, rfl⟩
      funext a
      refine Fin.ext ?_
      match a with
      | ⟨0, _⟩ =>
        show ((rowScatter N C E wf).start (ix2 e b) idx 0 + (rowScatter N C E wf).window (ix2 e b) 0).toNat = r.val
        rw [hs0, hw0]; omega
      | ⟨1, _⟩ =>
        show ((rowScatter N C E wf).start (ix2 e b) idx 1 + (rowScatter N C E wf).window (ix2 e b) 1).toNat = b.val
        rw [hs1, hw1]; omega
  · rename_i h
    constructor
    · intro hf; exact absurd hf (by simp)
    · rintro ⟨hr, rfl⟩
      refine absurd (fun a => ?_) h
      match a with
      | ⟨0, _⟩ =>
        show 0 ≤ (rowScatter N C E wf).start (ix2 e b) idx 0 + (rowScatter N C E wf).window (ix2 e b) 0
          ∧ (rowScatter N C E wf).start (ix2 e b) idx 0 + (rowScatter N C E wf).window (ix2 e b) 0 < (N : ℤ)
        rw [hs0, hw0]; have := r.isLt; omega
      | ⟨1, _⟩ =>
        show 0 ≤ (rowScatter N C E wf).start (ix2 e b) idx 1 + (rowScatter N C E wf).window (ix2 e b) 1
          ∧ (rowScatter N C E wf).start (ix2 e b) idx 1 + (rowScatter N C E wf).window (ix2 e b) 1 < (C : ℤ)
        rw [hs1, hw1]; have := b.isLt; omega

/-- THE ROW SCATTER-ADD READ AT `(r, c)`: the operand there plus the updates `(e, c)` of the rows `e` sent to `r`. -/
theorem rowScatterAdd_apply {N C E w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (c : Fin C) :
    Ideal.hostScatterAdd (rowScatter N C E wf) x idx upd (ix2 r c)
      = x (ix2 r c) + ∑ e : Fin E, if (idx (ix2 e (0 : Fin 1))).toInt = (r.val : ℤ) then upd (ix2 e c) else 0 := by
  unfold Ideal.hostScatterAdd
  congr 1
  rw [Finset.sum_filter, sum_idx2]
  refine Finset.sum_congr rfl fun e _ => ?_
  simp only [rowScatter_resultIdx?_eq]
  by_cases hP : (idx (ix2 e (0 : Fin 1))).toInt = (r.val : ℤ)
  · simp [hP]
  · simp [hP]

/-- A rank-1 index set is in bijection with its one coordinate range: an index goes to its coordinate. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- Where an update of a flat scatter lands: the update `e` goes to `r` exactly when its start index, read signed, is
    `r` (the landing coordinate is the start index, the window coordinate being 0); a start index outside `[0, N)`
    lands nowhere. -/
theorem flatScatter_resultIdx?_eq {N E w : ℕ} (wf : ScatterDims.WF ⟨1, ![N]⟩ ⟨2, ![E, 1]⟩ ⟨1, ![E]⟩ [] [0] [0] 1)
    (idx : IVec ⟨2, ![E, 1]⟩ w) (e : Fin E) (r : Fin N) :
    (flatScatter N E wf).resultIdx? (ix1 e) idx = some (ix1 r) ↔ (idx (ix2 e (0 : Fin 1))).toInt = (r.val : ℤ) := by
  have hs0 : (flatScatter N E wf).start (ix1 e) idx 0 = (idx (ix2 e (0 : Fin 1))).toInt := by
    unfold ScatterDims.start
    rw [dif_pos (show (0 : Fin 1) ∈ (flatScatter N E wf).scatterDimsToOperandDims from List.mem_singleton.mpr rfl)]
    have hsi : (flatScatter N E wf).siIdx (ix1 e) ⟨List.idxOf (0 : Fin 1) (flatScatter N E wf).scatterDimsToOperandDims,
        List.idxOf_lt_length_iff.2 (List.mem_singleton.mpr rfl)⟩ = ix2 e (0 : Fin 1) := by
      funext a; refine Fin.ext ?_
      match a with
      | ⟨0, _⟩ => rfl
      | ⟨1, _⟩ => rfl
    rw [hsi]
  have hw0 : (flatScatter N E wf).window (ix1 e) 0 = 0 := by
    unfold ScatterDims.window
    rw [dif_neg (show (0 : Fin 1) ∉ (flatScatter N E wf).sKept from
      (by decide : (0 : Fin 1) ∉ (List.finRange 1).filter (· ∉ ([0] : List (Fin 1)))))]
  unfold ScatterDims.resultIdx?
  split
  · rename_i h
    have h0 := h 0
    rw [hs0, hw0] at h0
    rw [Option.some.injEq]
    constructor
    · intro hf
      have e0 := congrArg Fin.val (congrFun hf 0)
      change ((flatScatter N E wf).start (ix1 e) idx 0 + (flatScatter N E wf).window (ix1 e) 0).toNat = r.val at e0
      rw [hs0, hw0] at e0
      omega
    · intro hr
      funext a
      refine Fin.ext ?_
      match a with
      | ⟨0, _⟩ =>
        show ((flatScatter N E wf).start (ix1 e) idx 0 + (flatScatter N E wf).window (ix1 e) 0).toNat = r.val
        rw [hs0, hw0]; omega
  · rename_i h
    constructor
    · intro hf; exact absurd hf (by simp)
    · intro hr
      refine absurd (fun a => ?_) h
      match a with
      | ⟨0, _⟩ =>
        show 0 ≤ (flatScatter N E wf).start (ix1 e) idx 0 + (flatScatter N E wf).window (ix1 e) 0
          ∧ (flatScatter N E wf).start (ix1 e) idx 0 + (flatScatter N E wf).window (ix1 e) 0 < (N : ℤ)
        rw [hs0, hw0]; have := r.isLt; omega

/-- THE FLAT SCATTER-ADD READ AT `r`: the operand there plus the updates `e` sent to `r`. -/
theorem flatScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (r : Fin N) :
    Ideal.hostScatterAdd (flatScatter N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [flatScatter_resultIdx?_eq]

/-- The row a start index names: read signed, clamped into `[0, N - 1]`. -/
def clampRow {N E w : ℕ} (hN : 0 < N) (idx : IVec ⟨2, ![E, 1]⟩ w) (e : Fin E) : Fin N :=
  ⟨min (idx (ix2 e (0 : Fin 1))).toInt.toNat (N - 1), by omega⟩

/-- THE ROW GATHER READ AT `(e, c)`: the operand at the clamped row, same column. -/
theorem rowGather_apply {α : Type} {N C E w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N C E wf) x idx (ix2 e c) = x (ix2 (clampRow hN idx e) c) := by
  unfold Host.gather
  congr 1
  funext a
  match a with
  | ⟨0, _⟩ =>
    refine Fin.ext ?_
    show (rowGather N C E wf).start (ix2 e c) idx 0 + (rowGather N C E wf).batchCoord (ix2 e c) 0
      + (rowGather N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e c) ⟨List.idxOf (0 : Fin 2) (rowGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C E wf).start (ix2 e c) idx 1 + (rowGather N C E wf).batchCoord (ix2 e c) 1
      + (rowGather N C E wf).offCoord (ix2 e c) 1 = c.val
    rw [GatherDims.batchCoord_eq_zero _ _ _ List.not_mem_nil]
    unfold GatherDims.start
    rw [dif_neg (show (1 : Fin 2) ∉ (rowGather N C E wf).startIndexMap from (by decide : (1 : Fin 2) ∉ ([0] : List (Fin 2))))]
    simp only [Nat.add_zero, Nat.zero_add]
    unfold GatherDims.offCoord
    rw [dif_pos (show (1 : Fin 2) ∈ (rowGather N C E wf).sKept from
      (GatherDims.mem_sKept _ _).mpr ⟨(by decide : (1 : Fin 2) ∉ ([0] : List (Fin 2))), List.not_mem_nil⟩)]
    rfl

end Cert.LibSegRows

end
-- ==== Proof.LibScatterAdd.lean ====
/- An additive scatter on the host, read at a target.

   A host scatter walks the updates in row-major order; each update either lands at one index of the operand (its start
   index plus its window coordinate, when that is inside the operand) or is dropped. When the body combines by an
   addition in a commutative monoid — an integer scatter-add, a count of occurrences — the walk's result at a target index
   is the operand's entry there plus the sum of the updates that land there; the order of the walk does not matter.

   First for any dimension numbers, as a sum over the updates' indices; then for the flat form — a length-E vector of
   updates scattered into a length-N vector through an [E, 1] column of start indices — as a sum over e < E of the updates
   whose start index, read signed, is the target. With all updates one this is a count: how many start indices equal the
   target (a histogram bin). -/
import proofs.«120006_g55027120997065_cont_sun_c4_852_12_alg».proof.Proof.LibSegRows
import proofs.«120006_g55027120997065_cont_sun_c4_852_12_alg».proof.Proof.LibCumsum
import Idealize.ShloMosaic.PureOps.ShapeOps

noncomputable section

namespace Idealize.ShloMosaic

open ValueIdx Cert.LibSegRows

section General

variable {α : Type} [AddCommMonoid α] {s si u : Shape} {w : ℕ}

/-- One step of the walk at a target: the entry grows by the update exactly when the update lands on the target. -/
theorem scatter_step_apply (d : ScatterDims s si u) (idx : IVec si w) (upd : u.Idx → α) (r : s.Idx → α) (j : u.Idx)
    (i₀ : s.Idx) :
    (match d.resultIdx? j idx with
      | some i => fun i' => if i' = i then r i + upd j else r i'
      | none => r) i₀
      = r i₀ + (if d.resultIdx? j idx = some i₀ then upd j else 0) := by
  cases hres : d.resultIdx? j idx with
  | none => simp
  | some i =>
    by_cases hi : i₀ = i
    · subst hi; simp
    · have : ¬ (some i = some i₀) := fun h => hi (Option.some.inj h).symm
      simp [hi, this]

/-- The walk over any list of update positions, at a target. -/
theorem scatter_foldl_apply (d : ScatterDims s si u) (idx : IVec si w) (upd : u.Idx → α) (l : List (Fin u.numel))
    (x : s.Idx → α) (i₀ : s.Idx) :
    (l.foldl (fun r n =>
        match d.resultIdx? (u.rowMajor.symm n) idx with
        | some i => fun i' => if i' = i then r i + upd (u.rowMajor.symm n) else r i'
        | none => r) x) i₀
      = x i₀ + (l.map fun n => if d.resultIdx? (u.rowMajor.symm n) idx = some i₀ then upd (u.rowMajor.symm n) else 0).sum := by
  induction l generalizing x with
  | nil => simp
  | cons n l ih =>
    rw [List.foldl_cons, ih, scatter_step_apply, List.map_cons, List.sum_cons, add_assoc]

/-- **An additive scatter at a target: the operand there plus the updates that land there.** -/
theorem scatter_add_apply (d : ScatterDims s si u) (x : s.Idx → α) (idx : IVec si w) (upd : u.Idx → α) (i₀ : s.Idx) :
    Host.scatter d (fun a b => a + b) x idx upd i₀
      = x i₀ + ∑ j : u.Idx, if d.resultIdx? j idx = some i₀ then upd j else 0 := by
  unfold Host.scatter
  refine (scatter_foldl_apply d idx upd (List.finRange u.numel) x i₀).trans ?_
  rw [← List.ofFn_eq_map, List.sum_ofFn]
  congr 1
  exact Equiv.sum_comp u.rowMajor.symm fun j => if d.resultIdx? j idx = some i₀ then upd j else 0

end General

/-- **The flat additive scatter at r: the operand there plus the updates whose start index is r.** -/
theorem flatScatter_add_apply {α : Type} [AddCommMonoid α] {N E w : ℕ}
    (wf : ScatterDims.WF ⟨1, ![N]⟩ ⟨2, ![E, 1]⟩ ⟨1, ![E]⟩ [] [0] [0] 1)
    (x : (⟨1, ![N]⟩ : Shape).Idx → α) (idx : IVec ⟨2, ![E, 1]⟩ w) (upd : (⟨1, ![E]⟩ : Shape).Idx → α) (r : Fin N) :
    Host.scatter (flatScatter N E wf) (fun a b => a + b) x idx upd (ix1 r)
      = x (ix1 r) + ∑ e : Fin E, if (idx (ix2 e (0 : Fin 1))).toInt = (r.val : ℤ) then upd (ix1 e) else 0 := by
  rw [scatter_add_apply, sum_idx1]
  congr 1
  refine Finset.sum_congr rfl fun e _ => ?_
  simp only [flatScatter_resultIdx?_eq]

end Idealize.ShloMosaic

end
-- ==== Proof.LibNthTrue.lean ====
/- Where the e-th true position is, by counting.

   Over the naturals, with count p n the number of k < n satisfying p and nth p e the e-th (from zero) number satisfying
   p: the positions q whose inclusive running count, count p (q + 1), is at most e are exactly the positions below
   nth p e — before the e-th true position at most e true positions have been seen; from it on, at least e + 1. So among
   the positions below any bound N that is not below nth p e there are exactly nth p e of them: counting the positions
   whose running count is at most e finds the e-th true position. This is how a table of "the true positions, in order"
   is computed from a running count and a histogram of the running count. -/
import Mathlib.Data.Nat.Nth

namespace Idealize.ShloMosaic.NthTrue

open Nat Finset

variable (p : ℕ → Prop) [DecidablePred p]

/-- The inclusive running count at q is at most e exactly when q is before the e-th true position (which exists). -/
theorem count_succ_le_iff_lt_nth {e q : ℕ} (he : ∀ hf : (Set.ofPred p).Finite, e < #hf.toFinset) :
    count p (q + 1) ≤ e ↔ q < nth p e := by
  constructor
  · intro h
    by_contra hlt
    have hle : nth p e + 1 ≤ q + 1 := by omega
    have hmono : count p (nth p e + 1) ≤ count p (q + 1) := count_monotone p hle
    rw [count_nth_succ he] at hmono
    omega
  · intro h
    exact le_nth_of_count_le (by omega)

/-- Counting the positions below N whose running count is at most e gives the e-th true position. -/
theorem card_filter_count_le {N e : ℕ} (he : ∀ hf : (Set.ofPred p).Finite, e < #hf.toFinset) (hN : nth p e ≤ N) :
    #((range N).filter fun q => count p (q + 1) ≤ e) = nth p e := by
  have hset : (range N).filter (fun q => count p (q + 1) ≤ e) = range (nth p e) := by
    ext q
    simp only [mem_filter, mem_range, count_succ_le_iff_lt_nth p he]
    omega
  rw [hset, card_range]

end Idealize.ShloMosaic.NthTrue
-- ==== Proof.LibNonzero.lean ====
/- The table of true positions ("nonzero, in order"), as the host computes it.

   Given a 0/1 integer vector x of length N, write p q for "q < N and x q = 1". The host builds the table of the positions
   satisfying p, in increasing order, in three steps:
     A. the running count c q = x 0 + … + x q, which is count p (q + 1);
     B. a histogram of the running count: bin v holds the number of positions q with c q = v (an additive scatter of ones
        at the start indices c q into a zero vector of the table's length M; a running count that is not below M is
        dropped);
     C. the running sum of the histogram: entry e is the number of positions q with c q ≤ e.
   Entry e of C is the e-th position satisfying p (from zero): exactly the positions before it have running count at most
   e. So the table lists the true positions in order, each once.

   General in the lengths N and M and in the integer width. -/
import proofs.«120006_g55027120997065_cont_sun_c4_852_12_alg».proof.Proof.LibCumsum
import proofs.«120006_g55027120997065_cont_sun_c4_852_12_alg».proof.Proof.LibScatterAdd
import proofs.«120006_g55027120997065_cont_sun_c4_852_12_alg».proof.Proof.LibNthTrue

noncomputable section

namespace Idealize.ShloMosaic

open ValueIdx Cert.LibSegRows NthTrue Finset

/-- Position q is a true position of the 0/1 vector x. -/
def IsOne {w N : ℕ} (x : (⟨1, ![N]⟩ : Shape).Idx → BitVec w) (q : ℕ) : Prop :=
  ∃ hq : q < N, x (ix1 ⟨q, hq⟩) = 1

instance {w N : ℕ} (x : (⟨1, ![N]⟩ : Shape).Idx → BitVec w) : DecidablePred (IsOne x) := fun q => by
  unfold IsOne; infer_instance

theorem bv_zero_ne_one {w : ℕ} (hw : 0 < w) : (0 : BitVec w) ≠ 1 := by
  intro h
  have h' := congrArg BitVec.toNat h
  have h2 : 1 < 2 ^ w := Nat.one_lt_two_pow (by omega)
  simp [Nat.mod_eq_of_lt h2] at h'

/-- A 0/1 vector read at a natural position is the indicator of its true positions. -/
theorem atNat_indicator {w N : ℕ} (hw : 0 < w) (x : (⟨1, ![N]⟩ : Shape).Idx → BitVec w) (hx : ∀ i, x i = 0 ∨ x i = 1)
    (q : ℕ) : atNat x q = if IsOne x q then 1 else 0 := by
  unfold atNat
  by_cases hq : q < N
  · rw [dif_pos hq]
    rcases hx (ix1 ⟨q, hq⟩) with h | h
    · have hn : ¬ IsOne x q := by
        rintro ⟨_, h'⟩
        rw [h] at h'
        exact bv_zero_ne_one hw h'
      rw [h, if_neg hn]
    · have hy : IsOne x q := ⟨hq, h⟩
      rw [h, if_pos hy]
  · have hn : ¬ IsOne x q := by
      rintro ⟨h', _⟩
      exact hq h'
    rw [dif_neg hq, if_neg hn]

/-- **A. The running sum of a 0/1 vector at j is the number of true positions up to j.** -/
theorem cumsum_indicator_apply {w N K : ℕ} (hK : K + 1 = N) (hw : 0 < w) (x : (⟨1, ![N]⟩ : Shape).Idx → BitVec w)
    (hx : ∀ i, x i = 0 ∨ x i = 1) (init : (⟨0, ![]⟩ : Shape).Idx → BitVec w) (h0 : ∀ i, init i = 0)
    (h : (⟨1, ![N]⟩ : Shape).ReduceWindows (![N] : Fin 1 → ℕ) ![1] ![K] ![0] ⟨1, ![N]⟩)
    (hu : 0 < (⟨0, ![]⟩ : Shape).numel) (j : Fin N) :
    Host.reduceWindow (s := ⟨1, ![N]⟩) (t := ⟨1, ![N]⟩) (u := ⟨0, ![]⟩) IntOp.addi (![N] : Fin 1 → ℕ) ![1] ![K] ![0] x init h hu
        (ix1 j)
      = ((Nat.count (IsOne x) (j.val + 1) : ℕ) : BitVec w) := by
  rw [reduceWindow_cumsum_apply hK x init h0 h hu j]
  simp only [atNat_indicator hw x hx]
  rw [Finset.sum_boole, Nat.count_eq_card_filter_range]

/-- **B. A histogram: ones scattered additively into zeros; bin r counts the start indices equal to r.** -/
theorem bincount_apply {w w' N E : ℕ} (wf : ScatterDims.WF ⟨1, ![N]⟩ ⟨2, ![E, 1]⟩ ⟨1, ![E]⟩ [] [0] [0] 1)
    (zero : (⟨1, ![N]⟩ : Shape).Idx → BitVec w) (hz : ∀ i, zero i = 0) (idx : IVec ⟨2, ![E, 1]⟩ w')
    (one : (⟨1, ![E]⟩ : Shape).Idx → BitVec w) (h1 : ∀ i, one i = 1) (r : Fin N) :
    Host.scatter (flatScatter N E wf) IntOp.addi zero idx one (ix1 r)
      = ∑ e : Fin E, if (idx (ix2 e (0 : Fin 1))).toInt = (r.val : ℤ) then (1 : BitVec w) else 0 := by
  have hadd : (IntOp.addi : BitVec w → BitVec w → BitVec w) = fun a b => a + b := rfl
  rw [hadd, flatScatter_add_apply, hz, zero_add]
  simp only [h1]

/-- **C. The running sum of the histogram of the running count is the table of true positions.** With c q the running
    count at q (read signed off the start indices), entry e of the running sum of the histogram is the e-th true
    position, when there is one and it is below N. -/
theorem nonzero_table_apply {w w' N M K : ℕ} (hK : K + 1 = M) (p : ℕ → Prop) [DecidablePred p]
    (idx : IVec ⟨2, ![N, 1]⟩ w') (hidx : ∀ q : Fin N, (idx (ix2 q (0 : Fin 1))).toInt = (Nat.count p (q.val + 1) : ℤ))
    (bins : (⟨1, ![M]⟩ : Shape).Idx → BitVec w)
    (hbins : ∀ r : Fin M, bins (ix1 r) = ∑ q : Fin N, if (idx (ix2 q (0 : Fin 1))).toInt = (r.val : ℤ) then (1 : BitVec w) else 0)
    (init : (⟨0, ![]⟩ : Shape).Idx → BitVec w) (h0 : ∀ i, init i = 0)
    (h : (⟨1, ![M]⟩ : Shape).ReduceWindows (![M] : Fin 1 → ℕ) ![1] ![K] ![0] ⟨1, ![M]⟩)
    (hu : 0 < (⟨0, ![]⟩ : Shape).numel) (e : Fin M)
    (he : ∀ hf : (Set.ofPred p).Finite, e.val < #hf.toFinset) (hN : Nat.nth p e.val ≤ N) :
    Host.reduceWindow (s := ⟨1, ![M]⟩) (t := ⟨1, ![M]⟩) (u := ⟨0, ![]⟩) IntOp.addi (![M] : Fin 1 → ℕ) ![1] ![K] ![0] bins init h hu
        (ix1 e)
      = ((Nat.nth p e.val : ℕ) : BitVec w) := by
  rw [reduceWindow_cumsum_apply hK bins init h0 h hu e]
  have hat : ∀ v ∈ range (e.val + 1), atNat bins v
      = ∑ q : Fin N, if Nat.count p (q.val + 1) = v then (1 : BitVec w) else 0 := by
    intro v hv
    have hvM : v < M := by have := e.isLt; simp only [mem_range] at hv; omega
    unfold atNat
    rw [dif_pos hvM, hbins ⟨v, hvM⟩]
    refine Finset.sum_congr rfl fun q _ => ?_
    rw [hidx q]
    simp only [Nat.cast_inj]
  rw [Finset.sum_congr rfl hat, Finset.sum_comm]
  have hinner : ∀ q : Fin N, (∑ v ∈ range (e.val + 1), if Nat.count p (q.val + 1) = v then (1 : BitVec w) else 0)
      = if Nat.count p (q.val + 1) ≤ e.val then 1 else 0 := by
    intro q
    rw [Finset.sum_ite_eq]
    simp only [mem_range, Nat.lt_succ_iff]
  simp only [hinner]
  rw [Finset.sum_boole]
  congr 1
  rw [← card_filter_count_le p he hN]
  have hmap : (range N).filter (fun q => Nat.count p (q + 1) ≤ e.val)
      = ((univ : Finset (Fin N)).filter fun q => Nat.count p (q.val + 1) ≤ e.val).map Fin.valEmbedding := by
    ext q
    simp only [mem_filter, mem_range, mem_map, Fin.valEmbedding_apply, mem_univ, true_and]
    constructor
    · rintro ⟨hq, hc⟩
      exact ⟨⟨q, hq⟩, hc, rfl⟩
    · rintro ⟨⟨q', hq'⟩, hc, rfl⟩
      exact ⟨hq', hc⟩
  rw [hmap, Finset.card_map]

end Idealize.ShloMosaic

end
-- ==== Proof.LibFloorDivRem.lean ====
/- Floor division and remainder of machine integers, as the host computes them.

   jnp's integer floor division a // d prints as the truncating signed quotient, corrected by one when the signs of a and d
   differ and the truncating remainder is not zero; its remainder a % d prints as the truncating signed remainder (by d, or
   by 1 when d is zero), corrected by d when it is not zero and its sign differs from d's. For a dividend that is not
   negative and a positive divisor no correction applies: the results are the natural quotient and remainder. Stated for
   32-bit words read as the numbers below 2^31 they denote. -/
import Idealize.ShloMosaic.PureOps.Float
import Mathlib.Data.BitVec

namespace Idealize.ShloMosaic

/-- The sign of a word as a word: 0, 1 or -1. -/
def signWord (x : BitVec 32) : BitVec 32 := if x = 0 then 0 else if x.msb then -1 else 1

/-- The printed floor division, word by word. -/
def floorDivWord (u : ArithUnit) (a d : BitVec 32) : BitVec 32 :=
  Scalar.select (IntOp.andi (IntOp.cmpi .ne (signWord a) (signWord d)) (IntOp.cmpi .ne (IntOp.remsi u a d) 0))
    (IntOp.subi (IntOp.divsi u a d) 1) (IntOp.divsi u a d)

/-- The printed remainder, word by word. -/
def remWord (u : ArithUnit) (a d : BitVec 32) : BitVec 32 :=
  let d' := Scalar.select (IntOp.cmpi .eq d 0) 1 d
  let r := IntOp.remsi u a d'
  Scalar.select (IntOp.andi (IntOp.cmpi .ne (IntOp.cmpi .slt r 0) (IntOp.cmpi .slt d' 0)) (IntOp.cmpi .ne r 0))
    (IntOp.addi r d') r

section

variable {a d : BitVec 32}

theorem msb_false_of_lt (h : a.toNat < 2 ^ 31) : a.msb = false := by
  rw [BitVec.msb_eq_false_iff_two_mul_lt]; omega

theorem not_corner (hd0 : 0 < d.toNat) (hd : d.toNat < 2 ^ 31) : ¬ IntOp.SDivCorner a d := by
  rintro (h | ⟨_, h⟩)
  · rw [h] at hd0; simp at hd0
  · rw [h] at hd; simp at hd

theorem divsi_of_nonneg (u : ArithUnit) (ha : a.toNat < 2 ^ 31) (hd0 : 0 < d.toNat) (hd : d.toNat < 2 ^ 31) :
    IntOp.divsi u a d = BitVec.ofNat 32 (a.toNat / d.toNat) := by
  unfold IntOp.divsi
  rw [if_neg (not_corner hd0 hd), BitVec.sdiv_eq, msb_false_of_lt ha, msb_false_of_lt hd]
  have hlt : a.toNat / d.toNat < 2 ^ 32 := lt_of_le_of_lt (Nat.div_le_self _ _) (by omega)
  apply BitVec.eq_of_toNat_eq
  rw [BitVec.toNat_ofNat, Nat.mod_eq_of_lt hlt]
  simp [BitVec.udiv_eq, BitVec.toNat_udiv]

theorem remsi_of_nonneg (u : ArithUnit) (ha : a.toNat < 2 ^ 31) (hd0 : 0 < d.toNat) (hd : d.toNat < 2 ^ 31) :
    IntOp.remsi u a d = BitVec.ofNat 32 (a.toNat % d.toNat) := by
  unfold IntOp.remsi
  rw [if_neg (not_corner hd0 hd), BitVec.srem_eq, msb_false_of_lt ha, msb_false_of_lt hd]
  have hlt : a.toNat % d.toNat < 2 ^ 32 := lt_of_le_of_lt (Nat.mod_le _ _) (by omega)
  apply BitVec.eq_of_toNat_eq
  rw [BitVec.toNat_ofNat, Nat.mod_eq_of_lt hlt]
  simp [BitVec.umod_eq, BitVec.toNat_umod]

theorem slt_zero_of_nonneg {r : BitVec 32} (hr : r.toNat < 2 ^ 31) : IntOp.cmpi .slt r 0 = 0 := by
  unfold IntOp.cmpi
  have h : r.slt 0#32 = false := by
    simp [BitVec.slt, BitVec.toInt_eq_msb_cond, msb_false_of_lt hr]
  show BitVec.ofBool (r.slt 0#32) = 0#1
  rw [h]
  rfl

theorem ne_zero_of_pos (hd0 : 0 < d.toNat) : d ≠ 0 := by
  intro h; rw [h] at hd0; simp at hd0

theorem signWord_of_pos (hd0 : 0 < d.toNat) (hd : d.toNat < 2 ^ 31) : signWord d = 1 := by
  unfold signWord
  rw [if_neg (ne_zero_of_pos hd0), msb_false_of_lt hd]
  simp

/-- **Floor division of a non-negative word by a positive word is the natural quotient.** -/
theorem floorDivWord_of_nonneg (u : ArithUnit) (ha : a.toNat < 2 ^ 31) (hd0 : 0 < d.toNat) (hd : d.toNat < 2 ^ 31) :
    floorDivWord u a d = BitVec.ofNat 32 (a.toNat / d.toNat) := by
  unfold floorDivWord
  have hcond : IntOp.andi (IntOp.cmpi .ne (signWord a) (signWord d)) (IntOp.cmpi .ne (IntOp.remsi u a d) 0) = 0 := by
    by_cases ha0 : a = 0
    · subst ha0
      have h0 : IntOp.remsi u 0 d = 0 := by
        rw [remsi_of_nonneg u (by simp) hd0 hd]; simp
      rw [h0]
      simp [IntOp.cmpi, IntOp.andi]
    · have hsa : signWord a = 1 := by
        unfold signWord
        rw [if_neg ha0, msb_false_of_lt ha]
        simp
      rw [hsa, signWord_of_pos hd0 hd]
      simp [IntOp.cmpi, IntOp.andi]
  rw [hcond]
  unfold Scalar.select
  rw [if_neg (by decide), divsi_of_nonneg u ha hd0 hd]

/-- **The remainder of a non-negative word by a positive word is the natural remainder.** -/
theorem remWord_of_nonneg (u : ArithUnit) (ha : a.toNat < 2 ^ 31) (hd0 : 0 < d.toNat) (hd : d.toNat < 2 ^ 31) :
    remWord u a d = BitVec.ofNat 32 (a.toNat % d.toNat) := by
  unfold remWord
  have hsel : Scalar.select (IntOp.cmpi .eq d 0) 1 d = d := by
    unfold Scalar.select IntOp.cmpi
    have h : (d == 0#32) = false := by
      simp only [beq_eq_false_iff_ne, ne_eq]
      exact ne_zero_of_pos hd0
    show (if BitVec.ofBool (d == 0#32) = 1#1 then (1 : BitVec 32) else d) = d
    rw [h, if_neg (by decide)]
  simp only [hsel]
  rw [remsi_of_nonneg u ha hd0 hd]
  have hr31 : (BitVec.ofNat 32 (a.toNat % d.toNat)).toNat < 2 ^ 31 := by
    rw [BitVec.toNat_ofNat]
    have := Nat.mod_lt a.toNat hd0
    have h2 : a.toNat % d.toNat < 2 ^ 32 := by omega
    rw [Nat.mod_eq_of_lt h2]; omega
  rw [slt_zero_of_nonneg hr31, slt_zero_of_nonneg hd]
  have hc : IntOp.andi (IntOp.cmpi .ne (0 : BitVec 1) 0) (IntOp.cmpi .ne (BitVec.ofNat 32 (a.toNat % d.toNat)) 0) = 0 := by
    simp [IntOp.cmpi, IntOp.andi]
  rw [hc]
  unfold Scalar.select
  rw [if_neg (by decide)]

end

end Idealize.ShloMosaic
-- ==== Proof.LibWords.lean ====
/- Small facts about 32-bit words that denote natural numbers below 2^31: their signed reading is the number, signed
   comparisons are the numbers' comparisons, the signed maximum with zero and the "add the length when negative" index
   normalisation leave them alone, sums and constants stay in range. -/
import Idealize.ShloMosaic.PureOps.Float
import Mathlib.Data.BitVec
import proofs.«120006_g55027120997065_cont_sun_c4_852_12_alg».proof.Proof.LibFloorDivRem

namespace Idealize.ShloMosaic.Words

/-- The word of a natural number below 2^31. -/
abbrev w32 (n : ℕ) : BitVec 32 := BitVec.ofNat 32 n

theorem toNat_w32 {n : ℕ} (h : n < 2 ^ 31) : (w32 n).toNat = n := by
  unfold w32; rw [BitVec.toNat_ofNat]; exact Nat.mod_eq_of_lt (by omega)

theorem toInt_w32 {n : ℕ} (h : n < 2 ^ 31) : (w32 n).toInt = (n : ℤ) := by
  rw [BitVec.toInt_eq_msb_cond, msb_false_of_lt (by rw [toNat_w32 h]; exact h), toNat_w32 h]
  simp

theorem w32_add {a b : ℕ} : w32 a + w32 b = w32 (a + b) := by
  unfold w32; exact (BitVec.ofNat_add a b).symm

theorem addi_w32 {a b : ℕ} : IntOp.addi (w32 a) (w32 b) = w32 (a + b) := w32_add

theorem w32_zero : (0#32 : BitVec 32) = w32 0 := rfl

theorem cmpi_slt_w32 {a b : ℕ} (ha : a < 2 ^ 31) (hb : b < 2 ^ 31) :
    IntOp.cmpi .slt (w32 a) (w32 b) = if a < b then 1#1 else 0#1 := by
  unfold IntOp.cmpi
  show BitVec.ofBool ((w32 a).slt (w32 b)) = _
  have : (w32 a).slt (w32 b) = decide (a < b) := by
    simp only [BitVec.slt, toInt_w32 ha, toInt_w32 hb]
    exact decide_eq_decide.mpr Int.ofNat_lt
  rw [this]
  by_cases h : a < b <;> simp [h]

theorem cmpi_sge_w32 {a b : ℕ} (ha : a < 2 ^ 31) (hb : b < 2 ^ 31) :
    IntOp.cmpi .sge (w32 a) (w32 b) = if b ≤ a then 1#1 else 0#1 := by
  unfold IntOp.cmpi
  show BitVec.ofBool ((w32 b).sle (w32 a)) = _
  have : (w32 b).sle (w32 a) = decide (b ≤ a) := by
    simp only [BitVec.sle, toInt_w32 ha, toInt_w32 hb]
    exact decide_eq_decide.mpr Int.ofNat_le
  rw [this]
  by_cases h : b ≤ a <;> simp [h]

/-- The signed maximum of zero and a word of a natural number is that word. -/
theorem maxsi_zero_w32 {a : ℕ} (ha : a < 2 ^ 31) : IntOp.maxsi (0#32) (w32 a) = w32 a := by
  unfold IntOp.maxsi
  have : (w32 a).slt 0#32 = false := by
    simp only [BitVec.slt, toInt_w32 ha]
    simp
  rw [this]; simp

/-- "Add the length when the index is negative" leaves the word of a natural number alone. -/
theorem wrap_w32 {a : ℕ} (ha : a < 2 ^ 31) (n : BitVec 32) :
    Scalar.select (IntOp.cmpi .slt (w32 a) (0#32)) (IntOp.addi (w32 a) n) (w32 a) = w32 a := by
  have h0 : (0 : ℕ) < 2 ^ 31 := by decide
  rw [w32_zero, cmpi_slt_w32 ha h0, if_neg (Nat.not_lt_zero a)]
  unfold Scalar.select
  rw [if_neg (by decide)]

end Idealize.ShloMosaic.Words
-- ==== Proof.EdgeModel.lean ====
/- The reference's computation as sums over edges, on the reals.

   The reference works on one graph of 2048 nodes (node v is node v % 512 of batch element v / 512) with 525312 edges, each
   with a source R e, a target Cc e and a weight ew e: the weighted in-degree of v is the sum of the weights of the edges
   into v, dinv its inverse square root, the normalised weight of e is dinv (R e) · ew e · dinv (Cc e), and a layer sends
   features x to tanh ((x · alpha + beta · agg) W + bias) with agg v the sum over the edges e into v of x (R e) times the
   normalised weight of e. After three layers the features are averaged per batch element (a sum over the nodes of the batch
   element, divided by their number), and two dense maps follow. -/
import proofs.«120006_g55027120997065_cont_sun_c4_852_12_alg».proof.Proof.Spec

noncomputable section

namespace Cert.EdgeModel

open Cert.Consts Cert.Spec

/-- Sources, targets and weights of the 525312 edges; node numbers are naturals below 2048. -/
structure Graph where
  R : Fin 525312 → ℕ
  Cc : Fin 525312 → ℕ
  ew : Fin 525312 → ℝ

variable (G : Graph) (P : Params)

def deg (v : ℕ) : ℝ := ∑ e : Fin 525312, if G.Cc e = v then G.ew e else 0
def dinv (v : ℕ) : ℝ := (Real.sqrt (deg G v))⁻¹
def nrm (e : Fin 525312) : ℝ := dinv G (G.R e) * G.ew e * dinv G (G.Cc e)

/-- The node features the reference starts from: node v is row v % 512 of batch element v / 512. -/
def x0 (v : ℕ) (c : Fin 128) : ℝ := if h : v < 2048 then P.X ⟨v / 512, by omega⟩ ⟨v % 512, Nat.mod_lt _ (by norm_num)⟩ c else 0

def layer {C C' : ℕ} (W : Fin C → Fin C' → ℝ) (bias : Fin C' → ℝ) (x : ℕ → Fin C → ℝ) : ℕ → Fin C' → ℝ :=
  fun v c' => Real.tanh ((∑ c : Fin C, (x v c * alphaR + betaR * ∑ e : Fin 525312, if G.Cc e = v then x (G.R e) c * nrm G e else 0) * W c c') + bias c')

def x1 : ℕ → Fin 256 → ℝ := layer G P.W1 P.b1 (x0 P)
def x2 : ℕ → Fin 256 → ℝ := layer G P.W2 P.b2 (x1 G P)
def x3 : ℕ → Fin 256 → ℝ := layer G P.W3 P.b3 (x2 G P)

/-- Per batch element: the sum of the features of its nodes over the number of its nodes. -/
def pooled (b : Fin 4) (c : Fin 256) : ℝ :=
  (∑ v : Fin 2048, if v.val / 512 = b.val then x3 G P v.val c else 0) / (∑ v : Fin 2048, if v.val / 512 = b.val then (1 : ℝ) else 0)
def hidden (b : Fin 4) (c' : Fin 128) : ℝ := Real.tanh ((∑ c : Fin 256, pooled G P b c * P.DW c c') + P.db c')
def out (b : Fin 4) (o : Fin 2) : ℝ := (∑ c : Fin 128, hidden G P b c * P.OW c o) + P.ob o

end Cert.EdgeModel

end
-- ==== Proof.EdgeSpec.lean ====
/- The edge model on the reference's actual graph is the specification.

   The reference's graph: for each batch element b and each pair i < j of its 512 nodes one edge from node 512 b + i to
   node 512 b + j weighing dist b i j (the pairs listed by a table rows, cols of 130816 entries that enumerates all pairs
   i < j once each), and at every node a loop of weight one. Summing over the edges into node 512 b + j therefore sums over
   the i < j of batch element b, plus the loop's term: the degree is the specification's, the normalised weights are the
   specification's adjacency, each layer is the specification's layer, the per-batch mean is the mean over the 512 nodes. -/
import proofs.«120006_g55027120997065_cont_sun_c4_852_12_alg».proof.Proof.EdgeModel
import Mathlib.Algebra.BigOperators.Fin
import Mathlib.Algebra.BigOperators.Intervals

set_option maxRecDepth 100000

noncomputable section

namespace Cert.EdgeSpec

open Cert.Consts Cert.Spec Cert.EdgeModel Finset

/-- The pair table: entry e is a pair rows e < cols e < 512, and summing any function of the pair over the table is summing
    it over all pairs i < j. -/
structure PairTable where
  rows : Fin 130816 → ℕ
  cols : Fin 130816 → ℕ
  lt : ∀ e, rows e < cols e
  lt512 : ∀ e, cols e < 512
  sum_eq : ∀ f : ℕ → ℕ → ℝ, ∑ e : Fin 130816, f (rows e) (cols e)
      = ∑ i : Fin 512, ∑ j : Fin 512, if i.val < j.val then f i.val j.val else 0

variable (T : PairTable) (P : Params)

/-- Distances with natural-number arguments (zero outside the ranges). -/
def distN (b i j : ℕ) : ℝ :=
  if h : b < 4 ∧ i < 512 ∧ j < 512 then dist P ⟨b, h.1⟩ ⟨i, h.2.1⟩ ⟨j, h.2.2⟩ else 0

theorem mod_lt_table (n : ℕ) : n % 130816 < 130816 := Nat.mod_lt _ (by norm_num)

/-- The table's entries at a natural position (zero past the end). -/
def rowsN (k : ℕ) : ℕ := if h : k < 130816 then T.rows ⟨k, h⟩ else 0
def colsN (k : ℕ) : ℕ := if h : k < 130816 then T.cols ⟨k, h⟩ else 0

/-- Source, target and weight of edge number n. -/
def srcN (n : ℕ) : ℕ := if n < 523264 then n / 130816 * 512 + rowsN T (n % 130816) else n - 523264
def tgtN (n : ℕ) : ℕ := if n < 523264 then n / 130816 * 512 + colsN T (n % 130816) else n - 523264
def wgtN (n : ℕ) : ℝ := if n < 523264 then distN P (n / 130816) (rowsN T (n % 130816)) (colsN T (n % 130816)) else 1

/-- The reference's graph: four blocks of pair edges, then the 2048 loops. -/
def graph : Graph where
  R e := srcN T e.val
  Cc e := tgtN T e.val
  ew e := wgtN T P e.val

/-- A sum over m blocks of n consecutive numbers. -/
theorem sum_range_mul_blocks (g : ℕ → ℝ) (n : ℕ) : ∀ m : ℕ,
    ∑ x ∈ range (m * n), g x = ∑ b ∈ range m, ∑ e ∈ range n, g (b * n + e)
  | 0 => by simp
  | m + 1 => by
    rw [Nat.succ_mul, Finset.sum_range_add, sum_range_mul_blocks g n m, Finset.sum_range_succ]

/-- A sum over the 525312 edges: the four blocks of pair edges, then the loops. -/
theorem sum_edges (g : ℕ → ℝ) :
    ∑ e : Fin 525312, g e.val
      = (∑ b : Fin 4, ∑ e' : Fin 130816, g (b.val * 130816 + e'.val)) + ∑ l : Fin 2048, g (523264 + l.val) := by
  have h1 : ∑ x ∈ range (523264 + 2048), g x = ∑ x ∈ range 523264, g x + ∑ x ∈ range 2048, g (523264 + x) :=
    Finset.sum_range_add g 523264 2048
  have h2 : ∑ x ∈ range (4 * 130816), g x = ∑ b ∈ range 4, ∑ e ∈ range 130816, g (b * 130816 + e) :=
    sum_range_mul_blocks g 130816 4
  rw [Fin.sum_univ_eq_sum_range g 525312]
  refine h1.trans ?_
  refine congrArg₂ (· + ·) ?_ ?_
  · refine h2.trans ?_
    rw [Fin.sum_univ_eq_sum_range (fun b => ∑ e' : Fin 130816, g (b * 130816 + e'.val)) 4]
    refine Finset.sum_congr rfl fun b _ => ?_
    rw [Fin.sum_univ_eq_sum_range (fun e' => g (b * 130816 + e')) 130816]
  · rw [Fin.sum_univ_eq_sum_range (fun l => g (523264 + l)) 2048]

theorem rowsN_lt (e' : Fin 130816) : rowsN T e'.val = T.rows e' := by
  unfold rowsN; rw [dif_pos e'.isLt]
theorem colsN_lt (e' : Fin 130816) : colsN T e'.val = T.cols e' := by
  unfold colsN; rw [dif_pos e'.isLt]

/-- **Summing over the edges into node 512 b + j**: a quantity given on pair edges by F (batch, source, target) and on
    loops by L sums to the sum of F b i j over i < j, plus L at the node. -/
theorem sum_into (b : Fin 4) (j : Fin 512) (F : ℕ → ℕ → ℕ → ℝ) (L : ℕ → ℝ) :
    (∑ e : Fin 525312, if tgtN T e.val = b.val * 512 + j.val then
        (if e.val < 523264 then F (e.val / 130816) (rowsN T (e.val % 130816)) (colsN T (e.val % 130816)) else L (e.val - 523264))
        else 0)
      = (∑ i : Fin 512, if i.val < j.val then F b.val i.val j.val else 0) + L (b.val * 512 + j.val) := by
  have hb := b.isLt
  have hj := j.isLt
  rw [sum_edges (fun n => if tgtN T n = b.val * 512 + j.val then
        (if n < 523264 then F (n / 130816) (rowsN T (n % 130816)) (colsN T (n % 130816)) else L (n - 523264)) else 0)]
  refine congrArg₂ (· + ·) ?_ ?_
  · -- the pair edges
    have hblock : ∀ (b' : Fin 4) (e' : Fin 130816),
        (if tgtN T (b'.val * 130816 + e'.val) = b.val * 512 + j.val then
          (if b'.val * 130816 + e'.val < 523264 then
            F ((b'.val * 130816 + e'.val) / 130816) (rowsN T ((b'.val * 130816 + e'.val) % 130816))
              (colsN T ((b'.val * 130816 + e'.val) % 130816))
           else L (b'.val * 130816 + e'.val - 523264)) else 0)
        = if b' = b then (if T.cols e' = j.val then F b.val (T.rows e') (T.cols e') else 0) else 0 := by
      intro b' e'
      have hb' := b'.isLt
      have he' := e'.isLt
      have hlt : b'.val * 130816 + e'.val < 523264 := by omega
      have hdiv : (b'.val * 130816 + e'.val) / 130816 = b'.val := by omega
      have hmod : (b'.val * 130816 + e'.val) % 130816 = e'.val := by omega
      have hc := T.lt512 e'
      unfold tgtN
      rw [if_pos hlt, if_pos hlt, hdiv, hmod, rowsN_lt, colsN_lt]
      by_cases hbb : b' = b
      · subst hbb
        rw [if_pos rfl]
        by_cases hcj : T.cols e' = j.val
        · rw [if_pos hcj, if_pos (by omega)]
        · rw [if_neg hcj, if_neg (by omega)]
      · rw [if_neg hbb, if_neg]
        intro h
        apply hbb
        apply Fin.ext
        omega
    simp only [hblock]
    rw [Finset.sum_eq_single b (fun b' _ hne => by simp [hne]) (fun h => absurd (Finset.mem_univ b) h)]
    simp only [eq_self_iff_true, if_true]
    rw [T.sum_eq (fun i' j' => if j' = j.val then F b.val i' j' else 0)]
    refine Finset.sum_congr rfl fun i _ => ?_
    rw [Finset.sum_eq_single j (fun j' _ hne => by
        have : j'.val ≠ j.val := fun h => hne (Fin.ext h)
        simp [this]) (fun h => absurd (Finset.mem_univ j) h), if_pos rfl]
  · -- the loops
    have hloop : ∀ l : Fin 2048,
        (if tgtN T (523264 + l.val) = b.val * 512 + j.val then
          (if 523264 + l.val < 523264 then
            F ((523264 + l.val) / 130816) (rowsN T ((523264 + l.val) % 130816)) (colsN T ((523264 + l.val) % 130816))
           else L (523264 + l.val - 523264)) else 0)
        = if l.val = b.val * 512 + j.val then L l.val else 0 := by
      intro l
      have hnl : ¬ 523264 + l.val < 523264 := by omega
      have hsub : 523264 + l.val - 523264 = l.val := by omega
      unfold tgtN
      rw [if_neg hnl, if_neg hnl, hsub]
    simp only [hloop]
    have hv : b.val * 512 + j.val < 2048 := by omega
    rw [Finset.sum_eq_single (⟨b.val * 512 + j.val, hv⟩ : Fin 2048) (fun l _ hne => by
        have : l.val ≠ b.val * 512 + j.val := fun h => hne (Fin.ext h)
        simp [this]) (fun h => absurd (Finset.mem_univ _) h), if_pos rfl]

theorem distN_in (b : Fin 4) (i j : Fin 512) : distN P b.val i.val j.val = dist P b i j := by
  unfold distN; rw [dif_pos ⟨b.isLt, i.isLt, j.isLt⟩]

/-- The degree of node 512 b + j in the reference's graph is the specification's. -/
theorem deg_eq (b : Fin 4) (j : Fin 512) : EdgeModel.deg (graph T P) (b.val * 512 + j.val) = Spec.deg P b j := by
  unfold EdgeModel.deg Spec.deg
  show (∑ e : Fin 525312, if tgtN T e.val = b.val * 512 + j.val then wgtN T P e.val else 0) = _
  unfold wgtN
  rw [sum_into T b j (fun b' i' j' => distN P b' i' j') (fun _ => 1)]
  congr 1
  refine Finset.sum_congr rfl fun i _ => ?_
  by_cases h : i.val < j.val
  · rw [if_pos h, if_pos (Fin.lt_def.mpr h), distN_in]
  · rw [if_neg h, if_neg (fun h' => h (Fin.lt_def.mp h'))]

theorem dinv_eq (b : Fin 4) (j : Fin 512) : EdgeModel.dinv (graph T P) (b.val * 512 + j.val) = Spec.dinv P b j := by
  unfold EdgeModel.dinv Spec.dinv; rw [deg_eq]

/-- Every degree in the reference's graph is at least one. -/
theorem one_le_deg (v : ℕ) (hv : v < 2048) : 1 ≤ EdgeModel.deg (graph T P) v := by
  have h1 : v / 512 < 4 := by omega
  have h2 : v % 512 < 512 := Nat.mod_lt _ (by norm_num)
  have hv' : v = (⟨v / 512, h1⟩ : Fin 4).val * 512 + (⟨v % 512, h2⟩ : Fin 512).val := by
    show v = v / 512 * 512 + v % 512; omega
  rw [hv', deg_eq]
  exact Spec.one_le_deg P _ _

/-- A sum with one branch below the diagonal and one on it. -/
theorem sum_lt_or_eq (j : Fin 512) (A : Fin 512 → ℝ) (B : ℝ) :
    (∑ i : Fin 512, if i < j then A i else if i = j then B else 0) = (∑ i : Fin 512, if i < j then A i else 0) + B := by
  have hterm : ∀ i : Fin 512, (if i < j then A i else if i = j then B else 0)
      = (if i < j then A i else 0) + (if i = j then B else 0) := by
    intro i
    by_cases h1 : i < j
    · have : i ≠ j := ne_of_lt h1
      simp [h1, this]
    · simp [h1]
  simp only [hterm]
  rw [Finset.sum_add_distrib, Finset.sum_ite_eq' Finset.univ j (fun _ => B), if_pos (Finset.mem_univ j)]

/-- **One layer on the reference's graph is the specification's layer.** -/
theorem layer_eq {C C' : ℕ} (W : Fin C → Fin C' → ℝ) (bias : Fin C' → ℝ) (xG : ℕ → Fin C → ℝ)
    (xS : Fin 4 → Fin 512 → Fin C → ℝ) (hx : ∀ (b : Fin 4) (j : Fin 512) (c : Fin C), xG (b.val * 512 + j.val) c = xS b j c)
    (b : Fin 4) (j : Fin 512) (c' : Fin C') :
    EdgeModel.layer (graph T P) W bias xG (b.val * 512 + j.val) c' = Spec.layer P W bias xS b j c' := by
  unfold EdgeModel.layer Spec.layer
  congr 2
  refine Finset.sum_congr rfl fun c _ => ?_
  congr 1
  -- the aggregate: the edges into the node
  have hmsg : ∀ e : Fin 525312, xG ((graph T P).R e) c * nrm (graph T P) e
      = if e.val < 523264 then
          (fun b' i' j' => xG (b' * 512 + i') c * (EdgeModel.dinv (graph T P) (b' * 512 + i') * distN P b' i' j'
            * EdgeModel.dinv (graph T P) (b' * 512 + j'))) (e.val / 130816) (rowsN T (e.val % 130816)) (colsN T (e.val % 130816))
        else (fun l => xG l c * (EdgeModel.dinv (graph T P) l * 1 * EdgeModel.dinv (graph T P) l)) (e.val - 523264) := by
    intro e
    unfold nrm
    show xG (srcN T e.val) c * (EdgeModel.dinv (graph T P) (srcN T e.val) * wgtN T P e.val
      * EdgeModel.dinv (graph T P) (tgtN T e.val)) = _
    unfold srcN tgtN wgtN
    by_cases h : e.val < 523264
    · simp only [if_pos h]
    · simp only [if_neg h]
  have hagg : (∑ e : Fin 525312, if (graph T P).Cc e = b.val * 512 + j.val then xG ((graph T P).R e) c * nrm (graph T P) e else 0)
      = ∑ i : Fin 512, adj P b j i * xS b i c := by
    simp only [hmsg]
    show (∑ e : Fin 525312, if tgtN T e.val = b.val * 512 + j.val then _ else 0) = _
    rw [sum_into T b j
      (fun b' i' j' => xG (b' * 512 + i') c * (EdgeModel.dinv (graph T P) (b' * 512 + i') * distN P b' i' j'
            * EdgeModel.dinv (graph T P) (b' * 512 + j')))
      (fun l => xG l c * (EdgeModel.dinv (graph T P) l * 1 * EdgeModel.dinv (graph T P) l))]
    have hA : ∀ i : Fin 512, adj P b j i * xS b i c
        = if i < j then dinv P b i * dist P b i j * dinv P b j * xS b i c
          else if i = j then dinv P b j * dinv P b j * xS b j c else 0 := by
      intro i
      unfold adj
      by_cases h1 : i < j
      · simp [h1]
      · by_cases h2 : i = j
        · subst h2; simp
        · simp [h1, h2]
    simp only [hA]
    rw [sum_lt_or_eq]
    congr 1
    · refine Finset.sum_congr rfl fun i _ => ?_
      by_cases h : i.val < j.val
      · rw [if_pos h, if_pos (Fin.lt_def.mpr h), hx, dinv_eq, dinv_eq, distN_in]; ring
      · rw [if_neg h, if_neg (fun h' => h (Fin.lt_def.mp h'))]
    · rw [hx, dinv_eq]; ring
  rw [hagg, hx]
  ring

theorem x0_eq (b : Fin 4) (j : Fin 512) (c : Fin 128) : EdgeModel.x0 P (b.val * 512 + j.val) c = P.X b j c := by
  have hb := b.isLt
  have hj := j.isLt
  unfold EdgeModel.x0
  rw [dif_pos (by omega)]
  congr 1
  · apply Fin.ext; show (b.val * 512 + j.val) / 512 = b.val; omega
  · apply Fin.ext; show (b.val * 512 + j.val) % 512 = j.val; omega

theorem x1_eq (b : Fin 4) (j : Fin 512) (c : Fin 256) : EdgeModel.x1 (graph T P) P (b.val * 512 + j.val) c = Spec.x1 P b j c :=
  layer_eq T P P.W1 P.b1 (EdgeModel.x0 P) P.X (x0_eq P) b j c
theorem x2_eq (b : Fin 4) (j : Fin 512) (c : Fin 256) : EdgeModel.x2 (graph T P) P (b.val * 512 + j.val) c = Spec.x2 P b j c :=
  layer_eq T P P.W2 P.b2 (EdgeModel.x1 (graph T P) P) (Spec.x1 P) (x1_eq T P) b j c
theorem x3_eq (b : Fin 4) (j : Fin 512) (c : Fin 256) : EdgeModel.x3 (graph T P) P (b.val * 512 + j.val) c = Spec.x3 P b j c :=
  layer_eq T P P.W3 P.b3 (EdgeModel.x2 (graph T P) P) (Spec.x2 P) (x2_eq T P) b j c

/-- A sum over the 2048 nodes restricted to batch element b is the sum over its 512 nodes. -/
theorem sum_batch (b : Fin 4) (g : ℕ → ℝ) :
    (∑ v : Fin 2048, if v.val / 512 = b.val then g v.val else 0) = ∑ j : Fin 512, g (b.val * 512 + j.val) := by
  have hb := b.isLt
  rw [Fin.sum_univ_eq_sum_range (fun v => if v / 512 = b.val then g v else 0) 2048]
  have h2 : ∑ x ∈ range (4 * 512), (if x / 512 = b.val then g x else 0)
      = ∑ b' ∈ range 4, ∑ j ∈ range 512, (if (b' * 512 + j) / 512 = b.val then g (b' * 512 + j) else 0) :=
    sum_range_mul_blocks (fun x => if x / 512 = b.val then g x else 0) 512 4
  refine h2.trans ?_
  rw [Finset.sum_eq_single b.val]
  · rw [Fin.sum_univ_eq_sum_range (fun j => g (b.val * 512 + j)) 512]
    refine Finset.sum_congr rfl fun j hj => ?_
    have : j < 512 := Finset.mem_range.mp hj
    rw [if_pos (by omega)]
  · intro b' hb' hne
    refine Finset.sum_eq_zero fun j hj => ?_
    have : j < 512 := Finset.mem_range.mp hj
    rw [if_neg (by omega)]
  · intro h; exact absurd (Finset.mem_range.mpr hb) h

theorem pooled_eq (b : Fin 4) (c : Fin 256) : EdgeModel.pooled (graph T P) P b c = Spec.pooled P b c := by
  unfold EdgeModel.pooled Spec.pooled
  rw [sum_batch b (fun v => EdgeModel.x3 (graph T P) P v c), sum_batch b (fun _ => (1 : ℝ))]
  simp only [x3_eq]
  congr 1
  simp

/-- **The edge model on the reference's graph is the specification.** -/
theorem out_eq (b : Fin 4) (o : Fin 2) : EdgeModel.out (graph T P) P b o = Spec.out P b o := by
  unfold EdgeModel.out Spec.out EdgeModel.hidden Spec.hidden
  simp only [pooled_eq]

end Cert.EdgeSpec

end
-- ==== Proof.PairEnum.lean ====
/- The pairs i < j of 512 nodes, enumerated through the flattened triangular table.

   Position q < 262144 of the flattened 512 × 512 table is the pair (q / 512, q % 512); it is marked when q / 512 < q % 512.
   There are 130816 marked positions; listing them in increasing order (entry e is the e-th marked position) and splitting
   each back into row and column enumerates every pair i < j exactly once: a sum over the list of any function of the pair
   is the sum over all pairs. -/
import Mathlib.Data.Nat.Nth
import Mathlib.Algebra.BigOperators.Intervals
import Mathlib.Order.Interval.Finset.Nat
import proofs.«120006_g55027120997065_cont_sun_c4_852_12_alg».proof.Proof.EdgeSpec

set_option maxRecDepth 65536

noncomputable section

namespace Cert.ReferenceIdeal.Read

open Finset

/-- Position q of the flattened table marks a pair i < j. -/
def Tri (q : ℕ) : Prop := q < 262144 ∧ q / 512 < q % 512

instance : DecidablePred Tri := fun q => by unfold Tri; infer_instance

/-! ### How many pairs there are -/

/-- The marked positions are finitely many: they are below 262144. -/
theorem tri_finite : (Set.ofPred Tri).Finite :=
  Set.Finite.subset (Set.finite_lt_nat 262144) fun q hq => hq.1

/-- Counting the marked positions below n, for n = 512 r: the pairs in the first r rows. -/
theorem count_tri_rows : ∀ r : ℕ, r ≤ 512 → Nat.count Tri (512 * r) = ∑ i ∈ Finset.range r, (511 - i)
  | 0, _ => by simp
  | r + 1, hr => by
    have ih := count_tri_rows r (by omega)
    rw [show 512 * (r + 1) = 512 * r + 512 from by omega, Nat.count_add, ih, Finset.sum_range_succ]
    congr 1
    -- row r: the columns j with r < j < 512
    rw [Nat.count_eq_card_filter_range]
    have : (Finset.range 512).filter (fun k => Tri (512 * r + k)) = Finset.Ico (r + 1) 512 := by
      ext k
      rw [Finset.mem_filter, Finset.mem_range, Finset.mem_Ico]
      constructor
      · rintro ⟨hk, ht⟩
        have h2 := ht.2
        have h3 : (512 * r + k) / 512 = r := by omega
        have h4 : (512 * r + k) % 512 = k := by omega
        rw [h3, h4] at h2
        omega
      · rintro ⟨h1, h2⟩
        have h3 : (512 * r + k) / 512 = r := by omega
        have h4 : (512 * r + k) % 512 = k := by omega
        refine ⟨h2, ?_, ?_⟩
        · omega
        · rw [h3, h4]; omega
    rw [this, Nat.card_Ico]
    omega

/-- There are 130816 pairs i < j among 512 nodes. -/
theorem count_tri_all : Nat.count Tri 262144 = 130816 := by
  have h := count_tri_rows 512 (le_refl _)
  rw [show 512 * 512 = 262144 from rfl] at h
  rw [h]
  decide

theorem card_tri : ∀ hf : (Set.ofPred Tri).Finite, hf.toFinset.card = 130816 := by
  intro hf
  rw [← count_tri_all, Nat.count_eq_card_filter_range]
  congr 1
  ext q
  simp only [Set.Finite.mem_toFinset, Finset.mem_filter, Finset.mem_range]
  constructor
  · intro h; exact ⟨h.1, h⟩
  · intro h; exact h.2

theorem nth_tri_exists (e : ℕ) (he : e < 130816) : ∀ hf : (Set.ofPred Tri).Finite, e < hf.toFinset.card := by
  intro hf; rw [card_tri hf]; exact he

/-- The e-th marked position is a marked position. -/
theorem tri_nth (e : ℕ) (he : e < 130816) : Tri (Nat.nth Tri e) :=
  Nat.nth_mem e (nth_tri_exists e he)

theorem count_le (n : ℕ) : Nat.count Tri n ≤ 130816 := by
  by_cases h : n ≤ 262144
  · calc Nat.count Tri n ≤ Nat.count Tri 262144 := Nat.count_monotone _ h
      _ = 130816 := count_tri_all
  · have h' : 262144 ≤ n := by omega
    obtain ⟨k, rfl⟩ := Nat.exists_eq_add_of_le h'
    rw [Nat.count_add, count_tri_all]
    have : Nat.count (fun k => Tri (262144 + k)) k = 0 := by
      rw [Nat.count_eq_card_filter_range]
      have : (Finset.range k).filter (fun k => Tri (262144 + k)) = ∅ := by
        rw [Finset.filter_eq_empty_iff]
        intro x _ h
        have := h.1
        omega
      rw [this]; rfl
    omega

/-- Summing over the list of marked positions is summing over the marked positions. -/
theorem sum_nth (g : ℕ → ℝ) :
    ∑ e : Fin 130816, g (Nat.nth Tri e.val) = ∑ q ∈ range 262144, if Tri q then g q else 0 := by
  rw [← Finset.sum_filter]
  refine Finset.sum_bij (fun e _ => Nat.nth Tri e.val) ?_ ?_ ?_ ?_
  · intro e _
    have h := tri_nth e.val e.isLt
    simp only [mem_filter, mem_range]
    exact ⟨h.1, h⟩
  · intro a _ b _ hab
    apply Fin.ext
    have hinj := Nat.nth_injOn tri_finite
    refine hinj ?_ ?_ hab
    · simp only [Set.mem_Iio, card_tri]; exact a.isLt
    · simp only [Set.mem_Iio, card_tri]; exact b.isLt
  · intro q hq
    simp only [mem_filter, mem_range] at hq
    have hlt : Nat.count Tri q < 130816 := by
      have h1 : Nat.count Tri (q + 1) = Nat.count Tri q + 1 := by rw [Nat.count_succ, if_pos hq.2]
      have h2 := count_le (q + 1)
      omega
    exact ⟨⟨Nat.count Tri q, hlt⟩, mem_univ _, Nat.nth_count hq.2⟩
  · intro e _; rfl

/-- **The pair table**: rows and columns of the marked positions in order. -/
def pairTable : Cert.EdgeSpec.PairTable where
  rows e := Nat.nth Tri e.val / 512
  cols e := Nat.nth Tri e.val % 512
  lt e := (tri_nth e.val e.isLt).2
  lt512 e := Nat.mod_lt _ (by norm_num)
  sum_eq f := by
    rw [sum_nth (fun q => f (q / 512) (q % 512))]
    have h2 := Cert.EdgeSpec.sum_range_mul_blocks
      (fun q => if Tri q then f (q / 512) (q % 512) else 0) 512 512
    rw [show (512 * 512 : ℕ) = 262144 from rfl] at h2
    rw [h2, Fin.sum_univ_eq_sum_range (fun i => ∑ j : Fin 512, if i < j.val then f i j.val else 0) 512]
    refine Finset.sum_congr rfl fun i hi => ?_
    rw [Fin.sum_univ_eq_sum_range (fun j => if i < j then f i j else 0) 512]
    refine Finset.sum_congr rfl fun j hj => ?_
    have hi' : i < 512 := mem_range.mp hi
    have hj' : j < 512 := mem_range.mp hj
    have h3 : (i * 512 + j) / 512 = i := by omega
    have h4 : (i * 512 + j) % 512 = j := by omega
    have h5 : i * 512 + j < 262144 := by omega
    have htri : Tri (i * 512 + j) ↔ i < j := by
      unfold Tri; rw [h3, h4]; exact ⟨fun hh => hh.2, fun hh => ⟨h5, hh⟩⟩
    by_cases h : i < j
    · rw [if_pos (htri.mpr h), if_pos h, h3, h4]
    · rw [if_neg (fun hh => h (htri.mp hh)), if_neg h]

end Cert.ReferenceIdeal.Read

end
-- ==== Proof.RefNonzero.lean ====
/- The reference's edge table: which node pairs its edges are.

   The reference marks the pairs i < j in a 512 × 512 table (zero on and below the diagonal of a table of ones, then "is
   not zero"), flattens it row-major to 262144 positions (position q is the pair (q / 512, q % 512)), and lists the marked
   positions in increasing order through a running count, a histogram of the running count and a running sum of the
   histogram: entry e of the list is the e-th marked position. Each position is then split back into a row (quotient by
   512, reduced mod 512) and a column (remainder mod 512). So edge e goes from node row e to node col e with row e < col e,
   and the 130816 edges are all the pairs i < j, each once. -/
import proofs.«120006_g55027120997065_cont_sun_c4_852_12_alg».proof.Proof.RefEq0
import proofs.«120006_g55027120997065_cont_sun_c4_852_12_alg».proof.Proof.RefSplit0
import proofs.«120006_g55027120997065_cont_sun_c4_852_12_alg».proof.Proof.LibNonzero
import proofs.«120006_g55027120997065_cont_sun_c4_852_12_alg».proof.Proof.LibWords
import proofs.«120006_g55027120997065_cont_sun_c4_852_12_alg».proof.Proof.Consts
import proofs.«120006_g55027120997065_cont_sun_c4_852_12_alg».proof.Proof.PairEnum
import proofs.«120006_g55027120997065_cont_sun_c4_852_12_alg».proof.Proof.LibFloorDivRem
import Idealize.ShloMosaic.Lib.ValueIdx
import Idealize.ShloMosaic.Lib.Pipeline.Value
import Idealize.ShloMosaic.PureOps.Ideal.Laws

set_option maxRecDepth 65536

noncomputable section

namespace Cert.ReferenceIdeal.Read

open Cert.ReferenceIdeal Cert.ReferenceIdeal.Gen Cert.ReferenceIdeal.Line Idealize.ShloMosaic Idealize.ShloMosaic.ValueIdx
  Idealize.ShloMosaic.StableHlo Idealize.ShloMosaic.Words

-- the final memory is never evaluated, only rewritten by the operations' equations
attribute [local irreducible] Idealize.ShloMosaic.StableHlo.after

variable (V : Valuation τ sig (Elt Ideal))

section RunningSums

attribute [local irreducible] Host.reduceWindow

/-- The first running sum's equation at the end of the program (over the flattened mask). -/
theorem eq_main_v4 :
    (after ops V (Proc.devRef .tc main_v4) : IVec S262144 32)
      = Host.reduceWindow IntOp.addi ![262144] ![1] ![262143] ![0]
          (after ops V (Proc.devRef .tc main_call1_v1) : IVec S262144 32) (after ops V (Proc.devRef .tc main_call1_call0_v0) : IVec S_ 32)
          reduceWindows_S262144_S262144_w262144s1p262143_0 h_S_ := by
  have h := final_eq V (op := (TRef.binary main_call1.v1 main_call1.call0.v0 main_call1.call0.v1 (fun x v => Host.reduceWindow IntOp.addi ![262144] ![1] ![262143] ![0] x v reduceWindows_S262144_S262144_w262144s1p262143_0 h_S_) : HloOp τ sig (Elt Ideal)))
    (mem_ops0a (List.getElem_mem (l := (ops0a : List (HloOp τ sig (Elt Ideal)))) (n := 18) (by show (18 : ℕ) < 49; decide)))
    main_v4 rfl (readsBelow_binary _ _ _ _ _ _ _ (by decide) (by decide))
  rw [binary_result] at h
  have ea : main_call1.v1.ofBuf (after ops V (Proc.devRef .tc main_call1.v1.ref))
      = (after ops V (Proc.devRef .tc main_call1_v1) : IVec S262144 32) := eq_of_heq (cast_heq _ _)
  have eb : main_call1.call0.v0.ofBuf (after ops V (Proc.devRef .tc main_call1.call0.v0.ref))
      = (after ops V (Proc.devRef .tc main_call1_call0_v0) : IVec S_ 32) := eq_of_heq (cast_heq _ _)
  have h' := eq_of_heq ((heq_of_eq h).trans (cast_heq _ _))
  rw [ea, eb] at h'
  exact h'

/-- The second running sum's equation (over the histogram). -/
theorem eq_main_v15 :
    (after ops V (Proc.devRef .tc main_v15) : IVec S130816 32)
      = Host.reduceWindow IntOp.addi ![130816] ![1] ![130815] ![0]
          (after ops V (Proc.devRef .tc main_v14) : IVec S130816 32) (after ops V (Proc.devRef .tc main_call3_call0_v0) : IVec S_ 32)
          reduceWindows_S130816_S130816_w130816s1p130815_0 h_S_ := by
  have h := final_eq V (op := (TRef.binary (.of main_v14 : StableHlo.TRef sig ⟨S130816, .i32⟩) main_call3.call0.v0 main_call3.call0.v1 (fun x v => Host.reduceWindow IntOp.addi ![130816] ![1] ![130815] ![0] x v reduceWindows_S130816_S130816_w130816s1p130815_0 h_S_) : HloOp τ sig (Elt Ideal)))
    (mem_ops0a (List.getElem_mem (l := (ops0a : List (HloOp τ sig (Elt Ideal)))) (n := 38) (by show (38 : ℕ) < 49; decide)))
    main_v15 rfl (readsBelow_binary _ _ _ _ _ _ _ (by decide) (by decide))
  rw [binary_result] at h
  have ea : (StableHlo.TRef.of main_v14 : StableHlo.TRef sig ⟨S130816, .i32⟩).ofBuf
        (after ops V (Proc.devRef .tc (StableHlo.TRef.of main_v14 : StableHlo.TRef sig ⟨S130816, .i32⟩).ref))
      = (after ops V (Proc.devRef .tc main_v14) : IVec S130816 32) := eq_of_heq (cast_heq _ _)
  have eb : main_call3.call0.v0.ofBuf (after ops V (Proc.devRef .tc main_call3.call0.v0.ref))
      = (after ops V (Proc.devRef .tc main_call3_call0_v0) : IVec S_ 32) := eq_of_heq (cast_heq _ _)
  have h' := eq_of_heq ((heq_of_eq h).trans (cast_heq _ _))
  rw [ea, eb] at h'
  exact h'

end RunningSums

/-- The triangular mask: one above the diagonal, zero on and below it. -/
theorem mask_apply (r c : Fin 512) :
    (after ops V (Proc.devRef .tc main_v3) : IVec S512x512 1) (ix2 r c) = if r.val < c.val then 1#1 else 0#1 := by
  rw [eq_main_v3 V, eq_main_v1 V, eq_main_v2 V, eq_main_cst_0 V, eq_main_call0_v4 V, eq_main_call0_v5 V, eq_main_v0 V,
    eq_main_cst V, eq_main_call0_v2 V, eq_main_call0_v3 V, eq_main_call0_v0 V, eq_main_call0_v1 V, eq_main_call0_c V,
    eq_main_call0_cst V]
  show FloatOps.cmpf .une (Scalar.select (IntOp.cmpi .sge (IntOp.addi (w32 r.val) (0#32)) (w32 c.val))
      (Ideal.ofBits .f32 0x00000000#32) (Ideal.ofBits .f32 0x3F800000#32)) (Ideal.ofBits .f32 0x00000000#32) = _
  have hr : r.val < 2 ^ 31 := lt_trans r.isLt (by norm_num)
  have hc : c.val < 2 ^ 31 := lt_trans c.isLt (by norm_num)
  rw [w32_zero, addi_w32, Nat.add_zero, cmpi_sge_w32 hr hc, Ideal.cmpf_def, Ideal.ofBits_zero_f32]
  by_cases h : r.val < c.val
  · rw [if_neg (by omega), if_pos h, select_zero, Cert.Consts.ofBits_one]
    simp [Ideal.cmp]
  · rw [if_pos (by omega), if_neg h, select_one]
    simp [Ideal.cmp]

/-- The flattened mask as 32-bit words: one at the positions that mark a pair i < j, zero elsewhere. -/
theorem flatmask_apply (q : Fin 262144) :
    (after ops V (Proc.devRef .tc main_call1_v1) : IVec S262144 32) (ix1 q) = if Tri q.val then 1#32 else 0#32 := by
  rw [eq_main_call1_v1 V, eq_main_call1_v0 V]
  have hq := q.isLt
  have hr : q.val / 512 < 512 := by omega
  have hc : q.val % 512 < 512 := Nat.mod_lt _ (by norm_num)
  show ((shapeCast S262144 (after ops V (Proc.devRef .tc main_v3) : IVec S512x512 1) shapeCasts_S512x512_S262144) (ix1 q)).setWidth 32 = _
  rw [shapeCast_apply _ _ (ix1 q) (ix2 ⟨q.val / 512, hr⟩ ⟨q.val % 512, hc⟩)
    (by rw [Shape.rowMajor_val_two, Shape.rowMajor_val_one]; show q.val / 512 * 512 + q.val % 512 = q.val; omega),
    mask_apply]
  show (if q.val / 512 < q.val % 512 then 1#1 else 0#1).setWidth 32 = _
  by_cases h : q.val / 512 < q.val % 512
  · rw [if_pos h, if_pos ⟨hq, h⟩]; rfl
  · rw [if_neg h, if_neg (fun ht => h ht.2)]; rfl

/-- The true positions of the flattened mask are the marked positions. -/
theorem isOne_iff (q : ℕ) :
    IsOne (after ops V (Proc.devRef .tc main_call1_v1) : IVec S262144 32) q ↔ Tri q := by
  unfold IsOne
  constructor
  · rintro ⟨hq, h⟩
    have := flatmask_apply V ⟨q, hq⟩
    rw [this] at h
    by_contra hn
    rw [if_neg hn] at h
    exact absurd h (by decide)
  · intro h
    refine ⟨h.1, ?_⟩
    rw [flatmask_apply V ⟨q, h.1⟩, if_pos h]
    rfl

theorem isOne_eq : IsOne (after ops V (Proc.devRef .tc main_call1_v1) : IVec S262144 32) = Tri :=
  funext fun q => propext (isOne_iff V q)

/-- The running count of marked positions, as a word. -/
theorem cs_apply (q : Fin 262144) :
    (after ops V (Proc.devRef .tc main_v4) : IVec S262144 32) (ix1 q) = w32 (Nat.count Tri (q.val + 1)) := by
  rw [eq_main_v4 V]
  have h0 : ∀ i : S_.Idx, (after ops V (Proc.devRef .tc main_call1_call0_v0) : IVec S_ 32) i = (0 : BitVec 32) := by
    intro i; rw [eq_main_call1_call0_v0 V, eq_main_call1_call0_c V]; rfl
  have hx : ∀ i : S262144.Idx, (after ops V (Proc.devRef .tc main_call1_v1) : IVec S262144 32) i = (0 : BitVec 32)
      ∨ (after ops V (Proc.devRef .tc main_call1_v1) : IVec S262144 32) i = (1 : BitVec 32) := by
    intro i
    obtain ⟨q', rfl⟩ : ∃ q' : Fin 262144, i = ix1 q' := ⟨i 0, eq_ix1 i⟩
    rw [flatmask_apply]
    by_cases h : Tri q'.val
    · right; rw [if_pos h]; rfl
    · left; rw [if_neg h]; rfl
  have key := cumsum_indicator_apply (w := 32) (N := 262144) (K := 262143) rfl (by norm_num)
    (after ops V (Proc.devRef .tc main_call1_v1) : IVec S262144 32) hx
    (after ops V (Proc.devRef .tc main_call1_call0_v0) : IVec S_ 32) h0
    reduceWindows_S262144_S262144_w262144s1p262143_0 h_S_ q
  have hcount : Nat.count (IsOne (after ops V (Proc.devRef .tc main_call1_v1) : IVec S262144 32)) (q.val + 1)
      = Nat.count Tri (q.val + 1) := by
    rw [Nat.count_eq_card_filter_range, Nat.count_eq_card_filter_range]
    exact congrArg Finset.card (Finset.filter_congr fun k _ => isOne_iff V k)
  rw [hcount] at key
  exact key

theorem count_lt (n : ℕ) : Nat.count Tri n < 2 ^ 31 := lt_of_le_of_lt (count_le n) (by norm_num)

/-- Clipping at zero and the negative-index normalisation leave the running count alone; as the column of start
    indices of the histogram's scatter. -/
theorem idx_apply (q : Fin 262144) :
    (after ops V (Proc.devRef .tc main_v12) : IVec S262144x1 32) (ix2 q (0 : Fin 1)) = w32 (Nat.count Tri (q.val + 1)) := by
  rw [eq_main_v12 V]
  rw [broadcastInDim_apply _ _ _ (ix2 q (0 : Fin 1)) (ix1 q) (by intro a; match a with | ⟨0, _⟩ => rfl)]
  rw [eq_main_v11 V, eq_main_v8 V, eq_main_v10 V, eq_main_v6 V, eq_main_v7 V, eq_main_c_2 V, eq_main_v9 V, eq_main_c_3 V,
    eq_main_call2_v1 V, eq_main_call2_v0 V, eq_main_c_1 V]
  show Scalar.select (IntOp.cmpi .slt (IntOp.maxsi (0#32) ((after ops V (Proc.devRef .tc main_v4) : IVec S262144 32) (ix1 q))) (0#32))
      (IntOp.addi (IntOp.maxsi (0#32) ((after ops V (Proc.devRef .tc main_v4) : IVec S262144 32) (ix1 q))) (130816#32))
      (IntOp.maxsi (0#32) ((after ops V (Proc.devRef .tc main_v4) : IVec S262144 32) (ix1 q))) = _
  rw [cs_apply, maxsi_zero_w32 (count_lt _), wrap_w32 (count_lt _)]

theorem idx_toInt (q : Fin 262144) :
    ((after ops V (Proc.devRef .tc main_v12) : IVec S262144x1 32) (ix2 q (0 : Fin 1))).toInt = (Nat.count Tri (q.val + 1) : ℤ) := by
  rw [idx_apply, toInt_w32 (count_lt _)]

/-- The histogram of the running count. -/
theorem bins_apply (r : Fin 130816) :
    (after ops V (Proc.devRef .tc main_v14) : IVec S130816 32) (ix1 r)
      = ∑ q : Fin 262144, if ((after ops V (Proc.devRef .tc main_v12) : IVec S262144x1 32) (ix2 q (0 : Fin 1))).toInt = (r.val : ℤ)
          then (1 : BitVec 32) else 0 := by
  rw [eq_main_v14 V]
  have hz : ∀ i : S130816.Idx, (after ops V (Proc.devRef .tc main_v5) : IVec S130816 32) i = (0 : BitVec 32) := by
    intro i; rw [eq_main_v5 V, eq_main_c V]; rfl
  have h1 : ∀ i : S262144.Idx, (after ops V (Proc.devRef .tc main_v13) : IVec S262144 32) i = (1 : BitVec 32) := by
    intro i; rw [eq_main_v13 V, eq_main_c_4 V]; rfl
  exact bincount_apply (w := 32) (w' := 32) (N := 130816) (E := 262144) scatter_S130816_S262144x1_S262144_n_0_0_1_wf
    (after ops V (Proc.devRef .tc main_v5) : IVec S130816 32) hz
    (after ops V (Proc.devRef .tc main_v12) : IVec S262144x1 32)
    (after ops V (Proc.devRef .tc main_v13) : IVec S262144 32) h1 r

/-- **The table: entry e is the e-th marked position.** -/
theorem flat_apply (e : Fin 130816) :
    (after ops V (Proc.devRef .tc main_v15) : IVec S130816 32) (ix1 e) = w32 (Nat.nth Tri e.val) := by
  rw [eq_main_v15 V]
  have h0 : ∀ i : S_.Idx, (after ops V (Proc.devRef .tc main_call3_call0_v0) : IVec S_ 32) i = (0 : BitVec 32) := by
    intro i; rw [eq_main_call3_call0_v0 V, eq_main_call3_call0_c V]; rfl
  have hN : Nat.nth Tri e.val ≤ 262144 := le_of_lt (tri_nth e.val e.isLt).1
  exact nonzero_table_apply (w := 32) (w' := 32) (N := 262144) (M := 130816) (K := 130815) rfl Tri
    (after ops V (Proc.devRef .tc main_v12) : IVec S262144x1 32) (idx_toInt V)
    (after ops V (Proc.devRef .tc main_v14) : IVec S130816 32) (bins_apply V)
    (after ops V (Proc.devRef .tc main_call3_call0_v0) : IVec S_ 32) h0
    reduceWindows_S130816_S130816_w130816s1p130815_0 h_S_ e (nth_tri_exists e.val e.isLt) hN

theorem nth_lt (e : Fin 130816) : Nat.nth Tri e.val < 262144 := (tri_nth e.val e.isLt).1

/-- The quotient of the table by 512, as the program computes it. -/
theorem v16_apply (e : Fin 130816) :
    (after ops V (Proc.devRef .tc main_v16) : IVec S130816 32) (ix1 e) = w32 (Nat.nth Tri e.val / 512) := by
  rw [eq_main_v16 V, eq_main_call4_v10 V, eq_main_call4_v12 V, eq_main_call4_v5 V, eq_main_call4_v9 V, eq_main_call4_v11 V,
    eq_main_call4_c_0 V, eq_main_call4_v7 V, eq_main_call4_v8 V, eq_main_call4_c V, eq_main_call4_v6 V, eq_main_call4_v2 V,
    eq_main_call4_v4 V, eq_main_call4_v3 V, eq_main_call4_v1 V, eq_main_call4_v0 V, eq_main_c_5 V]
  show floorDivWord .host ((after ops V (Proc.devRef .tc main_v15) : IVec S130816 32) (ix1 e)) (w32 512) = _
  have hn := nth_lt e
  rw [flat_apply, floorDivWord_of_nonneg .host (by rw [toNat_w32 (by omega)]; omega) (by rw [toNat_w32 (by norm_num)]; norm_num)
    (by rw [toNat_w32 (by norm_num)]; norm_num), toNat_w32 (by omega), toNat_w32 (by norm_num)]

/-- **The rows of the edge table.** -/
theorem rows_apply (e : Fin 130816) :
    (after ops V (Proc.devRef .tc main_v17) : IVec S130816 32) (ix1 e) = w32 (Nat.nth Tri e.val / 512) := by
  rw [eq_main_v17 V, eq_main_call5_v12 V, eq_main_call5_v14 V, eq_main_call5_v11 V, eq_main_call5_v6 V, eq_main_call5_v13 V,
    eq_main_call5_v8 V, eq_main_call5_v10 V, eq_main_call5_v9 V, eq_main_call5_c_3 V, eq_main_call5_v7 V, eq_main_call5_c_2 V,
    eq_main_call5_v5 V, eq_main_call5_c_1 V, eq_main_call5_v4 V, eq_main_call5_v3 V, eq_main_call5_v2 V, eq_main_call5_c_0 V,
    eq_main_call5_v1 V, eq_main_call5_c V, eq_main_call5_v0 V, eq_main_c_6 V]
  show remWord .host ((after ops V (Proc.devRef .tc main_v16) : IVec S130816 32) (ix1 e)) (w32 512) = _
  have hn := nth_lt e
  have hq : Nat.nth Tri e.val / 512 < 512 := by omega
  rw [v16_apply, remWord_of_nonneg .host (by rw [toNat_w32 (by omega)]; omega) (by rw [toNat_w32 (by norm_num)]; norm_num)
    (by rw [toNat_w32 (by norm_num)]; norm_num), toNat_w32 (by omega), toNat_w32 (by norm_num), Nat.mod_eq_of_lt hq]

/-- The quotient of the table by 1, as the program computes it. -/
theorem v18_apply (e : Fin 130816) :
    (after ops V (Proc.devRef .tc main_v18) : IVec S130816 32) (ix1 e) = w32 (Nat.nth Tri e.val) := by
  rw [eq_main_v18 V, eq_main_call6_v10 V, eq_main_call6_v12 V, eq_main_call6_v5 V, eq_main_call6_v9 V, eq_main_call6_v11 V,
    eq_main_call6_c_0 V, eq_main_call6_v7 V, eq_main_call6_v8 V, eq_main_call6_c V, eq_main_call6_v6 V, eq_main_call6_v2 V,
    eq_main_call6_v4 V, eq_main_call6_v3 V, eq_main_call6_v1 V, eq_main_call6_v0 V, eq_main_c_7 V]
  show floorDivWord .host ((after ops V (Proc.devRef .tc main_v15) : IVec S130816 32) (ix1 e)) (w32 1) = _
  have hn := nth_lt e
  rw [flat_apply, floorDivWord_of_nonneg .host (by rw [toNat_w32 (by omega)]; omega) (by rw [toNat_w32 (by norm_num)]; norm_num)
    (by rw [toNat_w32 (by norm_num)]; norm_num), toNat_w32 (by omega), toNat_w32 (by norm_num), Nat.div_one]

/-- **The columns of the edge table.** -/
theorem cols_apply (e : Fin 130816) :
    (after ops V (Proc.devRef .tc main_v19) : IVec S130816 32) (ix1 e) = w32 (Nat.nth Tri e.val % 512) := by
  rw [eq_main_v19 V, eq_main_call7_v12 V, eq_main_call7_v14 V, eq_main_call7_v11 V, eq_main_call7_v6 V, eq_main_call7_v13 V,
    eq_main_call7_v8 V, eq_main_call7_v10 V, eq_main_call7_v9 V, eq_main_call7_c_3 V, eq_main_call7_v7 V, eq_main_call7_c_2 V,
    eq_main_call7_v5 V, eq_main_call7_c_1 V, eq_main_call7_v4 V, eq_main_call7_v3 V, eq_main_call7_v2 V, eq_main_call7_c_0 V,
    eq_main_call7_v1 V, eq_main_call7_c V, eq_main_call7_v0 V, eq_main_c_8 V]
  show remWord .host ((after ops V (Proc.devRef .tc main_v18) : IVec S130816 32) (ix1 e)) (w32 512) = _
  have hn := nth_lt e
  rw [v18_apply, remWord_of_nonneg .host (by rw [toNat_w32 (by omega)]; omega) (by rw [toNat_w32 (by norm_num)]; norm_num)
    (by rw [toNat_w32 (by norm_num)]; norm_num), toNat_w32 (by omega), toNat_w32 (by norm_num)]

/-- The edge table of the program is the pair table. -/
theorem rows_pairTable (e : Fin 130816) :
    (after ops V (Proc.devRef .tc main_v17) : IVec S130816 32) (ix1 e) = w32 (pairTable.rows e) := rows_apply V e
theorem cols_pairTable (e : Fin 130816) :
    (after ops V (Proc.devRef .tc main_v19) : IVec S130816 32) (ix1 e) = w32 (pairTable.cols e) := cols_apply V e

end Cert.ReferenceIdeal.Read

end
-- ==== Proof.RefGraph.lean ====
/- Node numbers of the reference's graph.

   An edge of one of the four blocks of pair edges joins nodes 512 b + i and 512 b + j with b < 4 and i < j < 512; a loop
   sits at a node l < 2048. Either way both ends are below 2048. -/
import proofs.«120006_g55027120997065_cont_sun_c4_852_12_alg».proof.Proof.EdgeSpec

noncomputable section

namespace Cert.ReferenceIdeal.Graph

/-- Node numbers of the reference's graph are below 2048. -/
theorem graph_lt (T : Cert.EdgeSpec.PairTable) (P : Cert.Spec.Params) (e : Fin 525312) :
    (Cert.EdgeSpec.graph T P).R e < 2048 ∧ (Cert.EdgeSpec.graph T P).Cc e < 2048 := by
  have he := e.isLt
  have hm : e.val % 130816 < 130816 := Nat.mod_lt _ (by norm_num)
  have hr : Cert.EdgeSpec.rowsN T (e.val % 130816) < 512 := by
    unfold Cert.EdgeSpec.rowsN; rw [dif_pos hm]; exact lt_trans (T.lt _) (T.lt512 _)
  have hc : Cert.EdgeSpec.colsN T (e.val % 130816) < 512 := by
    unfold Cert.EdgeSpec.colsN; rw [dif_pos hm]; exact T.lt512 _
  constructor
  · show Cert.EdgeSpec.srcN T e.val < 2048
    unfold Cert.EdgeSpec.srcN
    split
    · rename_i h
      have hq : e.val / 130816 ≤ 3 := by omega
      omega
    · omega
  · show Cert.EdgeSpec.tgtN T e.val < 2048
    unfold Cert.EdgeSpec.tgtN
    split
    · rename_i h
      have hq : e.val / 130816 ≤ 3 := by omega
      omega
    · omega

end Cert.ReferenceIdeal.Graph

end
-- ==== Proof.RefEq1.lean ====
/- The equations of window 1's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefRun

set_option maxRecDepth 65536
set_option maxHeartbeats 1000000

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem eq_main_v42 (V : Valuation τ sig (Elt F)) :
    (after ops V (Proc.devRef .tc main_v42) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v19) : (⟨S130816, .i32⟩ : BufTy).Contents (Elt F)) (after ops V (Proc.devRef .tc main_v41) : (⟨S130816, .i32⟩ : BufTy).Contents (Elt F)) :=
  (final_eq V (op := (binary main_v19 main_v41 main_v42 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops1 (List.getElem_mem (l := (ops1 : List (HloOp τ sig (Elt F)))) (n := 0) (by show (0 : ℕ) < 60; decide))) main_v42 rfl (readsBelow_binary _ _ _ _ _ _ _ (by decide) (by decide))).trans
    (by first | (rw [binary_result]; done) | (rw [binary_result]; rfl))

theorem eq_main_c_16 (V : Valuation τ sig (Elt F)) :
    (after ops V (Proc.devRef .tc main_c_16) : (⟨S_, .i32⟩ : BufTy).Contents (Elt F)) = ((constantI S_ 32 512#32) : (⟨S_, .i32⟩ : BufTy).Contents (Elt F)) :=
  (final_eq V (op := (nullary main_c_16 (constantI S_ 32 512#32) : HloOp τ sig (Elt F))) (mem_ops1 (List.getElem_mem (l := (ops1 : List (HloOp τ sig (Elt F)))) (n := 1) (by show (1 : ℕ) < 60; decide))) main_c_16 rfl (readsBelow_nullary _ _ _)).trans
    (by first | (rw [nullary_result]; done) | (rw [nullary_result]; rfl))

theorem eq_main_v43 (V : Valuation τ sig (Elt F)) :
    (after ops V (Proc.devRef .tc main_v43) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_16) : (⟨S_, .i32⟩ : BufTy).Contents (Elt F)) :=
  (final_eq V (op := (unary main_c_16 main_v43 (broadcastInDim S130816 ![] bcast_S_S130816 : (⟨S_, .i32⟩ : BufTy).Contents (Elt F) → (⟨S130816, .i32⟩ : BufTy).Contents (Elt F)) : HloOp τ sig (Elt F))) (mem_ops1 (List.getElem_mem (l := (ops1 : List (HloOp τ sig (Elt F)))) (n := 2) (by show (2 : ℕ) < 60; decide))) main_v43 rfl (readsBelow_unary _ _ _ _ _ (by decide))).trans
    (by first | (rw [unary_result]; done) | (rw [unary_result]; rfl))

theorem eq_main_v44 (V : Valuation τ sig (Elt F)) :
    (after ops V (Proc.devRef .tc main_v44) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v43) : (⟨S130816, .i32⟩ : BufTy).Contents (Elt F)) :=
  (final_eq V (op := (binary main_v19 main_v43 main_v44 (addi : (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 3) (by show (3 : ℕ) < 60; decide))) main_v44 rfl (readsBelow_binary _ _ _ _ _ _ _ (by decide) (by decide))).trans
    (by first | (rw [binary_result]; done) | (rw [binary_result]; rfl))

theorem eq_main_v45 (V : Valuation τ sig (Elt F)) :
    (after ops V (Proc.devRef .tc main_v45) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v42) : (⟨S130816, .i1⟩ : BufTy).Contents (Elt F)) (after ops V (Proc.devRef .tc main_v44) : (⟨S130816, .i32⟩ : BufTy).Contents (Elt F)) (after ops V (Proc.devRef .tc main_v19) : (⟨S130816, .i32⟩ : BufTy).Contents (Elt F)) :=
  (final_eq V (op := (ternary main_v42 main_v44 main_v19 main_v45 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 4) (by show (4 : ℕ) < 60; decide))) main_v45 rfl (readsBelow_ternary _ _ _ _ _ _ _ _ _ (by decide) (by decide) (by decide))).trans
    (by first | (rw [ternary_result]; done) | (rw [ternary_result]; rfl))

theorem eq_main_v46 (V : Valuation τ sig (Elt F)) :
    (after ops V (Proc.devRef .tc main_v46) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v40) : (⟨S130816, .i32⟩ : BufTy).Contents (Elt F)) :=
  (final_eq V (op := (unary main_v40 main_v46 (broadcastInDim S130816x1 ![0] bcast_S130816_S130816x1_0 : (⟨S130816, .i32⟩ : BufTy).Contents (Elt F) → (⟨S130816x1, .i32⟩ : BufTy).Contents (Elt F)) : HloOp τ sig (Elt F))) (mem_ops1 (List.getElem_mem (l := (ops1 : List (HloOp τ sig (Elt F)))) (n := 5) (by show (5 : ℕ) < 60; decide))) main_v46 rfl (readsBelow_unary _ _ _ _ _ (by decide))).trans
    (by first | (rw [unary_result]; done) | (rw [unary_result]; rfl))

theorem eq_main_v47 (V : Valuation τ sig (Elt F)) :
    (after ops V (Proc.devRef .tc main_v47) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v45) : (⟨S130816, .i32⟩ : BufTy).Contents (Elt F)) :=
  (final_eq V (op := (unary main_v45 main_v47 (broadcastInDim S130816x1 ![0] bcast_S130816_S130816x1_0 : (⟨S130816, .i32⟩ : BufTy).Contents (Elt F) → (⟨S130816x1, .i32⟩ : BufTy).Contents (Elt F)) : HloOp τ sig (Elt F))) (mem_ops1 (List.getElem_mem (l := (ops1 : List (HloOp τ sig (Elt F)))) (n := 6) (by show (6 : ℕ) < 60; decide))) main_v47 rfl (readsBelow_unary _ _ _ _ _ (by decide))).trans
    (by first | (rw [unary_result]; done) | (rw [unary_result]; rfl))

theorem eq_main_v48 (V : Valuation τ sig (Elt F)) :
    (after ops V (Proc.devRef .tc main_v48) : (⟨S130816x2, .i32⟩ : BufTy).Contents (Elt F)) = (((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F))) (after ops V (Proc.devRef .tc main_v46) : (⟨S130816x1, .i32⟩ : BufTy).Contents (Elt F)) (after ops V (Proc.devRef .tc main_v47) : (⟨S130816x1, .i32⟩ : BufTy).Contents (Elt F)) :=
  (final_eq V (op := (binary main_v46 main_v47 main_v48 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)) : HloOp τ sig (Elt F))) (mem_ops1 (List.getElem_mem (l := (ops1 : List (HloOp τ sig (Elt F)))) (n := 7) (by show (7 : ℕ) < 60; decide))) main_v48 rfl (readsBelow_binary _ _ _ _ _ _ _ (by decide) (by decide))).trans
    (by first | (rw [binary_result]; done) | (rw [binary_result]; rfl))

theorem eq_main_v49 (V : Valuation τ sig (Elt F)) :
    (after ops V (Proc.devRef .tc main_v49) : (⟨S130816, .f32⟩ : BufTy).Contents (Elt F)) = (((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F))) (after ops V (Proc.devRef .tc main_v31) : (⟨S512x512, .f32⟩ : BufTy).Contents (Elt F)) (after ops V (Proc.devRef .tc main_v48) : (⟨S130816x2, .i32⟩ : BufTy).Contents (Elt F)) :=
  (final_eq V (op := (binary main_v31 main_v48 main_v49 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)) : HloOp τ sig (Elt F))) (mem_ops1 (List.getElem_mem (l := (ops1 : List (HloOp τ sig (Elt F)))) (n := 8) (by show (8 : ℕ) < 60; decide))) main_v49 rfl (readsBelow_binary _ _ _ _ _ _ _ (by decide) (by decide))).trans
    (by first | (rw [binary_result]; done) | (rw [binary_result]; rfl))

theorem eq_main_v50 (V : Valuation τ sig (Elt F)) :
    (after ops V (Proc.devRef .tc main_v50) : (⟨S1x512x128, .f32⟩ : BufTy).Contents (Elt F)) = (((extractStridedSlice S1x512x128 ![1, 0, 0] · slices_S4x512x128_S1x512x128_1_0_0) : (⟨S4x512x128, .f32⟩ : BufTy).Contents (Elt F) → (⟨S1x512x128, .f32⟩ : BufTy).Contents (Elt F))) (after ops V (Proc.devRef .tc main_arg0) : (⟨S4x512x128, .f32⟩ : BufTy).Contents (Elt F)) :=
  (final_eq V (op := (unary main_arg0 main_v50 ((extractStridedSlice S1x512x128 ![1, 0, 0] · slices_S4x512x128_S1x512x128_1_0_0) : (⟨S4x512x128, .f32⟩ : BufTy).Contents (Elt F) → (⟨S1x512x128, .f32⟩ : BufTy).Contents (Elt F)) : HloOp τ sig (Elt F))) (mem_ops1 (List.getElem_mem (l := (ops1 : List (HloOp τ sig (Elt F)))) (n := 9) (by show (9 : ℕ) < 60; decide))) main_v50 rfl (readsBelow_unary _ _ _ _ _ (by decide))).trans
    (by first | (rw [unary_result]; done) | (rw [unary_result]; rfl))

theorem eq_main_v51 (V : Valuation τ sig (Elt F)) :
    (after ops V (Proc.devRef .tc main_v51) : (⟨S512x128, .f32⟩ : BufTy).Contents (Elt F)) = shapeCast S512x128 (after ops V (Proc.devRef .tc main_v50) : (⟨S1x512x128, .f32⟩ : BufTy).Contents (Elt F)) shapeCasts_S1x512x128_S512x128 :=
  (final_eq V (op := (reshape main_v50 main_v51 rfl shapeCasts_S1x512x128_S512x128 : HloOp τ sig (Elt F))) (mem_ops1 (List.getElem_mem (l := (ops1 : List (HloOp τ sig (Elt F)))) (n := 10) (by show (10 : ℕ) < 60; decide))) main_v51 rfl (readsBelow_reshape _ _ _ _ _ _ (by decide))).trans
    (by first | (rw [reshape_result]; done) | (rw [reshape_result]; rfl))

theorem eq_main_v52 (V : Valuation τ sig (Elt F)) :
    (after ops V (Proc.devRef .tc main_v52) : (⟨S512x1x128, .f32⟩ : BufTy).Contents (Elt F)) = ((broadcastInDim S512x1x128 ![0, 2] bcast_S512x128_S512x1x128_0_2 : (⟨S512x128, .f32⟩ : BufTy).Contents (Elt F) → (⟨S512x1x128, .f32⟩ : BufTy).Contents (Elt F))) (after ops V (Proc.devRef .tc main_v51) : (⟨S512x128, .f32⟩ : BufTy).Contents (Elt F)) :=
  (final_eq V (op := (unary main_v51 main_v52 (broadcastInDim S512x1x128 ![0, 2] bcast_S512x128_S512x1x128_0_2 : (⟨S512x128, .f32⟩ : BufTy).Contents (Elt F) → (⟨S512x1x128, .f32⟩ : BufTy).Contents (Elt F)) : HloOp τ sig (Elt F))) (mem_ops1 (List.getElem_mem (l := (ops1 : List (HloOp τ sig (Elt F)))) (n := 11) (by show (11 : ℕ) < 60; decide))) main_v52 rfl (readsBelow_unary _ _ _ _ _ (by decide))).trans
    (by first | (rw [unary_result]; done) | (rw [unary_result]; rfl))

theorem eq_main_v53 (V : Valuation τ sig (Elt F)) :
    (after ops V (Proc.devRef .tc main_v53) : (⟨S1x512x128, .f32⟩ : BufTy).Contents (Elt F)) = ((broadcastInDim S1x512x128 ![1, 2] bcast_S512x128_S1x512x128_1_2 : (⟨S512x128, .f32⟩ : BufTy).Contents (Elt F) → (⟨S1x512x128, .f32⟩ : BufTy).Contents (Elt F))) (after ops V (Proc.devRef .tc main_v51) : (⟨S512x128, .f32⟩ : BufTy).Contents (Elt F)) :=
  (final_eq V (op := (unary main_v51 main_v53 (broadcastInDim S1x512x128 ![1, 2] bcast_S512x128_S1x512x128_1_2 : (⟨S512x128, .f32⟩ : BufTy).Contents (Elt F) → (⟨S1x512x128, .f32⟩ : BufTy).Contents (Elt F)) : HloOp τ sig (Elt F))) (mem_ops1 (List.getElem_mem (l := (ops1 : List (HloOp τ sig (Elt F)))) (n := 12) (by show (12 : ℕ) < 60; decide))) main_v53 rfl (readsBelow_unary _ _ _ _ _ (by decide))).trans
    (by first | (rw [unary_result]; done) | (rw [unary_result]; rfl))

theorem eq_main_v54 (V : Valuation τ sig (Elt F)) :
    (after ops V (Proc.devRef .tc main_v54) : (⟨S512x512x128, .f32⟩ : BufTy).Contents (Elt F)) = ((broadcastInDim S512x512x128 ![0, 1, 2] bcast_S512x1x128_S512x512x128_0_1_2 : (⟨S512x1x128, .f32⟩ : BufTy).Contents (Elt F) → (⟨S512x512x128, .f32⟩ : BufTy).Contents (Elt F))) (after ops V (Proc.devRef .tc main_v52) : (⟨S512x1x128, .f32⟩ : BufTy).Contents (Elt F)) :=
  (final_eq V (op := (unary main_v52 main_v54 (broadcastInDim S512x512x128 ![0, 1, 2] bcast_S512x1x128_S512x512x128_0_1_2 : (⟨S512x1x128, .f32⟩ : BufTy).Contents (Elt F) → (⟨S512x512x128, .f32⟩ : BufTy).Contents (Elt F)) : HloOp τ sig (Elt F))) (mem_ops1 (List.getElem_mem (l := (ops1 : List (HloOp τ sig (Elt F)))) (n := 13) (by show (13 : ℕ) < 60; decide))) main_v54 rfl (readsBelow_unary _ _ _ _ _ (by decide))).trans
    (by first | (rw [unary_result]; done) | (rw [unary_result]; rfl))

theorem eq_main_v55 (V : Valuation τ sig (Elt F)) :
    (after ops V (Proc.devRef .tc main_v55) : (⟨S512x512x128, .f32⟩ : BufTy).Contents (Elt F)) = ((broadcastInDim S512x512x128 ![0, 1, 2] bcast_S1x512x128_S512x512x128_0_1_2 : (⟨S1x512x128, .f32⟩ : BufTy).Contents (Elt F) → (⟨S512x512x128, .f32⟩ : BufTy).Contents (Elt F))) (after ops V (Proc.devRef .tc main_v53) : (⟨S1x512x128, .f32⟩ : BufTy).Contents (Elt F)) :=
  (final_eq V (op := (unary main_v53 main_v55 (broadcastInDim S512x512x128 ![0, 1, 2] bcast_S1x512x128_S512x512x128_0_1_2 : (⟨S1x512x128, .f32⟩ : BufTy).Contents (Elt F) → (⟨S512x512x128, .f32⟩ : BufTy).Contents (Elt F)) : HloOp τ sig (Elt F))) (mem_ops1 (List.getElem_mem (l := (ops1 : List (HloOp τ sig (Elt F)))) (n := 14) (by show (14 : ℕ) < 60; decide))) main_v55 rfl (readsBelow_unary _ _ _ _ _ (by decide))).trans
    (by first | (rw [unary_result]; done) | (rw [unary_result]; rfl))

theorem eq_main_v56 (V : Valuation τ sig (Elt F)) :
    (after ops V (Proc.devRef .tc main_v56) : (⟨S512x512x128, .f32⟩ : BufTy).Contents (Elt F)) = ((subf : (⟨S512x512x128, .f32⟩ : BufTy).Contents (Elt F) → (⟨S512x512x128, .f32⟩ : BufTy).Contents (Elt F) → (⟨S512x512x128, .f32⟩ : BufTy).Contents (Elt F))) (after ops V (Proc.devRef .tc main_v54) : (⟨S512x512x128, .f32⟩ : BufTy).Contents (Elt F)) (after ops V (Proc.devRef .tc main_v55) : (⟨S512x512x128, .f32⟩ : BufTy).Contents (Elt F)) :=
  (final_eq V (op := (binary main_v54 main_v55 main_v56 (subf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops1 (List.getElem_mem (l := (ops1 : List (HloOp τ sig (Elt F)))) (n := 15) (by show (15 : ℕ) < 60; decide))) main_v56 rfl (readsBelow_binary _ _ _ _ _ _ _ (by decide) (by decide))).trans
    (by first | (rw [binary_result]; done) | (rw [binary_result]; rfl))

theorem eq_main_v57 (V : Valuation τ sig (Elt F)) :
    (after ops V (Proc.devRef .tc main_v57) : (⟨S512x512x128, .f32⟩ : BufTy).Contents (Elt F)) = ((mulf : (⟨S512x512x128, .f32⟩ : BufTy).Contents (Elt F) → (⟨S512x512x128, .f32⟩ : BufTy).Contents (Elt F) → (⟨S512x512x128, .f32⟩ : BufTy).Contents (Elt F))) (after ops V (Proc.devRef .tc main_v56) : (⟨S512x512x128, .f32⟩ : BufTy).Contents (Elt F)) (after ops V (Proc.devRef .tc main_v56) : (⟨S512x512x128, .f32⟩ : BufTy).Contents (Elt F)) :=
  (final_eq V (op := (binary main_v56 main_v56 main_v57 (mulf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops1 (List.getElem_mem (l := (ops1 : List (HloOp τ sig (Elt F)))) (n := 16) (by show (16 : ℕ) < 60; decide))) main_v57 rfl (readsBelow_binary _ _ _ _ _ _ _ (by decide) (by decide))).trans
    (by first | (rw [binary_result]; done) | (rw [binary_result]; rfl))

theorem eq_main_cst_17 (V : Valuation τ sig (Elt F)) :
    (after ops V (Proc.devRef .tc main_cst_17) : (⟨S_, .f32⟩ : BufTy).Contents (Elt F)) = ((constant S_ .f32 0x00000000#32) : (⟨S_, .f32⟩ : BufTy).Contents (Elt F)) :=
  (final_eq V (op := (nullary main_cst_17 (constant S_ .f32 0x00000000#32) : HloOp τ sig (Elt F))) (mem_ops1 (List.getElem_mem (l := (ops1 : List (HloOp τ sig (Elt F)))) (n := 17) (by show (17 : ℕ) < 60; decide))) main_cst_17 rfl (readsBelow_nullary _ _ _)).trans
    (by first | (rw [nullary_result]; done) | (rw [nullary_result]; rfl))

theorem eq_main_v58 (V : Valuation τ sig (Elt F)) :
    (after ops V (Proc.devRef .tc main_v58) : (⟨S512x512, .f32⟩ : BufTy).Contents (Elt F)) = (((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F))) (after ops V (Proc.devRef .tc main_v57) : (⟨S512x512x128, .f32⟩ : BufTy).Contents (Elt F)) (after ops V (Proc.devRef .tc main_cst_17) : (⟨S_, .f32⟩ : BufTy).Contents (Elt F)) :=
  (final_eq V (op := (binary main_v57 main_cst_17 main_v58 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)) : HloOp τ sig (Elt F))) (mem_ops1 (List.getElem_mem (l := (ops1 : List (HloOp τ sig (Elt F)))) (n := 18) (by show (18 : ℕ) < 60; decide))) main_v58 rfl (readsBelow_binary _ _ _ _ _ _ _ (by decide) (by decide))).trans
    (by first | (rw [binary_result]; done) | (rw [binary_result]; rfl))

theorem eq_main_cst_18 (V : Valuation τ sig (Elt F)) :
    (after ops V (Proc.devRef .tc main_cst_18) : (⟨S_, .f32⟩ : BufTy).Contents (Elt F)) = ((constant S_ .f32 0x2B8CBCCC#32) : (⟨S_, .f32⟩ : BufTy).Contents (Elt F)) :=
  (final_eq V (op := (nullary main_cst_18 (constant S_ .f32 0x2B8CBCCC#32) : HloOp τ sig (Elt F))) (mem_ops1 (List.getElem_mem (l := (ops1 : List (HloOp τ sig (Elt F)))) (n := 19) (by show (19 : ℕ) < 60; decide))) main_cst_18 rfl (readsBelow_nullary _ _ _)).trans
    (by first | (rw [nullary_result]; done) | (rw [nullary_result]; rfl))

theorem eq_main_v59 (V : Valuation τ sig (Elt F)) :
    (after ops V (Proc.devRef .tc main_v59) : (⟨S512x512, .f32⟩ : BufTy).Contents (Elt F)) = ((broadcastInDim S512x512 ![] bcast_S_S512x512 : (⟨S_, .f32⟩ : BufTy).Contents (Elt F) → (⟨S512x512, .f32⟩ : BufTy).Contents (Elt F))) (after ops V (Proc.devRef .tc main_cst_18) : (⟨S_, .f32⟩ : BufTy).Contents (Elt F)) :=
  (final_eq V (op := (unary main_cst_18 main_v59 (broadcastInDim S512x512 ![] bcast_S_S512x512 : (⟨S_, .f32⟩ : BufTy).Contents (Elt F) → (⟨S512x512, .f32⟩ : BufTy).Contents (Elt F)) : HloOp τ sig (Elt F))) (mem_ops1 (List.getElem_mem (l := (ops1 : List (HloOp τ sig (Elt F)))) (n := 20) (by show (20 : ℕ) < 60; decide))) main_v59 rfl (readsBelow_unary _ _ _ _ _ (by decide))).trans
    (by first | (rw [unary_result]; done) | (rw [unary_result]; rfl))

theorem eq_main_v60 (V : Valuation τ sig (Elt F)) :
    (after ops V (Proc.devRef .tc main_v60) : (⟨S512x512, .f32⟩ : BufTy).Contents (Elt F)) = ((maximumf : (⟨S512x512, .f32⟩ : BufTy).Contents (Elt F) → (⟨S512x512, .f32⟩ : BufTy).Contents (Elt F) → (⟨S512x512, .f32⟩ : BufTy).Contents (Elt F))) (after ops V (Proc.devRef .tc main_v58) : (⟨S512x512, .f32⟩ : BufTy).Contents (Elt F)) (after ops V (Proc.devRef .tc main_v59) : (⟨S512x512, .f32⟩ : BufTy).Contents (Elt F)) :=
  (final_eq V (op := (binary main_v58 main_v59 main_v60 (maximumf : (⟨S512x512, .f32⟩ : BufTy).Contents (Elt F) → (⟨S512x512, .f32⟩ : BufTy).Contents (Elt F) → (⟨S512x512, .f32⟩ : BufTy).Contents (Elt F)) : HloOp τ sig (Elt F))) (mem_ops1 (List.getElem_mem (l := (ops1 : List (HloOp τ sig (Elt F)))) (n := 21) (by show (21 : ℕ) < 60; decide))) main_v60 rfl (readsBelow_binary _ _ _ _ _ _ _ (by decide) (by decide))).trans
    (by first | (rw [binary_result]; done) | (rw [binary_result]; rfl))

theorem eq_main_v61 (V : Valuation τ sig (Elt F)) :
    (after ops V (Proc.devRef .tc main_v61) : (⟨S512x512, .f32⟩ : BufTy).Contents (Elt F)) = ((Host.sqrt : (⟨S512x512, .f32⟩ : BufTy).Contents (Elt F) → (⟨S512x512, .f32⟩ : BufTy).Contents (Elt F))) (after ops V (Proc.devRef .tc main_v60) : (⟨S512x512, .f32⟩ : BufTy).Contents (Elt F)) :=
  (final_eq V (op := (unary main_v60 main_v61 (Host.sqrt : (⟨S512x512, .f32⟩ : BufTy).Contents (Elt F) → (⟨S512x512, .f32⟩ : BufTy).Contents (Elt F)) : HloOp τ sig (Elt F))) (mem_ops1 (List.getElem_mem (l := (ops1 : List (HloOp τ sig (Elt F)))) (n := 22) (by show (22 : ℕ) < 60; decide))) main_v61 rfl (readsBelow_unary _ _ _ _ _ (by decide))).trans
    (by first | (rw [unary_result]; done) | (rw [unary_result]; rfl))

theorem eq_main_c_19 (V : Valuation τ sig (Elt F)) :
    (after ops V (Proc.devRef .tc main_c_19) : (⟨S_, .i32⟩ : BufTy).Contents (Elt F)) = ((constantI S_ 32 512#32) : (⟨S_, .i32⟩ : BufTy).Contents (Elt F)) :=
  (final_eq V (op := (nullary main_c_19 (constantI S_ 32 512#32) : HloOp τ sig (Elt F))) (mem_ops1 (List.getElem_mem (l := (ops1 : List (HloOp τ sig (Elt F)))) (n := 23) (by show (23 : ℕ) < 60; decide))) main_c_19 rfl (readsBelow_nullary _ _ _)).trans
    (by first | (rw [nullary_result]; done) | (rw [nullary_result]; rfl))

theorem eq_main_v62 (V : Valuation τ sig (Elt F)) :
    (after ops V (Proc.devRef .tc main_v62) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_19) : (⟨S_, .i32⟩ : BufTy).Contents (Elt F)) :=
  (final_eq V (op := (unary main_c_19 main_v62 (broadcastInDim S130816 ![] bcast_S_S130816 : (⟨S_, .i32⟩ : BufTy).Contents (Elt F) → (⟨S130816, .i32⟩ : BufTy).Contents (Elt F)) : HloOp τ sig (Elt F))) (mem_ops1 (List.getElem_mem (l := (ops1 : List (HloOp τ sig (Elt F)))) (n := 24) (by show (24 : ℕ) < 60; decide))) main_v62 rfl (readsBelow_unary _ _ _ _ _ (by decide))).trans
    (by first | (rw [unary_result]; done) | (rw [unary_result]; rfl))

theorem eq_main_v63 (V : Valuation τ sig (Elt F)) :
    (after ops V (Proc.devRef .tc main_v63) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v62) : (⟨S130816, .i32⟩ : BufTy).Contents (Elt F)) :=
  (final_eq V (op := (binary main_v17 main_v62 main_v63 (addi : (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 25) (by show (25 : ℕ) < 60; decide))) main_v63 rfl (readsBelow_binary _ _ _ _ _ _ _ (by decide) (by decide))).trans
    (by first | (rw [binary_result]; done) | (rw [binary_result]; rfl))

theorem eq_main_c_20 (V : Valuation τ sig (Elt F)) :
    (after ops V (Proc.devRef .tc main_c_20) : (⟨S_, .i32⟩ : BufTy).Contents (Elt F)) = ((constantI S_ 32 512#32) : (⟨S_, .i32⟩ : BufTy).Contents (Elt F)) :=
  (final_eq V (op := (nullary main_c_20 (constantI S_ 32 512#32) : HloOp τ sig (Elt F))) (mem_ops1 (List.getElem_mem (l := (ops1 : List (HloOp τ sig (Elt F)))) (n := 26) (by show (26 : ℕ) < 60; decide))) main_c_20 rfl (readsBelow_nullary _ _ _)).trans
    (by first | (rw [nullary_result]; done) | (rw [nullary_result]; rfl))

theorem eq_main_v64 (V : Valuation τ sig (Elt F)) :
    (after ops V (Proc.devRef .tc main_v64) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_20) : (⟨S_, .i32⟩ : BufTy).Contents (Elt F)) :=
  (final_eq V (op := (unary main_c_20 main_v64 (broadcastInDim S130816 ![] bcast_S_S130816 : (⟨S_, .i32⟩ : BufTy).Contents (Elt F) → (⟨S130816, .i32⟩ : BufTy).Contents (Elt F)) : HloOp τ sig (Elt F))) (mem_ops1 (List.getElem_mem (l := (ops1 : List (HloOp τ sig (Elt F)))) (n := 27) (by show (27 : ℕ) < 60; decide))) main_v64 rfl (readsBelow_unary _ _ _ _ _ (by decide))).trans
    (by first | (rw [unary_result]; done) | (rw [unary_result]; rfl))

theorem eq_main_v65 (V : Valuation τ sig (Elt F)) :
    (after ops V (Proc.devRef .tc main_v65) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v64) : (⟨S130816, .i32⟩ : BufTy).Contents (Elt F)) :=
  (final_eq V (op := (binary main_v19 main_v64 main_v65 (addi : (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 28) (by show (28 : ℕ) < 60; decide))) main_v65 rfl (readsBelow_binary _ _ _ _ _ _ _ (by decide) (by decide))).trans
    (by first | (rw [binary_result]; done) | (rw [binary_result]; rfl))

theorem eq_main_c_21 (V : Valuation τ sig (Elt F)) :
    (after ops V (Proc.devRef .tc main_c_21) : (⟨S_, .i32⟩ : BufTy).Contents (Elt F)) = ((constantI S_ 32 0#32) : (⟨S_, .i32⟩ : BufTy).Contents (Elt F)) :=
  (final_eq V (op := (nullary main_c_21 (constantI S_ 32 0#32) : HloOp τ sig (Elt F))) (mem_ops1 (List.getElem_mem (l := (ops1 : List (HloOp τ sig (Elt F)))) (n := 29) (by show (29 : ℕ) < 60; decide))) main_c_21 rfl (readsBelow_nullary _ _ _)).trans
    (by first | (rw [nullary_result]; done) | (rw [nullary_result]; rfl))

theorem eq_main_v66 (V : Valuation τ sig (Elt F)) :
    (after ops V (Proc.devRef .tc main_v66) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_21) : (⟨S_, .i32⟩ : BufTy).Contents (Elt F)) :=
  (final_eq V (op := (unary main_c_21 main_v66 (broadcastInDim S130816 ![] bcast_S_S130816 : (⟨S_, .i32⟩ : BufTy).Contents (Elt F) → (⟨S130816, .i32⟩ : BufTy).Contents (Elt F)) : HloOp τ sig (Elt F))) (mem_ops1 (List.getElem_mem (l := (ops1 : List (HloOp τ sig (Elt F)))) (n := 30) (by show (30 : ℕ) < 60; decide))) main_v66 rfl (readsBelow_unary _ _ _ _ _ (by decide))).trans
    (by first | (rw [unary_result]; done) | (rw [unary_result]; rfl))

theorem eq_main_v67 (V : Valuation τ sig (Elt F)) :
    (after ops V (Proc.devRef .tc main_v67) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v17) : (⟨S130816, .i32⟩ : BufTy).Contents (Elt F)) (after ops V (Proc.devRef .tc main_v66) : (⟨S130816, .i32⟩ : BufTy).Contents (Elt F)) :=
  (final_eq V (op := (binary main_v17 main_v66 main_v67 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops1 (List.getElem_mem (l := (ops1 : List (HloOp τ sig (Elt F)))) (n := 31) (by show (31 : ℕ) < 60; decide))) main_v67 rfl (readsBelow_binary _ _ _ _ _ _ _ (by decide) (by decide))).trans
    (by first | (rw [binary_result]; done) | (rw [binary_result]; rfl))

theorem eq_main_c_22 (V : Valuation τ sig (Elt F)) :
    (after ops V (Proc.devRef .tc main_c_22) : (⟨S_, .i32⟩ : BufTy).Contents (Elt F)) = ((constantI S_ 32 512#32) : (⟨S_, .i32⟩ : BufTy).Contents (Elt F)) :=
  (final_eq V (op := (nullary main_c_22 (constantI S_ 32 512#32) : HloOp τ sig (Elt F))) (mem_ops1 (List.getElem_mem (l := (ops1 : List (HloOp τ sig (Elt F)))) (n := 32) (by show (32 : ℕ) < 60; decide))) main_c_22 rfl (readsBelow_nullary _ _ _)).trans
    (by first | (rw [nullary_result]; done) | (rw [nullary_result]; rfl))

theorem eq_main_v68 (V : Valuation τ sig (Elt F)) :
    (after ops V (Proc.devRef .tc main_v68) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_22) : (⟨S_, .i32⟩ : BufTy).Contents (Elt F)) :=
  (final_eq V (op := (unary main_c_22 main_v68 (broadcastInDim S130816 ![] bcast_S_S130816 : (⟨S_, .i32⟩ : BufTy).Contents (Elt F) → (⟨S130816, .i32⟩ : BufTy).Contents (Elt F)) : HloOp τ sig (Elt F))) (mem_ops1 (List.getElem_mem (l := (ops1 : List (HloOp τ sig (Elt F)))) (n := 33) (by show (33 : ℕ) < 60; decide))) main_v68 rfl (readsBelow_unary _ _ _ _ _ (by decide))).trans
    (by first | (rw [unary_result]; done) | (rw [unary_result]; rfl))

theorem eq_main_v69 (V : Valuation τ sig (Elt F)) :
    (after ops V (Proc.devRef .tc main_v69) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v68) : (⟨S130816, .i32⟩ : BufTy).Contents (Elt F)) :=
  (final_eq V (op := (binary main_v17 main_v68 main_v69 (addi : (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 34) (by show (34 : ℕ) < 60; decide))) main_v69 rfl (readsBelow_binary _ _ _ _ _ _ _ (by decide) (by decide))).trans
    (by first | (rw [binary_result]; done) | (rw [binary_result]; rfl))

theorem eq_main_v70 (V : Valuation τ sig (Elt F)) :
    (after ops V (Proc.devRef .tc main_v70) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v67) : (⟨S130816, .i1⟩ : BufTy).Contents (Elt F)) (after ops V (Proc.devRef .tc main_v69) : (⟨S130816, .i32⟩ : BufTy).Contents (Elt F)) (after ops V (Proc.devRef .tc main_v17) : (⟨S130816, .i32⟩ : BufTy).Contents (Elt F)) :=
  (final_eq V (op := (ternary main_v67 main_v69 main_v17 main_v70 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 35) (by show (35 : ℕ) < 60; decide))) main_v70 rfl (readsBelow_ternary _ _ _ _ _ _ _ _ _ (by decide) (by decide) (by decide))).trans
    (by first | (rw [ternary_result]; done) | (rw [ternary_result]; rfl))

theorem eq_main_c_23 (V : Valuation τ sig (Elt F)) :
    (after ops V (Proc.devRef .tc main_c_23) : (⟨S_, .i32⟩ : BufTy).Contents (Elt F)) = ((constantI S_ 32 0#32) : (⟨S_, .i32⟩ : BufTy).Contents (Elt F)) :=
  (final_eq V (op := (nullary main_c_23 (constantI S_ 32 0#32) : HloOp τ sig (Elt F))) (mem_ops1 (List.getElem_mem (l := (ops1 : List (HloOp τ sig (Elt F)))) (n := 36) (by show (36 : ℕ) < 60; decide))) main_c_23 rfl (readsBelow_nullary _ _ _)).trans
    (by first | (rw [nullary_result]; done) | (rw [nullary_result]; rfl))

theorem eq_main_v71 (V : Valuation τ sig (Elt F)) :
    (after ops V (Proc.devRef .tc main_v71) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_23) : (⟨S_, .i32⟩ : BufTy).Contents (Elt F)) :=
  (final_eq V (op := (unary main_c_23 main_v71 (broadcastInDim S130816 ![] bcast_S_S130816 : (⟨S_, .i32⟩ : BufTy).Contents (Elt F) → (⟨S130816, .i32⟩ : BufTy).Contents (Elt F)) : HloOp τ sig (Elt F))) (mem_ops1 (List.getElem_mem (l := (ops1 : List (HloOp τ sig (Elt F)))) (n := 37) (by show (37 : ℕ) < 60; decide))) main_v71 rfl (readsBelow_unary _ _ _ _ _ (by decide))).trans
    (by first | (rw [unary_result]; done) | (rw [unary_result]; rfl))

theorem eq_main_v72 (V : Valuation τ sig (Elt F)) :
    (after ops V (Proc.devRef .tc main_v72) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v19) : (⟨S130816, .i32⟩ : BufTy).Contents (Elt F)) (after ops V (Proc.devRef .tc main_v71) : (⟨S130816, .i32⟩ : BufTy).Contents (Elt F)) :=
  (final_eq V (op := (binary main_v19 main_v71 main_v72 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops1 (List.getElem_mem (l := (ops1 : List (HloOp τ sig (Elt F)))) (n := 38) (by show (38 : ℕ) < 60; decide))) main_v72 rfl (readsBelow_binary _ _ _ _ _ _ _ (by decide) (by decide))).trans
    (by first | (rw [binary_result]; done) | (rw [binary_result]; rfl))

theorem eq_main_c_24 (V : Valuation τ sig (Elt F)) :
    (after ops V (Proc.devRef .tc main_c_24) : (⟨S_, .i32⟩ : BufTy).Contents (Elt F)) = ((constantI S_ 32 512#32) : (⟨S_, .i32⟩ : BufTy).Contents (Elt F)) :=
  (final_eq V (op := (nullary main_c_24 (constantI S_ 32 512#32) : HloOp τ sig (Elt F))) (mem_ops1 (List.getElem_mem (l := (ops1 : List (HloOp τ sig (Elt F)))) (n := 39) (by show (39 : ℕ) < 60; decide))) main_c_24 rfl (readsBelow_nullary _ _ _)).trans
    (by first | (rw [nullary_result]; done) | (rw [nullary_result]; rfl))

theorem eq_main_v73 (V : Valuation τ sig (Elt F)) :
    (after ops V (Proc.devRef .tc main_v73) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_24) : (⟨S_, .i32⟩ : BufTy).Contents (Elt F)) :=
  (final_eq V (op := (unary main_c_24 main_v73 (broadcastInDim S130816 ![] bcast_S_S130816 : (⟨S_, .i32⟩ : BufTy).Contents (Elt F) → (⟨S130816, .i32⟩ : BufTy).Contents (Elt F)) : HloOp τ sig (Elt F))) (mem_ops1 (List.getElem_mem (l := (ops1 : List (HloOp τ sig (Elt F)))) (n := 40) (by show (40 : ℕ) < 60; decide))) main_v73 rfl (readsBelow_unary _ _ _ _ _ (by decide))).trans
    (by first | (rw [unary_result]; done) | (rw [unary_result]; rfl))

theorem eq_main_v74 (V : Valuation τ sig (Elt F)) :
    (after ops V (Proc.devRef .tc main_v74) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v73) : (⟨S130816, .i32⟩ : BufTy).Contents (Elt F)) :=
  (final_eq V (op := (binary main_v19 main_v73 main_v74 (addi : (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 41) (by show (41 : ℕ) < 60; decide))) main_v74 rfl (readsBelow_binary _ _ _ _ _ _ _ (by decide) (by decide))).trans
    (by first | (rw [binary_result]; done) | (rw [binary_result]; rfl))

theorem eq_main_v75 (V : Valuation τ sig (Elt F)) :
    (after ops V (Proc.devRef .tc main_v75) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v72) : (⟨S130816, .i1⟩ : BufTy).Contents (Elt F)) (after ops V (Proc.devRef .tc main_v74) : (⟨S130816, .i32⟩ : BufTy).Contents (Elt F)) (after ops V (Proc.devRef .tc main_v19) : (⟨S130816, .i32⟩ : BufTy).Contents (Elt F)) :=
  (final_eq V (op := (ternary main_v72 main_v74 main_v19 main_v75 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops1 (List.getElem_mem (l := (ops1 : List (HloOp τ sig (Elt F)))) (n := 42) (by show (42 : ℕ) < 60; decide))) main_v75 rfl (readsBelow_ternary _ _ _ _ _ _ _ _ _ (by decide) (by decide) (by decide))).trans
    (by first | (rw [ternary_result]; done) | (rw [ternary_result]; rfl))

theorem eq_main_v76 (V : Valuation τ sig (Elt F)) :
    (after ops V (Proc.devRef .tc main_v76) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v70) : (⟨S130816, .i32⟩ : BufTy).Contents (Elt F)) :=
  (final_eq V (op := (unary main_v70 main_v76 (broadcastInDim S130816x1 ![0] bcast_S130816_S130816x1_0 : (⟨S130816, .i32⟩ : BufTy).Contents (Elt F) → (⟨S130816x1, .i32⟩ : BufTy).Contents (Elt F)) : HloOp τ sig (Elt F))) (mem_ops1 (List.getElem_mem (l := (ops1 : List (HloOp τ sig (Elt F)))) (n := 43) (by show (43 : ℕ) < 60; decide))) main_v76 rfl (readsBelow_unary _ _ _ _ _ (by decide))).trans
    (by first | (rw [unary_result]; done) | (rw [unary_result]; rfl))

theorem eq_main_v77 (V : Valuation τ sig (Elt F)) :
    (after ops V (Proc.devRef .tc main_v77) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v75) : (⟨S130816, .i32⟩ : BufTy).Contents (Elt F)) :=
  (final_eq V (op := (unary main_v75 main_v77 (broadcastInDim S130816x1 ![0] bcast_S130816_S130816x1_0 : (⟨S130816, .i32⟩ : BufTy).Contents (Elt F) → (⟨S130816x1, .i32⟩ : BufTy).Contents (Elt F)) : HloOp τ sig (Elt F))) (mem_ops1 (List.getElem_mem (l := (ops1 : List (HloOp τ sig (Elt F)))) (n := 44) (by show (44 : ℕ) < 60; decide))) main_v77 rfl (readsBelow_unary _ _ _ _ _ (by decide))).trans
    (by first | (rw [unary_result]; done) | (rw [unary_result]; rfl))

theorem eq_main_v78 (V : Valuation τ sig (Elt F)) :
    (after ops V (Proc.devRef .tc main_v78) : (⟨S130816x2, .i32⟩ : BufTy).Contents (Elt F)) = (((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F))) (after ops V (Proc.devRef .tc main_v76) : (⟨S130816x1, .i32⟩ : BufTy).Contents (Elt F)) (after ops V (Proc.devRef .tc main_v77) : (⟨S130816x1, .i32⟩ : BufTy).Contents (Elt F)) :=
  (final_eq V (op := (binary main_v76 main_v77 main_v78 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)) : HloOp τ sig (Elt F))) (mem_ops1 (List.getElem_mem (l := (ops1 : List (HloOp τ sig (Elt F)))) (n := 45) (by show (45 : ℕ) < 60; decide))) main_v78 rfl (readsBelow_binary _ _ _ _ _ _ _ (by decide) (by decide))).trans
    (by first | (rw [binary_result]; done) | (rw [binary_result]; rfl))

theorem eq_main_v79 (V : Valuation τ sig (Elt F)) :
    (after ops V (Proc.devRef .tc main_v79) : (⟨S130816, .f32⟩ : BufTy).Contents (Elt F)) = (((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F))) (after ops V (Proc.devRef .tc main_v61) : (⟨S512x512, .f32⟩ : BufTy).Contents (Elt F)) (after ops V (Proc.devRef .tc main_v78) : (⟨S130816x2, .i32⟩ : BufTy).Contents (Elt F)) :=
  (final_eq V (op := (binary main_v61 main_v78 main_v79 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)) : HloOp τ sig (Elt F))) (mem_ops1 (List.getElem_mem (l := (ops1 : List (HloOp τ sig (Elt F)))) (n := 46) (by show (46 : ℕ) < 60; decide))) main_v79 rfl (readsBelow_binary _ _ _ _ _ _ _ (by decide) (by decide))).trans
    (by first | (rw [binary_result]; done) | (rw [binary_result]; rfl))

theorem eq_main_v80 (V : Valuation τ sig (Elt F)) :
    (after ops V (Proc.devRef .tc main_v80) : (⟨S1x512x128, .f32⟩ : BufTy).Contents (Elt F)) = (((extractStridedSlice S1x512x128 ![2, 0, 0] · slices_S4x512x128_S1x512x128_2_0_0) : (⟨S4x512x128, .f32⟩ : BufTy).Contents (Elt F) → (⟨S1x512x128, .f32⟩ : BufTy).Contents (Elt F))) (after ops V (Proc.devRef .tc main_arg0) : (⟨S4x512x128, .f32⟩ : BufTy).Contents (Elt F)) :=
  (final_eq V (op := (unary main_arg0 main_v80 ((extractStridedSlice S1x512x128 ![2, 0, 0] · slices_S4x512x128_S1x512x128_2_0_0) : (⟨S4x512x128, .f32⟩ : BufTy).Contents (Elt F) → (⟨S1x512x128, .f32⟩ : BufTy).Contents (Elt F)) : HloOp τ sig (Elt F))) (mem_ops1 (List.getElem_mem (l := (ops1 : List (HloOp τ sig (Elt F)))) (n := 47) (by show (47 : ℕ) < 60; decide))) main_v80 rfl (readsBelow_unary _ _ _ _ _ (by decide))).trans
    (by first | (rw [unary_result]; done) | (rw [unary_result]; rfl))

theorem eq_main_v81 (V : Valuation τ sig (Elt F)) :
    (after ops V (Proc.devRef .tc main_v81) : (⟨S512x128, .f32⟩ : BufTy).Contents (Elt F)) = shapeCast S512x128 (after ops V (Proc.devRef .tc main_v80) : (⟨S1x512x128, .f32⟩ : BufTy).Contents (Elt F)) shapeCasts_S1x512x128_S512x128 :=
  (final_eq V (op := (reshape main_v80 main_v81 rfl shapeCasts_S1x512x128_S512x128 : HloOp τ sig (Elt F))) (mem_ops1 (List.getElem_mem (l := (ops1 : List (HloOp τ sig (Elt F)))) (n := 48) (by show (48 : ℕ) < 60; decide))) main_v81 rfl (readsBelow_reshape _ _ _ _ _ _ (by decide))).trans
    (by first | (rw [reshape_result]; done) | (rw [reshape_result]; rfl))

theorem eq_main_v82 (V : Valuation τ sig (Elt F)) :
    (after ops V (Proc.devRef .tc main_v82) : (⟨S512x1x128, .f32⟩ : BufTy).Contents (Elt F)) = ((broadcastInDim S512x1x128 ![0, 2] bcast_S512x128_S512x1x128_0_2 : (⟨S512x128, .f32⟩ : BufTy).Contents (Elt F) → (⟨S512x1x128, .f32⟩ : BufTy).Contents (Elt F))) (after ops V (Proc.devRef .tc main_v81) : (⟨S512x128, .f32⟩ : BufTy).Contents (Elt F)) :=
  (final_eq V (op := (unary main_v81 main_v82 (broadcastInDim S512x1x128 ![0, 2] bcast_S512x128_S512x1x128_0_2 : (⟨S512x128, .f32⟩ : BufTy).Contents (Elt F) → (⟨S512x1x128, .f32⟩ : BufTy).Contents (Elt F)) : HloOp τ sig (Elt F))) (mem_ops1 (List.getElem_mem (l := (ops1 : List (HloOp τ sig (Elt F)))) (n := 49) (by show (49 : ℕ) < 60; decide))) main_v82 rfl (readsBelow_unary _ _ _ _ _ (by decide))).trans
    (by first | (rw [unary_result]; done) | (rw [unary_result]; rfl))

theorem eq_main_v83 (V : Valuation τ sig (Elt F)) :
    (after ops V (Proc.devRef .tc main_v83) : (⟨S1x512x128, .f32⟩ : BufTy).Contents (Elt F)) = ((broadcastInDim S1x512x128 ![1, 2] bcast_S512x128_S1x512x128_1_2 : (⟨S512x128, .f32⟩ : BufTy).Contents (Elt F) → (⟨S1x512x128, .f32⟩ : BufTy).Contents (Elt F))) (after ops V (Proc.devRef .tc main_v81) : (⟨S512x128, .f32⟩ : BufTy).Contents (Elt F)) :=
  (final_eq V (op := (unary main_v81 main_v83 (broadcastInDim S1x512x128 ![1, 2] bcast_S512x128_S1x512x128_1_2 : (⟨S512x128, .f32⟩ : BufTy).Contents (Elt F) → (⟨S1x512x128, .f32⟩ : BufTy).Contents (Elt F)) : HloOp τ sig (Elt F))) (mem_ops1 (List.getElem_mem (l := (ops1 : List (HloOp τ sig (Elt F)))) (n := 50) (by show (50 : ℕ) < 60; decide))) main_v83 rfl (readsBelow_unary _ _ _ _ _ (by decide))).trans
    (by first | (rw [unary_result]; done) | (rw [unary_result]; rfl))

theorem eq_main_v84 (V : Valuation τ sig (Elt F)) :
    (after ops V (Proc.devRef .tc main_v84) : (⟨S512x512x128, .f32⟩ : BufTy).Contents (Elt F)) = ((broadcastInDim S512x512x128 ![0, 1, 2] bcast_S512x1x128_S512x512x128_0_1_2 : (⟨S512x1x128, .f32⟩ : BufTy).Contents (Elt F) → (⟨S512x512x128, .f32⟩ : BufTy).Contents (Elt F))) (after ops V (Proc.devRef .tc main_v82) : (⟨S512x1x128, .f32⟩ : BufTy).Contents (Elt F)) :=
  (final_eq V (op := (unary main_v82 main_v84 (broadcastInDim S512x512x128 ![0, 1, 2] bcast_S512x1x128_S512x512x128_0_1_2 : (⟨S512x1x128, .f32⟩ : BufTy).Contents (Elt F) → (⟨S512x512x128, .f32⟩ : BufTy).Contents (Elt F)) : HloOp τ sig (Elt F))) (mem_ops1 (List.getElem_mem (l := (ops1 : List (HloOp τ sig (Elt F)))) (n := 51) (by show (51 : ℕ) < 60; decide))) main_v84 rfl (readsBelow_unary _ _ _ _ _ (by decide))).trans
    (by first | (rw [unary_result]; done) | (rw [unary_result]; rfl))

theorem eq_main_v85 (V : Valuation τ sig (Elt F)) :
    (after ops V (Proc.devRef .tc main_v85) : (⟨S512x512x128, .f32⟩ : BufTy).Contents (Elt F)) = ((broadcastInDim S512x512x128 ![0, 1, 2] bcast_S1x512x128_S512x512x128_0_1_2 : (⟨S1x512x128, .f32⟩ : BufTy).Contents (Elt F) → (⟨S512x512x128, .f32⟩ : BufTy).Contents (Elt F))) (after ops V (Proc.devRef .tc main_v83) : (⟨S1x512x128, .f32⟩ : BufTy).Contents (Elt F)) :=
  (final_eq V (op := (unary main_v83 main_v85 (broadcastInDim S512x512x128 ![0, 1, 2] bcast_S1x512x128_S512x512x128_0_1_2 : (⟨S1x512x128, .f32⟩ : BufTy).Contents (Elt F) → (⟨S512x512x128, .f32⟩ : BufTy).Contents (Elt F)) : HloOp τ sig (Elt F))) (mem_ops1 (List.getElem_mem (l := (ops1 : List (HloOp τ sig (Elt F)))) (n := 52) (by show (52 : ℕ) < 60; decide))) main_v85 rfl (readsBelow_unary _ _ _ _ _ (by decide))).trans
    (by first | (rw [unary_result]; done) | (rw [unary_result]; rfl))

theorem eq_main_v86 (V : Valuation τ sig (Elt F)) :
    (after ops V (Proc.devRef .tc main_v86) : (⟨S512x512x128, .f32⟩ : BufTy).Contents (Elt F)) = ((subf : (⟨S512x512x128, .f32⟩ : BufTy).Contents (Elt F) → (⟨S512x512x128, .f32⟩ : BufTy).Contents (Elt F) → (⟨S512x512x128, .f32⟩ : BufTy).Contents (Elt F))) (after ops V (Proc.devRef .tc main_v84) : (⟨S512x512x128, .f32⟩ : BufTy).Contents (Elt F)) (after ops V (Proc.devRef .tc main_v85) : (⟨S512x512x128, .f32⟩ : BufTy).Contents (Elt F)) :=
  (final_eq V (op := (binary main_v84 main_v85 main_v86 (subf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops1 (List.getElem_mem (l := (ops1 : List (HloOp τ sig (Elt F)))) (n := 53) (by show (53 : ℕ) < 60; decide))) main_v86 rfl (readsBelow_binary _ _ _ _ _ _ _ (by decide) (by decide))).trans
    (by first | (rw [binary_result]; done) | (rw [binary_result]; rfl))

theorem eq_main_v87 (V : Valuation τ sig (Elt F)) :
    (after ops V (Proc.devRef .tc main_v87) : (⟨S512x512x128, .f32⟩ : BufTy).Contents (Elt F)) = ((mulf : (⟨S512x512x128, .f32⟩ : BufTy).Contents (Elt F) → (⟨S512x512x128, .f32⟩ : BufTy).Contents (Elt F) → (⟨S512x512x128, .f32⟩ : BufTy).Contents (Elt F))) (after ops V (Proc.devRef .tc main_v86) : (⟨S512x512x128, .f32⟩ : BufTy).Contents (Elt F)) (after ops V (Proc.devRef .tc main_v86) : (⟨S512x512x128, .f32⟩ : BufTy).Contents (Elt F)) :=
  (final_eq V (op := (binary main_v86 main_v86 main_v87 (mulf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops1 (List.getElem_mem (l := (ops1 : List (HloOp τ sig (Elt F)))) (n := 54) (by show (54 : ℕ) < 60; decide))) main_v87 rfl (readsBelow_binary _ _ _ _ _ _ _ (by decide) (by decide))).trans
    (by first | (rw [binary_result]; done) | (rw [binary_result]; rfl))

theorem eq_main_cst_25 (V : Valuation τ sig (Elt F)) :
    (after ops V (Proc.devRef .tc main_cst_25) : (⟨S_, .f32⟩ : BufTy).Contents (Elt F)) = ((constant S_ .f32 0x00000000#32) : (⟨S_, .f32⟩ : BufTy).Contents (Elt F)) :=
  (final_eq V (op := (nullary main_cst_25 (constant S_ .f32 0x00000000#32) : HloOp τ sig (Elt F))) (mem_ops1 (List.getElem_mem (l := (ops1 : List (HloOp τ sig (Elt F)))) (n := 55) (by show (55 : ℕ) < 60; decide))) main_cst_25 rfl (readsBelow_nullary _ _ _)).trans
    (by first | (rw [nullary_result]; done) | (rw [nullary_result]; rfl))

theorem eq_main_v88 (V : Valuation τ sig (Elt F)) :
    (after ops V (Proc.devRef .tc main_v88) : (⟨S512x512, .f32⟩ : BufTy).Contents (Elt F)) = (((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F))) (after ops V (Proc.devRef .tc main_v87) : (⟨S512x512x128, .f32⟩ : BufTy).Contents (Elt F)) (after ops V (Proc.devRef .tc main_cst_25) : (⟨S_, .f32⟩ : BufTy).Contents (Elt F)) :=
  (final_eq V (op := (binary main_v87 main_cst_25 main_v88 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)) : HloOp τ sig (Elt F))) (mem_ops1 (List.getElem_mem (l := (ops1 : List (HloOp τ sig (Elt F)))) (n := 56) (by show (56 : ℕ) < 60; decide))) main_v88 rfl (readsBelow_binary _ _ _ _ _ _ _ (by decide) (by decide))).trans
    (by first | (rw [binary_result]; done) | (rw [binary_result]; rfl))

theorem eq_main_cst_26 (V : Valuation τ sig (Elt F)) :
    (after ops V (Proc.devRef .tc main_cst_26) : (⟨S_, .f32⟩ : BufTy).Contents (Elt F)) = ((constant S_ .f32 0x2B8CBCCC#32) : (⟨S_, .f32⟩ : BufTy).Contents (Elt F)) :=
  (final_eq V (op := (nullary main_cst_26 (constant S_ .f32 0x2B8CBCCC#32) : HloOp τ sig (Elt F))) (mem_ops1 (List.getElem_mem (l := (ops1 : List (HloOp τ sig (Elt F)))) (n := 57) (by show (57 : ℕ) < 60; decide))) main_cst_26 rfl (readsBelow_nullary _ _ _)).trans
    (by first | (rw [nullary_result]; done) | (rw [nullary_result]; rfl))

theorem eq_main_v89 (V : Valuation τ sig (Elt F)) :
    (after ops V (Proc.devRef .tc main_v89) : (⟨S512x512, .f32⟩ : BufTy).Contents (Elt F)) = ((broadcastInDim S512x512 ![] bcast_S_S512x512 : (⟨S_, .f32⟩ : BufTy).Contents (Elt F) → (⟨S512x512, .f32⟩ : BufTy).Contents (Elt F))) (after ops V (Proc.devRef .tc main_cst_26) : (⟨S_, .f32⟩ : BufTy).Contents (Elt F)) :=
  (final_eq V (op := (unary main_cst_26 main_v89 (broadcastInDim S512x512 ![] bcast_S_S512x512 : (⟨S_, .f32⟩ : BufTy).Contents (Elt F) → (⟨S512x512, .f32⟩ : BufTy).Contents (Elt F)) : HloOp τ sig (Elt F))) (mem_ops1 (List.getElem_mem (l := (ops1 : List (HloOp τ sig (Elt F)))) (n := 58) (by show (58 : ℕ) < 60; decide))) main_v89 rfl (readsBelow_unary _ _ _ _ _ (by decide))).trans
    (by first | (rw [unary_result]; done) | (rw [unary_result]; rfl))

theorem eq_main_v90 (V : Valuation τ sig (Elt F)) :
    (after ops V (Proc.devRef .tc main_v90) : (⟨S512x512, .f32⟩ : BufTy).Contents (Elt F)) = ((maximumf : (⟨S512x512, .f32⟩ : BufTy).Contents (Elt F) → (⟨S512x512, .f32⟩ : BufTy).Contents (Elt F) → (⟨S512x512, .f32⟩ : BufTy).Contents (Elt F))) (after ops V (Proc.devRef .tc main_v88) : (⟨S512x512, .f32⟩ : BufTy).Contents (Elt F)) (after ops V (Proc.devRef .tc main_v89) : (⟨S512x512, .f32⟩ : BufTy).Contents (Elt F)) :=
  (final_eq V (op := (binary main_v88 main_v89 main_v90 (maximumf : (⟨S512x512, .f32⟩ : BufTy).Contents (Elt F) → (⟨S512x512, .f32⟩ : BufTy).Contents (Elt F) → (⟨S512x512, .f32⟩ : BufTy).Contents (Elt F)) : HloOp τ sig (Elt F))) (mem_ops1 (List.getElem_mem (l := (ops1 : List (HloOp τ sig (Elt F)))) (n := 59) (by show (59 : ℕ) < 60; decide))) main_v90 rfl (readsBelow_binary _ _ _ _ _ _ _ (by decide) (by decide))).trans
    (by first | (rw [binary_result]; done) | (rw [binary_result]; rfl))

end Cert.ReferenceIdeal.Line

end
-- ==== Proof.RefEq2.lean ====
/- The equations of window 2's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefRun

set_option maxRecDepth 65536
set_option maxHeartbeats 1000000

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem eq_main_v91 (V : Valuation τ sig (Elt F)) :
    (after ops V (Proc.devRef .tc main_v91) : (⟨S512x512, .f32⟩ : BufTy).Contents (Elt F)) = ((Host.sqrt : (⟨S512x512, .f32⟩ : BufTy).Contents (Elt F) → (⟨S512x512, .f32⟩ : BufTy).Contents (Elt F))) (after ops V (Proc.devRef .tc main_v90) : (⟨S512x512, .f32⟩ : BufTy).Contents (Elt F)) :=
  (final_eq V (op := (unary main_v90 main_v91 (Host.sqrt : (⟨S512x512, .f32⟩ : BufTy).Contents (Elt F) → (⟨S512x512, .f32⟩ : BufTy).Contents (Elt F)) : HloOp τ sig (Elt F))) (mem_ops2 (List.getElem_mem (l := (ops2 : List (HloOp τ sig (Elt F)))) (n := 0) (by show (0 : ℕ) < 60; decide))) main_v91 rfl (readsBelow_unary _ _ _ _ _ (by decide))).trans
    (by first | (rw [unary_result]; done) | (rw [unary_result]; rfl))

theorem eq_main_c_27 (V : Valuation τ sig (Elt F)) :
    (after ops V (Proc.devRef .tc main_c_27) : (⟨S_, .i32⟩ : BufTy).Contents (Elt F)) = ((constantI S_ 32 1024#32) : (⟨S_, .i32⟩ : BufTy).Contents (Elt F)) :=
  (final_eq V (op := (nullary main_c_27 (constantI S_ 32 1024#32) : HloOp τ sig (Elt F))) (mem_ops2 (List.getElem_mem (l := (ops2 : List (HloOp τ sig (Elt F)))) (n := 1) (by show (1 : ℕ) < 60; decide))) main_c_27 rfl (readsBelow_nullary _ _ _)).trans
    (by first | (rw [nullary_result]; done) | (rw [nullary_result]; rfl))

theorem eq_main_v92 (V : Valuation τ sig (Elt F)) :
    (after ops V (Proc.devRef .tc main_v92) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_27) : (⟨S_, .i32⟩ : BufTy).Contents (Elt F)) :=
  (final_eq V (op := (unary main_c_27 main_v92 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 2) (by show (2 : ℕ) < 60; decide))) main_v92 rfl (readsBelow_unary _ _ _ _ _ (by decide))).trans
    (by first | (rw [unary_result]; done) | (rw [unary_result]; rfl))

theorem eq_main_v93 (V : Valuation τ sig (Elt F)) :
    (after ops V (Proc.devRef .tc main_v93) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v92) : (⟨S130816, .i32⟩ : BufTy).Contents (Elt F)) :=
  (final_eq V (op := (binary main_v17 main_v92 main_v93 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 3) (by show (3 : ℕ) < 60; decide))) main_v93 rfl (readsBelow_binary _ _ _ _ _ _ _ (by decide) (by decide))).trans
    (by first | (rw [binary_result]; done) | (rw [binary_result]; rfl))

theorem eq_main_c_28 (V : Valuation τ sig (Elt F)) :
    (after ops V (Proc.devRef .tc main_c_28) : (⟨S_, .i32⟩ : BufTy).Contents (Elt F)) = ((constantI S_ 32 1024#32) : (⟨S_, .i32⟩ : BufTy).Contents (Elt F)) :=
  (final_eq V (op := (nullary main_c_28 (constantI S_ 32 1024#32) : HloOp τ sig (Elt F))) (mem_ops2 (List.getElem_mem (l := (ops2 : List (HloOp τ sig (Elt F)))) (n := 4) (by show (4 : ℕ) < 60; decide))) main_c_28 rfl (readsBelow_nullary _ _ _)).trans
    (by first | (rw [nullary_result]; done) | (rw [nullary_result]; rfl))

theorem eq_main_v94 (V : Valuation τ sig (Elt F)) :
    (after ops V (Proc.devRef .tc main_v94) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_28) : (⟨S_, .i32⟩ : BufTy).Contents (Elt F)) :=
  (final_eq V (op := (unary main_c_28 main_v94 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 5) (by show (5 : ℕ) < 60; decide))) main_v94 rfl (readsBelow_unary _ _ _ _ _ (by decide))).trans
    (by first | (rw [unary_result]; done) | (rw [unary_result]; rfl))

theorem eq_main_v95 (V : Valuation τ sig (Elt F)) :
    (after ops V (Proc.devRef .tc main_v95) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v94) : (⟨S130816, .i32⟩ : BufTy).Contents (Elt F)) :=
  (final_eq V (op := (binary main_v19 main_v94 main_v95 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 6) (by show (6 : ℕ) < 60; decide))) main_v95 rfl (readsBelow_binary _ _ _ _ _ _ _ (by decide) (by decide))).trans
    (by first | (rw [binary_result]; done) | (rw [binary_result]; rfl))

theorem eq_main_c_29 (V : Valuation τ sig (Elt F)) :
    (after ops V (Proc.devRef .tc main_c_29) : (⟨S_, .i32⟩ : BufTy).Contents (Elt F)) = ((constantI S_ 32 0#32) : (⟨S_, .i32⟩ : BufTy).Contents (Elt F)) :=
  (final_eq V (op := (nullary main_c_29 (constantI S_ 32 0#32) : HloOp τ sig (Elt F))) (mem_ops2 (List.getElem_mem (l := (ops2 : List (HloOp τ sig (Elt F)))) (n := 7) (by show (7 : ℕ) < 60; decide))) main_c_29 rfl (readsBelow_nullary _ _ _)).trans
    (by first | (rw [nullary_result]; done) | (rw [nullary_result]; rfl))

theorem eq_main_v96 (V : Valuation τ sig (Elt F)) :
    (after ops V (Proc.devRef .tc main_v96) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_29) : (⟨S_, .i32⟩ : BufTy).Contents (Elt F)) :=
  (final_eq V (op := (unary main_c_29 main_v96 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 8) (by show (8 : ℕ) < 60; decide))) main_v96 rfl (readsBelow_unary _ _ _ _ _ (by decide))).trans
    (by first | (rw [unary_result]; done) | (rw [unary_result]; rfl))

theorem eq_main_v97 (V : Valuation τ sig (Elt F)) :
    (after ops V (Proc.devRef .tc main_v97) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v17) : (⟨S130816, .i32⟩ : BufTy).Contents (Elt F)) (after ops V (Proc.devRef .tc main_v96) : (⟨S130816, .i32⟩ : BufTy).Contents (Elt F)) :=
  (final_eq V (op := (binary main_v17 main_v96 main_v97 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops2 (List.getElem_mem (l := (ops2 : List (HloOp τ sig (Elt F)))) (n := 9) (by show (9 : ℕ) < 60; decide))) main_v97 rfl (readsBelow_binary _ _ _ _ _ _ _ (by decide) (by decide))).trans
    (by first | (rw [binary_result]; done) | (rw [binary_result]; rfl))

theorem eq_main_c_30 (V : Valuation τ sig (Elt F)) :
    (after ops V (Proc.devRef .tc main_c_30) : (⟨S_, .i32⟩ : BufTy).Contents (Elt F)) = ((constantI S_ 32 512#32) : (⟨S_, .i32⟩ : BufTy).Contents (Elt F)) :=
  (final_eq V (op := (nullary main_c_30 (constantI S_ 32 512#32) : HloOp τ sig (Elt F))) (mem_ops2 (List.getElem_mem (l := (ops2 : List (HloOp τ sig (Elt F)))) (n := 10) (by show (10 : ℕ) < 60; decide))) main_c_30 rfl (readsBelow_nullary _ _ _)).trans
    (by first | (rw [nullary_result]; done) | (rw [nullary_result]; rfl))

theorem eq_main_v98 (V : Valuation τ sig (Elt F)) :
    (after ops V (Proc.devRef .tc main_v98) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_30) : (⟨S_, .i32⟩ : BufTy).Contents (Elt F)) :=
  (final_eq V (op := (unary main_c_30 main_v98 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 11) (by show (11 : ℕ) < 60; decide))) main_v98 rfl (readsBelow_unary _ _ _ _ _ (by decide))).trans
    (by first | (rw [unary_result]; done) | (rw [unary_result]; rfl))

theorem eq_main_v99 (V : Valuation τ sig (Elt F)) :
    (after ops V (Proc.devRef .tc main_v99) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v98) : (⟨S130816, .i32⟩ : BufTy).Contents (Elt F)) :=
  (final_eq V (op := (binary main_v17 main_v98 main_v99 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 12) (by show (12 : ℕ) < 60; decide))) main_v99 rfl (readsBelow_binary _ _ _ _ _ _ _ (by decide) (by decide))).trans
    (by first | (rw [binary_result]; done) | (rw [binary_result]; rfl))

theorem eq_main_v100 (V : Valuation τ sig (Elt F)) :
    (after ops V (Proc.devRef .tc main_v100) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v97) : (⟨S130816, .i1⟩ : BufTy).Contents (Elt F)) (after ops V (Proc.devRef .tc main_v99) : (⟨S130816, .i32⟩ : BufTy).Contents (Elt F)) (after ops V (Proc.devRef .tc main_v17) : (⟨S130816, .i32⟩ : BufTy).Contents (Elt F)) :=
  (final_eq V (op := (ternary main_v97 main_v99 main_v17 main_v100 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 13) (by show (13 : ℕ) < 60; decide))) main_v100 rfl (readsBelow_ternary _ _ _ _ _ _ _ _ _ (by decide) (by decide) (by decide))).trans
    (by first | (rw [ternary_result]; done) | (rw [ternary_result]; rfl))

theorem eq_main_c_31 (V : Valuation τ sig (Elt F)) :
    (after ops V (Proc.devRef .tc main_c_31) : (⟨S_, .i32⟩ : BufTy).Contents (Elt F)) = ((constantI S_ 32 0#32) : (⟨S_, .i32⟩ : BufTy).Contents (Elt F)) :=
  (final_eq V (op := (nullary main_c_31 (constantI S_ 32 0#32) : HloOp τ sig (Elt F))) (mem_ops2 (List.getElem_mem (l := (ops2 : List (HloOp τ sig (Elt F)))) (n := 14) (by show (14 : ℕ) < 60; decide))) main_c_31 rfl (readsBelow_nullary _ _ _)).trans
    (by first | (rw [nullary_result]; done) | (rw [nullary_result]; rfl))

theorem eq_main_v101 (V : Valuation τ sig (Elt F)) :
    (after ops V (Proc.devRef .tc main_v101) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_31) : (⟨S_, .i32⟩ : BufTy).Contents (Elt F)) :=
  (final_eq V (op := (unary main_c_31 main_v101 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 15) (by show (15 : ℕ) < 60; decide))) main_v101 rfl (readsBelow_unary _ _ _ _ _ (by decide))).trans
    (by first | (rw [unary_result]; done) | (rw [unary_result]; rfl))

theorem eq_main_v102 (V : Valuation τ sig (Elt F)) :
    (after ops V (Proc.devRef .tc main_v102) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v19) : (⟨S130816, .i32⟩ : BufTy).Contents (Elt F)) (after ops V (Proc.devRef .tc main_v101) : (⟨S130816, .i32⟩ : BufTy).Contents (Elt F)) :=
  (final_eq V (op := (binary main_v19 main_v101 main_v102 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops2 (List.getElem_mem (l := (ops2 : List (HloOp τ sig (Elt F)))) (n := 16) (by show (16 : ℕ) < 60; decide))) main_v102 rfl (readsBelow_binary _ _ _ _ _ _ _ (by decide) (by decide))).trans
    (by first | (rw [binary_result]; done) | (rw [binary_result]; rfl))

theorem eq_main_c_32 (V : Valuation τ sig (Elt F)) :
    (after ops V (Proc.devRef .tc main_c_32) : (⟨S_, .i32⟩ : BufTy).Contents (Elt F)) = ((constantI S_ 32 512#32) : (⟨S_, .i32⟩ : BufTy).Contents (Elt F)) :=
  (final_eq V (op := (nullary main_c_32 (constantI S_ 32 512#32) : HloOp τ sig (Elt F))) (mem_ops2 (List.getElem_mem (l := (ops2 : List (HloOp τ sig (Elt F)))) (n := 17) (by show (17 : ℕ) < 60; decide))) main_c_32 rfl (readsBelow_nullary _ _ _)).trans
    (by first | (rw [nullary_result]; done) | (rw [nullary_result]; rfl))

theorem eq_main_v103 (V : Valuation τ sig (Elt F)) :
    (after ops V (Proc.devRef .tc main_v103) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_32) : (⟨S_, .i32⟩ : BufTy).Contents (Elt F)) :=
  (final_eq V (op := (unary main_c_32 main_v103 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 18) (by show (18 : ℕ) < 60; decide))) main_v103 rfl (readsBelow_unary _ _ _ _ _ (by decide))).trans
    (by first | (rw [unary_result]; done) | (rw [unary_result]; rfl))

theorem eq_main_v104 (V : Valuation τ sig (Elt F)) :
    (after ops V (Proc.devRef .tc main_v104) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v103) : (⟨S130816, .i32⟩ : BufTy).Contents (Elt F)) :=
  (final_eq V (op := (binary main_v19 main_v103 main_v104 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 19) (by show (19 : ℕ) < 60; decide))) main_v104 rfl (readsBelow_binary _ _ _ _ _ _ _ (by decide) (by decide))).trans
    (by first | (rw [binary_result]; done) | (rw [binary_result]; rfl))

theorem eq_main_v105 (V : Valuation τ sig (Elt F)) :
    (after ops V (Proc.devRef .tc main_v105) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v102) : (⟨S130816, .i1⟩ : BufTy).Contents (Elt F)) (after ops V (Proc.devRef .tc main_v104) : (⟨S130816, .i32⟩ : BufTy).Contents (Elt F)) (after ops V (Proc.devRef .tc main_v19) : (⟨S130816, .i32⟩ : BufTy).Contents (Elt F)) :=
  (final_eq V (op := (ternary main_v102 main_v104 main_v19 main_v105 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 20) (by show (20 : ℕ) < 60; decide))) main_v105 rfl (readsBelow_ternary _ _ _ _ _ _ _ _ _ (by decide) (by decide) (by decide))).trans
    (by first | (rw [ternary_result]; done) | (rw [ternary_result]; rfl))

theorem eq_main_v106 (V : Valuation τ sig (Elt F)) :
    (after ops V (Proc.devRef .tc main_v106) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v100) : (⟨S130816, .i32⟩ : BufTy).Contents (Elt F)) :=
  (final_eq V (op := (unary main_v100 main_v106 (broadcastInDim S130816x1 ![0] bcast_S130816_S130816x1_0 : (⟨S130816, .i32⟩ : BufTy).Contents (Elt F) → (⟨S130816x1, .i32⟩ : BufTy).Contents (Elt F)) : HloOp τ sig (Elt F))) (mem_ops2 (List.getElem_mem (l := (ops2 : List (HloOp τ sig (Elt F)))) (n := 21) (by show (21 : ℕ) < 60; decide))) main_v106 rfl (readsBelow_unary _ _ _ _ _ (by decide))).trans
    (by first | (rw [unary_result]; done) | (rw [unary_result]; rfl))

theorem eq_main_v107 (V : Valuation τ sig (Elt F)) :
    (after ops V (Proc.devRef .tc main_v107) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v105) : (⟨S130816, .i32⟩ : BufTy).Contents (Elt F)) :=
  (final_eq V (op := (unary main_v105 main_v107 (broadcastInDim S130816x1 ![0] bcast_S130816_S130816x1_0 : (⟨S130816, .i32⟩ : BufTy).Contents (Elt F) → (⟨S130816x1, .i32⟩ : BufTy).Contents (Elt F)) : HloOp τ sig (Elt F))) (mem_ops2 (List.getElem_mem (l := (ops2 : List (HloOp τ sig (Elt F)))) (n := 22) (by show (22 : ℕ) < 60; decide))) main_v107 rfl (readsBelow_unary _ _ _ _ _ (by decide))).trans
    (by first | (rw [unary_result]; done) | (rw [unary_result]; rfl))

theorem eq_main_v108 (V : Valuation τ sig (Elt F)) :
    (after ops V (Proc.devRef .tc main_v108) : (⟨S130816x2, .i32⟩ : BufTy).Contents (Elt F)) = (((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F))) (after ops V (Proc.devRef .tc main_v106) : (⟨S130816x1, .i32⟩ : BufTy).Contents (Elt F)) (after ops V (Proc.devRef .tc main_v107) : (⟨S130816x1, .i32⟩ : BufTy).Contents (Elt F)) :=
  (final_eq V (op := (binary main_v106 main_v107 main_v108 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)) : HloOp τ sig (Elt F))) (mem_ops2 (List.getElem_mem (l := (ops2 : List (HloOp τ sig (Elt F)))) (n := 23) (by show (23 : ℕ) < 60; decide))) main_v108 rfl (readsBelow_binary _ _ _ _ _ _ _ (by decide) (by decide))).trans
    (by first | (rw [binary_result]; done) | (rw [binary_result]; rfl))

theorem eq_main_v109 (V : Valuation τ sig (Elt F)) :
    (after ops V (Proc.devRef .tc main_v109) : (⟨S130816, .f32⟩ : BufTy).Contents (Elt F)) = (((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F))) (after ops V (Proc.devRef .tc main_v91) : (⟨S512x512, .f32⟩ : BufTy).Contents (Elt F)) (after ops V (Proc.devRef .tc main_v108) : (⟨S130816x2, .i32⟩ : BufTy).Contents (Elt F)) :=
  (final_eq V (op := (binary main_v91 main_v108 main_v109 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)) : HloOp τ sig (Elt F))) (mem_ops2 (List.getElem_mem (l := (ops2 : List (HloOp τ sig (Elt F)))) (n := 24) (by show (24 : ℕ) < 60; decide))) main_v109 rfl (readsBelow_binary _ _ _ _ _ _ _ (by decide) (by decide))).trans
    (by first | (rw [binary_result]; done) | (rw [binary_result]; rfl))

theorem eq_main_v110 (V : Valuation τ sig (Elt F)) :
    (after ops V (Proc.devRef .tc main_v110) : (⟨S1x512x128, .f32⟩ : BufTy).Contents (Elt F)) = (((extractStridedSlice S1x512x128 ![3, 0, 0] · slices_S4x512x128_S1x512x128_3_0_0) : (⟨S4x512x128, .f32⟩ : BufTy).Contents (Elt F) → (⟨S1x512x128, .f32⟩ : BufTy).Contents (Elt F))) (after ops V (Proc.devRef .tc main_arg0) : (⟨S4x512x128, .f32⟩ : BufTy).Contents (Elt F)) :=
  (final_eq V (op := (unary main_arg0 main_v110 ((extractStridedSlice S1x512x128 ![3, 0, 0] · slices_S4x512x128_S1x512x128_3_0_0) : (⟨S4x512x128, .f32⟩ : BufTy).Contents (Elt F) → (⟨S1x512x128, .f32⟩ : BufTy).Contents (Elt F)) : HloOp τ sig (Elt F))) (mem_ops2 (List.getElem_mem (l := (ops2 : List (HloOp τ sig (Elt F)))) (n := 25) (by show (25 : ℕ) < 60; decide))) main_v110 rfl (readsBelow_unary _ _ _ _ _ (by decide))).trans
    (by first | (rw [unary_result]; done) | (rw [unary_result]; rfl))

theorem eq_main_v111 (V : Valuation τ sig (Elt F)) :
    (after ops V (Proc.devRef .tc main_v111) : (⟨S512x128, .f32⟩ : BufTy).Contents (Elt F)) = shapeCast S512x128 (after ops V (Proc.devRef .tc main_v110) : (⟨S1x512x128, .f32⟩ : BufTy).Contents (Elt F)) shapeCasts_S1x512x128_S512x128 :=
  (final_eq V (op := (reshape main_v110 main_v111 rfl shapeCasts_S1x512x128_S512x128 : HloOp τ sig (Elt F))) (mem_ops2 (List.getElem_mem (l := (ops2 : List (HloOp τ sig (Elt F)))) (n := 26) (by show (26 : ℕ) < 60; decide))) main_v111 rfl (readsBelow_reshape _ _ _ _ _ _ (by decide))).trans
    (by first | (rw [reshape_result]; done) | (rw [reshape_result]; rfl))

theorem eq_main_v112 (V : Valuation τ sig (Elt F)) :
    (after ops V (Proc.devRef .tc main_v112) : (⟨S512x1x128, .f32⟩ : BufTy).Contents (Elt F)) = ((broadcastInDim S512x1x128 ![0, 2] bcast_S512x128_S512x1x128_0_2 : (⟨S512x128, .f32⟩ : BufTy).Contents (Elt F) → (⟨S512x1x128, .f32⟩ : BufTy).Contents (Elt F))) (after ops V (Proc.devRef .tc main_v111) : (⟨S512x128, .f32⟩ : BufTy).Contents (Elt F)) :=
  (final_eq V (op := (unary main_v111 main_v112 (broadcastInDim S512x1x128 ![0, 2] bcast_S512x128_S512x1x128_0_2 : (⟨S512x128, .f32⟩ : BufTy).Contents (Elt F) → (⟨S512x1x128, .f32⟩ : BufTy).Contents (Elt F)) : HloOp τ sig (Elt F))) (mem_ops2 (List.getElem_mem (l := (ops2 : List (HloOp τ sig (Elt F)))) (n := 27) (by show (27 : ℕ) < 60; decide))) main_v112 rfl (readsBelow_unary _ _ _ _ _ (by decide))).trans
    (by first | (rw [unary_result]; done) | (rw [unary_result]; rfl))

theorem eq_main_v113 (V : Valuation τ sig (Elt F)) :
    (after ops V (Proc.devRef .tc main_v113) : (⟨S1x512x128, .f32⟩ : BufTy).Contents (Elt F)) = ((broadcastInDim S1x512x128 ![1, 2] bcast_S512x128_S1x512x128_1_2 : (⟨S512x128, .f32⟩ : BufTy).Contents (Elt F) → (⟨S1x512x128, .f32⟩ : BufTy).Contents (Elt F))) (after ops V (Proc.devRef .tc main_v111) : (⟨S512x128, .f32⟩ : BufTy).Contents (Elt F)) :=
  (final_eq V (op := (unary main_v111 main_v113 (broadcastInDim S1x512x128 ![1, 2] bcast_S512x128_S1x512x128_1_2 : (⟨S512x128, .f32⟩ : BufTy).Contents (Elt F) → (⟨S1x512x128, .f32⟩ : BufTy).Contents (Elt F)) : HloOp τ sig (Elt F))) (mem_ops2 (List.getElem_mem (l := (ops2 : List (HloOp τ sig (Elt F)))) (n := 28) (by show (28 : ℕ) < 60; decide))) main_v113 rfl (readsBelow_unary _ _ _ _ _ (by decide))).trans
    (by first | (rw [unary_result]; done) | (rw [unary_result]; rfl))

theorem eq_main_v114 (V : Valuation τ sig (Elt F)) :
    (after ops V (Proc.devRef .tc main_v114) : (⟨S512x512x128, .f32⟩ : BufTy).Contents (Elt F)) = ((broadcastInDim S512x512x128 ![0, 1, 2] bcast_S512x1x128_S512x512x128_0_1_2 : (⟨S512x1x128, .f32⟩ : BufTy).Contents (Elt F) → (⟨S512x512x128, .f32⟩ : BufTy).Contents (Elt F))) (after ops V (Proc.devRef .tc main_v112) : (⟨S512x1x128, .f32⟩ : BufTy).Contents (Elt F)) :=
  (final_eq V (op := (unary main_v112 main_v114 (broadcastInDim S512x512x128 ![0, 1, 2] bcast_S512x1x128_S512x512x128_0_1_2 : (⟨S512x1x128, .f32⟩ : BufTy).Contents (Elt F) → (⟨S512x512x128, .f32⟩ : BufTy).Contents (Elt F)) : HloOp τ sig (Elt F))) (mem_ops2 (List.getElem_mem (l := (ops2 : List (HloOp τ sig (Elt F)))) (n := 29) (by show (29 : ℕ) < 60; decide))) main_v114 rfl (readsBelow_unary _ _ _ _ _ (by decide))).trans
    (by first | (rw [unary_result]; done) | (rw [unary_result]; rfl))

theorem eq_main_v115 (V : Valuation τ sig (Elt F)) :
    (after ops V (Proc.devRef .tc main_v115) : (⟨S512x512x128, .f32⟩ : BufTy).Contents (Elt F)) = ((broadcastInDim S512x512x128 ![0, 1, 2] bcast_S1x512x128_S512x512x128_0_1_2 : (⟨S1x512x128, .f32⟩ : BufTy).Contents (Elt F) → (⟨S512x512x128, .f32⟩ : BufTy).Contents (Elt F))) (after ops V (Proc.devRef .tc main_v113) : (⟨S1x512x128, .f32⟩ : BufTy).Contents (Elt F)) :=
  (final_eq V (op := (unary main_v113 main_v115 (broadcastInDim S512x512x128 ![0, 1, 2] bcast_S1x512x128_S512x512x128_0_1_2 : (⟨S1x512x128, .f32⟩ : BufTy).Contents (Elt F) → (⟨S512x512x128, .f32⟩ : BufTy).Contents (Elt F)) : HloOp τ sig (Elt F))) (mem_ops2 (List.getElem_mem (l := (ops2 : List (HloOp τ sig (Elt F)))) (n := 30) (by show (30 : ℕ) < 60; decide))) main_v115 rfl (readsBelow_unary _ _ _ _ _ (by decide))).trans
    (by first | (rw [unary_result]; done) | (rw [unary_result]; rfl))

theorem eq_main_v116 (V : Valuation τ sig (Elt F)) :
    (after ops V (Proc.devRef .tc main_v116) : (⟨S512x512x128, .f32⟩ : BufTy).Contents (Elt F)) = ((subf : (⟨S512x512x128, .f32⟩ : BufTy).Contents (Elt F) → (⟨S512x512x128, .f32⟩ : BufTy).Contents (Elt F) → (⟨S512x512x128, .f32⟩ : BufTy).Contents (Elt F))) (after ops V (Proc.devRef .tc main_v114) : (⟨S512x512x128, .f32⟩ : BufTy).Contents (Elt F)) (after ops V (Proc.devRef .tc main_v115) : (⟨S512x512x128, .f32⟩ : BufTy).Contents (Elt F)) :=
  (final_eq V (op := (binary main_v114 main_v115 main_v116 (subf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops2 (List.getElem_mem (l := (ops2 : List (HloOp τ sig (Elt F)))) (n := 31) (by show (31 : ℕ) < 60; decide))) main_v116 rfl (readsBelow_binary _ _ _ _ _ _ _ (by decide) (by decide))).trans
    (by first | (rw [binary_result]; done) | (rw [binary_result]; rfl))

theorem eq_main_v117 (V : Valuation τ sig (Elt F)) :
    (after ops V (Proc.devRef .tc main_v117) : (⟨S512x512x128, .f32⟩ : BufTy).Contents (Elt F)) = ((mulf : (⟨S512x512x128, .f32⟩ : BufTy).Contents (Elt F) → (⟨S512x512x128, .f32⟩ : BufTy).Contents (Elt F) → (⟨S512x512x128, .f32⟩ : BufTy).Contents (Elt F))) (after ops V (Proc.devRef .tc main_v116) : (⟨S512x512x128, .f32⟩ : BufTy).Contents (Elt F)) (after ops V (Proc.devRef .tc main_v116) : (⟨S512x512x128, .f32⟩ : BufTy).Contents (Elt F)) :=
  (final_eq V (op := (binary main_v116 main_v116 main_v117 (mulf : (⟨S512x512x128, .f32⟩ : BufTy).Contents (Elt F) → (⟨S512x512x128, .f32⟩ : BufTy).Contents (Elt F) → (⟨S512x512x128, .f32⟩ : BufTy).Contents (Elt F)) : HloOp τ sig (Elt F))) (mem_ops2 (List.getElem_mem (l := (ops2 : List (HloOp τ sig (Elt F)))) (n := 32) (by show (32 : ℕ) < 60; decide))) main_v117 rfl (readsBelow_binary _ _ _ _ _ _ _ (by decide) (by decide))).trans
    (by first | (rw [binary_result]; done) | (rw [binary_result]; rfl))

theorem eq_main_cst_33 (V : Valuation τ sig (Elt F)) :
    (after ops V (Proc.devRef .tc main_cst_33) : (⟨S_, .f32⟩ : BufTy).Contents (Elt F)) = ((constant S_ .f32 0x00000000#32) : (⟨S_, .f32⟩ : BufTy).Contents (Elt F)) :=
  (final_eq V (op := (nullary main_cst_33 (constant S_ .f32 0x00000000#32) : HloOp τ sig (Elt F))) (mem_ops2 (List.getElem_mem (l := (ops2 : List (HloOp τ sig (Elt F)))) (n := 33) (by show (33 : ℕ) < 60; decide))) main_cst_33 rfl (readsBelow_nullary _ _ _)).trans
    (by first | (rw [nullary_result]; done) | (rw [nullary_result]; rfl))

theorem eq_main_v118 (V : Valuation τ sig (Elt F)) :
    (after ops V (Proc.devRef .tc main_v118) : (⟨S512x512, .f32⟩ : BufTy).Contents (Elt F)) = (((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F))) (after ops V (Proc.devRef .tc main_v117) : (⟨S512x512x128, .f32⟩ : BufTy).Contents (Elt F)) (after ops V (Proc.devRef .tc main_cst_33) : (⟨S_, .f32⟩ : BufTy).Contents (Elt F)) :=
  (final_eq V (op := (binary main_v117 main_cst_33 main_v118 ((fun x v => Host.reduceAdd x v reducesTo_S512x512x128_S512x512_d2 h_S_) : (⟨S512x512x128, .f32⟩ : BufTy).Contents (Elt F) → (⟨S_, .f32⟩ : BufTy).Contents (Elt F) → (⟨S512x512, .f32⟩ : BufTy).Contents (Elt F)) : HloOp τ sig (Elt F))) (mem_ops2 (List.getElem_mem (l := (ops2 : List (HloOp τ sig (Elt F)))) (n := 34) (by show (34 : ℕ) < 60; decide))) main_v118 rfl (readsBelow_binary _ _ _ _ _ _ _ (by decide) (by decide))).trans
    (by first | (rw [binary_result]; done) | (rw [binary_result]; rfl))

theorem eq_main_cst_34 (V : Valuation τ sig (Elt F)) :
    (after ops V (Proc.devRef .tc main_cst_34) : (⟨S_, .f32⟩ : BufTy).Contents (Elt F)) = ((constant S_ .f32 0x2B8CBCCC#32) : (⟨S_, .f32⟩ : BufTy).Contents (Elt F)) :=
  (final_eq V (op := (nullary main_cst_34 (constant S_ .f32 0x2B8CBCCC#32) : HloOp τ sig (Elt F))) (mem_ops2 (List.getElem_mem (l := (ops2 : List (HloOp τ sig (Elt F)))) (n := 35) (by show (35 : ℕ) < 60; decide))) main_cst_34 rfl (readsBelow_nullary _ _ _)).trans
    (by first | (rw [nullary_result]; done) | (rw [nullary_result]; rfl))

theorem eq_main_v119 (V : Valuation τ sig (Elt F)) :
    (after ops V (Proc.devRef .tc main_v119) : (⟨S512x512, .f32⟩ : BufTy).Contents (Elt F)) = ((broadcastInDim S512x512 ![] bcast_S_S512x512 : (⟨S_, .f32⟩ : BufTy).Contents (Elt F) → (⟨S512x512, .f32⟩ : BufTy).Contents (Elt F))) (after ops V (Proc.devRef .tc main_cst_34) : (⟨S_, .f32⟩ : BufTy).Contents (Elt F)) :=
  (final_eq V (op := (unary main_cst_34 main_v119 (broadcastInDim S512x512 ![] bcast_S_S512x512 : (⟨S_, .f32⟩ : BufTy).Contents (Elt F) → (⟨S512x512, .f32⟩ : BufTy).Contents (Elt F)) : HloOp τ sig (Elt F))) (mem_ops2 (List.getElem_mem (l := (ops2 : List (HloOp τ sig (Elt F)))) (n := 36) (by show (36 : ℕ) < 60; decide))) main_v119 rfl (readsBelow_unary _ _ _ _ _ (by decide))).trans
    (by first | (rw [unary_result]; done) | (rw [unary_result]; rfl))

theorem eq_main_v120 (V : Valuation τ sig (Elt F)) :
    (after ops V (Proc.devRef .tc main_v120) : (⟨S512x512, .f32⟩ : BufTy).Contents (Elt F)) = ((maximumf : (⟨S512x512, .f32⟩ : BufTy).Contents (Elt F) → (⟨S512x512, .f32⟩ : BufTy).Contents (Elt F) → (⟨S512x512, .f32⟩ : BufTy).Contents (Elt F))) (after ops V (Proc.devRef .tc main_v118) : (⟨S512x512, .f32⟩ : BufTy).Contents (Elt F)) (after ops V (Proc.devRef .tc main_v119) : (⟨S512x512, .f32⟩ : BufTy).Contents (Elt F)) :=
  (final_eq V (op := (binary main_v118 main_v119 main_v120 (maximumf : (⟨S512x512, .f32⟩ : BufTy).Contents (Elt F) → (⟨S512x512, .f32⟩ : BufTy).Contents (Elt F) → (⟨S512x512, .f32⟩ : BufTy).Contents (Elt F)) : HloOp τ sig (Elt F))) (mem_ops2 (List.getElem_mem (l := (ops2 : List (HloOp τ sig (Elt F)))) (n := 37) (by show (37 : ℕ) < 60; decide))) main_v120 rfl (readsBelow_binary _ _ _ _ _ _ _ (by decide) (by decide))).trans
    (by first | (rw [binary_result]; done) | (rw [binary_result]; rfl))

theorem eq_main_v121 (V : Valuation τ sig (Elt F)) :
    (after ops V (Proc.devRef .tc main_v121) : (⟨S512x512, .f32⟩ : BufTy).Contents (Elt F)) = ((Host.sqrt : (⟨S512x512, .f32⟩ : BufTy).Contents (Elt F) → (⟨S512x512, .f32⟩ : BufTy).Contents (Elt F))) (after ops V (Proc.devRef .tc main_v120) : (⟨S512x512, .f32⟩ : BufTy).Contents (Elt F)) :=
  (final_eq V (op := (unary main_v120 main_v121 (Host.sqrt : (⟨S512x512, .f32⟩ : BufTy).Contents (Elt F) → (⟨S512x512, .f32⟩ : BufTy).Contents (Elt F)) : HloOp τ sig (Elt F))) (mem_ops2 (List.getElem_mem (l := (ops2 : List (HloOp τ sig (Elt F)))) (n := 38) (by show (38 : ℕ) < 60; decide))) main_v121 rfl (readsBelow_unary _ _ _ _ _ (by decide))).trans
    (by first | (rw [unary_result]; done) | (rw [unary_result]; rfl))

theorem eq_main_c_35 (V : Valuation τ sig (Elt F)) :
    (after ops V (Proc.devRef .tc main_c_35) : (⟨S_, .i32⟩ : BufTy).Contents (Elt F)) = ((constantI S_ 32 1536#32) : (⟨S_, .i32⟩ : BufTy).Contents (Elt F)) :=
  (final_eq V (op := (nullary main_c_35 (constantI S_ 32 1536#32) : HloOp τ sig (Elt F))) (mem_ops2 (List.getElem_mem (l := (ops2 : List (HloOp τ sig (Elt F)))) (n := 39) (by show (39 : ℕ) < 60; decide))) main_c_35 rfl (readsBelow_nullary _ _ _)).trans
    (by first | (rw [nullary_result]; done) | (rw [nullary_result]; rfl))

theorem eq_main_v122 (V : Valuation τ sig (Elt F)) :
    (after ops V (Proc.devRef .tc main_v122) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_35) : (⟨S_, .i32⟩ : BufTy).Contents (Elt F)) :=
  (final_eq V (op := (unary main_c_35 main_v122 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 40) (by show (40 : ℕ) < 60; decide))) main_v122 rfl (readsBelow_unary _ _ _ _ _ (by decide))).trans
    (by first | (rw [unary_result]; done) | (rw [unary_result]; rfl))

theorem eq_main_v123 (V : Valuation τ sig (Elt F)) :
    (after ops V (Proc.devRef .tc main_v123) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v122) : (⟨S130816, .i32⟩ : BufTy).Contents (Elt F)) :=
  (final_eq V (op := (binary main_v17 main_v122 main_v123 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 41) (by show (41 : ℕ) < 60; decide))) main_v123 rfl (readsBelow_binary _ _ _ _ _ _ _ (by decide) (by decide))).trans
    (by first | (rw [binary_result]; done) | (rw [binary_result]; rfl))

theorem eq_main_c_36 (V : Valuation τ sig (Elt F)) :
    (after ops V (Proc.devRef .tc main_c_36) : (⟨S_, .i32⟩ : BufTy).Contents (Elt F)) = ((constantI S_ 32 1536#32) : (⟨S_, .i32⟩ : BufTy).Contents (Elt F)) :=
  (final_eq V (op := (nullary main_c_36 (constantI S_ 32 1536#32) : HloOp τ sig (Elt F))) (mem_ops2 (List.getElem_mem (l := (ops2 : List (HloOp τ sig (Elt F)))) (n := 42) (by show (42 : ℕ) < 60; decide))) main_c_36 rfl (readsBelow_nullary _ _ _)).trans
    (by first | (rw [nullary_result]; done) | (rw [nullary_result]; rfl))

theorem eq_main_v124 (V : Valuation τ sig (Elt F)) :
    (after ops V (Proc.devRef .tc main_v124) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_36) : (⟨S_, .i32⟩ : BufTy).Contents (Elt F)) :=
  (final_eq V (op := (unary main_c_36 main_v124 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 43) (by show (43 : ℕ) < 60; decide))) main_v124 rfl (readsBelow_unary _ _ _ _ _ (by decide))).trans
    (by first | (rw [unary_result]; done) | (rw [unary_result]; rfl))

theorem eq_main_v125 (V : Valuation τ sig (Elt F)) :
    (after ops V (Proc.devRef .tc main_v125) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v124) : (⟨S130816, .i32⟩ : BufTy).Contents (Elt F)) :=
  (final_eq V (op := (binary main_v19 main_v124 main_v125 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 44) (by show (44 : ℕ) < 60; decide))) main_v125 rfl (readsBelow_binary _ _ _ _ _ _ _ (by decide) (by decide))).trans
    (by first | (rw [binary_result]; done) | (rw [binary_result]; rfl))

theorem eq_main_c_37 (V : Valuation τ sig (Elt F)) :
    (after ops V (Proc.devRef .tc main_c_37) : (⟨S_, .i32⟩ : BufTy).Contents (Elt F)) = ((constantI S_ 32 0#32) : (⟨S_, .i32⟩ : BufTy).Contents (Elt F)) :=
  (final_eq V (op := (nullary main_c_37 (constantI S_ 32 0#32) : HloOp τ sig (Elt F))) (mem_ops2 (List.getElem_mem (l := (ops2 : List (HloOp τ sig (Elt F)))) (n := 45) (by show (45 : ℕ) < 60; decide))) main_c_37 rfl (readsBelow_nullary _ _ _)).trans
    (by first | (rw [nullary_result]; done) | (rw [nullary_result]; rfl))

theorem eq_main_v126 (V : Valuation τ sig (Elt F)) :
    (after ops V (Proc.devRef .tc main_v126) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_37) : (⟨S_, .i32⟩ : BufTy).Contents (Elt F)) :=
  (final_eq V (op := (unary main_c_37 main_v126 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 46) (by show (46 : ℕ) < 60; decide))) main_v126 rfl (readsBelow_unary _ _ _ _ _ (by decide))).trans
    (by first | (rw [unary_result]; done) | (rw [unary_result]; rfl))

theorem eq_main_v127 (V : Valuation τ sig (Elt F)) :
    (after ops V (Proc.devRef .tc main_v127) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v17) : (⟨S130816, .i32⟩ : BufTy).Contents (Elt F)) (after ops V (Proc.devRef .tc main_v126) : (⟨S130816, .i32⟩ : BufTy).Contents (Elt F)) :=
  (final_eq V (op := (binary main_v17 main_v126 main_v127 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops2 (List.getElem_mem (l := (ops2 : List (HloOp τ sig (Elt F)))) (n := 47) (by show (47 : ℕ) < 60; decide))) main_v127 rfl (readsBelow_binary _ _ _ _ _ _ _ (by decide) (by decide))).trans
    (by first | (rw [binary_result]; done) | (rw [binary_result]; rfl))

theorem eq_main_c_38 (V : Valuation τ sig (Elt F)) :
    (after ops V (Proc.devRef .tc main_c_38) : (⟨S_, .i32⟩ : BufTy).Contents (Elt F)) = ((constantI S_ 32 512#32) : (⟨S_, .i32⟩ : BufTy).Contents (Elt F)) :=
  (final_eq V (op := (nullary main_c_38 (constantI S_ 32 512#32) : HloOp τ sig (Elt F))) (mem_ops2 (List.getElem_mem (l := (ops2 : List (HloOp τ sig (Elt F)))) (n := 48) (by show (48 : ℕ) < 60; decide))) main_c_38 rfl (readsBelow_nullary _ _ _)).trans
    (by first | (rw [nullary_result]; done) | (rw [nullary_result]; rfl))

theorem eq_main_v128 (V : Valuation τ sig (Elt F)) :
    (after ops V (Proc.devRef .tc main_v128) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_38) : (⟨S_, .i32⟩ : BufTy).Contents (Elt F)) :=
  (final_eq V (op := (unary main_c_38 main_v128 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 49) (by show (49 : ℕ) < 60; decide))) main_v128 rfl (readsBelow_unary _ _ _ _ _ (by decide))).trans
    (by first | (rw [unary_result]; done) | (rw [unary_result]; rfl))

theorem eq_main_v129 (V : Valuation τ sig (Elt F)) :
    (after ops V (Proc.devRef .tc main_v129) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v17) : (⟨S130816, .i32⟩ : BufTy).Contents (Elt F)) (after ops V (Proc.devRef .tc main_v128) : (⟨S130816, .i32⟩ : BufTy).Contents (Elt F)) :=
  (final_eq V (op := (binary main_v17 main_v128 main_v129 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 50) (by show (50 : ℕ) < 60; decide))) main_v129 rfl (readsBelow_binary _ _ _ _ _ _ _ (by decide) (by decide))).trans
    (by first | (rw [binary_result]; done) | (rw [binary_result]; rfl))

theorem eq_main_v130 (V : Valuation τ sig (Elt F)) :
    (after ops V (Proc.devRef .tc main_v130) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v127) : (⟨S130816, .i1⟩ : BufTy).Contents (Elt F)) (after ops V (Proc.devRef .tc main_v129) : (⟨S130816, .i32⟩ : BufTy).Contents (Elt F)) (after ops V (Proc.devRef .tc main_v17) : (⟨S130816, .i32⟩ : BufTy).Contents (Elt F)) :=
  (final_eq V (op := (ternary main_v127 main_v129 main_v17 main_v130 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 51) (by show (51 : ℕ) < 60; decide))) main_v130 rfl (readsBelow_ternary _ _ _ _ _ _ _ _ _ (by decide) (by decide) (by decide))).trans
    (by first | (rw [ternary_result]; done) | (rw [ternary_result]; rfl))

theorem eq_main_c_39 (V : Valuation τ sig (Elt F)) :
    (after ops V (Proc.devRef .tc main_c_39) : (⟨S_, .i32⟩ : BufTy).Contents (Elt F)) = ((constantI S_ 32 0#32) : (⟨S_, .i32⟩ : BufTy).Contents (Elt F)) :=
  (final_eq V (op := (nullary main_c_39 (constantI S_ 32 0#32) : HloOp τ sig (Elt F))) (mem_ops2 (List.getElem_mem (l := (ops2 : List (HloOp τ sig (Elt F)))) (n := 52) (by show (52 : ℕ) < 60; decide))) main_c_39 rfl (readsBelow_nullary _ _ _)).trans
    (by first | (rw [nullary_result]; done) | (rw [nullary_result]; rfl))

theorem eq_main_v131 (V : Valuation τ sig (Elt F)) :
    (after ops V (Proc.devRef .tc main_v131) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_39) : (⟨S_, .i32⟩ : BufTy).Contents (Elt F)) :=
  (final_eq V (op := (unary main_c_39 main_v131 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 53) (by show (53 : ℕ) < 60; decide))) main_v131 rfl (readsBelow_unary _ _ _ _ _ (by decide))).trans
    (by first | (rw [unary_result]; done) | (rw [unary_result]; rfl))

theorem eq_main_v132 (V : Valuation τ sig (Elt F)) :
    (after ops V (Proc.devRef .tc main_v132) : (⟨S130816, .i1⟩ : BufTy).Contents (Elt F)) = ((cmpi .slt : (⟨S130816, .i32⟩ : BufTy).Contents (Elt F) → (⟨S130816, .i32⟩ : BufTy).Contents (Elt F) → (⟨S130816, .i1⟩ : BufTy).Contents (Elt F))) (after ops V (Proc.devRef .tc main_v19) : (⟨S130816, .i32⟩ : BufTy).Contents (Elt F)) (after ops V (Proc.devRef .tc main_v131) : (⟨S130816, .i32⟩ : BufTy).Contents (Elt F)) :=
  (final_eq V (op := (binary main_v19 main_v131 main_v132 (cmpi .slt : (⟨S130816, .i32⟩ : BufTy).Contents (Elt F) → (⟨S130816, .i32⟩ : BufTy).Contents (Elt F) → (⟨S130816, .i1⟩ : BufTy).Contents (Elt F)) : HloOp τ sig (Elt F))) (mem_ops2 (List.getElem_mem (l := (ops2 : List (HloOp τ sig (Elt F)))) (n := 54) (by show (54 : ℕ) < 60; decide))) main_v132 rfl (readsBelow_binary _ _ _ _ _ _ _ (by decide) (by decide))).trans
    (by first | (rw [binary_result]; done) | (rw [binary_result]; rfl))

theorem eq_main_c_40 (V : Valuation τ sig (Elt F)) :
    (after ops V (Proc.devRef .tc main_c_40) : (⟨S_, .i32⟩ : BufTy).Contents (Elt F)) = ((constantI S_ 32 512#32) : (⟨S_, .i32⟩ : BufTy).Contents (Elt F)) :=
  (final_eq V (op := (nullary main_c_40 (constantI S_ 32 512#32) : HloOp τ sig (Elt F))) (mem_ops2 (List.getElem_mem (l := (ops2 : List (HloOp τ sig (Elt F)))) (n := 55) (by show (55 : ℕ) < 60; decide))) main_c_40 rfl (readsBelow_nullary _ _ _)).trans
    (by first | (rw [nullary_result]; done) | (rw [nullary_result]; rfl))

theorem eq_main_v133 (V : Valuation τ sig (Elt F)) :
    (after ops V (Proc.devRef .tc main_v133) : (⟨S130816, .i32⟩ : BufTy).Contents (Elt F)) = ((broadcastInDim S130816 ![] bcast_S_S130816 : (⟨S_, .i32⟩ : BufTy).Contents (Elt F) → (⟨S130816, .i32⟩ : BufTy).Contents (Elt F))) (after ops V (Proc.devRef .tc main_c_40) : (⟨S_, .i32⟩ : BufTy).Contents (Elt F)) :=
  (final_eq V (op := (unary main_c_40 main_v133 (broadcastInDim S130816 ![] bcast_S_S130816 : (⟨S_, .i32⟩ : BufTy).Contents (Elt F) → (⟨S130816, .i32⟩ : BufTy).Contents (Elt F)) : HloOp τ sig (Elt F))) (mem_ops2 (List.getElem_mem (l := (ops2 : List (HloOp τ sig (Elt F)))) (n := 56) (by show (56 : ℕ) < 60; decide))) main_v133 rfl (readsBelow_unary _ _ _ _ _ (by decide))).trans
    (by first | (rw [unary_result]; done) | (rw [unary_result]; rfl))

theorem eq_main_v134 (V : Valuation τ sig (Elt F)) :
    (after ops V (Proc.devRef .tc main_v134) : (⟨S130816, .i32⟩ : BufTy).Contents (Elt F)) = ((addi : (⟨S130816, .i32⟩ : BufTy).Contents (Elt F) → (⟨S130816, .i32⟩ : BufTy).Contents (Elt F) → (⟨S130816, .i32⟩ : BufTy).Contents (Elt F))) (after ops V (Proc.devRef .tc main_v19) : (⟨S130816, .i32⟩ : BufTy).Contents (Elt F)) (after ops V (Proc.devRef .tc main_v133) : (⟨S130816, .i32⟩ : BufTy).Contents (Elt F)) :=
  (final_eq V (op := (binary main_v19 main_v133 main_v134 (addi : (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 57) (by show (57 : ℕ) < 60; decide))) main_v134 rfl (readsBelow_binary _ _ _ _ _ _ _ (by decide) (by decide))).trans
    (by first | (rw [binary_result]; done) | (rw [binary_result]; rfl))

theorem eq_main_v135 (V : Valuation τ sig (Elt F)) :
    (after ops V (Proc.devRef .tc main_v135) : (⟨S130816, .i32⟩ : BufTy).Contents (Elt F)) = ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F))) (after ops V (Proc.devRef .tc main_v132) : (⟨S130816, .i1⟩ : BufTy).Contents (Elt F)) (after ops V (Proc.devRef .tc main_v134) : (⟨S130816, .i32⟩ : BufTy).Contents (Elt F)) (after ops V (Proc.devRef .tc main_v19) : (⟨S130816, .i32⟩ : BufTy).Contents (Elt F)) :=
  (final_eq V (op := (ternary main_v132 main_v134 main_v19 main_v135 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) : HloOp τ sig (Elt F))) (mem_ops2 (List.getElem_mem (l := (ops2 : List (HloOp τ sig (Elt F)))) (n := 58) (by show (58 : ℕ) < 60; decide))) main_v135 rfl (readsBelow_ternary _ _ _ _ _ _ _ _ _ (by decide) (by decide) (by decide))).trans
    (by first | (rw [ternary_result]; done) | (rw [ternary_result]; rfl))

theorem eq_main_v136 (V : Valuation τ sig (Elt F)) :
    (after ops V (Proc.devRef .tc main_v136) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v130) : (⟨S130816, .i32⟩ : BufTy).Contents (Elt F)) :=
  (final_eq V (op := (unary main_v130 main_v136 (broadcastInDim S130816x1 ![0] bcast_S130816_S130816x1_0 : (⟨S130816, .i32⟩ : BufTy).Contents (Elt F) → (⟨S130816x1, .i32⟩ : BufTy).Contents (Elt F)) : HloOp τ sig (Elt F))) (mem_ops2 (List.getElem_mem (l := (ops2 : List (HloOp τ sig (Elt F)))) (n := 59) (by show (59 : ℕ) < 60; decide))) main_v136 rfl (readsBelow_unary _ _ _ _ _ (by decide))).trans
    (by first | (rw [unary_result]; done) | (rw [unary_result]; rfl))

end Cert.ReferenceIdeal.Line

end
-- ==== Proof.RefEq3.lean ====
/- The equations of window 3's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefRun

set_option maxRecDepth 65536
set_option maxHeartbeats 1000000

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem eq_main_v137 (V : Valuation τ sig (Elt F)) :
    (after ops V (Proc.devRef .tc main_v137) : (⟨S130816x1, .i32⟩ : BufTy).Contents (Elt F)) = ((broadcastInDim S130816x1 ![0] bcast_S130816_S130816x1_0 : (⟨S130816, .i32⟩ : BufTy).Contents (Elt F) → (⟨S130816x1, .i32⟩ : BufTy).Contents (Elt F))) (after ops V (Proc.devRef .tc main_v135) : (⟨S130816, .i32⟩ : BufTy).Contents (Elt F)) :=
  (final_eq V (op := (unary main_v135 main_v137 (broadcastInDim S130816x1 ![0] bcast_S130816_S130816x1_0 : (⟨S130816, .i32⟩ : BufTy).Contents (Elt F) → (⟨S130816x1, .i32⟩ : BufTy).Contents (Elt F)) : HloOp τ sig (Elt F))) (mem_ops3 (List.getElem_mem (l := (ops3 : List (HloOp τ sig (Elt F)))) (n := 0) (by show (0 : ℕ) < 62; decide))) main_v137 rfl (readsBelow_unary _ _ _ _ _ (by decide))).trans
    (by first | (rw [unary_result]; done) | (rw [unary_result]; rfl))

theorem eq_main_v138 (V : Valuation τ sig (Elt F)) :
    (after ops V (Proc.devRef .tc main_v138) : (⟨S130816x2, .i32⟩ : BufTy).Contents (Elt F)) = (((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F))) (after ops V (Proc.devRef .tc main_v136) : (⟨S130816x1, .i32⟩ : BufTy).Contents (Elt F)) (after ops V (Proc.devRef .tc main_v137) : (⟨S130816x1, .i32⟩ : BufTy).Contents (Elt F)) :=
  (final_eq V (op := (binary main_v136 main_v137 main_v138 ((fun a b => concatenate S130816x2 1 [⟨S130816x1, a⟩, ⟨S130816x1, b⟩] concatenates_S130816x1_S130816x1_S130816x2_d1) : (⟨S130816x1, .i32⟩ : BufTy).Contents (Elt F) → (⟨S130816x1, .i32⟩ : BufTy).Contents (Elt F) → (⟨S130816x2, .i32⟩ : BufTy).Contents (Elt F)) : HloOp τ sig (Elt F))) (mem_ops3 (List.getElem_mem (l := (ops3 : List (HloOp τ sig (Elt F)))) (n := 1) (by show (1 : ℕ) < 62; decide))) main_v138 rfl (readsBelow_binary _ _ _ _ _ _ _ (by decide) (by decide))).trans
    (by first | (rw [binary_result]; done) | (rw [binary_result]; rfl))

theorem eq_main_v139 (V : Valuation τ sig (Elt F)) :
    (after ops V (Proc.devRef .tc main_v139) : (⟨S130816, .f32⟩ : BufTy).Contents (Elt F)) = (((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F))) (after ops V (Proc.devRef .tc main_v121) : (⟨S512x512, .f32⟩ : BufTy).Contents (Elt F)) (after ops V (Proc.devRef .tc main_v138) : (⟨S130816x2, .i32⟩ : BufTy).Contents (Elt F)) :=
  (final_eq V (op := (binary main_v121 main_v138 main_v139 ((fun x i => Host.gather gather_S512x512_S130816x2_S130816_n_01_n_n_01_1_11 x i) : (⟨S512x512, .f32⟩ : BufTy).Contents (Elt F) → (⟨S130816x2, .i32⟩ : BufTy).Contents (Elt F) → (⟨S130816, .f32⟩ : BufTy).Contents (Elt F)) : HloOp τ sig (Elt F))) (mem_ops3 (List.getElem_mem (l := (ops3 : List (HloOp τ sig (Elt F)))) (n := 2) (by show (2 : ℕ) < 62; decide))) main_v139 rfl (readsBelow_binary _ _ _ _ _ _ _ (by decide) (by decide))).trans
    (by first | (rw [binary_result]; done) | (rw [binary_result]; rfl))

theorem eq_main_v140 (V : Valuation τ sig (Elt F)) :
    (after ops V (Proc.devRef .tc main_v140) : (⟨S523264, .i32⟩ : BufTy).Contents (Elt F)) = concatenate S523264 0 [⟨S130816, (after ops V (Proc.devRef .tc main_v33) : (⟨S130816, .i32⟩ : BufTy).Contents (Elt F))⟩, ⟨S130816, (after ops V (Proc.devRef .tc main_v63) : (⟨S130816, .i32⟩ : BufTy).Contents (Elt F))⟩, ⟨S130816, (after ops V (Proc.devRef .tc main_v93) : (⟨S130816, .i32⟩ : BufTy).Contents (Elt F))⟩, ⟨S130816, (after ops V (Proc.devRef .tc main_v123) : (⟨S130816, .i32⟩ : BufTy).Contents (Elt F))⟩] concatenates_S130816_S130816_S130816_S130816_S523264_d0 :=
  (final_eq V (op := (nary ![main_v33, main_v63, main_v93, main_v123] main_v140 (fun u => concatenate S523264 0 [⟨S130816, u 0⟩, ⟨S130816, u 1⟩, ⟨S130816, u 2⟩, ⟨S130816, u 3⟩] concatenates_S130816_S130816_S130816_S130816_S523264_d0) : HloOp τ sig (Elt F))) (mem_ops3 (List.getElem_mem (l := (ops3 : List (HloOp τ sig (Elt F)))) (n := 3) (by show (3 : ℕ) < 62; decide))) main_v140 rfl (readsBelow_nary _ _ _ _ _ (by decide))).trans
    (by first | (rw [nary_result]; done) | (rw [nary_result]; rfl))

theorem eq_main_v141 (V : Valuation τ sig (Elt F)) :
    (after ops V (Proc.devRef .tc main_v141) : (⟨S523264, .i32⟩ : BufTy).Contents (Elt F)) = concatenate S523264 0 [⟨S130816, (after ops V (Proc.devRef .tc main_v35) : (⟨S130816, .i32⟩ : BufTy).Contents (Elt F))⟩, ⟨S130816, (after ops V (Proc.devRef .tc main_v65) : (⟨S130816, .i32⟩ : BufTy).Contents (Elt F))⟩, ⟨S130816, (after ops V (Proc.devRef .tc main_v95) : (⟨S130816, .i32⟩ : BufTy).Contents (Elt F))⟩, ⟨S130816, (after ops V (Proc.devRef .tc main_v125) : (⟨S130816, .i32⟩ : BufTy).Contents (Elt F))⟩] concatenates_S130816_S130816_S130816_S130816_S523264_d0 :=
  (final_eq V (op := (nary ![main_v35, main_v65, main_v95, main_v125] main_v141 (fun u => concatenate S523264 0 [⟨S130816, u 0⟩, ⟨S130816, u 1⟩, ⟨S130816, u 2⟩, ⟨S130816, u 3⟩] concatenates_S130816_S130816_S130816_S130816_S523264_d0) : HloOp τ sig (Elt F))) (mem_ops3 (List.getElem_mem (l := (ops3 : List (HloOp τ sig (Elt F)))) (n := 4) (by show (4 : ℕ) < 62; decide))) main_v141 rfl (readsBelow_nary _ _ _ _ _ (by decide))).trans
    (by first | (rw [nary_result]; done) | (rw [nary_result]; rfl))

theorem eq_main_v142 (V : Valuation τ sig (Elt F)) :
    (after ops V (Proc.devRef .tc main_v142) : (⟨S523264, .f32⟩ : BufTy).Contents (Elt F)) = concatenate S523264 0 [⟨S130816, (after ops V (Proc.devRef .tc main_v49) : (⟨S130816, .f32⟩ : BufTy).Contents (Elt F))⟩, ⟨S130816, (after ops V (Proc.devRef .tc main_v79) : (⟨S130816, .f32⟩ : BufTy).Contents (Elt F))⟩, ⟨S130816, (after ops V (Proc.devRef .tc main_v109) : (⟨S130816, .f32⟩ : BufTy).Contents (Elt F))⟩, ⟨S130816, (after ops V (Proc.devRef .tc main_v139) : (⟨S130816, .f32⟩ : BufTy).Contents (Elt F))⟩] concatenates_S130816_S130816_S130816_S130816_S523264_d0 :=
  (final_eq V (op := (nary ![main_v49, main_v79, main_v109, main_v139] main_v142 (fun u => concatenate S523264 0 [⟨S130816, u 0⟩, ⟨S130816, u 1⟩, ⟨S130816, u 2⟩, ⟨S130816, u 3⟩] concatenates_S130816_S130816_S130816_S130816_S523264_d0) : HloOp τ sig (Elt F))) (mem_ops3 (List.getElem_mem (l := (ops3 : List (HloOp τ sig (Elt F)))) (n := 5) (by show (5 : ℕ) < 62; decide))) main_v142 rfl (readsBelow_nary _ _ _ _ _ (by decide))).trans
    (by first | (rw [nary_result]; done) | (rw [nary_result]; rfl))

theorem eq_main_v143 (V : Valuation τ sig (Elt F)) :
    (after ops V (Proc.devRef .tc main_v143) : (⟨S4, .i32⟩ : BufTy).Contents (Elt F)) = ((iotaInDim S4 32 0) : (⟨S4, .i32⟩ : BufTy).Contents (Elt F)) :=
  (final_eq V (op := (nullary main_v143 (iotaInDim S4 32 0) : HloOp τ sig (Elt F))) (mem_ops3 (List.getElem_mem (l := (ops3 : List (HloOp τ sig (Elt F)))) (n := 6) (by show (6 : ℕ) < 62; decide))) main_v143 rfl (readsBelow_nullary _ _ _)).trans
    (by first | (rw [nullary_result]; done) | (rw [nullary_result]; rfl))

theorem eq_main_v144 (V : Valuation τ sig (Elt F)) :
    (after ops V (Proc.devRef .tc main_v144) : (⟨S4x512, .i32⟩ : BufTy).Contents (Elt F)) = ((broadcastInDim S4x512 ![0] bcast_S4_S4x512_0 : (⟨S4, .i32⟩ : BufTy).Contents (Elt F) → (⟨S4x512, .i32⟩ : BufTy).Contents (Elt F))) (after ops V (Proc.devRef .tc main_v143) : (⟨S4, .i32⟩ : BufTy).Contents (Elt F)) :=
  (final_eq V (op := (unary main_v143 main_v144 (broadcastInDim S4x512 ![0] bcast_S4_S4x512_0 : (⟨S4, .i32⟩ : BufTy).Contents (Elt F) → (⟨S4x512, .i32⟩ : BufTy).Contents (Elt F)) : HloOp τ sig (Elt F))) (mem_ops3 (List.getElem_mem (l := (ops3 : List (HloOp τ sig (Elt F)))) (n := 7) (by show (7 : ℕ) < 62; decide))) main_v144 rfl (readsBelow_unary _ _ _ _ _ (by decide))).trans
    (by first | (rw [unary_result]; done) | (rw [unary_result]; rfl))

theorem eq_main_v145 (V : Valuation τ sig (Elt F)) :
    (after ops V (Proc.devRef .tc main_v145) : (⟨S2048, .i32⟩ : BufTy).Contents (Elt F)) = shapeCast S2048 (after ops V (Proc.devRef .tc main_v144) : (⟨S4x512, .i32⟩ : BufTy).Contents (Elt F)) shapeCasts_S4x512_S2048 :=
  (final_eq V (op := (reshape main_v144 main_v145 rfl shapeCasts_S4x512_S2048 : HloOp τ sig (Elt F))) (mem_ops3 (List.getElem_mem (l := (ops3 : List (HloOp τ sig (Elt F)))) (n := 8) (by show (8 : ℕ) < 62; decide))) main_v145 rfl (readsBelow_reshape _ _ _ _ _ _ (by decide))).trans
    (by first | (rw [reshape_result]; done) | (rw [reshape_result]; rfl))

theorem eq_main_v146 (V : Valuation τ sig (Elt F)) :
    (after ops V (Proc.devRef .tc main_v146) : (⟨S2048x128, .f32⟩ : BufTy).Contents (Elt F)) = shapeCast S2048x128 (after ops V (Proc.devRef .tc main_arg0) : (⟨S4x512x128, .f32⟩ : BufTy).Contents (Elt F)) shapeCasts_S4x512x128_S2048x128 :=
  (final_eq V (op := (reshape main_arg0 main_v146 rfl shapeCasts_S4x512x128_S2048x128 : HloOp τ sig (Elt F))) (mem_ops3 (List.getElem_mem (l := (ops3 : List (HloOp τ sig (Elt F)))) (n := 9) (by show (9 : ℕ) < 62; decide))) main_v146 rfl (readsBelow_reshape _ _ _ _ _ _ (by decide))).trans
    (by first | (rw [reshape_result]; done) | (rw [reshape_result]; rfl))

theorem eq_main_v147 (V : Valuation τ sig (Elt F)) :
    (after ops V (Proc.devRef .tc main_v147) : (⟨S2048, .i32⟩ : BufTy).Contents (Elt F)) = ((iotaInDim S2048 32 0) : (⟨S2048, .i32⟩ : BufTy).Contents (Elt F)) :=
  (final_eq V (op := (nullary main_v147 (iotaInDim S2048 32 0) : HloOp τ sig (Elt F))) (mem_ops3 (List.getElem_mem (l := (ops3 : List (HloOp τ sig (Elt F)))) (n := 10) (by show (10 : ℕ) < 62; decide))) main_v147 rfl (readsBelow_nullary _ _ _)).trans
    (by first | (rw [nullary_result]; done) | (rw [nullary_result]; rfl))

theorem eq_main_v148 (V : Valuation τ sig (Elt F)) :
    (after ops V (Proc.devRef .tc main_v148) : (⟨S525312, .i32⟩ : BufTy).Contents (Elt F)) = (((fun a b => concatenate S525312 0 [⟨S523264, a⟩, ⟨S2048, b⟩] concatenates_S523264_S2048_S525312_d0) : (⟨S523264, .i32⟩ : BufTy).Contents (Elt F) → (⟨S2048, .i32⟩ : BufTy).Contents (Elt F) → (⟨S525312, .i32⟩ : BufTy).Contents (Elt F))) (after ops V (Proc.devRef .tc main_v140) : (⟨S523264, .i32⟩ : BufTy).Contents (Elt F)) (after ops V (Proc.devRef .tc main_v147) : (⟨S2048, .i32⟩ : BufTy).Contents (Elt F)) :=
  (final_eq V (op := (binary main_v140 main_v147 main_v148 ((fun a b => concatenate S525312 0 [⟨S523264, a⟩, ⟨S2048, b⟩] concatenates_S523264_S2048_S525312_d0) : (⟨S523264, .i32⟩ : BufTy).Contents (Elt F) → (⟨S2048, .i32⟩ : BufTy).Contents (Elt F) → (⟨S525312, .i32⟩ : BufTy).Contents (Elt F)) : HloOp τ sig (Elt F))) (mem_ops3 (List.getElem_mem (l := (ops3 : List (HloOp τ sig (Elt F)))) (n := 11) (by show (11 : ℕ) < 62; decide))) main_v148 rfl (readsBelow_binary _ _ _ _ _ _ _ (by decide) (by decide))).trans
    (by first | (rw [binary_result]; done) | (rw [binary_result]; rfl))

theorem eq_main_v149 (V : Valuation τ sig (Elt F)) :
    (after ops V (Proc.devRef .tc main_v149) : (⟨S525312, .i32⟩ : BufTy).Contents (Elt F)) = (((fun a b => concatenate S525312 0 [⟨S523264, a⟩, ⟨S2048, b⟩] concatenates_S523264_S2048_S525312_d0) : (⟨S523264, .i32⟩ : BufTy).Contents (Elt F) → (⟨S2048, .i32⟩ : BufTy).Contents (Elt F) → (⟨S525312, .i32⟩ : BufTy).Contents (Elt F))) (after ops V (Proc.devRef .tc main_v141) : (⟨S523264, .i32⟩ : BufTy).Contents (Elt F)) (after ops V (Proc.devRef .tc main_v147) : (⟨S2048, .i32⟩ : BufTy).Contents (Elt F)) :=
  (final_eq V (op := (binary main_v141 main_v147 main_v149 ((fun a b => concatenate S525312 0 [⟨S523264, a⟩, ⟨S2048, b⟩] concatenates_S523264_S2048_S525312_d0) : (⟨S523264, .i32⟩ : BufTy).Contents (Elt F) → (⟨S2048, .i32⟩ : BufTy).Contents (Elt F) → (⟨S525312, .i32⟩ : BufTy).Contents (Elt F)) : HloOp τ sig (Elt F))) (mem_ops3 (List.getElem_mem (l := (ops3 : List (HloOp τ sig (Elt F)))) (n := 12) (by show (12 : ℕ) < 62; decide))) main_v149 rfl (readsBelow_binary _ _ _ _ _ _ _ (by decide) (by decide))).trans
    (by first | (rw [binary_result]; done) | (rw [binary_result]; rfl))

theorem eq_main_cst_41 (V : Valuation τ sig (Elt F)) :
    (after ops V (Proc.devRef .tc main_cst_41) : (⟨S_, .f32⟩ : BufTy).Contents (Elt F)) = ((constant S_ .f32 0x3F800000#32) : (⟨S_, .f32⟩ : BufTy).Contents (Elt F)) :=
  (final_eq V (op := (nullary main_cst_41 (constant S_ .f32 0x3F800000#32) : HloOp τ sig (Elt F))) (mem_ops3 (List.getElem_mem (l := (ops3 : List (HloOp τ sig (Elt F)))) (n := 13) (by show (13 : ℕ) < 62; decide))) main_cst_41 rfl (readsBelow_nullary _ _ _)).trans
    (by first | (rw [nullary_result]; done) | (rw [nullary_result]; rfl))

theorem eq_main_v150 (V : Valuation τ sig (Elt F)) :
    (after ops V (Proc.devRef .tc main_v150) : (⟨S2048, .f32⟩ : BufTy).Contents (Elt F)) = ((broadcastInDim S2048 ![] bcast_S_S2048 : (⟨S_, .f32⟩ : BufTy).Contents (Elt F) → (⟨S2048, .f32⟩ : BufTy).Contents (Elt F))) (after ops V (Proc.devRef .tc main_cst_41) : (⟨S_, .f32⟩ : BufTy).Contents (Elt F)) :=
  (final_eq V (op := (unary main_cst_41 main_v150 (broadcastInDim S2048 ![] bcast_S_S2048 : (⟨S_, .f32⟩ : BufTy).Contents (Elt F) → (⟨S2048, .f32⟩ : BufTy).Contents (Elt F)) : HloOp τ sig (Elt F))) (mem_ops3 (List.getElem_mem (l := (ops3 : List (HloOp τ sig (Elt F)))) (n := 14) (by show (14 : ℕ) < 62; decide))) main_v150 rfl (readsBelow_unary _ _ _ _ _ (by decide))).trans
    (by first | (rw [unary_result]; done) | (rw [unary_result]; rfl))

theorem eq_main_v151 (V : Valuation τ sig (Elt F)) :
    (after ops V (Proc.devRef .tc main_v151) : (⟨S525312, .f32⟩ : BufTy).Contents (Elt F)) = (((fun a b => concatenate S525312 0 [⟨S523264, a⟩, ⟨S2048, b⟩] concatenates_S523264_S2048_S525312_d0) : (⟨S523264, .f32⟩ : BufTy).Contents (Elt F) → (⟨S2048, .f32⟩ : BufTy).Contents (Elt F) → (⟨S525312, .f32⟩ : BufTy).Contents (Elt F))) (after ops V (Proc.devRef .tc main_v142) : (⟨S523264, .f32⟩ : BufTy).Contents (Elt F)) (after ops V (Proc.devRef .tc main_v150) : (⟨S2048, .f32⟩ : BufTy).Contents (Elt F)) :=
  (final_eq V (op := (binary main_v142 main_v150 main_v151 ((fun a b => concatenate S525312 0 [⟨S523264, a⟩, ⟨S2048, b⟩] concatenates_S523264_S2048_S525312_d0) : (⟨S523264, .f32⟩ : BufTy).Contents (Elt F) → (⟨S2048, .f32⟩ : BufTy).Contents (Elt F) → (⟨S525312, .f32⟩ : BufTy).Contents (Elt F)) : HloOp τ sig (Elt F))) (mem_ops3 (List.getElem_mem (l := (ops3 : List (HloOp τ sig (Elt F)))) (n := 15) (by show (15 : ℕ) < 62; decide))) main_v151 rfl (readsBelow_binary _ _ _ _ _ _ _ (by decide) (by decide))).trans
    (by first | (rw [binary_result]; done) | (rw [binary_result]; rfl))

theorem eq_main_cst_42 (V : Valuation τ sig (Elt F)) :
    (after ops V (Proc.devRef .tc main_cst_42) : (⟨S_, .f32⟩ : BufTy).Contents (Elt F)) = ((constant S_ .f32 0x00000000#32) : (⟨S_, .f32⟩ : BufTy).Contents (Elt F)) :=
  (final_eq V (op := (nullary main_cst_42 (constant S_ .f32 0x00000000#32) : HloOp τ sig (Elt F))) (mem_ops3 (List.getElem_mem (l := (ops3 : List (HloOp τ sig (Elt F)))) (n := 16) (by show (16 : ℕ) < 62; decide))) main_cst_42 rfl (readsBelow_nullary _ _ _)).trans
    (by first | (rw [nullary_result]; done) | (rw [nullary_result]; rfl))

theorem eq_main_v152 (V : Valuation τ sig (Elt F)) :
    (after ops V (Proc.devRef .tc main_v152) : (⟨S2048, .f32⟩ : BufTy).Contents (Elt F)) = ((broadcastInDim S2048 ![] bcast_S_S2048 : (⟨S_, .f32⟩ : BufTy).Contents (Elt F) → (⟨S2048, .f32⟩ : BufTy).Contents (Elt F))) (after ops V (Proc.devRef .tc main_cst_42) : (⟨S_, .f32⟩ : BufTy).Contents (Elt F)) :=
  (final_eq V (op := (unary main_cst_42 main_v152 (broadcastInDim S2048 ![] bcast_S_S2048 : (⟨S_, .f32⟩ : BufTy).Contents (Elt F) → (⟨S2048, .f32⟩ : BufTy).Contents (Elt F)) : HloOp τ sig (Elt F))) (mem_ops3 (List.getElem_mem (l := (ops3 : List (HloOp τ sig (Elt F)))) (n := 17) (by show (17 : ℕ) < 62; decide))) main_v152 rfl (readsBelow_unary _ _ _ _ _ (by decide))).trans
    (by first | (rw [unary_result]; done) | (rw [unary_result]; rfl))

theorem eq_main_c_43 (V : Valuation τ sig (Elt F)) :
    (after ops V (Proc.devRef .tc main_c_43) : (⟨S_, .i32⟩ : BufTy).Contents (Elt F)) = ((constantI S_ 32 0#32) : (⟨S_, .i32⟩ : BufTy).Contents (Elt F)) :=
  (final_eq V (op := (nullary main_c_43 (constantI S_ 32 0#32) : HloOp τ sig (Elt F))) (mem_ops3 (List.getElem_mem (l := (ops3 : List (HloOp τ sig (Elt F)))) (n := 18) (by show (18 : ℕ) < 62; decide))) main_c_43 rfl (readsBelow_nullary _ _ _)).trans
    (by first | (rw [nullary_result]; done) | (rw [nullary_result]; rfl))

theorem eq_main_v153 (V : Valuation τ sig (Elt F)) :
    (after ops V (Proc.devRef .tc main_v153) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_43) : (⟨S_, .i32⟩ : BufTy).Contents (Elt F)) :=
  (final_eq V (op := (unary main_c_43 main_v153 (broadcastInDim S525312 ![] bcast_S_S525312 : (⟨S_, .i32⟩ : BufTy).Contents (Elt F) → (⟨S525312, .i32⟩ : BufTy).Contents (Elt F)) : HloOp τ sig (Elt F))) (mem_ops3 (List.getElem_mem (l := (ops3 : List (HloOp τ sig (Elt F)))) (n := 19) (by show (19 : ℕ) < 62; decide))) main_v153 rfl (readsBelow_unary _ _ _ _ _ (by decide))).trans
    (by first | (rw [unary_result]; done) | (rw [unary_result]; rfl))

theorem eq_main_v154 (V : Valuation τ sig (Elt F)) :
    (after ops V (Proc.devRef .tc main_v154) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v149) : (⟨S525312, .i32⟩ : BufTy).Contents (Elt F)) (after ops V (Proc.devRef .tc main_v153) : (⟨S525312, .i32⟩ : BufTy).Contents (Elt F)) :=
  (final_eq V (op := (binary main_v149 main_v153 main_v154 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops3 (List.getElem_mem (l := (ops3 : List (HloOp τ sig (Elt F)))) (n := 20) (by show (20 : ℕ) < 62; decide))) main_v154 rfl (readsBelow_binary _ _ _ _ _ _ _ (by decide) (by decide))).trans
    (by first | (rw [binary_result]; done) | (rw [binary_result]; rfl))

theorem eq_main_c_44 (V : Valuation τ sig (Elt F)) :
    (after ops V (Proc.devRef .tc main_c_44) : (⟨S_, .i32⟩ : BufTy).Contents (Elt F)) = ((constantI S_ 32 2048#32) : (⟨S_, .i32⟩ : BufTy).Contents (Elt F)) :=
  (final_eq V (op := (nullary main_c_44 (constantI S_ 32 2048#32) : HloOp τ sig (Elt F))) (mem_ops3 (List.getElem_mem (l := (ops3 : List (HloOp τ sig (Elt F)))) (n := 21) (by show (21 : ℕ) < 62; decide))) main_c_44 rfl (readsBelow_nullary _ _ _)).trans
    (by first | (rw [nullary_result]; done) | (rw [nullary_result]; rfl))

theorem eq_main_v155 (V : Valuation τ sig (Elt F)) :
    (after ops V (Proc.devRef .tc main_v155) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_44) : (⟨S_, .i32⟩ : BufTy).Contents (Elt F)) :=
  (final_eq V (op := (unary main_c_44 main_v155 (broadcastInDim S525312 ![] bcast_S_S525312 : (⟨S_, .i32⟩ : BufTy).Contents (Elt F) → (⟨S525312, .i32⟩ : BufTy).Contents (Elt F)) : HloOp τ sig (Elt F))) (mem_ops3 (List.getElem_mem (l := (ops3 : List (HloOp τ sig (Elt F)))) (n := 22) (by show (22 : ℕ) < 62; decide))) main_v155 rfl (readsBelow_unary _ _ _ _ _ (by decide))).trans
    (by first | (rw [unary_result]; done) | (rw [unary_result]; rfl))

theorem eq_main_v156 (V : Valuation τ sig (Elt F)) :
    (after ops V (Proc.devRef .tc main_v156) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v149) : (⟨S525312, .i32⟩ : BufTy).Contents (Elt F)) (after ops V (Proc.devRef .tc main_v155) : (⟨S525312, .i32⟩ : BufTy).Contents (Elt F)) :=
  (final_eq V (op := (binary main_v149 main_v155 main_v156 (addi : (⟨S525312, .i32⟩ : BufTy).Contents (Elt F) → (⟨S525312, .i32⟩ : BufTy).Contents (Elt F) → (⟨S525312, .i32⟩ : BufTy).Contents (Elt F)) : HloOp τ sig (Elt F))) (mem_ops3 (List.getElem_mem (l := (ops3 : List (HloOp τ sig (Elt F)))) (n := 23) (by show (23 : ℕ) < 62; decide))) main_v156 rfl (readsBelow_binary _ _ _ _ _ _ _ (by decide) (by decide))).trans
    (by first | (rw [binary_result]; done) | (rw [binary_result]; rfl))

theorem eq_main_v157 (V : Valuation τ sig (Elt F)) :
    (after ops V (Proc.devRef .tc main_v157) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v154) : (⟨S525312, .i1⟩ : BufTy).Contents (Elt F)) (after ops V (Proc.devRef .tc main_v156) : (⟨S525312, .i32⟩ : BufTy).Contents (Elt F)) (after ops V (Proc.devRef .tc main_v149) : (⟨S525312, .i32⟩ : BufTy).Contents (Elt F)) :=
  (final_eq V (op := (ternary main_v154 main_v156 main_v149 main_v157 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops3 (List.getElem_mem (l := (ops3 : List (HloOp τ sig (Elt F)))) (n := 24) (by show (24 : ℕ) < 62; decide))) main_v157 rfl (readsBelow_ternary _ _ _ _ _ _ _ _ _ (by decide) (by decide) (by decide))).trans
    (by first | (rw [ternary_result]; done) | (rw [ternary_result]; rfl))

theorem eq_main_v158 (V : Valuation τ sig (Elt F)) :
    (after ops V (Proc.devRef .tc main_v158) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v157) : (⟨S525312, .i32⟩ : BufTy).Contents (Elt F)) :=
  (final_eq V (op := (unary main_v157 main_v158 (broadcastInDim S525312x1 ![0] bcast_S525312_S525312x1_0 : (⟨S525312, .i32⟩ : BufTy).Contents (Elt F) → (⟨S525312x1, .i32⟩ : BufTy).Contents (Elt F)) : HloOp τ sig (Elt F))) (mem_ops3 (List.getElem_mem (l := (ops3 : List (HloOp τ sig (Elt F)))) (n := 25) (by show (25 : ℕ) < 62; decide))) main_v158 rfl (readsBelow_unary _ _ _ _ _ (by decide))).trans
    (by first | (rw [unary_result]; done) | (rw [unary_result]; rfl))

theorem eq_main_v159 (V : Valuation τ sig (Elt F)) :
    (after ops V (Proc.devRef .tc main_v159) : (⟨S2048, .f32⟩ : BufTy).Contents (Elt F)) = (((fun x i u => Host.scatterAdd scatter_S2048_S525312x1_S525312_n_0_0_1 x i u) : (⟨S2048, .f32⟩ : BufTy).Contents (Elt F) → (⟨S525312x1, .i32⟩ : BufTy).Contents (Elt F) → (⟨S525312, .f32⟩ : BufTy).Contents (Elt F) → (⟨S2048, .f32⟩ : BufTy).Contents (Elt F))) (after ops V (Proc.devRef .tc main_v152) : (⟨S2048, .f32⟩ : BufTy).Contents (Elt F)) (after ops V (Proc.devRef .tc main_v158) : (⟨S525312x1, .i32⟩ : BufTy).Contents (Elt F)) (after ops V (Proc.devRef .tc main_v151) : (⟨S525312, .f32⟩ : BufTy).Contents (Elt F)) :=
  (final_eq V (op := (ternary main_v152 main_v158 main_v151 main_v159 ((fun x i u => Host.scatterAdd scatter_S2048_S525312x1_S525312_n_0_0_1 x i u) : (⟨S2048, .f32⟩ : BufTy).Contents (Elt F) → (⟨S525312x1, .i32⟩ : BufTy).Contents (Elt F) → (⟨S525312, .f32⟩ : BufTy).Contents (Elt F) → (⟨S2048, .f32⟩ : BufTy).Contents (Elt F)) : HloOp τ sig (Elt F))) (mem_ops3 (List.getElem_mem (l := (ops3 : List (HloOp τ sig (Elt F)))) (n := 26) (by show (26 : ℕ) < 62; decide))) main_v159 rfl (readsBelow_ternary _ _ _ _ _ _ _ _ _ (by decide) (by decide) (by decide))).trans
    (by first | (rw [ternary_result]; done) | (rw [ternary_result]; rfl))

theorem eq_main_cst_45 (V : Valuation τ sig (Elt F)) :
    (after ops V (Proc.devRef .tc main_cst_45) : (⟨S_, .f32⟩ : BufTy).Contents (Elt F)) = ((constant S_ .f32 0x00000000#32) : (⟨S_, .f32⟩ : BufTy).Contents (Elt F)) :=
  (final_eq V (op := (nullary main_cst_45 (constant S_ .f32 0x00000000#32) : HloOp τ sig (Elt F))) (mem_ops3 (List.getElem_mem (l := (ops3 : List (HloOp τ sig (Elt F)))) (n := 27) (by show (27 : ℕ) < 62; decide))) main_cst_45 rfl (readsBelow_nullary _ _ _)).trans
    (by first | (rw [nullary_result]; done) | (rw [nullary_result]; rfl))

theorem eq_main_v160 (V : Valuation τ sig (Elt F)) :
    (after ops V (Proc.devRef .tc main_v160) : (⟨S2048, .f32⟩ : BufTy).Contents (Elt F)) = ((broadcastInDim S2048 ![] bcast_S_S2048 : (⟨S_, .f32⟩ : BufTy).Contents (Elt F) → (⟨S2048, .f32⟩ : BufTy).Contents (Elt F))) (after ops V (Proc.devRef .tc main_cst_45) : (⟨S_, .f32⟩ : BufTy).Contents (Elt F)) :=
  (final_eq V (op := (unary main_cst_45 main_v160 (broadcastInDim S2048 ![] bcast_S_S2048 : (⟨S_, .f32⟩ : BufTy).Contents (Elt F) → (⟨S2048, .f32⟩ : BufTy).Contents (Elt F)) : HloOp τ sig (Elt F))) (mem_ops3 (List.getElem_mem (l := (ops3 : List (HloOp τ sig (Elt F)))) (n := 28) (by show (28 : ℕ) < 62; decide))) main_v160 rfl (readsBelow_unary _ _ _ _ _ (by decide))).trans
    (by first | (rw [unary_result]; done) | (rw [unary_result]; rfl))

theorem eq_main_v161 (V : Valuation τ sig (Elt F)) :
    (after ops V (Proc.devRef .tc main_v161) : (⟨S2048, .i1⟩ : BufTy).Contents (Elt F)) = ((cmpf .ogt : (⟨S2048, .f32⟩ : BufTy).Contents (Elt F) → (⟨S2048, .f32⟩ : BufTy).Contents (Elt F) → (⟨S2048, .i1⟩ : BufTy).Contents (Elt F))) (after ops V (Proc.devRef .tc main_v159) : (⟨S2048, .f32⟩ : BufTy).Contents (Elt F)) (after ops V (Proc.devRef .tc main_v160) : (⟨S2048, .f32⟩ : BufTy).Contents (Elt F)) :=
  (final_eq V (op := (binary main_v159 main_v160 main_v161 (cmpf .ogt : (⟨S2048, .f32⟩ : BufTy).Contents (Elt F) → (⟨S2048, .f32⟩ : BufTy).Contents (Elt F) → (⟨S2048, .i1⟩ : BufTy).Contents (Elt F)) : HloOp τ sig (Elt F))) (mem_ops3 (List.getElem_mem (l := (ops3 : List (HloOp τ sig (Elt F)))) (n := 29) (by show (29 : ℕ) < 62; decide))) main_v161 rfl (readsBelow_binary _ _ _ _ _ _ _ (by decide) (by decide))).trans
    (by first | (rw [binary_result]; done) | (rw [binary_result]; rfl))

theorem eq_main_cst_46 (V : Valuation τ sig (Elt F)) :
    (after ops V (Proc.devRef .tc main_cst_46) : (⟨S_, .f32⟩ : BufTy).Contents (Elt F)) = ((constant S_ .f32 0x2B8CBCCC#32) : (⟨S_, .f32⟩ : BufTy).Contents (Elt F)) :=
  (final_eq V (op := (nullary main_cst_46 (constant S_ .f32 0x2B8CBCCC#32) : HloOp τ sig (Elt F))) (mem_ops3 (List.getElem_mem (l := (ops3 : List (HloOp τ sig (Elt F)))) (n := 30) (by show (30 : ℕ) < 62; decide))) main_cst_46 rfl (readsBelow_nullary _ _ _)).trans
    (by first | (rw [nullary_result]; done) | (rw [nullary_result]; rfl))

theorem eq_main_v162 (V : Valuation τ sig (Elt F)) :
    (after ops V (Proc.devRef .tc main_v162) : (⟨S2048, .f32⟩ : BufTy).Contents (Elt F)) = ((broadcastInDim S2048 ![] bcast_S_S2048 : (⟨S_, .f32⟩ : BufTy).Contents (Elt F) → (⟨S2048, .f32⟩ : BufTy).Contents (Elt F))) (after ops V (Proc.devRef .tc main_cst_46) : (⟨S_, .f32⟩ : BufTy).Contents (Elt F)) :=
  (final_eq V (op := (unary main_cst_46 main_v162 (broadcastInDim S2048 ![] bcast_S_S2048 : (⟨S_, .f32⟩ : BufTy).Contents (Elt F) → (⟨S2048, .f32⟩ : BufTy).Contents (Elt F)) : HloOp τ sig (Elt F))) (mem_ops3 (List.getElem_mem (l := (ops3 : List (HloOp τ sig (Elt F)))) (n := 31) (by show (31 : ℕ) < 62; decide))) main_v162 rfl (readsBelow_unary _ _ _ _ _ (by decide))).trans
    (by first | (rw [unary_result]; done) | (rw [unary_result]; rfl))

theorem eq_main_v163 (V : Valuation τ sig (Elt F)) :
    (after ops V (Proc.devRef .tc main_v163) : (⟨S2048, .f32⟩ : BufTy).Contents (Elt F)) = ((maximumf : (⟨S2048, .f32⟩ : BufTy).Contents (Elt F) → (⟨S2048, .f32⟩ : BufTy).Contents (Elt F) → (⟨S2048, .f32⟩ : BufTy).Contents (Elt F))) (after ops V (Proc.devRef .tc main_v159) : (⟨S2048, .f32⟩ : BufTy).Contents (Elt F)) (after ops V (Proc.devRef .tc main_v162) : (⟨S2048, .f32⟩ : BufTy).Contents (Elt F)) :=
  (final_eq V (op := (binary main_v159 main_v162 main_v163 (maximumf : (⟨S2048, .f32⟩ : BufTy).Contents (Elt F) → (⟨S2048, .f32⟩ : BufTy).Contents (Elt F) → (⟨S2048, .f32⟩ : BufTy).Contents (Elt F)) : HloOp τ sig (Elt F))) (mem_ops3 (List.getElem_mem (l := (ops3 : List (HloOp τ sig (Elt F)))) (n := 32) (by show (32 : ℕ) < 62; decide))) main_v163 rfl (readsBelow_binary _ _ _ _ _ _ _ (by decide) (by decide))).trans
    (by first | (rw [binary_result]; done) | (rw [binary_result]; rfl))

theorem eq_main_v164 (V : Valuation τ sig (Elt F)) :
    (after ops V (Proc.devRef .tc main_v164) : (⟨S2048, .f32⟩ : BufTy).Contents (Elt F)) = ((Host.rsqrt : (⟨S2048, .f32⟩ : BufTy).Contents (Elt F) → (⟨S2048, .f32⟩ : BufTy).Contents (Elt F))) (after ops V (Proc.devRef .tc main_v163) : (⟨S2048, .f32⟩ : BufTy).Contents (Elt F)) :=
  (final_eq V (op := (unary main_v163 main_v164 (Host.rsqrt : (⟨S2048, .f32⟩ : BufTy).Contents (Elt F) → (⟨S2048, .f32⟩ : BufTy).Contents (Elt F)) : HloOp τ sig (Elt F))) (mem_ops3 (List.getElem_mem (l := (ops3 : List (HloOp τ sig (Elt F)))) (n := 33) (by show (33 : ℕ) < 62; decide))) main_v164 rfl (readsBelow_unary _ _ _ _ _ (by decide))).trans
    (by first | (rw [unary_result]; done) | (rw [unary_result]; rfl))

theorem eq_main_cst_47 (V : Valuation τ sig (Elt F)) :
    (after ops V (Proc.devRef .tc main_cst_47) : (⟨S_, .f32⟩ : BufTy).Contents (Elt F)) = ((constant S_ .f32 0x00000000#32) : (⟨S_, .f32⟩ : BufTy).Contents (Elt F)) :=
  (final_eq V (op := (nullary main_cst_47 (constant S_ .f32 0x00000000#32) : HloOp τ sig (Elt F))) (mem_ops3 (List.getElem_mem (l := (ops3 : List (HloOp τ sig (Elt F)))) (n := 34) (by show (34 : ℕ) < 62; decide))) main_cst_47 rfl (readsBelow_nullary _ _ _)).trans
    (by first | (rw [nullary_result]; done) | (rw [nullary_result]; rfl))

theorem eq_main_call8_v0 (V : Valuation τ sig (Elt F)) :
    (after ops V (Proc.devRef .tc main_call8_v0) : (⟨S_, .f32⟩ : BufTy).Contents (Elt F)) = (id) (after ops V (Proc.devRef .tc main_cst_47) : (⟨S_, .f32⟩ : BufTy).Contents (Elt F)) :=
  (final_eq V (op := (TRef.unary (.of main_cst_47 : StableHlo.TRef sig ⟨S_, .f32⟩) main_call8.v0 id : HloOp τ sig (Elt F))) (mem_ops3 (List.getElem_mem (l := (ops3 : List (HloOp τ sig (Elt F)))) (n := 35) (by show (35 : ℕ) < 62; decide))) main_call8_v0 rfl (readsBelow_unary _ _ _ _ _ (by decide))).trans
    (by first | (rw [unary_result]; done) | (rw [unary_result]; rfl))

theorem eq_main_call8_v1 (V : Valuation τ sig (Elt F)) :
    (after ops V (Proc.devRef .tc main_call8_v1) : (⟨S2048, .f32⟩ : BufTy).Contents (Elt F)) = ((broadcastInDim S2048 ![] bcast_S_S2048)) (after ops V (Proc.devRef .tc main_call8_v0) : (⟨S_, .f32⟩ : BufTy).Contents (Elt F)) :=
  (final_eq V (op := (TRef.unary main_call8.v0 main_call8.v1 (broadcastInDim S2048 ![] bcast_S_S2048) : HloOp τ sig (Elt F))) (mem_ops3 (List.getElem_mem (l := (ops3 : List (HloOp τ sig (Elt F)))) (n := 36) (by show (36 : ℕ) < 62; decide))) main_call8_v1 rfl (readsBelow_unary _ _ _ _ _ (by decide))).trans
    (by first | (rw [unary_result]; done) | (rw [unary_result]; rfl))

theorem eq_main_v165 (V : Valuation τ sig (Elt F)) :
    (after ops V (Proc.devRef .tc main_v165) : (⟨S2048, .f32⟩ : BufTy).Contents (Elt F)) = (select) (after ops V (Proc.devRef .tc main_v161) : (⟨S2048, .i1⟩ : BufTy).Contents (Elt F)) (after ops V (Proc.devRef .tc main_v164) : (⟨S2048, .f32⟩ : BufTy).Contents (Elt F)) (after ops V (Proc.devRef .tc main_call8_v1) : (⟨S2048, .f32⟩ : BufTy).Contents (Elt F)) :=
  (final_eq V (op := (TRef.ternary (.of main_v161 : StableHlo.TRef sig ⟨S2048, .i1⟩) (.of main_v164 : StableHlo.TRef sig ⟨S2048, .f32⟩) main_call8.v1 main_call8.v2 select : HloOp τ sig (Elt F))) (mem_ops3 (List.getElem_mem (l := (ops3 : List (HloOp τ sig (Elt F)))) (n := 37) (by show (37 : ℕ) < 62; decide))) main_v165 rfl (readsBelow_ternary _ _ _ _ _ _ _ _ _ (by decide) (by decide) (by decide))).trans
    (by first | (rw [ternary_result]; done) | (rw [ternary_result]; rfl))

theorem eq_main_c_48 (V : Valuation τ sig (Elt F)) :
    (after ops V (Proc.devRef .tc main_c_48) : (⟨S_, .i32⟩ : BufTy).Contents (Elt F)) = ((constantI S_ 32 0#32) : (⟨S_, .i32⟩ : BufTy).Contents (Elt F)) :=
  (final_eq V (op := (nullary main_c_48 (constantI S_ 32 0#32) : HloOp τ sig (Elt F))) (mem_ops3 (List.getElem_mem (l := (ops3 : List (HloOp τ sig (Elt F)))) (n := 38) (by show (38 : ℕ) < 62; decide))) main_c_48 rfl (readsBelow_nullary _ _ _)).trans
    (by first | (rw [nullary_result]; done) | (rw [nullary_result]; rfl))

theorem eq_main_v166 (V : Valuation τ sig (Elt F)) :
    (after ops V (Proc.devRef .tc main_v166) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_48) : (⟨S_, .i32⟩ : BufTy).Contents (Elt F)) :=
  (final_eq V (op := (unary main_c_48 main_v166 (broadcastInDim S525312 ![] bcast_S_S525312 : (⟨S_, .i32⟩ : BufTy).Contents (Elt F) → (⟨S525312, .i32⟩ : BufTy).Contents (Elt F)) : HloOp τ sig (Elt F))) (mem_ops3 (List.getElem_mem (l := (ops3 : List (HloOp τ sig (Elt F)))) (n := 39) (by show (39 : ℕ) < 62; decide))) main_v166 rfl (readsBelow_unary _ _ _ _ _ (by decide))).trans
    (by first | (rw [unary_result]; done) | (rw [unary_result]; rfl))

theorem eq_main_v167 (V : Valuation τ sig (Elt F)) :
    (after ops V (Proc.devRef .tc main_v167) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v148) : (⟨S525312, .i32⟩ : BufTy).Contents (Elt F)) (after ops V (Proc.devRef .tc main_v166) : (⟨S525312, .i32⟩ : BufTy).Contents (Elt F)) :=
  (final_eq V (op := (binary main_v148 main_v166 main_v167 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops3 (List.getElem_mem (l := (ops3 : List (HloOp τ sig (Elt F)))) (n := 40) (by show (40 : ℕ) < 62; decide))) main_v167 rfl (readsBelow_binary _ _ _ _ _ _ _ (by decide) (by decide))).trans
    (by first | (rw [binary_result]; done) | (rw [binary_result]; rfl))

theorem eq_main_c_49 (V : Valuation τ sig (Elt F)) :
    (after ops V (Proc.devRef .tc main_c_49) : (⟨S_, .i32⟩ : BufTy).Contents (Elt F)) = ((constantI S_ 32 2048#32) : (⟨S_, .i32⟩ : BufTy).Contents (Elt F)) :=
  (final_eq V (op := (nullary main_c_49 (constantI S_ 32 2048#32) : HloOp τ sig (Elt F))) (mem_ops3 (List.getElem_mem (l := (ops3 : List (HloOp τ sig (Elt F)))) (n := 41) (by show (41 : ℕ) < 62; decide))) main_c_49 rfl (readsBelow_nullary _ _ _)).trans
    (by first | (rw [nullary_result]; done) | (rw [nullary_result]; rfl))

theorem eq_main_v168 (V : Valuation τ sig (Elt F)) :
    (after ops V (Proc.devRef .tc main_v168) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_49) : (⟨S_, .i32⟩ : BufTy).Contents (Elt F)) :=
  (final_eq V (op := (unary main_c_49 main_v168 (broadcastInDim S525312 ![] bcast_S_S525312 : (⟨S_, .i32⟩ : BufTy).Contents (Elt F) → (⟨S525312, .i32⟩ : BufTy).Contents (Elt F)) : HloOp τ sig (Elt F))) (mem_ops3 (List.getElem_mem (l := (ops3 : List (HloOp τ sig (Elt F)))) (n := 42) (by show (42 : ℕ) < 62; decide))) main_v168 rfl (readsBelow_unary _ _ _ _ _ (by decide))).trans
    (by first | (rw [unary_result]; done) | (rw [unary_result]; rfl))

theorem eq_main_v169 (V : Valuation τ sig (Elt F)) :
    (after ops V (Proc.devRef .tc main_v169) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v148) : (⟨S525312, .i32⟩ : BufTy).Contents (Elt F)) (after ops V (Proc.devRef .tc main_v168) : (⟨S525312, .i32⟩ : BufTy).Contents (Elt F)) :=
  (final_eq V (op := (binary main_v148 main_v168 main_v169 (addi : (⟨S525312, .i32⟩ : BufTy).Contents (Elt F) → (⟨S525312, .i32⟩ : BufTy).Contents (Elt F) → (⟨S525312, .i32⟩ : BufTy).Contents (Elt F)) : HloOp τ sig (Elt F))) (mem_ops3 (List.getElem_mem (l := (ops3 : List (HloOp τ sig (Elt F)))) (n := 43) (by show (43 : ℕ) < 62; decide))) main_v169 rfl (readsBelow_binary _ _ _ _ _ _ _ (by decide) (by decide))).trans
    (by first | (rw [binary_result]; done) | (rw [binary_result]; rfl))

theorem eq_main_v170 (V : Valuation τ sig (Elt F)) :
    (after ops V (Proc.devRef .tc main_v170) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v167) : (⟨S525312, .i1⟩ : BufTy).Contents (Elt F)) (after ops V (Proc.devRef .tc main_v169) : (⟨S525312, .i32⟩ : BufTy).Contents (Elt F)) (after ops V (Proc.devRef .tc main_v148) : (⟨S525312, .i32⟩ : BufTy).Contents (Elt F)) :=
  (final_eq V (op := (ternary main_v167 main_v169 main_v148 main_v170 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops3 (List.getElem_mem (l := (ops3 : List (HloOp τ sig (Elt F)))) (n := 44) (by show (44 : ℕ) < 62; decide))) main_v170 rfl (readsBelow_ternary _ _ _ _ _ _ _ _ _ (by decide) (by decide) (by decide))).trans
    (by first | (rw [ternary_result]; done) | (rw [ternary_result]; rfl))

theorem eq_main_v171 (V : Valuation τ sig (Elt F)) :
    (after ops V (Proc.devRef .tc main_v171) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v170) : (⟨S525312, .i32⟩ : BufTy).Contents (Elt F)) :=
  (final_eq V (op := (unary main_v170 main_v171 (broadcastInDim S525312x1 ![0] bcast_S525312_S525312x1_0 : (⟨S525312, .i32⟩ : BufTy).Contents (Elt F) → (⟨S525312x1, .i32⟩ : BufTy).Contents (Elt F)) : HloOp τ sig (Elt F))) (mem_ops3 (List.getElem_mem (l := (ops3 : List (HloOp τ sig (Elt F)))) (n := 45) (by show (45 : ℕ) < 62; decide))) main_v171 rfl (readsBelow_unary _ _ _ _ _ (by decide))).trans
    (by first | (rw [unary_result]; done) | (rw [unary_result]; rfl))

theorem eq_main_v172 (V : Valuation τ sig (Elt F)) :
    (after ops V (Proc.devRef .tc main_v172) : (⟨S525312, .f32⟩ : BufTy).Contents (Elt F)) = (((fun x i => Host.gather gather_S2048_S525312x1_S525312_n_0_n_n_0_1_1 x i) : (⟨S2048, .f32⟩ : BufTy).Contents (Elt F) → (⟨S525312x1, .i32⟩ : BufTy).Contents (Elt F) → (⟨S525312, .f32⟩ : BufTy).Contents (Elt F))) (after ops V (Proc.devRef .tc main_v165) : (⟨S2048, .f32⟩ : BufTy).Contents (Elt F)) (after ops V (Proc.devRef .tc main_v171) : (⟨S525312x1, .i32⟩ : BufTy).Contents (Elt F)) :=
  (final_eq V (op := (binary main_v165 main_v171 main_v172 ((fun x i => Host.gather gather_S2048_S525312x1_S525312_n_0_n_n_0_1_1 x i) : (⟨S2048, .f32⟩ : BufTy).Contents (Elt F) → (⟨S525312x1, .i32⟩ : BufTy).Contents (Elt F) → (⟨S525312, .f32⟩ : BufTy).Contents (Elt F)) : HloOp τ sig (Elt F))) (mem_ops3 (List.getElem_mem (l := (ops3 : List (HloOp τ sig (Elt F)))) (n := 46) (by show (46 : ℕ) < 62; decide))) main_v172 rfl (readsBelow_binary _ _ _ _ _ _ _ (by decide) (by decide))).trans
    (by first | (rw [binary_result]; done) | (rw [binary_result]; rfl))

theorem eq_main_v173 (V : Valuation τ sig (Elt F)) :
    (after ops V (Proc.devRef .tc main_v173) : (⟨S525312, .f32⟩ : BufTy).Contents (Elt F)) = ((mulf : (⟨S525312, .f32⟩ : BufTy).Contents (Elt F) → (⟨S525312, .f32⟩ : BufTy).Contents (Elt F) → (⟨S525312, .f32⟩ : BufTy).Contents (Elt F))) (after ops V (Proc.devRef .tc main_v172) : (⟨S525312, .f32⟩ : BufTy).Contents (Elt F)) (after ops V (Proc.devRef .tc main_v151) : (⟨S525312, .f32⟩ : BufTy).Contents (Elt F)) :=
  (final_eq V (op := (binary main_v172 main_v151 main_v173 (mulf : (⟨S525312, .f32⟩ : BufTy).Contents (Elt F) → (⟨S525312, .f32⟩ : BufTy).Contents (Elt F) → (⟨S525312, .f32⟩ : BufTy).Contents (Elt F)) : HloOp τ sig (Elt F))) (mem_ops3 (List.getElem_mem (l := (ops3 : List (HloOp τ sig (Elt F)))) (n := 47) (by show (47 : ℕ) < 62; decide))) main_v173 rfl (readsBelow_binary _ _ _ _ _ _ _ (by decide) (by decide))).trans
    (by first | (rw [binary_result]; done) | (rw [binary_result]; rfl))

theorem eq_main_c_50 (V : Valuation τ sig (Elt F)) :
    (after ops V (Proc.devRef .tc main_c_50) : (⟨S_, .i32⟩ : BufTy).Contents (Elt F)) = ((constantI S_ 32 0#32) : (⟨S_, .i32⟩ : BufTy).Contents (Elt F)) :=
  (final_eq V (op := (nullary main_c_50 (constantI S_ 32 0#32) : HloOp τ sig (Elt F))) (mem_ops3 (List.getElem_mem (l := (ops3 : List (HloOp τ sig (Elt F)))) (n := 48) (by show (48 : ℕ) < 62; decide))) main_c_50 rfl (readsBelow_nullary _ _ _)).trans
    (by first | (rw [nullary_result]; done) | (rw [nullary_result]; rfl))

theorem eq_main_v174 (V : Valuation τ sig (Elt F)) :
    (after ops V (Proc.devRef .tc main_v174) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_50) : (⟨S_, .i32⟩ : BufTy).Contents (Elt F)) :=
  (final_eq V (op := (unary main_c_50 main_v174 (broadcastInDim S525312 ![] bcast_S_S525312 : (⟨S_, .i32⟩ : BufTy).Contents (Elt F) → (⟨S525312, .i32⟩ : BufTy).Contents (Elt F)) : HloOp τ sig (Elt F))) (mem_ops3 (List.getElem_mem (l := (ops3 : List (HloOp τ sig (Elt F)))) (n := 49) (by show (49 : ℕ) < 62; decide))) main_v174 rfl (readsBelow_unary _ _ _ _ _ (by decide))).trans
    (by first | (rw [unary_result]; done) | (rw [unary_result]; rfl))

theorem eq_main_v175 (V : Valuation τ sig (Elt F)) :
    (after ops V (Proc.devRef .tc main_v175) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v149) : (⟨S525312, .i32⟩ : BufTy).Contents (Elt F)) (after ops V (Proc.devRef .tc main_v174) : (⟨S525312, .i32⟩ : BufTy).Contents (Elt F)) :=
  (final_eq V (op := (binary main_v149 main_v174 main_v175 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops3 (List.getElem_mem (l := (ops3 : List (HloOp τ sig (Elt F)))) (n := 50) (by show (50 : ℕ) < 62; decide))) main_v175 rfl (readsBelow_binary _ _ _ _ _ _ _ (by decide) (by decide))).trans
    (by first | (rw [binary_result]; done) | (rw [binary_result]; rfl))

theorem eq_main_c_51 (V : Valuation τ sig (Elt F)) :
    (after ops V (Proc.devRef .tc main_c_51) : (⟨S_, .i32⟩ : BufTy).Contents (Elt F)) = ((constantI S_ 32 2048#32) : (⟨S_, .i32⟩ : BufTy).Contents (Elt F)) :=
  (final_eq V (op := (nullary main_c_51 (constantI S_ 32 2048#32) : HloOp τ sig (Elt F))) (mem_ops3 (List.getElem_mem (l := (ops3 : List (HloOp τ sig (Elt F)))) (n := 51) (by show (51 : ℕ) < 62; decide))) main_c_51 rfl (readsBelow_nullary _ _ _)).trans
    (by first | (rw [nullary_result]; done) | (rw [nullary_result]; rfl))

theorem eq_main_v176 (V : Valuation τ sig (Elt F)) :
    (after ops V (Proc.devRef .tc main_v176) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_51) : (⟨S_, .i32⟩ : BufTy).Contents (Elt F)) :=
  (final_eq V (op := (unary main_c_51 main_v176 (broadcastInDim S525312 ![] bcast_S_S525312 : (⟨S_, .i32⟩ : BufTy).Contents (Elt F) → (⟨S525312, .i32⟩ : BufTy).Contents (Elt F)) : HloOp τ sig (Elt F))) (mem_ops3 (List.getElem_mem (l := (ops3 : List (HloOp τ sig (Elt F)))) (n := 52) (by show (52 : ℕ) < 62; decide))) main_v176 rfl (readsBelow_unary _ _ _ _ _ (by decide))).trans
    (by first | (rw [unary_result]; done) | (rw [unary_result]; rfl))

theorem eq_main_v177 (V : Valuation τ sig (Elt F)) :
    (after ops V (Proc.devRef .tc main_v177) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v149) : (⟨S525312, .i32⟩ : BufTy).Contents (Elt F)) (after ops V (Proc.devRef .tc main_v176) : (⟨S525312, .i32⟩ : BufTy).Contents (Elt F)) :=
  (final_eq V (op := (binary main_v149 main_v176 main_v177 (addi : (⟨S525312, .i32⟩ : BufTy).Contents (Elt F) → (⟨S525312, .i32⟩ : BufTy).Contents (Elt F) → (⟨S525312, .i32⟩ : BufTy).Contents (Elt F)) : HloOp τ sig (Elt F))) (mem_ops3 (List.getElem_mem (l := (ops3 : List (HloOp τ sig (Elt F)))) (n := 53) (by show (53 : ℕ) < 62; decide))) main_v177 rfl (readsBelow_binary _ _ _ _ _ _ _ (by decide) (by decide))).trans
    (by first | (rw [binary_result]; done) | (rw [binary_result]; rfl))

theorem eq_main_v178 (V : Valuation τ sig (Elt F)) :
    (after ops V (Proc.devRef .tc main_v178) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v175) : (⟨S525312, .i1⟩ : BufTy).Contents (Elt F)) (after ops V (Proc.devRef .tc main_v177) : (⟨S525312, .i32⟩ : BufTy).Contents (Elt F)) (after ops V (Proc.devRef .tc main_v149) : (⟨S525312, .i32⟩ : BufTy).Contents (Elt F)) :=
  (final_eq V (op := (ternary main_v175 main_v177 main_v149 main_v178 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops3 (List.getElem_mem (l := (ops3 : List (HloOp τ sig (Elt F)))) (n := 54) (by show (54 : ℕ) < 62; decide))) main_v178 rfl (readsBelow_ternary _ _ _ _ _ _ _ _ _ (by decide) (by decide) (by decide))).trans
    (by first | (rw [ternary_result]; done) | (rw [ternary_result]; rfl))

theorem eq_main_v179 (V : Valuation τ sig (Elt F)) :
    (after ops V (Proc.devRef .tc main_v179) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v178) : (⟨S525312, .i32⟩ : BufTy).Contents (Elt F)) :=
  (final_eq V (op := (unary main_v178 main_v179 (broadcastInDim S525312x1 ![0] bcast_S525312_S525312x1_0 : (⟨S525312, .i32⟩ : BufTy).Contents (Elt F) → (⟨S525312x1, .i32⟩ : BufTy).Contents (Elt F)) : HloOp τ sig (Elt F))) (mem_ops3 (List.getElem_mem (l := (ops3 : List (HloOp τ sig (Elt F)))) (n := 55) (by show (55 : ℕ) < 62; decide))) main_v179 rfl (readsBelow_unary _ _ _ _ _ (by decide))).trans
    (by first | (rw [unary_result]; done) | (rw [unary_result]; rfl))

theorem eq_main_v180 (V : Valuation τ sig (Elt F)) :
    (after ops V (Proc.devRef .tc main_v180) : (⟨S525312, .f32⟩ : BufTy).Contents (Elt F)) = (((fun x i => Host.gather gather_S2048_S525312x1_S525312_n_0_n_n_0_1_1 x i) : (⟨S2048, .f32⟩ : BufTy).Contents (Elt F) → (⟨S525312x1, .i32⟩ : BufTy).Contents (Elt F) → (⟨S525312, .f32⟩ : BufTy).Contents (Elt F))) (after ops V (Proc.devRef .tc main_v165) : (⟨S2048, .f32⟩ : BufTy).Contents (Elt F)) (after ops V (Proc.devRef .tc main_v179) : (⟨S525312x1, .i32⟩ : BufTy).Contents (Elt F)) :=
  (final_eq V (op := (binary main_v165 main_v179 main_v180 ((fun x i => Host.gather gather_S2048_S525312x1_S525312_n_0_n_n_0_1_1 x i) : (⟨S2048, .f32⟩ : BufTy).Contents (Elt F) → (⟨S525312x1, .i32⟩ : BufTy).Contents (Elt F) → (⟨S525312, .f32⟩ : BufTy).Contents (Elt F)) : HloOp τ sig (Elt F))) (mem_ops3 (List.getElem_mem (l := (ops3 : List (HloOp τ sig (Elt F)))) (n := 56) (by show (56 : ℕ) < 62; decide))) main_v180 rfl (readsBelow_binary _ _ _ _ _ _ _ (by decide) (by decide))).trans
    (by first | (rw [binary_result]; done) | (rw [binary_result]; rfl))

theorem eq_main_v181 (V : Valuation τ sig (Elt F)) :
    (after ops V (Proc.devRef .tc main_v181) : (⟨S525312, .f32⟩ : BufTy).Contents (Elt F)) = ((mulf : (⟨S525312, .f32⟩ : BufTy).Contents (Elt F) → (⟨S525312, .f32⟩ : BufTy).Contents (Elt F) → (⟨S525312, .f32⟩ : BufTy).Contents (Elt F))) (after ops V (Proc.devRef .tc main_v173) : (⟨S525312, .f32⟩ : BufTy).Contents (Elt F)) (after ops V (Proc.devRef .tc main_v180) : (⟨S525312, .f32⟩ : BufTy).Contents (Elt F)) :=
  (final_eq V (op := (binary main_v173 main_v180 main_v181 (mulf : (⟨S525312, .f32⟩ : BufTy).Contents (Elt F) → (⟨S525312, .f32⟩ : BufTy).Contents (Elt F) → (⟨S525312, .f32⟩ : BufTy).Contents (Elt F)) : HloOp τ sig (Elt F))) (mem_ops3 (List.getElem_mem (l := (ops3 : List (HloOp τ sig (Elt F)))) (n := 57) (by show (57 : ℕ) < 62; decide))) main_v181 rfl (readsBelow_binary _ _ _ _ _ _ _ (by decide) (by decide))).trans
    (by first | (rw [binary_result]; done) | (rw [binary_result]; rfl))

theorem eq_main_cst_52 (V : Valuation τ sig (Elt F)) :
    (after ops V (Proc.devRef .tc main_cst_52) : (⟨S_, .f32⟩ : BufTy).Contents (Elt F)) = ((constant S_ .f32 0x3E99999A#32) : (⟨S_, .f32⟩ : BufTy).Contents (Elt F)) :=
  (final_eq V (op := (nullary main_cst_52 (constant S_ .f32 0x3E99999A#32) : HloOp τ sig (Elt F))) (mem_ops3 (List.getElem_mem (l := (ops3 : List (HloOp τ sig (Elt F)))) (n := 58) (by show (58 : ℕ) < 62; decide))) main_cst_52 rfl (readsBelow_nullary _ _ _)).trans
    (by first | (rw [nullary_result]; done) | (rw [nullary_result]; rfl))

theorem eq_main_v182 (V : Valuation τ sig (Elt F)) :
    (after ops V (Proc.devRef .tc main_v182) : (⟨S2048x128, .f32⟩ : BufTy).Contents (Elt F)) = ((broadcastInDim S2048x128 ![] bcast_S_S2048x128 : (⟨S_, .f32⟩ : BufTy).Contents (Elt F) → (⟨S2048x128, .f32⟩ : BufTy).Contents (Elt F))) (after ops V (Proc.devRef .tc main_cst_52) : (⟨S_, .f32⟩ : BufTy).Contents (Elt F)) :=
  (final_eq V (op := (unary main_cst_52 main_v182 (broadcastInDim S2048x128 ![] bcast_S_S2048x128 : (⟨S_, .f32⟩ : BufTy).Contents (Elt F) → (⟨S2048x128, .f32⟩ : BufTy).Contents (Elt F)) : HloOp τ sig (Elt F))) (mem_ops3 (List.getElem_mem (l := (ops3 : List (HloOp τ sig (Elt F)))) (n := 59) (by show (59 : ℕ) < 62; decide))) main_v182 rfl (readsBelow_unary _ _ _ _ _ (by decide))).trans
    (by first | (rw [unary_result]; done) | (rw [unary_result]; rfl))

theorem eq_main_v183 (V : Valuation τ sig (Elt F)) :
    (after ops V (Proc.devRef .tc main_v183) : (⟨S2048x128, .f32⟩ : BufTy).Contents (Elt F)) = ((mulf : (⟨S2048x128, .f32⟩ : BufTy).Contents (Elt F) → (⟨S2048x128, .f32⟩ : BufTy).Contents (Elt F) → (⟨S2048x128, .f32⟩ : BufTy).Contents (Elt F))) (after ops V (Proc.devRef .tc main_v146) : (⟨S2048x128, .f32⟩ : BufTy).Contents (Elt F)) (after ops V (Proc.devRef .tc main_v182) : (⟨S2048x128, .f32⟩ : BufTy).Contents (Elt F)) :=
  (final_eq V (op := (binary main_v146 main_v182 main_v183 (mulf : (⟨S2048x128, .f32⟩ : BufTy).Contents (Elt F) → (⟨S2048x128, .f32⟩ : BufTy).Contents (Elt F) → (⟨S2048x128, .f32⟩ : BufTy).Contents (Elt F)) : HloOp τ sig (Elt F))) (mem_ops3 (List.getElem_mem (l := (ops3 : List (HloOp τ sig (Elt F)))) (n := 60) (by show (60 : ℕ) < 62; decide))) main_v183 rfl (readsBelow_binary _ _ _ _ _ _ _ (by decide) (by decide))).trans
    (by first | (rw [binary_result]; done) | (rw [binary_result]; rfl))

theorem eq_main_c_53 (V : Valuation τ sig (Elt F)) :
    (after ops V (Proc.devRef .tc main_c_53) : (⟨S_, .i32⟩ : BufTy).Contents (Elt F)) = ((constantI S_ 32 0#32) : (⟨S_, .i32⟩ : BufTy).Contents (Elt F)) :=
  (final_eq V (op := (nullary main_c_53 (constantI S_ 32 0#32) : HloOp τ sig (Elt F))) (mem_ops3 (List.getElem_mem (l := (ops3 : List (HloOp τ sig (Elt F)))) (n := 61) (by show (61 : ℕ) < 62; decide))) main_c_53 rfl (readsBelow_nullary _ _ _)).trans
    (by first | (rw [nullary_result]; done) | (rw [nullary_result]; rfl))

end Cert.ReferenceIdeal.Line

end
-- ==== Proof.RefEq4.lean ====
/- The equations of window 4's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefRun

set_option maxRecDepth 65536
set_option maxHeartbeats 1000000

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem eq_main_v184 (V : Valuation τ sig (Elt F)) :
    (after ops V (Proc.devRef .tc main_v184) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_53) : (⟨S_, .i32⟩ : BufTy).Contents (Elt F)) :=
  (final_eq V (op := (unary main_c_53 main_v184 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 0) (by show (0 : ℕ) < 60; decide))) main_v184 rfl (readsBelow_unary _ _ _ _ _ (by decide))).trans
    (by first | (rw [unary_result]; done) | (rw [unary_result]; rfl))

theorem eq_main_v185 (V : Valuation τ sig (Elt F)) :
    (after ops V (Proc.devRef .tc main_v185) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v148) : (⟨S525312, .i32⟩ : BufTy).Contents (Elt F)) (after ops V (Proc.devRef .tc main_v184) : (⟨S525312, .i32⟩ : BufTy).Contents (Elt F)) :=
  (final_eq V (op := (binary main_v148 main_v184 main_v185 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops4 (List.getElem_mem (l := (ops4 : List (HloOp τ sig (Elt F)))) (n := 1) (by show (1 : ℕ) < 60; decide))) main_v185 rfl (readsBelow_binary _ _ _ _ _ _ _ (by decide) (by decide))).trans
    (by first | (rw [binary_result]; done) | (rw [binary_result]; rfl))

theorem eq_main_c_54 (V : Valuation τ sig (Elt F)) :
    (after ops V (Proc.devRef .tc main_c_54) : (⟨S_, .i32⟩ : BufTy).Contents (Elt F)) = ((constantI S_ 32 2048#32) : (⟨S_, .i32⟩ : BufTy).Contents (Elt F)) :=
  (final_eq V (op := (nullary main_c_54 (constantI S_ 32 2048#32) : HloOp τ sig (Elt F))) (mem_ops4 (List.getElem_mem (l := (ops4 : List (HloOp τ sig (Elt F)))) (n := 2) (by show (2 : ℕ) < 60; decide))) main_c_54 rfl (readsBelow_nullary _ _ _)).trans
    (by first | (rw [nullary_result]; done) | (rw [nullary_result]; rfl))

theorem eq_main_v186 (V : Valuation τ sig (Elt F)) :
    (after ops V (Proc.devRef .tc main_v186) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_54) : (⟨S_, .i32⟩ : BufTy).Contents (Elt F)) :=
  (final_eq V (op := (unary main_c_54 main_v186 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 3) (by show (3 : ℕ) < 60; decide))) main_v186 rfl (readsBelow_unary _ _ _ _ _ (by decide))).trans
    (by first | (rw [unary_result]; done) | (rw [unary_result]; rfl))

theorem eq_main_v187 (V : Valuation τ sig (Elt F)) :
    (after ops V (Proc.devRef .tc main_v187) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v148) : (⟨S525312, .i32⟩ : BufTy).Contents (Elt F)) (after ops V (Proc.devRef .tc main_v186) : (⟨S525312, .i32⟩ : BufTy).Contents (Elt F)) :=
  (final_eq V (op := (binary main_v148 main_v186 main_v187 (addi : (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 4) (by show (4 : ℕ) < 60; decide))) main_v187 rfl (readsBelow_binary _ _ _ _ _ _ _ (by decide) (by decide))).trans
    (by first | (rw [binary_result]; done) | (rw [binary_result]; rfl))

theorem eq_main_v188 (V : Valuation τ sig (Elt F)) :
    (after ops V (Proc.devRef .tc main_v188) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v185) : (⟨S525312, .i1⟩ : BufTy).Contents (Elt F)) (after ops V (Proc.devRef .tc main_v187) : (⟨S525312, .i32⟩ : BufTy).Contents (Elt F)) (after ops V (Proc.devRef .tc main_v148) : (⟨S525312, .i32⟩ : BufTy).Contents (Elt F)) :=
  (final_eq V (op := (ternary main_v185 main_v187 main_v148 main_v188 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 5) (by show (5 : ℕ) < 60; decide))) main_v188 rfl (readsBelow_ternary _ _ _ _ _ _ _ _ _ (by decide) (by decide) (by decide))).trans
    (by first | (rw [ternary_result]; done) | (rw [ternary_result]; rfl))

theorem eq_main_v189 (V : Valuation τ sig (Elt F)) :
    (after ops V (Proc.devRef .tc main_v189) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v188) : (⟨S525312, .i32⟩ : BufTy).Contents (Elt F)) :=
  (final_eq V (op := (unary main_v188 main_v189 (broadcastInDim S525312x1 ![0] bcast_S525312_S525312x1_0 : (⟨S525312, .i32⟩ : BufTy).Contents (Elt F) → (⟨S525312x1, .i32⟩ : BufTy).Contents (Elt F)) : HloOp τ sig (Elt F))) (mem_ops4 (List.getElem_mem (l := (ops4 : List (HloOp τ sig (Elt F)))) (n := 6) (by show (6 : ℕ) < 60; decide))) main_v189 rfl (readsBelow_unary _ _ _ _ _ (by decide))).trans
    (by first | (rw [unary_result]; done) | (rw [unary_result]; rfl))

theorem eq_main_v190 (V : Valuation τ sig (Elt F)) :
    (after ops V (Proc.devRef .tc main_v190) : (⟨S525312x128, .f32⟩ : BufTy).Contents (Elt F)) = (((fun x i => Host.gather gather_S2048x128_S525312x1_S525312x128_1_0_n_n_0_1_1128 x i) : (⟨S2048x128, .f32⟩ : BufTy).Contents (Elt F) → (⟨S525312x1, .i32⟩ : BufTy).Contents (Elt F) → (⟨S525312x128, .f32⟩ : BufTy).Contents (Elt F))) (after ops V (Proc.devRef .tc main_v146) : (⟨S2048x128, .f32⟩ : BufTy).Contents (Elt F)) (after ops V (Proc.devRef .tc main_v189) : (⟨S525312x1, .i32⟩ : BufTy).Contents (Elt F)) :=
  (final_eq V (op := (binary main_v146 main_v189 main_v190 ((fun x i => Host.gather gather_S2048x128_S525312x1_S525312x128_1_0_n_n_0_1_1128 x i) : (⟨S2048x128, .f32⟩ : BufTy).Contents (Elt F) → (⟨S525312x1, .i32⟩ : BufTy).Contents (Elt F) → (⟨S525312x128, .f32⟩ : BufTy).Contents (Elt F)) : HloOp τ sig (Elt F))) (mem_ops4 (List.getElem_mem (l := (ops4 : List (HloOp τ sig (Elt F)))) (n := 7) (by show (7 : ℕ) < 60; decide))) main_v190 rfl (readsBelow_binary _ _ _ _ _ _ _ (by decide) (by decide))).trans
    (by first | (rw [binary_result]; done) | (rw [binary_result]; rfl))

theorem eq_main_v191 (V : Valuation τ sig (Elt F)) :
    (after ops V (Proc.devRef .tc main_v191) : (⟨S525312x1, .f32⟩ : BufTy).Contents (Elt F)) = ((broadcastInDim S525312x1 ![0] bcast_S525312_S525312x1_0 : (⟨S525312, .f32⟩ : BufTy).Contents (Elt F) → (⟨S525312x1, .f32⟩ : BufTy).Contents (Elt F))) (after ops V (Proc.devRef .tc main_v181) : (⟨S525312, .f32⟩ : BufTy).Contents (Elt F)) :=
  (final_eq V (op := (unary main_v181 main_v191 (broadcastInDim S525312x1 ![0] bcast_S525312_S525312x1_0 : (⟨S525312, .f32⟩ : BufTy).Contents (Elt F) → (⟨S525312x1, .f32⟩ : BufTy).Contents (Elt F)) : HloOp τ sig (Elt F))) (mem_ops4 (List.getElem_mem (l := (ops4 : List (HloOp τ sig (Elt F)))) (n := 8) (by show (8 : ℕ) < 60; decide))) main_v191 rfl (readsBelow_unary _ _ _ _ _ (by decide))).trans
    (by first | (rw [unary_result]; done) | (rw [unary_result]; rfl))

theorem eq_main_v192 (V : Valuation τ sig (Elt F)) :
    (after ops V (Proc.devRef .tc main_v192) : (⟨S525312x128, .f32⟩ : BufTy).Contents (Elt F)) = ((broadcastInDim S525312x128 ![0, 1] bcast_S525312x1_S525312x128_0_1 : (⟨S525312x1, .f32⟩ : BufTy).Contents (Elt F) → (⟨S525312x128, .f32⟩ : BufTy).Contents (Elt F))) (after ops V (Proc.devRef .tc main_v191) : (⟨S525312x1, .f32⟩ : BufTy).Contents (Elt F)) :=
  (final_eq V (op := (unary main_v191 main_v192 (broadcastInDim S525312x128 ![0, 1] bcast_S525312x1_S525312x128_0_1 : (⟨S525312x1, .f32⟩ : BufTy).Contents (Elt F) → (⟨S525312x128, .f32⟩ : BufTy).Contents (Elt F)) : HloOp τ sig (Elt F))) (mem_ops4 (List.getElem_mem (l := (ops4 : List (HloOp τ sig (Elt F)))) (n := 9) (by show (9 : ℕ) < 60; decide))) main_v192 rfl (readsBelow_unary _ _ _ _ _ (by decide))).trans
    (by first | (rw [unary_result]; done) | (rw [unary_result]; rfl))

theorem eq_main_v193 (V : Valuation τ sig (Elt F)) :
    (after ops V (Proc.devRef .tc main_v193) : (⟨S525312x128, .f32⟩ : BufTy).Contents (Elt F)) = ((mulf : (⟨S525312x128, .f32⟩ : BufTy).Contents (Elt F) → (⟨S525312x128, .f32⟩ : BufTy).Contents (Elt F) → (⟨S525312x128, .f32⟩ : BufTy).Contents (Elt F))) (after ops V (Proc.devRef .tc main_v190) : (⟨S525312x128, .f32⟩ : BufTy).Contents (Elt F)) (after ops V (Proc.devRef .tc main_v192) : (⟨S525312x128, .f32⟩ : BufTy).Contents (Elt F)) :=
  (final_eq V (op := (binary main_v190 main_v192 main_v193 (mulf : (⟨S525312x128, .f32⟩ : BufTy).Contents (Elt F) → (⟨S525312x128, .f32⟩ : BufTy).Contents (Elt F) → (⟨S525312x128, .f32⟩ : BufTy).Contents (Elt F)) : HloOp τ sig (Elt F))) (mem_ops4 (List.getElem_mem (l := (ops4 : List (HloOp τ sig (Elt F)))) (n := 10) (by show (10 : ℕ) < 60; decide))) main_v193 rfl (readsBelow_binary _ _ _ _ _ _ _ (by decide) (by decide))).trans
    (by first | (rw [binary_result]; done) | (rw [binary_result]; rfl))

theorem eq_main_cst_55 (V : Valuation τ sig (Elt F)) :
    (after ops V (Proc.devRef .tc main_cst_55) : (⟨S_, .f32⟩ : BufTy).Contents (Elt F)) = ((constant S_ .f32 0x00000000#32) : (⟨S_, .f32⟩ : BufTy).Contents (Elt F)) :=
  (final_eq V (op := (nullary main_cst_55 (constant S_ .f32 0x00000000#32) : HloOp τ sig (Elt F))) (mem_ops4 (List.getElem_mem (l := (ops4 : List (HloOp τ sig (Elt F)))) (n := 11) (by show (11 : ℕ) < 60; decide))) main_cst_55 rfl (readsBelow_nullary _ _ _)).trans
    (by first | (rw [nullary_result]; done) | (rw [nullary_result]; rfl))

theorem eq_main_v194 (V : Valuation τ sig (Elt F)) :
    (after ops V (Proc.devRef .tc main_v194) : (⟨S2048x128, .f32⟩ : BufTy).Contents (Elt F)) = ((broadcastInDim S2048x128 ![] bcast_S_S2048x128 : (⟨S_, .f32⟩ : BufTy).Contents (Elt F) → (⟨S2048x128, .f32⟩ : BufTy).Contents (Elt F))) (after ops V (Proc.devRef .tc main_cst_55) : (⟨S_, .f32⟩ : BufTy).Contents (Elt F)) :=
  (final_eq V (op := (unary main_cst_55 main_v194 (broadcastInDim S2048x128 ![] bcast_S_S2048x128 : (⟨S_, .f32⟩ : BufTy).Contents (Elt F) → (⟨S2048x128, .f32⟩ : BufTy).Contents (Elt F)) : HloOp τ sig (Elt F))) (mem_ops4 (List.getElem_mem (l := (ops4 : List (HloOp τ sig (Elt F)))) (n := 12) (by show (12 : ℕ) < 60; decide))) main_v194 rfl (readsBelow_unary _ _ _ _ _ (by decide))).trans
    (by first | (rw [unary_result]; done) | (rw [unary_result]; rfl))

theorem eq_main_c_56 (V : Valuation τ sig (Elt F)) :
    (after ops V (Proc.devRef .tc main_c_56) : (⟨S_, .i32⟩ : BufTy).Contents (Elt F)) = ((constantI S_ 32 0#32) : (⟨S_, .i32⟩ : BufTy).Contents (Elt F)) :=
  (final_eq V (op := (nullary main_c_56 (constantI S_ 32 0#32) : HloOp τ sig (Elt F))) (mem_ops4 (List.getElem_mem (l := (ops4 : List (HloOp τ sig (Elt F)))) (n := 13) (by show (13 : ℕ) < 60; decide))) main_c_56 rfl (readsBelow_nullary _ _ _)).trans
    (by first | (rw [nullary_result]; done) | (rw [nullary_result]; rfl))

theorem eq_main_v195 (V : Valuation τ sig (Elt F)) :
    (after ops V (Proc.devRef .tc main_v195) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_56) : (⟨S_, .i32⟩ : BufTy).Contents (Elt F)) :=
  (final_eq V (op := (unary main_c_56 main_v195 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 14) (by show (14 : ℕ) < 60; decide))) main_v195 rfl (readsBelow_unary _ _ _ _ _ (by decide))).trans
    (by first | (rw [unary_result]; done) | (rw [unary_result]; rfl))

theorem eq_main_v196 (V : Valuation τ sig (Elt F)) :
    (after ops V (Proc.devRef .tc main_v196) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v149) : (⟨S525312, .i32⟩ : BufTy).Contents (Elt F)) (after ops V (Proc.devRef .tc main_v195) : (⟨S525312, .i32⟩ : BufTy).Contents (Elt F)) :=
  (final_eq V (op := (binary main_v149 main_v195 main_v196 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops4 (List.getElem_mem (l := (ops4 : List (HloOp τ sig (Elt F)))) (n := 15) (by show (15 : ℕ) < 60; decide))) main_v196 rfl (readsBelow_binary _ _ _ _ _ _ _ (by decide) (by decide))).trans
    (by first | (rw [binary_result]; done) | (rw [binary_result]; rfl))

theorem eq_main_c_57 (V : Valuation τ sig (Elt F)) :
    (after ops V (Proc.devRef .tc main_c_57) : (⟨S_, .i32⟩ : BufTy).Contents (Elt F)) = ((constantI S_ 32 2048#32) : (⟨S_, .i32⟩ : BufTy).Contents (Elt F)) :=
  (final_eq V (op := (nullary main_c_57 (constantI S_ 32 2048#32) : HloOp τ sig (Elt F))) (mem_ops4 (List.getElem_mem (l := (ops4 : List (HloOp τ sig (Elt F)))) (n := 16) (by show (16 : ℕ) < 60; decide))) main_c_57 rfl (readsBelow_nullary _ _ _)).trans
    (by first | (rw [nullary_result]; done) | (rw [nullary_result]; rfl))

theorem eq_main_v197 (V : Valuation τ sig (Elt F)) :
    (after ops V (Proc.devRef .tc main_v197) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_57) : (⟨S_, .i32⟩ : BufTy).Contents (Elt F)) :=
  (final_eq V (op := (unary main_c_57 main_v197 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 17) (by show (17 : ℕ) < 60; decide))) main_v197 rfl (readsBelow_unary _ _ _ _ _ (by decide))).trans
    (by first | (rw [unary_result]; done) | (rw [unary_result]; rfl))

theorem eq_main_v198 (V : Valuation τ sig (Elt F)) :
    (after ops V (Proc.devRef .tc main_v198) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v149) : (⟨S525312, .i32⟩ : BufTy).Contents (Elt F)) (after ops V (Proc.devRef .tc main_v197) : (⟨S525312, .i32⟩ : BufTy).Contents (Elt F)) :=
  (final_eq V (op := (binary main_v149 main_v197 main_v198 (addi : (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 18) (by show (18 : ℕ) < 60; decide))) main_v198 rfl (readsBelow_binary _ _ _ _ _ _ _ (by decide) (by decide))).trans
    (by first | (rw [binary_result]; done) | (rw [binary_result]; rfl))

theorem eq_main_v199 (V : Valuation τ sig (Elt F)) :
    (after ops V (Proc.devRef .tc main_v199) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v196) : (⟨S525312, .i1⟩ : BufTy).Contents (Elt F)) (after ops V (Proc.devRef .tc main_v198) : (⟨S525312, .i32⟩ : BufTy).Contents (Elt F)) (after ops V (Proc.devRef .tc main_v149) : (⟨S525312, .i32⟩ : BufTy).Contents (Elt F)) :=
  (final_eq V (op := (ternary main_v196 main_v198 main_v149 main_v199 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 19) (by show (19 : ℕ) < 60; decide))) main_v199 rfl (readsBelow_ternary _ _ _ _ _ _ _ _ _ (by decide) (by decide) (by decide))).trans
    (by first | (rw [ternary_result]; done) | (rw [ternary_result]; rfl))

theorem eq_main_v200 (V : Valuation τ sig (Elt F)) :
    (after ops V (Proc.devRef .tc main_v200) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v199) : (⟨S525312, .i32⟩ : BufTy).Contents (Elt F)) :=
  (final_eq V (op := (unary main_v199 main_v200 (broadcastInDim S525312x1 ![0] bcast_S525312_S525312x1_0 : (⟨S525312, .i32⟩ : BufTy).Contents (Elt F) → (⟨S525312x1, .i32⟩ : BufTy).Contents (Elt F)) : HloOp τ sig (Elt F))) (mem_ops4 (List.getElem_mem (l := (ops4 : List (HloOp τ sig (Elt F)))) (n := 20) (by show (20 : ℕ) < 60; decide))) main_v200 rfl (readsBelow_unary _ _ _ _ _ (by decide))).trans
    (by first | (rw [unary_result]; done) | (rw [unary_result]; rfl))

theorem eq_main_v201 (V : Valuation τ sig (Elt F)) :
    (after ops V (Proc.devRef .tc main_v201) : (⟨S2048x128, .f32⟩ : BufTy).Contents (Elt F)) = (((fun x i u => Host.scatterAdd scatter_S2048x128_S525312x1_S525312x128_1_0_0_1 x i u) : (⟨S2048x128, .f32⟩ : BufTy).Contents (Elt F) → (⟨S525312x1, .i32⟩ : BufTy).Contents (Elt F) → (⟨S525312x128, .f32⟩ : BufTy).Contents (Elt F) → (⟨S2048x128, .f32⟩ : BufTy).Contents (Elt F))) (after ops V (Proc.devRef .tc main_v194) : (⟨S2048x128, .f32⟩ : BufTy).Contents (Elt F)) (after ops V (Proc.devRef .tc main_v200) : (⟨S525312x1, .i32⟩ : BufTy).Contents (Elt F)) (after ops V (Proc.devRef .tc main_v193) : (⟨S525312x128, .f32⟩ : BufTy).Contents (Elt F)) :=
  (final_eq V (op := (ternary main_v194 main_v200 main_v193 main_v201 ((fun x i u => Host.scatterAdd scatter_S2048x128_S525312x1_S525312x128_1_0_0_1 x i u) : (⟨S2048x128, .f32⟩ : BufTy).Contents (Elt F) → (⟨S525312x1, .i32⟩ : BufTy).Contents (Elt F) → (⟨S525312x128, .f32⟩ : BufTy).Contents (Elt F) → (⟨S2048x128, .f32⟩ : BufTy).Contents (Elt F)) : HloOp τ sig (Elt F))) (mem_ops4 (List.getElem_mem (l := (ops4 : List (HloOp τ sig (Elt F)))) (n := 21) (by show (21 : ℕ) < 60; decide))) main_v201 rfl (readsBelow_ternary _ _ _ _ _ _ _ _ _ (by decide) (by decide) (by decide))).trans
    (by first | (rw [ternary_result]; done) | (rw [ternary_result]; rfl))

theorem eq_main_cst_58 (V : Valuation τ sig (Elt F)) :
    (after ops V (Proc.devRef .tc main_cst_58) : (⟨S_, .f32⟩ : BufTy).Contents (Elt F)) = ((constant S_ .f32 0x3F333333#32) : (⟨S_, .f32⟩ : BufTy).Contents (Elt F)) :=
  (final_eq V (op := (nullary main_cst_58 (constant S_ .f32 0x3F333333#32) : HloOp τ sig (Elt F))) (mem_ops4 (List.getElem_mem (l := (ops4 : List (HloOp τ sig (Elt F)))) (n := 22) (by show (22 : ℕ) < 60; decide))) main_cst_58 rfl (readsBelow_nullary _ _ _)).trans
    (by first | (rw [nullary_result]; done) | (rw [nullary_result]; rfl))

theorem eq_main_v202 (V : Valuation τ sig (Elt F)) :
    (after ops V (Proc.devRef .tc main_v202) : (⟨S2048x128, .f32⟩ : BufTy).Contents (Elt F)) = ((broadcastInDim S2048x128 ![] bcast_S_S2048x128 : (⟨S_, .f32⟩ : BufTy).Contents (Elt F) → (⟨S2048x128, .f32⟩ : BufTy).Contents (Elt F))) (after ops V (Proc.devRef .tc main_cst_58) : (⟨S_, .f32⟩ : BufTy).Contents (Elt F)) :=
  (final_eq V (op := (unary main_cst_58 main_v202 (broadcastInDim S2048x128 ![] bcast_S_S2048x128 : (⟨S_, .f32⟩ : BufTy).Contents (Elt F) → (⟨S2048x128, .f32⟩ : BufTy).Contents (Elt F)) : HloOp τ sig (Elt F))) (mem_ops4 (List.getElem_mem (l := (ops4 : List (HloOp τ sig (Elt F)))) (n := 23) (by show (23 : ℕ) < 60; decide))) main_v202 rfl (readsBelow_unary _ _ _ _ _ (by decide))).trans
    (by first | (rw [unary_result]; done) | (rw [unary_result]; rfl))

theorem eq_main_v203 (V : Valuation τ sig (Elt F)) :
    (after ops V (Proc.devRef .tc main_v203) : (⟨S2048x128, .f32⟩ : BufTy).Contents (Elt F)) = ((mulf : (⟨S2048x128, .f32⟩ : BufTy).Contents (Elt F) → (⟨S2048x128, .f32⟩ : BufTy).Contents (Elt F) → (⟨S2048x128, .f32⟩ : BufTy).Contents (Elt F))) (after ops V (Proc.devRef .tc main_v202) : (⟨S2048x128, .f32⟩ : BufTy).Contents (Elt F)) (after ops V (Proc.devRef .tc main_v201) : (⟨S2048x128, .f32⟩ : BufTy).Contents (Elt F)) :=
  (final_eq V (op := (binary main_v202 main_v201 main_v203 (mulf : (⟨S2048x128, .f32⟩ : BufTy).Contents (Elt F) → (⟨S2048x128, .f32⟩ : BufTy).Contents (Elt F) → (⟨S2048x128, .f32⟩ : BufTy).Contents (Elt F)) : HloOp τ sig (Elt F))) (mem_ops4 (List.getElem_mem (l := (ops4 : List (HloOp τ sig (Elt F)))) (n := 24) (by show (24 : ℕ) < 60; decide))) main_v203 rfl (readsBelow_binary _ _ _ _ _ _ _ (by decide) (by decide))).trans
    (by first | (rw [binary_result]; done) | (rw [binary_result]; rfl))

theorem eq_main_v204 (V : Valuation τ sig (Elt F)) :
    (after ops V (Proc.devRef .tc main_v204) : (⟨S2048x128, .f32⟩ : BufTy).Contents (Elt F)) = ((addf : (⟨S2048x128, .f32⟩ : BufTy).Contents (Elt F) → (⟨S2048x128, .f32⟩ : BufTy).Contents (Elt F) → (⟨S2048x128, .f32⟩ : BufTy).Contents (Elt F))) (after ops V (Proc.devRef .tc main_v183) : (⟨S2048x128, .f32⟩ : BufTy).Contents (Elt F)) (after ops V (Proc.devRef .tc main_v203) : (⟨S2048x128, .f32⟩ : BufTy).Contents (Elt F)) :=
  (final_eq V (op := (binary main_v183 main_v203 main_v204 (addf : (⟨S2048x128, .f32⟩ : BufTy).Contents (Elt F) → (⟨S2048x128, .f32⟩ : BufTy).Contents (Elt F) → (⟨S2048x128, .f32⟩ : BufTy).Contents (Elt F)) : HloOp τ sig (Elt F))) (mem_ops4 (List.getElem_mem (l := (ops4 : List (HloOp τ sig (Elt F)))) (n := 25) (by show (25 : ℕ) < 60; decide))) main_v204 rfl (readsBelow_binary _ _ _ _ _ _ _ (by decide) (by decide))).trans
    (by first | (rw [binary_result]; done) | (rw [binary_result]; rfl))

theorem eq_main_v205 (V : Valuation τ sig (Elt F)) :
    (after ops V (Proc.devRef .tc main_v205) : (⟨S2048x256, .f32⟩ : BufTy).Contents (Elt F)) = (((fun l r => Host.dotGeneral dot_S2048x128_S128x256_S2048x256_1_0_0_1_n_n none l r) : (⟨S2048x128, .f32⟩ : BufTy).Contents (Elt F) → (⟨S128x256, .f32⟩ : BufTy).Contents (Elt F) → (⟨S2048x256, .f32⟩ : BufTy).Contents (Elt F))) (after ops V (Proc.devRef .tc main_v204) : (⟨S2048x128, .f32⟩ : BufTy).Contents (Elt F)) (after ops V (Proc.devRef .tc main_arg1) : (⟨S128x256, .f32⟩ : BufTy).Contents (Elt F)) :=
  (final_eq V (op := (binary main_v204 main_arg1 main_v205 ((fun l r => Host.dotGeneral dot_S2048x128_S128x256_S2048x256_1_0_0_1_n_n none l r) : (⟨S2048x128, .f32⟩ : BufTy).Contents (Elt F) → (⟨S128x256, .f32⟩ : BufTy).Contents (Elt F) → (⟨S2048x256, .f32⟩ : BufTy).Contents (Elt F)) : HloOp τ sig (Elt F))) (mem_ops4 (List.getElem_mem (l := (ops4 : List (HloOp τ sig (Elt F)))) (n := 26) (by show (26 : ℕ) < 60; decide))) main_v205 rfl (readsBelow_binary _ _ _ _ _ _ _ (by decide) (by decide))).trans
    (by first | (rw [binary_result]; done) | (rw [binary_result]; rfl))

theorem eq_main_v206 (V : Valuation τ sig (Elt F)) :
    (after ops V (Proc.devRef .tc main_v206) : (⟨S1x256, .f32⟩ : BufTy).Contents (Elt F)) = ((broadcastInDim S1x256 ![1] bcast_S256_S1x256_1 : (⟨S256, .f32⟩ : BufTy).Contents (Elt F) → (⟨S1x256, .f32⟩ : BufTy).Contents (Elt F))) (after ops V (Proc.devRef .tc main_arg2) : (⟨S256, .f32⟩ : BufTy).Contents (Elt F)) :=
  (final_eq V (op := (unary main_arg2 main_v206 (broadcastInDim S1x256 ![1] bcast_S256_S1x256_1 : (⟨S256, .f32⟩ : BufTy).Contents (Elt F) → (⟨S1x256, .f32⟩ : BufTy).Contents (Elt F)) : HloOp τ sig (Elt F))) (mem_ops4 (List.getElem_mem (l := (ops4 : List (HloOp τ sig (Elt F)))) (n := 27) (by show (27 : ℕ) < 60; decide))) main_v206 rfl (readsBelow_unary _ _ _ _ _ (by decide))).trans
    (by first | (rw [unary_result]; done) | (rw [unary_result]; rfl))

theorem eq_main_v207 (V : Valuation τ sig (Elt F)) :
    (after ops V (Proc.devRef .tc main_v207) : (⟨S2048x256, .f32⟩ : BufTy).Contents (Elt F)) = ((broadcastInDim S2048x256 ![0, 1] bcast_S1x256_S2048x256_0_1 : (⟨S1x256, .f32⟩ : BufTy).Contents (Elt F) → (⟨S2048x256, .f32⟩ : BufTy).Contents (Elt F))) (after ops V (Proc.devRef .tc main_v206) : (⟨S1x256, .f32⟩ : BufTy).Contents (Elt F)) :=
  (final_eq V (op := (unary main_v206 main_v207 (broadcastInDim S2048x256 ![0, 1] bcast_S1x256_S2048x256_0_1 : (⟨S1x256, .f32⟩ : BufTy).Contents (Elt F) → (⟨S2048x256, .f32⟩ : BufTy).Contents (Elt F)) : HloOp τ sig (Elt F))) (mem_ops4 (List.getElem_mem (l := (ops4 : List (HloOp τ sig (Elt F)))) (n := 28) (by show (28 : ℕ) < 60; decide))) main_v207 rfl (readsBelow_unary _ _ _ _ _ (by decide))).trans
    (by first | (rw [unary_result]; done) | (rw [unary_result]; rfl))

theorem eq_main_v208 (V : Valuation τ sig (Elt F)) :
    (after ops V (Proc.devRef .tc main_v208) : (⟨S2048x256, .f32⟩ : BufTy).Contents (Elt F)) = ((addf : (⟨S2048x256, .f32⟩ : BufTy).Contents (Elt F) → (⟨S2048x256, .f32⟩ : BufTy).Contents (Elt F) → (⟨S2048x256, .f32⟩ : BufTy).Contents (Elt F))) (after ops V (Proc.devRef .tc main_v205) : (⟨S2048x256, .f32⟩ : BufTy).Contents (Elt F)) (after ops V (Proc.devRef .tc main_v207) : (⟨S2048x256, .f32⟩ : BufTy).Contents (Elt F)) :=
  (final_eq V (op := (binary main_v205 main_v207 main_v208 (addf : (⟨S2048x256, .f32⟩ : BufTy).Contents (Elt F) → (⟨S2048x256, .f32⟩ : BufTy).Contents (Elt F) → (⟨S2048x256, .f32⟩ : BufTy).Contents (Elt F)) : HloOp τ sig (Elt F))) (mem_ops4 (List.getElem_mem (l := (ops4 : List (HloOp τ sig (Elt F)))) (n := 29) (by show (29 : ℕ) < 60; decide))) main_v208 rfl (readsBelow_binary _ _ _ _ _ _ _ (by decide) (by decide))).trans
    (by first | (rw [binary_result]; done) | (rw [binary_result]; rfl))

theorem eq_main_v209 (V : Valuation τ sig (Elt F)) :
    (after ops V (Proc.devRef .tc main_v209) : (⟨S2048x256, .f32⟩ : BufTy).Contents (Elt F)) = ((Host.tanh : (⟨S2048x256, .f32⟩ : BufTy).Contents (Elt F) → (⟨S2048x256, .f32⟩ : BufTy).Contents (Elt F))) (after ops V (Proc.devRef .tc main_v208) : (⟨S2048x256, .f32⟩ : BufTy).Contents (Elt F)) :=
  (final_eq V (op := (unary main_v208 main_v209 (Host.tanh : (⟨S2048x256, .f32⟩ : BufTy).Contents (Elt F) → (⟨S2048x256, .f32⟩ : BufTy).Contents (Elt F)) : HloOp τ sig (Elt F))) (mem_ops4 (List.getElem_mem (l := (ops4 : List (HloOp τ sig (Elt F)))) (n := 30) (by show (30 : ℕ) < 60; decide))) main_v209 rfl (readsBelow_unary _ _ _ _ _ (by decide))).trans
    (by first | (rw [unary_result]; done) | (rw [unary_result]; rfl))

theorem eq_main_cst_59 (V : Valuation τ sig (Elt F)) :
    (after ops V (Proc.devRef .tc main_cst_59) : (⟨S_, .f32⟩ : BufTy).Contents (Elt F)) = ((constant S_ .f32 0x3E99999A#32) : (⟨S_, .f32⟩ : BufTy).Contents (Elt F)) :=
  (final_eq V (op := (nullary main_cst_59 (constant S_ .f32 0x3E99999A#32) : HloOp τ sig (Elt F))) (mem_ops4 (List.getElem_mem (l := (ops4 : List (HloOp τ sig (Elt F)))) (n := 31) (by show (31 : ℕ) < 60; decide))) main_cst_59 rfl (readsBelow_nullary _ _ _)).trans
    (by first | (rw [nullary_result]; done) | (rw [nullary_result]; rfl))

theorem eq_main_v210 (V : Valuation τ sig (Elt F)) :
    (after ops V (Proc.devRef .tc main_v210) : (⟨S2048x256, .f32⟩ : BufTy).Contents (Elt F)) = ((broadcastInDim S2048x256 ![] bcast_S_S2048x256 : (⟨S_, .f32⟩ : BufTy).Contents (Elt F) → (⟨S2048x256, .f32⟩ : BufTy).Contents (Elt F))) (after ops V (Proc.devRef .tc main_cst_59) : (⟨S_, .f32⟩ : BufTy).Contents (Elt F)) :=
  (final_eq V (op := (unary main_cst_59 main_v210 (broadcastInDim S2048x256 ![] bcast_S_S2048x256 : (⟨S_, .f32⟩ : BufTy).Contents (Elt F) → (⟨S2048x256, .f32⟩ : BufTy).Contents (Elt F)) : HloOp τ sig (Elt F))) (mem_ops4 (List.getElem_mem (l := (ops4 : List (HloOp τ sig (Elt F)))) (n := 32) (by show (32 : ℕ) < 60; decide))) main_v210 rfl (readsBelow_unary _ _ _ _ _ (by decide))).trans
    (by first | (rw [unary_result]; done) | (rw [unary_result]; rfl))

theorem eq_main_v211 (V : Valuation τ sig (Elt F)) :
    (after ops V (Proc.devRef .tc main_v211) : (⟨S2048x256, .f32⟩ : BufTy).Contents (Elt F)) = ((mulf : (⟨S2048x256, .f32⟩ : BufTy).Contents (Elt F) → (⟨S2048x256, .f32⟩ : BufTy).Contents (Elt F) → (⟨S2048x256, .f32⟩ : BufTy).Contents (Elt F))) (after ops V (Proc.devRef .tc main_v209) : (⟨S2048x256, .f32⟩ : BufTy).Contents (Elt F)) (after ops V (Proc.devRef .tc main_v210) : (⟨S2048x256, .f32⟩ : BufTy).Contents (Elt F)) :=
  (final_eq V (op := (binary main_v209 main_v210 main_v211 (mulf : (⟨S2048x256, .f32⟩ : BufTy).Contents (Elt F) → (⟨S2048x256, .f32⟩ : BufTy).Contents (Elt F) → (⟨S2048x256, .f32⟩ : BufTy).Contents (Elt F)) : HloOp τ sig (Elt F))) (mem_ops4 (List.getElem_mem (l := (ops4 : List (HloOp τ sig (Elt F)))) (n := 33) (by show (33 : ℕ) < 60; decide))) main_v211 rfl (readsBelow_binary _ _ _ _ _ _ _ (by decide) (by decide))).trans
    (by first | (rw [binary_result]; done) | (rw [binary_result]; rfl))

theorem eq_main_c_60 (V : Valuation τ sig (Elt F)) :
    (after ops V (Proc.devRef .tc main_c_60) : (⟨S_, .i32⟩ : BufTy).Contents (Elt F)) = ((constantI S_ 32 0#32) : (⟨S_, .i32⟩ : BufTy).Contents (Elt F)) :=
  (final_eq V (op := (nullary main_c_60 (constantI S_ 32 0#32) : HloOp τ sig (Elt F))) (mem_ops4 (List.getElem_mem (l := (ops4 : List (HloOp τ sig (Elt F)))) (n := 34) (by show (34 : ℕ) < 60; decide))) main_c_60 rfl (readsBelow_nullary _ _ _)).trans
    (by first | (rw [nullary_result]; done) | (rw [nullary_result]; rfl))

theorem eq_main_v212 (V : Valuation τ sig (Elt F)) :
    (after ops V (Proc.devRef .tc main_v212) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_60) : (⟨S_, .i32⟩ : BufTy).Contents (Elt F)) :=
  (final_eq V (op := (unary main_c_60 main_v212 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 35) (by show (35 : ℕ) < 60; decide))) main_v212 rfl (readsBelow_unary _ _ _ _ _ (by decide))).trans
    (by first | (rw [unary_result]; done) | (rw [unary_result]; rfl))

theorem eq_main_v213 (V : Valuation τ sig (Elt F)) :
    (after ops V (Proc.devRef .tc main_v213) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v148) : (⟨S525312, .i32⟩ : BufTy).Contents (Elt F)) (after ops V (Proc.devRef .tc main_v212) : (⟨S525312, .i32⟩ : BufTy).Contents (Elt F)) :=
  (final_eq V (op := (binary main_v148 main_v212 main_v213 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops4 (List.getElem_mem (l := (ops4 : List (HloOp τ sig (Elt F)))) (n := 36) (by show (36 : ℕ) < 60; decide))) main_v213 rfl (readsBelow_binary _ _ _ _ _ _ _ (by decide) (by decide))).trans
    (by first | (rw [binary_result]; done) | (rw [binary_result]; rfl))

theorem eq_main_c_61 (V : Valuation τ sig (Elt F)) :
    (after ops V (Proc.devRef .tc main_c_61) : (⟨S_, .i32⟩ : BufTy).Contents (Elt F)) = ((constantI S_ 32 2048#32) : (⟨S_, .i32⟩ : BufTy).Contents (Elt F)) :=
  (final_eq V (op := (nullary main_c_61 (constantI S_ 32 2048#32) : HloOp τ sig (Elt F))) (mem_ops4 (List.getElem_mem (l := (ops4 : List (HloOp τ sig (Elt F)))) (n := 37) (by show (37 : ℕ) < 60; decide))) main_c_61 rfl (readsBelow_nullary _ _ _)).trans
    (by first | (rw [nullary_result]; done) | (rw [nullary_result]; rfl))

theorem eq_main_v214 (V : Valuation τ sig (Elt F)) :
    (after ops V (Proc.devRef .tc main_v214) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_61) : (⟨S_, .i32⟩ : BufTy).Contents (Elt F)) :=
  (final_eq V (op := (unary main_c_61 main_v214 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 38) (by show (38 : ℕ) < 60; decide))) main_v214 rfl (readsBelow_unary _ _ _ _ _ (by decide))).trans
    (by first | (rw [unary_result]; done) | (rw [unary_result]; rfl))

theorem eq_main_v215 (V : Valuation τ sig (Elt F)) :
    (after ops V (Proc.devRef .tc main_v215) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v148) : (⟨S525312, .i32⟩ : BufTy).Contents (Elt F)) (after ops V (Proc.devRef .tc main_v214) : (⟨S525312, .i32⟩ : BufTy).Contents (Elt F)) :=
  (final_eq V (op := (binary main_v148 main_v214 main_v215 (addi : (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 39) (by show (39 : ℕ) < 60; decide))) main_v215 rfl (readsBelow_binary _ _ _ _ _ _ _ (by decide) (by decide))).trans
    (by first | (rw [binary_result]; done) | (rw [binary_result]; rfl))

theorem eq_main_v216 (V : Valuation τ sig (Elt F)) :
    (after ops V (Proc.devRef .tc main_v216) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v213) : (⟨S525312, .i1⟩ : BufTy).Contents (Elt F)) (after ops V (Proc.devRef .tc main_v215) : (⟨S525312, .i32⟩ : BufTy).Contents (Elt F)) (after ops V (Proc.devRef .tc main_v148) : (⟨S525312, .i32⟩ : BufTy).Contents (Elt F)) :=
  (final_eq V (op := (ternary main_v213 main_v215 main_v148 main_v216 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 40) (by show (40 : ℕ) < 60; decide))) main_v216 rfl (readsBelow_ternary _ _ _ _ _ _ _ _ _ (by decide) (by decide) (by decide))).trans
    (by first | (rw [ternary_result]; done) | (rw [ternary_result]; rfl))

theorem eq_main_v217 (V : Valuation τ sig (Elt F)) :
    (after ops V (Proc.devRef .tc main_v217) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v216) : (⟨S525312, .i32⟩ : BufTy).Contents (Elt F)) :=
  (final_eq V (op := (unary main_v216 main_v217 (broadcastInDim S525312x1 ![0] bcast_S525312_S525312x1_0 : (⟨S525312, .i32⟩ : BufTy).Contents (Elt F) → (⟨S525312x1, .i32⟩ : BufTy).Contents (Elt F)) : HloOp τ sig (Elt F))) (mem_ops4 (List.getElem_mem (l := (ops4 : List (HloOp τ sig (Elt F)))) (n := 41) (by show (41 : ℕ) < 60; decide))) main_v217 rfl (readsBelow_unary _ _ _ _ _ (by decide))).trans
    (by first | (rw [unary_result]; done) | (rw [unary_result]; rfl))

theorem eq_main_v218 (V : Valuation τ sig (Elt F)) :
    (after ops V (Proc.devRef .tc main_v218) : (⟨S525312x256, .f32⟩ : BufTy).Contents (Elt F)) = (((fun x i => Host.gather gather_S2048x256_S525312x1_S525312x256_1_0_n_n_0_1_1256 x i) : (⟨S2048x256, .f32⟩ : BufTy).Contents (Elt F) → (⟨S525312x1, .i32⟩ : BufTy).Contents (Elt F) → (⟨S525312x256, .f32⟩ : BufTy).Contents (Elt F))) (after ops V (Proc.devRef .tc main_v209) : (⟨S2048x256, .f32⟩ : BufTy).Contents (Elt F)) (after ops V (Proc.devRef .tc main_v217) : (⟨S525312x1, .i32⟩ : BufTy).Contents (Elt F)) :=
  (final_eq V (op := (binary main_v209 main_v217 main_v218 ((fun x i => Host.gather gather_S2048x256_S525312x1_S525312x256_1_0_n_n_0_1_1256 x i) : (⟨S2048x256, .f32⟩ : BufTy).Contents (Elt F) → (⟨S525312x1, .i32⟩ : BufTy).Contents (Elt F) → (⟨S525312x256, .f32⟩ : BufTy).Contents (Elt F)) : HloOp τ sig (Elt F))) (mem_ops4 (List.getElem_mem (l := (ops4 : List (HloOp τ sig (Elt F)))) (n := 42) (by show (42 : ℕ) < 60; decide))) main_v218 rfl (readsBelow_binary _ _ _ _ _ _ _ (by decide) (by decide))).trans
    (by first | (rw [binary_result]; done) | (rw [binary_result]; rfl))

theorem eq_main_v219 (V : Valuation τ sig (Elt F)) :
    (after ops V (Proc.devRef .tc main_v219) : (⟨S525312x1, .f32⟩ : BufTy).Contents (Elt F)) = ((broadcastInDim S525312x1 ![0] bcast_S525312_S525312x1_0 : (⟨S525312, .f32⟩ : BufTy).Contents (Elt F) → (⟨S525312x1, .f32⟩ : BufTy).Contents (Elt F))) (after ops V (Proc.devRef .tc main_v181) : (⟨S525312, .f32⟩ : BufTy).Contents (Elt F)) :=
  (final_eq V (op := (unary main_v181 main_v219 (broadcastInDim S525312x1 ![0] bcast_S525312_S525312x1_0 : (⟨S525312, .f32⟩ : BufTy).Contents (Elt F) → (⟨S525312x1, .f32⟩ : BufTy).Contents (Elt F)) : HloOp τ sig (Elt F))) (mem_ops4 (List.getElem_mem (l := (ops4 : List (HloOp τ sig (Elt F)))) (n := 43) (by show (43 : ℕ) < 60; decide))) main_v219 rfl (readsBelow_unary _ _ _ _ _ (by decide))).trans
    (by first | (rw [unary_result]; done) | (rw [unary_result]; rfl))

theorem eq_main_v220 (V : Valuation τ sig (Elt F)) :
    (after ops V (Proc.devRef .tc main_v220) : (⟨S525312x256, .f32⟩ : BufTy).Contents (Elt F)) = ((broadcastInDim S525312x256 ![0, 1] bcast_S525312x1_S525312x256_0_1 : (⟨S525312x1, .f32⟩ : BufTy).Contents (Elt F) → (⟨S525312x256, .f32⟩ : BufTy).Contents (Elt F))) (after ops V (Proc.devRef .tc main_v219) : (⟨S525312x1, .f32⟩ : BufTy).Contents (Elt F)) :=
  (final_eq V (op := (unary main_v219 main_v220 (broadcastInDim S525312x256 ![0, 1] bcast_S525312x1_S525312x256_0_1 : (⟨S525312x1, .f32⟩ : BufTy).Contents (Elt F) → (⟨S525312x256, .f32⟩ : BufTy).Contents (Elt F)) : HloOp τ sig (Elt F))) (mem_ops4 (List.getElem_mem (l := (ops4 : List (HloOp τ sig (Elt F)))) (n := 44) (by show (44 : ℕ) < 60; decide))) main_v220 rfl (readsBelow_unary _ _ _ _ _ (by decide))).trans
    (by first | (rw [unary_result]; done) | (rw [unary_result]; rfl))

theorem eq_main_v221 (V : Valuation τ sig (Elt F)) :
    (after ops V (Proc.devRef .tc main_v221) : (⟨S525312x256, .f32⟩ : BufTy).Contents (Elt F)) = ((mulf : (⟨S525312x256, .f32⟩ : BufTy).Contents (Elt F) → (⟨S525312x256, .f32⟩ : BufTy).Contents (Elt F) → (⟨S525312x256, .f32⟩ : BufTy).Contents (Elt F))) (after ops V (Proc.devRef .tc main_v218) : (⟨S525312x256, .f32⟩ : BufTy).Contents (Elt F)) (after ops V (Proc.devRef .tc main_v220) : (⟨S525312x256, .f32⟩ : BufTy).Contents (Elt F)) :=
  (final_eq V (op := (binary main_v218 main_v220 main_v221 (mulf : (⟨S525312x256, .f32⟩ : BufTy).Contents (Elt F) → (⟨S525312x256, .f32⟩ : BufTy).Contents (Elt F) → (⟨S525312x256, .f32⟩ : BufTy).Contents (Elt F)) : HloOp τ sig (Elt F))) (mem_ops4 (List.getElem_mem (l := (ops4 : List (HloOp τ sig (Elt F)))) (n := 45) (by show (45 : ℕ) < 60; decide))) main_v221 rfl (readsBelow_binary _ _ _ _ _ _ _ (by decide) (by decide))).trans
    (by first | (rw [binary_result]; done) | (rw [binary_result]; rfl))

theorem eq_main_cst_62 (V : Valuation τ sig (Elt F)) :
    (after ops V (Proc.devRef .tc main_cst_62) : (⟨S_, .f32⟩ : BufTy).Contents (Elt F)) = ((constant S_ .f32 0x00000000#32) : (⟨S_, .f32⟩ : BufTy).Contents (Elt F)) :=
  (final_eq V (op := (nullary main_cst_62 (constant S_ .f32 0x00000000#32) : HloOp τ sig (Elt F))) (mem_ops4 (List.getElem_mem (l := (ops4 : List (HloOp τ sig (Elt F)))) (n := 46) (by show (46 : ℕ) < 60; decide))) main_cst_62 rfl (readsBelow_nullary _ _ _)).trans
    (by first | (rw [nullary_result]; done) | (rw [nullary_result]; rfl))

theorem eq_main_v222 (V : Valuation τ sig (Elt F)) :
    (after ops V (Proc.devRef .tc main_v222) : (⟨S2048x256, .f32⟩ : BufTy).Contents (Elt F)) = ((broadcastInDim S2048x256 ![] bcast_S_S2048x256 : (⟨S_, .f32⟩ : BufTy).Contents (Elt F) → (⟨S2048x256, .f32⟩ : BufTy).Contents (Elt F))) (after ops V (Proc.devRef .tc main_cst_62) : (⟨S_, .f32⟩ : BufTy).Contents (Elt F)) :=
  (final_eq V (op := (unary main_cst_62 main_v222 (broadcastInDim S2048x256 ![] bcast_S_S2048x256 : (⟨S_, .f32⟩ : BufTy).Contents (Elt F) → (⟨S2048x256, .f32⟩ : BufTy).Contents (Elt F)) : HloOp τ sig (Elt F))) (mem_ops4 (List.getElem_mem (l := (ops4 : List (HloOp τ sig (Elt F)))) (n := 47) (by show (47 : ℕ) < 60; decide))) main_v222 rfl (readsBelow_unary _ _ _ _ _ (by decide))).trans
    (by first | (rw [unary_result]; done) | (rw [unary_result]; rfl))

theorem eq_main_c_63 (V : Valuation τ sig (Elt F)) :
    (after ops V (Proc.devRef .tc main_c_63) : (⟨S_, .i32⟩ : BufTy).Contents (Elt F)) = ((constantI S_ 32 0#32) : (⟨S_, .i32⟩ : BufTy).Contents (Elt F)) :=
  (final_eq V (op := (nullary main_c_63 (constantI S_ 32 0#32) : HloOp τ sig (Elt F))) (mem_ops4 (List.getElem_mem (l := (ops4 : List (HloOp τ sig (Elt F)))) (n := 48) (by show (48 : ℕ) < 60; decide))) main_c_63 rfl (readsBelow_nullary _ _ _)).trans
    (by first | (rw [nullary_result]; done) | (rw [nullary_result]; rfl))

theorem eq_main_v223 (V : Valuation τ sig (Elt F)) :
    (after ops V (Proc.devRef .tc main_v223) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_63) : (⟨S_, .i32⟩ : BufTy).Contents (Elt F)) :=
  (final_eq V (op := (unary main_c_63 main_v223 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 49) (by show (49 : ℕ) < 60; decide))) main_v223 rfl (readsBelow_unary _ _ _ _ _ (by decide))).trans
    (by first | (rw [unary_result]; done) | (rw [unary_result]; rfl))

theorem eq_main_v224 (V : Valuation τ sig (Elt F)) :
    (after ops V (Proc.devRef .tc main_v224) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v149) : (⟨S525312, .i32⟩ : BufTy).Contents (Elt F)) (after ops V (Proc.devRef .tc main_v223) : (⟨S525312, .i32⟩ : BufTy).Contents (Elt F)) :=
  (final_eq V (op := (binary main_v149 main_v223 main_v224 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops4 (List.getElem_mem (l := (ops4 : List (HloOp τ sig (Elt F)))) (n := 50) (by show (50 : ℕ) < 60; decide))) main_v224 rfl (readsBelow_binary _ _ _ _ _ _ _ (by decide) (by decide))).trans
    (by first | (rw [binary_result]; done) | (rw [binary_result]; rfl))

theorem eq_main_c_64 (V : Valuation τ sig (Elt F)) :
    (after ops V (Proc.devRef .tc main_c_64) : (⟨S_, .i32⟩ : BufTy).Contents (Elt F)) = ((constantI S_ 32 2048#32) : (⟨S_, .i32⟩ : BufTy).Contents (Elt F)) :=
  (final_eq V (op := (nullary main_c_64 (constantI S_ 32 2048#32) : HloOp τ sig (Elt F))) (mem_ops4 (List.getElem_mem (l := (ops4 : List (HloOp τ sig (Elt F)))) (n := 51) (by show (51 : ℕ) < 60; decide))) main_c_64 rfl (readsBelow_nullary _ _ _)).trans
    (by first | (rw [nullary_result]; done) | (rw [nullary_result]; rfl))

theorem eq_main_v225 (V : Valuation τ sig (Elt F)) :
    (after ops V (Proc.devRef .tc main_v225) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_64) : (⟨S_, .i32⟩ : BufTy).Contents (Elt F)) :=
  (final_eq V (op := (unary main_c_64 main_v225 (broadcastInDim S525312 ![] bcast_S_S525312 : (⟨S_, .i32⟩ : BufTy).Contents (Elt F) → (⟨S525312, .i32⟩ : BufTy).Contents (Elt F)) : HloOp τ sig (Elt F))) (mem_ops4 (List.getElem_mem (l := (ops4 : List (HloOp τ sig (Elt F)))) (n := 52) (by show (52 : ℕ) < 60; decide))) main_v225 rfl (readsBelow_unary _ _ _ _ _ (by decide))).trans
    (by first | (rw [unary_result]; done) | (rw [unary_result]; rfl))

theorem eq_main_v226 (V : Valuation τ sig (Elt F)) :
    (after ops V (Proc.devRef .tc main_v226) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v149) : (⟨S525312, .i32⟩ : BufTy).Contents (Elt F)) (after ops V (Proc.devRef .tc main_v225) : (⟨S525312, .i32⟩ : BufTy).Contents (Elt F)) :=
  (final_eq V (op := (binary main_v149 main_v225 main_v226 (addi : (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 53) (by show (53 : ℕ) < 60; decide))) main_v226 rfl (readsBelow_binary _ _ _ _ _ _ _ (by decide) (by decide))).trans
    (by first | (rw [binary_result]; done) | (rw [binary_result]; rfl))

theorem eq_main_v227 (V : Valuation τ sig (Elt F)) :
    (after ops V (Proc.devRef .tc main_v227) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v224) : (⟨S525312, .i1⟩ : BufTy).Contents (Elt F)) (after ops V (Proc.devRef .tc main_v226) : (⟨S525312, .i32⟩ : BufTy).Contents (Elt F)) (after ops V (Proc.devRef .tc main_v149) : (⟨S525312, .i32⟩ : BufTy).Contents (Elt F)) :=
  (final_eq V (op := (ternary main_v224 main_v226 main_v149 main_v227 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops4 (List.getElem_mem (l := (ops4 : List (HloOp τ sig (Elt F)))) (n := 54) (by show (54 : ℕ) < 60; decide))) main_v227 rfl (readsBelow_ternary _ _ _ _ _ _ _ _ _ (by decide) (by decide) (by decide))).trans
    (by first | (rw [ternary_result]; done) | (rw [ternary_result]; rfl))

theorem eq_main_v228 (V : Valuation τ sig (Elt F)) :
    (after ops V (Proc.devRef .tc main_v228) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v227) : (⟨S525312, .i32⟩ : BufTy).Contents (Elt F)) :=
  (final_eq V (op := (unary main_v227 main_v228 (broadcastInDim S525312x1 ![0] bcast_S525312_S525312x1_0 : (⟨S525312, .i32⟩ : BufTy).Contents (Elt F) → (⟨S525312x1, .i32⟩ : BufTy).Contents (Elt F)) : HloOp τ sig (Elt F))) (mem_ops4 (List.getElem_mem (l := (ops4 : List (HloOp τ sig (Elt F)))) (n := 55) (by show (55 : ℕ) < 60; decide))) main_v228 rfl (readsBelow_unary _ _ _ _ _ (by decide))).trans
    (by first | (rw [unary_result]; done) | (rw [unary_result]; rfl))

theorem eq_main_v229 (V : Valuation τ sig (Elt F)) :
    (after ops V (Proc.devRef .tc main_v229) : (⟨S2048x256, .f32⟩ : BufTy).Contents (Elt F)) = (((fun x i u => Host.scatterAdd scatter_S2048x256_S525312x1_S525312x256_1_0_0_1 x i u) : (⟨S2048x256, .f32⟩ : BufTy).Contents (Elt F) → (⟨S525312x1, .i32⟩ : BufTy).Contents (Elt F) → (⟨S525312x256, .f32⟩ : BufTy).Contents (Elt F) → (⟨S2048x256, .f32⟩ : BufTy).Contents (Elt F))) (after ops V (Proc.devRef .tc main_v222) : (⟨S2048x256, .f32⟩ : BufTy).Contents (Elt F)) (after ops V (Proc.devRef .tc main_v228) : (⟨S525312x1, .i32⟩ : BufTy).Contents (Elt F)) (after ops V (Proc.devRef .tc main_v221) : (⟨S525312x256, .f32⟩ : BufTy).Contents (Elt F)) :=
  (final_eq V (op := (ternary main_v222 main_v228 main_v221 main_v229 ((fun x i u => Host.scatterAdd scatter_S2048x256_S525312x1_S525312x256_1_0_0_1 x i u) : (⟨S2048x256, .f32⟩ : BufTy).Contents (Elt F) → (⟨S525312x1, .i32⟩ : BufTy).Contents (Elt F) → (⟨S525312x256, .f32⟩ : BufTy).Contents (Elt F) → (⟨S2048x256, .f32⟩ : BufTy).Contents (Elt F)) : HloOp τ sig (Elt F))) (mem_ops4 (List.getElem_mem (l := (ops4 : List (HloOp τ sig (Elt F)))) (n := 56) (by show (56 : ℕ) < 60; decide))) main_v229 rfl (readsBelow_ternary _ _ _ _ _ _ _ _ _ (by decide) (by decide) (by decide))).trans
    (by first | (rw [ternary_result]; done) | (rw [ternary_result]; rfl))

theorem eq_main_cst_65 (V : Valuation τ sig (Elt F)) :
    (after ops V (Proc.devRef .tc main_cst_65) : (⟨S_, .f32⟩ : BufTy).Contents (Elt F)) = ((constant S_ .f32 0x3F333333#32) : (⟨S_, .f32⟩ : BufTy).Contents (Elt F)) :=
  (final_eq V (op := (nullary main_cst_65 (constant S_ .f32 0x3F333333#32) : HloOp τ sig (Elt F))) (mem_ops4 (List.getElem_mem (l := (ops4 : List (HloOp τ sig (Elt F)))) (n := 57) (by show (57 : ℕ) < 60; decide))) main_cst_65 rfl (readsBelow_nullary _ _ _)).trans
    (by first | (rw [nullary_result]; done) | (rw [nullary_result]; rfl))

theorem eq_main_v230 (V : Valuation τ sig (Elt F)) :
    (after ops V (Proc.devRef .tc main_v230) : (⟨S2048x256, .f32⟩ : BufTy).Contents (Elt F)) = ((broadcastInDim S2048x256 ![] bcast_S_S2048x256 : (⟨S_, .f32⟩ : BufTy).Contents (Elt F) → (⟨S2048x256, .f32⟩ : BufTy).Contents (Elt F))) (after ops V (Proc.devRef .tc main_cst_65) : (⟨S_, .f32⟩ : BufTy).Contents (Elt F)) :=
  (final_eq V (op := (unary main_cst_65 main_v230 (broadcastInDim S2048x256 ![] bcast_S_S2048x256 : (⟨S_, .f32⟩ : BufTy).Contents (Elt F) → (⟨S2048x256, .f32⟩ : BufTy).Contents (Elt F)) : HloOp τ sig (Elt F))) (mem_ops4 (List.getElem_mem (l := (ops4 : List (HloOp τ sig (Elt F)))) (n := 58) (by show (58 : ℕ) < 60; decide))) main_v230 rfl (readsBelow_unary _ _ _ _ _ (by decide))).trans
    (by first | (rw [unary_result]; done) | (rw [unary_result]; rfl))

theorem eq_main_v231 (V : Valuation τ sig (Elt F)) :
    (after ops V (Proc.devRef .tc main_v231) : (⟨S2048x256, .f32⟩ : BufTy).Contents (Elt F)) = ((mulf : (⟨S2048x256, .f32⟩ : BufTy).Contents (Elt F) → (⟨S2048x256, .f32⟩ : BufTy).Contents (Elt F) → (⟨S2048x256, .f32⟩ : BufTy).Contents (Elt F))) (after ops V (Proc.devRef .tc main_v230) : (⟨S2048x256, .f32⟩ : BufTy).Contents (Elt F)) (after ops V (Proc.devRef .tc main_v229) : (⟨S2048x256, .f32⟩ : BufTy).Contents (Elt F)) :=
  (final_eq V (op := (binary main_v230 main_v229 main_v231 (mulf : (⟨S2048x256, .f32⟩ : BufTy).Contents (Elt F) → (⟨S2048x256, .f32⟩ : BufTy).Contents (Elt F) → (⟨S2048x256, .f32⟩ : BufTy).Contents (Elt F)) : HloOp τ sig (Elt F))) (mem_ops4 (List.getElem_mem (l := (ops4 : List (HloOp τ sig (Elt F)))) (n := 59) (by show (59 : ℕ) < 60; decide))) main_v231 rfl (readsBelow_binary _ _ _ _ _ _ _ (by decide) (by decide))).trans
    (by first | (rw [binary_result]; done) | (rw [binary_result]; rfl))

end Cert.ReferenceIdeal.Line

end
-- ==== Proof.RefEq5.lean ====
/- The equations of window 5's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefRun

set_option maxRecDepth 65536
set_option maxHeartbeats 1000000

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem eq_main_v232 (V : Valuation τ sig (Elt F)) :
    (after ops V (Proc.devRef .tc main_v232) : (⟨S2048x256, .f32⟩ : BufTy).Contents (Elt F)) = ((addf : (⟨S2048x256, .f32⟩ : BufTy).Contents (Elt F) → (⟨S2048x256, .f32⟩ : BufTy).Contents (Elt F) → (⟨S2048x256, .f32⟩ : BufTy).Contents (Elt F))) (after ops V (Proc.devRef .tc main_v211) : (⟨S2048x256, .f32⟩ : BufTy).Contents (Elt F)) (after ops V (Proc.devRef .tc main_v231) : (⟨S2048x256, .f32⟩ : BufTy).Contents (Elt F)) :=
  (final_eq V (op := (binary main_v211 main_v231 main_v232 (addf : (⟨S2048x256, .f32⟩ : BufTy).Contents (Elt F) → (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 0) (by show (0 : ℕ) < 60; decide))) main_v232 rfl (readsBelow_binary _ _ _ _ _ _ _ (by decide) (by decide))).trans
    (by first | (rw [binary_result]; done) | (rw [binary_result]; rfl))

theorem eq_main_v233 (V : Valuation τ sig (Elt F)) :
    (after ops V (Proc.devRef .tc main_v233) : (⟨S2048x256, .f32⟩ : BufTy).Contents (Elt F)) = (((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F))) (after ops V (Proc.devRef .tc main_v232) : (⟨S2048x256, .f32⟩ : BufTy).Contents (Elt F)) (after ops V (Proc.devRef .tc main_arg3) : (⟨S256x256, .f32⟩ : BufTy).Contents (Elt F)) :=
  (final_eq V (op := (binary main_v232 main_arg3 main_v233 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)) : HloOp τ sig (Elt F))) (mem_ops5 (List.getElem_mem (l := (ops5 : List (HloOp τ sig (Elt F)))) (n := 1) (by show (1 : ℕ) < 60; decide))) main_v233 rfl (readsBelow_binary _ _ _ _ _ _ _ (by decide) (by decide))).trans
    (by first | (rw [binary_result]; done) | (rw [binary_result]; rfl))

theorem eq_main_v234 (V : Valuation τ sig (Elt F)) :
    (after ops V (Proc.devRef .tc main_v234) : (⟨S1x256, .f32⟩ : BufTy).Contents (Elt F)) = ((broadcastInDim S1x256 ![1] bcast_S256_S1x256_1 : (⟨S256, .f32⟩ : BufTy).Contents (Elt F) → (⟨S1x256, .f32⟩ : BufTy).Contents (Elt F))) (after ops V (Proc.devRef .tc main_arg4) : (⟨S256, .f32⟩ : BufTy).Contents (Elt F)) :=
  (final_eq V (op := (unary main_arg4 main_v234 (broadcastInDim S1x256 ![1] bcast_S256_S1x256_1 : (⟨S256, .f32⟩ : BufTy).Contents (Elt F) → (⟨S1x256, .f32⟩ : BufTy).Contents (Elt F)) : HloOp τ sig (Elt F))) (mem_ops5 (List.getElem_mem (l := (ops5 : List (HloOp τ sig (Elt F)))) (n := 2) (by show (2 : ℕ) < 60; decide))) main_v234 rfl (readsBelow_unary _ _ _ _ _ (by decide))).trans
    (by first | (rw [unary_result]; done) | (rw [unary_result]; rfl))

theorem eq_main_v235 (V : Valuation τ sig (Elt F)) :
    (after ops V (Proc.devRef .tc main_v235) : (⟨S2048x256, .f32⟩ : BufTy).Contents (Elt F)) = ((broadcastInDim S2048x256 ![0, 1] bcast_S1x256_S2048x256_0_1 : (⟨S1x256, .f32⟩ : BufTy).Contents (Elt F) → (⟨S2048x256, .f32⟩ : BufTy).Contents (Elt F))) (after ops V (Proc.devRef .tc main_v234) : (⟨S1x256, .f32⟩ : BufTy).Contents (Elt F)) :=
  (final_eq V (op := (unary main_v234 main_v235 (broadcastInDim S2048x256 ![0, 1] bcast_S1x256_S2048x256_0_1 : (⟨S1x256, .f32⟩ : BufTy).Contents (Elt F) → (⟨S2048x256, .f32⟩ : BufTy).Contents (Elt F)) : HloOp τ sig (Elt F))) (mem_ops5 (List.getElem_mem (l := (ops5 : List (HloOp τ sig (Elt F)))) (n := 3) (by show (3 : ℕ) < 60; decide))) main_v235 rfl (readsBelow_unary _ _ _ _ _ (by decide))).trans
    (by first | (rw [unary_result]; done) | (rw [unary_result]; rfl))

theorem eq_main_v236 (V : Valuation τ sig (Elt F)) :
    (after ops V (Proc.devRef .tc main_v236) : (⟨S2048x256, .f32⟩ : BufTy).Contents (Elt F)) = ((addf : (⟨S2048x256, .f32⟩ : BufTy).Contents (Elt F) → (⟨S2048x256, .f32⟩ : BufTy).Contents (Elt F) → (⟨S2048x256, .f32⟩ : BufTy).Contents (Elt F))) (after ops V (Proc.devRef .tc main_v233) : (⟨S2048x256, .f32⟩ : BufTy).Contents (Elt F)) (after ops V (Proc.devRef .tc main_v235) : (⟨S2048x256, .f32⟩ : BufTy).Contents (Elt F)) :=
  (final_eq V (op := (binary main_v233 main_v235 main_v236 (addf : (⟨S2048x256, .f32⟩ : BufTy).Contents (Elt F) → (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 4) (by show (4 : ℕ) < 60; decide))) main_v236 rfl (readsBelow_binary _ _ _ _ _ _ _ (by decide) (by decide))).trans
    (by first | (rw [binary_result]; done) | (rw [binary_result]; rfl))

theorem eq_main_v237 (V : Valuation τ sig (Elt F)) :
    (after ops V (Proc.devRef .tc main_v237) : (⟨S2048x256, .f32⟩ : BufTy).Contents (Elt F)) = ((Host.tanh : (⟨S2048x256, .f32⟩ : BufTy).Contents (Elt F) → (⟨S2048x256, .f32⟩ : BufTy).Contents (Elt F))) (after ops V (Proc.devRef .tc main_v236) : (⟨S2048x256, .f32⟩ : BufTy).Contents (Elt F)) :=
  (final_eq V (op := (unary main_v236 main_v237 (Host.tanh : (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 5) (by show (5 : ℕ) < 60; decide))) main_v237 rfl (readsBelow_unary _ _ _ _ _ (by decide))).trans
    (by first | (rw [unary_result]; done) | (rw [unary_result]; rfl))

theorem eq_main_cst_66 (V : Valuation τ sig (Elt F)) :
    (after ops V (Proc.devRef .tc main_cst_66) : (⟨S_, .f32⟩ : BufTy).Contents (Elt F)) = ((constant S_ .f32 0x3E99999A#32) : (⟨S_, .f32⟩ : BufTy).Contents (Elt F)) :=
  (final_eq V (op := (nullary main_cst_66 (constant S_ .f32 0x3E99999A#32) : HloOp τ sig (Elt F))) (mem_ops5 (List.getElem_mem (l := (ops5 : List (HloOp τ sig (Elt F)))) (n := 6) (by show (6 : ℕ) < 60; decide))) main_cst_66 rfl (readsBelow_nullary _ _ _)).trans
    (by first | (rw [nullary_result]; done) | (rw [nullary_result]; rfl))

theorem eq_main_v238 (V : Valuation τ sig (Elt F)) :
    (after ops V (Proc.devRef .tc main_v238) : (⟨S2048x256, .f32⟩ : BufTy).Contents (Elt F)) = ((broadcastInDim S2048x256 ![] bcast_S_S2048x256 : (⟨S_, .f32⟩ : BufTy).Contents (Elt F) → (⟨S2048x256, .f32⟩ : BufTy).Contents (Elt F))) (after ops V (Proc.devRef .tc main_cst_66) : (⟨S_, .f32⟩ : BufTy).Contents (Elt F)) :=
  (final_eq V (op := (unary main_cst_66 main_v238 (broadcastInDim S2048x256 ![] bcast_S_S2048x256 : (⟨S_, .f32⟩ : BufTy).Contents (Elt F) → (⟨S2048x256, .f32⟩ : BufTy).Contents (Elt F)) : HloOp τ sig (Elt F))) (mem_ops5 (List.getElem_mem (l := (ops5 : List (HloOp τ sig (Elt F)))) (n := 7) (by show (7 : ℕ) < 60; decide))) main_v238 rfl (readsBelow_unary _ _ _ _ _ (by decide))).trans
    (by first | (rw [unary_result]; done) | (rw [unary_result]; rfl))

theorem eq_main_v239 (V : Valuation τ sig (Elt F)) :
    (after ops V (Proc.devRef .tc main_v239) : (⟨S2048x256, .f32⟩ : BufTy).Contents (Elt F)) = ((mulf : (⟨S2048x256, .f32⟩ : BufTy).Contents (Elt F) → (⟨S2048x256, .f32⟩ : BufTy).Contents (Elt F) → (⟨S2048x256, .f32⟩ : BufTy).Contents (Elt F))) (after ops V (Proc.devRef .tc main_v237) : (⟨S2048x256, .f32⟩ : BufTy).Contents (Elt F)) (after ops V (Proc.devRef .tc main_v238) : (⟨S2048x256, .f32⟩ : BufTy).Contents (Elt F)) :=
  (final_eq V (op := (binary main_v237 main_v238 main_v239 (mulf : (⟨S2048x256, .f32⟩ : BufTy).Contents (Elt F) → (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 8) (by show (8 : ℕ) < 60; decide))) main_v239 rfl (readsBelow_binary _ _ _ _ _ _ _ (by decide) (by decide))).trans
    (by first | (rw [binary_result]; done) | (rw [binary_result]; rfl))

theorem eq_main_c_67 (V : Valuation τ sig (Elt F)) :
    (after ops V (Proc.devRef .tc main_c_67) : (⟨S_, .i32⟩ : BufTy).Contents (Elt F)) = ((constantI S_ 32 0#32) : (⟨S_, .i32⟩ : BufTy).Contents (Elt F)) :=
  (final_eq V (op := (nullary main_c_67 (constantI S_ 32 0#32) : HloOp τ sig (Elt F))) (mem_ops5 (List.getElem_mem (l := (ops5 : List (HloOp τ sig (Elt F)))) (n := 9) (by show (9 : ℕ) < 60; decide))) main_c_67 rfl (readsBelow_nullary _ _ _)).trans
    (by first | (rw [nullary_result]; done) | (rw [nullary_result]; rfl))

theorem eq_main_v240 (V : Valuation τ sig (Elt F)) :
    (after ops V (Proc.devRef .tc main_v240) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_67) : (⟨S_, .i32⟩ : BufTy).Contents (Elt F)) :=
  (final_eq V (op := (unary main_c_67 main_v240 (broadcastInDim S525312 ![] bcast_S_S525312 : (⟨S_, .i32⟩ : BufTy).Contents (Elt F) → (⟨S525312, .i32⟩ : BufTy).Contents (Elt F)) : HloOp τ sig (Elt F))) (mem_ops5 (List.getElem_mem (l := (ops5 : List (HloOp τ sig (Elt F)))) (n := 10) (by show (10 : ℕ) < 60; decide))) main_v240 rfl (readsBelow_unary _ _ _ _ _ (by decide))).trans
    (by first | (rw [unary_result]; done) | (rw [unary_result]; rfl))

theorem eq_main_v241 (V : Valuation τ sig (Elt F)) :
    (after ops V (Proc.devRef .tc main_v241) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v148) : (⟨S525312, .i32⟩ : BufTy).Contents (Elt F)) (after ops V (Proc.devRef .tc main_v240) : (⟨S525312, .i32⟩ : BufTy).Contents (Elt F)) :=
  (final_eq V (op := (binary main_v148 main_v240 main_v241 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops5 (List.getElem_mem (l := (ops5 : List (HloOp τ sig (Elt F)))) (n := 11) (by show (11 : ℕ) < 60; decide))) main_v241 rfl (readsBelow_binary _ _ _ _ _ _ _ (by decide) (by decide))).trans
    (by first | (rw [binary_result]; done) | (rw [binary_result]; rfl))

theorem eq_main_c_68 (V : Valuation τ sig (Elt F)) :
    (after ops V (Proc.devRef .tc main_c_68) : (⟨S_, .i32⟩ : BufTy).Contents (Elt F)) = ((constantI S_ 32 2048#32) : (⟨S_, .i32⟩ : BufTy).Contents (Elt F)) :=
  (final_eq V (op := (nullary main_c_68 (constantI S_ 32 2048#32) : HloOp τ sig (Elt F))) (mem_ops5 (List.getElem_mem (l := (ops5 : List (HloOp τ sig (Elt F)))) (n := 12) (by show (12 : ℕ) < 60; decide))) main_c_68 rfl (readsBelow_nullary _ _ _)).trans
    (by first | (rw [nullary_result]; done) | (rw [nullary_result]; rfl))

theorem eq_main_v242 (V : Valuation τ sig (Elt F)) :
    (after ops V (Proc.devRef .tc main_v242) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_68) : (⟨S_, .i32⟩ : BufTy).Contents (Elt F)) :=
  (final_eq V (op := (unary main_c_68 main_v242 (broadcastInDim S525312 ![] bcast_S_S525312 : (⟨S_, .i32⟩ : BufTy).Contents (Elt F) → (⟨S525312, .i32⟩ : BufTy).Contents (Elt F)) : HloOp τ sig (Elt F))) (mem_ops5 (List.getElem_mem (l := (ops5 : List (HloOp τ sig (Elt F)))) (n := 13) (by show (13 : ℕ) < 60; decide))) main_v242 rfl (readsBelow_unary _ _ _ _ _ (by decide))).trans
    (by first | (rw [unary_result]; done) | (rw [unary_result]; rfl))

theorem eq_main_v243 (V : Valuation τ sig (Elt F)) :
    (after ops V (Proc.devRef .tc main_v243) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v148) : (⟨S525312, .i32⟩ : BufTy).Contents (Elt F)) (after ops V (Proc.devRef .tc main_v242) : (⟨S525312, .i32⟩ : BufTy).Contents (Elt F)) :=
  (final_eq V (op := (binary main_v148 main_v242 main_v243 (addi : (⟨S525312, .i32⟩ : BufTy).Contents (Elt F) → (⟨S525312, .i32⟩ : BufTy).Contents (Elt F) → (⟨S525312, .i32⟩ : BufTy).Contents (Elt F)) : HloOp τ sig (Elt F))) (mem_ops5 (List.getElem_mem (l := (ops5 : List (HloOp τ sig (Elt F)))) (n := 14) (by show (14 : ℕ) < 60; decide))) main_v243 rfl (readsBelow_binary _ _ _ _ _ _ _ (by decide) (by decide))).trans
    (by first | (rw [binary_result]; done) | (rw [binary_result]; rfl))

theorem eq_main_v244 (V : Valuation τ sig (Elt F)) :
    (after ops V (Proc.devRef .tc main_v244) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v241) : (⟨S525312, .i1⟩ : BufTy).Contents (Elt F)) (after ops V (Proc.devRef .tc main_v243) : (⟨S525312, .i32⟩ : BufTy).Contents (Elt F)) (after ops V (Proc.devRef .tc main_v148) : (⟨S525312, .i32⟩ : BufTy).Contents (Elt F)) :=
  (final_eq V (op := (ternary main_v241 main_v243 main_v148 main_v244 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops5 (List.getElem_mem (l := (ops5 : List (HloOp τ sig (Elt F)))) (n := 15) (by show (15 : ℕ) < 60; decide))) main_v244 rfl (readsBelow_ternary _ _ _ _ _ _ _ _ _ (by decide) (by decide) (by decide))).trans
    (by first | (rw [ternary_result]; done) | (rw [ternary_result]; rfl))

theorem eq_main_v245 (V : Valuation τ sig (Elt F)) :
    (after ops V (Proc.devRef .tc main_v245) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v244) : (⟨S525312, .i32⟩ : BufTy).Contents (Elt F)) :=
  (final_eq V (op := (unary main_v244 main_v245 (broadcastInDim S525312x1 ![0] bcast_S525312_S525312x1_0 : (⟨S525312, .i32⟩ : BufTy).Contents (Elt F) → (⟨S525312x1, .i32⟩ : BufTy).Contents (Elt F)) : HloOp τ sig (Elt F))) (mem_ops5 (List.getElem_mem (l := (ops5 : List (HloOp τ sig (Elt F)))) (n := 16) (by show (16 : ℕ) < 60; decide))) main_v245 rfl (readsBelow_unary _ _ _ _ _ (by decide))).trans
    (by first | (rw [unary_result]; done) | (rw [unary_result]; rfl))

theorem eq_main_v246 (V : Valuation τ sig (Elt F)) :
    (after ops V (Proc.devRef .tc main_v246) : (⟨S525312x256, .f32⟩ : BufTy).Contents (Elt F)) = (((fun x i => Host.gather gather_S2048x256_S525312x1_S525312x256_1_0_n_n_0_1_1256 x i) : (⟨S2048x256, .f32⟩ : BufTy).Contents (Elt F) → (⟨S525312x1, .i32⟩ : BufTy).Contents (Elt F) → (⟨S525312x256, .f32⟩ : BufTy).Contents (Elt F))) (after ops V (Proc.devRef .tc main_v237) : (⟨S2048x256, .f32⟩ : BufTy).Contents (Elt F)) (after ops V (Proc.devRef .tc main_v245) : (⟨S525312x1, .i32⟩ : BufTy).Contents (Elt F)) :=
  (final_eq V (op := (binary main_v237 main_v245 main_v246 ((fun x i => Host.gather gather_S2048x256_S525312x1_S525312x256_1_0_n_n_0_1_1256 x i) : (⟨S2048x256, .f32⟩ : BufTy).Contents (Elt F) → (⟨S525312x1, .i32⟩ : BufTy).Contents (Elt F) → (⟨S525312x256, .f32⟩ : BufTy).Contents (Elt F)) : HloOp τ sig (Elt F))) (mem_ops5 (List.getElem_mem (l := (ops5 : List (HloOp τ sig (Elt F)))) (n := 17) (by show (17 : ℕ) < 60; decide))) main_v246 rfl (readsBelow_binary _ _ _ _ _ _ _ (by decide) (by decide))).trans
    (by first | (rw [binary_result]; done) | (rw [binary_result]; rfl))

theorem eq_main_v247 (V : Valuation τ sig (Elt F)) :
    (after ops V (Proc.devRef .tc main_v247) : (⟨S525312x1, .f32⟩ : BufTy).Contents (Elt F)) = ((broadcastInDim S525312x1 ![0] bcast_S525312_S525312x1_0 : (⟨S525312, .f32⟩ : BufTy).Contents (Elt F) → (⟨S525312x1, .f32⟩ : BufTy).Contents (Elt F))) (after ops V (Proc.devRef .tc main_v181) : (⟨S525312, .f32⟩ : BufTy).Contents (Elt F)) :=
  (final_eq V (op := (unary main_v181 main_v247 (broadcastInDim S525312x1 ![0] bcast_S525312_S525312x1_0 : (⟨S525312, .f32⟩ : BufTy).Contents (Elt F) → (⟨S525312x1, .f32⟩ : BufTy).Contents (Elt F)) : HloOp τ sig (Elt F))) (mem_ops5 (List.getElem_mem (l := (ops5 : List (HloOp τ sig (Elt F)))) (n := 18) (by show (18 : ℕ) < 60; decide))) main_v247 rfl (readsBelow_unary _ _ _ _ _ (by decide))).trans
    (by first | (rw [unary_result]; done) | (rw [unary_result]; rfl))

theorem eq_main_v248 (V : Valuation τ sig (Elt F)) :
    (after ops V (Proc.devRef .tc main_v248) : (⟨S525312x256, .f32⟩ : BufTy).Contents (Elt F)) = ((broadcastInDim S525312x256 ![0, 1] bcast_S525312x1_S525312x256_0_1 : (⟨S525312x1, .f32⟩ : BufTy).Contents (Elt F) → (⟨S525312x256, .f32⟩ : BufTy).Contents (Elt F))) (after ops V (Proc.devRef .tc main_v247) : (⟨S525312x1, .f32⟩ : BufTy).Contents (Elt F)) :=
  (final_eq V (op := (unary main_v247 main_v248 (broadcastInDim S525312x256 ![0, 1] bcast_S525312x1_S525312x256_0_1 : (⟨S525312x1, .f32⟩ : BufTy).Contents (Elt F) → (⟨S525312x256, .f32⟩ : BufTy).Contents (Elt F)) : HloOp τ sig (Elt F))) (mem_ops5 (List.getElem_mem (l := (ops5 : List (HloOp τ sig (Elt F)))) (n := 19) (by show (19 : ℕ) < 60; decide))) main_v248 rfl (readsBelow_unary _ _ _ _ _ (by decide))).trans
    (by first | (rw [unary_result]; done) | (rw [unary_result]; rfl))

theorem eq_main_v249 (V : Valuation τ sig (Elt F)) :
    (after ops V (Proc.devRef .tc main_v249) : (⟨S525312x256, .f32⟩ : BufTy).Contents (Elt F)) = ((mulf : (⟨S525312x256, .f32⟩ : BufTy).Contents (Elt F) → (⟨S525312x256, .f32⟩ : BufTy).Contents (Elt F) → (⟨S525312x256, .f32⟩ : BufTy).Contents (Elt F))) (after ops V (Proc.devRef .tc main_v246) : (⟨S525312x256, .f32⟩ : BufTy).Contents (Elt F)) (after ops V (Proc.devRef .tc main_v248) : (⟨S525312x256, .f32⟩ : BufTy).Contents (Elt F)) :=
  (final_eq V (op := (binary main_v246 main_v248 main_v249 (mulf : (⟨S525312x256, .f32⟩ : BufTy).Contents (Elt F) → (⟨S525312x256, .f32⟩ : BufTy).Contents (Elt F) → (⟨S525312x256, .f32⟩ : BufTy).Contents (Elt F)) : HloOp τ sig (Elt F))) (mem_ops5 (List.getElem_mem (l := (ops5 : List (HloOp τ sig (Elt F)))) (n := 20) (by show (20 : ℕ) < 60; decide))) main_v249 rfl (readsBelow_binary _ _ _ _ _ _ _ (by decide) (by decide))).trans
    (by first | (rw [binary_result]; done) | (rw [binary_result]; rfl))

theorem eq_main_cst_69 (V : Valuation τ sig (Elt F)) :
    (after ops V (Proc.devRef .tc main_cst_69) : (⟨S_, .f32⟩ : BufTy).Contents (Elt F)) = ((constant S_ .f32 0x00000000#32) : (⟨S_, .f32⟩ : BufTy).Contents (Elt F)) :=
  (final_eq V (op := (nullary main_cst_69 (constant S_ .f32 0x00000000#32) : HloOp τ sig (Elt F))) (mem_ops5 (List.getElem_mem (l := (ops5 : List (HloOp τ sig (Elt F)))) (n := 21) (by show (21 : ℕ) < 60; decide))) main_cst_69 rfl (readsBelow_nullary _ _ _)).trans
    (by first | (rw [nullary_result]; done) | (rw [nullary_result]; rfl))

theorem eq_main_v250 (V : Valuation τ sig (Elt F)) :
    (after ops V (Proc.devRef .tc main_v250) : (⟨S2048x256, .f32⟩ : BufTy).Contents (Elt F)) = ((broadcastInDim S2048x256 ![] bcast_S_S2048x256 : (⟨S_, .f32⟩ : BufTy).Contents (Elt F) → (⟨S2048x256, .f32⟩ : BufTy).Contents (Elt F))) (after ops V (Proc.devRef .tc main_cst_69) : (⟨S_, .f32⟩ : BufTy).Contents (Elt F)) :=
  (final_eq V (op := (unary main_cst_69 main_v250 (broadcastInDim S2048x256 ![] bcast_S_S2048x256 : (⟨S_, .f32⟩ : BufTy).Contents (Elt F) → (⟨S2048x256, .f32⟩ : BufTy).Contents (Elt F)) : HloOp τ sig (Elt F))) (mem_ops5 (List.getElem_mem (l := (ops5 : List (HloOp τ sig (Elt F)))) (n := 22) (by show (22 : ℕ) < 60; decide))) main_v250 rfl (readsBelow_unary _ _ _ _ _ (by decide))).trans
    (by first | (rw [unary_result]; done) | (rw [unary_result]; rfl))

theorem eq_main_c_70 (V : Valuation τ sig (Elt F)) :
    (after ops V (Proc.devRef .tc main_c_70) : (⟨S_, .i32⟩ : BufTy).Contents (Elt F)) = ((constantI S_ 32 0#32) : (⟨S_, .i32⟩ : BufTy).Contents (Elt F)) :=
  (final_eq V (op := (nullary main_c_70 (constantI S_ 32 0#32) : HloOp τ sig (Elt F))) (mem_ops5 (List.getElem_mem (l := (ops5 : List (HloOp τ sig (Elt F)))) (n := 23) (by show (23 : ℕ) < 60; decide))) main_c_70 rfl (readsBelow_nullary _ _ _)).trans
    (by first | (rw [nullary_result]; done) | (rw [nullary_result]; rfl))

theorem eq_main_v251 (V : Valuation τ sig (Elt F)) :
    (after ops V (Proc.devRef .tc main_v251) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_70) : (⟨S_, .i32⟩ : BufTy).Contents (Elt F)) :=
  (final_eq V (op := (unary main_c_70 main_v251 (broadcastInDim S525312 ![] bcast_S_S525312 : (⟨S_, .i32⟩ : BufTy).Contents (Elt F) → (⟨S525312, .i32⟩ : BufTy).Contents (Elt F)) : HloOp τ sig (Elt F))) (mem_ops5 (List.getElem_mem (l := (ops5 : List (HloOp τ sig (Elt F)))) (n := 24) (by show (24 : ℕ) < 60; decide))) main_v251 rfl (readsBelow_unary _ _ _ _ _ (by decide))).trans
    (by first | (rw [unary_result]; done) | (rw [unary_result]; rfl))

theorem eq_main_v252 (V : Valuation τ sig (Elt F)) :
    (after ops V (Proc.devRef .tc main_v252) : (⟨S525312, .i1⟩ : BufTy).Contents (Elt F)) = ((cmpi .slt : (⟨S525312, .i32⟩ : BufTy).Contents (Elt F) → (⟨S525312, .i32⟩ : BufTy).Contents (Elt F) → (⟨S525312, .i1⟩ : BufTy).Contents (Elt F))) (after ops V (Proc.devRef .tc main_v149) : (⟨S525312, .i32⟩ : BufTy).Contents (Elt F)) (after ops V (Proc.devRef .tc main_v251) : (⟨S525312, .i32⟩ : BufTy).Contents (Elt F)) :=
  (final_eq V (op := (binary main_v149 main_v251 main_v252 (cmpi .slt : (⟨S525312, .i32⟩ : BufTy).Contents (Elt F) → (⟨S525312, .i32⟩ : BufTy).Contents (Elt F) → (⟨S525312, .i1⟩ : BufTy).Contents (Elt F)) : HloOp τ sig (Elt F))) (mem_ops5 (List.getElem_mem (l := (ops5 : List (HloOp τ sig (Elt F)))) (n := 25) (by show (25 : ℕ) < 60; decide))) main_v252 rfl (readsBelow_binary _ _ _ _ _ _ _ (by decide) (by decide))).trans
    (by first | (rw [binary_result]; done) | (rw [binary_result]; rfl))

theorem eq_main_c_71 (V : Valuation τ sig (Elt F)) :
    (after ops V (Proc.devRef .tc main_c_71) : (⟨S_, .i32⟩ : BufTy).Contents (Elt F)) = ((constantI S_ 32 2048#32) : (⟨S_, .i32⟩ : BufTy).Contents (Elt F)) :=
  (final_eq V (op := (nullary main_c_71 (constantI S_ 32 2048#32) : HloOp τ sig (Elt F))) (mem_ops5 (List.getElem_mem (l := (ops5 : List (HloOp τ sig (Elt F)))) (n := 26) (by show (26 : ℕ) < 60; decide))) main_c_71 rfl (readsBelow_nullary _ _ _)).trans
    (by first | (rw [nullary_result]; done) | (rw [nullary_result]; rfl))

theorem eq_main_v253 (V : Valuation τ sig (Elt F)) :
    (after ops V (Proc.devRef .tc main_v253) : (⟨S525312, .i32⟩ : BufTy).Contents (Elt F)) = ((broadcastInDim S525312 ![] bcast_S_S525312 : (⟨S_, .i32⟩ : BufTy).Contents (Elt F) → (⟨S525312, .i32⟩ : BufTy).Contents (Elt F))) (after ops V (Proc.devRef .tc main_c_71) : (⟨S_, .i32⟩ : BufTy).Contents (Elt F)) :=
  (final_eq V (op := (unary main_c_71 main_v253 (broadcastInDim S525312 ![] bcast_S_S525312 : (⟨S_, .i32⟩ : BufTy).Contents (Elt F) → (⟨S525312, .i32⟩ : BufTy).Contents (Elt F)) : HloOp τ sig (Elt F))) (mem_ops5 (List.getElem_mem (l := (ops5 : List (HloOp τ sig (Elt F)))) (n := 27) (by show (27 : ℕ) < 60; decide))) main_v253 rfl (readsBelow_unary _ _ _ _ _ (by decide))).trans
    (by first | (rw [unary_result]; done) | (rw [unary_result]; rfl))

theorem eq_main_v254 (V : Valuation τ sig (Elt F)) :
    (after ops V (Proc.devRef .tc main_v254) : (⟨S525312, .i32⟩ : BufTy).Contents (Elt F)) = ((addi : (⟨S525312, .i32⟩ : BufTy).Contents (Elt F) → (⟨S525312, .i32⟩ : BufTy).Contents (Elt F) → (⟨S525312, .i32⟩ : BufTy).Contents (Elt F))) (after ops V (Proc.devRef .tc main_v149) : (⟨S525312, .i32⟩ : BufTy).Contents (Elt F)) (after ops V (Proc.devRef .tc main_v253) : (⟨S525312, .i32⟩ : BufTy).Contents (Elt F)) :=
  (final_eq V (op := (binary main_v149 main_v253 main_v254 (addi : (⟨S525312, .i32⟩ : BufTy).Contents (Elt F) → (⟨S525312, .i32⟩ : BufTy).Contents (Elt F) → (⟨S525312, .i32⟩ : BufTy).Contents (Elt F)) : HloOp τ sig (Elt F))) (mem_ops5 (List.getElem_mem (l := (ops5 : List (HloOp τ sig (Elt F)))) (n := 28) (by show (28 : ℕ) < 60; decide))) main_v254 rfl (readsBelow_binary _ _ _ _ _ _ _ (by decide) (by decide))).trans
    (by first | (rw [binary_result]; done) | (rw [binary_result]; rfl))

theorem eq_main_v255 (V : Valuation τ sig (Elt F)) :
    (after ops V (Proc.devRef .tc main_v255) : (⟨S525312, .i32⟩ : BufTy).Contents (Elt F)) = ((select : (⟨S525312, .i1⟩ : BufTy).Contents (Elt F) → (⟨S525312, .i32⟩ : BufTy).Contents (Elt F) → (⟨S525312, .i32⟩ : BufTy).Contents (Elt F) → (⟨S525312, .i32⟩ : BufTy).Contents (Elt F))) (after ops V (Proc.devRef .tc main_v252) : (⟨S525312, .i1⟩ : BufTy).Contents (Elt F)) (after ops V (Proc.devRef .tc main_v254) : (⟨S525312, .i32⟩ : BufTy).Contents (Elt F)) (after ops V (Proc.devRef .tc main_v149) : (⟨S525312, .i32⟩ : BufTy).Contents (Elt F)) :=
  (final_eq V (op := (ternary main_v252 main_v254 main_v149 main_v255 (select : (⟨S525312, .i1⟩ : BufTy).Contents (Elt F) → (⟨S525312, .i32⟩ : BufTy).Contents (Elt F) → (⟨S525312, .i32⟩ : BufTy).Contents (Elt F) → (⟨S525312, .i32⟩ : BufTy).Contents (Elt F)) : HloOp τ sig (Elt F))) (mem_ops5 (List.getElem_mem (l := (ops5 : List (HloOp τ sig (Elt F)))) (n := 29) (by show (29 : ℕ) < 60; decide))) main_v255 rfl (readsBelow_ternary _ _ _ _ _ _ _ _ _ (by decide) (by decide) (by decide))).trans
    (by first | (rw [ternary_result]; done) | (rw [ternary_result]; rfl))

theorem eq_main_v256 (V : Valuation τ sig (Elt F)) :
    (after ops V (Proc.devRef .tc main_v256) : (⟨S525312x1, .i32⟩ : BufTy).Contents (Elt F)) = ((broadcastInDim S525312x1 ![0] bcast_S525312_S525312x1_0 : (⟨S525312, .i32⟩ : BufTy).Contents (Elt F) → (⟨S525312x1, .i32⟩ : BufTy).Contents (Elt F))) (after ops V (Proc.devRef .tc main_v255) : (⟨S525312, .i32⟩ : BufTy).Contents (Elt F)) :=
  (final_eq V (op := (unary main_v255 main_v256 (broadcastInDim S525312x1 ![0] bcast_S525312_S525312x1_0 : (⟨S525312, .i32⟩ : BufTy).Contents (Elt F) → (⟨S525312x1, .i32⟩ : BufTy).Contents (Elt F)) : HloOp τ sig (Elt F))) (mem_ops5 (List.getElem_mem (l := (ops5 : List (HloOp τ sig (Elt F)))) (n := 30) (by show (30 : ℕ) < 60; decide))) main_v256 rfl (readsBelow_unary _ _ _ _ _ (by decide))).trans
    (by first | (rw [unary_result]; done) | (rw [unary_result]; rfl))

theorem eq_main_v257 (V : Valuation τ sig (Elt F)) :
    (after ops V (Proc.devRef .tc main_v257) : (⟨S2048x256, .f32⟩ : BufTy).Contents (Elt F)) = (((fun x i u => Host.scatterAdd scatter_S2048x256_S525312x1_S525312x256_1_0_0_1 x i u) : (⟨S2048x256, .f32⟩ : BufTy).Contents (Elt F) → (⟨S525312x1, .i32⟩ : BufTy).Contents (Elt F) → (⟨S525312x256, .f32⟩ : BufTy).Contents (Elt F) → (⟨S2048x256, .f32⟩ : BufTy).Contents (Elt F))) (after ops V (Proc.devRef .tc main_v250) : (⟨S2048x256, .f32⟩ : BufTy).Contents (Elt F)) (after ops V (Proc.devRef .tc main_v256) : (⟨S525312x1, .i32⟩ : BufTy).Contents (Elt F)) (after ops V (Proc.devRef .tc main_v249) : (⟨S525312x256, .f32⟩ : BufTy).Contents (Elt F)) :=
  (final_eq V (op := (ternary main_v250 main_v256 main_v249 main_v257 ((fun x i u => Host.scatterAdd scatter_S2048x256_S525312x1_S525312x256_1_0_0_1 x i u) : (⟨S2048x256, .f32⟩ : BufTy).Contents (Elt F) → (⟨S525312x1, .i32⟩ : BufTy).Contents (Elt F) → (⟨S525312x256, .f32⟩ : BufTy).Contents (Elt F) → (⟨S2048x256, .f32⟩ : BufTy).Contents (Elt F)) : HloOp τ sig (Elt F))) (mem_ops5 (List.getElem_mem (l := (ops5 : List (HloOp τ sig (Elt F)))) (n := 31) (by show (31 : ℕ) < 60; decide))) main_v257 rfl (readsBelow_ternary _ _ _ _ _ _ _ _ _ (by decide) (by decide) (by decide))).trans
    (by first | (rw [ternary_result]; done) | (rw [ternary_result]; rfl))

theorem eq_main_cst_72 (V : Valuation τ sig (Elt F)) :
    (after ops V (Proc.devRef .tc main_cst_72) : (⟨S_, .f32⟩ : BufTy).Contents (Elt F)) = ((constant S_ .f32 0x3F333333#32) : (⟨S_, .f32⟩ : BufTy).Contents (Elt F)) :=
  (final_eq V (op := (nullary main_cst_72 (constant S_ .f32 0x3F333333#32) : HloOp τ sig (Elt F))) (mem_ops5 (List.getElem_mem (l := (ops5 : List (HloOp τ sig (Elt F)))) (n := 32) (by show (32 : ℕ) < 60; decide))) main_cst_72 rfl (readsBelow_nullary _ _ _)).trans
    (by first | (rw [nullary_result]; done) | (rw [nullary_result]; rfl))

theorem eq_main_v258 (V : Valuation τ sig (Elt F)) :
    (after ops V (Proc.devRef .tc main_v258) : (⟨S2048x256, .f32⟩ : BufTy).Contents (Elt F)) = ((broadcastInDim S2048x256 ![] bcast_S_S2048x256 : (⟨S_, .f32⟩ : BufTy).Contents (Elt F) → (⟨S2048x256, .f32⟩ : BufTy).Contents (Elt F))) (after ops V (Proc.devRef .tc main_cst_72) : (⟨S_, .f32⟩ : BufTy).Contents (Elt F)) :=
  (final_eq V (op := (unary main_cst_72 main_v258 (broadcastInDim S2048x256 ![] bcast_S_S2048x256 : (⟨S_, .f32⟩ : BufTy).Contents (Elt F) → (⟨S2048x256, .f32⟩ : BufTy).Contents (Elt F)) : HloOp τ sig (Elt F))) (mem_ops5 (List.getElem_mem (l := (ops5 : List (HloOp τ sig (Elt F)))) (n := 33) (by show (33 : ℕ) < 60; decide))) main_v258 rfl (readsBelow_unary _ _ _ _ _ (by decide))).trans
    (by first | (rw [unary_result]; done) | (rw [unary_result]; rfl))

theorem eq_main_v259 (V : Valuation τ sig (Elt F)) :
    (after ops V (Proc.devRef .tc main_v259) : (⟨S2048x256, .f32⟩ : BufTy).Contents (Elt F)) = ((mulf : (⟨S2048x256, .f32⟩ : BufTy).Contents (Elt F) → (⟨S2048x256, .f32⟩ : BufTy).Contents (Elt F) → (⟨S2048x256, .f32⟩ : BufTy).Contents (Elt F))) (after ops V (Proc.devRef .tc main_v258) : (⟨S2048x256, .f32⟩ : BufTy).Contents (Elt F)) (after ops V (Proc.devRef .tc main_v257) : (⟨S2048x256, .f32⟩ : BufTy).Contents (Elt F)) :=
  (final_eq V (op := (binary main_v258 main_v257 main_v259 (mulf : (⟨S2048x256, .f32⟩ : BufTy).Contents (Elt F) → (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 34) (by show (34 : ℕ) < 60; decide))) main_v259 rfl (readsBelow_binary _ _ _ _ _ _ _ (by decide) (by decide))).trans
    (by first | (rw [binary_result]; done) | (rw [binary_result]; rfl))

theorem eq_main_v260 (V : Valuation τ sig (Elt F)) :
    (after ops V (Proc.devRef .tc main_v260) : (⟨S2048x256, .f32⟩ : BufTy).Contents (Elt F)) = ((addf : (⟨S2048x256, .f32⟩ : BufTy).Contents (Elt F) → (⟨S2048x256, .f32⟩ : BufTy).Contents (Elt F) → (⟨S2048x256, .f32⟩ : BufTy).Contents (Elt F))) (after ops V (Proc.devRef .tc main_v239) : (⟨S2048x256, .f32⟩ : BufTy).Contents (Elt F)) (after ops V (Proc.devRef .tc main_v259) : (⟨S2048x256, .f32⟩ : BufTy).Contents (Elt F)) :=
  (final_eq V (op := (binary main_v239 main_v259 main_v260 (addf : (⟨S2048x256, .f32⟩ : BufTy).Contents (Elt F) → (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 35) (by show (35 : ℕ) < 60; decide))) main_v260 rfl (readsBelow_binary _ _ _ _ _ _ _ (by decide) (by decide))).trans
    (by first | (rw [binary_result]; done) | (rw [binary_result]; rfl))

theorem eq_main_v261 (V : Valuation τ sig (Elt F)) :
    (after ops V (Proc.devRef .tc main_v261) : (⟨S2048x256, .f32⟩ : BufTy).Contents (Elt F)) = (((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F))) (after ops V (Proc.devRef .tc main_v260) : (⟨S2048x256, .f32⟩ : BufTy).Contents (Elt F)) (after ops V (Proc.devRef .tc main_arg5) : (⟨S256x256, .f32⟩ : BufTy).Contents (Elt F)) :=
  (final_eq V (op := (binary main_v260 main_arg5 main_v261 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)) : HloOp τ sig (Elt F))) (mem_ops5 (List.getElem_mem (l := (ops5 : List (HloOp τ sig (Elt F)))) (n := 36) (by show (36 : ℕ) < 60; decide))) main_v261 rfl (readsBelow_binary _ _ _ _ _ _ _ (by decide) (by decide))).trans
    (by first | (rw [binary_result]; done) | (rw [binary_result]; rfl))

theorem eq_main_v262 (V : Valuation τ sig (Elt F)) :
    (after ops V (Proc.devRef .tc main_v262) : (⟨S1x256, .f32⟩ : BufTy).Contents (Elt F)) = ((broadcastInDim S1x256 ![1] bcast_S256_S1x256_1 : (⟨S256, .f32⟩ : BufTy).Contents (Elt F) → (⟨S1x256, .f32⟩ : BufTy).Contents (Elt F))) (after ops V (Proc.devRef .tc main_arg6) : (⟨S256, .f32⟩ : BufTy).Contents (Elt F)) :=
  (final_eq V (op := (unary main_arg6 main_v262 (broadcastInDim S1x256 ![1] bcast_S256_S1x256_1 : (⟨S256, .f32⟩ : BufTy).Contents (Elt F) → (⟨S1x256, .f32⟩ : BufTy).Contents (Elt F)) : HloOp τ sig (Elt F))) (mem_ops5 (List.getElem_mem (l := (ops5 : List (HloOp τ sig (Elt F)))) (n := 37) (by show (37 : ℕ) < 60; decide))) main_v262 rfl (readsBelow_unary _ _ _ _ _ (by decide))).trans
    (by first | (rw [unary_result]; done) | (rw [unary_result]; rfl))

theorem eq_main_v263 (V : Valuation τ sig (Elt F)) :
    (after ops V (Proc.devRef .tc main_v263) : (⟨S2048x256, .f32⟩ : BufTy).Contents (Elt F)) = ((broadcastInDim S2048x256 ![0, 1] bcast_S1x256_S2048x256_0_1 : (⟨S1x256, .f32⟩ : BufTy).Contents (Elt F) → (⟨S2048x256, .f32⟩ : BufTy).Contents (Elt F))) (after ops V (Proc.devRef .tc main_v262) : (⟨S1x256, .f32⟩ : BufTy).Contents (Elt F)) :=
  (final_eq V (op := (unary main_v262 main_v263 (broadcastInDim S2048x256 ![0, 1] bcast_S1x256_S2048x256_0_1 : (⟨S1x256, .f32⟩ : BufTy).Contents (Elt F) → (⟨S2048x256, .f32⟩ : BufTy).Contents (Elt F)) : HloOp τ sig (Elt F))) (mem_ops5 (List.getElem_mem (l := (ops5 : List (HloOp τ sig (Elt F)))) (n := 38) (by show (38 : ℕ) < 60; decide))) main_v263 rfl (readsBelow_unary _ _ _ _ _ (by decide))).trans
    (by first | (rw [unary_result]; done) | (rw [unary_result]; rfl))

theorem eq_main_v264 (V : Valuation τ sig (Elt F)) :
    (after ops V (Proc.devRef .tc main_v264) : (⟨S2048x256, .f32⟩ : BufTy).Contents (Elt F)) = ((addf : (⟨S2048x256, .f32⟩ : BufTy).Contents (Elt F) → (⟨S2048x256, .f32⟩ : BufTy).Contents (Elt F) → (⟨S2048x256, .f32⟩ : BufTy).Contents (Elt F))) (after ops V (Proc.devRef .tc main_v261) : (⟨S2048x256, .f32⟩ : BufTy).Contents (Elt F)) (after ops V (Proc.devRef .tc main_v263) : (⟨S2048x256, .f32⟩ : BufTy).Contents (Elt F)) :=
  (final_eq V (op := (binary main_v261 main_v263 main_v264 (addf : (⟨S2048x256, .f32⟩ : BufTy).Contents (Elt F) → (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 39) (by show (39 : ℕ) < 60; decide))) main_v264 rfl (readsBelow_binary _ _ _ _ _ _ _ (by decide) (by decide))).trans
    (by first | (rw [binary_result]; done) | (rw [binary_result]; rfl))

theorem eq_main_v265 (V : Valuation τ sig (Elt F)) :
    (after ops V (Proc.devRef .tc main_v265) : (⟨S2048x256, .f32⟩ : BufTy).Contents (Elt F)) = ((Host.tanh : (⟨S2048x256, .f32⟩ : BufTy).Contents (Elt F) → (⟨S2048x256, .f32⟩ : BufTy).Contents (Elt F))) (after ops V (Proc.devRef .tc main_v264) : (⟨S2048x256, .f32⟩ : BufTy).Contents (Elt F)) :=
  (final_eq V (op := (unary main_v264 main_v265 (Host.tanh : (⟨S2048x256, .f32⟩ : BufTy).Contents (Elt F) → (⟨S2048x256, .f32⟩ : BufTy).Contents (Elt F)) : HloOp τ sig (Elt F))) (mem_ops5 (List.getElem_mem (l := (ops5 : List (HloOp τ sig (Elt F)))) (n := 40) (by show (40 : ℕ) < 60; decide))) main_v265 rfl (readsBelow_unary _ _ _ _ _ (by decide))).trans
    (by first | (rw [unary_result]; done) | (rw [unary_result]; rfl))

theorem eq_main_cst_73 (V : Valuation τ sig (Elt F)) :
    (after ops V (Proc.devRef .tc main_cst_73) : (⟨S_, .f32⟩ : BufTy).Contents (Elt F)) = ((constant S_ .f32 0x00000000#32) : (⟨S_, .f32⟩ : BufTy).Contents (Elt F)) :=
  (final_eq V (op := (nullary main_cst_73 (constant S_ .f32 0x00000000#32) : HloOp τ sig (Elt F))) (mem_ops5 (List.getElem_mem (l := (ops5 : List (HloOp τ sig (Elt F)))) (n := 41) (by show (41 : ℕ) < 60; decide))) main_cst_73 rfl (readsBelow_nullary _ _ _)).trans
    (by first | (rw [nullary_result]; done) | (rw [nullary_result]; rfl))

theorem eq_main_v266 (V : Valuation τ sig (Elt F)) :
    (after ops V (Proc.devRef .tc main_v266) : (⟨S4x256, .f32⟩ : BufTy).Contents (Elt F)) = ((broadcastInDim S4x256 ![] bcast_S_S4x256 : (⟨S_, .f32⟩ : BufTy).Contents (Elt F) → (⟨S4x256, .f32⟩ : BufTy).Contents (Elt F))) (after ops V (Proc.devRef .tc main_cst_73) : (⟨S_, .f32⟩ : BufTy).Contents (Elt F)) :=
  (final_eq V (op := (unary main_cst_73 main_v266 (broadcastInDim S4x256 ![] bcast_S_S4x256 : (⟨S_, .f32⟩ : BufTy).Contents (Elt F) → (⟨S4x256, .f32⟩ : BufTy).Contents (Elt F)) : HloOp τ sig (Elt F))) (mem_ops5 (List.getElem_mem (l := (ops5 : List (HloOp τ sig (Elt F)))) (n := 42) (by show (42 : ℕ) < 60; decide))) main_v266 rfl (readsBelow_unary _ _ _ _ _ (by decide))).trans
    (by first | (rw [unary_result]; done) | (rw [unary_result]; rfl))

theorem eq_main_v267 (V : Valuation τ sig (Elt F)) :
    (after ops V (Proc.devRef .tc main_v267) : (⟨S2048x1, .i32⟩ : BufTy).Contents (Elt F)) = ((broadcastInDim S2048x1 ![0] bcast_S2048_S2048x1_0 : (⟨S2048, .i32⟩ : BufTy).Contents (Elt F) → (⟨S2048x1, .i32⟩ : BufTy).Contents (Elt F))) (after ops V (Proc.devRef .tc main_v145) : (⟨S2048, .i32⟩ : BufTy).Contents (Elt F)) :=
  (final_eq V (op := (unary main_v145 main_v267 (broadcastInDim S2048x1 ![0] bcast_S2048_S2048x1_0 : (⟨S2048, .i32⟩ : BufTy).Contents (Elt F) → (⟨S2048x1, .i32⟩ : BufTy).Contents (Elt F)) : HloOp τ sig (Elt F))) (mem_ops5 (List.getElem_mem (l := (ops5 : List (HloOp τ sig (Elt F)))) (n := 43) (by show (43 : ℕ) < 60; decide))) main_v267 rfl (readsBelow_unary _ _ _ _ _ (by decide))).trans
    (by first | (rw [unary_result]; done) | (rw [unary_result]; rfl))

theorem eq_main_v268 (V : Valuation τ sig (Elt F)) :
    (after ops V (Proc.devRef .tc main_v268) : (⟨S4x256, .f32⟩ : BufTy).Contents (Elt F)) = (((fun x i u => Host.scatterAdd scatter_S4x256_S2048x1_S2048x256_1_0_0_1 x i u) : (⟨S4x256, .f32⟩ : BufTy).Contents (Elt F) → (⟨S2048x1, .i32⟩ : BufTy).Contents (Elt F) → (⟨S2048x256, .f32⟩ : BufTy).Contents (Elt F) → (⟨S4x256, .f32⟩ : BufTy).Contents (Elt F))) (after ops V (Proc.devRef .tc main_v266) : (⟨S4x256, .f32⟩ : BufTy).Contents (Elt F)) (after ops V (Proc.devRef .tc main_v267) : (⟨S2048x1, .i32⟩ : BufTy).Contents (Elt F)) (after ops V (Proc.devRef .tc main_v265) : (⟨S2048x256, .f32⟩ : BufTy).Contents (Elt F)) :=
  (final_eq V (op := (ternary main_v266 main_v267 main_v265 main_v268 ((fun x i u => Host.scatterAdd scatter_S4x256_S2048x1_S2048x256_1_0_0_1 x i u) : (⟨S4x256, .f32⟩ : BufTy).Contents (Elt F) → (⟨S2048x1, .i32⟩ : BufTy).Contents (Elt F) → (⟨S2048x256, .f32⟩ : BufTy).Contents (Elt F) → (⟨S4x256, .f32⟩ : BufTy).Contents (Elt F)) : HloOp τ sig (Elt F))) (mem_ops5 (List.getElem_mem (l := (ops5 : List (HloOp τ sig (Elt F)))) (n := 44) (by show (44 : ℕ) < 60; decide))) main_v268 rfl (readsBelow_ternary _ _ _ _ _ _ _ _ _ (by decide) (by decide) (by decide))).trans
    (by first | (rw [ternary_result]; done) | (rw [ternary_result]; rfl))

theorem eq_main_cst_74 (V : Valuation τ sig (Elt F)) :
    (after ops V (Proc.devRef .tc main_cst_74) : (⟨S_, .f32⟩ : BufTy).Contents (Elt F)) = ((constant S_ .f32 0x3F800000#32) : (⟨S_, .f32⟩ : BufTy).Contents (Elt F)) :=
  (final_eq V (op := (nullary main_cst_74 (constant S_ .f32 0x3F800000#32) : HloOp τ sig (Elt F))) (mem_ops5 (List.getElem_mem (l := (ops5 : List (HloOp τ sig (Elt F)))) (n := 45) (by show (45 : ℕ) < 60; decide))) main_cst_74 rfl (readsBelow_nullary _ _ _)).trans
    (by first | (rw [nullary_result]; done) | (rw [nullary_result]; rfl))

theorem eq_main_v269 (V : Valuation τ sig (Elt F)) :
    (after ops V (Proc.devRef .tc main_v269) : (⟨S2048, .f32⟩ : BufTy).Contents (Elt F)) = ((broadcastInDim S2048 ![] bcast_S_S2048 : (⟨S_, .f32⟩ : BufTy).Contents (Elt F) → (⟨S2048, .f32⟩ : BufTy).Contents (Elt F))) (after ops V (Proc.devRef .tc main_cst_74) : (⟨S_, .f32⟩ : BufTy).Contents (Elt F)) :=
  (final_eq V (op := (unary main_cst_74 main_v269 (broadcastInDim S2048 ![] bcast_S_S2048 : (⟨S_, .f32⟩ : BufTy).Contents (Elt F) → (⟨S2048, .f32⟩ : BufTy).Contents (Elt F)) : HloOp τ sig (Elt F))) (mem_ops5 (List.getElem_mem (l := (ops5 : List (HloOp τ sig (Elt F)))) (n := 46) (by show (46 : ℕ) < 60; decide))) main_v269 rfl (readsBelow_unary _ _ _ _ _ (by decide))).trans
    (by first | (rw [unary_result]; done) | (rw [unary_result]; rfl))

theorem eq_main_cst_75 (V : Valuation τ sig (Elt F)) :
    (after ops V (Proc.devRef .tc main_cst_75) : (⟨S_, .f32⟩ : BufTy).Contents (Elt F)) = ((constant S_ .f32 0x00000000#32) : (⟨S_, .f32⟩ : BufTy).Contents (Elt F)) :=
  (final_eq V (op := (nullary main_cst_75 (constant S_ .f32 0x00000000#32) : HloOp τ sig (Elt F))) (mem_ops5 (List.getElem_mem (l := (ops5 : List (HloOp τ sig (Elt F)))) (n := 47) (by show (47 : ℕ) < 60; decide))) main_cst_75 rfl (readsBelow_nullary _ _ _)).trans
    (by first | (rw [nullary_result]; done) | (rw [nullary_result]; rfl))

theorem eq_main_v270 (V : Valuation τ sig (Elt F)) :
    (after ops V (Proc.devRef .tc main_v270) : (⟨S4, .f32⟩ : BufTy).Contents (Elt F)) = ((broadcastInDim S4 ![] bcast_S_S4 : (⟨S_, .f32⟩ : BufTy).Contents (Elt F) → (⟨S4, .f32⟩ : BufTy).Contents (Elt F))) (after ops V (Proc.devRef .tc main_cst_75) : (⟨S_, .f32⟩ : BufTy).Contents (Elt F)) :=
  (final_eq V (op := (unary main_cst_75 main_v270 (broadcastInDim S4 ![] bcast_S_S4 : (⟨S_, .f32⟩ : BufTy).Contents (Elt F) → (⟨S4, .f32⟩ : BufTy).Contents (Elt F)) : HloOp τ sig (Elt F))) (mem_ops5 (List.getElem_mem (l := (ops5 : List (HloOp τ sig (Elt F)))) (n := 48) (by show (48 : ℕ) < 60; decide))) main_v270 rfl (readsBelow_unary _ _ _ _ _ (by decide))).trans
    (by first | (rw [unary_result]; done) | (rw [unary_result]; rfl))

theorem eq_main_v271 (V : Valuation τ sig (Elt F)) :
    (after ops V (Proc.devRef .tc main_v271) : (⟨S2048x1, .i32⟩ : BufTy).Contents (Elt F)) = ((broadcastInDim S2048x1 ![0] bcast_S2048_S2048x1_0 : (⟨S2048, .i32⟩ : BufTy).Contents (Elt F) → (⟨S2048x1, .i32⟩ : BufTy).Contents (Elt F))) (after ops V (Proc.devRef .tc main_v145) : (⟨S2048, .i32⟩ : BufTy).Contents (Elt F)) :=
  (final_eq V (op := (unary main_v145 main_v271 (broadcastInDim S2048x1 ![0] bcast_S2048_S2048x1_0 : (⟨S2048, .i32⟩ : BufTy).Contents (Elt F) → (⟨S2048x1, .i32⟩ : BufTy).Contents (Elt F)) : HloOp τ sig (Elt F))) (mem_ops5 (List.getElem_mem (l := (ops5 : List (HloOp τ sig (Elt F)))) (n := 49) (by show (49 : ℕ) < 60; decide))) main_v271 rfl (readsBelow_unary _ _ _ _ _ (by decide))).trans
    (by first | (rw [unary_result]; done) | (rw [unary_result]; rfl))

theorem eq_main_v272 (V : Valuation τ sig (Elt F)) :
    (after ops V (Proc.devRef .tc main_v272) : (⟨S4, .f32⟩ : BufTy).Contents (Elt F)) = (((fun x i u => Host.scatterAdd scatter_S4_S2048x1_S2048_n_0_0_1 x i u) : (⟨S4, .f32⟩ : BufTy).Contents (Elt F) → (⟨S2048x1, .i32⟩ : BufTy).Contents (Elt F) → (⟨S2048, .f32⟩ : BufTy).Contents (Elt F) → (⟨S4, .f32⟩ : BufTy).Contents (Elt F))) (after ops V (Proc.devRef .tc main_v270) : (⟨S4, .f32⟩ : BufTy).Contents (Elt F)) (after ops V (Proc.devRef .tc main_v271) : (⟨S2048x1, .i32⟩ : BufTy).Contents (Elt F)) (after ops V (Proc.devRef .tc main_v269) : (⟨S2048, .f32⟩ : BufTy).Contents (Elt F)) :=
  (final_eq V (op := (ternary main_v270 main_v271 main_v269 main_v272 ((fun x i u => Host.scatterAdd scatter_S4_S2048x1_S2048_n_0_0_1 x i u) : (⟨S4, .f32⟩ : BufTy).Contents (Elt F) → (⟨S2048x1, .i32⟩ : BufTy).Contents (Elt F) → (⟨S2048, .f32⟩ : BufTy).Contents (Elt F) → (⟨S4, .f32⟩ : BufTy).Contents (Elt F)) : HloOp τ sig (Elt F))) (mem_ops5 (List.getElem_mem (l := (ops5 : List (HloOp τ sig (Elt F)))) (n := 50) (by show (50 : ℕ) < 60; decide))) main_v272 rfl (readsBelow_ternary _ _ _ _ _ _ _ _ _ (by decide) (by decide) (by decide))).trans
    (by first | (rw [ternary_result]; done) | (rw [ternary_result]; rfl))

theorem eq_main_v273 (V : Valuation τ sig (Elt F)) :
    (after ops V (Proc.devRef .tc main_v273) : (⟨S4x1, .f32⟩ : BufTy).Contents (Elt F)) = ((broadcastInDim S4x1 ![0] bcast_S4_S4x1_0 : (⟨S4, .f32⟩ : BufTy).Contents (Elt F) → (⟨S4x1, .f32⟩ : BufTy).Contents (Elt F))) (after ops V (Proc.devRef .tc main_v272) : (⟨S4, .f32⟩ : BufTy).Contents (Elt F)) :=
  (final_eq V (op := (unary main_v272 main_v273 (broadcastInDim S4x1 ![0] bcast_S4_S4x1_0 : (⟨S4, .f32⟩ : BufTy).Contents (Elt F) → (⟨S4x1, .f32⟩ : BufTy).Contents (Elt F)) : HloOp τ sig (Elt F))) (mem_ops5 (List.getElem_mem (l := (ops5 : List (HloOp τ sig (Elt F)))) (n := 51) (by show (51 : ℕ) < 60; decide))) main_v273 rfl (readsBelow_unary _ _ _ _ _ (by decide))).trans
    (by first | (rw [unary_result]; done) | (rw [unary_result]; rfl))

theorem eq_main_v274 (V : Valuation τ sig (Elt F)) :
    (after ops V (Proc.devRef .tc main_v274) : (⟨S4x256, .f32⟩ : BufTy).Contents (Elt F)) = ((broadcastInDim S4x256 ![0, 1] bcast_S4x1_S4x256_0_1 : (⟨S4x1, .f32⟩ : BufTy).Contents (Elt F) → (⟨S4x256, .f32⟩ : BufTy).Contents (Elt F))) (after ops V (Proc.devRef .tc main_v273) : (⟨S4x1, .f32⟩ : BufTy).Contents (Elt F)) :=
  (final_eq V (op := (unary main_v273 main_v274 (broadcastInDim S4x256 ![0, 1] bcast_S4x1_S4x256_0_1 : (⟨S4x1, .f32⟩ : BufTy).Contents (Elt F) → (⟨S4x256, .f32⟩ : BufTy).Contents (Elt F)) : HloOp τ sig (Elt F))) (mem_ops5 (List.getElem_mem (l := (ops5 : List (HloOp τ sig (Elt F)))) (n := 52) (by show (52 : ℕ) < 60; decide))) main_v274 rfl (readsBelow_unary _ _ _ _ _ (by decide))).trans
    (by first | (rw [unary_result]; done) | (rw [unary_result]; rfl))

theorem eq_main_v275 (V : Valuation τ sig (Elt F)) :
    (after ops V (Proc.devRef .tc main_v275) : (⟨S4x256, .f32⟩ : BufTy).Contents (Elt F)) = ((Host.divf : (⟨S4x256, .f32⟩ : BufTy).Contents (Elt F) → (⟨S4x256, .f32⟩ : BufTy).Contents (Elt F) → (⟨S4x256, .f32⟩ : BufTy).Contents (Elt F))) (after ops V (Proc.devRef .tc main_v268) : (⟨S4x256, .f32⟩ : BufTy).Contents (Elt F)) (after ops V (Proc.devRef .tc main_v274) : (⟨S4x256, .f32⟩ : BufTy).Contents (Elt F)) :=
  (final_eq V (op := (binary main_v268 main_v274 main_v275 (Host.divf : (⟨S4x256, .f32⟩ : BufTy).Contents (Elt F) → (⟨S4x256, .f32⟩ : BufTy).Contents (Elt F) → (⟨S4x256, .f32⟩ : BufTy).Contents (Elt F)) : HloOp τ sig (Elt F))) (mem_ops5 (List.getElem_mem (l := (ops5 : List (HloOp τ sig (Elt F)))) (n := 53) (by show (53 : ℕ) < 60; decide))) main_v275 rfl (readsBelow_binary _ _ _ _ _ _ _ (by decide) (by decide))).trans
    (by first | (rw [binary_result]; done) | (rw [binary_result]; rfl))

theorem eq_main_v276 (V : Valuation τ sig (Elt F)) :
    (after ops V (Proc.devRef .tc main_v276) : (⟨S4x128, .f32⟩ : BufTy).Contents (Elt F)) = (((fun l r => Host.dotGeneral dot_S4x256_S256x128_S4x128_1_0_0_1_n_n none l r) : (⟨S4x256, .f32⟩ : BufTy).Contents (Elt F) → (⟨S256x128, .f32⟩ : BufTy).Contents (Elt F) → (⟨S4x128, .f32⟩ : BufTy).Contents (Elt F))) (after ops V (Proc.devRef .tc main_v275) : (⟨S4x256, .f32⟩ : BufTy).Contents (Elt F)) (after ops V (Proc.devRef .tc main_arg7) : (⟨S256x128, .f32⟩ : BufTy).Contents (Elt F)) :=
  (final_eq V (op := (binary main_v275 main_arg7 main_v276 ((fun l r => Host.dotGeneral dot_S4x256_S256x128_S4x128_1_0_0_1_n_n none l r) : (⟨S4x256, .f32⟩ : BufTy).Contents (Elt F) → (⟨S256x128, .f32⟩ : BufTy).Contents (Elt F) → (⟨S4x128, .f32⟩ : BufTy).Contents (Elt F)) : HloOp τ sig (Elt F))) (mem_ops5 (List.getElem_mem (l := (ops5 : List (HloOp τ sig (Elt F)))) (n := 54) (by show (54 : ℕ) < 60; decide))) main_v276 rfl (readsBelow_binary _ _ _ _ _ _ _ (by decide) (by decide))).trans
    (by first | (rw [binary_result]; done) | (rw [binary_result]; rfl))

theorem eq_main_v277 (V : Valuation τ sig (Elt F)) :
    (after ops V (Proc.devRef .tc main_v277) : (⟨S1x128, .f32⟩ : BufTy).Contents (Elt F)) = ((broadcastInDim S1x128 ![1] bcast_S128_S1x128_1 : (⟨S128, .f32⟩ : BufTy).Contents (Elt F) → (⟨S1x128, .f32⟩ : BufTy).Contents (Elt F))) (after ops V (Proc.devRef .tc main_arg8) : (⟨S128, .f32⟩ : BufTy).Contents (Elt F)) :=
  (final_eq V (op := (unary main_arg8 main_v277 (broadcastInDim S1x128 ![1] bcast_S128_S1x128_1 : (⟨S128, .f32⟩ : BufTy).Contents (Elt F) → (⟨S1x128, .f32⟩ : BufTy).Contents (Elt F)) : HloOp τ sig (Elt F))) (mem_ops5 (List.getElem_mem (l := (ops5 : List (HloOp τ sig (Elt F)))) (n := 55) (by show (55 : ℕ) < 60; decide))) main_v277 rfl (readsBelow_unary _ _ _ _ _ (by decide))).trans
    (by first | (rw [unary_result]; done) | (rw [unary_result]; rfl))

theorem eq_main_v278 (V : Valuation τ sig (Elt F)) :
    (after ops V (Proc.devRef .tc main_v278) : (⟨S4x128, .f32⟩ : BufTy).Contents (Elt F)) = ((broadcastInDim S4x128 ![0, 1] bcast_S1x128_S4x128_0_1 : (⟨S1x128, .f32⟩ : BufTy).Contents (Elt F) → (⟨S4x128, .f32⟩ : BufTy).Contents (Elt F))) (after ops V (Proc.devRef .tc main_v277) : (⟨S1x128, .f32⟩ : BufTy).Contents (Elt F)) :=
  (final_eq V (op := (unary main_v277 main_v278 (broadcastInDim S4x128 ![0, 1] bcast_S1x128_S4x128_0_1 : (⟨S1x128, .f32⟩ : BufTy).Contents (Elt F) → (⟨S4x128, .f32⟩ : BufTy).Contents (Elt F)) : HloOp τ sig (Elt F))) (mem_ops5 (List.getElem_mem (l := (ops5 : List (HloOp τ sig (Elt F)))) (n := 56) (by show (56 : ℕ) < 60; decide))) main_v278 rfl (readsBelow_unary _ _ _ _ _ (by decide))).trans
    (by first | (rw [unary_result]; done) | (rw [unary_result]; rfl))

theorem eq_main_v279 (V : Valuation τ sig (Elt F)) :
    (after ops V (Proc.devRef .tc main_v279) : (⟨S4x128, .f32⟩ : BufTy).Contents (Elt F)) = ((addf : (⟨S4x128, .f32⟩ : BufTy).Contents (Elt F) → (⟨S4x128, .f32⟩ : BufTy).Contents (Elt F) → (⟨S4x128, .f32⟩ : BufTy).Contents (Elt F))) (after ops V (Proc.devRef .tc main_v276) : (⟨S4x128, .f32⟩ : BufTy).Contents (Elt F)) (after ops V (Proc.devRef .tc main_v278) : (⟨S4x128, .f32⟩ : BufTy).Contents (Elt F)) :=
  (final_eq V (op := (binary main_v276 main_v278 main_v279 (addf : (⟨S4x128, .f32⟩ : BufTy).Contents (Elt F) → (⟨S4x128, .f32⟩ : BufTy).Contents (Elt F) → (⟨S4x128, .f32⟩ : BufTy).Contents (Elt F)) : HloOp τ sig (Elt F))) (mem_ops5 (List.getElem_mem (l := (ops5 : List (HloOp τ sig (Elt F)))) (n := 57) (by show (57 : ℕ) < 60; decide))) main_v279 rfl (readsBelow_binary _ _ _ _ _ _ _ (by decide) (by decide))).trans
    (by first | (rw [binary_result]; done) | (rw [binary_result]; rfl))

theorem eq_main_v280 (V : Valuation τ sig (Elt F)) :
    (after ops V (Proc.devRef .tc main_v280) : (⟨S4x128, .f32⟩ : BufTy).Contents (Elt F)) = ((Host.tanh : (⟨S4x128, .f32⟩ : BufTy).Contents (Elt F) → (⟨S4x128, .f32⟩ : BufTy).Contents (Elt F))) (after ops V (Proc.devRef .tc main_v279) : (⟨S4x128, .f32⟩ : BufTy).Contents (Elt F)) :=
  (final_eq V (op := (unary main_v279 main_v280 (Host.tanh : (⟨S4x128, .f32⟩ : BufTy).Contents (Elt F) → (⟨S4x128, .f32⟩ : BufTy).Contents (Elt F)) : HloOp τ sig (Elt F))) (mem_ops5 (List.getElem_mem (l := (ops5 : List (HloOp τ sig (Elt F)))) (n := 58) (by show (58 : ℕ) < 60; decide))) main_v280 rfl (readsBelow_unary _ _ _ _ _ (by decide))).trans
    (by first | (rw [unary_result]; done) | (rw [unary_result]; rfl))

theorem eq_main_v281 (V : Valuation τ sig (Elt F)) :
    (after ops V (Proc.devRef .tc main_v281) : (⟨S4x2, .f32⟩ : BufTy).Contents (Elt F)) = (((fun l r => Host.dotGeneral dot_S4x128_S128x2_S4x2_1_0_0_1_n_n none l r) : (⟨S4x128, .f32⟩ : BufTy).Contents (Elt F) → (⟨S128x2, .f32⟩ : BufTy).Contents (Elt F) → (⟨S4x2, .f32⟩ : BufTy).Contents (Elt F))) (after ops V (Proc.devRef .tc main_v280) : (⟨S4x128, .f32⟩ : BufTy).Contents (Elt F)) (after ops V (Proc.devRef .tc main_arg9) : (⟨S128x2, .f32⟩ : BufTy).Contents (Elt F)) :=
  (final_eq V (op := (binary main_v280 main_arg9 main_v281 ((fun l r => Host.dotGeneral dot_S4x128_S128x2_S4x2_1_0_0_1_n_n none l r) : (⟨S4x128, .f32⟩ : BufTy).Contents (Elt F) → (⟨S128x2, .f32⟩ : BufTy).Contents (Elt F) → (⟨S4x2, .f32⟩ : BufTy).Contents (Elt F)) : HloOp τ sig (Elt F))) (mem_ops5 (List.getElem_mem (l := (ops5 : List (HloOp τ sig (Elt F)))) (n := 59) (by show (59 : ℕ) < 60; decide))) main_v281 rfl (readsBelow_binary _ _ _ _ _ _ _ (by decide) (by decide))).trans
    (by first | (rw [binary_result]; done) | (rw [binary_result]; rfl))

end Cert.ReferenceIdeal.Line

end
-- ==== Proof.RefEq6.lean ====
/- The equations of window 6's operations, read at the END of the whole reference program: for each operation, the
    final contents of the buffer it writes are its result on the final contents of all buffers (its operands are never
    written again, its result never overwritten). One lemma per operation, named after the buffer written. -/
import proofs.«120006_g55027120997065_cont_sun_c4_852_12_alg».proof.Proof.RefRun

set_option maxRecDepth 65536
set_option maxHeartbeats 1000000

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem eq_main_v282 (V : Valuation τ sig (Elt F)) :
    (after ops V (Proc.devRef .tc main_v282) : (⟨S1x2, .f32⟩ : BufTy).Contents (Elt F)) = ((broadcastInDim S1x2 ![1] bcast_S2_S1x2_1 : (⟨S2, .f32⟩ : BufTy).Contents (Elt F) → (⟨S1x2, .f32⟩ : BufTy).Contents (Elt F))) (after ops V (Proc.devRef .tc main_arg10) : (⟨S2, .f32⟩ : BufTy).Contents (Elt F)) :=
  (final_eq V (op := (unary main_arg10 main_v282 (broadcastInDim S1x2 ![1] bcast_S2_S1x2_1 : (⟨S2, .f32⟩ : BufTy).Contents (Elt F) → (⟨S1x2, .f32⟩ : BufTy).Contents (Elt F)) : HloOp τ sig (Elt F))) (mem_ops6 (List.getElem_mem (l := (ops6 : List (HloOp τ sig (Elt F)))) (n := 0) (by show (0 : ℕ) < 3; decide))) main_v282 rfl (readsBelow_unary _ _ _ _ _ (by decide))).trans
    (by first | (rw [unary_result]; done) | (rw [unary_result]; rfl))

theorem eq_main_v283 (V : Valuation τ sig (Elt F)) :
    (after ops V (Proc.devRef .tc main_v283) : (⟨S4x2, .f32⟩ : BufTy).Contents (Elt F)) = ((broadcastInDim S4x2 ![0, 1] bcast_S1x2_S4x2_0_1 : (⟨S1x2, .f32⟩ : BufTy).Contents (Elt F) → (⟨S4x2, .f32⟩ : BufTy).Contents (Elt F))) (after ops V (Proc.devRef .tc main_v282) : (⟨S1x2, .f32⟩ : BufTy).Contents (Elt F)) :=
  (final_eq V (op := (unary main_v282 main_v283 (broadcastInDim S4x2 ![0, 1] bcast_S1x2_S4x2_0_1 : (⟨S1x2, .f32⟩ : BufTy).Contents (Elt F) → (⟨S4x2, .f32⟩ : BufTy).Contents (Elt F)) : HloOp τ sig (Elt F))) (mem_ops6 (List.getElem_mem (l := (ops6 : List (HloOp τ sig (Elt F)))) (n := 1) (by show (1 : ℕ) < 3; decide))) main_v283 rfl (readsBelow_unary _ _ _ _ _ (by decide))).trans
    (by first | (rw [unary_result]; done) | (rw [unary_result]; rfl))

theorem eq_main_v284 (V : Valuation τ sig (Elt F)) :
    (after ops V (Proc.devRef .tc main_v284) : (⟨S4x2, .f32⟩ : BufTy).Contents (Elt F)) = ((addf : (⟨S4x2, .f32⟩ : BufTy).Contents (Elt F) → (⟨S4x2, .f32⟩ : BufTy).Contents (Elt F) → (⟨S4x2, .f32⟩ : BufTy).Contents (Elt F))) (after ops V (Proc.devRef .tc main_v281) : (⟨S4x2, .f32⟩ : BufTy).Contents (Elt F)) (after ops V (Proc.devRef .tc main_v283) : (⟨S4x2, .f32⟩ : BufTy).Contents (Elt F)) :=
  (final_eq V (op := (binary main_v281 main_v283 main_v284 (addf : (⟨S4x2, .f32⟩ : BufTy).Contents (Elt F) → (⟨S4x2, .f32⟩ : BufTy).Contents (Elt F) → (⟨S4x2, .f32⟩ : BufTy).Contents (Elt F)) : HloOp τ sig (Elt F))) (mem_ops6 (List.getElem_mem (l := (ops6 : List (HloOp τ sig (Elt F)))) (n := 2) (by show (2 : ℕ) < 3; decide))) main_v284 rfl (readsBelow_binary _ _ _ _ _ _ _ (by decide) (by decide))).trans
    (by first | (rw [binary_result]; done) | (rw [binary_result]; rfl))

end Cert.ReferenceIdeal.Line

end
-- ==== Proof.RefPure.lean ====
/- The reference's array operations on arrays that hold real numbers and on index arrays that hold node numbers.

   The reference works on flat and two-axis arrays of extended reals and on arrays of 32-bit words used as row numbers.
   An array "holds" real numbers when each entry is the coercion of a real (R1, R2), an index array holds the naturals f
   when each word is the word of f's value (I1 for a vector, I2 for a column). The host operations keep these properties:
   splats of literals, the bias broadcasts [C] → [1, C] → [N, C], the column broadcasts [E] → [E, 1] → [E, C], the index
   normalisation (which leaves words of naturals alone), row and flat gathers at in-range rows (the clamp is the identity),
   row and flat scatter-adds into zeros (the sum of the rows sent to each target), the plain matrix product, tanh,
   division by nonzero entries, the inverse square root of degrees that are at least one, the reshape of the feature
   array to one row per node and the batch number of a node. One layer of the reference, at any feature counts, then
   holds the edge model's layer. -/
import Idealize.ShloMosaic.Lib.StackMember
import proofs.«120006_g55027120997065_cont_sun_c4_852_12_alg».proof.Proof.KernelOps
import proofs.«120006_g55027120997065_cont_sun_c4_852_12_alg».proof.Proof.LibSegRows
import proofs.«120006_g55027120997065_cont_sun_c4_852_12_alg».proof.Proof.LibWords
import proofs.«120006_g55027120997065_cont_sun_c4_852_12_alg».proof.Proof.EdgeModel

noncomputable section

namespace Cert.Proof.RefPure

open Idealize.ShloMosaic Idealize.ShloMosaic.ValueIdx Idealize.ShloMosaic.Words Cert.Proof.KernelOps Cert.LibSegRows Cert.Consts

/-- The vector `a` over [n] holds the reals `A`. -/
def R1 {n : ℕ} (a : (⟨1, ![n]⟩ : Shape).Idx → EReal) (A : Fin n → ℝ) : Prop := ∀ r, a (ix1 r) = ((A r : ℝ) : EReal)
/-- The word vector `s` over [n] holds the naturals `f`. -/
def I1 {n : ℕ} (s : IVec ⟨1, ![n]⟩ 32) (f : Fin n → ℕ) : Prop := ∀ e, s (ix1 e) = w32 (f e)
/-- The word column `s` over [n, 1] holds the naturals `f`. -/
def I2 {n : ℕ} (s : IVec ⟨2, ![n, 1]⟩ 32) (f : Fin n → ℕ) : Prop := ∀ e, s (ix2 e (0 : Fin 1)) = w32 (f e)

variable {n m k : ℕ}

theorem zero_bits : Ideal.ofBits .f32 0x00000000#32 = ((0 : ℝ) : EReal) := Ideal.ofBits_zero_f32.trans EReal.coe_zero.symm

/-! ## Splats -/

theorem R2.splatH (dims : Fin 0 → Fin 2) (h : (⟨0, ![]⟩ : Shape).BroadcastsInDim ⟨2, ![n, m]⟩ dims) (w : BitVec 32) (x : ℝ)
    (hw : Ideal.ofBits .f32 w = ((x : ℝ) : EReal)) :
    R2 (broadcastInDim ⟨2, ![n, m]⟩ dims h (constant (F := Ideal) ⟨0, ![]⟩ .f32 w)) (fun _ _ => x) := fun _ _ => hw

theorem R1.splatH (dims : Fin 0 → Fin 1) (h : (⟨0, ![]⟩ : Shape).BroadcastsInDim ⟨1, ![n]⟩ dims) (w : BitVec 32) (x : ℝ)
    (hw : Ideal.ofBits .f32 w = ((x : ℝ) : EReal)) :
    R1 (broadcastInDim ⟨1, ![n]⟩ dims h (constant (F := Ideal) ⟨0, ![]⟩ .f32 w)) (fun _ => x) := fun _ => hw

theorem R1.mulf {φ : FTy} {a b : FVec Ideal ⟨1, ![n]⟩ φ} {A B : Fin n → ℝ} (ha : R1 a A) (hb : R1 b B) :
    R1 (mulf a b) (fun r => A r * B r) := fun r => by
  show a (ix1 r) * b (ix1 r) = _
  rw [ha r, hb r, EReal.coe_mul]

/-! ## Broadcasts of a bias vector and of a per-row factor -/

theorem R2.biasH {b : (⟨1, ![m]⟩ : Shape).Idx → EReal} {B : Fin m → ℝ} (hb : R1 b B)
    (h1 : (⟨1, ![m]⟩ : Shape).BroadcastsInDim ⟨2, ![1, m]⟩ ![1]) (h2 : (⟨2, ![1, m]⟩ : Shape).BroadcastsInDim ⟨2, ![n, m]⟩ ![0, 1]) :
    R2 (broadcastInDim ⟨2, ![n, m]⟩ ![0, 1] h2 (broadcastInDim ⟨2, ![1, m]⟩ ![1] h1 b)) (fun _ c => B c) := fun v c => by
  refine (broadcastInDim_apply ![0, 1] h2 _ (ix2 v c) (ix2 (0 : Fin 1) c) (fun a => ?_)).trans
    ((broadcastInDim_apply ![1] h1 b (ix2 (0 : Fin 1) c) (ix1 c) (fun a => ?_)).trans (hb c))
  · match a with
    | ⟨0, _⟩ => rfl
    | ⟨1, _⟩ =>
      show c.val = if m = 1 then 0 else c.val
      split
      · have := c.isLt; omega
      · rfl
  · match a with
    | ⟨0, _⟩ =>
      show c.val = if m = 1 then 0 else c.val
      split
      · have := c.isLt; omega
      · rfl

theorem R2.colH {v : (⟨1, ![n]⟩ : Shape).Idx → EReal} {A : Fin n → ℝ} (hv : R1 v A)
    (h1 : (⟨1, ![n]⟩ : Shape).BroadcastsInDim ⟨2, ![n, 1]⟩ ![0]) (h2 : (⟨2, ![n, 1]⟩ : Shape).BroadcastsInDim ⟨2, ![n, m]⟩ ![0, 1]) :
    R2 (broadcastInDim ⟨2, ![n, m]⟩ ![0, 1] h2 (broadcastInDim ⟨2, ![n, 1]⟩ ![0] h1 v)) (fun e _ => A e) := fun e c => by
  refine (broadcastInDim_apply ![0, 1] h2 _ (ix2 e c) (ix2 e (0 : Fin 1)) (fun a => ?_)).trans
    ((broadcastInDim_apply ![0] h1 v (ix2 e (0 : Fin 1)) (ix1 e) (fun a => ?_)).trans (hv e))
  · match a with
    | ⟨0, _⟩ =>
      show e.val = if n = 1 then 0 else e.val
      split
      · have := e.isLt; omega
      · rfl
    | ⟨1, _⟩ => rfl
  · match a with
    | ⟨0, _⟩ =>
      show e.val = if n = 1 then 0 else e.val
      split
      · have := e.isLt; omega
      · rfl

theorem I2.ofI1 {s : IVec ⟨1, ![n]⟩ 32} {f : Fin n → ℕ} (hs : I1 s f) (h1 : (⟨1, ![n]⟩ : Shape).BroadcastsInDim ⟨2, ![n, 1]⟩ ![0]) :
    I2 (broadcastInDim ⟨2, ![n, 1]⟩ ![0] h1 s) f := fun e => by
  refine (broadcastInDim_apply ![0] h1 s (ix2 e (0 : Fin 1)) (ix1 e) (fun a => ?_)).trans (hs e)
  match a with
  | ⟨0, _⟩ =>
    show e.val = if n = 1 then 0 else e.val
    split
    · have := e.isLt; omega
    · rfl

/-! ## The index normalisation -/

theorem I1.wrap {s : IVec ⟨1, ![n]⟩ 32} {f : Fin n → ℕ} (hs : I1 s f) (hf : ∀ e, f e < 2 ^ 31) (d0 d1 : Fin 0 → Fin 1)
    (h0 : (⟨0, ![]⟩ : Shape).BroadcastsInDim ⟨1, ![n]⟩ d0) (h1 : (⟨0, ![]⟩ : Shape).BroadcastsInDim ⟨1, ![n]⟩ d1) (len : BitVec 32) :
    I1 (select (cmpi .slt s (broadcastInDim ⟨1, ![n]⟩ d0 h0 (constantI ⟨0, ![]⟩ 32 0#32)))
      (addi s (broadcastInDim ⟨1, ![n]⟩ d1 h1 (constantI ⟨0, ![]⟩ 32 len))) s) f := fun e => by
  show Scalar.select (IntOp.cmpi .slt (s (ix1 e)) 0#32) (IntOp.addi (s (ix1 e)) len) (s (ix1 e)) = _
  rw [hs e]
  exact wrap_w32 (hf e) len

/-! ## Gathers at in-range rows -/

theorem clampRow_eq {N E : ℕ} (hN : 0 < N) {idx : IVec ⟨2, ![E, 1]⟩ 32} {f : Fin E → ℕ} (hi : I2 idx f) (hf : ∀ e, f e < N)
    (hN31 : N ≤ 2 ^ 31) (e : Fin E) : clampRow hN idx e = ⟨f e, hf e⟩ := Fin.ext (by
  show min (idx (ix2 e (0 : Fin 1))).toInt.toNat (N - 1) = f e
  have := hf e
  rw [hi e, toInt_w32 (by omega), Int.toNat_natCast]
  exact Nat.min_eq_left (by omega))

theorem R2.gatherH {N C E : ℕ} (hN : 0 < N) (wf : GatherDims.WF ⟨2, ![N, C]⟩ ⟨2, ![E, 1]⟩ ⟨2, ![E, C]⟩ [1] [0] [] [0] [] 1 ![1, C])
    {x : (⟨2, ![N, C]⟩ : Shape).Idx → EReal} {X : Fin N → Fin C → ℝ} (hx : R2 x X) {idx : IVec ⟨2, ![E, 1]⟩ 32} {f : Fin E → ℕ}
    (hi : I2 idx f) (hf : ∀ e, f e < N) (hN31 : N ≤ 2 ^ 31) :
    R2 (Host.gather (rowGather N C E wf) x idx) (fun e c => X ⟨f e, hf e⟩ c) := fun e c => by
  rw [rowGather_apply hN, clampRow_eq hN hi hf hN31]
  exact hx _ c

/-- The dimension numbers of a flat gather: single entries at the start indices. -/
abbrev flatGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at e: the operand at the clamped start index. -/
theorem flatGather_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow hN idx e)) := by
  unfold Host.gather
  congr 1
  funext a
  match a with
  | ⟨0, _⟩ =>
    refine Fin.ext ?_
    show (flatGather N E wf).start (ix1 e) idx 0 + (flatGather N E wf).batchCoord (ix1 e) 0
      + (flatGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGather N E wf).startIndexMap from List.mem_singleton.mpr rfl)]
    have hsi : (flatGather N E wf).siIdx (ix1 e) ⟨List.idxOf (0 : Fin 1) (flatGather N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

theorem R1.gatherH {N E : ℕ} (hN : 0 < N) (wf : GatherDims.WF ⟨1, ![N]⟩ ⟨2, ![E, 1]⟩ ⟨1, ![E]⟩ [] [0] [] [0] [] 1 ![1])
    {x : (⟨1, ![N]⟩ : Shape).Idx → EReal} {X : Fin N → ℝ} (hx : R1 x X) {idx : IVec ⟨2, ![E, 1]⟩ 32} {f : Fin E → ℕ}
    (hi : I2 idx f) (hf : ∀ e, f e < N) (hN31 : N ≤ 2 ^ 31) :
    R1 (Host.gather (flatGather N E wf) x idx) (fun e => X ⟨f e, hf e⟩) := fun e => by
  rw [flatGather_apply hN, clampRow_eq hN hi hf hN31]
  exact hx _

/-! ## Scatter-adds into zeros -/

theorem R2.scatterH {N C E : ℕ} (wf : ScatterDims.WF ⟨2, ![N, C]⟩ ⟨2, ![E, 1]⟩ ⟨2, ![E, C]⟩ [1] [0] [0] 1)
    {x : FVec Ideal ⟨2, ![N, C]⟩ .f32} (hx : R2 x (fun _ _ => 0)) {idx : IVec ⟨2, ![E, 1]⟩ 32} {f : Fin E → ℕ} (hi : I2 idx f)
    (hf : ∀ e, f e < 2 ^ 31) {upd : FVec Ideal ⟨2, ![E, C]⟩ .f32} {U : Fin E → Fin C → ℝ} (hu : R2 upd U) :
    R2 (Host.scatterAdd (rowScatter N C E wf) x idx upd) (fun r c => ∑ e : Fin E, if f e = r.val then U e c else 0) :=
  fun r c => by
    show Ideal.hostScatterAdd (rowScatter N C E wf) x idx upd (ix2 r c) = _
    rw [rowScatterAdd_apply, hx r c, EReal.coe_zero, zero_add, coe_sum]
    refine Finset.sum_congr rfl fun e _ => ?_
    rw [hi e, toInt_w32 (hf e)]
    by_cases h : f e = r.val
    · rw [if_pos (by exact_mod_cast h), if_pos h, hu e c]
    · rw [if_neg (by exact_mod_cast h), if_neg h, EReal.coe_zero]

theorem R1.scatterH {N E : ℕ} (wf : ScatterDims.WF ⟨1, ![N]⟩ ⟨2, ![E, 1]⟩ ⟨1, ![E]⟩ [] [0] [0] 1)
    {x : FVec Ideal ⟨1, ![N]⟩ .f32} (hx : R1 x (fun _ => 0)) {idx : IVec ⟨2, ![E, 1]⟩ 32} {f : Fin E → ℕ} (hi : I2 idx f)
    (hf : ∀ e, f e < 2 ^ 31) {upd : FVec Ideal ⟨1, ![E]⟩ .f32} {U : Fin E → ℝ} (hu : R1 upd U) :
    R1 (Host.scatterAdd (flatScatter N E wf) x idx upd) (fun r => ∑ e : Fin E, if f e = r.val then U e else 0) :=
  fun r => by
    show Ideal.hostScatterAdd (flatScatter N E wf) x idx upd (ix1 r) = _
    rw [flatScatterAdd_apply, hx r, EReal.coe_zero, zero_add, coe_sum]
    refine Finset.sum_congr rfl fun e _ => ?_
    rw [hi e, toInt_w32 (hf e)]
    by_cases h : f e = r.val
    · rw [if_pos (by exact_mod_cast h), if_pos h, hu e]
    · rw [if_neg (by exact_mod_cast h), if_neg h, EReal.coe_zero]

/-! ## The host's pointwise operations and matrix product -/

theorem R2.tanhH {φ : FTy} {a : FVec Ideal ⟨2, ![n, m]⟩ φ} {A : Fin n → Fin m → ℝ} (ha : R2 a A) :
    R2 (Host.tanh a) (fun r c => Real.tanh (A r c)) := fun r c => by
  show Ideal.tanh (a (ix2 r c)) = _
  rw [ha r c, Ideal.tanh_coe]

theorem R2.divH {φ : FTy} {a b : FVec Ideal ⟨2, ![n, m]⟩ φ} {A B : Fin n → Fin m → ℝ} (ha : R2 a A) (hb : R2 b B)
    (h0 : ∀ r c, B r c ≠ 0) : R2 (Host.divf a b) (fun r c => A r c / B r c) := fun r c => by
  show Ideal.div (a (ix2 r c)) (b (ix2 r c)) = _
  rw [ha r c, hb r c, Ideal.div_coe (h0 r c), ← EReal.coe_mul, mul_one_div]

theorem R2.dotH {φ₁ φ₂ : FTy} (prec : Option ContractPrecision) {l : FVec Ideal ⟨2, ![n, k]⟩ φ₁} {r : FVec Ideal ⟨2, ![k, m]⟩ φ₂}
    {L : Fin n → Fin k → ℝ} {Rr : Fin k → Fin m → ℝ} (hl : R2 l L) (hr : R2 r Rr) :
    R2 (Host.dotGeneral (DotDims.plain n k m) prec l r) (fun i j => ∑ q : Fin k, L i q * Rr q j) := fun i j => by
  rw [StackMember.dotGeneral_plain_apply, coe_sum]
  exact Finset.sum_congr rfl fun q _ => by rw [hl i q, hr q j, EReal.coe_mul]

/-- The inverse square root of degrees that are at least one: the guard "positive" holds, the floor is not reached. -/
theorem dinv_R1 {d : FVec Ideal ⟨1, ![n]⟩ .f32} {D : Fin n → ℝ} (hd : R1 d D) (h1 : ∀ v, 1 ≤ D v) (d0 d1 d2 : Fin 0 → Fin 1)
    (h0 : (⟨0, ![]⟩ : Shape).BroadcastsInDim ⟨1, ![n]⟩ d0) (h0' : (⟨0, ![]⟩ : Shape).BroadcastsInDim ⟨1, ![n]⟩ d1)
    (h0'' : (⟨0, ![]⟩ : Shape).BroadcastsInDim ⟨1, ![n]⟩ d2) :
    R1 (select (cmpf .ogt d (broadcastInDim ⟨1, ![n]⟩ d0 h0 (constant (F := Ideal) ⟨0, ![]⟩ .f32 0x00000000#32)))
        (Host.rsqrt (maximumf d (broadcastInDim ⟨1, ![n]⟩ d1 h0' (constant (F := Ideal) ⟨0, ![]⟩ .f32 0x2B8CBCCC#32))))
        (broadcastInDim ⟨1, ![n]⟩ d2 h0'' (id (constant (F := Ideal) ⟨0, ![]⟩ .f32 0x00000000#32))))
      (fun v => (Real.sqrt (D v))⁻¹) := fun v => by
  show Scalar.select (Ideal.cmp .ogt (d (ix1 v)) (Ideal.ofBits .f32 0x00000000#32))
    (Ideal.rsqrt (max (d (ix1 v)) (Ideal.ofBits .f32 0x2B8CBCCC#32))) (Ideal.ofBits .f32 0x00000000#32) = _
  have hpos : (0 : ℝ) < D v := lt_of_lt_of_le one_pos (h1 v)
  have hlt : (0 : EReal) < ((D v : ℝ) : EReal) := by exact_mod_cast hpos
  have hc : Ideal.cmp .ogt ((D v : ℝ) : EReal) 0 = 1#1 := by simp [Ideal.cmp, hlt]
  rw [hd v, Ideal.ofBits_zero_f32, ofBits_eps, hc, select_one, coe_max', max_eq_left (epsR_le_one.trans (h1 v)),
    Ideal.rsqrt_coe, if_neg (not_lt.mpr hpos.le), if_neg hpos.ne']

/-! ## The feature array as one row per node, and a node's batch number -/

theorem reshape_nodes {α : Type} (x : (⟨3, ![4, 512, 128]⟩ : Shape).Idx → α)
    (h : (⟨3, ![4, 512, 128]⟩ : Shape).ShapeCasts ⟨2, ![2048, 128]⟩) (v : Fin 2048) (c : Fin 128) :
    shapeCast ⟨2, ![2048, 128]⟩ x h (ix2 v c)
      = x (ix3 (⟨v.val / 512, by omega⟩ : Fin 4) (⟨v.val % 512, Nat.mod_lt _ (by norm_num)⟩ : Fin 512) c) :=
  shapeCast_apply x h _ _ (by
    rw [Shape.rowMajor_val_three, Shape.rowMajor_val_two]
    show (v.val / 512 * 512 + v.val % 512) * 128 + c.val = v.val * 128 + c.val
    have := Nat.div_add_mod v.val 512
    omega)

theorem batchIds (h1 : (⟨1, ![4]⟩ : Shape).BroadcastsInDim ⟨2, ![4, 512]⟩ ![0]) (h2 : (⟨2, ![4, 512]⟩ : Shape).ShapeCasts ⟨1, ![2048]⟩) :
    I1 (shapeCast ⟨1, ![2048]⟩ (broadcastInDim ⟨2, ![4, 512]⟩ ![0] h1 (iotaInDim ⟨1, ![4]⟩ 32 0)) h2) (fun v => v.val / 512) :=
  fun v => by
    refine (shapeCast_apply _ h2 (ix1 v) (ix2 (⟨v.val / 512, by omega⟩ : Fin 4) (⟨v.val % 512, Nat.mod_lt _ (by norm_num)⟩ : Fin 512)) (by
      rw [Shape.rowMajor_val_two, Shape.rowMajor_val_one]
      show v.val / 512 * 512 + v.val % 512 = v.val
      have := Nat.div_add_mod v.val 512
      omega)).trans ?_
    refine (broadcastInDim_apply ![0] h1 _ _ (ix1 (⟨v.val / 512, by omega⟩ : Fin 4)) (fun a => ?_)).trans rfl
    match a with
    | ⟨0, _⟩ => rfl

/-! ## One layer of the reference -/

/-- One layer as one array expression: rows gathered at the sources, scaled by the normalised weights, scatter-added at the
    targets, mixed with the rows, multiplied by the weights, the bias added, tanh. -/
def layerH {C C' : ℕ} (hs : (⟨0, ![]⟩ : Shape).BroadcastsInDim ⟨2, ![2048, C]⟩ ![])
    (wg : GatherDims.WF ⟨2, ![2048, C]⟩ ⟨2, ![525312, 1]⟩ ⟨2, ![525312, C]⟩ [1] [0] [] [0] [] 1 ![1, C])
    (hc1 : (⟨1, ![525312]⟩ : Shape).BroadcastsInDim ⟨2, ![525312, 1]⟩ ![0])
    (hc2 : (⟨2, ![525312, 1]⟩ : Shape).BroadcastsInDim ⟨2, ![525312, C]⟩ ![0, 1])
    (ws : ScatterDims.WF ⟨2, ![2048, C]⟩ ⟨2, ![525312, 1]⟩ ⟨2, ![525312, C]⟩ [1] [0] [0] 1)
    (hb1 : (⟨1, ![C']⟩ : Shape).BroadcastsInDim ⟨2, ![1, C']⟩ ![1])
    (hb2 : (⟨2, ![1, C']⟩ : Shape).BroadcastsInDim ⟨2, ![2048, C']⟩ ![0, 1])
    (x : FVec Ideal ⟨2, ![2048, C]⟩ .f32) (iS iT : IVec ⟨2, ![525312, 1]⟩ 32) (nrm : FVec Ideal ⟨1, ![525312]⟩ .f32)
    (W : FVec Ideal ⟨2, ![C, C']⟩ .f32) (bias : FVec Ideal ⟨1, ![C']⟩ .f32) : FVec Ideal ⟨2, ![2048, C']⟩ .f32 :=
  Host.tanh (addf (Host.dotGeneral (DotDims.plain 2048 C C') none
      (addf (mulf x (broadcastInDim ⟨2, ![2048, C]⟩ ![] hs (constant (F := Ideal) ⟨0, ![]⟩ .f32 0x3E99999A#32)))
        (mulf (broadcastInDim ⟨2, ![2048, C]⟩ ![] hs (constant (F := Ideal) ⟨0, ![]⟩ .f32 0x3F333333#32))
          (Host.scatterAdd (rowScatter 2048 C 525312 ws)
            (broadcastInDim ⟨2, ![2048, C]⟩ ![] hs (constant (F := Ideal) ⟨0, ![]⟩ .f32 0x00000000#32)) iT
            (mulf (Host.gather (rowGather 2048 C 525312 wg) x iS)
              (broadcastInDim ⟨2, ![525312, C]⟩ ![0, 1] hc2 (broadcastInDim ⟨2, ![525312, 1]⟩ ![0] hc1 nrm))))))
      W) (broadcastInDim ⟨2, ![2048, C']⟩ ![0, 1] hb2 (broadcastInDim ⟨2, ![1, C']⟩ ![1] hb1 bias)))

/-- It holds the edge model's layer of the rows it is given. -/
theorem layerH_R2 {C C' : ℕ} (hs : (⟨0, ![]⟩ : Shape).BroadcastsInDim ⟨2, ![2048, C]⟩ ![])
    (wg : GatherDims.WF ⟨2, ![2048, C]⟩ ⟨2, ![525312, 1]⟩ ⟨2, ![525312, C]⟩ [1] [0] [] [0] [] 1 ![1, C])
    (hc1 : (⟨1, ![525312]⟩ : Shape).BroadcastsInDim ⟨2, ![525312, 1]⟩ ![0])
    (hc2 : (⟨2, ![525312, 1]⟩ : Shape).BroadcastsInDim ⟨2, ![525312, C]⟩ ![0, 1])
    (ws : ScatterDims.WF ⟨2, ![2048, C]⟩ ⟨2, ![525312, 1]⟩ ⟨2, ![525312, C]⟩ [1] [0] [0] 1)
    (hb1 : (⟨1, ![C']⟩ : Shape).BroadcastsInDim ⟨2, ![1, C']⟩ ![1])
    (hb2 : (⟨2, ![1, C']⟩ : Shape).BroadcastsInDim ⟨2, ![2048, C']⟩ ![0, 1])
    {x : FVec Ideal ⟨2, ![2048, C]⟩ .f32} {iS iT : IVec ⟨2, ![525312, 1]⟩ 32} {nrm : FVec Ideal ⟨1, ![525312]⟩ .f32}
    {W : FVec Ideal ⟨2, ![C, C']⟩ .f32} {bias : FVec Ideal ⟨1, ![C']⟩ .f32} (G : Cert.EdgeModel.Graph) {xf : ℕ → Fin C → ℝ}
    {Wr : Fin C → Fin C' → ℝ} {Br : Fin C' → ℝ} (hx : R2 x (fun v c => xf v.val c)) (hS : I2 iS G.R) (hT : I2 iT G.Cc)
    (hRlt : ∀ e, G.R e < 2048) (hClt : ∀ e, G.Cc e < 2048) (hn : R1 nrm (Cert.EdgeModel.nrm G)) (hW : R2 W Wr) (hb : R1 bias Br) :
    R2 (layerH hs wg hc1 hc2 ws hb1 hb2 x iS iT nrm W bias) (fun v c' => Cert.EdgeModel.layer G Wr Br xf v.val c') := by
  have hg := R2.gatherH (by norm_num) wg hx hS hRlt (by norm_num)
  have hu := R2.mulf (φ := .f32) hg (R2.colH hn hc1 hc2)
  have hsc := R2.scatterH ws (R2.splatH ![] hs 0x00000000#32 0 zero_bits) hT (fun e => lt_trans (hClt e) (by norm_num)) hu
  have h204 := R2.addf (φ := .f32) (R2.mulf (φ := .f32) hx (R2.splatH ![] hs 0x3E99999A#32 alphaR ofBits_alpha))
    (R2.mulf (φ := .f32) (R2.splatH ![] hs 0x3F333333#32 betaR ofBits_beta) hsc)
  exact R2.tanhH (φ := .f32) (R2.addf (φ := .f32) (R2.dotH none h204 hW) (R2.biasH hb hb1 hb2))

end Cert.Proof.RefPure

end
-- ==== Proof.RefTail.lean ====
/- The reference from its graph arrays to its result.

   Given the final contents of the three graph arrays — edge sources and targets as words of node numbers, edge weights as
   reals — and real argument arrays, the rest of the reference (degrees by a scatter-add of the weights, their inverse
   square roots, the normalised edge weights by two gathers, three layers each a row gather, a scaling, a row scatter-add,
   a mix, a matrix product, a bias and a tanh, then two segment sums for the mean, and the two dense maps) computes the
   edge model's result. -/
import proofs.«120006_g55027120997065_cont_sun_c4_852_12_alg».proof.Proof.RefEq2
import proofs.«120006_g55027120997065_cont_sun_c4_852_12_alg».proof.Proof.RefEq3
import proofs.«120006_g55027120997065_cont_sun_c4_852_12_alg».proof.Proof.RefEq4
import proofs.«120006_g55027120997065_cont_sun_c4_852_12_alg».proof.Proof.RefEq5
import proofs.«120006_g55027120997065_cont_sun_c4_852_12_alg».proof.Proof.RefEq6
import proofs.«120006_g55027120997065_cont_sun_c4_852_12_alg».proof.Proof.EdgeModel
import proofs.«120006_g55027120997065_cont_sun_c4_852_12_alg».proof.Proof.Inputs
import proofs.«120006_g55027120997065_cont_sun_c4_852_12_alg».proof.Proof.LibWords
import proofs.«120006_g55027120997065_cont_sun_c4_852_12_alg».proof.Proof.RefPure

noncomputable section

namespace Cert.ReferenceIdeal.Tail

open Cert.ReferenceIdeal Cert.ReferenceIdeal.Gen Cert.ReferenceIdeal.Line Idealize.ShloMosaic Idealize.ShloMosaic.ValueIdx
  Idealize.ShloMosaic.StableHlo Idealize.ShloMosaic.Words Cert.Proof.KernelOps Cert.Proof.RefPure

variable (V : Valuation τ sig (Elt Ideal))

-- The final contents of buffer b.
set_option quotPrecheck false in
local notation "A[" b "]" => after ops V (Proc.devRef .tc b)

attribute [local irreducible] Idealize.ShloMosaic.StableHlo.after

/-- The eleven argument arrays as the reference holds them at the end (they are never written). -/
def wargs : Cert.Inputs.Args where
  a0 := after ops V (Proc.devRef .tc main_arg0)
  a1 := after ops V (Proc.devRef .tc main_arg1)
  a2 := after ops V (Proc.devRef .tc main_arg2)
  a3 := after ops V (Proc.devRef .tc main_arg3)
  a4 := after ops V (Proc.devRef .tc main_arg4)
  a5 := after ops V (Proc.devRef .tc main_arg5)
  a6 := after ops V (Proc.devRef .tc main_arg6)
  a7 := after ops V (Proc.devRef .tc main_arg7)
  a8 := after ops V (Proc.devRef .tc main_arg8)
  a9 := after ops V (Proc.devRef .tc main_arg9)
  a10 := after ops V (Proc.devRef .tc main_arg10)

/-- From the graph arrays to the result. main_v148 / main_v149 are the edge sources / targets (concatenations computed
    earlier), main_v151 the edge weights; every degree is at least one. -/
theorem result_eq (G : Cert.EdgeModel.Graph) (hreal : (wargs V).Real)
    (hR : ∀ e : Fin 525312, (after ops V (Proc.devRef .tc main_v148) : IVec S525312 32) (ix1 e) = w32 (G.R e))
    (hRlt : ∀ e, G.R e < 2048)
    (hC : ∀ e : Fin 525312, (after ops V (Proc.devRef .tc main_v149) : IVec S525312 32) (ix1 e) = w32 (G.Cc e))
    (hClt : ∀ e, G.Cc e < 2048)
    (hew : ∀ e : Fin 525312, (after ops V (Proc.devRef .tc main_v151) : FVec Ideal S525312 .f32) (ix1 e) = ((G.ew e : ℝ) : EReal))
    (hdeg : ∀ v, v < 2048 → 1 ≤ Cert.EdgeModel.deg G v) :
    (after ops V (Proc.devRef .tc main_v284) : FVec Ideal S4x2 .f32)
      = fun i => ((Cert.EdgeModel.out G (wargs V).params (i 0) (i 1) : ℝ) : EReal) := by
  have hR31 : ∀ e, G.R e < 2 ^ 31 := fun e => lt_trans (hRlt e) (by norm_num)
  have hC31 : ∀ e, G.Cc e < 2 ^ 31 := fun e => lt_trans (hClt e) (by norm_num)
  have hRw : I1 (n := 525312) A[main_v148] G.R := hR
  have hCw : I1 (n := 525312) A[main_v149] G.Cc := hC
  have hE : R1 (n := 525312) A[main_v151] G.ew := hew
  -- the argument arrays hold the real inputs
  have hW1 : R2 (n := 128) (m := 256) A[main_arg1] (wargs V).params.W1 := fun r c => hreal.h1 (ix2 r c)
  have hb1 : R1 (n := 256) A[main_arg2] (wargs V).params.b1 := fun c => hreal.h2 (ix1 c)
  have hW2 : R2 (n := 256) (m := 256) A[main_arg3] (wargs V).params.W2 := fun r c => hreal.h3 (ix2 r c)
  have hb2 : R1 (n := 256) A[main_arg4] (wargs V).params.b2 := fun c => hreal.h4 (ix1 c)
  have hW3 : R2 (n := 256) (m := 256) A[main_arg5] (wargs V).params.W3 := fun r c => hreal.h5 (ix2 r c)
  have hb3 : R1 (n := 256) A[main_arg6] (wargs V).params.b3 := fun c => hreal.h6 (ix1 c)
  have hDW : R2 (n := 256) (m := 128) A[main_arg7] (wargs V).params.DW := fun r c => hreal.h7 (ix2 r c)
  have hdb : R1 (n := 128) A[main_arg8] (wargs V).params.db := fun c => hreal.h8 (ix1 c)
  have hOW : R2 (n := 128) (m := 2) A[main_arg9] (wargs V).params.OW := fun r c => hreal.h9 (ix2 r c)
  have hob : R1 (n := 2) A[main_arg10] (wargs V).params.ob := fun c => hreal.h10 (ix1 c)
  -- the nine normalised index columns: four of the sources, five of the targets
  have h158 : I2 (n := 525312) A[main_v158] G.Cc := by
    rw [eq_main_v158 V, eq_main_v157 V, eq_main_v154 V, eq_main_v156 V, eq_main_v153 V, eq_main_v155 V, eq_main_c_43 V, eq_main_c_44 V]
    exact I2.ofI1 (I1.wrap hCw hC31 _ _ _ _ _) _
  have h171 : I2 (n := 525312) A[main_v171] G.R := by
    rw [eq_main_v171 V, eq_main_v170 V, eq_main_v167 V, eq_main_v169 V, eq_main_v166 V, eq_main_v168 V, eq_main_c_48 V, eq_main_c_49 V]
    exact I2.ofI1 (I1.wrap hRw hR31 _ _ _ _ _) _
  have h179 : I2 (n := 525312) A[main_v179] G.Cc := by
    rw [eq_main_v179 V, eq_main_v178 V, eq_main_v175 V, eq_main_v177 V, eq_main_v174 V, eq_main_v176 V, eq_main_c_50 V, eq_main_c_51 V]
    exact I2.ofI1 (I1.wrap hCw hC31 _ _ _ _ _) _
  have h189 : I2 (n := 525312) A[main_v189] G.R := by
    rw [eq_main_v189 V, eq_main_v188 V, eq_main_v185 V, eq_main_v187 V, eq_main_v184 V, eq_main_v186 V, eq_main_c_53 V, eq_main_c_54 V]
    exact I2.ofI1 (I1.wrap hRw hR31 _ _ _ _ _) _
  have h200 : I2 (n := 525312) A[main_v200] G.Cc := by
    rw [eq_main_v200 V, eq_main_v199 V, eq_main_v196 V, eq_main_v198 V, eq_main_v195 V, eq_main_v197 V, eq_main_c_56 V, eq_main_c_57 V]
    exact I2.ofI1 (I1.wrap hCw hC31 _ _ _ _ _) _
  have h217 : I2 (n := 525312) A[main_v217] G.R := by
    rw [eq_main_v217 V, eq_main_v216 V, eq_main_v213 V, eq_main_v215 V, eq_main_v212 V, eq_main_v214 V, eq_main_c_60 V, eq_main_c_61 V]
    exact I2.ofI1 (I1.wrap hRw hR31 _ _ _ _ _) _
  have h228 : I2 (n := 525312) A[main_v228] G.Cc := by
    rw [eq_main_v228 V, eq_main_v227 V, eq_main_v224 V, eq_main_v226 V, eq_main_v223 V, eq_main_v225 V, eq_main_c_63 V, eq_main_c_64 V]
    exact I2.ofI1 (I1.wrap hCw hC31 _ _ _ _ _) _
  have h245 : I2 (n := 525312) A[main_v245] G.R := by
    rw [eq_main_v245 V, eq_main_v244 V, eq_main_v241 V, eq_main_v243 V, eq_main_v240 V, eq_main_v242 V, eq_main_c_67 V, eq_main_c_68 V]
    exact I2.ofI1 (I1.wrap hRw hR31 _ _ _ _ _) _
  have h256 : I2 (n := 525312) A[main_v256] G.Cc := by
    rw [eq_main_v256 V, eq_main_v255 V, eq_main_v252 V, eq_main_v254 V, eq_main_v251 V, eq_main_v253 V, eq_main_c_70 V, eq_main_c_71 V]
    exact I2.ofI1 (I1.wrap hCw hC31 _ _ _ _ _) _
  -- the degrees, their inverse square roots, the normalised weights
  have hdg : R1 (n := 2048) A[main_v159] (fun v => Cert.EdgeModel.deg G v.val) := by
    rw [eq_main_v159 V, eq_main_v152 V, eq_main_cst_42 V]
    exact R1.scatterH scatter_S2048_S525312x1_S525312_n_0_0_1_wf (R1.splatH _ _ _ 0 zero_bits) h158 hC31 hE
  have hdi : R1 (n := 2048) A[main_v165] (fun v => Cert.EdgeModel.dinv G v.val) := by
    rw [eq_main_v165 V, eq_main_v161 V, eq_main_v164 V, eq_main_call8_v1 V, eq_main_call8_v0 V, eq_main_cst_47 V, eq_main_v160 V,
      eq_main_cst_45 V, eq_main_v163 V, eq_main_v162 V, eq_main_cst_46 V]
    exact dinv_R1 hdg (fun v => hdeg v.val v.isLt) _ _ _ _ _ _
  have hnr : R1 (n := 525312) A[main_v181] (Cert.EdgeModel.nrm G) := by
    rw [eq_main_v181 V, eq_main_v173 V, eq_main_v172 V, eq_main_v180 V]
    exact R1.mulf (φ := .f32) (R1.mulf (φ := .f32)
      (R1.gatherH (by norm_num) gather_S2048_S525312x1_S525312_n_0_n_n_0_1_1_wf hdi h171 hRlt (by norm_num)) hE)
      (R1.gatherH (by norm_num) gather_S2048_S525312x1_S525312_n_0_n_n_0_1_1_wf hdi h179 hClt (by norm_num))
  -- the node features the reference starts from
  have hx0 : R2 (n := 2048) (m := 128) A[main_v146] (fun v c => Cert.EdgeModel.x0 (wargs V).params v.val c) := by
    rw [eq_main_v146 V]
    intro v c
    rw [reshape_nodes]
    refine (hreal.h0 _).trans ?_
    have hx : Cert.EdgeModel.x0 (wargs V).params v.val c
        = (wargs V).params.X ⟨v.val / 512, by have := v.isLt; omega⟩ ⟨v.val % 512, Nat.mod_lt _ (by norm_num)⟩ c := by
      unfold Cert.EdgeModel.x0; exact dif_pos v.isLt
    show _ = ((Cert.EdgeModel.x0 (wargs V).params v.val c : ℝ) : EReal)
    rw [hx]
    rfl
  -- the three layers
  have e209 : A[main_v209] = layerH bcast_S_S2048x128 gather_S2048x128_S525312x1_S525312x128_1_0_n_n_0_1_1128_wf
      bcast_S525312_S525312x1_0 bcast_S525312x1_S525312x128_0_1 scatter_S2048x128_S525312x1_S525312x128_1_0_0_1_wf
      bcast_S256_S1x256_1 bcast_S1x256_S2048x256_0_1 A[main_v146] A[main_v189] A[main_v200] A[main_v181] A[main_arg1] A[main_arg2] := by
    rw [eq_main_v209 V, eq_main_v208 V, eq_main_v205 V, eq_main_v207 V, eq_main_v206 V, eq_main_v204 V, eq_main_v183 V,
      eq_main_v182 V, eq_main_cst_52 V, eq_main_v203 V, eq_main_v202 V, eq_main_cst_58 V, eq_main_v201 V, eq_main_v194 V,
      eq_main_cst_55 V, eq_main_v193 V, eq_main_v190 V, eq_main_v192 V, eq_main_v191 V]
    rfl
  have h209 : R2 (n := 2048) (m := 256) A[main_v209] (fun v c' => Cert.EdgeModel.x1 G (wargs V).params v.val c') := by
    rw [e209]
    exact layerH_R2 _ _ _ _ _ _ _ G hx0 h189 h200 hRlt hClt hnr hW1 hb1
  have e237 : A[main_v237] = layerH bcast_S_S2048x256 gather_S2048x256_S525312x1_S525312x256_1_0_n_n_0_1_1256_wf
      bcast_S525312_S525312x1_0 bcast_S525312x1_S525312x256_0_1 scatter_S2048x256_S525312x1_S525312x256_1_0_0_1_wf
      bcast_S256_S1x256_1 bcast_S1x256_S2048x256_0_1 A[main_v209] A[main_v217] A[main_v228] A[main_v181] A[main_arg3] A[main_arg4] := by
    rw [eq_main_v237 V, eq_main_v236 V, eq_main_v233 V, eq_main_v235 V, eq_main_v234 V, eq_main_v232 V, eq_main_v211 V,
      eq_main_v210 V, eq_main_cst_59 V, eq_main_v231 V, eq_main_v230 V, eq_main_cst_65 V, eq_main_v229 V, eq_main_v222 V,
      eq_main_cst_62 V, eq_main_v221 V, eq_main_v218 V, eq_main_v220 V, eq_main_v219 V]
    rfl
  have h237 : R2 (n := 2048) (m := 256) A[main_v237] (fun v c' => Cert.EdgeModel.x2 G (wargs V).params v.val c') := by
    rw [e237]
    exact layerH_R2 _ _ _ _ _ _ _ G h209 h217 h228 hRlt hClt hnr hW2 hb2
  have e265 : A[main_v265] = layerH bcast_S_S2048x256 gather_S2048x256_S525312x1_S525312x256_1_0_n_n_0_1_1256_wf
      bcast_S525312_S525312x1_0 bcast_S525312x1_S525312x256_0_1 scatter_S2048x256_S525312x1_S525312x256_1_0_0_1_wf
      bcast_S256_S1x256_1 bcast_S1x256_S2048x256_0_1 A[main_v237] A[main_v245] A[main_v256] A[main_v181] A[main_arg5] A[main_arg6] := by
    rw [eq_main_v265 V, eq_main_v264 V, eq_main_v261 V, eq_main_v263 V, eq_main_v262 V, eq_main_v260 V, eq_main_v239 V,
      eq_main_v238 V, eq_main_cst_66 V, eq_main_v259 V, eq_main_v258 V, eq_main_cst_72 V, eq_main_v257 V, eq_main_v250 V,
      eq_main_cst_69 V, eq_main_v249 V, eq_main_v246 V, eq_main_v248 V, eq_main_v247 V]
    rfl
  have h265 : R2 (n := 2048) (m := 256) A[main_v265] (fun v c' => Cert.EdgeModel.x3 G (wargs V).params v.val c') := by
    rw [e265]
    exact layerH_R2 _ _ _ _ _ _ _ G h237 h245 h256 hRlt hClt hnr hW3 hb3
  -- the mean per batch element: two segment sums and their quotient
  have hid : I1 (n := 2048) A[main_v145] (fun v => v.val / 512) := by
    rw [eq_main_v145 V, eq_main_v144 V, eq_main_v143 V]
    exact batchIds _ _
  have hid31 : ∀ v : Fin 2048, v.val / 512 < 2 ^ 31 := fun v => by have := v.isLt; omega
  have h267 : I2 (n := 2048) A[main_v267] (fun v => v.val / 512) := by
    rw [eq_main_v267 V]; exact I2.ofI1 hid _
  have h271 : I2 (n := 2048) A[main_v271] (fun v => v.val / 512) := by
    rw [eq_main_v271 V]; exact I2.ofI1 hid _
  have h268 : R2 (n := 4) (m := 256) A[main_v268]
      (fun b c => ∑ v : Fin 2048, if v.val / 512 = b.val then Cert.EdgeModel.x3 G (wargs V).params v.val c else 0) := by
    rw [eq_main_v268 V, eq_main_v266 V, eq_main_cst_73 V]
    exact R2.scatterH scatter_S4x256_S2048x1_S2048x256_1_0_0_1_wf (R2.splatH _ _ _ 0 zero_bits) h267 hid31 h265
  have h272 : R1 (n := 4) A[main_v272] (fun b => ∑ v : Fin 2048, if v.val / 512 = b.val then (1 : ℝ) else 0) := by
    rw [eq_main_v272 V, eq_main_v270 V, eq_main_cst_75 V, eq_main_v269 V, eq_main_cst_74 V]
    exact R1.scatterH scatter_S4_S2048x1_S2048_n_0_0_1_wf (R1.splatH _ _ _ 0 zero_bits) h271 hid31
      (R1.splatH _ _ _ 1 Cert.Consts.ofBits_one)
  have h274 : R2 (n := 4) (m := 256) A[main_v274] (fun b _ => ∑ v : Fin 2048, if v.val / 512 = b.val then (1 : ℝ) else 0) := by
    rw [eq_main_v274 V, eq_main_v273 V]
    exact R2.colH h272 _ _
  have hcnt : ∀ b : Fin 4, (∑ v : Fin 2048, if v.val / 512 = b.val then (1 : ℝ) else 0) ≠ 0 := fun b => by
    have hb := b.isLt
    have hle := Finset.single_le_sum (f := fun v : Fin 2048 => if v.val / 512 = b.val then (1 : ℝ) else 0)
      (fun v _ => by split <;> norm_num) (Finset.mem_univ (⟨512 * b.val, by omega⟩ : Fin 2048))
    have h1 : (if (⟨512 * b.val, by omega⟩ : Fin 2048).val / 512 = b.val then (1 : ℝ) else 0) = 1 :=
      if_pos (by show 512 * b.val / 512 = b.val; omega)
    rw [h1] at hle
    exact ne_of_gt (lt_of_lt_of_le one_pos hle)
  have h275 : R2 (n := 4) (m := 256) A[main_v275] (fun b c => Cert.EdgeModel.pooled G (wargs V).params b c) := by
    rw [eq_main_v275 V]
    exact R2.divH (φ := .f32) h268 h274 (fun b _ => hcnt b)
  -- the two dense maps
  have h280 : R2 (n := 4) (m := 128) A[main_v280] (fun b c' => Cert.EdgeModel.hidden G (wargs V).params b c') := by
    rw [eq_main_v280 V, eq_main_v279 V, eq_main_v276 V, eq_main_v278 V, eq_main_v277 V]
    exact R2.tanhH (φ := .f32) (R2.addf (φ := .f32) (R2.dotH none h275 hDW) (R2.biasH hdb _ _))
  have h284 : R2 (n := 4) (m := 2) A[main_v284] (fun b o => Cert.EdgeModel.out G (wargs V).params b o) := by
    rw [eq_main_v284 V, eq_main_v281 V, eq_main_v283 V, eq_main_v282 V]
    exact R2.addf (φ := .f32) (R2.dotH none h280 hOW) (R2.biasH hob _ _)
  funext i
  obtain ⟨b, o, rfl⟩ : ∃ (b : Fin 4) (o : Fin 2), i = ix2 b o := ⟨i 0, i 1, eq_ix2 i⟩
  exact h284 b o

end Cert.ReferenceIdeal.Tail

end
-- ==== Proof.LibPairGather.lean ====
/- A gather of single entries of a matrix at pairs of start indices, read at an index.

   The operand is an [N, M] matrix, the start indices an [E, 2] table of machine integers (row e holds the pair of start
   indices, read signed), both operand axes are collapsed with slice size one, and the result is the length-E vector whose
   entry e is the operand's entry at the pair, each component clamped into its axis (x[rows, cols] with index arrays). -/
import Idealize.ShloMosaic.Lib.ValueIdx
import Idealize.ShloMosaic.PureOps.Ideal

noncomputable section

namespace Cert.LibPairGather

open Idealize.ShloMosaic Idealize.ShloMosaic.ValueIdx

/-- The dimension numbers of the gather of single entries at index pairs. -/
abbrev pairGather (N M E : ℕ) (wf : GatherDims.WF ⟨2, ![N, M]⟩ ⟨2, ![E, 2]⟩ ⟨1, ![E]⟩ [] [0, 1] [] [0, 1] [] 1 ![1, 1]) :
    GatherDims ⟨2, ![N, M]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- **The pair gather read at e: the operand at the clamped pair of start indices of row e.** -/
theorem pairGather_apply {α : Type} {N M E w : ℕ} (hN : 0 < N) (hM : 0 < M)
    (wf : GatherDims.WF ⟨2, ![N, M]⟩ ⟨2, ![E, 2]⟩ ⟨1, ![E]⟩ [] [0, 1] [] [0, 1] [] 1 ![1, 1])
    (x : (⟨2, ![N, M]⟩ : Shape).Idx → α) (idx : IVec ⟨2, ![E, 2]⟩ w) (e : Fin E) :
    Host.gather (pairGather N M E wf) x idx (ix1 e)
      = x (ix2 (⟨min (idx (ix2 e (0 : Fin 2))).toInt.toNat (N - 1), by omega⟩ : Fin N)
               (⟨min (idx (ix2 e (1 : Fin 2))).toInt.toNat (M - 1), by omega⟩ : Fin M)) := by
  unfold Host.gather
  congr 1
  funext a
  have hcol : ∀ a : Fin 2, a ∉ (pairGather N M E wf).sKept := fun a h =>
    ((GatherDims.mem_sKept _ _).mp h).1 (by fin_cases a <;> simp)
  match a with
  | ⟨0, _⟩ =>
    refine Fin.ext ?_
    show (pairGather N M E wf).start (ix1 e) idx 0 + (pairGather N M E wf).batchCoord (ix1 e) 0
      + (pairGather N M E wf).offCoord (ix1 e) 0 = _
    rw [GatherDims.batchCoord_eq_zero _ _ _ List.not_mem_nil, GatherDims.offCoord_eq_zero _ _ _ (hcol 0)]
    simp only [Nat.add_zero]
    unfold GatherDims.start
    rw [dif_pos (show (0 : Fin 2) ∈ (pairGather N M E wf).startIndexMap from by simp)]
    have hsi : (pairGather N M E wf).siIdx (ix1 e) ⟨List.idxOf (0 : Fin 2) (pairGather N M E wf).startIndexMap,
        List.idxOf_lt_length_iff.2 (by simp)⟩ = ix2 e (0 : Fin 2) := by
      funext b; refine Fin.ext ?_
      match b with
      | ⟨0, _⟩ => rfl
      | ⟨1, _⟩ => rfl
    rw [hsi]
    rfl
  | ⟨1, _⟩ =>
    refine Fin.ext ?_
    show (pairGather N M E wf).start (ix1 e) idx 1 + (pairGather N M E wf).batchCoord (ix1 e) 1
      + (pairGather N M E wf).offCoord (ix1 e) 1 = _
    rw [GatherDims.batchCoord_eq_zero _ _ _ List.not_mem_nil, GatherDims.offCoord_eq_zero _ _ _ (hcol 1)]
    simp only [Nat.add_zero]
    unfold GatherDims.start
    rw [dif_pos (show (1 : Fin 2) ∈ (pairGather N M E wf).startIndexMap from by simp)]
    have hsi : (pairGather N M E wf).siIdx (ix1 e) ⟨List.idxOf (1 : Fin 2) (pairGather N M E wf).startIndexMap,
        List.idxOf_lt_length_iff.2 (by simp)⟩ = ix2 e (1 : Fin 2) := by
      funext b; refine Fin.ext ?_
      match b with
      | ⟨0, _⟩ => rfl
      | ⟨1, _⟩ => rfl
    rw [hsi]
    rfl

end Cert.LibPairGather

end
-- ==== Proof.RefGraphPure.lean ====
/- The reference's per-batch arrays as pure array expressions.

   For batch element b the reference cuts the b-th 512 × 128 block out of the feature array, forms all differences of two
   rows by two broadcasts to 512 × 512 × 128, multiplies the differences by themselves, sums over the features, floors at
   eps and takes the square root: the 512 × 512 matrix of distances. The node numbers of the pair table are offset by
   512 b; the table's rows and columns, normalised (which leaves words of naturals alone) and put side by side as an
   [E, 2] table of index pairs, gather the distances of the pairs. -/
import proofs.«120006_g55027120997065_cont_sun_c4_852_12_alg».proof.Proof.RefPure
import proofs.«120006_g55027120997065_cont_sun_c4_852_12_alg».proof.Proof.LibPairGather

noncomputable section

namespace Cert.Proof.RefGraphPure

open Idealize.ShloMosaic Idealize.ShloMosaic.ValueIdx Idealize.ShloMosaic.Words Cert.Proof.KernelOps Cert.Proof.RefPure
  Cert.LibPairGather Cert.Consts

/-! ## Offsets, index pairs, the gather at pairs -/

theorem I1.addc {n : ℕ} {s : IVec ⟨1, ![n]⟩ 32} {f : Fin n → ℕ} (hs : I1 s f) (d : Fin 0 → Fin 1)
    (h : (⟨0, ![]⟩ : Shape).BroadcastsInDim ⟨1, ![n]⟩ d) (off b : ℕ) (hob : off = b * 512) :
    I1 (addi s (broadcastInDim ⟨1, ![n]⟩ d h (constantI ⟨0, ![]⟩ 32 (w32 off)))) (fun e => b * 512 + f e) := fun e => by
  show IntOp.addi (s (ix1 e)) (w32 off) = w32 (b * 512 + f e)
  rw [hs e, addi_w32, hob, Nat.add_comm]

/-- Two index columns side by side: the [n, 2] table of pairs. -/
theorem pairIdx {n : ℕ} {a b : IVec ⟨2, ![n, 1]⟩ 32} {f g : Fin n → ℕ} (ha : I2 a f) (hb : I2 b g)
    (hc : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] hc (ix2 e (0 : Fin 2)) = w32 (f e)
      ∧ concatenate ⟨2, ![n, 2]⟩ 1 [⟨⟨2, ![n, 1]⟩, a⟩, ⟨⟨2, ![n, 1]⟩, b⟩] hc (ix2 e (1 : Fin 2)) = w32 (g e) := by
  constructor
  · refine (concatenate_pair_apply_left (1 : Fin 2) a b hc (ix2 e (0 : Fin 2)) rfl (ix2 e (0 : Fin 1)) (fun b' => ?_)).trans (ha e)
    match b' with
    | ⟨0, _⟩ => rfl
    | ⟨1, _⟩ => rfl
  · refine (concatenate_pair_apply_right (1 : Fin 2) a b hc (ix2 e (1 : Fin 2)) rfl rfl (ix2 e (0 : Fin 1)) (fun b' hne => ?_) rfl).trans (hb e)
    match b' with
    | ⟨0, _⟩ => rfl
    | ⟨1, _⟩ => exact absurd rfl hne

theorem R1.pairGatherH {N M E : ℕ} (hN : 0 < N) (hM : 0 < M)
    (wf : GatherDims.WF ⟨2, ![N, M]⟩ ⟨2, ![E, 2]⟩ ⟨1, ![E]⟩ [] [0, 1] [] [0, 1] [] 1 ![1, 1])
    {x : (⟨2, ![N, M]⟩ : Shape).Idx → EReal} {X : Fin N → Fin M → ℝ} (hx : R2 x X) {idx : IVec ⟨2, ![E, 2]⟩ 32} {f g : Fin E → ℕ}
    (h0 : ∀ e, idx (ix2 e (0 : Fin 2)) = w32 (f e)) (h1 : ∀ e, idx (ix2 e (1 : Fin 2)) = w32 (g e)) (hf : ∀ e, f e < N)
    (hg : ∀ e, g e < M) (hN31 : N ≤ 2 ^ 31) (hM31 : M ≤ 2 ^ 31) :
    R1 (Host.gather (pairGather N M E wf) x idx) (fun e => X ⟨f e, hf e⟩ ⟨g e, hg e⟩) := fun e => by
  rw [pairGather_apply hN hM]
  have hfe := hf e
  have hge := hg e
  have e0 : (⟨min (idx (ix2 e (0 : Fin 2))).toInt.toNat (N - 1), by omega⟩ : Fin N) = ⟨f e, hf e⟩ := Fin.ext (by
    show min (idx (ix2 e (0 : Fin 2))).toInt.toNat (N - 1) = f e
    rw [h0 e, toInt_w32 (by omega), Int.toNat_natCast]
    exact Nat.min_eq_left (by omega))
  have e1 : (⟨min (idx (ix2 e (1 : Fin 2))).toInt.toNat (M - 1), by omega⟩ : Fin M) = ⟨g e, hg e⟩ := Fin.ext (by
    show min (idx (ix2 e (1 : Fin 2))).toInt.toNat (M - 1) = g e
    rw [h1 e, toInt_w32 (by omega), Int.toNat_natCast]
    exact Nat.min_eq_left (by omega))
  exact (congrArg₂ (fun p q => x (ix2 p q)) e0 e1).trans (hx _ _)

/-! ## The distance matrix of batch element b -/

section Dist
variable (b : ℕ) (hsl : (⟨3, ![4, 512, 128]⟩ : Shape).Slices ![b, 0, 0] ⟨3, ![1, 512, 128]⟩)
  (hc : (⟨3, ![1, 512, 128]⟩ : Shape).ShapeCasts ⟨2, ![512, 128]⟩)
  (hb1 : (⟨2, ![512, 128]⟩ : Shape).BroadcastsInDim ⟨3, ![512, 1, 128]⟩ ![0, 2])
  (hb2 : (⟨2, ![512, 128]⟩ : Shape).BroadcastsInDim ⟨3, ![1, 512, 128]⟩ ![1, 2])
  (hb3 : (⟨3, ![512, 1, 128]⟩ : Shape).BroadcastsInDim ⟨3, ![512, 512, 128]⟩ ![0, 1, 2])
  (hb4 : (⟨3, ![1, 512, 128]⟩ : Shape).BroadcastsInDim ⟨3, ![512, 512, 128]⟩ ![0, 1, 2])
  (hred : (⟨3, ![512, 512, 128]⟩ : Shape).ReducesTo [2] ⟨2, ![512, 512]⟩) (hu : 0 < (⟨0, ![]⟩ : Shape).numel)
  (hs : (⟨0, ![]⟩ : Shape).BroadcastsInDim ⟨2, ![512, 512]⟩ ![])
  (x : FVec Ideal ⟨3, ![4, 512, 128]⟩ .f32)

/-- Batch element b's block of features. -/
def blockE : FVec Ideal ⟨2, ![512, 128]⟩ .f32 :=
  shapeCast ⟨2, ![512, 128]⟩ (extractStridedSlice ⟨3, ![1, 512, 128]⟩ ![b, 0, 0] x hsl) hc

/-- The differences of all pairs of rows, feature by feature. -/
def diffE : FVec Ideal ⟨3, ![512, 512, 128]⟩ .f32 :=
  subf (broadcastInDim ⟨3, ![512, 512, 128]⟩ ![0, 1, 2] hb3 (broadcastInDim ⟨3, ![512, 1, 128]⟩ ![0, 2] hb1 (blockE b hsl hc x)))
    (broadcastInDim ⟨3, ![512, 512, 128]⟩ ![0, 1, 2] hb4 (broadcastInDim ⟨3, ![1, 512, 128]⟩ ![1, 2] hb2 (blockE b hsl hc x)))

/-- The distance matrix. -/
def distE : FVec Ideal ⟨2, ![512, 512]⟩ .f32 :=
  Host.sqrt (maximumf
    (Host.reduceAdd (mulf (diffE b hsl hc hb1 hb2 hb3 hb4 x) (diffE b hsl hc hb1 hb2 hb3 hb4 x))
      (constant (F := Ideal) ⟨0, ![]⟩ .f32 0x00000000#32) hred hu)
    (broadcastInDim ⟨2, ![512, 512]⟩ ![] hs (constant (F := Ideal) ⟨0, ![]⟩ .f32 0x2B8CBCCC#32)))

variable (P : Cert.Spec.Params) (hx : ∀ b' i k, x (ix3 b' i k) = ((P.X b' i k : ℝ) : EReal)) (hb : b < 4)
include hx

theorem blockE_apply (i : Fin 512) (k : Fin 128) : blockE b hsl hc x (ix2 i k) = ((P.X ⟨b, hb⟩ i k : ℝ) : EReal) := by
  unfold blockE
  rw [shapeCast_1ab_ab_apply]
  refine (extractStridedSlice_apply ![b, 0, 0] x hsl (ix3 (0 : Fin 1) i k) (ix3 (⟨b, hb⟩ : Fin 4) i k) (fun a => ?_)).trans (hx _ i k)
  match a with
  | ⟨0, _⟩ => rfl
  | ⟨1, _⟩ => exact (Nat.zero_add _).symm
  | ⟨2, _⟩ => exact (Nat.zero_add _).symm

theorem diffE_apply (i j : Fin 512) (k : Fin 128) :
    diffE b hsl hc hb1 hb2 hb3 hb4 x (ix3 i j k) = ((P.X ⟨b, hb⟩ i k - P.X ⟨b, hb⟩ j k : ℝ) : EReal) := by
  have e1 : broadcastInDim ⟨3, ![512, 512, 128]⟩ ![0, 1, 2] hb3 (broadcastInDim ⟨3, ![512, 1, 128]⟩ ![0, 2] hb1 (blockE b hsl hc x)) (ix3 i j k)
      = blockE b hsl hc x (ix2 i k) := by
    refine (broadcastInDim_apply ![0, 1, 2] hb3 _ (ix3 i j k) (ix3 i (0 : Fin 1) k) (fun a => ?_)).trans
      (broadcastInDim_apply ![0, 2] hb1 _ (ix3 i (0 : Fin 1) k) (ix2 i k) (fun a => ?_))
    · match a with
      | ⟨0, _⟩ => rfl
      | ⟨1, _⟩ => rfl
      | ⟨2, _⟩ => rfl
    · match a with
      | ⟨0, _⟩ => rfl
      | ⟨1, _⟩ => rfl
  have e2 : broadcastInDim ⟨3, ![512, 512, 128]⟩ ![0, 1, 2] hb4 (broadcastInDim ⟨3, ![1, 512, 128]⟩ ![1, 2] hb2 (blockE b hsl hc x)) (ix3 i j k)
      = blockE b hsl hc x (ix2 j k) := by
    refine (broadcastInDim_apply ![0, 1, 2] hb4 _ (ix3 i j k) (ix3 (0 : Fin 1) j k) (fun a => ?_)).trans
      (broadcastInDim_apply ![1, 2] hb2 _ (ix3 (0 : Fin 1) j k) (ix2 j k) (fun a => ?_))
    · match a with
      | ⟨0, _⟩ => rfl
      | ⟨1, _⟩ => rfl
      | ⟨2, _⟩ => rfl
    · match a with
      | ⟨0, _⟩ => rfl
      | ⟨1, _⟩ => rfl
  show _ - _ = _
  rw [e1, e2, blockE_apply b hsl hc x P hx hb, blockE_apply b hsl hc x P hx hb, EReal.coe_sub]

/-- The matrix holds the specification's distances of batch element b. -/
theorem distE_R2 : R2 (distE b hsl hc hb1 hb2 hb3 hb4 hred hu hs x) (fun i j => Cert.Spec.dist P ⟨b, hb⟩ i j) := fun i j => by
  have hR : (⟨3, ![512, 512, 128]⟩ : Shape).Reduces [2] ⟨2, ![512, 512]⟩ := by decide
  show Ideal.sqrt (max (Ideal.hostReduceAdd hred (mulf (diffE b hsl hc hb1 hb2 hb3 hb4 x) (diffE b hsl hc hb1 hb2 hb3 hb4 x))
    (Ideal.ofBits .f32 0x00000000#32) (ix2 i j)) (Ideal.ofBits .f32 0x2B8CBCCC#32)) = _
  rw [Ideal.hostReduceAdd_single hred hR, Ideal.ofBits_zero_f32, zero_add, ofBits_eps]
  have hsum : (∑ k : Fin 128, mulf (diffE b hsl hc hb1 hb2 hb3 hb4 x) (diffE b hsl hc hb1 hb2 hb3 hb4 x) (hR.lift (ix2 i j) k))
      = ((Cert.Spec.d2 P ⟨b, hb⟩ i j : ℝ) : EReal) := by
    unfold Cert.Spec.d2
    rw [coe_sum]
    refine Finset.sum_congr rfl fun k _ => ?_
    have hl : hR.lift (ix2 i j) k = ix3 i j k := funext fun a => Fin.ext (by
      match a with
      | ⟨0, _⟩ => rfl
      | ⟨1, _⟩ => rfl
      | ⟨2, _⟩ => rfl)
    rw [hl]
    show diffE b hsl hc hb1 hb2 hb3 hb4 x (ix3 i j k) * diffE b hsl hc hb1 hb2 hb3 hb4 x (ix3 i j k) = _
    rw [diffE_apply b hsl hc hb1 hb2 hb3 hb4 x P hx hb, ← EReal.coe_mul, sq]
  refine Eq.trans (congrArg (fun z => Ideal.sqrt (max z ((epsR : ℝ) : EReal))) hsum) ?_
  show Ideal.sqrt (max ((Cert.Spec.d2 P ⟨b, hb⟩ i j : ℝ) : EReal) ((epsR : ℝ) : EReal)) = _
  rw [coe_max', Ideal.sqrt_coe, if_neg (not_lt.mpr (le_max_of_le_right epsR_pos.le))]
  rfl

end Dist

end Cert.Proof.RefGraphPure

end
-- ==== Proof.RefGraphBatch.lean ====
/- The reference's per-batch graph arrays.

   For each of the four batch elements the reference offsets the pair table's node numbers by 512 b, computes the
   512 × 512 matrix of distances of the batch element's nodes and gathers its entries at the pairs. Read at the end of the
   program, these arrays hold the words of 512 b + rows e and 512 b + cols e and the distance of nodes rows e and cols e of
   batch element b. The four statements differ only in the batch element and in the buffers' names. -/
import proofs.«120006_g55027120997065_cont_sun_c4_852_12_alg».proof.Proof.RefEq0c
import proofs.«120006_g55027120997065_cont_sun_c4_852_12_alg».proof.Proof.RefEq1
import proofs.«120006_g55027120997065_cont_sun_c4_852_12_alg».proof.Proof.RefEq2
import proofs.«120006_g55027120997065_cont_sun_c4_852_12_alg».proof.Proof.RefEq3
import proofs.«120006_g55027120997065_cont_sun_c4_852_12_alg».proof.Proof.RefTail
import proofs.«120006_g55027120997065_cont_sun_c4_852_12_alg».proof.Proof.EdgeSpec
import proofs.«120006_g55027120997065_cont_sun_c4_852_12_alg».proof.Proof.RefGraphPure

noncomputable section

namespace Cert.ReferenceIdeal.GraphBatch

open Cert.ReferenceIdeal Cert.ReferenceIdeal.Gen Cert.ReferenceIdeal.Line Cert.ReferenceIdeal.Tail Idealize.ShloMosaic
  Idealize.ShloMosaic.ValueIdx Idealize.ShloMosaic.StableHlo Idealize.ShloMosaic.Words Cert.Proof.KernelOps Cert.Proof.RefPure
  Cert.Proof.RefGraphPure

variable (V : Valuation τ sig (Elt Ideal))

-- The final contents of buffer b.
set_option quotPrecheck false in
local notation "A[" b "]" => after ops V (Proc.devRef .tc b)

attribute [local irreducible] Idealize.ShloMosaic.StableHlo.after

/-- The distance at natural-number arguments in range is the specification's distance. -/
theorem distN_eq (P : Cert.Spec.Params) {b i j : ℕ} (hb : b < 4) (hi : i < 512) (hj : j < 512) :
    Cert.EdgeSpec.distN P b i j = Cert.Spec.dist P ⟨b, hb⟩ ⟨i, hi⟩ ⟨j, hj⟩ := by
  unfold Cert.EdgeSpec.distN
  exact dif_pos ⟨hb, hi, hj⟩

/-- Batch element 0: the pairs' node numbers offset by 0, and the distances gathered at the pairs. -/
theorem batch0 (T : Cert.EdgeSpec.PairTable) (hreal : (wargs V).Real)
    (hrows : ∀ e : Fin 130816, (after ops V (Proc.devRef .tc main_v17) : IVec S130816 32) (ix1 e) = w32 (T.rows e))
    (hcols : ∀ e : Fin 130816, (after ops V (Proc.devRef .tc main_v19) : IVec S130816 32) (ix1 e) = w32 (T.cols e)) :
    (∀ e : Fin 130816, (after ops V (Proc.devRef .tc main_v33) : IVec S130816 32) (ix1 e) = w32 (0 * 512 + T.rows e))
    ∧ (∀ e : Fin 130816, (after ops V (Proc.devRef .tc main_v35) : IVec S130816 32) (ix1 e) = w32 (0 * 512 + T.cols e))
    ∧ (∀ e : Fin 130816, (after ops V (Proc.devRef .tc main_v49) : FVec Ideal S130816 .f32) (ix1 e)
        = ((Cert.EdgeSpec.distN (wargs V).params 0 (T.rows e) (T.cols e) : ℝ) : EReal)) := by
  have hr : I1 (n := 130816) A[main_v17] T.rows := hrows
  have hcl : I1 (n := 130816) A[main_v19] T.cols := hcols
  have hrlt : ∀ e, T.rows e < 512 := fun e => lt_trans (T.lt e) (T.lt512 e)
  have hr31 : ∀ e, T.rows e < 2 ^ 31 := fun e => lt_trans (hrlt e) (by norm_num)
  have hc31 : ∀ e, T.cols e < 2 ^ 31 := fun e => lt_trans (T.lt512 e) (by norm_num)
  have hx : ∀ b' i k, A[main_arg0] (ix3 b' i k) = (((wargs V).params.X b' i k : ℝ) : EReal) := fun b' i k => hreal.h0 (ix3 b' i k)
  have hsrc : I1 (n := 130816) A[main_v33] (fun e => 0 * 512 + T.rows e) := by
    rw [eq_main_v33 V, eq_main_v32 V, eq_main_c_11 V]
    exact I1.addc hr _ _ 0 0 rfl
  have htgt : I1 (n := 130816) A[main_v35] (fun e => 0 * 512 + T.cols e) := by
    rw [eq_main_v35 V, eq_main_v34 V, eq_main_c_12 V]
    exact I1.addc hcl _ _ 0 0 rfl
  have hri : I2 (n := 130816) A[main_v46] T.rows := by
    rw [eq_main_v46 V, eq_main_v40 V, eq_main_v37 V, eq_main_v39 V, eq_main_v36 V, eq_main_v38 V, eq_main_c_13 V, eq_main_c_14 V]
    exact I2.ofI1 (I1.wrap hr hr31 _ _ _ _ _) _
  have hci : I2 (n := 130816) A[main_v47] T.cols := by
    rw [eq_main_v47 V, eq_main_v45 V, eq_main_v42 V, eq_main_v44 V, eq_main_v41 V, eq_main_v43 V, eq_main_c_15 V, eq_main_c_16 V]
    exact I2.ofI1 (I1.wrap hcl hc31 _ _ _ _ _) _
  have hD : R2 (n := 512) (m := 512) A[main_v31] (fun i j => Cert.Spec.dist (wargs V).params ⟨0, by norm_num⟩ i j) := by
    rw [eq_main_v31 V, eq_main_v30 V, eq_main_v28 V, eq_main_v29 V, eq_main_cst_10 V, eq_main_cst_9 V, eq_main_v27 V, eq_main_v26 V,
      eq_main_v24 V, eq_main_v25 V, eq_main_v22 V, eq_main_v23 V, eq_main_v21 V, eq_main_v20 V]
    exact distE_R2 0 slices_S4x512x128_S1x512x128_0_0_0 shapeCasts_S1x512x128_S512x128 bcast_S512x128_S512x1x128_0_2
      bcast_S512x128_S1x512x128_1_2 bcast_S512x1x128_S512x512x128_0_1_2 bcast_S1x512x128_S512x512x128_0_1_2
      reducesTo_S512x512x128_S512x512_d2 h_S_ bcast_S_S512x512 A[main_arg0] (wargs V).params hx (by norm_num)
  have hw : R1 (n := 130816) A[main_v49]
      (fun e => Cert.Spec.dist (wargs V).params ⟨0, by norm_num⟩ ⟨T.rows e, hrlt e⟩ ⟨T.cols e, T.lt512 e⟩) := by
    rw [eq_main_v49 V, eq_main_v48 V]
    exact R1.pairGatherH (by norm_num) (by norm_num) gather_S512x512_S130816x2_S130816_n_01_n_n_01_1_11_wf hD
      (fun e => (pairIdx hri hci concatenates_S130816x1_S130816x1_S130816x2_d1 e).1)
      (fun e => (pairIdx hri hci concatenates_S130816x1_S130816x1_S130816x2_d1 e).2) hrlt T.lt512 (by norm_num) (by norm_num)
  exact ⟨hsrc, htgt, fun e => (hw e).trans (by rw [distN_eq (wargs V).params (by norm_num) (hrlt e) (T.lt512 e)])⟩

/-- Batch element 1: the pairs' node numbers offset by 512, and the distances gathered at the pairs. -/
theorem batch1 (T : Cert.EdgeSpec.PairTable) (hreal : (wargs V).Real)
    (hrows : ∀ e : Fin 130816, (after ops V (Proc.devRef .tc main_v17) : IVec S130816 32) (ix1 e) = w32 (T.rows e))
    (hcols : ∀ e : Fin 130816, (after ops V (Proc.devRef .tc main_v19) : IVec S130816 32) (ix1 e) = w32 (T.cols e)) :
    (∀ e : Fin 130816, (after ops V (Proc.devRef .tc main_v63) : IVec S130816 32) (ix1 e) = w32 (1 * 512 + T.rows e))
    ∧ (∀ e : Fin 130816, (after ops V (Proc.devRef .tc main_v65) : IVec S130816 32) (ix1 e) = w32 (1 * 512 + T.cols e))
    ∧ (∀ e : Fin 130816, (after ops V (Proc.devRef .tc main_v79) : FVec Ideal S130816 .f32) (ix1 e)
        = ((Cert.EdgeSpec.distN (wargs V).params 1 (T.rows e) (T.cols e) : ℝ) : EReal)) := by
  have hr : I1 (n := 130816) A[main_v17] T.rows := hrows
  have hcl : I1 (n := 130816) A[main_v19] T.cols := hcols
  have hrlt : ∀ e, T.rows e < 512 := fun e => lt_trans (T.lt e) (T.lt512 e)
  have hr31 : ∀ e, T.rows e < 2 ^ 31 := fun e => lt_trans (hrlt e) (by norm_num)
  have hc31 : ∀ e, T.cols e < 2 ^ 31 := fun e => lt_trans (T.lt512 e) (by norm_num)
  have hx : ∀ b' i k, A[main_arg0] (ix3 b' i k) = (((wargs V).params.X b' i k : ℝ) : EReal) := fun b' i k => hreal.h0 (ix3 b' i k)
  have hsrc : I1 (n := 130816) A[main_v63] (fun e => 1 * 512 + T.rows e) := by
    rw [eq_main_v63 V, eq_main_v62 V, eq_main_c_19 V]
    exact I1.addc hr _ _ 512 1 rfl
  have htgt : I1 (n := 130816) A[main_v65] (fun e => 1 * 512 + T.cols e) := by
    rw [eq_main_v65 V, eq_main_v64 V, eq_main_c_20 V]
    exact I1.addc hcl _ _ 512 1 rfl
  have hri : I2 (n := 130816) A[main_v76] T.rows := by
    rw [eq_main_v76 V, eq_main_v70 V, eq_main_v67 V, eq_main_v69 V, eq_main_v66 V, eq_main_v68 V, eq_main_c_21 V, eq_main_c_22 V]
    exact I2.ofI1 (I1.wrap hr hr31 _ _ _ _ _) _
  have hci : I2 (n := 130816) A[main_v77] T.cols := by
    rw [eq_main_v77 V, eq_main_v75 V, eq_main_v72 V, eq_main_v74 V, eq_main_v71 V, eq_main_v73 V, eq_main_c_23 V, eq_main_c_24 V]
    exact I2.ofI1 (I1.wrap hcl hc31 _ _ _ _ _) _
  have hD : R2 (n := 512) (m := 512) A[main_v61] (fun i j => Cert.Spec.dist (wargs V).params ⟨1, by norm_num⟩ i j) := by
    rw [eq_main_v61 V, eq_main_v60 V, eq_main_v58 V, eq_main_v59 V, eq_main_cst_18 V, eq_main_cst_17 V, eq_main_v57 V, eq_main_v56 V,
      eq_main_v54 V, eq_main_v55 V, eq_main_v52 V, eq_main_v53 V, eq_main_v51 V, eq_main_v50 V]
    exact distE_R2 1 slices_S4x512x128_S1x512x128_1_0_0 shapeCasts_S1x512x128_S512x128 bcast_S512x128_S512x1x128_0_2
      bcast_S512x128_S1x512x128_1_2 bcast_S512x1x128_S512x512x128_0_1_2 bcast_S1x512x128_S512x512x128_0_1_2
      reducesTo_S512x512x128_S512x512_d2 h_S_ bcast_S_S512x512 A[main_arg0] (wargs V).params hx (by norm_num)
  have hw : R1 (n := 130816) A[main_v79]
      (fun e => Cert.Spec.dist (wargs V).params ⟨1, by norm_num⟩ ⟨T.rows e, hrlt e⟩ ⟨T.cols e, T.lt512 e⟩) := by
    rw [eq_main_v79 V, eq_main_v78 V]
    exact R1.pairGatherH (by norm_num) (by norm_num) gather_S512x512_S130816x2_S130816_n_01_n_n_01_1_11_wf hD
      (fun e => (pairIdx hri hci concatenates_S130816x1_S130816x1_S130816x2_d1 e).1)
      (fun e => (pairIdx hri hci concatenates_S130816x1_S130816x1_S130816x2_d1 e).2) hrlt T.lt512 (by norm_num) (by norm_num)
  exact ⟨hsrc, htgt, fun e => (hw e).trans (by rw [distN_eq (wargs V).params (by norm_num) (hrlt e) (T.lt512 e)])⟩

/-- Batch element 2: the pairs' node numbers offset by 1024, and the distances gathered at the pairs. -/
theorem batch2 (T : Cert.EdgeSpec.PairTable) (hreal : (wargs V).Real)
    (hrows : ∀ e : Fin 130816, (after ops V (Proc.devRef .tc main_v17) : IVec S130816 32) (ix1 e) = w32 (T.rows e))
    (hcols : ∀ e : Fin 130816, (after ops V (Proc.devRef .tc main_v19) : IVec S130816 32) (ix1 e) = w32 (T.cols e)) :
    (∀ e : Fin 130816, (after ops V (Proc.devRef .tc main_v93) : IVec S130816 32) (ix1 e) = w32 (2 * 512 + T.rows e))
    ∧ (∀ e : Fin 130816, (after ops V (Proc.devRef .tc main_v95) : IVec S130816 32) (ix1 e) = w32 (2 * 512 + T.cols e))
    ∧ (∀ e : Fin 130816, (after ops V (Proc.devRef .tc main_v109) : FVec Ideal S130816 .f32) (ix1 e)
        = ((Cert.EdgeSpec.distN (wargs V).params 2 (T.rows e) (T.cols e) : ℝ) : EReal)) := by
  have hr : I1 (n := 130816) A[main_v17] T.rows := hrows
  have hcl : I1 (n := 130816) A[main_v19] T.cols := hcols
  have hrlt : ∀ e, T.rows e < 512 := fun e => lt_trans (T.lt e) (T.lt512 e)
  have hr31 : ∀ e, T.rows e < 2 ^ 31 := fun e => lt_trans (hrlt e) (by norm_num)
  have hc31 : ∀ e, T.cols e < 2 ^ 31 := fun e => lt_trans (T.lt512 e) (by norm_num)
  have hx : ∀ b' i k, A[main_arg0] (ix3 b' i k) = (((wargs V).params.X b' i k : ℝ) : EReal) := fun b' i k => hreal.h0 (ix3 b' i k)
  have hsrc : I1 (n := 130816) A[main_v93] (fun e => 2 * 512 + T.rows e) := by
    rw [eq_main_v93 V, eq_main_v92 V, eq_main_c_27 V]
    exact I1.addc hr _ _ 1024 2 rfl
  have htgt : I1 (n := 130816) A[main_v95] (fun e => 2 * 512 + T.cols e) := by
    rw [eq_main_v95 V, eq_main_v94 V, eq_main_c_28 V]
    exact I1.addc hcl _ _ 1024 2 rfl
  have hri : I2 (n := 130816) A[main_v106] T.rows := by
    rw [eq_main_v106 V, eq_main_v100 V, eq_main_v97 V, eq_main_v99 V, eq_main_v96 V, eq_main_v98 V, eq_main_c_29 V, eq_main_c_30 V]
    exact I2.ofI1 (I1.wrap hr hr31 _ _ _ _ _) _
  have hci : I2 (n := 130816) A[main_v107] T.cols := by
    rw [eq_main_v107 V, eq_main_v105 V, eq_main_v102 V, eq_main_v104 V, eq_main_v101 V, eq_main_v103 V, eq_main_c_31 V, eq_main_c_32 V]
    exact I2.ofI1 (I1.wrap hcl hc31 _ _ _ _ _) _
  have hD : R2 (n := 512) (m := 512) A[main_v91] (fun i j => Cert.Spec.dist (wargs V).params ⟨2, by norm_num⟩ i j) := by
    rw [eq_main_v91 V, eq_main_v90 V, eq_main_v88 V, eq_main_v89 V, eq_main_cst_26 V, eq_main_cst_25 V, eq_main_v87 V, eq_main_v86 V,
      eq_main_v84 V, eq_main_v85 V, eq_main_v82 V, eq_main_v83 V, eq_main_v81 V, eq_main_v80 V]
    exact distE_R2 2 slices_S4x512x128_S1x512x128_2_0_0 shapeCasts_S1x512x128_S512x128 bcast_S512x128_S512x1x128_0_2
      bcast_S512x128_S1x512x128_1_2 bcast_S512x1x128_S512x512x128_0_1_2 bcast_S1x512x128_S512x512x128_0_1_2
      reducesTo_S512x512x128_S512x512_d2 h_S_ bcast_S_S512x512 A[main_arg0] (wargs V).params hx (by norm_num)
  have hw : R1 (n := 130816) A[main_v109]
      (fun e => Cert.Spec.dist (wargs V).params ⟨2, by norm_num⟩ ⟨T.rows e, hrlt e⟩ ⟨T.cols e, T.lt512 e⟩) := by
    rw [eq_main_v109 V, eq_main_v108 V]
    exact R1.pairGatherH (by norm_num) (by norm_num) gather_S512x512_S130816x2_S130816_n_01_n_n_01_1_11_wf hD
      (fun e => (pairIdx hri hci concatenates_S130816x1_S130816x1_S130816x2_d1 e).1)
      (fun e => (pairIdx hri hci concatenates_S130816x1_S130816x1_S130816x2_d1 e).2) hrlt T.lt512 (by norm_num) (by norm_num)
  exact ⟨hsrc, htgt, fun e => (hw e).trans (by rw [distN_eq (wargs V).params (by norm_num) (hrlt e) (T.lt512 e)])⟩

/-- Batch element 3: the pairs' node numbers offset by 1536, and the distances gathered at the pairs. -/
theorem batch3 (T : Cert.EdgeSpec.PairTable) (hreal : (wargs V).Real)
    (hrows : ∀ e : Fin 130816, (after ops V (Proc.devRef .tc main_v17) : IVec S130816 32) (ix1 e) = w32 (T.rows e))
    (hcols : ∀ e : Fin 130816, (after ops V (Proc.devRef .tc main_v19) : IVec S130816 32) (ix1 e) = w32 (T.cols e)) :
    (∀ e : Fin 130816, (after ops V (Proc.devRef .tc main_v123) : IVec S130816 32) (ix1 e) = w32 (3 * 512 + T.rows e))
    ∧ (∀ e : Fin 130816, (after ops V (Proc.devRef .tc main_v125) : IVec S130816 32) (ix1 e) = w32 (3 * 512 + T.cols e))
    ∧ (∀ e : Fin 130816, (after ops V (Proc.devRef .tc main_v139) : FVec Ideal S130816 .f32) (ix1 e)
        = ((Cert.EdgeSpec.distN (wargs V).params 3 (T.rows e) (T.cols e) : ℝ) : EReal)) := by
  have hr : I1 (n := 130816) A[main_v17] T.rows := hrows
  have hcl : I1 (n := 130816) A[main_v19] T.cols := hcols
  have hrlt : ∀ e, T.rows e < 512 := fun e => lt_trans (T.lt e) (T.lt512 e)
  have hr31 : ∀ e, T.rows e < 2 ^ 31 := fun e => lt_trans (hrlt e) (by norm_num)
  have hc31 : ∀ e, T.cols e < 2 ^ 31 := fun e => lt_trans (T.lt512 e) (by norm_num)
  have hx : ∀ b' i k, A[main_arg0] (ix3 b' i k) = (((wargs V).params.X b' i k : ℝ) : EReal) := fun b' i k => hreal.h0 (ix3 b' i k)
  have hsrc : I1 (n := 130816) A[main_v123] (fun e => 3 * 512 + T.rows e) := by
    rw [eq_main_v123 V, eq_main_v122 V, eq_main_c_35 V]
    exact I1.addc hr _ _ 1536 3 rfl
  have htgt : I1 (n := 130816) A[main_v125] (fun e => 3 * 512 + T.cols e) := by
    rw [eq_main_v125 V, eq_main_v124 V, eq_main_c_36 V]
    exact I1.addc hcl _ _ 1536 3 rfl
  have hri : I2 (n := 130816) A[main_v136] T.rows := by
    rw [eq_main_v136 V, eq_main_v130 V, eq_main_v127 V, eq_main_v129 V, eq_main_v126 V, eq_main_v128 V, eq_main_c_37 V, eq_main_c_38 V]
    exact I2.ofI1 (I1.wrap hr hr31 _ _ _ _ _) _
  have hci : I2 (n := 130816) A[main_v137] T.cols := by
    rw [eq_main_v137 V, eq_main_v135 V, eq_main_v132 V, eq_main_v134 V, eq_main_v131 V, eq_main_v133 V, eq_main_c_39 V, eq_main_c_40 V]
    exact I2.ofI1 (I1.wrap hcl hc31 _ _ _ _ _) _
  have hD : R2 (n := 512) (m := 512) A[main_v121] (fun i j => Cert.Spec.dist (wargs V).params ⟨3, by norm_num⟩ i j) := by
    rw [eq_main_v121 V, eq_main_v120 V, eq_main_v118 V, eq_main_v119 V, eq_main_cst_34 V, eq_main_cst_33 V, eq_main_v117 V, eq_main_v116 V,
      eq_main_v114 V, eq_main_v115 V, eq_main_v112 V, eq_main_v113 V, eq_main_v111 V, eq_main_v110 V]
    exact distE_R2 3 slices_S4x512x128_S1x512x128_3_0_0 shapeCasts_S1x512x128_S512x128 bcast_S512x128_S512x1x128_0_2
      bcast_S512x128_S1x512x128_1_2 bcast_S512x1x128_S512x512x128_0_1_2 bcast_S1x512x128_S512x512x128_0_1_2
      reducesTo_S512x512x128_S512x512_d2 h_S_ bcast_S_S512x512 A[main_arg0] (wargs V).params hx (by norm_num)
  have hw : R1 (n := 130816) A[main_v139]
      (fun e => Cert.Spec.dist (wargs V).params ⟨3, by norm_num⟩ ⟨T.rows e, hrlt e⟩ ⟨T.cols e, T.lt512 e⟩) := by
    rw [eq_main_v139 V, eq_main_v138 V]
    exact R1.pairGatherH (by norm_num) (by norm_num) gather_S512x512_S130816x2_S130816_n_01_n_n_01_1_11_wf hD
      (fun e => (pairIdx hri hci concatenates_S130816x1_S130816x1_S130816x2_d1 e).1)
      (fun e => (pairIdx hri hci concatenates_S130816x1_S130816x1_S130816x2_d1 e).2) hrlt T.lt512 (by norm_num) (by norm_num)
  exact ⟨hsrc, htgt, fun e => (hw e).trans (by rw [distN_eq (wargs V).params (by norm_num) (hrlt e) (T.lt512 e)])⟩
end Cert.ReferenceIdeal.GraphBatch

end
-- ==== Proof.RefConcat.lean ====
/- The reference's graph arrays: the four batch elements' edges side by side, then the loops.

   Each of the three graph arrays (sources, targets, weights) is a concatenation of four pieces of 130816 entries — one per
   batch element — followed by 2048 entries for the loops. Entry n < 523264 is entry n % 130816 of piece n / 130816; entry
   n ≥ 523264 is entry n - 523264 of the loops' piece. With the pieces as computed per batch element (node numbers offset by
   512 per batch element, the pair's distance as weight) and the loops (node numbers 0 … 2047, weight one), these are the
   sources, targets and weights of the graph the pure argument is about. -/
import proofs.«120006_g55027120997065_cont_sun_c4_852_12_alg».proof.Proof.RefGraphBatch
import proofs.«120006_g55027120997065_cont_sun_c4_852_12_alg».proof.Proof.RefEq2
import proofs.«120006_g55027120997065_cont_sun_c4_852_12_alg».proof.Proof.Consts

set_option maxRecDepth 65536

noncomputable section

namespace Cert.ReferenceIdeal.Graph

open Cert.ReferenceIdeal Cert.ReferenceIdeal.Gen Cert.ReferenceIdeal.Line Cert.ReferenceIdeal.Tail Idealize.ShloMosaic
  Idealize.ShloMosaic.ValueIdx Idealize.ShloMosaic.StableHlo Idealize.ShloMosaic.Words

/-- Four pieces of 130816 entries and a fifth of 2048, concatenated, read at entry n. -/
theorem concat_graph_apply {α : Type} (x0 x1 x2 x3 : S130816.Idx → α) (y : S2048.Idx → α)
    (h4 : Shape.Concatenates [S130816, S130816, S130816, S130816] S523264 0)
    (h2 : Shape.Concatenates [S523264, S2048] S525312 0) (n : Fin 525312) :
    concatenate S525312 0 [⟨S523264, concatenate S523264 0 [⟨S130816, x0⟩, ⟨S130816, x1⟩, ⟨S130816, x2⟩, ⟨S130816, x3⟩] h4⟩,
        ⟨S2048, y⟩] h2 (ix1 n)
      = if h : n.val < 523264 then
          (if n.val / 130816 = 0 then x0 else if n.val / 130816 = 1 then x1 else if n.val / 130816 = 2 then x2 else x3)
            (ix1 ⟨n.val % 130816, Nat.mod_lt _ (by norm_num)⟩)
        else y (ix1 ⟨n.val - 523264, by have := n.isLt; omega⟩) := by
  by_cases h : n.val < 523264
  · rw [dif_pos h]
    rw [concatenate_pair_apply_left (s₁ := S523264) (s₂ := S2048) (t := S525312) (0 : Fin 1) _ y h2 (ix1 n) rfl
      (ix1 (⟨n.val, h⟩ : Fin 523264)) (by intro b; match b with | ⟨0, _⟩ => rfl)]
    have hmod : n.val % 130816 < 130816 := Nat.mod_lt _ (by norm_num)
    have hnone : ∀ b : Fin S130816.rank, b.cast (rfl : S130816.rank = S523264.rank) ≠ (0 : Fin 1) →
        ((ix1 (⟨n.val % 130816, hmod⟩ : Fin 130816) : S130816.Idx) b).val
          = ((ix1 (⟨n.val, h⟩ : Fin 523264) : S523264.Idx) (b.cast rfl)).val :=
      fun b hb => absurd (Subsingleton.elim _ _) hb
    rcases (by omega : n.val / 130816 = 0 ∨ n.val / 130816 = 1 ∨ n.val / 130816 = 2 ∨ n.val / 130816 = 3) with h0 | h0 | h0 | h0
    · rw [if_pos h0]
      exact concatenate_apply_piece (t := S523264) (0 : Fin 1) [⟨S130816, x0⟩, ⟨S130816, x1⟩, ⟨S130816, x2⟩, ⟨S130816, x3⟩] h4 (ix1 (⟨n.val, h⟩ : Fin 523264)) 0
        (by show (0 : ℕ) < 4; decide) S130816 x0 rfl rfl
        0 (by simp) (ix1 ⟨n.val % 130816, hmod⟩) hnone (by show 0 + n.val % 130816 = n.val; omega)
    · rw [if_neg (by omega), if_pos h0]
      exact concatenate_apply_piece (t := S523264) (0 : Fin 1) [⟨S130816, x0⟩, ⟨S130816, x1⟩, ⟨S130816, x2⟩, ⟨S130816, x3⟩] h4 (ix1 (⟨n.val, h⟩ : Fin 523264)) 1
        (by show (1 : ℕ) < 4; decide) S130816 x1 rfl rfl
        130816 (by simp) (ix1 ⟨n.val % 130816, hmod⟩) hnone (by show 130816 + n.val % 130816 = n.val; omega)
    · rw [if_neg (by omega), if_neg (by omega), if_pos h0]
      exact concatenate_apply_piece (t := S523264) (0 : Fin 1) [⟨S130816, x0⟩, ⟨S130816, x1⟩, ⟨S130816, x2⟩, ⟨S130816, x3⟩] h4 (ix1 (⟨n.val, h⟩ : Fin 523264)) 2
        (by show (2 : ℕ) < 4; decide) S130816 x2 rfl rfl
        261632 (by simp) (ix1 ⟨n.val % 130816, hmod⟩) hnone (by show 261632 + n.val % 130816 = n.val; omega)
    · rw [if_neg (by omega), if_neg (by omega), if_neg (by omega)]
      exact concatenate_apply_piece (t := S523264) (0 : Fin 1) [⟨S130816, x0⟩, ⟨S130816, x1⟩, ⟨S130816, x2⟩, ⟨S130816, x3⟩] h4 (ix1 (⟨n.val, h⟩ : Fin 523264)) 3
        (by show (3 : ℕ) < 4; decide) S130816 x3 rfl rfl
        392448 (by simp) (ix1 ⟨n.val % 130816, hmod⟩) hnone (by show 392448 + n.val % 130816 = n.val; omega)
  · rw [dif_neg h]
    have hn := n.isLt
    exact concatenate_pair_apply_right (s₁ := S523264) (s₂ := S2048) (t := S525312) (0 : Fin 1) _ y h2 (ix1 n) rfl rfl
      (ix1 ⟨n.val - 523264, by omega⟩) (by intro b hb; exact absurd (Subsingleton.elim _ _) hb)
      (by show n.val - 523264 + 523264 = n.val; omega)

-- the final memory is never evaluated, only rewritten by the operations' equations
attribute [local irreducible] Idealize.ShloMosaic.StableHlo.after

variable (V : Valuation τ sig (Elt Ideal))

theorem rowsN_mod (T : Cert.EdgeSpec.PairTable) (n : ℕ) :
    Cert.EdgeSpec.rowsN T (n % 130816) = T.rows ⟨n % 130816, Nat.mod_lt _ (by norm_num)⟩ := by
  unfold Cert.EdgeSpec.rowsN; rw [dif_pos (Nat.mod_lt _ (by norm_num))]
theorem colsN_mod (T : Cert.EdgeSpec.PairTable) (n : ℕ) :
    Cert.EdgeSpec.colsN T (n % 130816) = T.cols ⟨n % 130816, Nat.mod_lt _ (by norm_num)⟩ := by
  unfold Cert.EdgeSpec.colsN; rw [dif_pos (Nat.mod_lt _ (by norm_num))]

/-- **The three graph arrays**, from the edge table (main_v17 the rows, main_v19 the columns of the pairs). -/
theorem graph_arrays (T : Cert.EdgeSpec.PairTable) (hreal : (wargs V).Real)
    (hrows : ∀ e : Fin 130816, (after ops V (Proc.devRef .tc main_v17) : IVec S130816 32) (ix1 e) = w32 (T.rows e))
    (hcols : ∀ e : Fin 130816, (after ops V (Proc.devRef .tc main_v19) : IVec S130816 32) (ix1 e) = w32 (T.cols e)) :
    (∀ e : Fin 525312, (after ops V (Proc.devRef .tc main_v148) : IVec S525312 32) (ix1 e)
        = w32 ((Cert.EdgeSpec.graph T (wargs V).params).R e))
    ∧ (∀ e : Fin 525312, (after ops V (Proc.devRef .tc main_v149) : IVec S525312 32) (ix1 e)
        = w32 ((Cert.EdgeSpec.graph T (wargs V).params).Cc e))
    ∧ (∀ e : Fin 525312, (after ops V (Proc.devRef .tc main_v151) : FVec Ideal S525312 .f32) (ix1 e)
        = (((Cert.EdgeSpec.graph T (wargs V).params).ew e : ℝ) : EReal)) := by
  obtain ⟨s0, t0, w0⟩ := Cert.ReferenceIdeal.GraphBatch.batch0 V T hreal hrows hcols
  obtain ⟨s1, t1, w1⟩ := Cert.ReferenceIdeal.GraphBatch.batch1 V T hreal hrows hcols
  obtain ⟨s2, t2, w2⟩ := Cert.ReferenceIdeal.GraphBatch.batch2 V T hreal hrows hcols
  obtain ⟨s3, t3, w3⟩ := Cert.ReferenceIdeal.GraphBatch.batch3 V T hreal hrows hcols
  refine ⟨fun e => ?_, fun e => ?_, fun e => ?_⟩
  · rw [eq_main_v148 V]
    dsimp only
    rw [eq_main_v140 V, concat_graph_apply]
    show _ = w32 (Cert.EdgeSpec.srcN T e.val)
    unfold Cert.EdgeSpec.srcN
    by_cases h : e.val < 523264
    · rw [dif_pos h, if_pos h, rowsN_mod]
      rcases (by omega : e.val / 130816 = 0 ∨ e.val / 130816 = 1 ∨ e.val / 130816 = 2 ∨ e.val / 130816 = 3) with h0 | h0 | h0 | h0
      · rw [if_pos h0, s0, h0]
      · rw [if_neg (by omega), if_pos h0, s1, h0]
      · rw [if_neg (by omega), if_neg (by omega), if_pos h0, s2, h0]
      · rw [if_neg (by omega), if_neg (by omega), if_neg (by omega), s3, h0]
    · rw [dif_neg h, if_neg h, eq_main_v147 V]
      rfl
  · rw [eq_main_v149 V]
    dsimp only
    rw [eq_main_v141 V, concat_graph_apply]
    show _ = w32 (Cert.EdgeSpec.tgtN T e.val)
    unfold Cert.EdgeSpec.tgtN
    by_cases h : e.val < 523264
    · rw [dif_pos h, if_pos h, colsN_mod]
      rcases (by omega : e.val / 130816 = 0 ∨ e.val / 130816 = 1 ∨ e.val / 130816 = 2 ∨ e.val / 130816 = 3) with h0 | h0 | h0 | h0
      · rw [if_pos h0, t0, h0]
      · rw [if_neg (by omega), if_pos h0, t1, h0]
      · rw [if_neg (by omega), if_neg (by omega), if_pos h0, t2, h0]
      · rw [if_neg (by omega), if_neg (by omega), if_neg (by omega), t3, h0]
    · rw [dif_neg h, if_neg h, eq_main_v147 V]
      rfl
  · rw [eq_main_v151 V]
    dsimp only
    rw [eq_main_v142 V, concat_graph_apply]
    show _ = ((Cert.EdgeSpec.wgtN T (wargs V).params e.val : ℝ) : EReal)
    unfold Cert.EdgeSpec.wgtN
    by_cases h : e.val < 523264
    · rw [dif_pos h, if_pos h, rowsN_mod, colsN_mod]
      rcases (by omega : e.val / 130816 = 0 ∨ e.val / 130816 = 1 ∨ e.val / 130816 = 2 ∨ e.val / 130816 = 3) with h0 | h0 | h0 | h0
      · rw [if_pos h0, w0, h0]
      · rw [if_neg (by omega), if_pos h0, w1, h0]
      · rw [if_neg (by omega), if_neg (by omega), if_pos h0, w2, h0]
      · rw [if_neg (by omega), if_neg (by omega), if_neg (by omega), w3, h0]
    · rw [dif_neg h, if_neg h, eq_main_v150 V, eq_main_cst_41 V]
      show Ideal.ofBits .f32 0x3F800000#32 = _
      rw [Cert.Consts.ofBits_one]

end Cert.ReferenceIdeal.Graph

end
-- ==== Proof.Bridge.lean ====
/- The value claim: for finite inputs the idealized kernel and the idealized reference end with equal results.

   Finite inputs are real inputs. On real inputs the kernel ends at the specification's result array. The reference's argument
   arrays agree with the kernel's and are never written, so at the end of its run they are the same real arrays; its edge
   table is the table of the pairs i < j, its graph arrays are those of the graph with one edge per pair and batch element
   and a loop per node, from those it computes the edge model's result, and on that graph the edge model is the
   specification. So the reference ends at the same array. -/
import proofs.«120006_g55027120997065_cont_sun_c4_852_12_alg».proof.Defs
import proofs.«120006_g55027120997065_cont_sun_c4_852_12_alg».proof.Proof.Gen.Kernel
import proofs.«120006_g55027120997065_cont_sun_c4_852_12_alg».proof.Proof.Gen.KernelIdeal
import proofs.«120006_g55027120997065_cont_sun_c4_852_12_alg».proof.Proof.Gen.ReferenceIdeal
import proofs.«120006_g55027120997065_cont_sun_c4_852_12_alg».proof.Proof.Gen.Pre_finite_inputs
import proofs.«120006_g55027120997065_cont_sun_c4_852_12_alg».proof.Proof.KernelValue
import proofs.«120006_g55027120997065_cont_sun_c4_852_12_alg».proof.Proof.Finite
import proofs.«120006_g55027120997065_cont_sun_c4_852_12_alg».proof.Proof.RefRun
import proofs.«120006_g55027120997065_cont_sun_c4_852_12_alg».proof.Proof.RefNonzero
import proofs.«120006_g55027120997065_cont_sun_c4_852_12_alg».proof.Proof.RefGraph
import proofs.«120006_g55027120997065_cont_sun_c4_852_12_alg».proof.Proof.RefConcat
import proofs.«120006_g55027120997065_cont_sun_c4_852_12_alg».proof.Proof.RefTail
import proofs.«120006_g55027120997065_cont_sun_c4_852_12_alg».proof.Proof.EdgeSpec

noncomputable section

namespace Cert.Proof.Bridge

open Idealize.ShloMosaic Idealize.ShloMosaic.TcCoe Idealize.SL.Sem Idealize.ShloMosaic.StableHlo
open Cert.ReferenceIdeal.Line Cert.ReferenceIdeal.Read Cert.ReferenceIdeal.Tail

-- the final memory is never evaluated, only rewritten by the operations' equations
attribute [local irreducible] Idealize.ShloMosaic.StableHlo.after

/-- The reference's result array, for real argument arrays, is the specification's. -/
theorem reference_value (V : Valuation Cert.ReferenceIdeal.τ Cert.ReferenceIdeal.sig (Elt Ideal)) (hreal : (wargs V).Real) :
    (after (ops (F := Ideal)) V (Proc.devRef .tc Cert.ReferenceIdeal.main_v284) : FVec Ideal Cert.ReferenceIdeal.S4x2 .f32)
      = (wargs V).result := by
  obtain ⟨hR, hC, hew⟩ := Cert.ReferenceIdeal.Graph.graph_arrays V pairTable hreal (rows_pairTable V) (cols_pairTable V)
  rw [result_eq V (Cert.EdgeSpec.graph pairTable (wargs V).params) hreal hR
    (fun e => (Cert.ReferenceIdeal.Graph.graph_lt pairTable (wargs V).params e).1) hC
    (fun e => (Cert.ReferenceIdeal.Graph.graph_lt pairTable (wargs V).params e).2) hew
    (fun v hv => Cert.EdgeSpec.one_le_deg pairTable (wargs V).params v hv)]
  exact funext fun (i : (⟨2, ![4, 2]⟩ : Shape).Idx) =>
    congrArg (fun r : ℝ => (r : EReal)) (Cert.EdgeSpec.out_eq pairTable (wargs V).params (i 0) (i 1))

theorem algebraic : Cert.algebraic_KernelIdeal_ReferenceIdeal := by
  intro m ρ m' ρ' hpre hagree
  have hreal := Cert.Proof.Finite.real_of_pre m hpre
  refine ⟨fun c => (Cert.Proof.KernelValue.kargs m c).result, Cert.Proof.KernelValue.run m ρ hreal, ?_⟩
  refine (θ_run Cert.ReferenceIdeal.defs _ _).mono (fun r h c => ?_) (run_main (F := Ideal) m' ρ')
  have hw : wargs (launchContents m' c) = Cert.Proof.KernelValue.kargs m c := by
    unfold wargs Cert.Proof.KernelValue.kargs
    congr 1
    · exact (arg_kept m' c Cert.ReferenceIdeal.main_arg0 (by decide)).trans (hagree c).1
    · exact (arg_kept m' c Cert.ReferenceIdeal.main_arg1 (by decide)).trans (hagree c).2.1
    · exact (arg_kept m' c Cert.ReferenceIdeal.main_arg2 (by decide)).trans (hagree c).2.2.1
    · exact (arg_kept m' c Cert.ReferenceIdeal.main_arg3 (by decide)).trans (hagree c).2.2.2.1
    · exact (arg_kept m' c Cert.ReferenceIdeal.main_arg4 (by decide)).trans (hagree c).2.2.2.2.1
    · exact (arg_kept m' c Cert.ReferenceIdeal.main_arg5 (by decide)).trans (hagree c).2.2.2.2.2.1
    · exact (arg_kept m' c Cert.ReferenceIdeal.main_arg6 (by decide)).trans (hagree c).2.2.2.2.2.2.1
    · exact (arg_kept m' c Cert.ReferenceIdeal.main_arg7 (by decide)).trans (hagree c).2.2.2.2.2.2.2.1
    · exact (arg_kept m' c Cert.ReferenceIdeal.main_arg8 (by decide)).trans (hagree c).2.2.2.2.2.2.2.2.1
    · exact (arg_kept m' c Cert.ReferenceIdeal.main_arg9 (by decide)).trans (hagree c).2.2.2.2.2.2.2.2.2.1
    · exact (arg_kept m' c Cert.ReferenceIdeal.main_arg10 (by decide)).trans (hagree c).2.2.2.2.2.2.2.2.2.2
  have hrealW : (wargs (launchContents m' c)).Real := hw ▸ hreal c
  refine ⟨?_,
    (h c Cert.ReferenceIdeal.main_arg0).trans (arg_kept m' c Cert.ReferenceIdeal.main_arg0 (by decide)),
    (h c Cert.ReferenceIdeal.main_arg1).trans (arg_kept m' c Cert.ReferenceIdeal.main_arg1 (by decide)),
    (h c Cert.ReferenceIdeal.main_arg2).trans (arg_kept m' c Cert.ReferenceIdeal.main_arg2 (by decide)),
    (h c Cert.ReferenceIdeal.main_arg3).trans (arg_kept m' c Cert.ReferenceIdeal.main_arg3 (by decide)),
    (h c Cert.ReferenceIdeal.main_arg4).trans (arg_kept m' c Cert.ReferenceIdeal.main_arg4 (by decide)),
    (h c Cert.ReferenceIdeal.main_arg5).trans (arg_kept m' c Cert.ReferenceIdeal.main_arg5 (by decide)),
    (h c Cert.ReferenceIdeal.main_arg6).trans (arg_kept m' c Cert.ReferenceIdeal.main_arg6 (by decide)),
    (h c Cert.ReferenceIdeal.main_arg7).trans (arg_kept m' c Cert.ReferenceIdeal.main_arg7 (by decide)),
    (h c Cert.ReferenceIdeal.main_arg8).trans (arg_kept m' c Cert.ReferenceIdeal.main_arg8 (by decide)),
    (h c Cert.ReferenceIdeal.main_arg9).trans (arg_kept m' c Cert.ReferenceIdeal.main_arg9 (by decide)),
    (h c Cert.ReferenceIdeal.main_arg10).trans (arg_kept m' c Cert.ReferenceIdeal.main_arg10 (by decide))⟩
  refine (h c Cert.ReferenceIdeal.main_v284).trans ?_
  rw [reference_value (launchContents m' c) hrealW, hw]

end Cert.Proof.Bridge

end
-- ==== Proof.lean ====
/- The kernel against its reference: one batched graph layer stack on four point clouds of 512 nodes.

   Per batch element, both programs build the complete upper-triangular graph on the 512 nodes (every pair i < j an edge,
   weighted by the euclidean distance, floored at 1e-12 before the square root), add a unit self-loop at every node,
   normalise symmetrically by the in-degree (deg j = 1 + the sum over i < j of dist i j, dinv = deg^(-1/2)), and run three
   layers x ↦ tanh((0.3 x + 0.7 A x) W + b) with A j i = dinv j · dist i j · dinv i for i < j and A j j = dinv j ^ 2, then
   average the 512 rows, and finish with tanh(· W + b) and one more affine map.

   The reference does this edge by edge: it enumerates the pairs i < j (as the nonzero positions of a triangular mask),
   gathers the distances, scatter-adds the weights into the degrees and the scaled rows into the aggregate. The kernel does
   it densely, one grid point per batch element: squared distances as r_i + r_j − 2 ⟨x_i, x_j⟩, the triangular mask by
   comparing two iotas, A as a 512 × 512 matrix, and A x by a three-pass product of bf16 halves, which on the extended reals
   is the plain product once A and x are finite.

   The three frame claims: the kernels' by their generated frame certificates, the reference's by its run as a straight line
   of 451 host operations none of which writes an argument array. The idealization's four ledger entries: narrowing to bf16
   and back is the identity on the extended reals. The value claim: both programs, on real inputs, end at the
   specification's result (the kernel by its dense algebra, the reference through its enumeration of the pairs i < j and
   sums over edges). -/
import proofs.«120006_g55027120997065_cont_sun_c4_852_12_alg».proof.Defs
import proofs.«120006_g55027120997065_cont_sun_c4_852_12_alg».proof.Proof.Gen.Kernel
import proofs.«120006_g55027120997065_cont_sun_c4_852_12_alg».proof.Proof.Gen.KernelIdeal
import proofs.«120006_g55027120997065_cont_sun_c4_852_12_alg».proof.Proof.Gen.ReferenceIdeal
import proofs.«120006_g55027120997065_cont_sun_c4_852_12_alg».proof.Proof.Gen.Pre_finite_inputs
import proofs.«120006_g55027120997065_cont_sun_c4_852_12_alg».proof.Proof.KernelSide
import proofs.«120006_g55027120997065_cont_sun_c4_852_12_alg».proof.Proof.RefRun
import proofs.«120006_g55027120997065_cont_sun_c4_852_12_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    KernelSide.frame_kernel, KernelSide.frame_kernelIdeal, ReferenceSide.frame_referenceIdeal, KernelSide.preserves, Bridge.algebraic⟩

end Cert.Proof

end
